-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v268)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v268) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S10000x30 : Shape := ⟨2, ![10000, 30]⟩
abbrev S10000x10000 : Shape := ⟨2, ![10000, 10000]⟩
abbrev S128x256 : Shape := ⟨2, ![128, 256]⟩
abbrev S256 : Shape := ⟨1, ![256]⟩
abbrev S256x256 : Shape := ⟨2, ![256, 256]⟩
abbrev S4x158x256 : Shape := ⟨3, ![4, 158, 256]⟩
abbrev S4x256 : Shape := ⟨2, ![4, 256]⟩
abbrev S4x256x256 : Shape := ⟨3, ![4, 256, 256]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x30 : S_.BroadcastsInDim S10000x30 (![] : Fin 0 → Fin S10000x30.rank)
  reducesTo_S10000x30_S_d0_1 : S10000x30.ReducesTo [0, 1] S_
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S4x158x256 : S_.BroadcastsInDim S4x158x256 (![] : Fin 0 → Fin S4x158x256.rank)
  reducesTo_S4x158x256_S_d0_1_2 : S4x158x256.ReducesTo [0, 1, 2] S_
  bcast_S_S4x256 : S_.BroadcastsInDim S4x256 (![] : Fin 0 → Fin S4x256.rank)
  reducesTo_S4x256_S_d0_1 : S4x256.ReducesTo [0, 1] S_
  bcast_S_S4x256x256 : S_.BroadcastsInDim S4x256x256 (![] : Fin 0 → Fin S4x256x256.rank)
  reducesTo_S4x256x256_S_d0_1_2 : S4x256x256.ReducesTo [0, 1, 2] S_
  bcast_S_S2x320000 : S_.BroadcastsInDim S2x320000 (![] : Fin 0 → Fin S2x320000.rank)
  reducesTo_S2x320000_S_d0_1 : S2x320000.ReducesTo [0, 1] S_

variable [Facts]

def fn_part5 {F : FTy → Type} [FloatOps F] (main_arg1 : IVec S2x320000 32) (main_v83 : IVec S_ 1) (main_v84 : IVec S2x320000 32) : IVec S_ 1 :=
  let main_v85 : IVec S2x320000 1 := cmpi .sge main_arg1 main_v84
  let main_c_33 : IVec S_ 1 := constantI S_ 1 1#1
  let main_v86 : IVec S_ 1 := (fun x v => Host.reduce IntOp.andi x v reducesTo_S2x320000_S_d0_1 h_S_) main_v85 main_c_33
  let main_v87 : IVec S_ 1 := andi main_v83 main_v86
  let main_c_34 : IVec S_ 32 := constantI S_ 32 10000#32
  let main_v88 : IVec S2x320000 32 := broadcastInDim S2x320000 ![] bcast_S_S2x320000 main_c_34
  let main_v89 : IVec S2x320000 1 := cmpi .slt main_arg1 main_v88
  let main_c_35 : IVec S_ 1 := constantI S_ 1 1#1
  let main_v90 : IVec S_ 1 := (fun x v => Host.reduce IntOp.andi x v reducesTo_S2x320000_S_d0_1 h_S_) main_v89 main_c_35
  let main_v91 : IVec S_ 1 := andi main_v87 main_v90
  main_v91

def fn_part4 {F : FTy → Type} [FloatOps F] (main_arg1 : IVec S2x320000 32) (main_arg15 : FVec F S4x256 .f32) (main_arg16 : FVec F S4x256x256 .f32) (main_arg17 : FVec F S4x256 .f32) (main_v63 : IVec S_ 1) (main_v67 : IVec S_ 1) : IVec S_ 1 :=
  let main_v68 : IVec S_ 1 := andi main_v63 main_v67
  let main_v69 : FVec F S4x256 .f32 := Host.absf main_arg15
  let main_cst_26 : FVec F S_ .f32 := constant S_ .f32 0x7F800000#32
  let main_v70 : FVec F S4x256 .f32 := broadcastInDim S4x256 ![] bcast_S_S4x256 main_cst_26
  let main_v71 : IVec S4x256 1 := cmpf .olt main_v69 main_v70
  let main_c_27 : IVec S_ 1 := constantI S_ 1 1#1
  let main_v72 : IVec S_ 1 := (fun x v => Host.reduce IntOp.andi x v reducesTo_S4x256_S_d0_1 h_S_) main_v71 main_c_27
  let main_v73 : IVec S_ 1 := andi main_v68 main_v72
  let main_v74 : FVec F S4x256x256 .f32 := Host.absf main_arg16
  let main_cst_28 : FVec F S_ .f32 := constant S_ .f32 0x7F800000#32
  let main_v75 : FVec F S4x256x256 .f32 := broadcastInDim S4x256x256 ![] bcast_S_S4x256x256 main_cst_28
  let main_v76 : IVec S4x256x256 1 := cmpf .olt main_v74 main_v75
  let main_c_29 : IVec S_ 1 := constantI S_ 1 1#1
  let main_v77 : IVec S_ 1 := (fun x v => Host.reduce IntOp.andi x v reducesTo_S4x256x256_S_d0_1_2 h_S_) main_v76 main_c_29
  let main_v78 : IVec S_ 1 := andi main_v73 main_v77
  let main_v79 : FVec F S4x256 .f32 := Host.absf main_arg17
  let main_cst_30 : FVec F S_ .f32 := constant S_ .f32 0x7F800000#32
  let main_v80 : FVec F S4x256 .f32 := broadcastInDim S4x256 ![] bcast_S_S4x256 main_cst_30
  let main_v81 : IVec S4x256 1 := cmpf .olt main_v79 main_v80
  let main_c_31 : IVec S_ 1 := constantI S_ 1 1#1
  let main_v82 : IVec S_ 1 := (fun x v => Host.reduce IntOp.andi x v reducesTo_S4x256_S_d0_1 h_S_) main_v81 main_c_31
  let main_v83 : IVec S_ 1 := andi main_v78 main_v82
  let main_c_32 : IVec S_ 32 := constantI S_ 32 0#32
  let main_v84 : IVec S2x320000 32 := broadcastInDim S2x320000 ![] bcast_S_S2x320000 main_c_32
  fn_part5 (F := F) main_arg1 main_v83 main_v84

def fn_part3 {F : FTy → Type} [FloatOps F] (main_arg1 : IVec S2x320000 32) (main_arg12 : FVec F S4x158x256 .f32) (main_arg13 : FVec F S4x256 .f32) (main_arg14 : FVec F S4x256 .f32) (main_arg15 : FVec F S4x256 .f32) (main_arg16 : FVec F S4x256x256 .f32) (main_arg17 : FVec F S4x256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S4x158x256 .f32 := Host.absf main_arg12
  let main_cst_20 : FVec F S_ .f32 := constant S_ .f32 0x7F800000#32
  let main_v55 : FVec F S4x158x256 .f32 := broadcastInDim S4x158x256 ![] bcast_S_S4x158x256 main_cst_20
  let main_v56 : IVec S4x158x256 1 := cmpf .olt main_v54 main_v55
  let main_c_21 : IVec S_ 1 := constantI S_ 1 1#1
  let main_v57 : IVec S_ 1 := (fun x v => Host.reduce IntOp.andi x v reducesTo_S4x158x256_S_d0_1_2 h_S_) main_v56 main_c_21
  let main_v58 : IVec S_ 1 := andi main_v53 main_v57
  let main_v59 : FVec F S4x256 .f32 := Host.absf main_arg13
  let main_cst_22 : FVec F S_ .f32 := constant S_ .f32 0x7F800000#32
  let main_v60 : FVec F S4x256 .f32 := broadcastInDim S4x256 ![] bcast_S_S4x256 main_cst_22
  let main_v61 : IVec S4x256 1 := cmpf .olt main_v59 main_v60
  let main_c_23 : IVec S_ 1 := constantI S_ 1 1#1
  let main_v62 : IVec S_ 1 := (fun x v => Host.reduce IntOp.andi x v reducesTo_S4x256_S_d0_1 h_S_) main_v61 main_c_23
  let main_v63 : IVec S_ 1 := andi main_v58 main_v62
  let main_v64 : FVec F S4x256 .f32 := Host.absf main_arg14
  let main_cst_24 : FVec F S_ .f32 := constant S_ .f32 0x7F800000#32
  let main_v65 : FVec F S4x256 .f32 := broadcastInDim S4x256 ![] bcast_S_S4x256 main_cst_24
  let main_v66 : IVec S4x256 1 := cmpf .olt main_v64 main_v65
  let main_c_25 : IVec S_ 1 := constantI S_ 1 1#1
  let main_v67 : IVec S_ 1 := (fun x v => Host.reduce IntOp.andi x v reducesTo_S4x256_S_d0_1 h_S_) main_v66 main_c_25
  fn_part4 (F := F) main_arg1 main_arg15 main_arg16 main_arg17 main_v63 main_v67

def fn_part2 {F : FTy → Type} [FloatOps F] (main_arg1 : IVec S2x320000 32) (main_arg8 : FVec F S256x256 .f32) (main_arg9 : FVec F S256 .f32) (main_arg10 : FVec F S256x256 .f32) (main_arg11 : FVec F S256 .f32) (main_arg12 : FVec F S4x158x256 .f32) (main_arg13 : FVec F S4x256 .f32) (main_arg14 : FVec F S4x256 .f32) (main_arg15 : FVec F S4x256 .f32) (main_arg16 : FVec F S4x256x256 .f32) (main_arg17 : FVec F S4x256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg1 main_arg12 main_arg13 main_arg14 main_arg15 main_arg16 main_arg17 main_v48 main_v49 main_v50

def fn_part1 {F : FTy → Type} [FloatOps F] (main_arg1 : IVec S2x320000 32) (main_arg5 : FVec F S10000x10000 .f32) (main_arg6 : FVec F S128x256 .f32) (main_arg7 : FVec F S256 .f32) (main_arg8 : FVec F S256x256 .f32) (main_arg9 : FVec F S256 .f32) (main_arg10 : FVec F S256x256 .f32) (main_arg11 : FVec F S256 .f32) (main_arg12 : FVec F S4x158x256 .f32) (main_arg13 : FVec F S4x256 .f32) (main_arg14 : FVec F S4x256 .f32) (main_arg15 : FVec F S4x256 .f32) (main_arg16 : FVec F S4x256x256 .f32) (main_arg17 : FVec F S4x256 .f32) (main_v13 : IVec S_ 1) (main_v16 : IVec S10000x10000 1) : IVec S_ 1 :=
  let main_c_5 : IVec S_ 1 := constantI S_ 1 1#1
  let main_v17 : IVec S_ 1 := (fun x v => Host.reduce IntOp.andi x v reducesTo_S10000x10000_S_d0_1 h_S_) main_v16 main_c_5
  let main_v18 : IVec S_ 1 := andi main_v13 main_v17
  let main_v19 : FVec F S10000x10000 .f32 := Host.absf main_arg5
  let main_cst_6 : FVec F S_ .f32 := constant S_ .f32 0x7F800000#32
  let main_v20 : FVec F S10000x10000 .f32 := broadcastInDim S10000x10000 ![] bcast_S_S10000x10000 main_cst_6
  let main_v21 : IVec S10000x10000 1 := cmpf .olt main_v19 main_v20
  let main_c_7 : IVec S_ 1 := constantI S_ 1 1#1
  let main_v22 : IVec S_ 1 := (fun x v => Host.reduce IntOp.andi x v reducesTo_S10000x10000_S_d0_1 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_v33

def fn {F : FTy → Type} [FloatOps F] (main_arg0 : FVec F S10000x128 .f32) (main_arg1 : IVec S2x320000 32) (main_arg2 : FVec F S10000x30 .f32) (main_arg3 : FVec F S10000x10000 .f32) (main_arg4 : FVec F S10000x10000 .f32) (main_arg5 : FVec F S10000x10000 .f32) (main_arg6 : FVec F S128x256 .f32) (main_arg7 : FVec F S256 .f32) (main_arg8 : FVec F S256x256 .f32) (main_arg9 : FVec F S256 .f32) (main_arg10 : FVec F S256x256 .f32) (main_arg11 : FVec F S256 .f32) (main_arg12 : FVec F S4x158x256 .f32) (main_arg13 : FVec F S4x256 .f32) (main_arg14 : FVec F S4x256 .f32) (main_arg15 : FVec F S4x256 .f32) (main_arg16 : FVec F S4x256x256 .f32) (main_arg17 : FVec F S4x256 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x30 .f32 := Host.absf main_arg2
  let main_cst_0 : FVec F S_ .f32 := constant S_ .f32 0x7F800000#32
  let main_v5 : FVec F S10000x30 .f32 := broadcastInDim S10000x30 ![] bcast_S_S10000x30 main_cst_0
  let main_v6 : IVec S10000x30 1 := cmpf .olt main_v4 main_v5
  let main_c_1 : IVec S_ 1 := constantI S_ 1 1#1
  let main_v7 : IVec S_ 1 := (fun x v => Host.reduce IntOp.andi x v reducesTo_S10000x30_S_d0_1 h_S_) main_v6 main_c_1
  let main_v8 : IVec S_ 1 := andi main_v3 main_v7
  let main_v9 : FVec F S10000x10000 .f32 := Host.absf main_arg3
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S10000x10000 .f32 := Host.absf main_arg4
  let main_cst_4 : FVec F S_ .f32 := constant S_ .f32 0x7F800000#32
  let main_v15 : FVec F S10000x10000 .f32 := broadcastInDim S10000x10000 ![] bcast_S_S10000x10000 main_cst_4
  let main_v16 : IVec S10000x10000 1 := cmpf .olt main_v14 main_v15
  fn_part1 (F := F) main_arg1 main_arg5 main_arg6 main_arg7 main_arg8 main_arg9 main_arg10 main_arg11 main_arg12 main_arg13 main_arg14 main_arg15 main_arg16 main_arg17 main_v13 main_v16
-- ==== Kernel.lean ====
abbrev S10000x128 : Shape := ⟨2, ![10000, 128]⟩
abbrev S2x320000 : Shape := ⟨2, ![2, 320000]⟩
abbrev S10000x30 : Shape := ⟨2, ![10000, 30]⟩
abbrev S10000x10000 : Shape := ⟨2, ![10000, 10000]⟩
abbrev S128x256 : Shape := ⟨2, ![128, 256]⟩
abbrev S256 : Shape := ⟨1, ![256]⟩
abbrev S256x256 : Shape := ⟨2, ![256, 256]⟩
abbrev S4x158x256 : Shape := ⟨3, ![4, 158, 256]⟩
abbrev S4x256 : Shape := ⟨2, ![4, 256]⟩
abbrev S4x256x256 : Shape := ⟨3, ![4, 256, 256]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S330000x2 : Shape := ⟨2, ![330000, 2]⟩
abbrev S10000x256 : Shape := ⟨2, ![10000, 256]⟩
abbrev S200x10000 : Shape := ⟨2, ![200, 10000]⟩
abbrev S200x256 : Shape := ⟨2, ![200, 256]⟩
abbrev S1x256 : Shape := ⟨2, ![1, 256]⟩
abbrev S10000x158 : Shape := ⟨2, ![10000, 158]⟩
abbrev S1x158x256 : Shape := ⟨3, ![1, 158, 256]⟩
abbrev S158x256 : Shape := ⟨2, ![158, 256]⟩
abbrev S1x256x256 : Shape := ⟨3, ![1, 256, 256]⟩
abbrev S10000x512 : Shape := ⟨2, ![10000, 512]⟩

abbrev nBuf : Space → Nat
  | .hbm => 344
  | .vmem => 30
  | .smem => 0
  | _ => 0

abbrev hbmTy0_0 (i : Nat) : BufTy := match i % 128 with
  | 0 => ⟨S10000x128, .f32⟩
  | 1 => ⟨S2x320000, .i32⟩
  | 2 => ⟨S10000x30, .f32⟩
  | 3 => ⟨S10000x10000, .f32⟩
  | 4 => ⟨S10000x10000, .f32⟩
  | 5 => ⟨S10000x10000, .f32⟩
  | 6 => ⟨S128x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S4x158x256, .f32⟩
  | 13 => ⟨S4x256, .f32⟩
  | 14 => ⟨S4x256, .f32⟩
  | 15 => ⟨S4x256, .f32⟩
  | 16 => ⟨S4x256x256, .f32⟩
  | 17 => ⟨S4x256, .f32⟩
  | 18 => ⟨S10000, .i32⟩
  | 19 => ⟨S1x320000, .i32⟩
  | 20 => ⟨S320000, .i32⟩
  | 21 => ⟨S330000, .i32⟩
  | 22 => ⟨S1x320000, .i32⟩
  | 23 => ⟨S320000, .i32⟩
  | 24 => ⟨S330000, .i32⟩
  | 25 => ⟨S_, .f32⟩
  | 26 => ⟨S330000, .f32⟩
  | 27 => ⟨S_, .f32⟩
  | 28 => ⟨S10000, .f32⟩
  | 29 => ⟨S330000x1, .i32⟩
  | 30 => ⟨S10000, .f32⟩
  | 31 => ⟨S_, .f32⟩
  | 32 => ⟨S10000, .f32⟩
  | 33 => ⟨S10000, .i1⟩
  | 34 => ⟨S_, .f32⟩
  | 35 => ⟨S_, .f32⟩
  | 36 => ⟨S10000, .f32⟩
  | 37 => ⟨S10000, .f32⟩
  | 38 => ⟨S_, .f32⟩
  | 39 => ⟨S10000, .f32⟩
  | 40 => ⟨S10000, .i1⟩
  | 41 => ⟨S_, .f32⟩
  | 42 => ⟨S10000, .f32⟩
  | 43 => ⟨S10000, .f32⟩
  | 44 => ⟨S_, .f32⟩
  | 45 => ⟨S_, .f32⟩
  | 46 => ⟨S10000, .f32⟩
  | 47 => ⟨S10000, .f32⟩
  | 48 => ⟨S_, .i32⟩
  | 49 => ⟨S330000, .i32⟩
  | 50 => ⟨S330000, .i1⟩
  | 51 => ⟨S_, .i32⟩
  | 52 => ⟨S330000, .i32⟩
  | 53 => ⟨S330000, .i32⟩
  | 54 => ⟨S330000, .i32⟩
  | 55 => ⟨S330000x1, .i32⟩
  | 56 => ⟨S330000, .f32⟩
  | 57 => ⟨S_, .i32⟩
  | 58 => ⟨S330000, .i32⟩
  | 59 => ⟨S330000, .i1⟩
  | 60 => ⟨S_, .i32⟩
  | 61 => ⟨S330000, .i32⟩
  | 62 => ⟨S330000, .i32⟩
  | 63 => ⟨S330000, .i32⟩
  | 64 => ⟨S330000x1, .i32⟩
  | 65 => ⟨S330000, .f32⟩
  | 66 => ⟨S330000, .f32⟩
  | 67 => ⟨S_, .f32⟩
  | 68 => ⟨S10000x10000, .f32⟩
  | 69 => ⟨S_, .i32⟩
  | 70 => ⟨S330000, .i32⟩
  | 71 => ⟨S330000, .i1⟩
  | 72 => ⟨S_, .i32⟩
  | 73 => ⟨S330000, .i32⟩
  | 74 => ⟨S330000, .i32⟩
  | 75 => ⟨S330000, .i32⟩
  | 76 => ⟨S_, .i32⟩
  | 77 => ⟨S330000, .i32⟩
  | 78 => ⟨S330000, .i1⟩
  | 79 => ⟨S_, .i32⟩
  | 80 => ⟨S330000, .i32⟩
  | 81 => ⟨S330000, .i32⟩
  | 82 => ⟨S330000, .i32⟩
  | 83 => ⟨S330000x1, .i32⟩
  | 84 => ⟨S330000x1, .i32⟩
  | 85 => ⟨S330000x2, .i32⟩
  | 86 => ⟨S10000x10000, .f32⟩
  | 87 => ⟨S10000x256, .f32⟩
  | 88 => ⟨S10000x256, .bf16⟩
  | 89 => ⟨S10000x256, .f32⟩
  | 90 => ⟨S1x256, .f32⟩
  | 91 => ⟨S10000x256, .f32⟩
  | 92 => ⟨S10000x256, .f32⟩
  | 93 => ⟨S_, .f32⟩
  | 94 => ⟨S10000x256, .f32⟩
  | 95 => ⟨S10000x256, .f32⟩
  | 96 => ⟨S10000x256, .f32⟩
  | 97 => ⟨S10000x256, .bf16⟩
  | 98 => ⟨S10000x256, .f32⟩
  | 99 => ⟨S1x256, .f32⟩
  | 100 => ⟨S10000x256, .f32⟩
  | 101 => ⟨S10000x256, .f32⟩
  | 102 => ⟨S_, .f32⟩
  | 103 => ⟨S10000x256, .f32⟩
  | 104 => ⟨S10000x256, .f32⟩
  | 105 => ⟨S10000x256, .f32⟩
  | 106 => ⟨S10000x256, .bf16⟩
  | 107 => ⟨S10000x256, .f32⟩
  | 108 => ⟨S1x256, .f32⟩
  | 109 => ⟨S10000x256, .f32⟩
  | 110 => ⟨S10000x256, .f32⟩
  | 111 => ⟨S_, .f32⟩
  | 112 => ⟨S10000x256, .f32⟩
  | 113 => ⟨S10000x256, .f32⟩
  | 114 => ⟨S10000x158, .f32⟩
  | 115 => ⟨S_, .i32⟩
  | 116 => ⟨S_, .f32⟩
  | 117 => ⟨S10000x256, .f32⟩
  | 118 => ⟨S10000x256, .bf16⟩
  | 119 => ⟨S10000x256, .f32⟩
  | 120 => ⟨S10000x158, .f32⟩
  | 121 => ⟨S10000x256, .f32⟩
  | 122 => ⟨S10000x158, .f32⟩
  | 123 => ⟨S10000x256, .f32⟩
  | 124 => ⟨S10000x158, .f32⟩
  | 125 => ⟨S_, .f32⟩
  | 126 => ⟨S10000x256, .f32⟩
  | 127 => ⟨S1x158x256, .f32⟩
  | _ => ⟨S10000x128, .f32⟩

abbrev hbmTy0_1 (i : Nat) : BufTy := match i % 128 with
  | 0 => ⟨S158x256, .f32⟩
  | 1 => ⟨S1x256, .f32⟩
  | 2 => ⟨S256, .f32⟩
  | 3 => ⟨S1x256, .f32⟩
  | 4 => ⟨S256, .f32⟩
  | 5 => ⟨S1x256, .f32⟩
  | 6 => ⟨S256, .f32⟩
  | 7 => ⟨S1x256x256, .f32⟩
  | 8 => ⟨S256x256, .f32⟩
  | 9 => ⟨S1x256, .f32⟩
  | 10 => ⟨S256, .f32⟩
  | 11 => ⟨S10000x256, .f32⟩
  | 12 => ⟨S1x256, .f32⟩
  | 13 => ⟨S10000x256, .f32⟩
  | 14 => ⟨S10000x256, .f32⟩
  | 15 => ⟨S_, .f32⟩
  | 16 => ⟨S256, .f32⟩
  | 17 => ⟨S_, .f32⟩
  | 18 => ⟨S256, .f32⟩
  | 19 => ⟨S256, .f32⟩
  | 20 => ⟨S1x256, .f32⟩
  | 21 => ⟨S10000x256, .f32⟩
  | 22 => ⟨S10000x256, .f32⟩
  | 23 => ⟨S10000x256, .f32⟩
  | 24 => ⟨S_, .f32⟩
  | 25 => ⟨S256, .f32⟩
  | 26 => ⟨S_, .f32⟩
  | 27 => ⟨S256, .f32⟩
  | 28 => ⟨S256, .f32⟩
  | 29 => ⟨S1x256, .f32⟩
  | 30 => ⟨S10000x256, .f32⟩
  | 31 => ⟨S10000x256, .f32⟩
  | 32 => ⟨S1x256, .f32⟩
  | 33 => ⟨S10000x256, .f32⟩
  | 34 => ⟨S10000x256, .f32⟩
  | 35 => ⟨S_, .f32⟩
  | 36 => ⟨S256, .f32⟩
  | 37 => ⟨S256, .f32⟩
  | 38 => ⟨S256, .f32⟩
  | 39 => ⟨S1x256, .f32⟩
  | 40 => ⟨S10000x256, .f32⟩
  | 41 => ⟨S10000x256, .f32⟩
  | 42 => ⟨S1x256, .f32⟩
  | 43 => ⟨S10000x256, .f32⟩
  | 44 => ⟨S10000x256, .f32⟩
  | 45 => ⟨S_, .f32⟩
  | 46 => ⟨S10000x256, .f32⟩
  | 47 => ⟨S10000x256, .f32⟩
  | 48 => ⟨S10000x256, .f32⟩
  | 49 => ⟨S1x256, .f32⟩
  | 50 => ⟨S10000x256, .f32⟩
  | 51 => ⟨S10000x256, .f32⟩
  | 52 => ⟨S10000x256, .f32⟩
  | 53 => ⟨S1x158x256, .f32⟩
  | 54 => ⟨S158x256, .f32⟩
  | 55 => ⟨S1x256, .f32⟩
  | 56 => ⟨S256, .f32⟩
  | 57 => ⟨S1x256, .f32⟩
  | 58 => ⟨S256, .f32⟩
  | 59 => ⟨S1x256, .f32⟩
  | 60 => ⟨S256, .f32⟩
  | 61 => ⟨S1x256x256, .f32⟩
  | 62 => ⟨S256x256, .f32⟩
  | 63 => ⟨S1x256, .f32⟩
  | 64 => ⟨S256, .f32⟩
  | 65 => ⟨S10000x256, .f32⟩
  | 66 => ⟨S1x256, .f32⟩
  | 67 => ⟨S10000x256, .f32⟩
  | 68 => ⟨S10000x256, .f32⟩
  | 69 => ⟨S_, .f32⟩
  | 70 => ⟨S256, .f32⟩
  | 71 => ⟨S_, .f32⟩
  | 72 => ⟨S256, .f32⟩
  | 73 => ⟨S256, .f32⟩
  | 74 => ⟨S1x256, .f32⟩
  | 75 => ⟨S10000x256, .f32⟩
  | 76 => ⟨S10000x256, .f32⟩
  | 77 => ⟨S10000x256, .f32⟩
  | 78 => ⟨S_, .f32⟩
  | 79 => ⟨S256, .f32⟩
  | 80 => ⟨S_, .f32⟩
  | 81 => ⟨S256, .f32⟩
  | 82 => ⟨S256, .f32⟩
  | 83 => ⟨S1x256, .f32⟩
  | 84 => ⟨S10000x256, .f32⟩
  | 85 => ⟨S10000x256, .f32⟩
  | 86 => ⟨S1x256, .f32⟩
  | 87 => ⟨S10000x256, .f32⟩
  | 88 => ⟨S10000x256, .f32⟩
  | 89 => ⟨S_, .f32⟩
  | 90 => ⟨S256, .f32⟩
  | 91 => ⟨S256, .f32⟩
  | 92 => ⟨S256, .f32⟩
  | 93 => ⟨S1x256, .f32⟩
  | 94 => ⟨S10000x256, .f32⟩
  | 95 => ⟨S10000x256, .f32⟩
  | 96 => ⟨S1x256, .f32⟩
  | 97 => ⟨S10000x256, .f32⟩
  | 98 => ⟨S10000x256, .f32⟩
  | 99 => ⟨S_, .f32⟩
  | 100 => ⟨S10000x256, .f32⟩
  | 101 => ⟨S10000x256, .f32⟩
  | 102 => ⟨S10000x256, .f32⟩
  | 103 => ⟨S1x256, .f32⟩
  | 104 => ⟨S10000x256, .f32⟩
  | 105 => ⟨S10000x256, .f32⟩
  | 106 => ⟨S10000x256, .f32⟩
  | 107 => ⟨S1x158x256, .f32⟩
  | 108 => ⟨S158x256, .f32⟩
  | 109 => ⟨S1x256, .f32⟩
  | 110 => ⟨S256, .f32⟩
  | 111 => ⟨S1x256, .f32⟩
  | 112 => ⟨S256, .f32⟩
  | 113 => ⟨S1x256, .f32⟩
  | 114 => ⟨S256, .f32⟩
  | 115 => ⟨S1x256x256, .f32⟩
  | 116 => ⟨S256x256, .f32⟩
  | 117 => ⟨S1x256, .f32⟩
  | 118 => ⟨S256, .f32⟩
  | 119 => ⟨S10000x256, .f32⟩
  | 120 => ⟨S1x256, .f32⟩
  | 121 => ⟨S10000x256, .f32⟩
  | 122 => ⟨S10000x256, .f32⟩
  | 123 => ⟨S_, .f32⟩
  | 124 => ⟨S256, .f32⟩
  | 125 => ⟨S_, .f32⟩
  | 126 => ⟨S256, .f32⟩
  | 127 => ⟨S256, .f32⟩
  | _ => ⟨S10000x128, .f32⟩

abbrev hbmTy0_2 (i : Nat) : BufTy := match i % 128 with
  | 0 => ⟨S1x256, .f32⟩
  | 1 => ⟨S10000x256, .f32⟩
  | 2 => ⟨S10000x256, .f32⟩
  | 3 => ⟨S10000x256, .f32⟩
  | 4 => ⟨S_, .f32⟩
  | 5 => ⟨S256, .f32⟩
  | 6 => ⟨S_, .f32⟩
  | 7 => ⟨S256, .f32⟩
  | 8 => ⟨S256, .f32⟩
  | 9 => ⟨S1x256, .f32⟩
  | 10 => ⟨S10000x256, .f32⟩
  | 11 => ⟨S10000x256, .f32⟩
  | 12 => ⟨S1x256, .f32⟩
  | 13 => ⟨S10000x256, .f32⟩
  | 14 => ⟨S10000x256, .f32⟩
  | 15 => ⟨S_, .f32⟩
  | 16 => ⟨S256, .f32⟩
  | 17 => ⟨S256, .f32⟩
  | 18 => ⟨S256, .f32⟩
  | 19 => ⟨S1x256, .f32⟩
  | 20 => ⟨S10000x256, .f32⟩
  | 21 => ⟨S10000x256, .f32⟩
  | 22 => ⟨S1x256, .f32⟩
  | 23 => ⟨S10000x256, .f32⟩
  | 24 => ⟨S10000x256, .f32⟩
  | 25 => ⟨S_, .f32⟩
  | 26 => ⟨S10000x256, .f32⟩
  | 27 => ⟨S10000x256, .f32⟩
  | 28 => ⟨S10000x256, .f32⟩
  | 29 => ⟨S1x256, .f32⟩
  | 30 => ⟨S10000x256, .f32⟩
  | 31 => ⟨S10000x256, .f32⟩
  | 32 => ⟨S10000x256, .f32⟩
  | 33 => ⟨S1x158x256, .f32⟩
  | 34 => ⟨S158x256, .f32⟩
  | 35 => ⟨S1x256, .f32⟩
  | 36 => ⟨S256, .f32⟩
  | 37 => ⟨S1x256, .f32⟩
  | 38 => ⟨S256, .f32⟩
  | 39 => ⟨S1x256, .f32⟩
  | 40 => ⟨S256, .f32⟩
  | 41 => ⟨S1x256x256, .f32⟩
  | 42 => ⟨S256x256, .f32⟩
  | 43 => ⟨S1x256, .f32⟩
  | 44 => ⟨S256, .f32⟩
  | 45 => ⟨S10000x256, .f32⟩
  | 46 => ⟨S1x256, .f32⟩
  | 47 => ⟨S10000x256, .f32⟩
  | 48 => ⟨S10000x256, .f32⟩
  | 49 => ⟨S_, .f32⟩
  | 50 => ⟨S256, .f32⟩
  | 51 => ⟨S_, .f32⟩
  | 52 => ⟨S256, .f32⟩
  | 53 => ⟨S256, .f32⟩
  | 54 => ⟨S1x256, .f32⟩
  | 55 => ⟨S10000x256, .f32⟩
  | 56 => ⟨S10000x256, .f32⟩
  | 57 => ⟨S10000x256, .f32⟩
  | 58 => ⟨S_, .f32⟩
  | 59 => ⟨S256, .f32⟩
  | 60 => ⟨S_, .f32⟩
  | 61 => ⟨S256, .f32⟩
  | 62 => ⟨S256, .f32⟩
  | 63 => ⟨S1x256, .f32⟩
  | 64 => ⟨S10000x256, .f32⟩
  | 65 => ⟨S10000x256, .f32⟩
  | 66 => ⟨S1x256, .f32⟩
  | 67 => ⟨S10000x256, .f32⟩
  | 68 => ⟨S10000x256, .f32⟩
  | 69 => ⟨S_, .f32⟩
  | 70 => ⟨S256, .f32⟩
  | 71 => ⟨S256, .f32⟩
  | 72 => ⟨S256, .f32⟩
  | 73 => ⟨S1x256, .f32⟩
  | 74 => ⟨S10000x256, .f32⟩
  | 75 => ⟨S10000x256, .f32⟩
  | 76 => ⟨S1x256, .f32⟩
  | 77 => ⟨S10000x256, .f32⟩
  | 78 => ⟨S10000x256, .f32⟩
  | 79 => ⟨S_, .f32⟩
  | 80 => ⟨S10000x256, .f32⟩
  | 81 => ⟨S10000x256, .f32⟩
  | 82 => ⟨S10000x256, .f32⟩
  | 83 => ⟨S1x256, .f32⟩
  | 84 => ⟨S10000x256, .f32⟩
  | 85 => ⟨S10000x256, .f32⟩
  | 86 => ⟨S10000x256, .f32⟩
  | 87 => ⟨S10000x512, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | .local _ .vmem, ⟨0, _⟩ => ⟨S200x10000, .f32⟩
  | .local _ .vmem, ⟨1, _⟩ => ⟨S200x10000, .f32⟩
  | .local _ .vmem, ⟨2, _⟩ => ⟨S10000x256, .bf16⟩
  | .local _ .vmem, ⟨3, _⟩ => ⟨S200x256, .f32⟩
  | .local _ .vmem, ⟨4, _⟩ => ⟨S200x256, .f32⟩
  | .local _ .vmem, ⟨5, _⟩ => ⟨S200x10000, .f32⟩
  | .local _ .vmem, ⟨6, _⟩ => ⟨S200x10000, .f32⟩
  | .local _ .vmem, ⟨7, _⟩ => ⟨S10000x256, .bf16⟩
  | .local _ .vmem, ⟨8, _⟩ => ⟨S200x256, .f32⟩
  | .local _ .vmem, ⟨9, _⟩ => ⟨S200x256, .f32⟩
  | .local _ .vmem, ⟨10, _⟩ => ⟨S200x10000, .f32⟩
  | .local _ .vmem, ⟨11, _⟩ => ⟨S200x10000, .f32⟩
  | .local _ .vmem, ⟨12, _⟩ => ⟨S10000x256, .bf16⟩
  | .local _ .vmem, ⟨13, _⟩ => ⟨S200x256, .f32⟩
  | .local _ .vmem, ⟨14, _⟩ => ⟨S200x256, .f32⟩
  | .local _ .vmem, ⟨15, _⟩ => ⟨S200x10000, .f32⟩
  | .local _ .vmem, ⟨16, _⟩ => ⟨S200x10000, .f32⟩
  | .local _ .vmem, ⟨17, _⟩ => ⟨S10000x256, .bf16⟩
  | .local _ .vmem, ⟨18, _⟩ => ⟨S200x256, .f32⟩
  | .local _ .vmem, ⟨19, _⟩ => ⟨S200x256, .f32⟩
  | .local _ .vmem, ⟨20, _⟩ => ⟨S200x10000, .f32⟩
  | .local _ .vmem, ⟨21, _⟩ => ⟨S200x10000, .f32⟩
  | .local _ .vmem, ⟨22, _⟩ => ⟨S10000x256, .bf16⟩
  | .local _ .vmem, ⟨23, _⟩ => ⟨S200x256, .f32⟩
  | .local _ .vmem, ⟨24, _⟩ => ⟨S200x256, .f32⟩
  | .local _ .vmem, ⟨25, _⟩ => ⟨S200x10000, .f32⟩
  | .local _ .vmem, ⟨26, _⟩ => ⟨S200x10000, .f32⟩
  | .local _ .vmem, ⟨27, _⟩ => ⟨S10000x256, .bf16⟩
  | .local _ .vmem, ⟨28, _⟩ => ⟨S200x256, .f32⟩
  | .local _ .vmem, ⟨29, _⟩ => ⟨S200x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v13 : Ref sig .tc := ⟨.hbm, 37, rfl⟩
abbrev main_cst_3 : Ref sig .tc := ⟨.hbm, 38, rfl⟩
abbrev main_v14 : Ref sig .tc := ⟨.hbm, 39, rfl⟩
abbrev main_v15 : Ref sig .tc := ⟨.hbm, 40, rfl⟩
abbrev main_cst_4 : Ref sig .tc := ⟨.hbm, 41, rfl⟩
abbrev main_v16 : Ref sig .tc := ⟨.hbm, 42, rfl⟩
abbrev main_v17 : Ref sig .tc := ⟨.hbm, 43, rfl⟩
abbrev main_cst_5 : Ref sig .tc := ⟨.hbm, 44, rfl⟩
abbrev main_call1_v0 : Ref sig .tc := ⟨.hbm, 45, rfl⟩
abbrev main_call1_v1 : Ref sig .tc := ⟨.hbm, 46, rfl⟩
abbrev main_v18 : Ref sig .tc := ⟨.hbm, 47, rfl⟩
abbrev main_c : Ref sig .tc := ⟨.hbm, 48, rfl⟩
abbrev main_v19 : Ref sig .tc := ⟨.hbm, 49, rfl⟩
abbrev main_v20 : Ref sig .tc := ⟨.hbm, 50, rfl⟩
abbrev main_c_6 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_c_7 : Ref sig .tc := ⟨.hbm, 57, rfl⟩
abbrev main_v26 : Ref sig .tc := ⟨.hbm, 58, rfl⟩
abbrev main_v27 : Ref sig .tc := ⟨.hbm, 59, rfl⟩
abbrev main_c_8 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_9 : Ref sig .tc := ⟨.hbm, 67, rfl⟩
abbrev main_v34 : Ref sig .tc := ⟨.hbm, 68, rfl⟩
abbrev main_c_10 : Ref sig .tc := ⟨.hbm, 69, rfl⟩
abbrev main_v35 : Ref sig .tc := ⟨.hbm, 70, rfl⟩
abbrev main_v36 : Ref sig .tc := ⟨.hbm, 71, rfl⟩
abbrev main_c_11 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_c_12 : Ref sig .tc := ⟨.hbm, 76, rfl⟩
abbrev main_v40 : Ref sig .tc := ⟨.hbm, 77, rfl⟩
abbrev main_v41 : Ref sig .tc := ⟨.hbm, 78, rfl⟩
abbrev main_c_13 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_call2_cst : Ref sig .tc := ⟨.hbm, 93, rfl⟩
abbrev main_call2_v0 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_call3_cst : Ref sig .tc := ⟨.hbm, 102, rfl⟩
abbrev main_call3_v0 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_call4_cst : Ref sig .tc := ⟨.hbm, 111, rfl⟩
abbrev main_call4_v0 : Ref sig .tc := ⟨.hbm, 112, rfl⟩
abbrev main_v69 : Ref sig .tc := ⟨.hbm, 113, rfl⟩
abbrev main_v70 : Ref sig .tc := ⟨.hbm, 114, rfl⟩
abbrev main_c_14 : Ref sig .tc := ⟨.hbm, 115, rfl⟩
abbrev main_call5_v0 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_15 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_16 : Ref sig .tc := ⟨.hbm, 143, rfl⟩
abbrev main_v96 : Ref sig .tc := ⟨.hbm, 144, rfl⟩
abbrev main_cst_17 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_cst_18 : Ref sig .tc := ⟨.hbm, 152, rfl⟩
abbrev main_v103 : Ref sig .tc := ⟨.hbm, 153, rfl⟩
abbrev main_cst_19 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_20 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_call6_cst : Ref sig .tc := ⟨.hbm, 173, rfl⟩
abbrev main_call6_v0 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_cst_21 : Ref sig .tc := ⟨.hbm, 197, rfl⟩
abbrev main_v143 : Ref sig .tc := ⟨.hbm, 198, rfl⟩
abbrev main_cst_22 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_cst_23 : Ref sig .tc := ⟨.hbm, 206, rfl⟩
abbrev main_v150 : Ref sig .tc := ⟨.hbm, 207, rfl⟩
abbrev main_cst_24 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_cst_25 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_call7_cst : Ref sig .tc := ⟨.hbm, 227, rfl⟩
abbrev main_call7_v0 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_cst_26 : Ref sig .tc := ⟨.hbm, 251, rfl⟩
abbrev main_v190 : Ref sig .tc := ⟨.hbm, 252, rfl⟩
abbrev main_cst_27 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_cst_28 : Ref sig .tc := ⟨.hbm, 260, rfl⟩
abbrev main_v197 : Ref sig .tc := ⟨.hbm, 261, rfl⟩
abbrev main_cst_29 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_cst_30 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_call8_cst : Ref sig .tc := ⟨.hbm, 281, rfl⟩
abbrev main_call8_v0 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_cst_31 : Ref sig .tc := ⟨.hbm, 305, rfl⟩
abbrev main_v237 : Ref sig .tc := ⟨.hbm, 306, rfl⟩
abbrev main_cst_32 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_cst_33 : Ref sig .tc := ⟨.hbm, 314, rfl⟩
abbrev main_v244 : Ref sig .tc := ⟨.hbm, 315, rfl⟩
abbrev main_cst_34 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_v250 : Ref sig .tc := ⟨.hbm, 322, rfl⟩
abbrev main_v251 : Ref sig .tc := ⟨.hbm, 323, rfl⟩
abbrev main_v252 : Ref sig .tc := ⟨.hbm, 324, rfl⟩
abbrev main_cst_35 : Ref sig .tc := ⟨.hbm, 325, rfl⟩
abbrev main_v253 : Ref sig .tc := ⟨.hbm, 326, rfl⟩
abbrev main_v254 : Ref sig .tc := ⟨.hbm, 327, rfl⟩
abbrev main_v255 : Ref sig .tc := ⟨.hbm, 328, rfl⟩
abbrev main_v256 : Ref sig .tc := ⟨.hbm, 329, rfl⟩
abbrev main_v257 : Ref sig .tc := ⟨.hbm, 330, rfl⟩
abbrev main_v258 : Ref sig .tc := ⟨.hbm, 331, rfl⟩
abbrev main_v259 : Ref sig .tc := ⟨.hbm, 332, rfl⟩
abbrev main_v260 : Ref sig .tc := ⟨.hbm, 333, rfl⟩
abbrev main_v261 : Ref sig .tc := ⟨.hbm, 334, rfl⟩
abbrev main_call9_cst : Ref sig .tc := ⟨.hbm, 335, rfl⟩
abbrev main_call9_v0 : Ref sig .tc := ⟨.hbm, 336, rfl⟩
abbrev main_v262 : Ref sig .tc := ⟨.hbm, 337, rfl⟩
abbrev main_v263 : Ref sig .tc := ⟨.hbm, 338, rfl⟩
abbrev main_v264 : Ref sig .tc := ⟨.hbm, 339, rfl⟩
abbrev main_v265 : Ref sig .tc := ⟨.hbm, 340, rfl⟩
abbrev main_v266 : Ref sig .tc := ⟨.hbm, 341, rfl⟩
abbrev main_v267 : Ref sig .tc := ⟨.hbm, 342, rfl⟩
abbrev main_v268 : Ref sig .tc := ⟨.hbm, 343, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S200x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S200x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S200x10000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S200x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S200x10000 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S200x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S_S10000x10000 : S_.BroadcastsInDim S10000x10000 (![] : Fin 0 → Fin S10000x10000.rank)
  concatenates_S330000x1_S330000x1_S330000x2_d1 : Shape.Concatenates [S330000x1, S330000x1] S330000x2 1
  bitsLt_bf16_f32 : FTy.bits .bf16 < FTy.bits .f32
  inb_S200x10000_S200x10000_0_0 : ∀ a, (![0, 0] : Fin 2 → Nat) a + S200x10000.size a ≤ S200x10000.size a
  h_S200x10000 : 0 < S200x10000.numel
  shapeCasts_S200x10000_S200x10000 : S200x10000.ShapeCasts S200x10000
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S200x256_S200x256_0_0 : ∀ a, (![0, 0] : Fin 2 → Nat) a + S200x256.size a ≤ S200x256.size a
  h_S200x256 : 0 < S200x256.numel
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  concatenates_S10000x128_S10000x30_S10000x158_d1 : Shape.Concatenates [S10000x128, S10000x30] S10000x158 1
  pads_S10000x158_S10000x256_000_0980 : S10000x158.Pads (![0, 0] : Fin 2 → Nat) ![0, 98] ![0, 0] S10000x256
  h_S_ : 0 < S_.numel
  slices_S10000x256_S10000x158_0_0 : S10000x256.Slices ![0, 0] S10000x158
  slices_S4x158x256_S1x158x256_0_0_0 : S4x158x256.Slices ![0, 0, 0] S1x158x256
  shapeCasts_S1x158x256_S158x256 : S1x158x256.ShapeCasts S158x256
  slices_S4x256_S1x256_0_0 : S4x256.Slices ![0, 0] S1x256
  shapeCasts_S1x256_S256 : S1x256.ShapeCasts S256
  slices_S4x256x256_S1x256x256_0_0_0 : S4x256x256.Slices ![0, 0, 0] S1x256x256
  shapeCasts_S1x256x256_S256x256 : S1x256x256.ShapeCasts S256x256
  reducesTo_S10000x256_S256_d0 : S10000x256.ReducesTo [0] S256
  bcast_S_S256 : S_.BroadcastsInDim S256 (![] : Fin 0 → Fin S256.rank)
  slices_S4x158x256_S1x158x256_1_0_0 : S4x158x256.Slices ![1, 0, 0] S1x158x256
  slices_S4x256_S1x256_1_0 : S4x256.Slices ![1, 0] S1x256
  slices_S4x256x256_S1x256x256_1_0_0 : S4x256x256.Slices ![1, 0, 0] S1x256x256
  slices_S4x158x256_S1x158x256_2_0_0 : S4x158x256.Slices ![2, 0, 0] S1x158x256
  slices_S4x256_S1x256_2_0 : S4x256.Slices ![2, 0] S1x256
  slices_S4x256x256_S1x256x256_2_0_0 : S4x256x256.Slices ![2, 0, 0] S1x256x256
  slices_S4x158x256_S1x158x256_3_0_0 : S4x158x256.Slices ![3, 0, 0] S1x158x256
  slices_S4x256_S1x256_3_0 : S4x256.Slices ![3, 0] S1x256
  slices_S4x256x256_S1x256x256_3_0_0 : S4x256x256.Slices ![3, 0, 0] S1x256x256
  concatenates_S10000x256_S10000x256_S10000x512_d1 : Shape.Concatenates [S10000x256, S10000x256] S10000x512 1
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  scatter_S10000x10000_S330000x2_S330000_n_01_01_1_wf : ScatterDims.WF S10000x10000 S330000x2 S330000 [] [0, 1] [0, 1] 1
  dot_S10000x128_S128x256_S10000x256_1_0_0_1_n_n_wf : DotDims.WF S10000x128 S128x256 S10000x256 [1] [0] [0] [1] [] []
  dot_S200x10000_S10000x256_S200x256_1_0_0_1_n_n_wf : DotDims.WF S200x10000 S10000x256 S200x256 [1] [0] [0] [1] [] []
  dot_S10000x256_S256x256_S10000x256_1_0_0_1_n_n_wf : DotDims.WF S10000x256 S256x256 S10000x256 [1] [0] [0] [1] [] []
  dot_S10000x158_S158x256_S10000x256_1_0_0_1_n_n_wf : DotDims.WF S10000x158 S158x256 S10000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .bf16 = 32 ∨ (Rect.block (s := S10000x256) S10000x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x256.size a ≤ S10000x256.size a
  hwx0_2 : ∀ i : grid0.Coords, EltTy.bits .f32 = 32 ∨ (Rect.block (s := S10000x256) S200x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x256.size a ≤ S10000x256.size a
  hwx1_2 : ∀ i : grid1.Coords, EltTy.bits .f32 = 32 ∨ (Rect.block (s := S10000x256) S200x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x256.size a ≤ S10000x256.size a
  hwx2_1 : ∀ i : grid2.Coords, EltTy.bits .bf16 = 32 ∨ (Rect.block (s := S10000x256) S10000x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S200x256.size a ≤ S10000x256.size a
  hwx2_2 : ∀ i : grid2.Coords, EltTy.bits .f32 = 32 ∨ (Rect.block (s := S10000x256) S200x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .f32 = 32 ∨ (Rect.block (s := S10000x10000) S200x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x256.size a ≤ S10000x256.size a
  hwx3_1 : ∀ i : grid3.Coords, EltTy.bits .bf16 = 32 ∨ (Rect.block (s := S10000x256) S10000x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S200x256.size a ≤ S10000x256.size a
  hwx3_2 : ∀ i : grid3.Coords, EltTy.bits .f32 = 32 ∨ (Rect.block (s := S10000x256) S200x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S200x10000.size a ≤ S10000x10000.size a
  hwx4_0 : ∀ i : grid4.Coords, EltTy.bits .f32 = 32 ∨ (Rect.block (s := S10000x10000) S200x10000.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x256.size a ≤ S10000x256.size a
  hwx4_1 : ∀ i : grid4.Coords, EltTy.bits .bf16 = 32 ∨ (Rect.block (s := S10000x256) S10000x256.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S200x256.size a ≤ S10000x256.size a
  hwx4_2 : ∀ i : grid4.Coords, EltTy.bits .f32 = 32 ∨ (Rect.block (s := S10000x256) S200x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S200x10000.size a ≤ S10000x10000.size a
  hwx5_0 : ∀ i : grid5.Coords, EltTy.bits .f32 = 32 ∨ (Rect.block (s := S10000x10000) S200x10000.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x256.size a ≤ S10000x256.size a
  hwx5_1 : ∀ i : grid5.Coords, EltTy.bits .bf16 = 32 ∨ (Rect.block (s := S10000x256) S10000x256.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S200x256.size a ≤ S10000x256.size a
  hwx5_2 : ∀ i : grid5.Coords, EltTy.bits .f32 = 32 ∨ (Rect.block (s := S10000x256) S200x256.size (cc5_transform_2 i) (hinb5_2 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def scatter_S10000x10000_S330000x2_S330000_n_01_01_1 : ScatterDims S10000x10000 S330000x2 S330000 where
  updateWindowDims := []
  insertedWindowDims := [0, 1]
  scatterDimsToOperandDims := [0, 1]
  indexVectorDim := 1
  wf := scatter_S10000x10000_S330000x2_S330000_n_01_01_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x158_S158x256_S10000x256_1_0_0_1_n_n : DotDims S10000x158 S158x256 S10000x256 where
  lhsContracting := [1]
  rhsContracting := [0]
  lhsNonContracting := [0]
  rhsNonContracting := [1]
  lhsBatch := []
  rhsBatch := []
  wf := dot_S10000x158_S158x256_S10000x256_1_0_0_1_n_n_wf

abbrev win0_0 : Pipeline.Window sig grid0 :=
  Pipeline.Window.ofSpec (Memref.whole main_v48) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v51) S200x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S200x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S10000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S200x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg3) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S10000x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v73) S200x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg4) S200x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S10000x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S200x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_arg5) S200x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v72) S10000x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S200x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S10000x30 : Shape := ⟨2, ![10000, 30]⟩
abbrev S10000x10000 : Shape := ⟨2, ![10000, 10000]⟩
abbrev S128x256 : Shape := ⟨2, ![128, 256]⟩
abbrev S256 : Shape := ⟨1, ![256]⟩
abbrev S256x256 : Shape := ⟨2, ![256, 256]⟩
abbrev S4x158x256 : Shape := ⟨3, ![4, 158, 256]⟩
abbrev S4x256 : Shape := ⟨2, ![4, 256]⟩
abbrev S4x256x256 : Shape := ⟨3, ![4, 256, 256]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S10000x256 : Shape := ⟨2, ![10000, 256]⟩
abbrev S330000x256 : Shape := ⟨2, ![330000, 256]⟩
abbrev S1x256 : Shape := ⟨2, ![1, 256]⟩
abbrev S10000x158 : Shape := ⟨2, ![10000, 158]⟩
abbrev S1x10000x158 : Shape := ⟨3, ![1, 10000, 158]⟩
abbrev S4x10000x158 : Shape := ⟨3, ![4, 10000, 158]⟩
abbrev S4x10000x256 : Shape := ⟨3, ![4, 10000, 256]⟩
abbrev S4x1x256 : Shape := ⟨3, ![4, 1, 256]⟩
abbrev S10000x512 : Shape := ⟨2, ![10000, 512]⟩

abbrev nBuf : Space → Nat
  | .hbm => 182
  | .vmem => 0
  | .smem => 0
  | _ => 0

abbrev hbmTy0_0 (i : Nat) : BufTy := match i % 128 with
  | 0 => ⟨S10000x128, .f32⟩
  | 1 => ⟨S2x320000, .i32⟩
  | 2 => ⟨S10000x30, .f32⟩
  | 3 => ⟨S10000x10000, .f32⟩
  | 4 => ⟨S10000x10000, .f32⟩
  | 5 => ⟨S10000x10000, .f32⟩
  | 6 => ⟨S128x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S4x158x256, .f32⟩
  | 13 => ⟨S4x256, .f32⟩
  | 14 => ⟨S4x256, .f32⟩
  | 15 => ⟨S4x256, .f32⟩
  | 16 => ⟨S4x256x256, .f32⟩
  | 17 => ⟨S4x256, .f32⟩
  | 18 => ⟨S10000, .i32⟩
  | 19 => ⟨S1x320000, .i32⟩
  | 20 => ⟨S320000, .i32⟩
  | 21 => ⟨S330000, .i32⟩
  | 22 => ⟨S1x320000, .i32⟩
  | 23 => ⟨S320000, .i32⟩
  | 24 => ⟨S330000, .i32⟩
  | 25 => ⟨S_, .f32⟩
  | 26 => ⟨S330000, .f32⟩
  | 27 => ⟨S_, .f32⟩
  | 28 => ⟨S10000, .f32⟩
  | 29 => ⟨S330000x1, .i32⟩
  | 30 => ⟨S10000, .f32⟩
  | 31 => ⟨S_, .f32⟩
  | 32 => ⟨S10000, .f32⟩
  | 33 => ⟨S10000, .i1⟩
  | 34 => ⟨S_, .f32⟩
  | 35 => ⟨S10000, .f32⟩
  | 36 => ⟨S10000, .f32⟩
  | 37 => ⟨S_, .f32⟩
  | 38 => ⟨S_, .f32⟩
  | 39 => ⟨S10000, .f32⟩
  | 40 => ⟨S10000, .f32⟩
  | 41 => ⟨S_, .i32⟩
  | 42 => ⟨S330000, .i32⟩
  | 43 => ⟨S330000, .i1⟩
  | 44 => ⟨S_, .i32⟩
  | 45 => ⟨S330000, .i32⟩
  | 46 => ⟨S330000, .i32⟩
  | 47 => ⟨S330000, .i32⟩
  | 48 => ⟨S330000x1, .i32⟩
  | 49 => ⟨S330000, .f32⟩
  | 50 => ⟨S_, .i32⟩
  | 51 => ⟨S330000, .i32⟩
  | 52 => ⟨S330000, .i1⟩
  | 53 => ⟨S_, .i32⟩
  | 54 => ⟨S330000, .i32⟩
  | 55 => ⟨S330000, .i32⟩
  | 56 => ⟨S330000, .i32⟩
  | 57 => ⟨S330000x1, .i32⟩
  | 58 => ⟨S330000, .f32⟩
  | 59 => ⟨S330000, .f32⟩
  | 60 => ⟨S10000x256, .f32⟩
  | 61 => ⟨S_, .i32⟩
  | 62 => ⟨S330000, .i32⟩
  | 63 => ⟨S330000, .i1⟩
  | 64 => ⟨S_, .i32⟩
  | 65 => ⟨S330000, .i32⟩
  | 66 => ⟨S330000, .i32⟩
  | 67 => ⟨S330000, .i32⟩
  | 68 => ⟨S330000x1, .i32⟩
  | 69 => ⟨S330000x256, .f32⟩
  | 70 => ⟨S330000x1, .f32⟩
  | 71 => ⟨S330000x256, .f32⟩
  | 72 => ⟨S330000x256, .f32⟩
  | 73 => ⟨S_, .f32⟩
  | 74 => ⟨S10000x256, .f32⟩
  | 75 => ⟨S330000x1, .i32⟩
  | 76 => ⟨S10000x256, .f32⟩
  | 77 => ⟨S1x256, .f32⟩
  | 78 => ⟨S10000x256, .f32⟩
  | 79 => ⟨S10000x256, .f32⟩
  | 80 => ⟨S_, .f32⟩
  | 81 => ⟨S10000x256, .f32⟩
  | 82 => ⟨S10000x256, .f32⟩
  | 83 => ⟨S10000x256, .f32⟩
  | 84 => ⟨S_, .i32⟩
  | 85 => ⟨S330000, .i32⟩
  | 86 => ⟨S330000, .i1⟩
  | 87 => ⟨S_, .i32⟩
  | 88 => ⟨S330000, .i32⟩
  | 89 => ⟨S330000, .i32⟩
  | 90 => ⟨S330000, .i32⟩
  | 91 => ⟨S330000x1, .i32⟩
  | 92 => ⟨S330000x256, .f32⟩
  | 93 => ⟨S330000x1, .f32⟩
  | 94 => ⟨S330000x256, .f32⟩
  | 95 => ⟨S330000x256, .f32⟩
  | 96 => ⟨S_, .f32⟩
  | 97 => ⟨S10000x256, .f32⟩
  | 98 => ⟨S330000x1, .i32⟩
  | 99 => ⟨S10000x256, .f32⟩
  | 100 => ⟨S1x256, .f32⟩
  | 101 => ⟨S10000x256, .f32⟩
  | 102 => ⟨S10000x256, .f32⟩
  | 103 => ⟨S_, .f32⟩
  | 104 => ⟨S10000x256, .f32⟩
  | 105 => ⟨S10000x256, .f32⟩
  | 106 => ⟨S10000x256, .f32⟩
  | 107 => ⟨S_, .i32⟩
  | 108 => ⟨S330000, .i32⟩
  | 109 => ⟨S330000, .i1⟩
  | 110 => ⟨S_, .i32⟩
  | 111 => ⟨S330000, .i32⟩
  | 112 => ⟨S330000, .i32⟩
  | 113 => ⟨S330000, .i32⟩
  | 114 => ⟨S330000x1, .i32⟩
  | 115 => ⟨S330000x256, .f32⟩
  | 116 => ⟨S330000x1, .f32⟩
  | 117 => ⟨S330000x256, .f32⟩
  | 118 => ⟨S330000x256, .f32⟩
  | 119 => ⟨S_, .f32⟩
  | 120 => ⟨S10000x256, .f32⟩
  | 121 => ⟨S330000x1, .i32⟩
  | 122 => ⟨S10000x256, .f32⟩
  | 123 => ⟨S1x256, .f32⟩
  | 124 => ⟨S10000x256, .f32⟩
  | 125 => ⟨S10000x256, .f32⟩
  | 126 => ⟨S_, .f32⟩
  | 127 => ⟨S10000x256, .f32⟩
  | _ => ⟨S10000x128, .f32⟩

abbrev hbmTy0_1 (i : Nat) : BufTy := match i % 128 with
  | 0 => ⟨S10000x256, .f32⟩
  | 1 => ⟨S10000x158, .f32⟩
  | 2 => ⟨S10000x158, .f32⟩
  | 3 => ⟨S10000x158, .f32⟩
  | 4 => ⟨S10000x158, .f32⟩
  | 5 => ⟨S1x10000x158, .f32⟩
  | 6 => ⟨S1x10000x158, .f32⟩
  | 7 => ⟨S1x10000x158, .f32⟩
  | 8 => ⟨S1x10000x158, .f32⟩
  | 9 => ⟨S4x10000x158, .f32⟩
  | 10 => ⟨S4x10000x256, .f32⟩
  | 11 => ⟨S4x1x256, .f32⟩
  | 12 => ⟨S4x10000x256, .f32⟩
  | 13 => ⟨S4x10000x256, .f32⟩
  | 14 => ⟨S_, .f32⟩
  | 15 => ⟨S4x256, .f32⟩
  | 16 => ⟨S_, .f32⟩
  | 17 => ⟨S4x256, .f32⟩
  | 18 => ⟨S4x256, .f32⟩
  | 19 => ⟨S4x1x256, .f32⟩
  | 20 => ⟨S4x10000x256, .f32⟩
  | 21 => ⟨S4x10000x256, .f32⟩
  | 22 => ⟨S4x10000x256, .f32⟩
  | 23 => ⟨S_, .f32⟩
  | 24 => ⟨S4x256, .f32⟩
  | 25 => ⟨S_, .f32⟩
  | 26 => ⟨S4x256, .f32⟩
  | 27 => ⟨S4x256, .f32⟩
  | 28 => ⟨S4x1x256, .f32⟩
  | 29 => ⟨S4x10000x256, .f32⟩
  | 30 => ⟨S4x10000x256, .f32⟩
  | 31 => ⟨S4x1x256, .f32⟩
  | 32 => ⟨S4x10000x256, .f32⟩
  | 33 => ⟨S4x10000x256, .f32⟩
  | 34 => ⟨S_, .f32⟩
  | 35 => ⟨S4x256, .f32⟩
  | 36 => ⟨S4x256, .f32⟩
  | 37 => ⟨S4x256, .f32⟩
  | 38 => ⟨S4x1x256, .f32⟩
  | 39 => ⟨S4x10000x256, .f32⟩
  | 40 => ⟨S4x10000x256, .f32⟩
  | 41 => ⟨S4x1x256, .f32⟩
  | 42 => ⟨S4x10000x256, .f32⟩
  | 43 => ⟨S4x10000x256, .f32⟩
  | 44 => ⟨S_, .f32⟩
  | 45 => ⟨S4x10000x256, .f32⟩
  | 46 => ⟨S4x10000x256, .f32⟩
  | 47 => ⟨S4x10000x256, .f32⟩
  | 48 => ⟨S4x1x256, .f32⟩
  | 49 => ⟨S4x10000x256, .f32⟩
  | 50 => ⟨S4x10000x256, .f32⟩
  | 51 => ⟨S_, .f32⟩
  | 52 => ⟨S10000x256, .f32⟩
  | 53 => ⟨S10000x512, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v15 : Ref sig .tc := ⟨.hbm, 40, rfl⟩
abbrev main_c : Ref sig .tc := ⟨.hbm, 41, rfl⟩
abbrev main_v16 : Ref sig .tc := ⟨.hbm, 42, rfl⟩
abbrev main_v17 : Ref sig .tc := ⟨.hbm, 43, rfl⟩
abbrev main_c_4 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_5 : Ref sig .tc := ⟨.hbm, 50, rfl⟩
abbrev main_v23 : Ref sig .tc := ⟨.hbm, 51, rfl⟩
abbrev main_v24 : Ref sig .tc := ⟨.hbm, 52, rfl⟩
abbrev main_c_6 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c_7 : Ref sig .tc := ⟨.hbm, 61, rfl⟩
abbrev main_v32 : Ref sig .tc := ⟨.hbm, 62, rfl⟩
abbrev main_v33 : Ref sig .tc := ⟨.hbm, 63, rfl⟩
abbrev main_c_8 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_9 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_call1_cst : Ref sig .tc := ⟨.hbm, 80, rfl⟩
abbrev main_call1_v0 : Ref sig .tc := ⟨.hbm, 81, rfl⟩
abbrev main_v48 : Ref sig .tc := ⟨.hbm, 82, rfl⟩
abbrev main_v49 : Ref sig .tc := ⟨.hbm, 83, rfl⟩
abbrev main_c_10 : Ref sig .tc := ⟨.hbm, 84, rfl⟩
abbrev main_v50 : Ref sig .tc := ⟨.hbm, 85, rfl⟩
abbrev main_v51 : Ref sig .tc := ⟨.hbm, 86, rfl⟩
abbrev main_c_11 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_12 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_call2_cst : Ref sig .tc := ⟨.hbm, 103, rfl⟩
abbrev main_call2_v0 : Ref sig .tc := ⟨.hbm, 104, rfl⟩
abbrev main_v66 : Ref sig .tc := ⟨.hbm, 105, rfl⟩
abbrev main_v67 : Ref sig .tc := ⟨.hbm, 106, rfl⟩
abbrev main_c_13 : Ref sig .tc := ⟨.hbm, 107, rfl⟩
abbrev main_v68 : Ref sig .tc := ⟨.hbm, 108, rfl⟩
abbrev main_v69 : Ref sig .tc := ⟨.hbm, 109, rfl⟩
abbrev main_c_14 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_15 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_call3_cst : Ref sig .tc := ⟨.hbm, 126, rfl⟩
abbrev main_call3_v0 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_16 : Ref sig .tc := ⟨.hbm, 142, rfl⟩
abbrev main_v98 : Ref sig .tc := ⟨.hbm, 143, rfl⟩
abbrev main_cst_17 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_18 : Ref sig .tc := ⟨.hbm, 151, rfl⟩
abbrev main_v105 : Ref sig .tc := ⟨.hbm, 152, rfl⟩
abbrev main_cst_19 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_20 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_call4_cst : Ref sig .tc := ⟨.hbm, 172, rfl⟩
abbrev main_call4_v0 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_21 : Ref sig .tc := ⟨.hbm, 179, rfl⟩
abbrev main_v128 : Ref sig .tc := ⟨.hbm, 180, rfl⟩
abbrev main_v129 : Ref sig .tc := ⟨.hbm, 181, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  concatenates_S10000x128_S10000x30_S10000x158_d1 : Shape.Concatenates [S10000x128, S10000x30] S10000x158 1
  bcast_S10000x158_S1x10000x158_1_2 : S10000x158.BroadcastsInDim S1x10000x158 (![1, 2] : Fin 2 → Fin S1x10000x158.rank)
  concatenates_S1x10000x158_S1x10000x158_S1x10000x158_S1x10000x158_S4x10000x158_d0 : Shape.Concatenates [S1x10000x158, S1x10000x158, S1x10000x158, S1x10000x158] S4x10000x158 0
  bcast_S4x256_S4x1x256_0_2 : S4x256.BroadcastsInDim S4x1x256 (![0, 2] : Fin 2 → Fin S4x1x256.rank)
  bcast_S4x1x256_S4x10000x256_0_1_2 : S4x1x256.BroadcastsInDim S4x10000x256 (![0, 1, 2] : Fin 3 → Fin S4x10000x256.rank)
  reducesTo_S4x10000x256_S4x256_d1 : S4x10000x256.ReducesTo [1] S4x256
  h_S_ : 0 < S_.numel
  bcast_S_S4x256 : S_.BroadcastsInDim S4x256 (![] : Fin 0 → Fin S4x256.rank)
  bcast_S_S4x10000x256 : S_.BroadcastsInDim S4x10000x256 (![] : Fin 0 → Fin S4x10000x256.rank)
  reducesTo_S4x10000x256_S10000x256_d0 : S4x10000x256.ReducesTo [0] S10000x256
  concatenates_S10000x256_S10000x256_S10000x512_d1 : Shape.Concatenates [S10000x256, S10000x256] S10000x512 1
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x128_S128x256_S10000x256_1_0_0_1_n_n_wf : DotDims.WF S10000x128 S128x256 S10000x256 [1] [0] [0] [1] [] []
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  dot_S10000x256_S256x256_S10000x256_1_0_0_1_n_n_wf : DotDims.WF S10000x256 S256x256 S10000x256 [1] [0] [0] [1] [] []
  dot_S10000x10000_S10000x158_S10000x158_1_0_0_1_n_n_wf : DotDims.WF S10000x10000 S10000x158 S10000x158 [1] [0] [0] [1] [] []
  dot_S4x10000x158_S4x158x256_S4x10000x256_2_1_1_2_0_0_wf : DotDims.WF S4x10000x158 S4x158x256 S4x10000x256 [2] [1] [1] [2] [0] [0]
  dot_S4x10000x256_S4x256x256_S4x10000x256_2_1_1_2_0_0_wf : DotDims.WF S4x10000x256 S4x256x256 S4x10000x256 [2] [1] [1] [2] [0] [0]

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x158_S10000x158_1_0_0_1_n_n : DotDims S10000x10000 S10000x158 S10000x158 where
  lhsContracting := [1]
  rhsContracting := [0]
  lhsNonContracting := [0]
  rhsNonContracting := [1]
  lhsBatch := []
  rhsBatch := []
  wf := dot_S10000x10000_S10000x158_S10000x158_1_0_0_1_n_n_wf
def dot_S4x10000x158_S4x158x256_S4x10000x256_2_1_1_2_0_0 : DotDims S4x10000x158 S4x158x256 S4x10000x256 where
  lhsContracting := [2]
  rhsContracting := [1]
  lhsNonContracting := [1]
  rhsNonContracting := [2]
  lhsBatch := [0]
  rhsBatch := [0]
  wf := dot_S4x10000x158_S4x158x256_S4x10000x256_2_1_1_2_0_0_wf
def dot_S4x10000x256_S4x256x256_S4x10000x256_2_1_1_2_0_0 : DotDims S4x10000x256 S4x256x256 S4x10000x256 where
  lhsContracting := [2]
  rhsContracting := [1]
  lhsNonContracting := [1]
  rhsNonContracting := [2]
  lhsBatch := [0]
  rhsBatch := [0]
  wf := dot_S4x10000x256_S4x256x256_S4x10000x256_2_1_1_2_0_0_wf

class Facts : Prop extends Facts₀ where

variable [Facts]
-- ==== Proof.KRun.lean ====
/-
  The kernel program's run with its result named: from any launch memory with zero counters, every weakly fair
  execution of the host program on the TensorCores terminates without fault, and in every final state the result
  array holds what the last segment boundary's buffer contents give for it, while every argument array is as launched.
-/
import proofs.«103117_j70961449664567_2_alg».proof.Proof.Gen.KernelIdeal.Frame
import Idealize.ShloMosaic.PureOps.Ideal

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run at any `F`: the result array at the last boundary's contents, every argument array as launched. -/
theorem krun_any : θ_run defs (onTc (τ := τ) (main (F := F))) ⟨m, fun _ => 0, ρ⟩ (fun r => ∀ c : Dev nD,
      r.2.mem ((c.tc : Thread nD τ).loc main_v268) = W33 m ρ c (Proc.devRef .tc main_v268)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W33 m ρ c b)
    (hfin := fun c s' => by
      iintro ⟨⟨Hh, -⟩, HSI⟩
      unfold StableHlo.held
      imodintro
      iapply (pointsTo_read_all (Pipeline.ucRefs τ sig) (fun b => (((c : Thread nD τ)).1, b)) (W33 m ρ c) s')
      isplitl [Hh] <;> iassumption)
    (hQ := fun s h c =>
      ⟨h c _ (mem_uc main_v268 (by decide)),
       (h c _ (mem_uc main_arg0 (by decide))).trans (W33_main_arg0 m ρ c),
       (h c _ (mem_uc main_arg1 (by decide))).trans (W33_main_arg1 m ρ c),
       (h c _ (mem_uc main_arg2 (by decide))).trans (W33_main_arg2 m ρ c),
       (h c _ (mem_uc main_arg3 (by decide))).trans (W33_main_arg3 m ρ c),
       (h c _ (mem_uc main_arg4 (by decide))).trans (W33_main_arg4 m ρ c),
       (h c _ (mem_uc main_arg5 (by decide))).trans (W33_main_arg5 m ρ c),
       (h c _ (mem_uc main_arg6 (by decide))).trans (W33_main_arg6 m ρ c),
       (h c _ (mem_uc main_arg7 (by decide))).trans (W33_main_arg7 m ρ c),
       (h c _ (mem_uc main_arg8 (by decide))).trans (W33_main_arg8 m ρ c),
       (h c _ (mem_uc main_arg9 (by decide))).trans (W33_main_arg9 m ρ c),
       (h c _ (mem_uc main_arg10 (by decide))).trans (W33_main_arg10 m ρ c),
       (h c _ (mem_uc main_arg11 (by decide))).trans (W33_main_arg11 m ρ c),
       (h c _ (mem_uc main_arg12 (by decide))).trans (W33_main_arg12 m ρ c),
       (h c _ (mem_uc main_arg13 (by decide))).trans (W33_main_arg13 m ρ c),
       (h c _ (mem_uc main_arg14 (by decide))).trans (W33_main_arg14 m ρ c),
       (h c _ (mem_uc main_arg15 (by decide))).trans (W33_main_arg15 m ρ c),
       (h c _ (mem_uc main_arg16 (by decide))).trans (W33_main_arg16 m ρ c),
       (h c _ (mem_uc main_arg17 (by decide))).trans (W33_main_arg17 m ρ c)⟩)

/-- The run at the extended reals. -/
theorem krun (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v268) = W33 m ρ c (Proc.devRef .tc main_v268)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  krun_any (F := Ideal) m ρ

end Cert.KernelIdeal.KRun

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.KVal.lean ====
/- Written by a script (invocation: bun $KIT/certs/proofs/103117_j70961449664567_2_alg/scratch/gen_kval.js $KIT/certs/proofs/103117_j70961449664567_2_alg), which copies, one definition per host operation and per kernel
   launch of the kernel program, the operation's function from Proof/Gen/KernelIdeal/Launch.lean applied to the definitions of its operands:
   a table of the program's data flow, no argument. -/
import proofs.«103117_j70961449664567_2_alg».proof.Proof.Gen.KernelIdeal
import proofs.«103117_j70961449664567_2_alg».proof.Proof.LibDense

noncomputable section

namespace Cert.KernelIdeal.KVal

open Cert.KernelIdeal Cert.KernelIdeal.Gen Idealize.ShloMosaic Idealize.ShloMosaic.TcCoe

/-- The eighteen argument arrays of the program, at the exact instance. -/
structure Args where
  x0 : FVec Ideal S10000x128 .f32
  x1 : IVec S2x320000 32
  x2 : FVec Ideal S10000x30 .f32
  x3 : FVec Ideal S10000x10000 .f32
  x4 : FVec Ideal S10000x10000 .f32
  x5 : FVec Ideal S10000x10000 .f32
  x6 : FVec Ideal S128x256 .f32
  x7 : FVec Ideal S256 .f32
  x8 : FVec Ideal S256x256 .f32
  x9 : FVec Ideal S256 .f32
  x10 : FVec Ideal S256x256 .f32
  x11 : FVec Ideal S256 .f32
  x12 : FVec Ideal S4x158x256 .f32
  x13 : FVec Ideal S4x256 .f32
  x14 : FVec Ideal S4x256 .f32
  x15 : FVec Ideal S4x256 .f32
  x16 : FVec Ideal S4x256x256 .f32
  x17 : FVec Ideal S4x256 .f32

/-! Each value of the program as a function of the argument arrays: a host operation's function applied to its operands' values; a
    kernel launch's output as the matrix product of its two operands (the launch computes the product row block by row block). -/
def kv_main_v0 (a : Args) : IVec S10000 32 :=
  (iotaInDim S10000 32 0)
def kv_main_v1 (a : Args) : IVec S1x320000 32 :=
  (((extractStridedSlice S1x320000 ![0, 0] · slices_S2x320000_S1x320000_0_0) : (IVec S2x320000 32) → (IVec S1x320000 32))) (a.x1)
def kv_main_v2 (a : Args) : IVec S320000 32 :=
  ((fun x => shapeCast _ x shapeCasts_S1x320000_S320000)) (kv_main_v1 a)
def kv_main_v3 (a : Args) : IVec S330000 32 :=
  (((fun a b => concatenate S330000 0 [⟨S320000, a⟩, ⟨S10000, b⟩] concatenates_S320000_S10000_S330000_d0) : (IVec S320000 32) → (IVec S10000 32) → (IVec S330000 32))) (kv_main_v2 a) (kv_main_v0 a)
def kv_main_v4 (a : Args) : IVec S1x320000 32 :=
  (((extractStridedSlice S1x320000 ![1, 0] · slices_S2x320000_S1x320000_1_0) : (IVec S2x320000 32) → (IVec S1x320000 32))) (a.x1)
def kv_main_v5 (a : Args) : IVec S320000 32 :=
  ((fun x => shapeCast _ x shapeCasts_S1x320000_S320000)) (kv_main_v4 a)
def kv_main_v6 (a : Args) : IVec S330000 32 :=
  (((fun a b => concatenate S330000 0 [⟨S320000, a⟩, ⟨S10000, b⟩] concatenates_S320000_S10000_S330000_d0) : (IVec S320000 32) → (IVec S10000 32) → (IVec S330000 32))) (kv_main_v5 a) (kv_main_v0 a)
def kv_main_cst (a : Args) : FVec Ideal S_ .f32 :=
  (constant S_ .f32 0x3F800000#32)
def kv_main_v7 (a : Args) : FVec Ideal S330000 .f32 :=
  ((broadcastInDim S330000 ![] bcast_S_S330000 : (FVec Ideal S_ .f32) → (FVec Ideal S330000 .f32))) (kv_main_cst a)
def kv_main_cst_0 (a : Args) : FVec Ideal S_ .f32 :=
  (constant S_ .f32 0x00000000#32)
def kv_main_v8 (a : Args) : FVec Ideal S10000 .f32 :=
  ((broadcastInDim S10000 ![] bcast_S_S10000 : (FVec Ideal S_ .f32) → (FVec Ideal S10000 .f32))) (kv_main_cst_0 a)
def kv_main_v9 (a : Args) : IVec S330000x1 32 :=
  ((broadcastInDim S330000x1 ![0] bcast_S330000_S330000x1_0 : (IVec S330000 32) → (IVec S330000x1 32))) (kv_main_v6 a)
def kv_main_v10 (a : Args) : FVec Ideal S10000 .f32 :=
  (((fun x i u => Host.scatterAdd scatter_S10000_S330000x1_S330000_n_0_0_1 x i u) : (FVec Ideal S10000 .f32) → (IVec S330000x1 32) → (FVec Ideal S330000 .f32) → (FVec Ideal S10000 .f32))) (kv_main_v8 a) (kv_main_v9 a) (kv_main_v7 a)
def kv_main_cst_1 (a : Args) : FVec Ideal S_ .f32 :=
  (constant S_ .f32 0x00000000#32)
def kv_main_v11 (a : Args) : FVec Ideal S10000 .f32 :=
  ((broadcastInDim S10000 ![] bcast_S_S10000 : (FVec Ideal S_ .f32) → (FVec Ideal S10000 .f32))) (kv_main_cst_1 a)
def kv_main_v12 (a : Args) : IVec S10000 1 :=
  ((cmpf .ogt : (FVec Ideal S10000 .f32) → (FVec Ideal S10000 .f32) → (IVec S10000 1))) (kv_main_v10 a) (kv_main_v11 a)
def kv_main_cst_2 (a : Args) : FVec Ideal S_ .f32 :=
  (constant S_ .f32 0x3F800000#32)
def kv_main_call0_v0 (a : Args) : FVec Ideal S_ .f32 :=
  (id) (kv_main_cst_2 a)
def kv_main_call0_v1 (a : Args) : FVec Ideal S10000 .f32 :=
  ((broadcastInDim S10000 ![] bcast_S_S10000)) (kv_main_call0_v0 a)
def kv_main_v13 (a : Args) : FVec Ideal S10000 .f32 :=
  (select) (kv_main_v12 a) (kv_main_v10 a) (kv_main_call0_v1 a)
def kv_main_cst_3 (a : Args) : FVec Ideal S_ .f32 :=
  (constant S_ .f32 0x00000000#32)
def kv_main_v14 (a : Args) : FVec Ideal S10000 .f32 :=
  ((broadcastInDim S10000 ![] bcast_S_S10000 : (FVec Ideal S_ .f32) → (FVec Ideal S10000 .f32))) (kv_main_cst_3 a)
def kv_main_v15 (a : Args) : IVec S10000 1 :=
  ((cmpf .ogt : (FVec Ideal S10000 .f32) → (FVec Ideal S10000 .f32) → (IVec S10000 1))) (kv_main_v10 a) (kv_main_v14 a)
def kv_main_cst_4 (a : Args) : FVec Ideal S_ .f32 :=
  (constant S_ .f32 0xBF000000#32)
def kv_main_v16 (a : Args) : FVec Ideal S10000 .f32 :=
  ((broadcastInDim S10000 ![] bcast_S_S10000 : (FVec Ideal S_ .f32) → (FVec Ideal S10000 .f32))) (kv_main_cst_4 a)
def kv_main_v17 (a : Args) : FVec Ideal S10000 .f32 :=
  ((Host.powf : (FVec Ideal S10000 .f32) → (FVec Ideal S10000 .f32) → (FVec Ideal S10000 .f32))) (kv_main_v13 a) (kv_main_v16 a)
def kv_main_cst_5 (a : Args) : FVec Ideal S_ .f32 :=
  (constant S_ .f32 0x00000000#32)
def kv_main_call1_v0 (a : Args) : FVec Ideal S_ .f32 :=
  (id) (kv_main_cst_5 a)
def kv_main_call1_v1 (a : Args) : FVec Ideal S10000 .f32 :=
  ((broadcastInDim S10000 ![] bcast_S_S10000)) (kv_main_call1_v0 a)
def kv_main_v18 (a : Args) : FVec Ideal S10000 .f32 :=
  (select) (kv_main_v15 a) (kv_main_v17 a) (kv_main_call1_v1 a)
def kv_main_c (a : Args) : IVec S_ 32 :=
  (constantI S_ 32 0#32)
def kv_main_v19 (a : Args) : IVec S330000 32 :=
  ((broadcastInDim S330000 ![] bcast_S_S330000 : (IVec S_ 32) → (IVec S330000 32))) (kv_main_c a)
def kv_main_v20 (a : Args) : IVec S330000 1 :=
  ((cmpi .slt : (IVec S330000 32) → (IVec S330000 32) → (IVec S330000 1))) (kv_main_v3 a) (kv_main_v19 a)
def kv_main_c_6 (a : Args) : IVec S_ 32 :=
  (constantI S_ 32 10000#32)
def kv_main_v21 (a : Args) : IVec S330000 32 :=
  ((broadcastInDim S330000 ![] bcast_S_S330000 : (IVec S_ 32) → (IVec S330000 32))) (kv_main_c_6 a)
def kv_main_v22 (a : Args) : IVec S330000 32 :=
  ((addi : (IVec S330000 32) → (IVec S330000 32) → (IVec S330000 32))) (kv_main_v3 a) (kv_main_v21 a)
def kv_main_v23 (a : Args) : IVec S330000 32 :=
  ((select : (IVec S330000 1) → (IVec S330000 32) → (IVec S330000 32) → (IVec S330000 32))) (kv_main_v20 a) (kv_main_v22 a) (kv_main_v3 a)
def kv_main_v24 (a : Args) : IVec S330000x1 32 :=
  ((broadcastInDim S330000x1 ![0] bcast_S330000_S330000x1_0 : (IVec S330000 32) → (IVec S330000x1 32))) (kv_main_v23 a)
def kv_main_v25 (a : Args) : FVec Ideal S330000 .f32 :=
  (((fun x i => Host.gather gather_S10000_S330000x1_S330000_n_0_n_n_0_1_1 x i) : (FVec Ideal S10000 .f32) → (IVec S330000x1 32) → (FVec Ideal S330000 .f32))) (kv_main_v18 a) (kv_main_v24 a)
def kv_main_c_7 (a : Args) : IVec S_ 32 :=
  (constantI S_ 32 0#32)
def kv_main_v26 (a : Args) : IVec S330000 32 :=
  ((broadcastInDim S330000 ![] bcast_S_S330000 : (IVec S_ 32) → (IVec S330000 32))) (kv_main_c_7 a)
def kv_main_v27 (a : Args) : IVec S330000 1 :=
  ((cmpi .slt : (IVec S330000 32) → (IVec S330000 32) → (IVec S330000 1))) (kv_main_v6 a) (kv_main_v26 a)
def kv_main_c_8 (a : Args) : IVec S_ 32 :=
  (constantI S_ 32 10000#32)
def kv_main_v28 (a : Args) : IVec S330000 32 :=
  ((broadcastInDim S330000 ![] bcast_S_S330000 : (IVec S_ 32) → (IVec S330000 32))) (kv_main_c_8 a)
def kv_main_v29 (a : Args) : IVec S330000 32 :=
  ((addi : (IVec S330000 32) → (IVec S330000 32) → (IVec S330000 32))) (kv_main_v6 a) (kv_main_v28 a)
def kv_main_v30 (a : Args) : IVec S330000 32 :=
  ((select : (IVec S330000 1) → (IVec S330000 32) → (IVec S330000 32) → (IVec S330000 32))) (kv_main_v27 a) (kv_main_v29 a) (kv_main_v6 a)
def kv_main_v31 (a : Args) : IVec S330000x1 32 :=
  ((broadcastInDim S330000x1 ![0] bcast_S330000_S330000x1_0 : (IVec S330000 32) → (IVec S330000x1 32))) (kv_main_v30 a)
def kv_main_v32 (a : Args) : FVec Ideal S330000 .f32 :=
  (((fun x i => Host.gather gather_S10000_S330000x1_S330000_n_0_n_n_0_1_1 x i) : (FVec Ideal S10000 .f32) → (IVec S330000x1 32) → (FVec Ideal S330000 .f32))) (kv_main_v18 a) (kv_main_v31 a)
def kv_main_v33 (a : Args) : FVec Ideal S330000 .f32 :=
  ((mulf : (FVec Ideal S330000 .f32) → (FVec Ideal S330000 .f32) → (FVec Ideal S330000 .f32))) (kv_main_v25 a) (kv_main_v32 a)
def kv_main_cst_9 (a : Args) : FVec Ideal S_ .f32 :=
  (constant S_ .f32 0x00000000#32)
def kv_main_v34 (a : Args) : FVec Ideal S10000x10000 .f32 :=
  ((broadcastInDim S10000x10000 ![] bcast_S_S10000x10000 : (FVec Ideal S_ .f32) → (FVec Ideal S10000x10000 .f32))) (kv_main_cst_9 a)
def kv_main_c_10 (a : Args) : IVec S_ 32 :=
  (constantI S_ 32 0#32)
def kv_main_v35 (a : Args) : IVec S330000 32 :=
  ((broadcastInDim S330000 ![] bcast_S_S330000 : (IVec S_ 32) → (IVec S330000 32))) (kv_main_c_10 a)
def kv_main_v36 (a : Args) : IVec S330000 1 :=
  ((cmpi .slt : (IVec S330000 32) → (IVec S330000 32) → (IVec S330000 1))) (kv_main_v6 a) (kv_main_v35 a)
def kv_main_c_11 (a : Args) : IVec S_ 32 :=
  (constantI S_ 32 10000#32)
def kv_main_v37 (a : Args) : IVec S330000 32 :=
  ((broadcastInDim S330000 ![] bcast_S_S330000 : (IVec S_ 32) → (IVec S330000 32))) (kv_main_c_11 a)
def kv_main_v38 (a : Args) : IVec S330000 32 :=
  ((addi : (IVec S330000 32) → (IVec S330000 32) → (IVec S330000 32))) (kv_main_v6 a) (kv_main_v37 a)
def kv_main_v39 (a : Args) : IVec S330000 32 :=
  ((select : (IVec S330000 1) → (IVec S330000 32) → (IVec S330000 32) → (IVec S330000 32))) (kv_main_v36 a) (kv_main_v38 a) (kv_main_v6 a)
def kv_main_c_12 (a : Args) : IVec S_ 32 :=
  (constantI S_ 32 0#32)
def kv_main_v40 (a : Args) : IVec S330000 32 :=
  ((broadcastInDim S330000 ![] bcast_S_S330000 : (IVec S_ 32) → (IVec S330000 32))) (kv_main_c_12 a)
def kv_main_v41 (a : Args) : IVec S330000 1 :=
  ((cmpi .slt : (IVec S330000 32) → (IVec S330000 32) → (IVec S330000 1))) (kv_main_v3 a) (kv_main_v40 a)
def kv_main_c_13 (a : Args) : IVec S_ 32 :=
  (constantI S_ 32 10000#32)
def kv_main_v42 (a : Args) : IVec S330000 32 :=
  ((broadcastInDim S330000 ![] bcast_S_S330000 : (IVec S_ 32) → (IVec S330000 32))) (kv_main_c_13 a)
def kv_main_v43 (a : Args) : IVec S330000 32 :=
  ((addi : (IVec S330000 32) → (IVec S330000 32) → (IVec S330000 32))) (kv_main_v3 a) (kv_main_v42 a)
def kv_main_v44 (a : Args) : IVec S330000 32 :=
  ((select : (IVec S330000 1) → (IVec S330000 32) → (IVec S330000 32) → (IVec S330000 32))) (kv_main_v41 a) (kv_main_v43 a) (kv_main_v3 a)
def kv_main_v45 (a : Args) : IVec S330000x1 32 :=
  ((broadcastInDim S330000x1 ![0] bcast_S330000_S330000x1_0 : (IVec S330000 32) → (IVec S330000x1 32))) (kv_main_v39 a)
def kv_main_v46 (a : Args) : IVec S330000x1 32 :=
  ((broadcastInDim S330000x1 ![0] bcast_S330000_S330000x1_0 : (IVec S330000 32) → (IVec S330000x1 32))) (kv_main_v44 a)
def kv_main_v47 (a : Args) : IVec S330000x2 32 :=
  (((fun a b => concatenate S330000x2 1 [⟨S330000x1, a⟩, ⟨S330000x1, b⟩] concatenates_S330000x1_S330000x1_S330000x2_d1) : (IVec S330000x1 32) → (IVec S330000x1 32) → (IVec S330000x2 32))) (kv_main_v45 a) (kv_main_v46 a)
def kv_main_v48 (a : Args) : FVec Ideal S10000x10000 .f32 :=
  (((fun x i u => Host.scatterAdd scatter_S10000x10000_S330000x2_S330000_n_01_01_1 x i u) : (FVec Ideal S10000x10000 .f32) → (IVec S330000x2 32) → (FVec Ideal S330000 .f32) → (FVec Ideal S10000x10000 .f32))) (kv_main_v34 a) (kv_main_v47 a) (kv_main_v33 a)
def kv_main_v49 (a : Args) : FVec Ideal S10000x256 .f32 :=
  (((fun l r => Host.dotGeneral dot_S10000x128_S128x256_S10000x256_1_0_0_1_n_n none l r) : (FVec Ideal S10000x128 .f32) → (FVec Ideal S128x256 .f32) → (FVec Ideal S10000x256 .f32))) (a.x0) (a.x6)
def kv_main_v50 (a : Args) : FVec Ideal S10000x256 .bf16 :=
  (((truncf .bf16 · bitsLt_bf16_f32) : (FVec Ideal S10000x256 .f32) → (FVec Ideal S10000x256 .bf16))) (kv_main_v49 a)
/-- The output of kernel launch 0. -/
def kv_main_v51 (a : Args) : FVec Ideal S10000x256 .f32 :=
  Cert.Dense.mm (kv_main_v48 a) (kv_main_v50 a)
def kv_main_v52 (a : Args) : FVec Ideal S1x256 .f32 :=
  ((broadcastInDim S1x256 ![1] bcast_S256_S1x256_1 : (FVec Ideal S256 .f32) → (FVec Ideal S1x256 .f32))) (a.x7)
def kv_main_v53 (a : Args) : FVec Ideal S10000x256 .f32 :=
  ((broadcastInDim S10000x256 ![0, 1] bcast_S1x256_S10000x256_0_1 : (FVec Ideal S1x256 .f32) → (FVec Ideal S10000x256 .f32))) (kv_main_v52 a)
def kv_main_v54 (a : Args) : FVec Ideal S10000x256 .f32 :=
  ((addf : (FVec Ideal S10000x256 .f32) → (FVec Ideal S10000x256 .f32) → (FVec Ideal S10000x256 .f32))) (kv_main_v51 a) (kv_main_v53 a)
def kv_main_call2_cst (a : Args) : FVec Ideal S_ .f32 :=
  (constant S_ .f32 0x00000000#32)
def kv_main_call2_v0 (a : Args) : FVec Ideal S10000x256 .f32 :=
  ((broadcastInDim S10000x256 ![] bcast_S_S10000x256)) (kv_main_call2_cst a)
def kv_main_v55 (a : Args) : FVec Ideal S10000x256 .f32 :=
  (maximumf) (kv_main_v54 a) (kv_main_call2_v0 a)
def kv_main_v56 (a : Args) : FVec Ideal S10000x256 .f32 :=
  (((fun l r => Host.dotGeneral dot_S10000x256_S256x256_S10000x256_1_0_0_1_n_n none l r) : (FVec Ideal S10000x256 .f32) → (FVec Ideal S256x256 .f32) → (FVec Ideal S10000x256 .f32))) (kv_main_v55 a) (a.x8)
def kv_main_v57 (a : Args) : FVec Ideal S10000x256 .bf16 :=
  (((truncf .bf16 · bitsLt_bf16_f32) : (FVec Ideal S10000x256 .f32) → (FVec Ideal S10000x256 .bf16))) (kv_main_v56 a)
/-- The output of kernel launch 1. -/
def kv_main_v58 (a : Args) : FVec Ideal S10000x256 .f32 :=
  Cert.Dense.mm (kv_main_v48 a) (kv_main_v57 a)
def kv_main_v59 (a : Args) : FVec Ideal S1x256 .f32 :=
  ((broadcastInDim S1x256 ![1] bcast_S256_S1x256_1 : (FVec Ideal S256 .f32) → (FVec Ideal S1x256 .f32))) (a.x9)
def kv_main_v60 (a : Args) : FVec Ideal S10000x256 .f32 :=
  ((broadcastInDim S10000x256 ![0, 1] bcast_S1x256_S10000x256_0_1 : (FVec Ideal S1x256 .f32) → (FVec Ideal S10000x256 .f32))) (kv_main_v59 a)
def kv_main_v61 (a : Args) : FVec Ideal S10000x256 .f32 :=
  ((addf : (FVec Ideal S10000x256 .f32) → (FVec Ideal S10000x256 .f32) → (FVec Ideal S10000x256 .f32))) (kv_main_v58 a) (kv_main_v60 a)
def kv_main_call3_cst (a : Args) : FVec Ideal S_ .f32 :=
  (constant S_ .f32 0x00000000#32)
def kv_main_call3_v0 (a : Args) : FVec Ideal S10000x256 .f32 :=
  ((broadcastInDim S10000x256 ![] bcast_S_S10000x256)) (kv_main_call3_cst a)
def kv_main_v62 (a : Args) : FVec Ideal S10000x256 .f32 :=
  (maximumf) (kv_main_v61 a) (kv_main_call3_v0 a)
def kv_main_v63 (a : Args) : FVec Ideal S10000x256 .f32 :=
  (((fun l r => Host.dotGeneral dot_S10000x256_S256x256_S10000x256_1_0_0_1_n_n none l r) : (FVec Ideal S10000x256 .f32) → (FVec Ideal S256x256 .f32) → (FVec Ideal S10000x256 .f32))) (kv_main_v62 a) (a.x10)
def kv_main_v64 (a : Args) : FVec Ideal S10000x256 .bf16 :=
  (((truncf .bf16 · bitsLt_bf16_f32) : (FVec Ideal S10000x256 .f32) → (FVec Ideal S10000x256 .bf16))) (kv_main_v63 a)
/-- The output of kernel launch 2. -/
def kv_main_v65 (a : Args) : FVec Ideal S10000x256 .f32 :=
  Cert.Dense.mm (kv_main_v48 a) (kv_main_v64 a)
def kv_main_v66 (a : Args) : FVec Ideal S1x256 .f32 :=
  ((broadcastInDim S1x256 ![1] bcast_S256_S1x256_1 : (FVec Ideal S256 .f32) → (FVec Ideal S1x256 .f32))) (a.x11)
def kv_main_v67 (a : Args) : FVec Ideal S10000x256 .f32 :=
  ((broadcastInDim S10000x256 ![0, 1] bcast_S1x256_S10000x256_0_1 : (FVec Ideal S1x256 .f32) → (FVec Ideal S10000x256 .f32))) (kv_main_v66 a)
def kv_main_v68 (a : Args) : FVec Ideal S10000x256 .f32 :=
  ((addf : (FVec Ideal S10000x256 .f32) → (FVec Ideal S10000x256 .f32) → (FVec Ideal S10000x256 .f32))) (kv_main_v65 a) (kv_main_v67 a)
def kv_main_call4_cst (a : Args) : FVec Ideal S_ .f32 :=
  (constant S_ .f32 0x00000000#32)
def kv_main_call4_v0 (a : Args) : FVec Ideal S10000x256 .f32 :=
  ((broadcastInDim S10000x256 ![] bcast_S_S10000x256)) (kv_main_call4_cst a)
def kv_main_v69 (a : Args) : FVec Ideal S10000x256 .f32 :=
  (maximumf) (kv_main_v68 a) (kv_main_call4_v0 a)
def kv_main_v70 (a : Args) : FVec Ideal S10000x158 .f32 :=
  (((fun a b => concatenate S10000x158 1 [⟨S10000x128, a⟩, ⟨S10000x30, b⟩] concatenates_S10000x128_S10000x30_S10000x158_d1) : (FVec Ideal S10000x128 .f32) → (FVec Ideal S10000x30 .f32) → (FVec Ideal S10000x158 .f32))) (a.x0) (a.x2)
def kv_main_c_14 (a : Args) : IVec S_ 32 :=
  (constantI S_ 32 0#32)
def kv_main_call5_v0 (a : Args) : FVec Ideal S_ .f32 :=
  ((sitofp .f32)) (kv_main_c_14 a)
def kv_main_v71 (a : Args) : FVec Ideal S10000x256 .f32 :=
  ((fun x v => pad S10000x256 ![0, 0] ![0, 98] ![0, 0] x v pads_S10000x158_S10000x256_000_0980 h_S_)) (kv_main_v70 a) (kv_main_call5_v0 a)
def kv_main_v72 (a : Args) : FVec Ideal S10000x256 .bf16 :=
  (((truncf .bf16 · bitsLt_bf16_f32) : (FVec Ideal S10000x256 .f32) → (FVec Ideal S10000x256 .bf16))) (kv_main_v71 a)
/-- The output of kernel launch 3. -/
def kv_main_v73 (a : Args) : FVec Ideal S10000x256 .f32 :=
  Cert.Dense.mm (a.x3) (kv_main_v72 a)
def kv_main_v74 (a : Args) : FVec Ideal S10000x158 .f32 :=
  (((extractStridedSlice S10000x158 ![0, 0] · slices_S10000x256_S10000x158_0_0) : (FVec Ideal S10000x256 .f32) → (FVec Ideal S10000x158 .f32))) (kv_main_v73 a)
/-- The output of kernel launch 4. -/
def kv_main_v75 (a : Args) : FVec Ideal S10000x256 .f32 :=
  Cert.Dense.mm (a.x4) (kv_main_v72 a)
def kv_main_v76 (a : Args) : FVec Ideal S10000x158 .f32 :=
  (((extractStridedSlice S10000x158 ![0, 0] · slices_S10000x256_S10000x158_0_0) : (FVec Ideal S10000x256 .f32) → (FVec Ideal S10000x158 .f32))) (kv_main_v75 a)
/-- The output of kernel launch 5. -/
def kv_main_v77 (a : Args) : FVec Ideal S10000x256 .f32 :=
  Cert.Dense.mm (a.x5) (kv_main_v72 a)
def kv_main_v78 (a : Args) : FVec Ideal S10000x158 .f32 :=
  (((extractStridedSlice S10000x158 ![0, 0] · slices_S10000x256_S10000x158_0_0) : (FVec Ideal S10000x256 .f32) → (FVec Ideal S10000x158 .f32))) (kv_main_v77 a)
def kv_main_cst_15 (a : Args) : FVec Ideal S_ .f32 :=
  (constant S_ .f32 0x00000000#32)
def kv_main_v79 (a : Args) : FVec Ideal S10000x256 .f32 :=
  ((broadcastInDim S10000x256 ![] bcast_S_S10000x256 : (FVec Ideal S_ .f32) → (FVec Ideal S10000x256 .f32))) (kv_main_cst_15 a)
def kv_main_v80 (a : Args) : FVec Ideal S1x158x256 .f32 :=
  (((extractStridedSlice S1x158x256 ![0, 0, 0] · slices_S4x158x256_S1x158x256_0_0_0) : (FVec Ideal S4x158x256 .f32) → (FVec Ideal S1x158x256 .f32))) (a.x12)
def kv_main_v81 (a : Args) : FVec Ideal S158x256 .f32 :=
  ((fun x => shapeCast _ x shapeCasts_S1x158x256_S158x256)) (kv_main_v80 a)
def kv_main_v82 (a : Args) : FVec Ideal S1x256 .f32 :=
  (((extractStridedSlice S1x256 ![0, 0] · slices_S4x256_S1x256_0_0) : (FVec Ideal S4x256 .f32) → (FVec Ideal S1x256 .f32))) (a.x13)
def kv_main_v83 (a : Args) : FVec Ideal S256 .f32 :=
  ((fun x => shapeCast _ x shapeCasts_S1x256_S256)) (kv_main_v82 a)
def kv_main_v84 (a : Args) : FVec Ideal S1x256 .f32 :=
  (((extractStridedSlice S1x256 ![0, 0] · slices_S4x256_S1x256_0_0) : (FVec Ideal S4x256 .f32) → (FVec Ideal S1x256 .f32))) (a.x14)
def kv_main_v85 (a : Args) : FVec Ideal S256 .f32 :=
  ((fun x => shapeCast _ x shapeCasts_S1x256_S256)) (kv_main_v84 a)
def kv_main_v86 (a : Args) : FVec Ideal S1x256 .f32 :=
  (((extractStridedSlice S1x256 ![0, 0] · slices_S4x256_S1x256_0_0) : (FVec Ideal S4x256 .f32) → (FVec Ideal S1x256 .f32))) (a.x15)
def kv_main_v87 (a : Args) : FVec Ideal S256 .f32 :=
  ((fun x => shapeCast _ x shapeCasts_S1x256_S256)) (kv_main_v86 a)
def kv_main_v88 (a : Args) : FVec Ideal S1x256x256 .f32 :=
  (((extractStridedSlice S1x256x256 ![0, 0, 0] · slices_S4x256x256_S1x256x256_0_0_0) : (FVec Ideal S4x256x256 .f32) → (FVec Ideal S1x256x256 .f32))) (a.x16)
def kv_main_v89 (a : Args) : FVec Ideal S256x256 .f32 :=
  ((fun x => shapeCast _ x shapeCasts_S1x256x256_S256x256)) (kv_main_v88 a)
def kv_main_v90 (a : Args) : FVec Ideal S1x256 .f32 :=
  (((extractStridedSlice S1x256 ![0, 0] · slices_S4x256_S1x256_0_0) : (FVec Ideal S4x256 .f32) → (FVec Ideal S1x256 .f32))) (a.x17)
def kv_main_v91 (a : Args) : FVec Ideal S256 .f32 :=
  ((fun x => shapeCast _ x shapeCasts_S1x256_S256)) (kv_main_v90 a)
def kv_main_v92 (a : Args) : FVec Ideal S10000x256 .f32 :=
  (((fun l r => Host.dotGeneral dot_S10000x158_S158x256_S10000x256_1_0_0_1_n_n none l r) : (FVec Ideal S10000x158 .f32) → (FVec Ideal S158x256 .f32) → (FVec Ideal S10000x256 .f32))) (kv_main_v70 a) (kv_main_v81 a)
def kv_main_v93 (a : Args) : FVec Ideal S1x256 .f32 :=
  ((broadcastInDim S1x256 ![1] bcast_S256_S1x256_1 : (FVec Ideal S256 .f32) → (FVec Ideal S1x256 .f32))) (kv_main_v83 a)
def kv_main_v94 (a : Args) : FVec Ideal S10000x256 .f32 :=
  ((broadcastInDim S10000x256 ![0, 1] bcast_S1x256_S10000x256_0_1 : (FVec Ideal S1x256 .f32) → (FVec Ideal S10000x256 .f32))) (kv_main_v93 a)
def kv_main_v95 (a : Args) : FVec Ideal S10000x256 .f32 :=
  ((addf : (FVec Ideal S10000x256 .f32) → (FVec Ideal S10000x256 .f32) → (FVec Ideal S10000x256 .f32))) (kv_main_v92 a) (kv_main_v94 a)
def kv_main_cst_16 (a : Args) : FVec Ideal S_ .f32 :=
  (constant S_ .f32 0x00000000#32)
def kv_main_v96 (a : Args) : FVec Ideal S256 .f32 :=
  (((fun x v => Host.reduceAdd x v reducesTo_S10000x256_S256_d0 h_S_) : (FVec Ideal S10000x256 .f32) → (FVec Ideal S_ .f32) → (FVec Ideal S256 .f32))) (kv_main_v95 a) (kv_main_cst_16 a)
def kv_main_cst_17 (a : Args) : FVec Ideal S_ .f32 :=
  (constant S_ .f32 0x461C4000#32)
def kv_main_v97 (a : Args) : FVec Ideal S256 .f32 :=
  ((broadcastInDim S256 ![] bcast_S_S256 : (FVec Ideal S_ .f32) → (FVec Ideal S256 .f32))) (kv_main_cst_17 a)
def kv_main_v98 (a : Args) : FVec Ideal S256 .f32 :=
  ((Host.divf : (FVec Ideal S256 .f32) → (FVec Ideal S256 .f32) → (FVec Ideal S256 .f32))) (kv_main_v96 a) (kv_main_v97 a)
def kv_main_v99 (a : Args) : FVec Ideal S1x256 .f32 :=
  ((broadcastInDim S1x256 ![1] bcast_S256_S1x256_1 : (FVec Ideal S256 .f32) → (FVec Ideal S1x256 .f32))) (kv_main_v98 a)
def kv_main_v100 (a : Args) : FVec Ideal S10000x256 .f32 :=
  ((broadcastInDim S10000x256 ![0, 1] bcast_S1x256_S10000x256_0_1 : (FVec Ideal S1x256 .f32) → (FVec Ideal S10000x256 .f32))) (kv_main_v99 a)
def kv_main_v101 (a : Args) : FVec Ideal S10000x256 .f32 :=
  ((subf : (FVec Ideal S10000x256 .f32) → (FVec Ideal S10000x256 .f32) → (FVec Ideal S10000x256 .f32))) (kv_main_v95 a) (kv_main_v100 a)
def kv_main_v102 (a : Args) : FVec Ideal S10000x256 .f32 :=
  ((mulf : (FVec Ideal S10000x256 .f32) → (FVec Ideal S10000x256 .f32) → (FVec Ideal S10000x256 .f32))) (kv_main_v101 a) (kv_main_v101 a)
def kv_main_cst_18 (a : Args) : FVec Ideal S_ .f32 :=
  (constant S_ .f32 0x00000000#32)
def kv_main_v103 (a : Args) : FVec Ideal S256 .f32 :=
  (((fun x v => Host.reduceAdd x v reducesTo_S10000x256_S256_d0 h_S_) : (FVec Ideal S10000x256 .f32) → (FVec Ideal S_ .f32) → (FVec Ideal S256 .f32))) (kv_main_v102 a) (kv_main_cst_18 a)
def kv_main_cst_19 (a : Args) : FVec Ideal S_ .f32 :=
  (constant S_ .f32 0x461C4000#32)
def kv_main_v104 (a : Args) : FVec Ideal S256 .f32 :=
  ((broadcastInDim S256 ![] bcast_S_S256 : (FVec Ideal S_ .f32) → (FVec Ideal S256 .f32))) (kv_main_cst_19 a)
def kv_main_v105 (a : Args) : FVec Ideal S256 .f32 :=
  ((Host.divf : (FVec Ideal S256 .f32) → (FVec Ideal S256 .f32) → (FVec Ideal S256 .f32))) (kv_main_v103 a) (kv_main_v104 a)
def kv_main_v106 (a : Args) : FVec Ideal S1x256 .f32 :=
  ((broadcastInDim S1x256 ![1] bcast_S256_S1x256_1 : (FVec Ideal S256 .f32) → (FVec Ideal S1x256 .f32))) (kv_main_v98 a)
def kv_main_v107 (a : Args) : FVec Ideal S10000x256 .f32 :=
  ((broadcastInDim S10000x256 ![0, 1] bcast_S1x256_S10000x256_0_1 : (FVec Ideal S1x256 .f32) → (FVec Ideal S10000x256 .f32))) (kv_main_v106 a)
def kv_main_v108 (a : Args) : FVec Ideal S10000x256 .f32 :=
  ((subf : (FVec Ideal S10000x256 .f32) → (FVec Ideal S10000x256 .f32) → (FVec Ideal S10000x256 .f32))) (kv_main_v95 a) (kv_main_v107 a)
def kv_main_v109 (a : Args) : FVec Ideal S1x256 .f32 :=
  ((broadcastInDim S1x256 ![1] bcast_S256_S1x256_1 : (FVec Ideal S256 .f32) → (FVec Ideal S1x256 .f32))) (kv_main_v85 a)
def kv_main_v110 (a : Args) : FVec Ideal S10000x256 .f32 :=
  ((broadcastInDim S10000x256 ![0, 1] bcast_S1x256_S10000x256_0_1 : (FVec Ideal S1x256 .f32) → (FVec Ideal S10000x256 .f32))) (kv_main_v109 a)
def kv_main_v111 (a : Args) : FVec Ideal S10000x256 .f32 :=
  ((mulf : (FVec Ideal S10000x256 .f32) → (FVec Ideal S10000x256 .f32) → (FVec Ideal S10000x256 .f32))) (kv_main_v110 a) (kv_main_v108 a)
def kv_main_cst_20 (a : Args) : FVec Ideal S_ .f32 :=
  (constant S_ .f32 0x3727C5AC#32)
def kv_main_v112 (a : Args) : FVec Ideal S256 .f32 :=
  ((broadcastInDim S256 ![] bcast_S_S256 : (FVec Ideal S_ .f32) → (FVec Ideal S256 .f32))) (kv_main_cst_20 a)
def kv_main_v113 (a : Args) : FVec Ideal S256 .f32 :=
  ((addf : (FVec Ideal S256 .f32) → (FVec Ideal S256 .f32) → (FVec Ideal S256 .f32))) (kv_main_v105 a) (kv_main_v112 a)
def kv_main_v114 (a : Args) : FVec Ideal S256 .f32 :=
  ((Host.rsqrt : (FVec Ideal S256 .f32) → (FVec Ideal S256 .f32))) (kv_main_v113 a)
def kv_main_v115 (a : Args) : FVec Ideal S1x256 .f32 :=
  ((broadcastInDim S1x256 ![1] bcast_S256_S1x256_1 : (FVec Ideal S256 .f32) → (FVec Ideal S1x256 .f32))) (kv_main_v114 a)
def kv_main_v116 (a : Args) : FVec Ideal S10000x256 .f32 :=
  ((broadcastInDim S10000x256 ![0, 1] bcast_S1x256_S10000x256_0_1 : (FVec Ideal S1x256 .f32) → (FVec Ideal S10000x256 .f32))) (kv_main_v115 a)
def kv_main_v117 (a : Args) : FVec Ideal S10000x256 .f32 :=
  ((mulf : (FVec Ideal S10000x256 .f32) → (FVec Ideal S10000x256 .f32) → (FVec Ideal S10000x256 .f32))) (kv_main_v111 a) (kv_main_v116 a)
def kv_main_v118 (a : Args) : FVec Ideal S1x256 .f32 :=
  ((broadcastInDim S1x256 ![1] bcast_S256_S1x256_1 : (FVec Ideal S256 .f32) → (FVec Ideal S1x256 .f32))) (kv_main_v87 a)
def kv_main_v119 (a : Args) : FVec Ideal S10000x256 .f32 :=
  ((broadcastInDim S10000x256 ![0, 1] bcast_S1x256_S10000x256_0_1 : (FVec Ideal S1x256 .f32) → (FVec Ideal S10000x256 .f32))) (kv_main_v118 a)
def kv_main_v120 (a : Args) : FVec Ideal S10000x256 .f32 :=
  ((addf : (FVec Ideal S10000x256 .f32) → (FVec Ideal S10000x256 .f32) → (FVec Ideal S10000x256 .f32))) (kv_main_v117 a) (kv_main_v119 a)
def kv_main_call6_cst (a : Args) : FVec Ideal S_ .f32 :=
  (constant S_ .f32 0x00000000#32)
def kv_main_call6_v0 (a : Args) : FVec Ideal S10000x256 .f32 :=
  ((broadcastInDim S10000x256 ![] bcast_S_S10000x256)) (kv_main_call6_cst a)
def kv_main_v121 (a : Args) : FVec Ideal S10000x256 .f32 :=
  (maximumf) (kv_main_v120 a) (kv_main_call6_v0 a)
def kv_main_v122 (a : Args) : FVec Ideal S10000x256 .f32 :=
  (((fun l r => Host.dotGeneral dot_S10000x256_S256x256_S10000x256_1_0_0_1_n_n none l r) : (FVec Ideal S10000x256 .f32) → (FVec Ideal S256x256 .f32) → (FVec Ideal S10000x256 .f32))) (kv_main_v121 a) (kv_main_v89 a)
def kv_main_v123 (a : Args) : FVec Ideal S1x256 .f32 :=
  ((broadcastInDim S1x256 ![1] bcast_S256_S1x256_1 : (FVec Ideal S256 .f32) → (FVec Ideal S1x256 .f32))) (kv_main_v91 a)
def kv_main_v124 (a : Args) : FVec Ideal S10000x256 .f32 :=
  ((broadcastInDim S10000x256 ![0, 1] bcast_S1x256_S10000x256_0_1 : (FVec Ideal S1x256 .f32) → (FVec Ideal S10000x256 .f32))) (kv_main_v123 a)
def kv_main_v125 (a : Args) : FVec Ideal S10000x256 .f32 :=
  ((addf : (FVec Ideal S10000x256 .f32) → (FVec Ideal S10000x256 .f32) → (FVec Ideal S10000x256 .f32))) (kv_main_v122 a) (kv_main_v124 a)
def kv_main_v126 (a : Args) : FVec Ideal S10000x256 .f32 :=
  ((addf : (FVec Ideal S10000x256 .f32) → (FVec Ideal S10000x256 .f32) → (FVec Ideal S10000x256 .f32))) (kv_main_v79 a) (kv_main_v125 a)
def kv_main_v127 (a : Args) : FVec Ideal S1x158x256 .f32 :=
  (((extractStridedSlice S1x158x256 ![1, 0, 0] · slices_S4x158x256_S1x158x256_1_0_0) : (FVec Ideal S4x158x256 .f32) → (FVec Ideal S1x158x256 .f32))) (a.x12)
def kv_main_v128 (a : Args) : FVec Ideal S158x256 .f32 :=
  ((fun x => shapeCast _ x shapeCasts_S1x158x256_S158x256)) (kv_main_v127 a)
def kv_main_v129 (a : Args) : FVec Ideal S1x256 .f32 :=
  (((extractStridedSlice S1x256 ![1, 0] · slices_S4x256_S1x256_1_0) : (FVec Ideal S4x256 .f32) → (FVec Ideal S1x256 .f32))) (a.x13)
def kv_main_v130 (a : Args) : FVec Ideal S256 .f32 :=
  ((fun x => shapeCast _ x shapeCasts_S1x256_S256)) (kv_main_v129 a)
def kv_main_v131 (a : Args) : FVec Ideal S1x256 .f32 :=
  (((extractStridedSlice S1x256 ![1, 0] · slices_S4x256_S1x256_1_0) : (FVec Ideal S4x256 .f32) → (FVec Ideal S1x256 .f32))) (a.x14)
def kv_main_v132 (a : Args) : FVec Ideal S256 .f32 :=
  ((fun x => shapeCast _ x shapeCasts_S1x256_S256)) (kv_main_v131 a)
def kv_main_v133 (a : Args) : FVec Ideal S1x256 .f32 :=
  (((extractStridedSlice S1x256 ![1, 0] · slices_S4x256_S1x256_1_0) : (FVec Ideal S4x256 .f32) → (FVec Ideal S1x256 .f32))) (a.x15)
def kv_main_v134 (a : Args) : FVec Ideal S256 .f32 :=
  ((fun x => shapeCast _ x shapeCasts_S1x256_S256)) (kv_main_v133 a)
def kv_main_v135 (a : Args) : FVec Ideal S1x256x256 .f32 :=
  (((extractStridedSlice S1x256x256 ![1, 0, 0] · slices_S4x256x256_S1x256x256_1_0_0) : (FVec Ideal S4x256x256 .f32) → (FVec Ideal S1x256x256 .f32))) (a.x16)
def kv_main_v136 (a : Args) : FVec Ideal S256x256 .f32 :=
  ((fun x => shapeCast _ x shapeCasts_S1x256x256_S256x256)) (kv_main_v135 a)
def kv_main_v137 (a : Args) : FVec Ideal S1x256 .f32 :=
  (((extractStridedSlice S1x256 ![1, 0] · slices_S4x256_S1x256_1_0) : (FVec Ideal S4x256 .f32) → (FVec Ideal S1x256 .f32))) (a.x17)
def kv_main_v138 (a : Args) : FVec Ideal S256 .f32 :=
  ((fun x => shapeCast _ x shapeCasts_S1x256_S256)) (kv_main_v137 a)
def kv_main_v139 (a : Args) : FVec Ideal S10000x256 .f32 :=
  (((fun l r => Host.dotGeneral dot_S10000x158_S158x256_S10000x256_1_0_0_1_n_n none l r) : (FVec Ideal S10000x158 .f32) → (FVec Ideal S158x256 .f32) → (FVec Ideal S10000x256 .f32))) (kv_main_v74 a) (kv_main_v128 a)
def kv_main_v140 (a : Args) : FVec Ideal S1x256 .f32 :=
  ((broadcastInDim S1x256 ![1] bcast_S256_S1x256_1 : (FVec Ideal S256 .f32) → (FVec Ideal S1x256 .f32))) (kv_main_v130 a)
def kv_main_v141 (a : Args) : FVec Ideal S10000x256 .f32 :=
  ((broadcastInDim S10000x256 ![0, 1] bcast_S1x256_S10000x256_0_1 : (FVec Ideal S1x256 .f32) → (FVec Ideal S10000x256 .f32))) (kv_main_v140 a)
def kv_main_v142 (a : Args) : FVec Ideal S10000x256 .f32 :=
  ((addf : (FVec Ideal S10000x256 .f32) → (FVec Ideal S10000x256 .f32) → (FVec Ideal S10000x256 .f32))) (kv_main_v139 a) (kv_main_v141 a)
def kv_main_cst_21 (a : Args) : FVec Ideal S_ .f32 :=
  (constant S_ .f32 0x00000000#32)
def kv_main_v143 (a : Args) : FVec Ideal S256 .f32 :=
  (((fun x v => Host.reduceAdd x v reducesTo_S10000x256_S256_d0 h_S_) : (FVec Ideal S10000x256 .f32) → (FVec Ideal S_ .f32) → (FVec Ideal S256 .f32))) (kv_main_v142 a) (kv_main_cst_21 a)
def kv_main_cst_22 (a : Args) : FVec Ideal S_ .f32 :=
  (constant S_ .f32 0x461C4000#32)
def kv_main_v144 (a : Args) : FVec Ideal S256 .f32 :=
  ((broadcastInDim S256 ![] bcast_S_S256 : (FVec Ideal S_ .f32) → (FVec Ideal S256 .f32))) (kv_main_cst_22 a)
def kv_main_v145 (a : Args) : FVec Ideal S256 .f32 :=
  ((Host.divf : (FVec Ideal S256 .f32) → (FVec Ideal S256 .f32) → (FVec Ideal S256 .f32))) (kv_main_v143 a) (kv_main_v144 a)
def kv_main_v146 (a : Args) : FVec Ideal S1x256 .f32 :=
  ((broadcastInDim S1x256 ![1] bcast_S256_S1x256_1 : (FVec Ideal S256 .f32) → (FVec Ideal S1x256 .f32))) (kv_main_v145 a)
def kv_main_v147 (a : Args) : FVec Ideal S10000x256 .f32 :=
  ((broadcastInDim S10000x256 ![0, 1] bcast_S1x256_S10000x256_0_1 : (FVec Ideal S1x256 .f32) → (FVec Ideal S10000x256 .f32))) (kv_main_v146 a)
def kv_main_v148 (a : Args) : FVec Ideal S10000x256 .f32 :=
  ((subf : (FVec Ideal S10000x256 .f32) → (FVec Ideal S10000x256 .f32) → (FVec Ideal S10000x256 .f32))) (kv_main_v142 a) (kv_main_v147 a)
def kv_main_v149 (a : Args) : FVec Ideal S10000x256 .f32 :=
  ((mulf : (FVec Ideal S10000x256 .f32) → (FVec Ideal S10000x256 .f32) → (FVec Ideal S10000x256 .f32))) (kv_main_v148 a) (kv_main_v148 a)
def kv_main_cst_23 (a : Args) : FVec Ideal S_ .f32 :=
  (constant S_ .f32 0x00000000#32)
def kv_main_v150 (a : Args) : FVec Ideal S256 .f32 :=
  (((fun x v => Host.reduceAdd x v reducesTo_S10000x256_S256_d0 h_S_) : (FVec Ideal S10000x256 .f32) → (FVec Ideal S_ .f32) → (FVec Ideal S256 .f32))) (kv_main_v149 a) (kv_main_cst_23 a)
def kv_main_cst_24 (a : Args) : FVec Ideal S_ .f32 :=
  (constant S_ .f32 0x461C4000#32)
def kv_main_v151 (a : Args) : FVec Ideal S256 .f32 :=
  ((broadcastInDim S256 ![] bcast_S_S256 : (FVec Ideal S_ .f32) → (FVec Ideal S256 .f32))) (kv_main_cst_24 a)
def kv_main_v152 (a : Args) : FVec Ideal S256 .f32 :=
  ((Host.divf : (FVec Ideal S256 .f32) → (FVec Ideal S256 .f32) → (FVec Ideal S256 .f32))) (kv_main_v150 a) (kv_main_v151 a)
def kv_main_v153 (a : Args) : FVec Ideal S1x256 .f32 :=
  ((broadcastInDim S1x256 ![1] bcast_S256_S1x256_1 : (FVec Ideal S256 .f32) → (FVec Ideal S1x256 .f32))) (kv_main_v145 a)
def kv_main_v154 (a : Args) : FVec Ideal S10000x256 .f32 :=
  ((broadcastInDim S10000x256 ![0, 1] bcast_S1x256_S10000x256_0_1 : (FVec Ideal S1x256 .f32) → (FVec Ideal S10000x256 .f32))) (kv_main_v153 a)
def kv_main_v155 (a : Args) : FVec Ideal S10000x256 .f32 :=
  ((subf : (FVec Ideal S10000x256 .f32) → (FVec Ideal S10000x256 .f32) → (FVec Ideal S10000x256 .f32))) (kv_main_v142 a) (kv_main_v154 a)
def kv_main_v156 (a : Args) : FVec Ideal S1x256 .f32 :=
  ((broadcastInDim S1x256 ![1] bcast_S256_S1x256_1 : (FVec Ideal S256 .f32) → (FVec Ideal S1x256 .f32))) (kv_main_v132 a)
def kv_main_v157 (a : Args) : FVec Ideal S10000x256 .f32 :=
  ((broadcastInDim S10000x256 ![0, 1] bcast_S1x256_S10000x256_0_1 : (FVec Ideal S1x256 .f32) → (FVec Ideal S10000x256 .f32))) (kv_main_v156 a)
def kv_main_v158 (a : Args) : FVec Ideal S10000x256 .f32 :=
  ((mulf : (FVec Ideal S10000x256 .f32) → (FVec Ideal S10000x256 .f32) → (FVec Ideal S10000x256 .f32))) (kv_main_v157 a) (kv_main_v155 a)
def kv_main_cst_25 (a : Args) : FVec Ideal S_ .f32 :=
  (constant S_ .f32 0x3727C5AC#32)
def kv_main_v159 (a : Args) : FVec Ideal S256 .f32 :=
  ((broadcastInDim S256 ![] bcast_S_S256 : (FVec Ideal S_ .f32) → (FVec Ideal S256 .f32))) (kv_main_cst_25 a)
def kv_main_v160 (a : Args) : FVec Ideal S256 .f32 :=
  ((addf : (FVec Ideal S256 .f32) → (FVec Ideal S256 .f32) → (FVec Ideal S256 .f32))) (kv_main_v152 a) (kv_main_v159 a)
def kv_main_v161 (a : Args) : FVec Ideal S256 .f32 :=
  ((Host.rsqrt : (FVec Ideal S256 .f32) → (FVec Ideal S256 .f32))) (kv_main_v160 a)
def kv_main_v162 (a : Args) : FVec Ideal S1x256 .f32 :=
  ((broadcastInDim S1x256 ![1] bcast_S256_S1x256_1 : (FVec Ideal S256 .f32) → (FVec Ideal S1x256 .f32))) (kv_main_v161 a)
def kv_main_v163 (a : Args) : FVec Ideal S10000x256 .f32 :=
  ((broadcastInDim S10000x256 ![0, 1] bcast_S1x256_S10000x256_0_1 : (FVec Ideal S1x256 .f32) → (FVec Ideal S10000x256 .f32))) (kv_main_v162 a)
def kv_main_v164 (a : Args) : FVec Ideal S10000x256 .f32 :=
  ((mulf : (FVec Ideal S10000x256 .f32) → (FVec Ideal S10000x256 .f32) → (FVec Ideal S10000x256 .f32))) (kv_main_v158 a) (kv_main_v163 a)
def kv_main_v165 (a : Args) : FVec Ideal S1x256 .f32 :=
  ((broadcastInDim S1x256 ![1] bcast_S256_S1x256_1 : (FVec Ideal S256 .f32) → (FVec Ideal S1x256 .f32))) (kv_main_v134 a)
def kv_main_v166 (a : Args) : FVec Ideal S10000x256 .f32 :=
  ((broadcastInDim S10000x256 ![0, 1] bcast_S1x256_S10000x256_0_1 : (FVec Ideal S1x256 .f32) → (FVec Ideal S10000x256 .f32))) (kv_main_v165 a)
def kv_main_v167 (a : Args) : FVec Ideal S10000x256 .f32 :=
  ((addf : (FVec Ideal S10000x256 .f32) → (FVec Ideal S10000x256 .f32) → (FVec Ideal S10000x256 .f32))) (kv_main_v164 a) (kv_main_v166 a)
def kv_main_call7_cst (a : Args) : FVec Ideal S_ .f32 :=
  (constant S_ .f32 0x00000000#32)
def kv_main_call7_v0 (a : Args) : FVec Ideal S10000x256 .f32 :=
  ((broadcastInDim S10000x256 ![] bcast_S_S10000x256)) (kv_main_call7_cst a)
def kv_main_v168 (a : Args) : FVec Ideal S10000x256 .f32 :=
  (maximumf) (kv_main_v167 a) (kv_main_call7_v0 a)
def kv_main_v169 (a : Args) : FVec Ideal S10000x256 .f32 :=
  (((fun l r => Host.dotGeneral dot_S10000x256_S256x256_S10000x256_1_0_0_1_n_n none l r) : (FVec Ideal S10000x256 .f32) → (FVec Ideal S256x256 .f32) → (FVec Ideal S10000x256 .f32))) (kv_main_v168 a) (kv_main_v136 a)
def kv_main_v170 (a : Args) : FVec Ideal S1x256 .f32 :=
  ((broadcastInDim S1x256 ![1] bcast_S256_S1x256_1 : (FVec Ideal S256 .f32) → (FVec Ideal S1x256 .f32))) (kv_main_v138 a)
def kv_main_v171 (a : Args) : FVec Ideal S10000x256 .f32 :=
  ((broadcastInDim S10000x256 ![0, 1] bcast_S1x256_S10000x256_0_1 : (FVec Ideal S1x256 .f32) → (FVec Ideal S10000x256 .f32))) (kv_main_v170 a)
def kv_main_v172 (a : Args) : FVec Ideal S10000x256 .f32 :=
  ((addf : (FVec Ideal S10000x256 .f32) → (FVec Ideal S10000x256 .f32) → (FVec Ideal S10000x256 .f32))) (kv_main_v169 a) (kv_main_v171 a)
def kv_main_v173 (a : Args) : FVec Ideal S10000x256 .f32 :=
  ((addf : (FVec Ideal S10000x256 .f32) → (FVec Ideal S10000x256 .f32) → (FVec Ideal S10000x256 .f32))) (kv_main_v126 a) (kv_main_v172 a)
def kv_main_v174 (a : Args) : FVec Ideal S1x158x256 .f32 :=
  (((extractStridedSlice S1x158x256 ![2, 0, 0] · slices_S4x158x256_S1x158x256_2_0_0) : (FVec Ideal S4x158x256 .f32) → (FVec Ideal S1x158x256 .f32))) (a.x12)
def kv_main_v175 (a : Args) : FVec Ideal S158x256 .f32 :=
  ((fun x => shapeCast _ x shapeCasts_S1x158x256_S158x256)) (kv_main_v174 a)
def kv_main_v176 (a : Args) : FVec Ideal S1x256 .f32 :=
  (((extractStridedSlice S1x256 ![2, 0] · slices_S4x256_S1x256_2_0) : (FVec Ideal S4x256 .f32) → (FVec Ideal S1x256 .f32))) (a.x13)
def kv_main_v177 (a : Args) : FVec Ideal S256 .f32 :=
  ((fun x => shapeCast _ x shapeCasts_S1x256_S256)) (kv_main_v176 a)
def kv_main_v178 (a : Args) : FVec Ideal S1x256 .f32 :=
  (((extractStridedSlice S1x256 ![2, 0] · slices_S4x256_S1x256_2_0) : (FVec Ideal S4x256 .f32) → (FVec Ideal S1x256 .f32))) (a.x14)
def kv_main_v179 (a : Args) : FVec Ideal S256 .f32 :=
  ((fun x => shapeCast _ x shapeCasts_S1x256_S256)) (kv_main_v178 a)
def kv_main_v180 (a : Args) : FVec Ideal S1x256 .f32 :=
  (((extractStridedSlice S1x256 ![2, 0] · slices_S4x256_S1x256_2_0) : (FVec Ideal S4x256 .f32) → (FVec Ideal S1x256 .f32))) (a.x15)
def kv_main_v181 (a : Args) : FVec Ideal S256 .f32 :=
  ((fun x => shapeCast _ x shapeCasts_S1x256_S256)) (kv_main_v180 a)
def kv_main_v182 (a : Args) : FVec Ideal S1x256x256 .f32 :=
  (((extractStridedSlice S1x256x256 ![2, 0, 0] · slices_S4x256x256_S1x256x256_2_0_0) : (FVec Ideal S4x256x256 .f32) → (FVec Ideal S1x256x256 .f32))) (a.x16)
def kv_main_v183 (a : Args) : FVec Ideal S256x256 .f32 :=
  ((fun x => shapeCast _ x shapeCasts_S1x256x256_S256x256)) (kv_main_v182 a)
def kv_main_v184 (a : Args) : FVec Ideal S1x256 .f32 :=
  (((extractStridedSlice S1x256 ![2, 0] · slices_S4x256_S1x256_2_0) : (FVec Ideal S4x256 .f32) → (FVec Ideal S1x256 .f32))) (a.x17)
def kv_main_v185 (a : Args) : FVec Ideal S256 .f32 :=
  ((fun x => shapeCast _ x shapeCasts_S1x256_S256)) (kv_main_v184 a)
def kv_main_v186 (a : Args) : FVec Ideal S10000x256 .f32 :=
  (((fun l r => Host.dotGeneral dot_S10000x158_S158x256_S10000x256_1_0_0_1_n_n none l r) : (FVec Ideal S10000x158 .f32) → (FVec Ideal S158x256 .f32) → (FVec Ideal S10000x256 .f32))) (kv_main_v76 a) (kv_main_v175 a)
def kv_main_v187 (a : Args) : FVec Ideal S1x256 .f32 :=
  ((broadcastInDim S1x256 ![1] bcast_S256_S1x256_1 : (FVec Ideal S256 .f32) → (FVec Ideal S1x256 .f32))) (kv_main_v177 a)
def kv_main_v188 (a : Args) : FVec Ideal S10000x256 .f32 :=
  ((broadcastInDim S10000x256 ![0, 1] bcast_S1x256_S10000x256_0_1 : (FVec Ideal S1x256 .f32) → (FVec Ideal S10000x256 .f32))) (kv_main_v187 a)
def kv_main_v189 (a : Args) : FVec Ideal S10000x256 .f32 :=
  ((addf : (FVec Ideal S10000x256 .f32) → (FVec Ideal S10000x256 .f32) → (FVec Ideal S10000x256 .f32))) (kv_main_v186 a) (kv_main_v188 a)
def kv_main_cst_26 (a : Args) : FVec Ideal S_ .f32 :=
  (constant S_ .f32 0x00000000#32)
def kv_main_v190 (a : Args) : FVec Ideal S256 .f32 :=
  (((fun x v => Host.reduceAdd x v reducesTo_S10000x256_S256_d0 h_S_) : (FVec Ideal S10000x256 .f32) → (FVec Ideal S_ .f32) → (FVec Ideal S256 .f32))) (kv_main_v189 a) (kv_main_cst_26 a)
def kv_main_cst_27 (a : Args) : FVec Ideal S_ .f32 :=
  (constant S_ .f32 0x461C4000#32)
def kv_main_v191 (a : Args) : FVec Ideal S256 .f32 :=
  ((broadcastInDim S256 ![] bcast_S_S256 : (FVec Ideal S_ .f32) → (FVec Ideal S256 .f32))) (kv_main_cst_27 a)
def kv_main_v192 (a : Args) : FVec Ideal S256 .f32 :=
  ((Host.divf : (FVec Ideal S256 .f32) → (FVec Ideal S256 .f32) → (FVec Ideal S256 .f32))) (kv_main_v190 a) (kv_main_v191 a)
def kv_main_v193 (a : Args) : FVec Ideal S1x256 .f32 :=
  ((broadcastInDim S1x256 ![1] bcast_S256_S1x256_1 : (FVec Ideal S256 .f32) → (FVec Ideal S1x256 .f32))) (kv_main_v192 a)
def kv_main_v194 (a : Args) : FVec Ideal S10000x256 .f32 :=
  ((broadcastInDim S10000x256 ![0, 1] bcast_S1x256_S10000x256_0_1 : (FVec Ideal S1x256 .f32) → (FVec Ideal S10000x256 .f32))) (kv_main_v193 a)
def kv_main_v195 (a : Args) : FVec Ideal S10000x256 .f32 :=
  ((subf : (FVec Ideal S10000x256 .f32) → (FVec Ideal S10000x256 .f32) → (FVec Ideal S10000x256 .f32))) (kv_main_v189 a) (kv_main_v194 a)
def kv_main_v196 (a : Args) : FVec Ideal S10000x256 .f32 :=
  ((mulf : (FVec Ideal S10000x256 .f32) → (FVec Ideal S10000x256 .f32) → (FVec Ideal S10000x256 .f32))) (kv_main_v195 a) (kv_main_v195 a)
def kv_main_cst_28 (a : Args) : FVec Ideal S_ .f32 :=
  (constant S_ .f32 0x00000000#32)
def kv_main_v197 (a : Args) : FVec Ideal S256 .f32 :=
  (((fun x v => Host.reduceAdd x v reducesTo_S10000x256_S256_d0 h_S_) : (FVec Ideal S10000x256 .f32) → (FVec Ideal S_ .f32) → (FVec Ideal S256 .f32))) (kv_main_v196 a) (kv_main_cst_28 a)
def kv_main_cst_29 (a : Args) : FVec Ideal S_ .f32 :=
  (constant S_ .f32 0x461C4000#32)
def kv_main_v198 (a : Args) : FVec Ideal S256 .f32 :=
  ((broadcastInDim S256 ![] bcast_S_S256 : (FVec Ideal S_ .f32) → (FVec Ideal S256 .f32))) (kv_main_cst_29 a)
def kv_main_v199 (a : Args) : FVec Ideal S256 .f32 :=
  ((Host.divf : (FVec Ideal S256 .f32) → (FVec Ideal S256 .f32) → (FVec Ideal S256 .f32))) (kv_main_v197 a) (kv_main_v198 a)
def kv_main_v200 (a : Args) : FVec Ideal S1x256 .f32 :=
  ((broadcastInDim S1x256 ![1] bcast_S256_S1x256_1 : (FVec Ideal S256 .f32) → (FVec Ideal S1x256 .f32))) (kv_main_v192 a)
def kv_main_v201 (a : Args) : FVec Ideal S10000x256 .f32 :=
  ((broadcastInDim S10000x256 ![0, 1] bcast_S1x256_S10000x256_0_1 : (FVec Ideal S1x256 .f32) → (FVec Ideal S10000x256 .f32))) (kv_main_v200 a)
def kv_main_v202 (a : Args) : FVec Ideal S10000x256 .f32 :=
  ((subf : (FVec Ideal S10000x256 .f32) → (FVec Ideal S10000x256 .f32) → (FVec Ideal S10000x256 .f32))) (kv_main_v189 a) (kv_main_v201 a)
def kv_main_v203 (a : Args) : FVec Ideal S1x256 .f32 :=
  ((broadcastInDim S1x256 ![1] bcast_S256_S1x256_1 : (FVec Ideal S256 .f32) → (FVec Ideal S1x256 .f32))) (kv_main_v179 a)
def kv_main_v204 (a : Args) : FVec Ideal S10000x256 .f32 :=
  ((broadcastInDim S10000x256 ![0, 1] bcast_S1x256_S10000x256_0_1 : (FVec Ideal S1x256 .f32) → (FVec Ideal S10000x256 .f32))) (kv_main_v203 a)
def kv_main_v205 (a : Args) : FVec Ideal S10000x256 .f32 :=
  ((mulf : (FVec Ideal S10000x256 .f32) → (FVec Ideal S10000x256 .f32) → (FVec Ideal S10000x256 .f32))) (kv_main_v204 a) (kv_main_v202 a)
def kv_main_cst_30 (a : Args) : FVec Ideal S_ .f32 :=
  (constant S_ .f32 0x3727C5AC#32)
def kv_main_v206 (a : Args) : FVec Ideal S256 .f32 :=
  ((broadcastInDim S256 ![] bcast_S_S256 : (FVec Ideal S_ .f32) → (FVec Ideal S256 .f32))) (kv_main_cst_30 a)
def kv_main_v207 (a : Args) : FVec Ideal S256 .f32 :=
  ((addf : (FVec Ideal S256 .f32) → (FVec Ideal S256 .f32) → (FVec Ideal S256 .f32))) (kv_main_v199 a) (kv_main_v206 a)
def kv_main_v208 (a : Args) : FVec Ideal S256 .f32 :=
  ((Host.rsqrt : (FVec Ideal S256 .f32) → (FVec Ideal S256 .f32))) (kv_main_v207 a)
def kv_main_v209 (a : Args) : FVec Ideal S1x256 .f32 :=
  ((broadcastInDim S1x256 ![1] bcast_S256_S1x256_1 : (FVec Ideal S256 .f32) → (FVec Ideal S1x256 .f32))) (kv_main_v208 a)
def kv_main_v210 (a : Args) : FVec Ideal S10000x256 .f32 :=
  ((broadcastInDim S10000x256 ![0, 1] bcast_S1x256_S10000x256_0_1 : (FVec Ideal S1x256 .f32) → (FVec Ideal S10000x256 .f32))) (kv_main_v209 a)
def kv_main_v211 (a : Args) : FVec Ideal S10000x256 .f32 :=
  ((mulf : (FVec Ideal S10000x256 .f32) → (FVec Ideal S10000x256 .f32) → (FVec Ideal S10000x256 .f32))) (kv_main_v205 a) (kv_main_v210 a)
def kv_main_v212 (a : Args) : FVec Ideal S1x256 .f32 :=
  ((broadcastInDim S1x256 ![1] bcast_S256_S1x256_1 : (FVec Ideal S256 .f32) → (FVec Ideal S1x256 .f32))) (kv_main_v181 a)
def kv_main_v213 (a : Args) : FVec Ideal S10000x256 .f32 :=
  ((broadcastInDim S10000x256 ![0, 1] bcast_S1x256_S10000x256_0_1 : (FVec Ideal S1x256 .f32) → (FVec Ideal S10000x256 .f32))) (kv_main_v212 a)
def kv_main_v214 (a : Args) : FVec Ideal S10000x256 .f32 :=
  ((addf : (FVec Ideal S10000x256 .f32) → (FVec Ideal S10000x256 .f32) → (FVec Ideal S10000x256 .f32))) (kv_main_v211 a) (kv_main_v213 a)
def kv_main_call8_cst (a : Args) : FVec Ideal S_ .f32 :=
  (constant S_ .f32 0x00000000#32)
def kv_main_call8_v0 (a : Args) : FVec Ideal S10000x256 .f32 :=
  ((broadcastInDim S10000x256 ![] bcast_S_S10000x256)) (kv_main_call8_cst a)
def kv_main_v215 (a : Args) : FVec Ideal S10000x256 .f32 :=
  (maximumf) (kv_main_v214 a) (kv_main_call8_v0 a)
def kv_main_v216 (a : Args) : FVec Ideal S10000x256 .f32 :=
  (((fun l r => Host.dotGeneral dot_S10000x256_S256x256_S10000x256_1_0_0_1_n_n none l r) : (FVec Ideal S10000x256 .f32) → (FVec Ideal S256x256 .f32) → (FVec Ideal S10000x256 .f32))) (kv_main_v215 a) (kv_main_v183 a)
def kv_main_v217 (a : Args) : FVec Ideal S1x256 .f32 :=
  ((broadcastInDim S1x256 ![1] bcast_S256_S1x256_1 : (FVec Ideal S256 .f32) → (FVec Ideal S1x256 .f32))) (kv_main_v185 a)
def kv_main_v218 (a : Args) : FVec Ideal S10000x256 .f32 :=
  ((broadcastInDim S10000x256 ![0, 1] bcast_S1x256_S10000x256_0_1 : (FVec Ideal S1x256 .f32) → (FVec Ideal S10000x256 .f32))) (kv_main_v217 a)
def kv_main_v219 (a : Args) : FVec Ideal S10000x256 .f32 :=
  ((addf : (FVec Ideal S10000x256 .f32) → (FVec Ideal S10000x256 .f32) → (FVec Ideal S10000x256 .f32))) (kv_main_v216 a) (kv_main_v218 a)
def kv_main_v220 (a : Args) : FVec Ideal S10000x256 .f32 :=
  ((addf : (FVec Ideal S10000x256 .f32) → (FVec Ideal S10000x256 .f32) → (FVec Ideal S10000x256 .f32))) (kv_main_v173 a) (kv_main_v219 a)
def kv_main_v221 (a : Args) : FVec Ideal S1x158x256 .f32 :=
  (((extractStridedSlice S1x158x256 ![3, 0, 0] · slices_S4x158x256_S1x158x256_3_0_0) : (FVec Ideal S4x158x256 .f32) → (FVec Ideal S1x158x256 .f32))) (a.x12)
def kv_main_v222 (a : Args) : FVec Ideal S158x256 .f32 :=
  ((fun x => shapeCast _ x shapeCasts_S1x158x256_S158x256)) (kv_main_v221 a)
def kv_main_v223 (a : Args) : FVec Ideal S1x256 .f32 :=
  (((extractStridedSlice S1x256 ![3, 0] · slices_S4x256_S1x256_3_0) : (FVec Ideal S4x256 .f32) → (FVec Ideal S1x256 .f32))) (a.x13)
def kv_main_v224 (a : Args) : FVec Ideal S256 .f32 :=
  ((fun x => shapeCast _ x shapeCasts_S1x256_S256)) (kv_main_v223 a)
def kv_main_v225 (a : Args) : FVec Ideal S1x256 .f32 :=
  (((extractStridedSlice S1x256 ![3, 0] · slices_S4x256_S1x256_3_0) : (FVec Ideal S4x256 .f32) → (FVec Ideal S1x256 .f32))) (a.x14)
def kv_main_v226 (a : Args) : FVec Ideal S256 .f32 :=
  ((fun x => shapeCast _ x shapeCasts_S1x256_S256)) (kv_main_v225 a)
def kv_main_v227 (a : Args) : FVec Ideal S1x256 .f32 :=
  (((extractStridedSlice S1x256 ![3, 0] · slices_S4x256_S1x256_3_0) : (FVec Ideal S4x256 .f32) → (FVec Ideal S1x256 .f32))) (a.x15)
def kv_main_v228 (a : Args) : FVec Ideal S256 .f32 :=
  ((fun x => shapeCast _ x shapeCasts_S1x256_S256)) (kv_main_v227 a)
def kv_main_v229 (a : Args) : FVec Ideal S1x256x256 .f32 :=
  (((extractStridedSlice S1x256x256 ![3, 0, 0] · slices_S4x256x256_S1x256x256_3_0_0) : (FVec Ideal S4x256x256 .f32) → (FVec Ideal S1x256x256 .f32))) (a.x16)
def kv_main_v230 (a : Args) : FVec Ideal S256x256 .f32 :=
  ((fun x => shapeCast _ x shapeCasts_S1x256x256_S256x256)) (kv_main_v229 a)
def kv_main_v231 (a : Args) : FVec Ideal S1x256 .f32 :=
  (((extractStridedSlice S1x256 ![3, 0] · slices_S4x256_S1x256_3_0) : (FVec Ideal S4x256 .f32) → (FVec Ideal S1x256 .f32))) (a.x17)
def kv_main_v232 (a : Args) : FVec Ideal S256 .f32 :=
  ((fun x => shapeCast _ x shapeCasts_S1x256_S256)) (kv_main_v231 a)
def kv_main_v233 (a : Args) : FVec Ideal S10000x256 .f32 :=
  (((fun l r => Host.dotGeneral dot_S10000x158_S158x256_S10000x256_1_0_0_1_n_n none l r) : (FVec Ideal S10000x158 .f32) → (FVec Ideal S158x256 .f32) → (FVec Ideal S10000x256 .f32))) (kv_main_v78 a) (kv_main_v222 a)
def kv_main_v234 (a : Args) : FVec Ideal S1x256 .f32 :=
  ((broadcastInDim S1x256 ![1] bcast_S256_S1x256_1 : (FVec Ideal S256 .f32) → (FVec Ideal S1x256 .f32))) (kv_main_v224 a)
def kv_main_v235 (a : Args) : FVec Ideal S10000x256 .f32 :=
  ((broadcastInDim S10000x256 ![0, 1] bcast_S1x256_S10000x256_0_1 : (FVec Ideal S1x256 .f32) → (FVec Ideal S10000x256 .f32))) (kv_main_v234 a)
def kv_main_v236 (a : Args) : FVec Ideal S10000x256 .f32 :=
  ((addf : (FVec Ideal S10000x256 .f32) → (FVec Ideal S10000x256 .f32) → (FVec Ideal S10000x256 .f32))) (kv_main_v233 a) (kv_main_v235 a)
def kv_main_cst_31 (a : Args) : FVec Ideal S_ .f32 :=
  (constant S_ .f32 0x00000000#32)
def kv_main_v237 (a : Args) : FVec Ideal S256 .f32 :=
  (((fun x v => Host.reduceAdd x v reducesTo_S10000x256_S256_d0 h_S_) : (FVec Ideal S10000x256 .f32) → (FVec Ideal S_ .f32) → (FVec Ideal S256 .f32))) (kv_main_v236 a) (kv_main_cst_31 a)
def kv_main_cst_32 (a : Args) : FVec Ideal S_ .f32 :=
  (constant S_ .f32 0x461C4000#32)
def kv_main_v238 (a : Args) : FVec Ideal S256 .f32 :=
  ((broadcastInDim S256 ![] bcast_S_S256 : (FVec Ideal S_ .f32) → (FVec Ideal S256 .f32))) (kv_main_cst_32 a)
def kv_main_v239 (a : Args) : FVec Ideal S256 .f32 :=
  ((Host.divf : (FVec Ideal S256 .f32) → (FVec Ideal S256 .f32) → (FVec Ideal S256 .f32))) (kv_main_v237 a) (kv_main_v238 a)
def kv_main_v240 (a : Args) : FVec Ideal S1x256 .f32 :=
  ((broadcastInDim S1x256 ![1] bcast_S256_S1x256_1 : (FVec Ideal S256 .f32) → (FVec Ideal S1x256 .f32))) (kv_main_v239 a)
def kv_main_v241 (a : Args) : FVec Ideal S10000x256 .f32 :=
  ((broadcastInDim S10000x256 ![0, 1] bcast_S1x256_S10000x256_0_1 : (FVec Ideal S1x256 .f32) → (FVec Ideal S10000x256 .f32))) (kv_main_v240 a)
def kv_main_v242 (a : Args) : FVec Ideal S10000x256 .f32 :=
  ((subf : (FVec Ideal S10000x256 .f32) → (FVec Ideal S10000x256 .f32) → (FVec Ideal S10000x256 .f32))) (kv_main_v236 a) (kv_main_v241 a)
def kv_main_v243 (a : Args) : FVec Ideal S10000x256 .f32 :=
  ((mulf : (FVec Ideal S10000x256 .f32) → (FVec Ideal S10000x256 .f32) → (FVec Ideal S10000x256 .f32))) (kv_main_v242 a) (kv_main_v242 a)
def kv_main_cst_33 (a : Args) : FVec Ideal S_ .f32 :=
  (constant S_ .f32 0x00000000#32)
def kv_main_v244 (a : Args) : FVec Ideal S256 .f32 :=
  (((fun x v => Host.reduceAdd x v reducesTo_S10000x256_S256_d0 h_S_) : (FVec Ideal S10000x256 .f32) → (FVec Ideal S_ .f32) → (FVec Ideal S256 .f32))) (kv_main_v243 a) (kv_main_cst_33 a)
def kv_main_cst_34 (a : Args) : FVec Ideal S_ .f32 :=
  (constant S_ .f32 0x461C4000#32)
def kv_main_v245 (a : Args) : FVec Ideal S256 .f32 :=
  ((broadcastInDim S256 ![] bcast_S_S256 : (FVec Ideal S_ .f32) → (FVec Ideal S256 .f32))) (kv_main_cst_34 a)
def kv_main_v246 (a : Args) : FVec Ideal S256 .f32 :=
  ((Host.divf : (FVec Ideal S256 .f32) → (FVec Ideal S256 .f32) → (FVec Ideal S256 .f32))) (kv_main_v244 a) (kv_main_v245 a)
def kv_main_v247 (a : Args) : FVec Ideal S1x256 .f32 :=
  ((broadcastInDim S1x256 ![1] bcast_S256_S1x256_1 : (FVec Ideal S256 .f32) → (FVec Ideal S1x256 .f32))) (kv_main_v239 a)
def kv_main_v248 (a : Args) : FVec Ideal S10000x256 .f32 :=
  ((broadcastInDim S10000x256 ![0, 1] bcast_S1x256_S10000x256_0_1 : (FVec Ideal S1x256 .f32) → (FVec Ideal S10000x256 .f32))) (kv_main_v247 a)
def kv_main_v249 (a : Args) : FVec Ideal S10000x256 .f32 :=
  ((subf : (FVec Ideal S10000x256 .f32) → (FVec Ideal S10000x256 .f32) → (FVec Ideal S10000x256 .f32))) (kv_main_v236 a) (kv_main_v248 a)
def kv_main_v250 (a : Args) : FVec Ideal S1x256 .f32 :=
  ((broadcastInDim S1x256 ![1] bcast_S256_S1x256_1 : (FVec Ideal S256 .f32) → (FVec Ideal S1x256 .f32))) (kv_main_v226 a)
def kv_main_v251 (a : Args) : FVec Ideal S10000x256 .f32 :=
  ((broadcastInDim S10000x256 ![0, 1] bcast_S1x256_S10000x256_0_1 : (FVec Ideal S1x256 .f32) → (FVec Ideal S10000x256 .f32))) (kv_main_v250 a)
def kv_main_v252 (a : Args) : FVec Ideal S10000x256 .f32 :=
  ((mulf : (FVec Ideal S10000x256 .f32) → (FVec Ideal S10000x256 .f32) → (FVec Ideal S10000x256 .f32))) (kv_main_v251 a) (kv_main_v249 a)
def kv_main_cst_35 (a : Args) : FVec Ideal S_ .f32 :=
  (constant S_ .f32 0x3727C5AC#32)
def kv_main_v253 (a : Args) : FVec Ideal S256 .f32 :=
  ((broadcastInDim S256 ![] bcast_S_S256 : (FVec Ideal S_ .f32) → (FVec Ideal S256 .f32))) (kv_main_cst_35 a)
def kv_main_v254 (a : Args) : FVec Ideal S256 .f32 :=
  ((addf : (FVec Ideal S256 .f32) → (FVec Ideal S256 .f32) → (FVec Ideal S256 .f32))) (kv_main_v246 a) (kv_main_v253 a)
def kv_main_v255 (a : Args) : FVec Ideal S256 .f32 :=
  ((Host.rsqrt : (FVec Ideal S256 .f32) → (FVec Ideal S256 .f32))) (kv_main_v254 a)
def kv_main_v256 (a : Args) : FVec Ideal S1x256 .f32 :=
  ((broadcastInDim S1x256 ![1] bcast_S256_S1x256_1 : (FVec Ideal S256 .f32) → (FVec Ideal S1x256 .f32))) (kv_main_v255 a)
def kv_main_v257 (a : Args) : FVec Ideal S10000x256 .f32 :=
  ((broadcastInDim S10000x256 ![0, 1] bcast_S1x256_S10000x256_0_1 : (FVec Ideal S1x256 .f32) → (FVec Ideal S10000x256 .f32))) (kv_main_v256 a)
def kv_main_v258 (a : Args) : FVec Ideal S10000x256 .f32 :=
  ((mulf : (FVec Ideal S10000x256 .f32) → (FVec Ideal S10000x256 .f32) → (FVec Ideal S10000x256 .f32))) (kv_main_v252 a) (kv_main_v257 a)
def kv_main_v259 (a : Args) : FVec Ideal S1x256 .f32 :=
  ((broadcastInDim S1x256 ![1] bcast_S256_S1x256_1 : (FVec Ideal S256 .f32) → (FVec Ideal S1x256 .f32))) (kv_main_v228 a)
def kv_main_v260 (a : Args) : FVec Ideal S10000x256 .f32 :=
  ((broadcastInDim S10000x256 ![0, 1] bcast_S1x256_S10000x256_0_1 : (FVec Ideal S1x256 .f32) → (FVec Ideal S10000x256 .f32))) (kv_main_v259 a)
def kv_main_v261 (a : Args) : FVec Ideal S10000x256 .f32 :=
  ((addf : (FVec Ideal S10000x256 .f32) → (FVec Ideal S10000x256 .f32) → (FVec Ideal S10000x256 .f32))) (kv_main_v258 a) (kv_main_v260 a)
def kv_main_call9_cst (a : Args) : FVec Ideal S_ .f32 :=
  (constant S_ .f32 0x00000000#32)
def kv_main_call9_v0 (a : Args) : FVec Ideal S10000x256 .f32 :=
  ((broadcastInDim S10000x256 ![] bcast_S_S10000x256)) (kv_main_call9_cst a)
def kv_main_v262 (a : Args) : FVec Ideal S10000x256 .f32 :=
  (maximumf) (kv_main_v261 a) (kv_main_call9_v0 a)
def kv_main_v263 (a : Args) : FVec Ideal S10000x256 .f32 :=
  (((fun l r => Host.dotGeneral dot_S10000x256_S256x256_S10000x256_1_0_0_1_n_n none l r) : (FVec Ideal S10000x256 .f32) → (FVec Ideal S256x256 .f32) → (FVec Ideal S10000x256 .f32))) (kv_main_v262 a) (kv_main_v230 a)
def kv_main_v264 (a : Args) : FVec Ideal S1x256 .f32 :=
  ((broadcastInDim S1x256 ![1] bcast_S256_S1x256_1 : (FVec Ideal S256 .f32) → (FVec Ideal S1x256 .f32))) (kv_main_v232 a)
def kv_main_v265 (a : Args) : FVec Ideal S10000x256 .f32 :=
  ((broadcastInDim S10000x256 ![0, 1] bcast_S1x256_S10000x256_0_1 : (FVec Ideal S1x256 .f32) → (FVec Ideal S10000x256 .f32))) (kv_main_v264 a)
def kv_main_v266 (a : Args) : FVec Ideal S10000x256 .f32 :=
  ((addf : (FVec Ideal S10000x256 .f32) → (FVec Ideal S10000x256 .f32) → (FVec Ideal S10000x256 .f32))) (kv_main_v263 a) (kv_main_v265 a)
def kv_main_v267 (a : Args) : FVec Ideal S10000x256 .f32 :=
  ((addf : (FVec Ideal S10000x256 .f32) → (FVec Ideal S10000x256 .f32) → (FVec Ideal S10000x256 .f32))) (kv_main_v220 a) (kv_main_v266 a)
def kv_main_v268 (a : Args) : FVec Ideal S10000x512 .f32 :=
  (((fun a b => concatenate S10000x512 1 [⟨S10000x256, a⟩, ⟨S10000x256, b⟩] concatenates_S10000x256_S10000x256_S10000x512_d1) : (FVec Ideal S10000x256 .f32) → (FVec Ideal S10000x256 .f32) → (FVec Ideal S10000x512 .f32))) (kv_main_v69 a) (kv_main_v267 a)

end Cert.KernelIdeal.KVal

end
-- ==== Proof.KLoc.lean ====
/- Written by a script (invocation: bun $KIT/certs/proofs/103117_j70961449664567_2_alg/scratch/gen_kval.js $KIT/certs/proofs/103117_j70961449664567_2_alg): per stretch of host operations of the kernel program, each value computed in the
   stretch as a function of the values the stretch reads from earlier ones (the operations' functions composed), and that the stretch leaves
   it in the value's buffer: a table of the program's data flow, no argument. -/
import proofs.«103117_j70961449664567_2_alg».proof.Proof.Gen.KernelIdeal.Frame
import proofs.«103117_j70961449664567_2_alg».proof.Proof.KVal

set_option maxRecDepth 16384

noncomputable section

namespace Cert.KernelIdeal.KLoc

open Cert.KernelIdeal Cert.KernelIdeal.Gen Idealize.ShloMosaic Idealize.ShloMosaic.TcCoe Idealize.SL.Sem Idealize.ShloMosaic.StableHlo

def lv_main_v0 : IVec S10000 32 :=
  (iotaInDim S10000 32 0)
def lv_main_v1 (y_main_arg1 : IVec S2x320000 32) : IVec S1x320000 32 :=
  (((extractStridedSlice S1x320000 ![0, 0] · slices_S2x320000_S1x320000_0_0) : (IVec S2x320000 32) → (IVec S1x320000 32))) y_main_arg1
def lv_main_v2 (y_main_arg1 : IVec S2x320000 32) : IVec S320000 32 :=
  ((fun x => shapeCast _ x shapeCasts_S1x320000_S320000)) (lv_main_v1 y_main_arg1)
def lv_main_v3 (y_main_arg1 : IVec S2x320000 32) : IVec S330000 32 :=
  (((fun a b => concatenate S330000 0 [⟨S320000, a⟩, ⟨S10000, b⟩] concatenates_S320000_S10000_S330000_d0) : (IVec S320000 32) → (IVec S10000 32) → (IVec S330000 32))) (lv_main_v2 y_main_arg1) (lv_main_v0)
def lv_main_v4 (y_main_arg1 : IVec S2x320000 32) : IVec S1x320000 32 :=
  (((extractStridedSlice S1x320000 ![1, 0] · slices_S2x320000_S1x320000_1_0) : (IVec S2x320000 32) → (IVec S1x320000 32))) y_main_arg1
def lv_main_v5 (y_main_arg1 : IVec S2x320000 32) : IVec S320000 32 :=
  ((fun x => shapeCast _ x shapeCasts_S1x320000_S320000)) (lv_main_v4 y_main_arg1)
def lv_main_v6 (y_main_arg1 : IVec S2x320000 32) : IVec S330000 32 :=
  (((fun a b => concatenate S330000 0 [⟨S320000, a⟩, ⟨S10000, b⟩] concatenates_S320000_S10000_S330000_d0) : (IVec S320000 32) → (IVec S10000 32) → (IVec S330000 32))) (lv_main_v5 y_main_arg1) (lv_main_v0)
def lv_main_cst : FVec Ideal S_ .f32 :=
  (constant S_ .f32 0x3F800000#32)
def lv_main_v7 : FVec Ideal S330000 .f32 :=
  ((broadcastInDim S330000 ![] bcast_S_S330000 : (FVec Ideal S_ .f32) → (FVec Ideal S330000 .f32))) (lv_main_cst)
def lv_main_cst_0 : FVec Ideal S_ .f32 :=
  (constant S_ .f32 0x00000000#32)
def lv_main_v8 : FVec Ideal S10000 .f32 :=
  ((broadcastInDim S10000 ![] bcast_S_S10000 : (FVec Ideal S_ .f32) → (FVec Ideal S10000 .f32))) (lv_main_cst_0)
def lv_main_v9 (y_main_arg1 : IVec S2x320000 32) : IVec S330000x1 32 :=
  ((broadcastInDim S330000x1 ![0] bcast_S330000_S330000x1_0 : (IVec S330000 32) → (IVec S330000x1 32))) (lv_main_v6 y_main_arg1)
def lv_main_v10 (y_main_arg1 : IVec S2x320000 32) : FVec Ideal S10000 .f32 :=
  (((fun x i u => Host.scatterAdd scatter_S10000_S330000x1_S330000_n_0_0_1 x i u) : (FVec Ideal S10000 .f32) → (IVec S330000x1 32) → (FVec Ideal S330000 .f32) → (FVec Ideal S10000 .f32))) (lv_main_v8) (lv_main_v9 y_main_arg1) (lv_main_v7)
def lv_main_cst_1 : FVec Ideal S_ .f32 :=
  (constant S_ .f32 0x00000000#32)
def lv_main_v11 : FVec Ideal S10000 .f32 :=
  ((broadcastInDim S10000 ![] bcast_S_S10000 : (FVec Ideal S_ .f32) → (FVec Ideal S10000 .f32))) (lv_main_cst_1)
def lv_main_v12 (y_main_arg1 : IVec S2x320000 32) : IVec S10000 1 :=
  ((cmpf .ogt : (FVec Ideal S10000 .f32) → (FVec Ideal S10000 .f32) → (IVec S10000 1))) (lv_main_v10 y_main_arg1) (lv_main_v11)
def lv_main_cst_2 : FVec Ideal S_ .f32 :=
  (constant S_ .f32 0x3F800000#32)
def lv_main_call0_v0 (y_main_cst_2 : FVec Ideal S_ .f32) : FVec Ideal S_ .f32 :=
  (id) y_main_cst_2
def lv_main_call0_v1 (y_main_cst_2 : FVec Ideal S_ .f32) : FVec Ideal S10000 .f32 :=
  ((broadcastInDim S10000 ![] bcast_S_S10000)) (lv_main_call0_v0 y_main_cst_2)
def lv_main_v13 (y_main_v12 : IVec S10000 1) (y_main_v10 : FVec Ideal S10000 .f32) (y_main_cst_2 : FVec Ideal S_ .f32) : FVec Ideal S10000 .f32 :=
  (select) y_main_v12 y_main_v10 (lv_main_call0_v1 y_main_cst_2)
def lv_main_cst_3 : FVec Ideal S_ .f32 :=
  (constant S_ .f32 0x00000000#32)
def lv_main_v14 : FVec Ideal S10000 .f32 :=
  ((broadcastInDim S10000 ![] bcast_S_S10000 : (FVec Ideal S_ .f32) → (FVec Ideal S10000 .f32))) (lv_main_cst_3)
def lv_main_v15 (y_main_v10 : FVec Ideal S10000 .f32) : IVec S10000 1 :=
  ((cmpf .ogt : (FVec Ideal S10000 .f32) → (FVec Ideal S10000 .f32) → (IVec S10000 1))) y_main_v10 (lv_main_v14)
def lv_main_cst_4 : FVec Ideal S_ .f32 :=
  (constant S_ .f32 0xBF000000#32)
def lv_main_v16 : FVec Ideal S10000 .f32 :=
  ((broadcastInDim S10000 ![] bcast_S_S10000 : (FVec Ideal S_ .f32) → (FVec Ideal S10000 .f32))) (lv_main_cst_4)
def lv_main_v17 (y_main_v13 : FVec Ideal S10000 .f32) : FVec Ideal S10000 .f32 :=
  ((Host.powf : (FVec Ideal S10000 .f32) → (FVec Ideal S10000 .f32) → (FVec Ideal S10000 .f32))) y_main_v13 (lv_main_v16)
def lv_main_cst_5 : FVec Ideal S_ .f32 :=
  (constant S_ .f32 0x00000000#32)
def lv_main_call1_v0 (y_main_cst_5 : FVec Ideal S_ .f32) : FVec Ideal S_ .f32 :=
  (id) y_main_cst_5
def lv_main_call1_v1 (y_main_cst_5 : FVec Ideal S_ .f32) : FVec Ideal S10000 .f32 :=
  ((broadcastInDim S10000 ![] bcast_S_S10000)) (lv_main_call1_v0 y_main_cst_5)
def lv_main_v18 (y_main_v15 : IVec S10000 1) (y_main_v17 : FVec Ideal S10000 .f32) (y_main_cst_5 : FVec Ideal S_ .f32) : FVec Ideal S10000 .f32 :=
  (select) y_main_v15 y_main_v17 (lv_main_call1_v1 y_main_cst_5)
def lv_main_c : IVec S_ 32 :=
  (constantI S_ 32 0#32)
def lv_main_v19 : IVec S330000 32 :=
  ((broadcastInDim S330000 ![] bcast_S_S330000 : (IVec S_ 32) → (IVec S330000 32))) (lv_main_c)
def lv_main_v20 (y_main_v3 : IVec S330000 32) : IVec S330000 1 :=
  ((cmpi .slt : (IVec S330000 32) → (IVec S330000 32) → (IVec S330000 1))) y_main_v3 (lv_main_v19)
def lv_main_c_6 : IVec S_ 32 :=
  (constantI S_ 32 10000#32)
def lv_main_v21 : IVec S330000 32 :=
  ((broadcastInDim S330000 ![] bcast_S_S330000 : (IVec S_ 32) → (IVec S330000 32))) (lv_main_c_6)
def lv_main_v22 (y_main_v3 : IVec S330000 32) : IVec S330000 32 :=
  ((addi : (IVec S330000 32) → (IVec S330000 32) → (IVec S330000 32))) y_main_v3 (lv_main_v21)
def lv_main_v23 (y_main_v3 : IVec S330000 32) : IVec S330000 32 :=
  ((select : (IVec S330000 1) → (IVec S330000 32) → (IVec S330000 32) → (IVec S330000 32))) (lv_main_v20 y_main_v3) (lv_main_v22 y_main_v3) y_main_v3
def lv_main_v24 (y_main_v3 : IVec S330000 32) : IVec S330000x1 32 :=
  ((broadcastInDim S330000x1 ![0] bcast_S330000_S330000x1_0 : (IVec S330000 32) → (IVec S330000x1 32))) (lv_main_v23 y_main_v3)
def lv_main_v25 (y_main_v18 : FVec Ideal S10000 .f32) (y_main_v3 : IVec S330000 32) : FVec Ideal S330000 .f32 :=
  (((fun x i => Host.gather gather_S10000_S330000x1_S330000_n_0_n_n_0_1_1 x i) : (FVec Ideal S10000 .f32) → (IVec S330000x1 32) → (FVec Ideal S330000 .f32))) y_main_v18 (lv_main_v24 y_main_v3)
def lv_main_c_7 : IVec S_ 32 :=
  (constantI S_ 32 0#32)
def lv_main_v26 : IVec S330000 32 :=
  ((broadcastInDim S330000 ![] bcast_S_S330000 : (IVec S_ 32) → (IVec S330000 32))) (lv_main_c_7)
def lv_main_v27 (y_main_v6 : IVec S330000 32) : IVec S330000 1 :=
  ((cmpi .slt : (IVec S330000 32) → (IVec S330000 32) → (IVec S330000 1))) y_main_v6 (lv_main_v26)
def lv_main_c_8 : IVec S_ 32 :=
  (constantI S_ 32 10000#32)
def lv_main_v28 : IVec S330000 32 :=
  ((broadcastInDim S330000 ![] bcast_S_S330000 : (IVec S_ 32) → (IVec S330000 32))) (lv_main_c_8)
def lv_main_v29 (y_main_v6 : IVec S330000 32) : IVec S330000 32 :=
  ((addi : (IVec S330000 32) → (IVec S330000 32) → (IVec S330000 32))) y_main_v6 (lv_main_v28)
def lv_main_v30 (y_main_v6 : IVec S330000 32) : IVec S330000 32 :=
  ((select : (IVec S330000 1) → (IVec S330000 32) → (IVec S330000 32) → (IVec S330000 32))) (lv_main_v27 y_main_v6) (lv_main_v29 y_main_v6) y_main_v6
def lv_main_v31 (y_main_v6 : IVec S330000 32) : IVec S330000x1 32 :=
  ((broadcastInDim S330000x1 ![0] bcast_S330000_S330000x1_0 : (IVec S330000 32) → (IVec S330000x1 32))) (lv_main_v30 y_main_v6)
def lv_main_v32 (y_main_v18 : FVec Ideal S10000 .f32) (y_main_v6 : IVec S330000 32) : FVec Ideal S330000 .f32 :=
  (((fun x i => Host.gather gather_S10000_S330000x1_S330000_n_0_n_n_0_1_1 x i) : (FVec Ideal S10000 .f32) → (IVec S330000x1 32) → (FVec Ideal S330000 .f32))) y_main_v18 (lv_main_v31 y_main_v6)
def lv_main_v33 (y_main_v18 : FVec Ideal S10000 .f32) (y_main_v3 : IVec S330000 32) (y_main_v6 : IVec S330000 32) : FVec Ideal S330000 .f32 :=
  ((mulf : (FVec Ideal S330000 .f32) → (FVec Ideal S330000 .f32) → (FVec Ideal S330000 .f32))) (lv_main_v25 y_main_v18 y_main_v3) (lv_main_v32 y_main_v18 y_main_v6)
def lv_main_cst_9 : FVec Ideal S_ .f32 :=
  (constant S_ .f32 0x00000000#32)
def lv_main_v34 : FVec Ideal S10000x10000 .f32 :=
  ((broadcastInDim S10000x10000 ![] bcast_S_S10000x10000 : (FVec Ideal S_ .f32) → (FVec Ideal S10000x10000 .f32))) (lv_main_cst_9)
def lv_main_c_10 : IVec S_ 32 :=
  (constantI S_ 32 0#32)
def lv_main_v35 : IVec S330000 32 :=
  ((broadcastInDim S330000 ![] bcast_S_S330000 : (IVec S_ 32) → (IVec S330000 32))) (lv_main_c_10)
def lv_main_v36 (y_main_v6 : IVec S330000 32) : IVec S330000 1 :=
  ((cmpi .slt : (IVec S330000 32) → (IVec S330000 32) → (IVec S330000 1))) y_main_v6 (lv_main_v35)
def lv_main_c_11 : IVec S_ 32 :=
  (constantI S_ 32 10000#32)
def lv_main_v37 : IVec S330000 32 :=
  ((broadcastInDim S330000 ![] bcast_S_S330000 : (IVec S_ 32) → (IVec S330000 32))) (lv_main_c_11)
def lv_main_v38 (y_main_v6 : IVec S330000 32) : IVec S330000 32 :=
  ((addi : (IVec S330000 32) → (IVec S330000 32) → (IVec S330000 32))) y_main_v6 (lv_main_v37)
def lv_main_v39 (y_main_v6 : IVec S330000 32) : IVec S330000 32 :=
  ((select : (IVec S330000 1) → (IVec S330000 32) → (IVec S330000 32) → (IVec S330000 32))) (lv_main_v36 y_main_v6) (lv_main_v38 y_main_v6) y_main_v6
def lv_main_c_12 : IVec S_ 32 :=
  (constantI S_ 32 0#32)
def lv_main_v40 : IVec S330000 32 :=
  ((broadcastInDim S330000 ![] bcast_S_S330000 : (IVec S_ 32) → (IVec S330000 32))) (lv_main_c_12)
def lv_main_v41 (y_main_v3 : IVec S330000 32) : IVec S330000 1 :=
  ((cmpi .slt : (IVec S330000 32) → (IVec S330000 32) → (IVec S330000 1))) y_main_v3 (lv_main_v40)
def lv_main_c_13 : IVec S_ 32 :=
  (constantI S_ 32 10000#32)
def lv_main_v42 : IVec S330000 32 :=
  ((broadcastInDim S330000 ![] bcast_S_S330000 : (IVec S_ 32) → (IVec S330000 32))) (lv_main_c_13)
def lv_main_v43 (y_main_v3 : IVec S330000 32) : IVec S330000 32 :=
  ((addi : (IVec S330000 32) → (IVec S330000 32) → (IVec S330000 32))) y_main_v3 (lv_main_v42)
def lv_main_v44 (y_main_v3 : IVec S330000 32) : IVec S330000 32 :=
  ((select : (IVec S330000 1) → (IVec S330000 32) → (IVec S330000 32) → (IVec S330000 32))) (lv_main_v41 y_main_v3) (lv_main_v43 y_main_v3) y_main_v3
def lv_main_v45 (y_main_v6 : IVec S330000 32) : IVec S330000x1 32 :=
  ((broadcastInDim S330000x1 ![0] bcast_S330000_S330000x1_0 : (IVec S330000 32) → (IVec S330000x1 32))) (lv_main_v39 y_main_v6)
def lv_main_v46 (y_main_v3 : IVec S330000 32) : IVec S330000x1 32 :=
  ((broadcastInDim S330000x1 ![0] bcast_S330000_S330000x1_0 : (IVec S330000 32) → (IVec S330000x1 32))) (lv_main_v44 y_main_v3)
def lv_main_v47 (y_main_v6 : IVec S330000 32) (y_main_v3 : IVec S330000 32) : IVec S330000x2 32 :=
  (((fun a b => concatenate S330000x2 1 [⟨S330000x1, a⟩, ⟨S330000x1, b⟩] concatenates_S330000x1_S330000x1_S330000x2_d1) : (IVec S330000x1 32) → (IVec S330000x1 32) → (IVec S330000x2 32))) (lv_main_v45 y_main_v6) (lv_main_v46 y_main_v3)
def lv_main_v48 (y_main_v6 : IVec S330000 32) (y_main_v3 : IVec S330000 32) (y_main_v18 : FVec Ideal S10000 .f32) : FVec Ideal S10000x10000 .f32 :=
  (((fun x i u => Host.scatterAdd scatter_S10000x10000_S330000x2_S330000_n_01_01_1 x i u) : (FVec Ideal S10000x10000 .f32) → (IVec S330000x2 32) → (FVec Ideal S330000 .f32) → (FVec Ideal S10000x10000 .f32))) (lv_main_v34) (lv_main_v47 y_main_v6 y_main_v3) (lv_main_v33 y_main_v18 y_main_v3 y_main_v6)
def lv_main_v49 (y_main_arg0 : FVec Ideal S10000x128 .f32) (y_main_arg6 : FVec Ideal S128x256 .f32) : FVec Ideal S10000x256 .f32 :=
  (((fun l r => Host.dotGeneral dot_S10000x128_S128x256_S10000x256_1_0_0_1_n_n none l r) : (FVec Ideal S10000x128 .f32) → (FVec Ideal S128x256 .f32) → (FVec Ideal S10000x256 .f32))) y_main_arg0 y_main_arg6
def lv_main_v50 (y_main_arg0 : FVec Ideal S10000x128 .f32) (y_main_arg6 : FVec Ideal S128x256 .f32) : FVec Ideal S10000x256 .bf16 :=
  (((truncf .bf16 · bitsLt_bf16_f32) : (FVec Ideal S10000x256 .f32) → (FVec Ideal S10000x256 .bf16))) (lv_main_v49 y_main_arg0 y_main_arg6)
def lv_main_v52 (y_main_arg7 : FVec Ideal S256 .f32) : FVec Ideal S1x256 .f32 :=
  ((broadcastInDim S1x256 ![1] bcast_S256_S1x256_1 : (FVec Ideal S256 .f32) → (FVec Ideal S1x256 .f32))) y_main_arg7
def lv_main_v53 (y_main_arg7 : FVec Ideal S256 .f32) : FVec Ideal S10000x256 .f32 :=
  ((broadcastInDim S10000x256 ![0, 1] bcast_S1x256_S10000x256_0_1 : (FVec Ideal S1x256 .f32) → (FVec Ideal S10000x256 .f32))) (lv_main_v52 y_main_arg7)
def lv_main_v54 (y_main_v51 : FVec Ideal S10000x256 .f32) (y_main_arg7 : FVec Ideal S256 .f32) : FVec Ideal S10000x256 .f32 :=
  ((addf : (FVec Ideal S10000x256 .f32) → (FVec Ideal S10000x256 .f32) → (FVec Ideal S10000x256 .f32))) y_main_v51 (lv_main_v53 y_main_arg7)
def lv_main_call2_cst : FVec Ideal S_ .f32 :=
  (constant S_ .f32 0x00000000#32)
def lv_main_call2_v0 : FVec Ideal S10000x256 .f32 :=
  ((broadcastInDim S10000x256 ![] bcast_S_S10000x256)) (lv_main_call2_cst)
def lv_main_v55 (y_main_v54 : FVec Ideal S10000x256 .f32) : FVec Ideal S10000x256 .f32 :=
  (maximumf) y_main_v54 (lv_main_call2_v0)
def lv_main_v56 (y_main_v55 : FVec Ideal S10000x256 .f32) (y_main_arg8 : FVec Ideal S256x256 .f32) : FVec Ideal S10000x256 .f32 :=
  (((fun l r => Host.dotGeneral dot_S10000x256_S256x256_S10000x256_1_0_0_1_n_n none l r) : (FVec Ideal S10000x256 .f32) → (FVec Ideal S256x256 .f32) → (FVec Ideal S10000x256 .f32))) y_main_v55 y_main_arg8
def lv_main_v57 (y_main_v55 : FVec Ideal S10000x256 .f32) (y_main_arg8 : FVec Ideal S256x256 .f32) : FVec Ideal S10000x256 .bf16 :=
  (((truncf .bf16 · bitsLt_bf16_f32) : (FVec Ideal S10000x256 .f32) → (FVec Ideal S10000x256 .bf16))) (lv_main_v56 y_main_v55 y_main_arg8)
def lv_main_v59 (y_main_arg9 : FVec Ideal S256 .f32) : FVec Ideal S1x256 .f32 :=
  ((broadcastInDim S1x256 ![1] bcast_S256_S1x256_1 : (FVec Ideal S256 .f32) → (FVec Ideal S1x256 .f32))) y_main_arg9
def lv_main_v60 (y_main_arg9 : FVec Ideal S256 .f32) : FVec Ideal S10000x256 .f32 :=
  ((broadcastInDim S10000x256 ![0, 1] bcast_S1x256_S10000x256_0_1 : (FVec Ideal S1x256 .f32) → (FVec Ideal S10000x256 .f32))) (lv_main_v59 y_main_arg9)
def lv_main_v61 (y_main_v58 : FVec Ideal S10000x256 .f32) (y_main_arg9 : FVec Ideal S256 .f32) : FVec Ideal S10000x256 .f32 :=
  ((addf : (FVec Ideal S10000x256 .f32) → (FVec Ideal S10000x256 .f32) → (FVec Ideal S10000x256 .f32))) y_main_v58 (lv_main_v60 y_main_arg9)
def lv_main_call3_cst : FVec Ideal S_ .f32 :=
  (constant S_ .f32 0x00000000#32)
def lv_main_call3_v0 : FVec Ideal S10000x256 .f32 :=
  ((broadcastInDim S10000x256 ![] bcast_S_S10000x256)) (lv_main_call3_cst)
def lv_main_v62 (y_main_v61 : FVec Ideal S10000x256 .f32) : FVec Ideal S10000x256 .f32 :=
  (maximumf) y_main_v61 (lv_main_call3_v0)
def lv_main_v63 (y_main_v62 : FVec Ideal S10000x256 .f32) (y_main_arg10 : FVec Ideal S256x256 .f32) : FVec Ideal S10000x256 .f32 :=
  (((fun l r => Host.dotGeneral dot_S10000x256_S256x256_S10000x256_1_0_0_1_n_n none l r) : (FVec Ideal S10000x256 .f32) → (FVec Ideal S256x256 .f32) → (FVec Ideal S10000x256 .f32))) y_main_v62 y_main_arg10
def lv_main_v64 (y_main_v62 : FVec Ideal S10000x256 .f32) (y_main_arg10 : FVec Ideal S256x256 .f32) : FVec Ideal S10000x256 .bf16 :=
  (((truncf .bf16 · bitsLt_bf16_f32) : (FVec Ideal S10000x256 .f32) → (FVec Ideal S10000x256 .bf16))) (lv_main_v63 y_main_v62 y_main_arg10)
def lv_main_v66 (y_main_arg11 : FVec Ideal S256 .f32) : FVec Ideal S1x256 .f32 :=
  ((broadcastInDim S1x256 ![1] bcast_S256_S1x256_1 : (FVec Ideal S256 .f32) → (FVec Ideal S1x256 .f32))) y_main_arg11
def lv_main_v67 (y_main_arg11 : FVec Ideal S256 .f32) : FVec Ideal S10000x256 .f32 :=
  ((broadcastInDim S10000x256 ![0, 1] bcast_S1x256_S10000x256_0_1 : (FVec Ideal S1x256 .f32) → (FVec Ideal S10000x256 .f32))) (lv_main_v66 y_main_arg11)
def lv_main_v68 (y_main_v65 : FVec Ideal S10000x256 .f32) (y_main_arg11 : FVec Ideal S256 .f32) : FVec Ideal S10000x256 .f32 :=
  ((addf : (FVec Ideal S10000x256 .f32) → (FVec Ideal S10000x256 .f32) → (FVec Ideal S10000x256 .f32))) y_main_v65 (lv_main_v67 y_main_arg11)
def lv_main_call4_cst : FVec Ideal S_ .f32 :=
  (constant S_ .f32 0x00000000#32)
def lv_main_call4_v0 : FVec Ideal S10000x256 .f32 :=
  ((broadcastInDim S10000x256 ![] bcast_S_S10000x256)) (lv_main_call4_cst)
def lv_main_v69 (y_main_v68 : FVec Ideal S10000x256 .f32) : FVec Ideal S10000x256 .f32 :=
  (maximumf) y_main_v68 (lv_main_call4_v0)
def lv_main_v70 (y_main_arg0 : FVec Ideal S10000x128 .f32) (y_main_arg2 : FVec Ideal S10000x30 .f32) : FVec Ideal S10000x158 .f32 :=
  (((fun a b => concatenate S10000x158 1 [⟨S10000x128, a⟩, ⟨S10000x30, b⟩] concatenates_S10000x128_S10000x30_S10000x158_d1) : (FVec Ideal S10000x128 .f32) → (FVec Ideal S10000x30 .f32) → (FVec Ideal S10000x158 .f32))) y_main_arg0 y_main_arg2
def lv_main_c_14 : IVec S_ 32 :=
  (constantI S_ 32 0#32)
def lv_main_call5_v0 (y_main_c_14 : IVec S_ 32) : FVec Ideal S_ .f32 :=
  ((sitofp .f32)) y_main_c_14
def lv_main_v71 (y_main_v70 : FVec Ideal S10000x158 .f32) (y_main_c_14 : IVec S_ 32) : FVec Ideal S10000x256 .f32 :=
  ((fun x v => pad S10000x256 ![0, 0] ![0, 98] ![0, 0] x v pads_S10000x158_S10000x256_000_0980 h_S_)) y_main_v70 (lv_main_call5_v0 y_main_c_14)
def lv_main_v72 (y_main_v71 : FVec Ideal S10000x256 .f32) : FVec Ideal S10000x256 .bf16 :=
  (((truncf .bf16 · bitsLt_bf16_f32) : (FVec Ideal S10000x256 .f32) → (FVec Ideal S10000x256 .bf16))) y_main_v71
def lv_main_v74 (y_main_v73 : FVec Ideal S10000x256 .f32) : FVec Ideal S10000x158 .f32 :=
  (((extractStridedSlice S10000x158 ![0, 0] · slices_S10000x256_S10000x158_0_0) : (FVec Ideal S10000x256 .f32) → (FVec Ideal S10000x158 .f32))) y_main_v73
def lv_main_v76 (y_main_v75 : FVec Ideal S10000x256 .f32) : FVec Ideal S10000x158 .f32 :=
  (((extractStridedSlice S10000x158 ![0, 0] · slices_S10000x256_S10000x158_0_0) : (FVec Ideal S10000x256 .f32) → (FVec Ideal S10000x158 .f32))) y_main_v75
def lv_main_v78 (y_main_v77 : FVec Ideal S10000x256 .f32) : FVec Ideal S10000x158 .f32 :=
  (((extractStridedSlice S10000x158 ![0, 0] · slices_S10000x256_S10000x158_0_0) : (FVec Ideal S10000x256 .f32) → (FVec Ideal S10000x158 .f32))) y_main_v77
def lv_main_cst_15 : FVec Ideal S_ .f32 :=
  (constant S_ .f32 0x00000000#32)
def lv_main_v79 : FVec Ideal S10000x256 .f32 :=
  ((broadcastInDim S10000x256 ![] bcast_S_S10000x256 : (FVec Ideal S_ .f32) → (FVec Ideal S10000x256 .f32))) (lv_main_cst_15)
def lv_main_v80 (y_main_arg12 : FVec Ideal S4x158x256 .f32) : FVec Ideal S1x158x256 .f32 :=
  (((extractStridedSlice S1x158x256 ![0, 0, 0] · slices_S4x158x256_S1x158x256_0_0_0) : (FVec Ideal S4x158x256 .f32) → (FVec Ideal S1x158x256 .f32))) y_main_arg12
def lv_main_v81 (y_main_arg12 : FVec Ideal S4x158x256 .f32) : FVec Ideal S158x256 .f32 :=
  ((fun x => shapeCast _ x shapeCasts_S1x158x256_S158x256)) (lv_main_v80 y_main_arg12)
def lv_main_v82 (y_main_arg13 : FVec Ideal S4x256 .f32) : FVec Ideal S1x256 .f32 :=
  (((extractStridedSlice S1x256 ![0, 0] · slices_S4x256_S1x256_0_0) : (FVec Ideal S4x256 .f32) → (FVec Ideal S1x256 .f32))) y_main_arg13
def lv_main_v83 (y_main_arg13 : FVec Ideal S4x256 .f32) : FVec Ideal S256 .f32 :=
  ((fun x => shapeCast _ x shapeCasts_S1x256_S256)) (lv_main_v82 y_main_arg13)
def lv_main_v84 (y_main_arg14 : FVec Ideal S4x256 .f32) : FVec Ideal S1x256 .f32 :=
  (((extractStridedSlice S1x256 ![0, 0] · slices_S4x256_S1x256_0_0) : (FVec Ideal S4x256 .f32) → (FVec Ideal S1x256 .f32))) y_main_arg14
def lv_main_v85 (y_main_arg14 : FVec Ideal S4x256 .f32) : FVec Ideal S256 .f32 :=
  ((fun x => shapeCast _ x shapeCasts_S1x256_S256)) (lv_main_v84 y_main_arg14)
def lv_main_v86 (y_main_arg15 : FVec Ideal S4x256 .f32) : FVec Ideal S1x256 .f32 :=
  (((extractStridedSlice S1x256 ![0, 0] · slices_S4x256_S1x256_0_0) : (FVec Ideal S4x256 .f32) → (FVec Ideal S1x256 .f32))) y_main_arg15
def lv_main_v87 (y_main_arg15 : FVec Ideal S4x256 .f32) : FVec Ideal S256 .f32 :=
  ((fun x => shapeCast _ x shapeCasts_S1x256_S256)) (lv_main_v86 y_main_arg15)
def lv_main_v88 (y_main_arg16 : FVec Ideal S4x256x256 .f32) : FVec Ideal S1x256x256 .f32 :=
  (((extractStridedSlice S1x256x256 ![0, 0, 0] · slices_S4x256x256_S1x256x256_0_0_0) : (FVec Ideal S4x256x256 .f32) → (FVec Ideal S1x256x256 .f32))) y_main_arg16
def lv_main_v89 (y_main_arg16 : FVec Ideal S4x256x256 .f32) : FVec Ideal S256x256 .f32 :=
  ((fun x => shapeCast _ x shapeCasts_S1x256x256_S256x256)) (lv_main_v88 y_main_arg16)
def lv_main_v90 (y_main_arg17 : FVec Ideal S4x256 .f32) : FVec Ideal S1x256 .f32 :=
  (((extractStridedSlice S1x256 ![0, 0] · slices_S4x256_S1x256_0_0) : (FVec Ideal S4x256 .f32) → (FVec Ideal S1x256 .f32))) y_main_arg17
def lv_main_v91 (y_main_arg17 : FVec Ideal S4x256 .f32) : FVec Ideal S256 .f32 :=
  ((fun x => shapeCast _ x shapeCasts_S1x256_S256)) (lv_main_v90 y_main_arg17)
def lv_main_v92 (y_main_v70 : FVec Ideal S10000x158 .f32) (y_main_arg12 : FVec Ideal S4x158x256 .f32) : FVec Ideal S10000x256 .f32 :=
  (((fun l r => Host.dotGeneral dot_S10000x158_S158x256_S10000x256_1_0_0_1_n_n none l r) : (FVec Ideal S10000x158 .f32) → (FVec Ideal S158x256 .f32) → (FVec Ideal S10000x256 .f32))) y_main_v70 (lv_main_v81 y_main_arg12)
def lv_main_v93 (y_main_arg13 : FVec Ideal S4x256 .f32) : FVec Ideal S1x256 .f32 :=
  ((broadcastInDim S1x256 ![1] bcast_S256_S1x256_1 : (FVec Ideal S256 .f32) → (FVec Ideal S1x256 .f32))) (lv_main_v83 y_main_arg13)
def lv_main_v94 (y_main_arg13 : FVec Ideal S4x256 .f32) : FVec Ideal S10000x256 .f32 :=
  ((broadcastInDim S10000x256 ![0, 1] bcast_S1x256_S10000x256_0_1 : (FVec Ideal S1x256 .f32) → (FVec Ideal S10000x256 .f32))) (lv_main_v93 y_main_arg13)
def lv_main_v95 (y_main_v70 : FVec Ideal S10000x158 .f32) (y_main_arg12 : FVec Ideal S4x158x256 .f32) (y_main_arg13 : FVec Ideal S4x256 .f32) : FVec Ideal S10000x256 .f32 :=
  ((addf : (FVec Ideal S10000x256 .f32) → (FVec Ideal S10000x256 .f32) → (FVec Ideal S10000x256 .f32))) (lv_main_v92 y_main_v70 y_main_arg12) (lv_main_v94 y_main_arg13)
def lv_main_cst_16 : FVec Ideal S_ .f32 :=
  (constant S_ .f32 0x00000000#32)
def lv_main_v96 (y_main_v70 : FVec Ideal S10000x158 .f32) (y_main_arg12 : FVec Ideal S4x158x256 .f32) (y_main_arg13 : FVec Ideal S4x256 .f32) : FVec Ideal S256 .f32 :=
  (((fun x v => Host.reduceAdd x v reducesTo_S10000x256_S256_d0 h_S_) : (FVec Ideal S10000x256 .f32) → (FVec Ideal S_ .f32) → (FVec Ideal S256 .f32))) (lv_main_v95 y_main_v70 y_main_arg12 y_main_arg13) (lv_main_cst_16)
def lv_main_cst_17 : FVec Ideal S_ .f32 :=
  (constant S_ .f32 0x461C4000#32)
def lv_main_v97 : FVec Ideal S256 .f32 :=
  ((broadcastInDim S256 ![] bcast_S_S256 : (FVec Ideal S_ .f32) → (FVec Ideal S256 .f32))) (lv_main_cst_17)
def lv_main_v98 (y_main_v70 : FVec Ideal S10000x158 .f32) (y_main_arg12 : FVec Ideal S4x158x256 .f32) (y_main_arg13 : FVec Ideal S4x256 .f32) : FVec Ideal S256 .f32 :=
  ((Host.divf : (FVec Ideal S256 .f32) → (FVec Ideal S256 .f32) → (FVec Ideal S256 .f32))) (lv_main_v96 y_main_v70 y_main_arg12 y_main_arg13) (lv_main_v97)
def lv_main_v99 (y_main_v70 : FVec Ideal S10000x158 .f32) (y_main_arg12 : FVec Ideal S4x158x256 .f32) (y_main_arg13 : FVec Ideal S4x256 .f32) : FVec Ideal S1x256 .f32 :=
  ((broadcastInDim S1x256 ![1] bcast_S256_S1x256_1 : (FVec Ideal S256 .f32) → (FVec Ideal S1x256 .f32))) (lv_main_v98 y_main_v70 y_main_arg12 y_main_arg13)
def lv_main_v100 (y_main_v70 : FVec Ideal S10000x158 .f32) (y_main_arg12 : FVec Ideal S4x158x256 .f32) (y_main_arg13 : FVec Ideal S4x256 .f32) : FVec Ideal S10000x256 .f32 :=
  ((broadcastInDim S10000x256 ![0, 1] bcast_S1x256_S10000x256_0_1 : (FVec Ideal S1x256 .f32) → (FVec Ideal S10000x256 .f32))) (lv_main_v99 y_main_v70 y_main_arg12 y_main_arg13)
def lv_main_v101 (y_main_v70 : FVec Ideal S10000x158 .f32) (y_main_arg12 : FVec Ideal S4x158x256 .f32) (y_main_arg13 : FVec Ideal S4x256 .f32) : FVec Ideal S10000x256 .f32 :=
  ((subf : (FVec Ideal S10000x256 .f32) → (FVec Ideal S10000x256 .f32) → (FVec Ideal S10000x256 .f32))) (lv_main_v95 y_main_v70 y_main_arg12 y_main_arg13) (lv_main_v100 y_main_v70 y_main_arg12 y_main_arg13)
def lv_main_v102 (y_main_v70 : FVec Ideal S10000x158 .f32) (y_main_arg12 : FVec Ideal S4x158x256 .f32) (y_main_arg13 : FVec Ideal S4x256 .f32) : FVec Ideal S10000x256 .f32 :=
  ((mulf : (FVec Ideal S10000x256 .f32) → (FVec Ideal S10000x256 .f32) → (FVec Ideal S10000x256 .f32))) (lv_main_v101 y_main_v70 y_main_arg12 y_main_arg13) (lv_main_v101 y_main_v70 y_main_arg12 y_main_arg13)
def lv_main_cst_18 : FVec Ideal S_ .f32 :=
  (constant S_ .f32 0x00000000#32)
def lv_main_v103 (y_main_v70 : FVec Ideal S10000x158 .f32) (y_main_arg12 : FVec Ideal S4x158x256 .f32) (y_main_arg13 : FVec Ideal S4x256 .f32) : FVec Ideal S256 .f32 :=
  (((fun x v => Host.reduceAdd x v reducesTo_S10000x256_S256_d0 h_S_) : (FVec Ideal S10000x256 .f32) → (FVec Ideal S_ .f32) → (FVec Ideal S256 .f32))) (lv_main_v102 y_main_v70 y_main_arg12 y_main_arg13) (lv_main_cst_18)
def lv_main_cst_19 : FVec Ideal S_ .f32 :=
  (constant S_ .f32 0x461C4000#32)
def lv_main_v104 : FVec Ideal S256 .f32 :=
  ((broadcastInDim S256 ![] bcast_S_S256 : (FVec Ideal S_ .f32) → (FVec Ideal S256 .f32))) (lv_main_cst_19)
def lv_main_v105 (y_main_v70 : FVec Ideal S10000x158 .f32) (y_main_arg12 : FVec Ideal S4x158x256 .f32) (y_main_arg13 : FVec Ideal S4x256 .f32) : FVec Ideal S256 .f32 :=
  ((Host.divf : (FVec Ideal S256 .f32) → (FVec Ideal S256 .f32) → (FVec Ideal S256 .f32))) (lv_main_v103 y_main_v70 y_main_arg12 y_main_arg13) (lv_main_v104)
def lv_main_v106 (y_main_v70 : FVec Ideal S10000x158 .f32) (y_main_arg12 : FVec Ideal S4x158x256 .f32) (y_main_arg13 : FVec Ideal S4x256 .f32) : FVec Ideal S1x256 .f32 :=
  ((broadcastInDim S1x256 ![1] bcast_S256_S1x256_1 : (FVec Ideal S256 .f32) → (FVec Ideal S1x256 .f32))) (lv_main_v98 y_main_v70 y_main_arg12 y_main_arg13)
def lv_main_v107 (y_main_v70 : FVec Ideal S10000x158 .f32) (y_main_arg12 : FVec Ideal S4x158x256 .f32) (y_main_arg13 : FVec Ideal S4x256 .f32) : FVec Ideal S10000x256 .f32 :=
  ((broadcastInDim S10000x256 ![0, 1] bcast_S1x256_S10000x256_0_1 : (FVec Ideal S1x256 .f32) → (FVec Ideal S10000x256 .f32))) (lv_main_v106 y_main_v70 y_main_arg12 y_main_arg13)
def lv_main_v108 (y_main_v70 : FVec Ideal S10000x158 .f32) (y_main_arg12 : FVec Ideal S4x158x256 .f32) (y_main_arg13 : FVec Ideal S4x256 .f32) : FVec Ideal S10000x256 .f32 :=
  ((subf : (FVec Ideal S10000x256 .f32) → (FVec Ideal S10000x256 .f32) → (FVec Ideal S10000x256 .f32))) (lv_main_v95 y_main_v70 y_main_arg12 y_main_arg13) (lv_main_v107 y_main_v70 y_main_arg12 y_main_arg13)
def lv_main_v109 (y_main_arg14 : FVec Ideal S4x256 .f32) : FVec Ideal S1x256 .f32 :=
  ((broadcastInDim S1x256 ![1] bcast_S256_S1x256_1 : (FVec Ideal S256 .f32) → (FVec Ideal S1x256 .f32))) (lv_main_v85 y_main_arg14)
def lv_main_v110 (y_main_arg14 : FVec Ideal S4x256 .f32) : FVec Ideal S10000x256 .f32 :=
  ((broadcastInDim S10000x256 ![0, 1] bcast_S1x256_S10000x256_0_1 : (FVec Ideal S1x256 .f32) → (FVec Ideal S10000x256 .f32))) (lv_main_v109 y_main_arg14)
def lv_main_v111 (y_main_arg14 : FVec Ideal S4x256 .f32) (y_main_v70 : FVec Ideal S10000x158 .f32) (y_main_arg12 : FVec Ideal S4x158x256 .f32) (y_main_arg13 : FVec Ideal S4x256 .f32) : FVec Ideal S10000x256 .f32 :=
  ((mulf : (FVec Ideal S10000x256 .f32) → (FVec Ideal S10000x256 .f32) → (FVec Ideal S10000x256 .f32))) (lv_main_v110 y_main_arg14) (lv_main_v108 y_main_v70 y_main_arg12 y_main_arg13)
def lv_main_cst_20 : FVec Ideal S_ .f32 :=
  (constant S_ .f32 0x3727C5AC#32)
def lv_main_v112 : FVec Ideal S256 .f32 :=
  ((broadcastInDim S256 ![] bcast_S_S256 : (FVec Ideal S_ .f32) → (FVec Ideal S256 .f32))) (lv_main_cst_20)
def lv_main_v113 (y_main_v70 : FVec Ideal S10000x158 .f32) (y_main_arg12 : FVec Ideal S4x158x256 .f32) (y_main_arg13 : FVec Ideal S4x256 .f32) : FVec Ideal S256 .f32 :=
  ((addf : (FVec Ideal S256 .f32) → (FVec Ideal S256 .f32) → (FVec Ideal S256 .f32))) (lv_main_v105 y_main_v70 y_main_arg12 y_main_arg13) (lv_main_v112)
def lv_main_v114 (y_main_v70 : FVec Ideal S10000x158 .f32) (y_main_arg12 : FVec Ideal S4x158x256 .f32) (y_main_arg13 : FVec Ideal S4x256 .f32) : FVec Ideal S256 .f32 :=
  ((Host.rsqrt : (FVec Ideal S256 .f32) → (FVec Ideal S256 .f32))) (lv_main_v113 y_main_v70 y_main_arg12 y_main_arg13)
def lv_main_v115 (y_main_v70 : FVec Ideal S10000x158 .f32) (y_main_arg12 : FVec Ideal S4x158x256 .f32) (y_main_arg13 : FVec Ideal S4x256 .f32) : FVec Ideal S1x256 .f32 :=
  ((broadcastInDim S1x256 ![1] bcast_S256_S1x256_1 : (FVec Ideal S256 .f32) → (FVec Ideal S1x256 .f32))) (lv_main_v114 y_main_v70 y_main_arg12 y_main_arg13)
def lv_main_v116 (y_main_v70 : FVec Ideal S10000x158 .f32) (y_main_arg12 : FVec Ideal S4x158x256 .f32) (y_main_arg13 : FVec Ideal S4x256 .f32) : FVec Ideal S10000x256 .f32 :=
  ((broadcastInDim S10000x256 ![0, 1] bcast_S1x256_S10000x256_0_1 : (FVec Ideal S1x256 .f32) → (FVec Ideal S10000x256 .f32))) (lv_main_v115 y_main_v70 y_main_arg12 y_main_arg13)
def lv_main_v117 (y_main_arg14 : FVec Ideal S4x256 .f32) (y_main_v70 : FVec Ideal S10000x158 .f32) (y_main_arg12 : FVec Ideal S4x158x256 .f32) (y_main_arg13 : FVec Ideal S4x256 .f32) : FVec Ideal S10000x256 .f32 :=
  ((mulf : (FVec Ideal S10000x256 .f32) → (FVec Ideal S10000x256 .f32) → (FVec Ideal S10000x256 .f32))) (lv_main_v111 y_main_arg14 y_main_v70 y_main_arg12 y_main_arg13) (lv_main_v116 y_main_v70 y_main_arg12 y_main_arg13)
def lv_main_v118 (y_main_arg15 : FVec Ideal S4x256 .f32) : FVec Ideal S1x256 .f32 :=
  ((broadcastInDim S1x256 ![1] bcast_S256_S1x256_1 : (FVec Ideal S256 .f32) → (FVec Ideal S1x256 .f32))) (lv_main_v87 y_main_arg15)
def lv_main_v119 (y_main_arg15 : FVec Ideal S4x256 .f32) : FVec Ideal S10000x256 .f32 :=
  ((broadcastInDim S10000x256 ![0, 1] bcast_S1x256_S10000x256_0_1 : (FVec Ideal S1x256 .f32) → (FVec Ideal S10000x256 .f32))) (lv_main_v118 y_main_arg15)
def lv_main_v120 (y_main_arg14 : FVec Ideal S4x256 .f32) (y_main_v70 : FVec Ideal S10000x158 .f32) (y_main_arg12 : FVec Ideal S4x158x256 .f32) (y_main_arg13 : FVec Ideal S4x256 .f32) (y_main_arg15 : FVec Ideal S4x256 .f32) : FVec Ideal S10000x256 .f32 :=
  ((addf : (FVec Ideal S10000x256 .f32) → (FVec Ideal S10000x256 .f32) → (FVec Ideal S10000x256 .f32))) (lv_main_v117 y_main_arg14 y_main_v70 y_main_arg12 y_main_arg13) (lv_main_v119 y_main_arg15)
def lv_main_call6_cst : FVec Ideal S_ .f32 :=
  (constant S_ .f32 0x00000000#32)
def lv_main_call6_v0 : FVec Ideal S10000x256 .f32 :=
  ((broadcastInDim S10000x256 ![] bcast_S_S10000x256)) (lv_main_call6_cst)
def lv_main_v121 (y_main_v120 : FVec Ideal S10000x256 .f32) : FVec Ideal S10000x256 .f32 :=
  (maximumf) y_main_v120 (lv_main_call6_v0)
def lv_main_v122 (y_main_v121 : FVec Ideal S10000x256 .f32) (y_main_v89 : FVec Ideal S256x256 .f32) : FVec Ideal S10000x256 .f32 :=
  (((fun l r => Host.dotGeneral dot_S10000x256_S256x256_S10000x256_1_0_0_1_n_n none l r) : (FVec Ideal S10000x256 .f32) → (FVec Ideal S256x256 .f32) → (FVec Ideal S10000x256 .f32))) y_main_v121 y_main_v89
def lv_main_v123 (y_main_v91 : FVec Ideal S256 .f32) : FVec Ideal S1x256 .f32 :=
  ((broadcastInDim S1x256 ![1] bcast_S256_S1x256_1 : (FVec Ideal S256 .f32) → (FVec Ideal S1x256 .f32))) y_main_v91
def lv_main_v124 (y_main_v91 : FVec Ideal S256 .f32) : FVec Ideal S10000x256 .f32 :=
  ((broadcastInDim S10000x256 ![0, 1] bcast_S1x256_S10000x256_0_1 : (FVec Ideal S1x256 .f32) → (FVec Ideal S10000x256 .f32))) (lv_main_v123 y_main_v91)
def lv_main_v125 (y_main_v121 : FVec Ideal S10000x256 .f32) (y_main_v89 : FVec Ideal S256x256 .f32) (y_main_v91 : FVec Ideal S256 .f32) : FVec Ideal S10000x256 .f32 :=
  ((addf : (FVec Ideal S10000x256 .f32) → (FVec Ideal S10000x256 .f32) → (FVec Ideal S10000x256 .f32))) (lv_main_v122 y_main_v121 y_main_v89) (lv_main_v124 y_main_v91)
def lv_main_v126 (y_main_v79 : FVec Ideal S10000x256 .f32) (y_main_v121 : FVec Ideal S10000x256 .f32) (y_main_v89 : FVec Ideal S256x256 .f32) (y_main_v91 : FVec Ideal S256 .f32) : FVec Ideal S10000x256 .f32 :=
  ((addf : (FVec Ideal S10000x256 .f32) → (FVec Ideal S10000x256 .f32) → (FVec Ideal S10000x256 .f32))) y_main_v79 (lv_main_v125 y_main_v121 y_main_v89 y_main_v91)
def lv_main_v127 (y_main_arg12 : FVec Ideal S4x158x256 .f32) : FVec Ideal S1x158x256 .f32 :=
  (((extractStridedSlice S1x158x256 ![1, 0, 0] · slices_S4x158x256_S1x158x256_1_0_0) : (FVec Ideal S4x158x256 .f32) → (FVec Ideal S1x158x256 .f32))) y_main_arg12
def lv_main_v128 (y_main_arg12 : FVec Ideal S4x158x256 .f32) : FVec Ideal S158x256 .f32 :=
  ((fun x => shapeCast _ x shapeCasts_S1x158x256_S158x256)) (lv_main_v127 y_main_arg12)
def lv_main_v129 (y_main_arg13 : FVec Ideal S4x256 .f32) : FVec Ideal S1x256 .f32 :=
  (((extractStridedSlice S1x256 ![1, 0] · slices_S4x256_S1x256_1_0) : (FVec Ideal S4x256 .f32) → (FVec Ideal S1x256 .f32))) y_main_arg13
def lv_main_v130 (y_main_arg13 : FVec Ideal S4x256 .f32) : FVec Ideal S256 .f32 :=
  ((fun x => shapeCast _ x shapeCasts_S1x256_S256)) (lv_main_v129 y_main_arg13)
def lv_main_v131 (y_main_arg14 : FVec Ideal S4x256 .f32) : FVec Ideal S1x256 .f32 :=
  (((extractStridedSlice S1x256 ![1, 0] · slices_S4x256_S1x256_1_0) : (FVec Ideal S4x256 .f32) → (FVec Ideal S1x256 .f32))) y_main_arg14
def lv_main_v132 (y_main_arg14 : FVec Ideal S4x256 .f32) : FVec Ideal S256 .f32 :=
  ((fun x => shapeCast _ x shapeCasts_S1x256_S256)) (lv_main_v131 y_main_arg14)
def lv_main_v133 (y_main_arg15 : FVec Ideal S4x256 .f32) : FVec Ideal S1x256 .f32 :=
  (((extractStridedSlice S1x256 ![1, 0] · slices_S4x256_S1x256_1_0) : (FVec Ideal S4x256 .f32) → (FVec Ideal S1x256 .f32))) y_main_arg15
def lv_main_v134 (y_main_arg15 : FVec Ideal S4x256 .f32) : FVec Ideal S256 .f32 :=
  ((fun x => shapeCast _ x shapeCasts_S1x256_S256)) (lv_main_v133 y_main_arg15)
def lv_main_v135 (y_main_arg16 : FVec Ideal S4x256x256 .f32) : FVec Ideal S1x256x256 .f32 :=
  (((extractStridedSlice S1x256x256 ![1, 0, 0] · slices_S4x256x256_S1x256x256_1_0_0) : (FVec Ideal S4x256x256 .f32) → (FVec Ideal S1x256x256 .f32))) y_main_arg16
def lv_main_v136 (y_main_arg16 : FVec Ideal S4x256x256 .f32) : FVec Ideal S256x256 .f32 :=
  ((fun x => shapeCast _ x shapeCasts_S1x256x256_S256x256)) (lv_main_v135 y_main_arg16)
def lv_main_v137 (y_main_arg17 : FVec Ideal S4x256 .f32) : FVec Ideal S1x256 .f32 :=
  (((extractStridedSlice S1x256 ![1, 0] · slices_S4x256_S1x256_1_0) : (FVec Ideal S4x256 .f32) → (FVec Ideal S1x256 .f32))) y_main_arg17
def lv_main_v138 (y_main_arg17 : FVec Ideal S4x256 .f32) : FVec Ideal S256 .f32 :=
  ((fun x => shapeCast _ x shapeCasts_S1x256_S256)) (lv_main_v137 y_main_arg17)
def lv_main_v139 (y_main_v74 : FVec Ideal S10000x158 .f32) (y_main_arg12 : FVec Ideal S4x158x256 .f32) : FVec Ideal S10000x256 .f32 :=
  (((fun l r => Host.dotGeneral dot_S10000x158_S158x256_S10000x256_1_0_0_1_n_n none l r) : (FVec Ideal S10000x158 .f32) → (FVec Ideal S158x256 .f32) → (FVec Ideal S10000x256 .f32))) y_main_v74 (lv_main_v128 y_main_arg12)
def lv_main_v140 (y_main_arg13 : FVec Ideal S4x256 .f32) : FVec Ideal S1x256 .f32 :=
  ((broadcastInDim S1x256 ![1] bcast_S256_S1x256_1 : (FVec Ideal S256 .f32) → (FVec Ideal S1x256 .f32))) (lv_main_v130 y_main_arg13)
def lv_main_v141 (y_main_arg13 : FVec Ideal S4x256 .f32) : FVec Ideal S10000x256 .f32 :=
  ((broadcastInDim S10000x256 ![0, 1] bcast_S1x256_S10000x256_0_1 : (FVec Ideal S1x256 .f32) → (FVec Ideal S10000x256 .f32))) (lv_main_v140 y_main_arg13)
def lv_main_v142 (y_main_v74 : FVec Ideal S10000x158 .f32) (y_main_arg12 : FVec Ideal S4x158x256 .f32) (y_main_arg13 : FVec Ideal S4x256 .f32) : FVec Ideal S10000x256 .f32 :=
  ((addf : (FVec Ideal S10000x256 .f32) → (FVec Ideal S10000x256 .f32) → (FVec Ideal S10000x256 .f32))) (lv_main_v139 y_main_v74 y_main_arg12) (lv_main_v141 y_main_arg13)
def lv_main_cst_21 : FVec Ideal S_ .f32 :=
  (constant S_ .f32 0x00000000#32)
def lv_main_v143 (y_main_v74 : FVec Ideal S10000x158 .f32) (y_main_arg12 : FVec Ideal S4x158x256 .f32) (y_main_arg13 : FVec Ideal S4x256 .f32) : FVec Ideal S256 .f32 :=
  (((fun x v => Host.reduceAdd x v reducesTo_S10000x256_S256_d0 h_S_) : (FVec Ideal S10000x256 .f32) → (FVec Ideal S_ .f32) → (FVec Ideal S256 .f32))) (lv_main_v142 y_main_v74 y_main_arg12 y_main_arg13) (lv_main_cst_21)
def lv_main_cst_22 : FVec Ideal S_ .f32 :=
  (constant S_ .f32 0x461C4000#32)
def lv_main_v144 : FVec Ideal S256 .f32 :=
  ((broadcastInDim S256 ![] bcast_S_S256 : (FVec Ideal S_ .f32) → (FVec Ideal S256 .f32))) (lv_main_cst_22)
def lv_main_v145 (y_main_v74 : FVec Ideal S10000x158 .f32) (y_main_arg12 : FVec Ideal S4x158x256 .f32) (y_main_arg13 : FVec Ideal S4x256 .f32) : FVec Ideal S256 .f32 :=
  ((Host.divf : (FVec Ideal S256 .f32) → (FVec Ideal S256 .f32) → (FVec Ideal S256 .f32))) (lv_main_v143 y_main_v74 y_main_arg12 y_main_arg13) (lv_main_v144)
def lv_main_v146 (y_main_v74 : FVec Ideal S10000x158 .f32) (y_main_arg12 : FVec Ideal S4x158x256 .f32) (y_main_arg13 : FVec Ideal S4x256 .f32) : FVec Ideal S1x256 .f32 :=
  ((broadcastInDim S1x256 ![1] bcast_S256_S1x256_1 : (FVec Ideal S256 .f32) → (FVec Ideal S1x256 .f32))) (lv_main_v145 y_main_v74 y_main_arg12 y_main_arg13)
def lv_main_v147 (y_main_v74 : FVec Ideal S10000x158 .f32) (y_main_arg12 : FVec Ideal S4x158x256 .f32) (y_main_arg13 : FVec Ideal S4x256 .f32) : FVec Ideal S10000x256 .f32 :=
  ((broadcastInDim S10000x256 ![0, 1] bcast_S1x256_S10000x256_0_1 : (FVec Ideal S1x256 .f32) → (FVec Ideal S10000x256 .f32))) (lv_main_v146 y_main_v74 y_main_arg12 y_main_arg13)
def lv_main_v148 (y_main_v74 : FVec Ideal S10000x158 .f32) (y_main_arg12 : FVec Ideal S4x158x256 .f32) (y_main_arg13 : FVec Ideal S4x256 .f32) : FVec Ideal S10000x256 .f32 :=
  ((subf : (FVec Ideal S10000x256 .f32) → (FVec Ideal S10000x256 .f32) → (FVec Ideal S10000x256 .f32))) (lv_main_v142 y_main_v74 y_main_arg12 y_main_arg13) (lv_main_v147 y_main_v74 y_main_arg12 y_main_arg13)
def lv_main_v149 (y_main_v74 : FVec Ideal S10000x158 .f32) (y_main_arg12 : FVec Ideal S4x158x256 .f32) (y_main_arg13 : FVec Ideal S4x256 .f32) : FVec Ideal S10000x256 .f32 :=
  ((mulf : (FVec Ideal S10000x256 .f32) → (FVec Ideal S10000x256 .f32) → (FVec Ideal S10000x256 .f32))) (lv_main_v148 y_main_v74 y_main_arg12 y_main_arg13) (lv_main_v148 y_main_v74 y_main_arg12 y_main_arg13)
def lv_main_cst_23 : FVec Ideal S_ .f32 :=
  (constant S_ .f32 0x00000000#32)
def lv_main_v150 (y_main_v74 : FVec Ideal S10000x158 .f32) (y_main_arg12 : FVec Ideal S4x158x256 .f32) (y_main_arg13 : FVec Ideal S4x256 .f32) : FVec Ideal S256 .f32 :=
  (((fun x v => Host.reduceAdd x v reducesTo_S10000x256_S256_d0 h_S_) : (FVec Ideal S10000x256 .f32) → (FVec Ideal S_ .f32) → (FVec Ideal S256 .f32))) (lv_main_v149 y_main_v74 y_main_arg12 y_main_arg13) (lv_main_cst_23)
def lv_main_cst_24 : FVec Ideal S_ .f32 :=
  (constant S_ .f32 0x461C4000#32)
def lv_main_v151 : FVec Ideal S256 .f32 :=
  ((broadcastInDim S256 ![] bcast_S_S256 : (FVec Ideal S_ .f32) → (FVec Ideal S256 .f32))) (lv_main_cst_24)
def lv_main_v152 (y_main_v74 : FVec Ideal S10000x158 .f32) (y_main_arg12 : FVec Ideal S4x158x256 .f32) (y_main_arg13 : FVec Ideal S4x256 .f32) : FVec Ideal S256 .f32 :=
  ((Host.divf : (FVec Ideal S256 .f32) → (FVec Ideal S256 .f32) → (FVec Ideal S256 .f32))) (lv_main_v150 y_main_v74 y_main_arg12 y_main_arg13) (lv_main_v151)
def lv_main_v153 (y_main_v74 : FVec Ideal S10000x158 .f32) (y_main_arg12 : FVec Ideal S4x158x256 .f32) (y_main_arg13 : FVec Ideal S4x256 .f32) : FVec Ideal S1x256 .f32 :=
  ((broadcastInDim S1x256 ![1] bcast_S256_S1x256_1 : (FVec Ideal S256 .f32) → (FVec Ideal S1x256 .f32))) (lv_main_v145 y_main_v74 y_main_arg12 y_main_arg13)
def lv_main_v154 (y_main_v74 : FVec Ideal S10000x158 .f32) (y_main_arg12 : FVec Ideal S4x158x256 .f32) (y_main_arg13 : FVec Ideal S4x256 .f32) : FVec Ideal S10000x256 .f32 :=
  ((broadcastInDim S10000x256 ![0, 1] bcast_S1x256_S10000x256_0_1 : (FVec Ideal S1x256 .f32) → (FVec Ideal S10000x256 .f32))) (lv_main_v153 y_main_v74 y_main_arg12 y_main_arg13)
def lv_main_v155 (y_main_v74 : FVec Ideal S10000x158 .f32) (y_main_arg12 : FVec Ideal S4x158x256 .f32) (y_main_arg13 : FVec Ideal S4x256 .f32) : FVec Ideal S10000x256 .f32 :=
  ((subf : (FVec Ideal S10000x256 .f32) → (FVec Ideal S10000x256 .f32) → (FVec Ideal S10000x256 .f32))) (lv_main_v142 y_main_v74 y_main_arg12 y_main_arg13) (lv_main_v154 y_main_v74 y_main_arg12 y_main_arg13)
def lv_main_v156 (y_main_arg14 : FVec Ideal S4x256 .f32) : FVec Ideal S1x256 .f32 :=
  ((broadcastInDim S1x256 ![1] bcast_S256_S1x256_1 : (FVec Ideal S256 .f32) → (FVec Ideal S1x256 .f32))) (lv_main_v132 y_main_arg14)
def lv_main_v157 (y_main_arg14 : FVec Ideal S4x256 .f32) : FVec Ideal S10000x256 .f32 :=
  ((broadcastInDim S10000x256 ![0, 1] bcast_S1x256_S10000x256_0_1 : (FVec Ideal S1x256 .f32) → (FVec Ideal S10000x256 .f32))) (lv_main_v156 y_main_arg14)
def lv_main_v158 (y_main_arg14 : FVec Ideal S4x256 .f32) (y_main_v74 : FVec Ideal S10000x158 .f32) (y_main_arg12 : FVec Ideal S4x158x256 .f32) (y_main_arg13 : FVec Ideal S4x256 .f32) : FVec Ideal S10000x256 .f32 :=
  ((mulf : (FVec Ideal S10000x256 .f32) → (FVec Ideal S10000x256 .f32) → (FVec Ideal S10000x256 .f32))) (lv_main_v157 y_main_arg14) (lv_main_v155 y_main_v74 y_main_arg12 y_main_arg13)
def lv_main_cst_25 : FVec Ideal S_ .f32 :=
  (constant S_ .f32 0x3727C5AC#32)
def lv_main_v159 : FVec Ideal S256 .f32 :=
  ((broadcastInDim S256 ![] bcast_S_S256 : (FVec Ideal S_ .f32) → (FVec Ideal S256 .f32))) (lv_main_cst_25)
def lv_main_v160 (y_main_v74 : FVec Ideal S10000x158 .f32) (y_main_arg12 : FVec Ideal S4x158x256 .f32) (y_main_arg13 : FVec Ideal S4x256 .f32) : FVec Ideal S256 .f32 :=
  ((addf : (FVec Ideal S256 .f32) → (FVec Ideal S256 .f32) → (FVec Ideal S256 .f32))) (lv_main_v152 y_main_v74 y_main_arg12 y_main_arg13) (lv_main_v159)
def lv_main_v161 (y_main_v74 : FVec Ideal S10000x158 .f32) (y_main_arg12 : FVec Ideal S4x158x256 .f32) (y_main_arg13 : FVec Ideal S4x256 .f32) : FVec Ideal S256 .f32 :=
  ((Host.rsqrt : (FVec Ideal S256 .f32) → (FVec Ideal S256 .f32))) (lv_main_v160 y_main_v74 y_main_arg12 y_main_arg13)
def lv_main_v162 (y_main_v74 : FVec Ideal S10000x158 .f32) (y_main_arg12 : FVec Ideal S4x158x256 .f32) (y_main_arg13 : FVec Ideal S4x256 .f32) : FVec Ideal S1x256 .f32 :=
  ((broadcastInDim S1x256 ![1] bcast_S256_S1x256_1 : (FVec Ideal S256 .f32) → (FVec Ideal S1x256 .f32))) (lv_main_v161 y_main_v74 y_main_arg12 y_main_arg13)
def lv_main_v163 (y_main_v74 : FVec Ideal S10000x158 .f32) (y_main_arg12 : FVec Ideal S4x158x256 .f32) (y_main_arg13 : FVec Ideal S4x256 .f32) : FVec Ideal S10000x256 .f32 :=
  ((broadcastInDim S10000x256 ![0, 1] bcast_S1x256_S10000x256_0_1 : (FVec Ideal S1x256 .f32) → (FVec Ideal S10000x256 .f32))) (lv_main_v162 y_main_v74 y_main_arg12 y_main_arg13)
def lv_main_v164 (y_main_arg14 : FVec Ideal S4x256 .f32) (y_main_v74 : FVec Ideal S10000x158 .f32) (y_main_arg12 : FVec Ideal S4x158x256 .f32) (y_main_arg13 : FVec Ideal S4x256 .f32) : FVec Ideal S10000x256 .f32 :=
  ((mulf : (FVec Ideal S10000x256 .f32) → (FVec Ideal S10000x256 .f32) → (FVec Ideal S10000x256 .f32))) (lv_main_v158 y_main_arg14 y_main_v74 y_main_arg12 y_main_arg13) (lv_main_v163 y_main_v74 y_main_arg12 y_main_arg13)
def lv_main_v165 (y_main_arg15 : FVec Ideal S4x256 .f32) : FVec Ideal S1x256 .f32 :=
  ((broadcastInDim S1x256 ![1] bcast_S256_S1x256_1 : (FVec Ideal S256 .f32) → (FVec Ideal S1x256 .f32))) (lv_main_v134 y_main_arg15)
def lv_main_v166 (y_main_arg15 : FVec Ideal S4x256 .f32) : FVec Ideal S10000x256 .f32 :=
  ((broadcastInDim S10000x256 ![0, 1] bcast_S1x256_S10000x256_0_1 : (FVec Ideal S1x256 .f32) → (FVec Ideal S10000x256 .f32))) (lv_main_v165 y_main_arg15)
def lv_main_v167 (y_main_arg14 : FVec Ideal S4x256 .f32) (y_main_v74 : FVec Ideal S10000x158 .f32) (y_main_arg12 : FVec Ideal S4x158x256 .f32) (y_main_arg13 : FVec Ideal S4x256 .f32) (y_main_arg15 : FVec Ideal S4x256 .f32) : FVec Ideal S10000x256 .f32 :=
  ((addf : (FVec Ideal S10000x256 .f32) → (FVec Ideal S10000x256 .f32) → (FVec Ideal S10000x256 .f32))) (lv_main_v164 y_main_arg14 y_main_v74 y_main_arg12 y_main_arg13) (lv_main_v166 y_main_arg15)
def lv_main_call7_cst : FVec Ideal S_ .f32 :=
  (constant S_ .f32 0x00000000#32)
def lv_main_call7_v0 : FVec Ideal S10000x256 .f32 :=
  ((broadcastInDim S10000x256 ![] bcast_S_S10000x256)) (lv_main_call7_cst)
def lv_main_v168 (y_main_v167 : FVec Ideal S10000x256 .f32) : FVec Ideal S10000x256 .f32 :=
  (maximumf) y_main_v167 (lv_main_call7_v0)
def lv_main_v169 (y_main_v168 : FVec Ideal S10000x256 .f32) (y_main_v136 : FVec Ideal S256x256 .f32) : FVec Ideal S10000x256 .f32 :=
  (((fun l r => Host.dotGeneral dot_S10000x256_S256x256_S10000x256_1_0_0_1_n_n none l r) : (FVec Ideal S10000x256 .f32) → (FVec Ideal S256x256 .f32) → (FVec Ideal S10000x256 .f32))) y_main_v168 y_main_v136
def lv_main_v170 (y_main_v138 : FVec Ideal S256 .f32) : FVec Ideal S1x256 .f32 :=
  ((broadcastInDim S1x256 ![1] bcast_S256_S1x256_1 : (FVec Ideal S256 .f32) → (FVec Ideal S1x256 .f32))) y_main_v138
def lv_main_v171 (y_main_v138 : FVec Ideal S256 .f32) : FVec Ideal S10000x256 .f32 :=
  ((broadcastInDim S10000x256 ![0, 1] bcast_S1x256_S10000x256_0_1 : (FVec Ideal S1x256 .f32) → (FVec Ideal S10000x256 .f32))) (lv_main_v170 y_main_v138)
def lv_main_v172 (y_main_v168 : FVec Ideal S10000x256 .f32) (y_main_v136 : FVec Ideal S256x256 .f32) (y_main_v138 : FVec Ideal S256 .f32) : FVec Ideal S10000x256 .f32 :=
  ((addf : (FVec Ideal S10000x256 .f32) → (FVec Ideal S10000x256 .f32) → (FVec Ideal S10000x256 .f32))) (lv_main_v169 y_main_v168 y_main_v136) (lv_main_v171 y_main_v138)
def lv_main_v173 (y_main_v126 : FVec Ideal S10000x256 .f32) (y_main_v168 : FVec Ideal S10000x256 .f32) (y_main_v136 : FVec Ideal S256x256 .f32) (y_main_v138 : FVec Ideal S256 .f32) : FVec Ideal S10000x256 .f32 :=
  ((addf : (FVec Ideal S10000x256 .f32) → (FVec Ideal S10000x256 .f32) → (FVec Ideal S10000x256 .f32))) y_main_v126 (lv_main_v172 y_main_v168 y_main_v136 y_main_v138)
def lv_main_v174 (y_main_arg12 : FVec Ideal S4x158x256 .f32) : FVec Ideal S1x158x256 .f32 :=
  (((extractStridedSlice S1x158x256 ![2, 0, 0] · slices_S4x158x256_S1x158x256_2_0_0) : (FVec Ideal S4x158x256 .f32) → (FVec Ideal S1x158x256 .f32))) y_main_arg12
def lv_main_v175 (y_main_arg12 : FVec Ideal S4x158x256 .f32) : FVec Ideal S158x256 .f32 :=
  ((fun x => shapeCast _ x shapeCasts_S1x158x256_S158x256)) (lv_main_v174 y_main_arg12)
def lv_main_v176 (y_main_arg13 : FVec Ideal S4x256 .f32) : FVec Ideal S1x256 .f32 :=
  (((extractStridedSlice S1x256 ![2, 0] · slices_S4x256_S1x256_2_0) : (FVec Ideal S4x256 .f32) → (FVec Ideal S1x256 .f32))) y_main_arg13
def lv_main_v177 (y_main_arg13 : FVec Ideal S4x256 .f32) : FVec Ideal S256 .f32 :=
  ((fun x => shapeCast _ x shapeCasts_S1x256_S256)) (lv_main_v176 y_main_arg13)
def lv_main_v178 (y_main_arg14 : FVec Ideal S4x256 .f32) : FVec Ideal S1x256 .f32 :=
  (((extractStridedSlice S1x256 ![2, 0] · slices_S4x256_S1x256_2_0) : (FVec Ideal S4x256 .f32) → (FVec Ideal S1x256 .f32))) y_main_arg14
def lv_main_v179 (y_main_arg14 : FVec Ideal S4x256 .f32) : FVec Ideal S256 .f32 :=
  ((fun x => shapeCast _ x shapeCasts_S1x256_S256)) (lv_main_v178 y_main_arg14)
def lv_main_v180 (y_main_arg15 : FVec Ideal S4x256 .f32) : FVec Ideal S1x256 .f32 :=
  (((extractStridedSlice S1x256 ![2, 0] · slices_S4x256_S1x256_2_0) : (FVec Ideal S4x256 .f32) → (FVec Ideal S1x256 .f32))) y_main_arg15
def lv_main_v181 (y_main_arg15 : FVec Ideal S4x256 .f32) : FVec Ideal S256 .f32 :=
  ((fun x => shapeCast _ x shapeCasts_S1x256_S256)) (lv_main_v180 y_main_arg15)
def lv_main_v182 (y_main_arg16 : FVec Ideal S4x256x256 .f32) : FVec Ideal S1x256x256 .f32 :=
  (((extractStridedSlice S1x256x256 ![2, 0, 0] · slices_S4x256x256_S1x256x256_2_0_0) : (FVec Ideal S4x256x256 .f32) → (FVec Ideal S1x256x256 .f32))) y_main_arg16
def lv_main_v183 (y_main_arg16 : FVec Ideal S4x256x256 .f32) : FVec Ideal S256x256 .f32 :=
  ((fun x => shapeCast _ x shapeCasts_S1x256x256_S256x256)) (lv_main_v182 y_main_arg16)
def lv_main_v184 (y_main_arg17 : FVec Ideal S4x256 .f32) : FVec Ideal S1x256 .f32 :=
  (((extractStridedSlice S1x256 ![2, 0] · slices_S4x256_S1x256_2_0) : (FVec Ideal S4x256 .f32) → (FVec Ideal S1x256 .f32))) y_main_arg17
def lv_main_v185 (y_main_arg17 : FVec Ideal S4x256 .f32) : FVec Ideal S256 .f32 :=
  ((fun x => shapeCast _ x shapeCasts_S1x256_S256)) (lv_main_v184 y_main_arg17)
def lv_main_v186 (y_main_v76 : FVec Ideal S10000x158 .f32) (y_main_arg12 : FVec Ideal S4x158x256 .f32) : FVec Ideal S10000x256 .f32 :=
  (((fun l r => Host.dotGeneral dot_S10000x158_S158x256_S10000x256_1_0_0_1_n_n none l r) : (FVec Ideal S10000x158 .f32) → (FVec Ideal S158x256 .f32) → (FVec Ideal S10000x256 .f32))) y_main_v76 (lv_main_v175 y_main_arg12)
def lv_main_v187 (y_main_arg13 : FVec Ideal S4x256 .f32) : FVec Ideal S1x256 .f32 :=
  ((broadcastInDim S1x256 ![1] bcast_S256_S1x256_1 : (FVec Ideal S256 .f32) → (FVec Ideal S1x256 .f32))) (lv_main_v177 y_main_arg13)
def lv_main_v188 (y_main_arg13 : FVec Ideal S4x256 .f32) : FVec Ideal S10000x256 .f32 :=
  ((broadcastInDim S10000x256 ![0, 1] bcast_S1x256_S10000x256_0_1 : (FVec Ideal S1x256 .f32) → (FVec Ideal S10000x256 .f32))) (lv_main_v187 y_main_arg13)
def lv_main_v189 (y_main_v76 : FVec Ideal S10000x158 .f32) (y_main_arg12 : FVec Ideal S4x158x256 .f32) (y_main_arg13 : FVec Ideal S4x256 .f32) : FVec Ideal S10000x256 .f32 :=
  ((addf : (FVec Ideal S10000x256 .f32) → (FVec Ideal S10000x256 .f32) → (FVec Ideal S10000x256 .f32))) (lv_main_v186 y_main_v76 y_main_arg12) (lv_main_v188 y_main_arg13)
def lv_main_cst_26 : FVec Ideal S_ .f32 :=
  (constant S_ .f32 0x00000000#32)
def lv_main_v190 (y_main_v76 : FVec Ideal S10000x158 .f32) (y_main_arg12 : FVec Ideal S4x158x256 .f32) (y_main_arg13 : FVec Ideal S4x256 .f32) : FVec Ideal S256 .f32 :=
  (((fun x v => Host.reduceAdd x v reducesTo_S10000x256_S256_d0 h_S_) : (FVec Ideal S10000x256 .f32) → (FVec Ideal S_ .f32) → (FVec Ideal S256 .f32))) (lv_main_v189 y_main_v76 y_main_arg12 y_main_arg13) (lv_main_cst_26)
def lv_main_cst_27 : FVec Ideal S_ .f32 :=
  (constant S_ .f32 0x461C4000#32)
def lv_main_v191 : FVec Ideal S256 .f32 :=
  ((broadcastInDim S256 ![] bcast_S_S256 : (FVec Ideal S_ .f32) → (FVec Ideal S256 .f32))) (lv_main_cst_27)
def lv_main_v192 (y_main_v76 : FVec Ideal S10000x158 .f32) (y_main_arg12 : FVec Ideal S4x158x256 .f32) (y_main_arg13 : FVec Ideal S4x256 .f32) : FVec Ideal S256 .f32 :=
  ((Host.divf : (FVec Ideal S256 .f32) → (FVec Ideal S256 .f32) → (FVec Ideal S256 .f32))) (lv_main_v190 y_main_v76 y_main_arg12 y_main_arg13) (lv_main_v191)
def lv_main_v193 (y_main_v76 : FVec Ideal S10000x158 .f32) (y_main_arg12 : FVec Ideal S4x158x256 .f32) (y_main_arg13 : FVec Ideal S4x256 .f32) : FVec Ideal S1x256 .f32 :=
  ((broadcastInDim S1x256 ![1] bcast_S256_S1x256_1 : (FVec Ideal S256 .f32) → (FVec Ideal S1x256 .f32))) (lv_main_v192 y_main_v76 y_main_arg12 y_main_arg13)
def lv_main_v194 (y_main_v76 : FVec Ideal S10000x158 .f32) (y_main_arg12 : FVec Ideal S4x158x256 .f32) (y_main_arg13 : FVec Ideal S4x256 .f32) : FVec Ideal S10000x256 .f32 :=
  ((broadcastInDim S10000x256 ![0, 1] bcast_S1x256_S10000x256_0_1 : (FVec Ideal S1x256 .f32) → (FVec Ideal S10000x256 .f32))) (lv_main_v193 y_main_v76 y_main_arg12 y_main_arg13)
def lv_main_v195 (y_main_v76 : FVec Ideal S10000x158 .f32) (y_main_arg12 : FVec Ideal S4x158x256 .f32) (y_main_arg13 : FVec Ideal S4x256 .f32) : FVec Ideal S10000x256 .f32 :=
  ((subf : (FVec Ideal S10000x256 .f32) → (FVec Ideal S10000x256 .f32) → (FVec Ideal S10000x256 .f32))) (lv_main_v189 y_main_v76 y_main_arg12 y_main_arg13) (lv_main_v194 y_main_v76 y_main_arg12 y_main_arg13)
def lv_main_v196 (y_main_v76 : FVec Ideal S10000x158 .f32) (y_main_arg12 : FVec Ideal S4x158x256 .f32) (y_main_arg13 : FVec Ideal S4x256 .f32) : FVec Ideal S10000x256 .f32 :=
  ((mulf : (FVec Ideal S10000x256 .f32) → (FVec Ideal S10000x256 .f32) → (FVec Ideal S10000x256 .f32))) (lv_main_v195 y_main_v76 y_main_arg12 y_main_arg13) (lv_main_v195 y_main_v76 y_main_arg12 y_main_arg13)
def lv_main_cst_28 : FVec Ideal S_ .f32 :=
  (constant S_ .f32 0x00000000#32)
def lv_main_v197 (y_main_v76 : FVec Ideal S10000x158 .f32) (y_main_arg12 : FVec Ideal S4x158x256 .f32) (y_main_arg13 : FVec Ideal S4x256 .f32) : FVec Ideal S256 .f32 :=
  (((fun x v => Host.reduceAdd x v reducesTo_S10000x256_S256_d0 h_S_) : (FVec Ideal S10000x256 .f32) → (FVec Ideal S_ .f32) → (FVec Ideal S256 .f32))) (lv_main_v196 y_main_v76 y_main_arg12 y_main_arg13) (lv_main_cst_28)
def lv_main_cst_29 : FVec Ideal S_ .f32 :=
  (constant S_ .f32 0x461C4000#32)
def lv_main_v198 : FVec Ideal S256 .f32 :=
  ((broadcastInDim S256 ![] bcast_S_S256 : (FVec Ideal S_ .f32) → (FVec Ideal S256 .f32))) (lv_main_cst_29)
def lv_main_v199 (y_main_v76 : FVec Ideal S10000x158 .f32) (y_main_arg12 : FVec Ideal S4x158x256 .f32) (y_main_arg13 : FVec Ideal S4x256 .f32) : FVec Ideal S256 .f32 :=
  ((Host.divf : (FVec Ideal S256 .f32) → (FVec Ideal S256 .f32) → (FVec Ideal S256 .f32))) (lv_main_v197 y_main_v76 y_main_arg12 y_main_arg13) (lv_main_v198)
def lv_main_v200 (y_main_v76 : FVec Ideal S10000x158 .f32) (y_main_arg12 : FVec Ideal S4x158x256 .f32) (y_main_arg13 : FVec Ideal S4x256 .f32) : FVec Ideal S1x256 .f32 :=
  ((broadcastInDim S1x256 ![1] bcast_S256_S1x256_1 : (FVec Ideal S256 .f32) → (FVec Ideal S1x256 .f32))) (lv_main_v192 y_main_v76 y_main_arg12 y_main_arg13)
def lv_main_v201 (y_main_v76 : FVec Ideal S10000x158 .f32) (y_main_arg12 : FVec Ideal S4x158x256 .f32) (y_main_arg13 : FVec Ideal S4x256 .f32) : FVec Ideal S10000x256 .f32 :=
  ((broadcastInDim S10000x256 ![0, 1] bcast_S1x256_S10000x256_0_1 : (FVec Ideal S1x256 .f32) → (FVec Ideal S10000x256 .f32))) (lv_main_v200 y_main_v76 y_main_arg12 y_main_arg13)
def lv_main_v202 (y_main_v76 : FVec Ideal S10000x158 .f32) (y_main_arg12 : FVec Ideal S4x158x256 .f32) (y_main_arg13 : FVec Ideal S4x256 .f32) : FVec Ideal S10000x256 .f32 :=
  ((subf : (FVec Ideal S10000x256 .f32) → (FVec Ideal S10000x256 .f32) → (FVec Ideal S10000x256 .f32))) (lv_main_v189 y_main_v76 y_main_arg12 y_main_arg13) (lv_main_v201 y_main_v76 y_main_arg12 y_main_arg13)
def lv_main_v203 (y_main_arg14 : FVec Ideal S4x256 .f32) : FVec Ideal S1x256 .f32 :=
  ((broadcastInDim S1x256 ![1] bcast_S256_S1x256_1 : (FVec Ideal S256 .f32) → (FVec Ideal S1x256 .f32))) (lv_main_v179 y_main_arg14)
def lv_main_v204 (y_main_arg14 : FVec Ideal S4x256 .f32) : FVec Ideal S10000x256 .f32 :=
  ((broadcastInDim S10000x256 ![0, 1] bcast_S1x256_S10000x256_0_1 : (FVec Ideal S1x256 .f32) → (FVec Ideal S10000x256 .f32))) (lv_main_v203 y_main_arg14)
def lv_main_v205 (y_main_arg14 : FVec Ideal S4x256 .f32) (y_main_v76 : FVec Ideal S10000x158 .f32) (y_main_arg12 : FVec Ideal S4x158x256 .f32) (y_main_arg13 : FVec Ideal S4x256 .f32) : FVec Ideal S10000x256 .f32 :=
  ((mulf : (FVec Ideal S10000x256 .f32) → (FVec Ideal S10000x256 .f32) → (FVec Ideal S10000x256 .f32))) (lv_main_v204 y_main_arg14) (lv_main_v202 y_main_v76 y_main_arg12 y_main_arg13)
def lv_main_cst_30 : FVec Ideal S_ .f32 :=
  (constant S_ .f32 0x3727C5AC#32)
def lv_main_v206 : FVec Ideal S256 .f32 :=
  ((broadcastInDim S256 ![] bcast_S_S256 : (FVec Ideal S_ .f32) → (FVec Ideal S256 .f32))) (lv_main_cst_30)
def lv_main_v207 (y_main_v76 : FVec Ideal S10000x158 .f32) (y_main_arg12 : FVec Ideal S4x158x256 .f32) (y_main_arg13 : FVec Ideal S4x256 .f32) : FVec Ideal S256 .f32 :=
  ((addf : (FVec Ideal S256 .f32) → (FVec Ideal S256 .f32) → (FVec Ideal S256 .f32))) (lv_main_v199 y_main_v76 y_main_arg12 y_main_arg13) (lv_main_v206)
def lv_main_v208 (y_main_v76 : FVec Ideal S10000x158 .f32) (y_main_arg12 : FVec Ideal S4x158x256 .f32) (y_main_arg13 : FVec Ideal S4x256 .f32) : FVec Ideal S256 .f32 :=
  ((Host.rsqrt : (FVec Ideal S256 .f32) → (FVec Ideal S256 .f32))) (lv_main_v207 y_main_v76 y_main_arg12 y_main_arg13)
def lv_main_v209 (y_main_v76 : FVec Ideal S10000x158 .f32) (y_main_arg12 : FVec Ideal S4x158x256 .f32) (y_main_arg13 : FVec Ideal S4x256 .f32) : FVec Ideal S1x256 .f32 :=
  ((broadcastInDim S1x256 ![1] bcast_S256_S1x256_1 : (FVec Ideal S256 .f32) → (FVec Ideal S1x256 .f32))) (lv_main_v208 y_main_v76 y_main_arg12 y_main_arg13)
def lv_main_v210 (y_main_v76 : FVec Ideal S10000x158 .f32) (y_main_arg12 : FVec Ideal S4x158x256 .f32) (y_main_arg13 : FVec Ideal S4x256 .f32) : FVec Ideal S10000x256 .f32 :=
  ((broadcastInDim S10000x256 ![0, 1] bcast_S1x256_S10000x256_0_1 : (FVec Ideal S1x256 .f32) → (FVec Ideal S10000x256 .f32))) (lv_main_v209 y_main_v76 y_main_arg12 y_main_arg13)
def lv_main_v211 (y_main_arg14 : FVec Ideal S4x256 .f32) (y_main_v76 : FVec Ideal S10000x158 .f32) (y_main_arg12 : FVec Ideal S4x158x256 .f32) (y_main_arg13 : FVec Ideal S4x256 .f32) : FVec Ideal S10000x256 .f32 :=
  ((mulf : (FVec Ideal S10000x256 .f32) → (FVec Ideal S10000x256 .f32) → (FVec Ideal S10000x256 .f32))) (lv_main_v205 y_main_arg14 y_main_v76 y_main_arg12 y_main_arg13) (lv_main_v210 y_main_v76 y_main_arg12 y_main_arg13)
def lv_main_v212 (y_main_arg15 : FVec Ideal S4x256 .f32) : FVec Ideal S1x256 .f32 :=
  ((broadcastInDim S1x256 ![1] bcast_S256_S1x256_1 : (FVec Ideal S256 .f32) → (FVec Ideal S1x256 .f32))) (lv_main_v181 y_main_arg15)
def lv_main_v213 (y_main_arg15 : FVec Ideal S4x256 .f32) : FVec Ideal S10000x256 .f32 :=
  ((broadcastInDim S10000x256 ![0, 1] bcast_S1x256_S10000x256_0_1 : (FVec Ideal S1x256 .f32) → (FVec Ideal S10000x256 .f32))) (lv_main_v212 y_main_arg15)
def lv_main_v214 (y_main_arg14 : FVec Ideal S4x256 .f32) (y_main_v76 : FVec Ideal S10000x158 .f32) (y_main_arg12 : FVec Ideal S4x158x256 .f32) (y_main_arg13 : FVec Ideal S4x256 .f32) (y_main_arg15 : FVec Ideal S4x256 .f32) : FVec Ideal S10000x256 .f32 :=
  ((addf : (FVec Ideal S10000x256 .f32) → (FVec Ideal S10000x256 .f32) → (FVec Ideal S10000x256 .f32))) (lv_main_v211 y_main_arg14 y_main_v76 y_main_arg12 y_main_arg13) (lv_main_v213 y_main_arg15)
def lv_main_call8_cst : FVec Ideal S_ .f32 :=
  (constant S_ .f32 0x00000000#32)
def lv_main_call8_v0 : FVec Ideal S10000x256 .f32 :=
  ((broadcastInDim S10000x256 ![] bcast_S_S10000x256)) (lv_main_call8_cst)
def lv_main_v215 (y_main_v214 : FVec Ideal S10000x256 .f32) : FVec Ideal S10000x256 .f32 :=
  (maximumf) y_main_v214 (lv_main_call8_v0)
def lv_main_v216 (y_main_v215 : FVec Ideal S10000x256 .f32) (y_main_v183 : FVec Ideal S256x256 .f32) : FVec Ideal S10000x256 .f32 :=
  (((fun l r => Host.dotGeneral dot_S10000x256_S256x256_S10000x256_1_0_0_1_n_n none l r) : (FVec Ideal S10000x256 .f32) → (FVec Ideal S256x256 .f32) → (FVec Ideal S10000x256 .f32))) y_main_v215 y_main_v183
def lv_main_v217 (y_main_v185 : FVec Ideal S256 .f32) : FVec Ideal S1x256 .f32 :=
  ((broadcastInDim S1x256 ![1] bcast_S256_S1x256_1 : (FVec Ideal S256 .f32) → (FVec Ideal S1x256 .f32))) y_main_v185
def lv_main_v218 (y_main_v185 : FVec Ideal S256 .f32) : FVec Ideal S10000x256 .f32 :=
  ((broadcastInDim S10000x256 ![0, 1] bcast_S1x256_S10000x256_0_1 : (FVec Ideal S1x256 .f32) → (FVec Ideal S10000x256 .f32))) (lv_main_v217 y_main_v185)
def lv_main_v219 (y_main_v215 : FVec Ideal S10000x256 .f32) (y_main_v183 : FVec Ideal S256x256 .f32) (y_main_v185 : FVec Ideal S256 .f32) : FVec Ideal S10000x256 .f32 :=
  ((addf : (FVec Ideal S10000x256 .f32) → (FVec Ideal S10000x256 .f32) → (FVec Ideal S10000x256 .f32))) (lv_main_v216 y_main_v215 y_main_v183) (lv_main_v218 y_main_v185)
def lv_main_v220 (y_main_v173 : FVec Ideal S10000x256 .f32) (y_main_v215 : FVec Ideal S10000x256 .f32) (y_main_v183 : FVec Ideal S256x256 .f32) (y_main_v185 : FVec Ideal S256 .f32) : FVec Ideal S10000x256 .f32 :=
  ((addf : (FVec Ideal S10000x256 .f32) → (FVec Ideal S10000x256 .f32) → (FVec Ideal S10000x256 .f32))) y_main_v173 (lv_main_v219 y_main_v215 y_main_v183 y_main_v185)
def lv_main_v221 (y_main_arg12 : FVec Ideal S4x158x256 .f32) : FVec Ideal S1x158x256 .f32 :=
  (((extractStridedSlice S1x158x256 ![3, 0, 0] · slices_S4x158x256_S1x158x256_3_0_0) : (FVec Ideal S4x158x256 .f32) → (FVec Ideal S1x158x256 .f32))) y_main_arg12
def lv_main_v222 (y_main_arg12 : FVec Ideal S4x158x256 .f32) : FVec Ideal S158x256 .f32 :=
  ((fun x => shapeCast _ x shapeCasts_S1x158x256_S158x256)) (lv_main_v221 y_main_arg12)
def lv_main_v223 (y_main_arg13 : FVec Ideal S4x256 .f32) : FVec Ideal S1x256 .f32 :=
  (((extractStridedSlice S1x256 ![3, 0] · slices_S4x256_S1x256_3_0) : (FVec Ideal S4x256 .f32) → (FVec Ideal S1x256 .f32))) y_main_arg13
def lv_main_v224 (y_main_arg13 : FVec Ideal S4x256 .f32) : FVec Ideal S256 .f32 :=
  ((fun x => shapeCast _ x shapeCasts_S1x256_S256)) (lv_main_v223 y_main_arg13)
def lv_main_v225 (y_main_arg14 : FVec Ideal S4x256 .f32) : FVec Ideal S1x256 .f32 :=
  (((extractStridedSlice S1x256 ![3, 0] · slices_S4x256_S1x256_3_0) : (FVec Ideal S4x256 .f32) → (FVec Ideal S1x256 .f32))) y_main_arg14
def lv_main_v226 (y_main_arg14 : FVec Ideal S4x256 .f32) : FVec Ideal S256 .f32 :=
  ((fun x => shapeCast _ x shapeCasts_S1x256_S256)) (lv_main_v225 y_main_arg14)
def lv_main_v227 (y_main_arg15 : FVec Ideal S4x256 .f32) : FVec Ideal S1x256 .f32 :=
  (((extractStridedSlice S1x256 ![3, 0] · slices_S4x256_S1x256_3_0) : (FVec Ideal S4x256 .f32) → (FVec Ideal S1x256 .f32))) y_main_arg15
def lv_main_v228 (y_main_arg15 : FVec Ideal S4x256 .f32) : FVec Ideal S256 .f32 :=
  ((fun x => shapeCast _ x shapeCasts_S1x256_S256)) (lv_main_v227 y_main_arg15)
def lv_main_v229 (y_main_arg16 : FVec Ideal S4x256x256 .f32) : FVec Ideal S1x256x256 .f32 :=
  (((extractStridedSlice S1x256x256 ![3, 0, 0] · slices_S4x256x256_S1x256x256_3_0_0) : (FVec Ideal S4x256x256 .f32) → (FVec Ideal S1x256x256 .f32))) y_main_arg16
def lv_main_v230 (y_main_arg16 : FVec Ideal S4x256x256 .f32) : FVec Ideal S256x256 .f32 :=
  ((fun x => shapeCast _ x shapeCasts_S1x256x256_S256x256)) (lv_main_v229 y_main_arg16)
def lv_main_v231 (y_main_arg17 : FVec Ideal S4x256 .f32) : FVec Ideal S1x256 .f32 :=
  (((extractStridedSlice S1x256 ![3, 0] · slices_S4x256_S1x256_3_0) : (FVec Ideal S4x256 .f32) → (FVec Ideal S1x256 .f32))) y_main_arg17
def lv_main_v232 (y_main_arg17 : FVec Ideal S4x256 .f32) : FVec Ideal S256 .f32 :=
  ((fun x => shapeCast _ x shapeCasts_S1x256_S256)) (lv_main_v231 y_main_arg17)
def lv_main_v233 (y_main_v78 : FVec Ideal S10000x158 .f32) (y_main_arg12 : FVec Ideal S4x158x256 .f32) : FVec Ideal S10000x256 .f32 :=
  (((fun l r => Host.dotGeneral dot_S10000x158_S158x256_S10000x256_1_0_0_1_n_n none l r) : (FVec Ideal S10000x158 .f32) → (FVec Ideal S158x256 .f32) → (FVec Ideal S10000x256 .f32))) y_main_v78 (lv_main_v222 y_main_arg12)
def lv_main_v234 (y_main_arg13 : FVec Ideal S4x256 .f32) : FVec Ideal S1x256 .f32 :=
  ((broadcastInDim S1x256 ![1] bcast_S256_S1x256_1 : (FVec Ideal S256 .f32) → (FVec Ideal S1x256 .f32))) (lv_main_v224 y_main_arg13)
def lv_main_v235 (y_main_arg13 : FVec Ideal S4x256 .f32) : FVec Ideal S10000x256 .f32 :=
  ((broadcastInDim S10000x256 ![0, 1] bcast_S1x256_S10000x256_0_1 : (FVec Ideal S1x256 .f32) → (FVec Ideal S10000x256 .f32))) (lv_main_v234 y_main_arg13)
def lv_main_v236 (y_main_v78 : FVec Ideal S10000x158 .f32) (y_main_arg12 : FVec Ideal S4x158x256 .f32) (y_main_arg13 : FVec Ideal S4x256 .f32) : FVec Ideal S10000x256 .f32 :=
  ((addf : (FVec Ideal S10000x256 .f32) → (FVec Ideal S10000x256 .f32) → (FVec Ideal S10000x256 .f32))) (lv_main_v233 y_main_v78 y_main_arg12) (lv_main_v235 y_main_arg13)
def lv_main_cst_31 : FVec Ideal S_ .f32 :=
  (constant S_ .f32 0x00000000#32)
def lv_main_v237 (y_main_v78 : FVec Ideal S10000x158 .f32) (y_main_arg12 : FVec Ideal S4x158x256 .f32) (y_main_arg13 : FVec Ideal S4x256 .f32) : FVec Ideal S256 .f32 :=
  (((fun x v => Host.reduceAdd x v reducesTo_S10000x256_S256_d0 h_S_) : (FVec Ideal S10000x256 .f32) → (FVec Ideal S_ .f32) → (FVec Ideal S256 .f32))) (lv_main_v236 y_main_v78 y_main_arg12 y_main_arg13) (lv_main_cst_31)
def lv_main_cst_32 : FVec Ideal S_ .f32 :=
  (constant S_ .f32 0x461C4000#32)
def lv_main_v238 : FVec Ideal S256 .f32 :=
  ((broadcastInDim S256 ![] bcast_S_S256 : (FVec Ideal S_ .f32) → (FVec Ideal S256 .f32))) (lv_main_cst_32)
def lv_main_v239 (y_main_v78 : FVec Ideal S10000x158 .f32) (y_main_arg12 : FVec Ideal S4x158x256 .f32) (y_main_arg13 : FVec Ideal S4x256 .f32) : FVec Ideal S256 .f32 :=
  ((Host.divf : (FVec Ideal S256 .f32) → (FVec Ideal S256 .f32) → (FVec Ideal S256 .f32))) (lv_main_v237 y_main_v78 y_main_arg12 y_main_arg13) (lv_main_v238)
def lv_main_v240 (y_main_v78 : FVec Ideal S10000x158 .f32) (y_main_arg12 : FVec Ideal S4x158x256 .f32) (y_main_arg13 : FVec Ideal S4x256 .f32) : FVec Ideal S1x256 .f32 :=
  ((broadcastInDim S1x256 ![1] bcast_S256_S1x256_1 : (FVec Ideal S256 .f32) → (FVec Ideal S1x256 .f32))) (lv_main_v239 y_main_v78 y_main_arg12 y_main_arg13)
def lv_main_v241 (y_main_v78 : FVec Ideal S10000x158 .f32) (y_main_arg12 : FVec Ideal S4x158x256 .f32) (y_main_arg13 : FVec Ideal S4x256 .f32) : FVec Ideal S10000x256 .f32 :=
  ((broadcastInDim S10000x256 ![0, 1] bcast_S1x256_S10000x256_0_1 : (FVec Ideal S1x256 .f32) → (FVec Ideal S10000x256 .f32))) (lv_main_v240 y_main_v78 y_main_arg12 y_main_arg13)
def lv_main_v242 (y_main_v78 : FVec Ideal S10000x158 .f32) (y_main_arg12 : FVec Ideal S4x158x256 .f32) (y_main_arg13 : FVec Ideal S4x256 .f32) : FVec Ideal S10000x256 .f32 :=
  ((subf : (FVec Ideal S10000x256 .f32) → (FVec Ideal S10000x256 .f32) → (FVec Ideal S10000x256 .f32))) (lv_main_v236 y_main_v78 y_main_arg12 y_main_arg13) (lv_main_v241 y_main_v78 y_main_arg12 y_main_arg13)
def lv_main_v243 (y_main_v78 : FVec Ideal S10000x158 .f32) (y_main_arg12 : FVec Ideal S4x158x256 .f32) (y_main_arg13 : FVec Ideal S4x256 .f32) : FVec Ideal S10000x256 .f32 :=
  ((mulf : (FVec Ideal S10000x256 .f32) → (FVec Ideal S10000x256 .f32) → (FVec Ideal S10000x256 .f32))) (lv_main_v242 y_main_v78 y_main_arg12 y_main_arg13) (lv_main_v242 y_main_v78 y_main_arg12 y_main_arg13)
def lv_main_cst_33 : FVec Ideal S_ .f32 :=
  (constant S_ .f32 0x00000000#32)
def lv_main_v244 (y_main_v78 : FVec Ideal S10000x158 .f32) (y_main_arg12 : FVec Ideal S4x158x256 .f32) (y_main_arg13 : FVec Ideal S4x256 .f32) : FVec Ideal S256 .f32 :=
  (((fun x v => Host.reduceAdd x v reducesTo_S10000x256_S256_d0 h_S_) : (FVec Ideal S10000x256 .f32) → (FVec Ideal S_ .f32) → (FVec Ideal S256 .f32))) (lv_main_v243 y_main_v78 y_main_arg12 y_main_arg13) (lv_main_cst_33)
def lv_main_cst_34 : FVec Ideal S_ .f32 :=
  (constant S_ .f32 0x461C4000#32)
def lv_main_v245 : FVec Ideal S256 .f32 :=
  ((broadcastInDim S256 ![] bcast_S_S256 : (FVec Ideal S_ .f32) → (FVec Ideal S256 .f32))) (lv_main_cst_34)
def lv_main_v246 (y_main_v78 : FVec Ideal S10000x158 .f32) (y_main_arg12 : FVec Ideal S4x158x256 .f32) (y_main_arg13 : FVec Ideal S4x256 .f32) : FVec Ideal S256 .f32 :=
  ((Host.divf : (FVec Ideal S256 .f32) → (FVec Ideal S256 .f32) → (FVec Ideal S256 .f32))) (lv_main_v244 y_main_v78 y_main_arg12 y_main_arg13) (lv_main_v245)
def lv_main_v247 (y_main_v78 : FVec Ideal S10000x158 .f32) (y_main_arg12 : FVec Ideal S4x158x256 .f32) (y_main_arg13 : FVec Ideal S4x256 .f32) : FVec Ideal S1x256 .f32 :=
  ((broadcastInDim S1x256 ![1] bcast_S256_S1x256_1 : (FVec Ideal S256 .f32) → (FVec Ideal S1x256 .f32))) (lv_main_v239 y_main_v78 y_main_arg12 y_main_arg13)
def lv_main_v248 (y_main_v78 : FVec Ideal S10000x158 .f32) (y_main_arg12 : FVec Ideal S4x158x256 .f32) (y_main_arg13 : FVec Ideal S4x256 .f32) : FVec Ideal S10000x256 .f32 :=
  ((broadcastInDim S10000x256 ![0, 1] bcast_S1x256_S10000x256_0_1 : (FVec Ideal S1x256 .f32) → (FVec Ideal S10000x256 .f32))) (lv_main_v247 y_main_v78 y_main_arg12 y_main_arg13)
def lv_main_v249 (y_main_v78 : FVec Ideal S10000x158 .f32) (y_main_arg12 : FVec Ideal S4x158x256 .f32) (y_main_arg13 : FVec Ideal S4x256 .f32) : FVec Ideal S10000x256 .f32 :=
  ((subf : (FVec Ideal S10000x256 .f32) → (FVec Ideal S10000x256 .f32) → (FVec Ideal S10000x256 .f32))) (lv_main_v236 y_main_v78 y_main_arg12 y_main_arg13) (lv_main_v248 y_main_v78 y_main_arg12 y_main_arg13)
def lv_main_v250 (y_main_arg14 : FVec Ideal S4x256 .f32) : FVec Ideal S1x256 .f32 :=
  ((broadcastInDim S1x256 ![1] bcast_S256_S1x256_1 : (FVec Ideal S256 .f32) → (FVec Ideal S1x256 .f32))) (lv_main_v226 y_main_arg14)
def lv_main_v251 (y_main_arg14 : FVec Ideal S4x256 .f32) : FVec Ideal S10000x256 .f32 :=
  ((broadcastInDim S10000x256 ![0, 1] bcast_S1x256_S10000x256_0_1 : (FVec Ideal S1x256 .f32) → (FVec Ideal S10000x256 .f32))) (lv_main_v250 y_main_arg14)
def lv_main_v252 (y_main_arg14 : FVec Ideal S4x256 .f32) (y_main_v78 : FVec Ideal S10000x158 .f32) (y_main_arg12 : FVec Ideal S4x158x256 .f32) (y_main_arg13 : FVec Ideal S4x256 .f32) : FVec Ideal S10000x256 .f32 :=
  ((mulf : (FVec Ideal S10000x256 .f32) → (FVec Ideal S10000x256 .f32) → (FVec Ideal S10000x256 .f32))) (lv_main_v251 y_main_arg14) (lv_main_v249 y_main_v78 y_main_arg12 y_main_arg13)
def lv_main_cst_35 : FVec Ideal S_ .f32 :=
  (constant S_ .f32 0x3727C5AC#32)
def lv_main_v253 : FVec Ideal S256 .f32 :=
  ((broadcastInDim S256 ![] bcast_S_S256 : (FVec Ideal S_ .f32) → (FVec Ideal S256 .f32))) (lv_main_cst_35)
def lv_main_v254 (y_main_v78 : FVec Ideal S10000x158 .f32) (y_main_arg12 : FVec Ideal S4x158x256 .f32) (y_main_arg13 : FVec Ideal S4x256 .f32) : FVec Ideal S256 .f32 :=
  ((addf : (FVec Ideal S256 .f32) → (FVec Ideal S256 .f32) → (FVec Ideal S256 .f32))) (lv_main_v246 y_main_v78 y_main_arg12 y_main_arg13) (lv_main_v253)
def lv_main_v255 (y_main_v78 : FVec Ideal S10000x158 .f32) (y_main_arg12 : FVec Ideal S4x158x256 .f32) (y_main_arg13 : FVec Ideal S4x256 .f32) : FVec Ideal S256 .f32 :=
  ((Host.rsqrt : (FVec Ideal S256 .f32) → (FVec Ideal S256 .f32))) (lv_main_v254 y_main_v78 y_main_arg12 y_main_arg13)
def lv_main_v256 (y_main_v78 : FVec Ideal S10000x158 .f32) (y_main_arg12 : FVec Ideal S4x158x256 .f32) (y_main_arg13 : FVec Ideal S4x256 .f32) : FVec Ideal S1x256 .f32 :=
  ((broadcastInDim S1x256 ![1] bcast_S256_S1x256_1 : (FVec Ideal S256 .f32) → (FVec Ideal S1x256 .f32))) (lv_main_v255 y_main_v78 y_main_arg12 y_main_arg13)
def lv_main_v257 (y_main_v78 : FVec Ideal S10000x158 .f32) (y_main_arg12 : FVec Ideal S4x158x256 .f32) (y_main_arg13 : FVec Ideal S4x256 .f32) : FVec Ideal S10000x256 .f32 :=
  ((broadcastInDim S10000x256 ![0, 1] bcast_S1x256_S10000x256_0_1 : (FVec Ideal S1x256 .f32) → (FVec Ideal S10000x256 .f32))) (lv_main_v256 y_main_v78 y_main_arg12 y_main_arg13)
def lv_main_v258 (y_main_arg14 : FVec Ideal S4x256 .f32) (y_main_v78 : FVec Ideal S10000x158 .f32) (y_main_arg12 : FVec Ideal S4x158x256 .f32) (y_main_arg13 : FVec Ideal S4x256 .f32) : FVec Ideal S10000x256 .f32 :=
  ((mulf : (FVec Ideal S10000x256 .f32) → (FVec Ideal S10000x256 .f32) → (FVec Ideal S10000x256 .f32))) (lv_main_v252 y_main_arg14 y_main_v78 y_main_arg12 y_main_arg13) (lv_main_v257 y_main_v78 y_main_arg12 y_main_arg13)
def lv_main_v259 (y_main_arg15 : FVec Ideal S4x256 .f32) : FVec Ideal S1x256 .f32 :=
  ((broadcastInDim S1x256 ![1] bcast_S256_S1x256_1 : (FVec Ideal S256 .f32) → (FVec Ideal S1x256 .f32))) (lv_main_v228 y_main_arg15)
def lv_main_v260 (y_main_arg15 : FVec Ideal S4x256 .f32) : FVec Ideal S10000x256 .f32 :=
  ((broadcastInDim S10000x256 ![0, 1] bcast_S1x256_S10000x256_0_1 : (FVec Ideal S1x256 .f32) → (FVec Ideal S10000x256 .f32))) (lv_main_v259 y_main_arg15)
def lv_main_v261 (y_main_arg14 : FVec Ideal S4x256 .f32) (y_main_v78 : FVec Ideal S10000x158 .f32) (y_main_arg12 : FVec Ideal S4x158x256 .f32) (y_main_arg13 : FVec Ideal S4x256 .f32) (y_main_arg15 : FVec Ideal S4x256 .f32) : FVec Ideal S10000x256 .f32 :=
  ((addf : (FVec Ideal S10000x256 .f32) → (FVec Ideal S10000x256 .f32) → (FVec Ideal S10000x256 .f32))) (lv_main_v258 y_main_arg14 y_main_v78 y_main_arg12 y_main_arg13) (lv_main_v260 y_main_arg15)
def lv_main_call9_cst : FVec Ideal S_ .f32 :=
  (constant S_ .f32 0x00000000#32)
def lv_main_call9_v0 : FVec Ideal S10000x256 .f32 :=
  ((broadcastInDim S10000x256 ![] bcast_S_S10000x256)) (lv_main_call9_cst)
def lv_main_v262 (y_main_v261 : FVec Ideal S10000x256 .f32) : FVec Ideal S10000x256 .f32 :=
  (maximumf) y_main_v261 (lv_main_call9_v0)
def lv_main_v263 (y_main_v262 : FVec Ideal S10000x256 .f32) (y_main_v230 : FVec Ideal S256x256 .f32) : FVec Ideal S10000x256 .f32 :=
  (((fun l r => Host.dotGeneral dot_S10000x256_S256x256_S10000x256_1_0_0_1_n_n none l r) : (FVec Ideal S10000x256 .f32) → (FVec Ideal S256x256 .f32) → (FVec Ideal S10000x256 .f32))) y_main_v262 y_main_v230
def lv_main_v264 (y_main_v232 : FVec Ideal S256 .f32) : FVec Ideal S1x256 .f32 :=
  ((broadcastInDim S1x256 ![1] bcast_S256_S1x256_1 : (FVec Ideal S256 .f32) → (FVec Ideal S1x256 .f32))) y_main_v232
def lv_main_v265 (y_main_v232 : FVec Ideal S256 .f32) : FVec Ideal S10000x256 .f32 :=
  ((broadcastInDim S10000x256 ![0, 1] bcast_S1x256_S10000x256_0_1 : (FVec Ideal S1x256 .f32) → (FVec Ideal S10000x256 .f32))) (lv_main_v264 y_main_v232)
def lv_main_v266 (y_main_v262 : FVec Ideal S10000x256 .f32) (y_main_v230 : FVec Ideal S256x256 .f32) (y_main_v232 : FVec Ideal S256 .f32) : FVec Ideal S10000x256 .f32 :=
  ((addf : (FVec Ideal S10000x256 .f32) → (FVec Ideal S10000x256 .f32) → (FVec Ideal S10000x256 .f32))) (lv_main_v263 y_main_v262 y_main_v230) (lv_main_v265 y_main_v232)
def lv_main_v267 (y_main_v220 : FVec Ideal S10000x256 .f32) (y_main_v262 : FVec Ideal S10000x256 .f32) (y_main_v230 : FVec Ideal S256x256 .f32) (y_main_v232 : FVec Ideal S256 .f32) : FVec Ideal S10000x256 .f32 :=
  ((addf : (FVec Ideal S10000x256 .f32) → (FVec Ideal S10000x256 .f32) → (FVec Ideal S10000x256 .f32))) y_main_v220 (lv_main_v266 y_main_v262 y_main_v230 y_main_v232)
def lv_main_v268 (y_main_v69 : FVec Ideal S10000x256 .f32) (y_main_v220 : FVec Ideal S10000x256 .f32) (y_main_v262 : FVec Ideal S10000x256 .f32) (y_main_v230 : FVec Ideal S256x256 .f32) (y_main_v232 : FVec Ideal S256 .f32) : FVec Ideal S10000x512 .f32 :=
  (((fun a b => concatenate S10000x512 1 [⟨S10000x256, a⟩, ⟨S10000x256, b⟩] concatenates_S10000x256_S10000x256_S10000x512_d1) : (FVec Ideal S10000x256 .f32) → (FVec Ideal S10000x256 .f32) → (FVec Ideal S10000x512 .f32))) y_main_v69 (lv_main_v267 y_main_v220 y_main_v262 y_main_v230 y_main_v232)

/-! After a stretch, a buffer it writes holds the composed function of the buffers the stretch reads. -/

theorem loc_main_cst_2 (V : Valuation τ sig (Elt Ideal)) :
    StableHlo.after (Gen.hostOps0 (F := Ideal)) V (Proc.devRef .tc main_cst_2) = lv_main_cst_2 := by
  after_results_simp <;> rfl

theorem loc_main_v12 (V : Valuation τ sig (Elt Ideal)) :
    StableHlo.after (Gen.hostOps0 (F := Ideal)) V (Proc.devRef .tc main_v12) = lv_main_v12 (V (Proc.devRef .tc main_arg1)) := by
  after_results_simp <;> rfl

theorem loc_main_v10 (V : Valuation τ sig (Elt Ideal)) :
    StableHlo.after (Gen.hostOps0 (F := Ideal)) V (Proc.devRef .tc main_v10) = lv_main_v10 (V (Proc.devRef .tc main_arg1)) := by
  after_results_simp <;> rfl

theorem loc_main_v3 (V : Valuation τ sig (Elt Ideal)) :
    StableHlo.after (Gen.hostOps0 (F := Ideal)) V (Proc.devRef .tc main_v3) = lv_main_v3 (V (Proc.devRef .tc main_arg1)) := by
  after_results_simp <;> rfl

theorem loc_main_v6 (V : Valuation τ sig (Elt Ideal)) :
    StableHlo.after (Gen.hostOps0 (F := Ideal)) V (Proc.devRef .tc main_v6) = lv_main_v6 (V (Proc.devRef .tc main_arg1)) := by
  after_results_simp <;> rfl

theorem loc_main_v13 (V : Valuation τ sig (Elt Ideal)) :
    StableHlo.after (Gen.hostOps0_1 (F := Ideal)) V (Proc.devRef .tc main_v13) = lv_main_v13 (V (Proc.devRef .tc main_v12)) (V (Proc.devRef .tc main_v10)) (V (Proc.devRef .tc main_cst_2)) := by
  after_results_simp <;> rfl

theorem loc_main_cst_5 (V : Valuation τ sig (Elt Ideal)) :
    StableHlo.after (Gen.hostOps0_2 (F := Ideal)) V (Proc.devRef .tc main_cst_5) = lv_main_cst_5 := by
  after_results_simp <;> rfl

theorem loc_main_v15 (V : Valuation τ sig (Elt Ideal)) :
    StableHlo.after (Gen.hostOps0_2 (F := Ideal)) V (Proc.devRef .tc main_v15) = lv_main_v15 (V (Proc.devRef .tc main_v10)) := by
  after_results_simp <;> rfl

theorem loc_main_v17 (V : Valuation τ sig (Elt Ideal)) :
    StableHlo.after (Gen.hostOps0_2 (F := Ideal)) V (Proc.devRef .tc main_v17) = lv_main_v17 (V (Proc.devRef .tc main_v13)) := by
  after_results_simp <;> rfl

theorem loc_main_v18 (V : Valuation τ sig (Elt Ideal)) :
    StableHlo.after (Gen.hostOps0_3 (F := Ideal)) V (Proc.devRef .tc main_v18) = lv_main_v18 (V (Proc.devRef .tc main_v15)) (V (Proc.devRef .tc main_v17)) (V (Proc.devRef .tc main_cst_5)) := by
  after_results_simp <;> rfl

theorem loc_main_v48 (V : Valuation τ sig (Elt Ideal)) :
    StableHlo.after (Gen.hostOps0_4 (F := Ideal)) V (Proc.devRef .tc main_v48) = lv_main_v48 (V (Proc.devRef .tc main_v6)) (V (Proc.devRef .tc main_v3)) (V (Proc.devRef .tc main_v18)) := by
  after_results_simp <;> rfl

theorem loc_main_v50 (V : Valuation τ sig (Elt Ideal)) :
    StableHlo.after (Gen.hostOps0_4 (F := Ideal)) V (Proc.devRef .tc main_v50) = lv_main_v50 (V (Proc.devRef .tc main_arg0)) (V (Proc.devRef .tc main_arg6)) := by
  after_results_simp <;> rfl

theorem loc_main_v54 (V : Valuation τ sig (Elt Ideal)) :
    StableHlo.after (Gen.hostOps1 (F := Ideal)) V (Proc.devRef .tc main_v54) = lv_main_v54 (V (Proc.devRef .tc main_v51)) (V (Proc.devRef .tc main_arg7)) := by
  after_results_simp <;> rfl

theorem loc_main_v55 (V : Valuation τ sig (Elt Ideal)) :
    StableHlo.after (Gen.hostOps1_1 (F := Ideal)) V (Proc.devRef .tc main_v55) = lv_main_v55 (V (Proc.devRef .tc main_v54)) := by
  after_results_simp <;> rfl

theorem loc_main_v57 (V : Valuation τ sig (Elt Ideal)) :
    StableHlo.after (Gen.hostOps1_2 (F := Ideal)) V (Proc.devRef .tc main_v57) = lv_main_v57 (V (Proc.devRef .tc main_v55)) (V (Proc.devRef .tc main_arg8)) := by
  after_results_simp <;> rfl

theorem loc_main_v61 (V : Valuation τ sig (Elt Ideal)) :
    StableHlo.after (Gen.hostOps2 (F := Ideal)) V (Proc.devRef .tc main_v61) = lv_main_v61 (V (Proc.devRef .tc main_v58)) (V (Proc.devRef .tc main_arg9)) := by
  after_results_simp <;> rfl

theorem loc_main_v62 (V : Valuation τ sig (Elt Ideal)) :
    StableHlo.after (Gen.hostOps2_1 (F := Ideal)) V (Proc.devRef .tc main_v62) = lv_main_v62 (V (Proc.devRef .tc main_v61)) := by
  after_results_simp <;> rfl

theorem loc_main_v64 (V : Valuation τ sig (Elt Ideal)) :
    StableHlo.after (Gen.hostOps2_2 (F := Ideal)) V (Proc.devRef .tc main_v64) = lv_main_v64 (V (Proc.devRef .tc main_v62)) (V (Proc.devRef .tc main_arg10)) := by
  after_results_simp <;> rfl

theorem loc_main_v68 (V : Valuation τ sig (Elt Ideal)) :
    StableHlo.after (Gen.hostOps3 (F := Ideal)) V (Proc.devRef .tc main_v68) = lv_main_v68 (V (Proc.devRef .tc main_v65)) (V (Proc.devRef .tc main_arg11)) := by
  after_results_simp <;> rfl

theorem loc_main_v69 (V : Valuation τ sig (Elt Ideal)) :
    StableHlo.after (Gen.hostOps3_1 (F := Ideal)) V (Proc.devRef .tc main_v69) = lv_main_v69 (V (Proc.devRef .tc main_v68)) := by
  after_results_simp <;> rfl

theorem loc_main_c_14 (V : Valuation τ sig (Elt Ideal)) :
    StableHlo.after (Gen.hostOps3_2 (F := Ideal)) V (Proc.devRef .tc main_c_14) = lv_main_c_14 := by
  after_results_simp <;> rfl

theorem loc_main_v70 (V : Valuation τ sig (Elt Ideal)) :
    StableHlo.after (Gen.hostOps3_2 (F := Ideal)) V (Proc.devRef .tc main_v70) = lv_main_v70 (V (Proc.devRef .tc main_arg0)) (V (Proc.devRef .tc main_arg2)) := by
  after_results_simp <;> rfl

theorem loc_main_v71 (V : Valuation τ sig (Elt Ideal)) :
    StableHlo.after (Gen.hostOps3_3 (F := Ideal)) V (Proc.devRef .tc main_v71) = lv_main_v71 (V (Proc.devRef .tc main_v70)) (V (Proc.devRef .tc main_c_14)) := by
  after_results_simp <;> rfl

theorem loc_main_v72 (V : Valuation τ sig (Elt Ideal)) :
    StableHlo.after (Gen.hostOps3_4 (F := Ideal)) V (Proc.devRef .tc main_v72) = lv_main_v72 (V (Proc.devRef .tc main_v71)) := by
  after_results_simp <;> rfl

theorem loc_main_v74 (V : Valuation τ sig (Elt Ideal)) :
    StableHlo.after (Gen.hostOps4 (F := Ideal)) V (Proc.devRef .tc main_v74) = lv_main_v74 (V (Proc.devRef .tc main_v73)) := by
  after_results_simp <;> rfl

theorem loc_main_v76 (V : Valuation τ sig (Elt Ideal)) :
    StableHlo.after (Gen.hostOps5 (F := Ideal)) V (Proc.devRef .tc main_v76) = lv_main_v76 (V (Proc.devRef .tc main_v75)) := by
  after_results_simp <;> rfl

theorem loc_main_v120 (V : Valuation τ sig (Elt Ideal)) :
    StableHlo.after (Gen.hostOps6 (F := Ideal)) V (Proc.devRef .tc main_v120) = lv_main_v120 (V (Proc.devRef .tc main_arg14)) (V (Proc.devRef .tc main_v70)) (V (Proc.devRef .tc main_arg12)) (V (Proc.devRef .tc main_arg13)) (V (Proc.devRef .tc main_arg15)) := by
  after_results_simp <;> rfl

theorem loc_main_v89 (V : Valuation τ sig (Elt Ideal)) :
    StableHlo.after (Gen.hostOps6 (F := Ideal)) V (Proc.devRef .tc main_v89) = lv_main_v89 (V (Proc.devRef .tc main_arg16)) := by
  after_results_simp <;> rfl

theorem loc_main_v91 (V : Valuation τ sig (Elt Ideal)) :
    StableHlo.after (Gen.hostOps6 (F := Ideal)) V (Proc.devRef .tc main_v91) = lv_main_v91 (V (Proc.devRef .tc main_arg17)) := by
  after_results_simp <;> rfl

theorem loc_main_v79 (V : Valuation τ sig (Elt Ideal)) :
    StableHlo.after (Gen.hostOps6 (F := Ideal)) V (Proc.devRef .tc main_v79) = lv_main_v79 := by
  after_results_simp <;> rfl

theorem loc_main_v78 (V : Valuation τ sig (Elt Ideal)) :
    StableHlo.after (Gen.hostOps6 (F := Ideal)) V (Proc.devRef .tc main_v78) = lv_main_v78 (V (Proc.devRef .tc main_v77)) := by
  after_results_simp <;> rfl

theorem loc_main_v121 (V : Valuation τ sig (Elt Ideal)) :
    StableHlo.after (Gen.hostOps6_1 (F := Ideal)) V (Proc.devRef .tc main_v121) = lv_main_v121 (V (Proc.devRef .tc main_v120)) := by
  after_results_simp <;> rfl

theorem loc_main_v167 (V : Valuation τ sig (Elt Ideal)) :
    StableHlo.after (Gen.hostOps6_2 (F := Ideal)) V (Proc.devRef .tc main_v167) = lv_main_v167 (V (Proc.devRef .tc main_arg14)) (V (Proc.devRef .tc main_v74)) (V (Proc.devRef .tc main_arg12)) (V (Proc.devRef .tc main_arg13)) (V (Proc.devRef .tc main_arg15)) := by
  after_results_simp <;> rfl

theorem loc_main_v136 (V : Valuation τ sig (Elt Ideal)) :
    StableHlo.after (Gen.hostOps6_2 (F := Ideal)) V (Proc.devRef .tc main_v136) = lv_main_v136 (V (Proc.devRef .tc main_arg16)) := by
  after_results_simp <;> rfl

theorem loc_main_v138 (V : Valuation τ sig (Elt Ideal)) :
    StableHlo.after (Gen.hostOps6_2 (F := Ideal)) V (Proc.devRef .tc main_v138) = lv_main_v138 (V (Proc.devRef .tc main_arg17)) := by
  after_results_simp <;> rfl

theorem loc_main_v126 (V : Valuation τ sig (Elt Ideal)) :
    StableHlo.after (Gen.hostOps6_2 (F := Ideal)) V (Proc.devRef .tc main_v126) = lv_main_v126 (V (Proc.devRef .tc main_v79)) (V (Proc.devRef .tc main_v121)) (V (Proc.devRef .tc main_v89)) (V (Proc.devRef .tc main_v91)) := by
  after_results_simp <;> rfl

theorem loc_main_v168 (V : Valuation τ sig (Elt Ideal)) :
    StableHlo.after (Gen.hostOps6_3 (F := Ideal)) V (Proc.devRef .tc main_v168) = lv_main_v168 (V (Proc.devRef .tc main_v167)) := by
  after_results_simp <;> rfl

theorem loc_main_v214 (V : Valuation τ sig (Elt Ideal)) :
    StableHlo.after (Gen.hostOps6_4 (F := Ideal)) V (Proc.devRef .tc main_v214) = lv_main_v214 (V (Proc.devRef .tc main_arg14)) (V (Proc.devRef .tc main_v76)) (V (Proc.devRef .tc main_arg12)) (V (Proc.devRef .tc main_arg13)) (V (Proc.devRef .tc main_arg15)) := by
  after_results_simp <;> rfl

theorem loc_main_v183 (V : Valuation τ sig (Elt Ideal)) :
    StableHlo.after (Gen.hostOps6_4 (F := Ideal)) V (Proc.devRef .tc main_v183) = lv_main_v183 (V (Proc.devRef .tc main_arg16)) := by
  after_results_simp <;> rfl

theorem loc_main_v185 (V : Valuation τ sig (Elt Ideal)) :
    StableHlo.after (Gen.hostOps6_4 (F := Ideal)) V (Proc.devRef .tc main_v185) = lv_main_v185 (V (Proc.devRef .tc main_arg17)) := by
  after_results_simp <;> rfl

theorem loc_main_v173 (V : Valuation τ sig (Elt Ideal)) :
    StableHlo.after (Gen.hostOps6_4 (F := Ideal)) V (Proc.devRef .tc main_v173) = lv_main_v173 (V (Proc.devRef .tc main_v126)) (V (Proc.devRef .tc main_v168)) (V (Proc.devRef .tc main_v136)) (V (Proc.devRef .tc main_v138)) := by
  after_results_simp <;> rfl

theorem loc_main_v215 (V : Valuation τ sig (Elt Ideal)) :
    StableHlo.after (Gen.hostOps6_5 (F := Ideal)) V (Proc.devRef .tc main_v215) = lv_main_v215 (V (Proc.devRef .tc main_v214)) := by
  after_results_simp <;> rfl

theorem loc_main_v261 (V : Valuation τ sig (Elt Ideal)) :
    StableHlo.after (Gen.hostOps6_6 (F := Ideal)) V (Proc.devRef .tc main_v261) = lv_main_v261 (V (Proc.devRef .tc main_arg14)) (V (Proc.devRef .tc main_v78)) (V (Proc.devRef .tc main_arg12)) (V (Proc.devRef .tc main_arg13)) (V (Proc.devRef .tc main_arg15)) := by
  after_results_simp <;> rfl

theorem loc_main_v230 (V : Valuation τ sig (Elt Ideal)) :
    StableHlo.after (Gen.hostOps6_6 (F := Ideal)) V (Proc.devRef .tc main_v230) = lv_main_v230 (V (Proc.devRef .tc main_arg16)) := by
  after_results_simp <;> rfl

theorem loc_main_v232 (V : Valuation τ sig (Elt Ideal)) :
    StableHlo.after (Gen.hostOps6_6 (F := Ideal)) V (Proc.devRef .tc main_v232) = lv_main_v232 (V (Proc.devRef .tc main_arg17)) := by
  after_results_simp <;> rfl

theorem loc_main_v220 (V : Valuation τ sig (Elt Ideal)) :
    StableHlo.after (Gen.hostOps6_6 (F := Ideal)) V (Proc.devRef .tc main_v220) = lv_main_v220 (V (Proc.devRef .tc main_v173)) (V (Proc.devRef .tc main_v215)) (V (Proc.devRef .tc main_v183)) (V (Proc.devRef .tc main_v185)) := by
  after_results_simp <;> rfl

theorem loc_main_v262 (V : Valuation τ sig (Elt Ideal)) :
    StableHlo.after (Gen.hostOps6_7 (F := Ideal)) V (Proc.devRef .tc main_v262) = lv_main_v262 (V (Proc.devRef .tc main_v261)) := by
  after_results_simp <;> rfl

theorem loc_main_v268 (V : Valuation τ sig (Elt Ideal)) :
    StableHlo.after (Gen.hostOps6_8 (F := Ideal)) V (Proc.devRef .tc main_v268) = lv_main_v268 (V (Proc.devRef .tc main_v69)) (V (Proc.devRef .tc main_v220)) (V (Proc.devRef .tc main_v262)) (V (Proc.devRef .tc main_v230)) (V (Proc.devRef .tc main_v232)) := by
  after_results_simp <;> rfl

end Cert.KernelIdeal.KLoc

end
-- ==== Proof.KRowBlock.lean ====
/-
  Row blocks of a matrix product. If a 200-row array `A'` holds rows `200 T … 200 T + 199` of a 10000-row array `A`,
  then row `p` of `A' B` is row `200 T + p` of `A B`: the product's rows depend on the same rows of the left
  operand only. Stated with the two output indices given by their coordinates, the form in which a grid point's block
  meets the whole array.
-/
import proofs.«103117_j70961449664567_2_alg».proof.Proof.Gen.KernelIdeal
import proofs.«103117_j70961449664567_2_alg».proof.Proof.LibDense

noncomputable section

namespace Cert.KernelIdeal.KRegion

open Cert.KernelIdeal Idealize.ShloMosaic Idealize.ShloMosaic.ValueIdx

/-- The zero offsets of a whole-buffer access. -/
theorem hz : (![0, 0] : Fin 2 → Nat) = fun _ => 0 := funext fun a => by fin_cases a <;> rfl

/-- Row `p` of the block product is row `200 T + p` of the whole product. -/
theorem rowblock_mm (A : Cert.Dense.Mat 10000 10000) (A' : Cert.Dense.Mat 200 10000) (B : Cert.Dense.Mat 10000 256) (T : ℕ)
    (hA : ∀ (p : Fin 200) (k : Fin 10000) (P : Fin 10000), P.val = 200 * T + p.val → A' (ix2 p k) = A (ix2 P k))
    (j : S200x256.Idx) (i : S10000x256.Idx) (hi0 : (i 0).val = 200 * T + (j 0).val) (hi1 : (i 1).val = (j 1).val) :
    Cert.Dense.mm A' B j = Cert.Dense.mm A B i := by
  obtain ⟨p, q, rfl⟩ : ∃ (p : Fin 200) (q : Fin 256), j = ix2 p q := ⟨j 0, j 1, eq_ix2 j⟩
  obtain ⟨P, Q, rfl⟩ : ∃ (P : Fin 10000) (Q : Fin 256), i = ix2 P Q := ⟨i 0, i 1, eq_ix2 i⟩
  obtain rfl : Q = q := Fin.ext hi1
  exact Cert.Dense.mm_rows A A' B P p (fun k => hA p k P hi0) Q

end Cert.KernelIdeal.KRegion

end
-- ==== Proof.KRegion0.lean ====
/-
  Region 0 of the kernel program: one launch of the row-tiled matrix product. At any buffer contents `V` at the
  region's entry, the output array after the region's last write-back is the matrix product of the two input arrays as
  the region finds them. Each of the 50 grid points reads rows `200 t … 200 t + 199` of the left operand and the whole
  right operand, multiplies them into a zero accumulator (the rounding of the left block is the identity on the extended
  reals), and writes the result back as rows `200 t … 200 t + 199` of the output; the 50 row blocks cover the output.
-/
import proofs.«103117_j70961449664567_2_alg».proof.Proof.Gen.KernelIdeal.Frame
import proofs.«103117_j70961449664567_2_alg».proof.Proof.LibDense
import proofs.«103117_j70961449664567_2_alg».proof.Proof.KRowBlock
import Idealize.ShloMosaic.Lib.Pipeline.Value

set_option maxRecDepth 16384

noncomputable section

namespace Cert.KernelIdeal.KRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's payload is the matrix product of its two loaded blocks. -/
theorem pay0 (x0 : Vec Ideal S200x10000 .f32) (x1 : Vec Ideal S10000x256 .bf16) :
    k0_pay1 x0 x1 = Cert.Dense.mm x0 x1 := by
  unfold k0_pay1
  dsimp only
  simp only [shapeCast_self]
  exact Cert.Dense.matmul_zero_eq_mm dot_S200x10000_S10000x256_S200x256_1_0_0_1_n_n rfl rfl rfl rfl rfl rfl none _ _

/-- The printed index maps, decided over the grid: the left operand's and the output's blocks move down one row block
    per point, the right operand's block stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` holds rows `200 t … 200 t + 199` of its array. -/
theorem lblk0 (c : Dev nD) (t : Fin cfg0.N) (p : Fin 200) (k : Fin 10000) (P : Fin 10000) (hP : P.val = 200 * t.val + p.val) :
    (iblk0 V c 0 t : Vec Ideal S200x10000 .f32) (ix2 p k) = (V c (Pipeline.arrRef spec0 0) : Cert.Dense.Mat 10000 10000) (ix2 P k) := by
  obtain ⟨e0, e1, -⟩ := idx_facts0 t
  unfold iblk0
  show V c (Pipeline.arrRef spec0 0) (((cfg0.win 0).blk t).view.emb (ix2 p k)) = V c (Pipeline.arrRef spec0 0) (ix2 P k)
  refine congrArg (V c (Pipeline.arrRef spec0 0)) ?_
  funext a; apply Fin.ext
  match a with
  | ⟨0, _⟩ => show win0_0.index t (0 : Fin 2) * 200 + 1 * p.val = P.val; rw [e0, hP]; omega
  | ⟨1, _⟩ => show win0_0.index t (1 : Fin 2) * 10000 + 1 * k.val = k.val; rw [e1]; omega

/-- The right operand's block at every point is its whole array. -/
theorem rblk0 (c : Dev nD) (t : Fin cfg0.N) :
    (iblk0 V c 1 t : Vec Ideal S10000x256 .bf16) = (V c (Pipeline.arrRef spec0 1) : Cert.Dense.Mat 10000 256) := by
  obtain ⟨-, -, e2, e3, -⟩ := idx_facts0 t
  funext j
  unfold iblk0
  show V c (Pipeline.arrRef spec0 1) (((cfg0.win 1).blk t).view.emb j) = V c (Pipeline.arrRef spec0 1) j
  refine congrArg (V c (Pipeline.arrRef spec0 1)) ?_
  funext a; apply Fin.ext
  match a with
  | ⟨0, _⟩ => show win0_1.index t (0 : Fin 2) * 10000 + 1 * (j 0).val = (j 0).val; rw [e2]; omega
  | ⟨1, _⟩ => show win0_1.index t (1 : Fin 2) * 256 + 1 * (j 1).val = (j 1).val; rw [e3]; omega

/-- What point `t` writes back is block `t` of the matrix product of the two arrays as the region finds them. -/
theorem flushed0_eq (c : Dev nD) (t : Fin cfg0.N) :
    (dat0 V c).flushed 2 t = ((cfg0.win 2).blk t).view.read (Elt Ideal)
      (Cert.Dense.mm (V c (Pipeline.arrRef spec0 0) : Cert.Dense.Mat 10000 10000) (V c (Pipeline.arrRef spec0 1) : Cert.Dense.Mat 10000 256)) := by
  show (cfg0.win 2).cut (grid0.coords t) ((dat0 V c).after 2 t) = _
  rw [after0_2]
  unfold out0_2
  rw [View.canon_unit_zero hz]
  simp only [View.ld_unit_zero (S := S200x10000) hz, View.ld_unit_zero (S := S10000x256) hz]
  rw [pay0, rblk0]
  obtain ⟨-, -, -, -, e4, e5⟩ := idx_facts0 t
  funext (j : S200x256.Idx)
  have hx : (win0 2).xinj (grid0.coords t) j = j := funext fun a => Fin.ext rfl
  show Cert.Dense.mm (iblk0 V c 0 t : Vec Ideal S200x10000 .f32) (V c (Pipeline.arrRef spec0 1) : Cert.Dense.Mat 10000 256) ((win0 2).xinj (grid0.coords t) j) = _
  rw [hx]
  refine rowblock_mm (V c (Pipeline.arrRef spec0 0)) (iblk0 V c 0 t) (V c (Pipeline.arrRef spec0 1)) t.val
    (fun p k P h => lblk0 V c t p k P h) j (((cfg0.win 2).blk t).view.emb j) ?_ ?_
  · show win0_2.index t (0 : Fin 2) * 200 + 1 * (j 0).val = 200 * t.val + (j 0).val; rw [e4]; omega
  · show win0_2.index t (1 : Fin 2) * 256 + 1 * (j 1).val = (j 1).val; rw [e5]; omega

/-- Every row of the output array lies in the block of the point its row block names. -/
theorem cover0 (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 10000 := (i 0).isLt
  have h1 : (i 1 : Nat) < 256 := (i 1).isLt
  obtain ⟨t, ht⟩ : ∃ t : Fin cfg0.N, t.val = (i 0 : Nat) / 200 :=
    ⟨⟨(i 0 : Nat) / 200, lt_of_lt_of_eq (by omega : (i 0 : Nat) / 200 < 50) N_0.symm⟩, rfl⟩
  obtain ⟨-, -, -, -, e4, e5⟩ := idx_facts0 t
  refine ⟨t, flush0_2 t, ?_⟩
  show i ∈ ((View.whole main_v51).slice (win0_2.rect t)).set
  rw [View.set_slice_whole, Rect.mem_set_unit]
  intro a
  match a with
  | ⟨0, _⟩ =>
    show win0_2.index t (0 : Fin 2) * 200 ≤ (i 0 : Nat) ∧ (i 0 : Nat) < win0_2.index t (0 : Fin 2) * 200 + 200
    rw [e4, ht]; omega
  | ⟨1, _⟩ =>
    show win0_2.index t (1 : Fin 2) * 256 ≤ (i 1 : Nat) ∧ (i 1 : Nat) < win0_2.index t (1 : Fin 2) * 256 + 256
    rw [e5]; omega

/-- The region's output array after its last write-back is the matrix product of its two input arrays as the region
    finds them. -/
theorem out0 (c : Dev nD) :
    (dat0 (F := Ideal) V c).arrAt 2 cfg0.N
      = Cert.Dense.mm (V c (Pipeline.arrRef spec0 0) : Cert.Dense.Mat 10000 10000) (V c (Pipeline.arrRef spec0 1) : Cert.Dense.Mat 10000 256) :=
  (dat0 V c).arrAt_eq_of_cover 2 _ (fun t _ => flushed0_eq V c t) (cover0 c)

end Cert.KernelIdeal.KRegion

end
-- ==== Proof.KRegion1.lean ====
/-
  Region 1 of the kernel program: one launch of the row-tiled matrix product. At any buffer contents `V` at the
  region's entry, the output array after the region's last write-back is the matrix product of the two input arrays as
  the region finds them. Each of the 50 grid points reads rows `200 t … 200 t + 199` of the left operand and the whole
  right operand, multiplies them into a zero accumulator (the rounding of the left block is the identity on the extended
  reals), and writes the result back as rows `200 t … 200 t + 199` of the output; the 50 row blocks cover the output.
-/
import proofs.«103117_j70961449664567_2_alg».proof.Proof.Gen.KernelIdeal.Frame
import proofs.«103117_j70961449664567_2_alg».proof.Proof.LibDense
import proofs.«103117_j70961449664567_2_alg».proof.Proof.KRowBlock
import Idealize.ShloMosaic.Lib.Pipeline.Value

set_option maxRecDepth 16384

noncomputable section

namespace Cert.KernelIdeal.KRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's payload is the matrix product of its two loaded blocks. -/
theorem pay1 (x0 : Vec Ideal S200x10000 .f32) (x1 : Vec Ideal S10000x256 .bf16) :
    k1_pay1 x0 x1 = Cert.Dense.mm x0 x1 := by
  unfold k1_pay1
  dsimp only
  simp only [shapeCast_self]
  exact Cert.Dense.matmul_zero_eq_mm dot_S200x10000_S10000x256_S200x256_1_0_0_1_n_n rfl rfl rfl rfl rfl rfl none _ _

/-- The printed index maps, decided over the grid: the left operand's and the output's blocks move down one row block
    per point, the right operand's block stays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` holds rows `200 t … 200 t + 199` of its array. -/
theorem lblk1 (c : Dev nD) (t : Fin cfg1.N) (p : Fin 200) (k : Fin 10000) (P : Fin 10000) (hP : P.val = 200 * t.val + p.val) :
    (iblk1 V c 0 t : Vec Ideal S200x10000 .f32) (ix2 p k) = (V c (Pipeline.arrRef spec1 0) : Cert.Dense.Mat 10000 10000) (ix2 P k) := by
  obtain ⟨e0, e1, -⟩ := idx_facts1 t
  unfold iblk1
  show V c (Pipeline.arrRef spec1 0) (((cfg1.win 0).blk t).view.emb (ix2 p k)) = V c (Pipeline.arrRef spec1 0) (ix2 P k)
  refine congrArg (V c (Pipeline.arrRef spec1 0)) ?_
  funext a; apply Fin.ext
  match a with
  | ⟨0, _⟩ => show win1_0.index t (0 : Fin 2) * 200 + 1 * p.val = P.val; rw [e0, hP]; omega
  | ⟨1, _⟩ => show win1_0.index t (1 : Fin 2) * 10000 + 1 * k.val = k.val; rw [e1]; omega

/-- The right operand's block at every point is its whole array. -/
theorem rblk1 (c : Dev nD) (t : Fin cfg1.N) :
    (iblk1 V c 1 t : Vec Ideal S10000x256 .bf16) = (V c (Pipeline.arrRef spec1 1) : Cert.Dense.Mat 10000 256) := by
  obtain ⟨-, -, e2, e3, -⟩ := idx_facts1 t
  funext j
  unfold iblk1
  show V c (Pipeline.arrRef spec1 1) (((cfg1.win 1).blk t).view.emb j) = V c (Pipeline.arrRef spec1 1) j
  refine congrArg (V c (Pipeline.arrRef spec1 1)) ?_
  funext a; apply Fin.ext
  match a with
  | ⟨0, _⟩ => show win1_1.index t (0 : Fin 2) * 10000 + 1 * (j 0).val = (j 0).val; rw [e2]; omega
  | ⟨1, _⟩ => show win1_1.index t (1 : Fin 2) * 256 + 1 * (j 1).val = (j 1).val; rw [e3]; omega

/-- What point `t` writes back is block `t` of the matrix product of the two arrays as the region finds them. -/
theorem flushed1_eq (c : Dev nD) (t : Fin cfg1.N) :
    (dat1 V c).flushed 2 t = ((cfg1.win 2).blk t).view.read (Elt Ideal)
      (Cert.Dense.mm (V c (Pipeline.arrRef spec1 0) : Cert.Dense.Mat 10000 10000) (V c (Pipeline.arrRef spec1 1) : Cert.Dense.Mat 10000 256)) := by
  show (cfg1.win 2).cut (grid1.coords t) ((dat1 V c).after 2 t) = _
  rw [after1_2]
  unfold out1_2
  rw [View.canon_unit_zero hz]
  simp only [View.ld_unit_zero (S := S200x10000) hz, View.ld_unit_zero (S := S10000x256) hz]
  rw [pay1, rblk1]
  obtain ⟨-, -, -, -, e4, e5⟩ := idx_facts1 t
  funext (j : S200x256.Idx)
  have hx : (win1 2).xinj (grid1.coords t) j = j := funext fun a => Fin.ext rfl
  show Cert.Dense.mm (iblk1 V c 0 t : Vec Ideal S200x10000 .f32) (V c (Pipeline.arrRef spec1 1) : Cert.Dense.Mat 10000 256) ((win1 2).xinj (grid1.coords t) j) = _
  rw [hx]
  refine rowblock_mm (V c (Pipeline.arrRef spec1 0)) (iblk1 V c 0 t) (V c (Pipeline.arrRef spec1 1)) t.val
    (fun p k P h => lblk1 V c t p k P h) j (((cfg1.win 2).blk t).view.emb j) ?_ ?_
  · show win1_2.index t (0 : Fin 2) * 200 + 1 * (j 0).val = 200 * t.val + (j 0).val; rw [e4]; omega
  · show win1_2.index t (1 : Fin 2) * 256 + 1 * (j 1).val = (j 1).val; rw [e5]; omega

/-- Every row of the output array lies in the block of the point its row block names. -/
theorem cover1 (c : Dev nD) (i : ((cfg1.win 2).arr.view.loc (c.tc : Thread nD τ)).2.ty.Idx) :
    ∃ t : Fin cfg1.N, (cfg1.win 2).flush t = true ∧ i ∈ ((cfg1.win 2).blk t).view.set := by
  have h0 : (i 0 : Nat) < 10000 := (i 0).isLt
  have h1 : (i 1 : Nat) < 256 := (i 1).isLt
  obtain ⟨t, ht⟩ : ∃ t : Fin cfg1.N, t.val = (i 0 : Nat) / 200 :=
    ⟨⟨(i 0 : Nat) / 200, lt_of_lt_of_eq (by omega : (i 0 : Nat) / 200 < 50) N_1.symm⟩, rfl⟩
  obtain ⟨-, -, -, -, e4, e5⟩ := idx_facts1 t
  refine ⟨t, flush1_2 t, ?_⟩
  show i ∈ ((View.whole main_v58).slice (win1_2.rect t)).set
  rw [View.set_slice_whole, Rect.mem_set_unit]
  intro a
  match a with
  | ⟨0, _⟩ =>
    show win1_2.index t (0 : Fin 2) * 200 ≤ (i 0 : Nat) ∧ (i 0 : Nat) < win1_2.index t (0 : Fin 2) * 200 + 200
    rw [e4, ht]; omega
  | ⟨1, _⟩ =>
    show win1_2.index t (1 : Fin 2) * 256 ≤ (i 1 : Nat) ∧ (i 1 : Nat) < win1_2.index t (1 : Fin 2) * 256 + 256
    rw [e5]; omega

/-- The region's output array after its last write-back is the matrix product of its two input arrays as the region
    finds them. -/
theorem out1 (c : Dev nD) :
    (dat1 (F := Ideal) V c).arrAt 2 cfg1.N
      = Cert.Dense.mm (V c (Pipeline.arrRef spec1 0) : Cert.Dense.Mat 10000 10000) (V c (Pipeline.arrRef spec1 1) : Cert.Dense.Mat 10000 256) :=
  (dat1 V c).arrAt_eq_of_cover 2 _ (fun t _ => flushed1_eq V c t) (cover1 c)

end Cert.KernelIdeal.KRegion

end
-- ==== Proof.KRegion2.lean ====
/-
  Region 2 of the kernel program: one launch of the row-tiled matrix product. At any buffer contents `V` at the
  region's entry, the output array after the region's last write-back is the matrix product of the two input arrays as
  the region finds them. Each of the 50 grid points reads rows `200 t … 200 t + 199` of the left operand and the whole
  right operand, multiplies them into a zero accumulator (the rounding of the left block is the identity on the extended
  reals), and writes the result back as rows `200 t … 200 t + 199` of the output; the 50 row blocks cover the output.
-/
import proofs.«103117_j70961449664567_2_alg».proof.Proof.Gen.KernelIdeal.Frame
import proofs.«103117_j70961449664567_2_alg».proof.Proof.LibDense
import proofs.«103117_j70961449664567_2_alg».proof.Proof.KRowBlock
import Idealize.ShloMosaic.Lib.Pipeline.Value

set_option maxRecDepth 16384

noncomputable section

namespace Cert.KernelIdeal.KRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's payload is the matrix product of its two loaded blocks. -/
theorem pay2 (x0 : Vec Ideal S200x10000 .f32) (x1 : Vec Ideal S10000x256 .bf16) :
    k2_pay1 x0 x1 = Cert.Dense.mm x0 x1 := by
  unfold k2_pay1
  dsimp only
  simp only [shapeCast_self]
  exact Cert.Dense.matmul_zero_eq_mm dot_S200x10000_S10000x256_S200x256_1_0_0_1_n_n rfl rfl rfl rfl rfl rfl none _ _

/-- The printed index maps, decided over the grid: the left operand's and the output's blocks move down one row block
    per point, the right operand's block stays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point `t` holds rows `200 t … 200 t + 199` of its array. -/
theorem lblk2 (c : Dev nD) (t : Fin cfg2.N) (p : Fin 200) (k : Fin 10000) (P : Fin 10000) (hP : P.val = 200 * t.val + p.val) :
    (iblk2 V c 0 t : Vec Ideal S200x10000 .f32) (ix2 p k) = (V c (Pipeline.arrRef spec2 0) : Cert.Dense.Mat 10000 10000) (ix2 P k) := by
  obtain ⟨e0, e1, -⟩ := idx_facts2 t
  unfold iblk2
  show V c (Pipeline.arrRef spec2 0) (((cfg2.win 0).blk t).view.emb (ix2 p k)) = V c (Pipeline.arrRef spec2 0) (ix2 P k)
  refine congrArg (V c (Pipeline.arrRef spec2 0)) ?_
  funext a; apply Fin.ext
  match a with
  | ⟨0, _⟩ => show win2_0.index t (0 : Fin 2) * 200 + 1 * p.val = P.val; rw [e0, hP]; omega
  | ⟨1, _⟩ => show win2_0.index t (1 : Fin 2) * 10000 + 1 * k.val = k.val; rw [e1]; omega

/-- The right operand's block at every point is its whole array. -/
theorem rblk2 (c : Dev nD) (t : Fin cfg2.N) :
    (iblk2 V c 1 t : Vec Ideal S10000x256 .bf16) = (V c (Pipeline.arrRef spec2 1) : Cert.Dense.Mat 10000 256) := by
  obtain ⟨-, -, e2, e3, -⟩ := idx_facts2 t
  funext j
  unfold iblk2
  show V c (Pipeline.arrRef spec2 1) (((cfg2.win 1).blk t).view.emb j) = V c (Pipeline.arrRef spec2 1) j
  refine congrArg (V c (Pipeline.arrRef spec2 1)) ?_
  funext a; apply Fin.ext
  match a with
  | ⟨0, _⟩ => show win2_1.index t (0 : Fin 2) * 10000 + 1 * (j 0).val = (j 0).val; rw [e2]; omega
  | ⟨1, _⟩ => show win2_1.index t (1 : Fin 2) * 256 + 1 * (j 1).val = (j 1).val; rw [e3]; omega

set_option maxHeartbeats 1000000 in
/-- What point `t` writes back is block `t` of the matrix product of the two arrays as the region finds them. -/
theorem flushed2_eq (c : Dev nD) (t : Fin cfg2.N) :
    (dat2 V c).flushed 2 t = ((cfg2.win 2).blk t).view.read (Elt Ideal)
      (Cert.Dense.mm (V c (Pipeline.arrRef spec2 0) : Cert.Dense.Mat 10000 10000) (V c (Pipeline.arrRef spec2 1) : Cert.Dense.Mat 10000 256)) := by
  show (cfg2.win 2).cut (grid2.coords t) ((dat2 V c).after 2 t) = _
  rw [after2_2]
  unfold out2_2
  rw [View.canon_unit_zero hz]
  simp only [View.ld_unit_zero (S := S200x10000) hz, View.ld_unit_zero (S := S10000x256) hz]
  rw [pay2, rblk2]
  obtain ⟨-, -, -, -, e4, e5⟩ := idx_facts2 t
  funext (j : S200x256.Idx)
  have hx : (win2 2).xinj (grid2.coords t) j = j := funext fun a => Fin.ext rfl
  show Cert.Dense.mm (iblk2 V c 0 t : Vec Ideal S200x10000 .f32) (V c (Pipeline.arrRef spec2 1) : Cert.Dense.Mat 10000 256) ((win2 2).xinj (grid2.coords t) j) = _
  rw [hx]
  refine rowblock_mm (V c (Pipeline.arrRef spec2 0)) (iblk2 V c 0 t) (V c (Pipeline.arrRef spec2 1)) t.val
    (fun p k P h => lblk2 V c t p k P h) j (((cfg2.win 2).blk t).view.emb j) ?_ ?_
  · show win2_2.index t (0 : Fin 2) * 200 + 1 * (j 0).val = 200 * t.val + (j 0).val; rw [e4]; omega
  · show win2_2.index t (1 : Fin 2) * 256 + 1 * (j 1).val = (j 1).val; rw [e5]; omega

/-- Every row of the output array lies in the block of the point its row block names. -/
theorem cover2 (c : Dev nD) (i : ((cfg2.win 2).arr.view.loc (c.tc : Thread nD τ)).2.ty.Idx) :
    ∃ t : Fin cfg2.N, (cfg2.win 2).flush t = true ∧ i ∈ ((cfg2.win 2).blk t).view.set := by
  have h0 : (i 0 : Nat) < 10000 := (i 0).isLt
  have h1 : (i 1 : Nat) < 256 := (i 1).isLt
  obtain ⟨t, ht⟩ : ∃ t : Fin cfg2.N, t.val = (i 0 : Nat) / 200 :=
    ⟨⟨(i 0 : Nat) / 200, lt_of_lt_of_eq (by omega : (i 0 : Nat) / 200 < 50) N_2.symm⟩, rfl⟩
  obtain ⟨-, -, -, -, e4, e5⟩ := idx_facts2 t
  refine ⟨t, flush2_2 t, ?_⟩
  show i ∈ ((View.whole main_v65).slice (win2_2.rect t)).set
  rw [View.set_slice_whole, Rect.mem_set_unit]
  intro a
  match a with
  | ⟨0, _⟩ =>
    show win2_2.index t (0 : Fin 2) * 200 ≤ (i 0 : Nat) ∧ (i 0 : Nat) < win2_2.index t (0 : Fin 2) * 200 + 200
    rw [e4, ht]; omega
  | ⟨1, _⟩ =>
    show win2_2.index t (1 : Fin 2) * 256 ≤ (i 1 : Nat) ∧ (i 1 : Nat) < win2_2.index t (1 : Fin 2) * 256 + 256
    rw [e5]; omega

/-- The region's output array after its last write-back is the matrix product of its two input arrays as the region
    finds them. -/
theorem out2 (c : Dev nD) :
    (dat2 (F := Ideal) V c).arrAt 2 cfg2.N
      = Cert.Dense.mm (V c (Pipeline.arrRef spec2 0) : Cert.Dense.Mat 10000 10000) (V c (Pipeline.arrRef spec2 1) : Cert.Dense.Mat 10000 256) :=
  (dat2 V c).arrAt_eq_of_cover 2 _ (fun t _ => flushed2_eq V c t) (cover2 c)

end Cert.KernelIdeal.KRegion

end
-- ==== Proof.KRegion3.lean ====
/-
  Region 3 of the kernel program: one launch of the row-tiled matrix product. At any buffer contents `V` at the
  region's entry, the output array after the region's last write-back is the matrix product of the two input arrays as
  the region finds them. Each of the 50 grid points reads rows `200 t … 200 t + 199` of the left operand and the whole
  right operand, multiplies them into a zero accumulator (the rounding of the left block is the identity on the extended
  reals), and writes the result back as rows `200 t … 200 t + 199` of the output; the 50 row blocks cover the output.
-/
import proofs.«103117_j70961449664567_2_alg».proof.Proof.Gen.KernelIdeal.Frame
import proofs.«103117_j70961449664567_2_alg».proof.Proof.LibDense
import proofs.«103117_j70961449664567_2_alg».proof.Proof.KRowBlock
import Idealize.ShloMosaic.Lib.Pipeline.Value

set_option maxRecDepth 16384

noncomputable section

namespace Cert.KernelIdeal.KRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's payload is the matrix product of its two loaded blocks. -/
theorem pay3 (x0 : Vec Ideal S200x10000 .f32) (x1 : Vec Ideal S10000x256 .bf16) :
    k3_pay1 x0 x1 = Cert.Dense.mm x0 x1 := by
  unfold k3_pay1
  dsimp only
  simp only [shapeCast_self]
  exact Cert.Dense.matmul_zero_eq_mm dot_S200x10000_S10000x256_S200x256_1_0_0_1_n_n rfl rfl rfl rfl rfl rfl none _ _

/-- The printed index maps, decided over the grid: the left operand's and the output's blocks move down one row block
    per point, the right operand's block stays. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The left operand's block at point `t` holds rows `200 t … 200 t + 199` of its array. -/
theorem lblk3 (c : Dev nD) (t : Fin cfg3.N) (p : Fin 200) (k : Fin 10000) (P : Fin 10000) (hP : P.val = 200 * t.val + p.val) :
    (iblk3 V c 0 t : Vec Ideal S200x10000 .f32) (ix2 p k) = (V c (Pipeline.arrRef spec3 0) : Cert.Dense.Mat 10000 10000) (ix2 P k) := by
  obtain ⟨e0, e1, -⟩ := idx_facts3 t
  unfold iblk3
  show V c (Pipeline.arrRef spec3 0) (((cfg3.win 0).blk t).view.emb (ix2 p k)) = V c (Pipeline.arrRef spec3 0) (ix2 P k)
  refine congrArg (V c (Pipeline.arrRef spec3 0)) ?_
  funext a; apply Fin.ext
  match a with
  | ⟨0, _⟩ => show win3_0.index t (0 : Fin 2) * 200 + 1 * p.val = P.val; rw [e0, hP]; omega
  | ⟨1, _⟩ => show win3_0.index t (1 : Fin 2) * 10000 + 1 * k.val = k.val; rw [e1]; omega

/-- The right operand's block at every point is its whole array. -/
theorem rblk3 (c : Dev nD) (t : Fin cfg3.N) :
    (iblk3 V c 1 t : Vec Ideal S10000x256 .bf16) = (V c (Pipeline.arrRef spec3 1) : Cert.Dense.Mat 10000 256) := by
  obtain ⟨-, -, e2, e3, -⟩ := idx_facts3 t
  funext j
  unfold iblk3
  show V c (Pipeline.arrRef spec3 1) (((cfg3.win 1).blk t).view.emb j) = V c (Pipeline.arrRef spec3 1) j
  refine congrArg (V c (Pipeline.arrRef spec3 1)) ?_
  funext a; apply Fin.ext
  match a with
  | ⟨0, _⟩ => show win3_1.index t (0 : Fin 2) * 10000 + 1 * (j 0).val = (j 0).val; rw [e2]; omega
  | ⟨1, _⟩ => show win3_1.index t (1 : Fin 2) * 256 + 1 * (j 1).val = (j 1).val; rw [e3]; omega

/-- What point `t` writes back is block `t` of the matrix product of the two arrays as the region finds them. -/
theorem flushed3_eq (c : Dev nD) (t : Fin cfg3.N) :
    (dat3 V c).flushed 2 t = ((cfg3.win 2).blk t).view.read (Elt Ideal)
      (Cert.Dense.mm (V c (Pipeline.arrRef spec3 0) : Cert.Dense.Mat 10000 10000) (V c (Pipeline.arrRef spec3 1) : Cert.Dense.Mat 10000 256)) := by
  show (cfg3.win 2).cut (grid3.coords t) ((dat3 V c).after 2 t) = _
  rw [after3_2]
  unfold out3_2
  rw [View.canon_unit_zero hz]
  simp only [View.ld_unit_zero (S := S200x10000) hz, View.ld_unit_zero (S := S10000x256) hz]
  rw [pay3, rblk3]
  obtain ⟨-, -, -, -, e4, e5⟩ := idx_facts3 t
  funext (j : S200x256.Idx)
  have hx : (win3 2).xinj (grid3.coords t) j = j := funext fun a => Fin.ext rfl
  show Cert.Dense.mm (iblk3 V c 0 t : Vec Ideal S200x10000 .f32) (V c (Pipeline.arrRef spec3 1) : Cert.Dense.Mat 10000 256) ((win3 2).xinj (grid3.coords t) j) = _
  rw [hx]
  refine rowblock_mm (V c (Pipeline.arrRef spec3 0)) (iblk3 V c 0 t) (V c (Pipeline.arrRef spec3 1)) t.val
    (fun p k P h => lblk3 V c t p k P h) j (((cfg3.win 2).blk t).view.emb j) ?_ ?_
  · show win3_2.index t (0 : Fin 2) * 200 + 1 * (j 0).val = 200 * t.val + (j 0).val; rw [e4]; omega
  · show win3_2.index t (1 : Fin 2) * 256 + 1 * (j 1).val = (j 1).val; rw [e5]; omega

/-- Every row of the output array lies in the block of the point its row block names. -/
theorem cover3 (c : Dev nD) (i : ((cfg3.win 2).arr.view.loc (c.tc : Thread nD τ)).2.ty.Idx) :
    ∃ t : Fin cfg3.N, (cfg3.win 2).flush t = true ∧ i ∈ ((cfg3.win 2).blk t).view.set := by
  have h0 : (i 0 : Nat) < 10000 := (i 0).isLt
  have h1 : (i 1 : Nat) < 256 := (i 1).isLt
  obtain ⟨t, ht⟩ : ∃ t : Fin cfg3.N, t.val = (i 0 : Nat) / 200 :=
    ⟨⟨(i 0 : Nat) / 200, lt_of_lt_of_eq (by omega : (i 0 : Nat) / 200 < 50) N_3.symm⟩, rfl⟩
  obtain ⟨-, -, -, -, e4, e5⟩ := idx_facts3 t
  refine ⟨t, flush3_2 t, ?_⟩
  show i ∈ ((View.whole main_v73).slice (win3_2.rect t)).set
  rw [View.set_slice_whole, Rect.mem_set_unit]
  intro a
  match a with
  | ⟨0, _⟩ =>
    show win3_2.index t (0 : Fin 2) * 200 ≤ (i 0 : Nat) ∧ (i 0 : Nat) < win3_2.index t (0 : Fin 2) * 200 + 200
    rw [e4, ht]; omega
  | ⟨1, _⟩ =>
    show win3_2.index t (1 : Fin 2) * 256 ≤ (i 1 : Nat) ∧ (i 1 : Nat) < win3_2.index t (1 : Fin 2) * 256 + 256
    rw [e5]; omega

/-- The region's output array after its last write-back is the matrix product of its two input arrays as the region
    finds them. -/
theorem out3 (c : Dev nD) :
    (dat3 (F := Ideal) V c).arrAt 2 cfg3.N
      = Cert.Dense.mm (V c (Pipeline.arrRef spec3 0) : Cert.Dense.Mat 10000 10000) (V c (Pipeline.arrRef spec3 1) : Cert.Dense.Mat 10000 256) :=
  (dat3 V c).arrAt_eq_of_cover 2 _ (fun t _ => flushed3_eq V c t) (cover3 c)

end Cert.KernelIdeal.KRegion

end
-- ==== Proof.KRegion4.lean ====
/-
  Region 4 of the kernel program: one launch of the row-tiled matrix product. At any buffer contents `V` at the
  region's entry, the output array after the region's last write-back is the matrix product of the two input arrays as
  the region finds them. Each of the 50 grid points reads rows `200 t … 200 t + 199` of the left operand and the whole
  right operand, multiplies them into a zero accumulator (the rounding of the left block is the identity on the extended
  reals), and writes the result back as rows `200 t … 200 t + 199` of the output; the 50 row blocks cover the output.
-/
import proofs.«103117_j70961449664567_2_alg».proof.Proof.Gen.KernelIdeal.Frame
import proofs.«103117_j70961449664567_2_alg».proof.Proof.LibDense
import proofs.«103117_j70961449664567_2_alg».proof.Proof.KRowBlock
import Idealize.ShloMosaic.Lib.Pipeline.Value

set_option maxRecDepth 16384

noncomputable section

namespace Cert.KernelIdeal.KRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's payload is the matrix product of its two loaded blocks. -/
theorem pay4 (x0 : Vec Ideal S200x10000 .f32) (x1 : Vec Ideal S10000x256 .bf16) :
    k4_pay1 x0 x1 = Cert.Dense.mm x0 x1 := by
  unfold k4_pay1
  dsimp only
  simp only [shapeCast_self]
  exact Cert.Dense.matmul_zero_eq_mm dot_S200x10000_S10000x256_S200x256_1_0_0_1_n_n rfl rfl rfl rfl rfl rfl none _ _

/-- The printed index maps, decided over the grid: the left operand's and the output's blocks move down one row block
    per point, the right operand's block stays. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left operand's block at point `t` holds rows `200 t … 200 t + 199` of its array. -/
theorem lblk4 (c : Dev nD) (t : Fin cfg4.N) (p : Fin 200) (k : Fin 10000) (P : Fin 10000) (hP : P.val = 200 * t.val + p.val) :
    (iblk4 V c 0 t : Vec Ideal S200x10000 .f32) (ix2 p k) = (V c (Pipeline.arrRef spec4 0) : Cert.Dense.Mat 10000 10000) (ix2 P k) := by
  obtain ⟨e0, e1, -⟩ := idx_facts4 t
  unfold iblk4
  show V c (Pipeline.arrRef spec4 0) (((cfg4.win 0).blk t).view.emb (ix2 p k)) = V c (Pipeline.arrRef spec4 0) (ix2 P k)
  refine congrArg (V c (Pipeline.arrRef spec4 0)) ?_
  funext a; apply Fin.ext
  match a with
  | ⟨0, _⟩ => show win4_0.index t (0 : Fin 2) * 200 + 1 * p.val = P.val; rw [e0, hP]; omega
  | ⟨1, _⟩ => show win4_0.index t (1 : Fin 2) * 10000 + 1 * k.val = k.val; rw [e1]; omega

/-- The right operand's block at every point is its whole array. -/
theorem rblk4 (c : Dev nD) (t : Fin cfg4.N) :
    (iblk4 V c 1 t : Vec Ideal S10000x256 .bf16) = (V c (Pipeline.arrRef spec4 1) : Cert.Dense.Mat 10000 256) := by
  obtain ⟨-, -, e2, e3, -⟩ := idx_facts4 t
  funext j
  unfold iblk4
  show V c (Pipeline.arrRef spec4 1) (((cfg4.win 1).blk t).view.emb j) = V c (Pipeline.arrRef spec4 1) j
  refine congrArg (V c (Pipeline.arrRef spec4 1)) ?_
  funext a; apply Fin.ext
  match a with
  | ⟨0, _⟩ => show win4_1.index t (0 : Fin 2) * 10000 + 1 * (j 0).val = (j 0).val; rw [e2]; omega
  | ⟨1, _⟩ => show win4_1.index t (1 : Fin 2) * 256 + 1 * (j 1).val = (j 1).val; rw [e3]; omega

/-- What point `t` writes back is block `t` of the matrix product of the two arrays as the region finds them. -/
theorem flushed4_eq (c : Dev nD) (t : Fin cfg4.N) :
    (dat4 V c).flushed 2 t = ((cfg4.win 2).blk t).view.read (Elt Ideal)
      (Cert.Dense.mm (V c (Pipeline.arrRef spec4 0) : Cert.Dense.Mat 10000 10000) (V c (Pipeline.arrRef spec4 1) : Cert.Dense.Mat 10000 256)) := by
  show (cfg4.win 2).cut (grid4.coords t) ((dat4 V c).after 2 t) = _
  rw [after4_2]
  unfold out4_2
  rw [View.canon_unit_zero hz]
  simp only [View.ld_unit_zero (S := S200x10000) hz, View.ld_unit_zero (S := S10000x256) hz]
  rw [pay4, rblk4]
  obtain ⟨-, -, -, -, e4, e5⟩ := idx_facts4 t
  funext (j : S200x256.Idx)
  have hx : (win4 2).xinj (grid4.coords t) j = j := funext fun a => Fin.ext rfl
  show Cert.Dense.mm (iblk4 V c 0 t : Vec Ideal S200x10000 .f32) (V c (Pipeline.arrRef spec4 1) : Cert.Dense.Mat 10000 256) ((win4 2).xinj (grid4.coords t) j) = _
  rw [hx]
  refine rowblock_mm (V c (Pipeline.arrRef spec4 0)) (iblk4 V c 0 t) (V c (Pipeline.arrRef spec4 1)) t.val
    (fun p k P h => lblk4 V c t p k P h) j (((cfg4.win 2).blk t).view.emb j) ?_ ?_
  · show win4_2.index t (0 : Fin 2) * 200 + 1 * (j 0).val = 200 * t.val + (j 0).val; rw [e4]; omega
  · show win4_2.index t (1 : Fin 2) * 256 + 1 * (j 1).val = (j 1).val; rw [e5]; omega

/-- Every row of the output array lies in the block of the point its row block names. -/
theorem cover4 (c : Dev nD) (i : ((cfg4.win 2).arr.view.loc (c.tc : Thread nD τ)).2.ty.Idx) :
    ∃ t : Fin cfg4.N, (cfg4.win 2).flush t = true ∧ i ∈ ((cfg4.win 2).blk t).view.set := by
  have h0 : (i 0 : Nat) < 10000 := (i 0).isLt
  have h1 : (i 1 : Nat) < 256 := (i 1).isLt
  obtain ⟨t, ht⟩ : ∃ t : Fin cfg4.N, t.val = (i 0 : Nat) / 200 :=
    ⟨⟨(i 0 : Nat) / 200, lt_of_lt_of_eq (by omega : (i 0 : Nat) / 200 < 50) N_4.symm⟩, rfl⟩
  obtain ⟨-, -, -, -, e4, e5⟩ := idx_facts4 t
  refine ⟨t, flush4_2 t, ?_⟩
  show i ∈ ((View.whole main_v75).slice (win4_2.rect t)).set
  rw [View.set_slice_whole, Rect.mem_set_unit]
  intro a
  match a with
  | ⟨0, _⟩ =>
    show win4_2.index t (0 : Fin 2) * 200 ≤ (i 0 : Nat) ∧ (i 0 : Nat) < win4_2.index t (0 : Fin 2) * 200 + 200
    rw [e4, ht]; omega
  | ⟨1, _⟩ =>
    show win4_2.index t (1 : Fin 2) * 256 ≤ (i 1 : Nat) ∧ (i 1 : Nat) < win4_2.index t (1 : Fin 2) * 256 + 256
    rw [e5]; omega

/-- The region's output array after its last write-back is the matrix product of its two input arrays as the region
    finds them. -/
theorem out4 (c : Dev nD) :
    (dat4 (F := Ideal) V c).arrAt 2 cfg4.N
      = Cert.Dense.mm (V c (Pipeline.arrRef spec4 0) : Cert.Dense.Mat 10000 10000) (V c (Pipeline.arrRef spec4 1) : Cert.Dense.Mat 10000 256) :=
  (dat4 V c).arrAt_eq_of_cover 2 _ (fun t _ => flushed4_eq V c t) (cover4 c)

end Cert.KernelIdeal.KRegion

end
-- ==== Proof.KRegion5.lean ====
/-
  Region 5 of the kernel program: one launch of the row-tiled matrix product. At any buffer contents `V` at the
  region's entry, the output array after the region's last write-back is the matrix product of the two input arrays as
  the region finds them. Each of the 50 grid points reads rows `200 t … 200 t + 199` of the left operand and the whole
  right operand, multiplies them into a zero accumulator (the rounding of the left block is the identity on the extended
  reals), and writes the result back as rows `200 t … 200 t + 199` of the output; the 50 row blocks cover the output.
-/
import proofs.«103117_j70961449664567_2_alg».proof.Proof.Gen.KernelIdeal.Frame
import proofs.«103117_j70961449664567_2_alg».proof.Proof.LibDense
import proofs.«103117_j70961449664567_2_alg».proof.Proof.KRowBlock
import Idealize.ShloMosaic.Lib.Pipeline.Value

set_option maxRecDepth 16384

noncomputable section

namespace Cert.KernelIdeal.KRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's payload is the matrix product of its two loaded blocks. -/
theorem pay5 (x0 : Vec Ideal S200x10000 .f32) (x1 : Vec Ideal S10000x256 .bf16) :
    k5_pay1 x0 x1 = Cert.Dense.mm x0 x1 := by
  unfold k5_pay1
  dsimp only
  simp only [shapeCast_self]
  exact Cert.Dense.matmul_zero_eq_mm dot_S200x10000_S10000x256_S200x256_1_0_0_1_n_n rfl rfl rfl rfl rfl rfl none _ _

/-- The printed index maps, decided over the grid: the left operand's and the output's blocks move down one row block
    per point, the right operand's block stays. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The left operand's block at point `t` holds rows `200 t … 200 t + 199` of its array. -/
theorem lblk5 (c : Dev nD) (t : Fin cfg5.N) (p : Fin 200) (k : Fin 10000) (P : Fin 10000) (hP : P.val = 200 * t.val + p.val) :
    (iblk5 V c 0 t : Vec Ideal S200x10000 .f32) (ix2 p k) = (V c (Pipeline.arrRef spec5 0) : Cert.Dense.Mat 10000 10000) (ix2 P k) := by
  obtain ⟨e0, e1, -⟩ := idx_facts5 t
  unfold iblk5
  show V c (Pipeline.arrRef spec5 0) (((cfg5.win 0).blk t).view.emb (ix2 p k)) = V c (Pipeline.arrRef spec5 0) (ix2 P k)
  refine congrArg (V c (Pipeline.arrRef spec5 0)) ?_
  funext a; apply Fin.ext
  match a with
  | ⟨0, _⟩ => show win5_0.index t (0 : Fin 2) * 200 + 1 * p.val = P.val; rw [e0, hP]; omega
  | ⟨1, _⟩ => show win5_0.index t (1 : Fin 2) * 10000 + 1 * k.val = k.val; rw [e1]; omega

/-- The right operand's block at every point is its whole array. -/
theorem rblk5 (c : Dev nD) (t : Fin cfg5.N) :
    (iblk5 V c 1 t : Vec Ideal S10000x256 .bf16) = (V c (Pipeline.arrRef spec5 1) : Cert.Dense.Mat 10000 256) := by
  obtain ⟨-, -, e2, e3, -⟩ := idx_facts5 t
  funext j
  unfold iblk5
  show V c (Pipeline.arrRef spec5 1) (((cfg5.win 1).blk t).view.emb j) = V c (Pipeline.arrRef spec5 1) j
  refine congrArg (V c (Pipeline.arrRef spec5 1)) ?_
  funext a; apply Fin.ext
  match a with
  | ⟨0, _⟩ => show win5_1.index t (0 : Fin 2) * 10000 + 1 * (j 0).val = (j 0).val; rw [e2]; omega
  | ⟨1, _⟩ => show win5_1.index t (1 : Fin 2) * 256 + 1 * (j 1).val = (j 1).val; rw [e3]; omega

/-- What point `t` writes back is block `t` of the matrix product of the two arrays as the region finds them. -/
theorem flushed5_eq (c : Dev nD) (t : Fin cfg5.N) :
    (dat5 V c).flushed 2 t = ((cfg5.win 2).blk t).view.read (Elt Ideal)
      (Cert.Dense.mm (V c (Pipeline.arrRef spec5 0) : Cert.Dense.Mat 10000 10000) (V c (Pipeline.arrRef spec5 1) : Cert.Dense.Mat 10000 256)) := by
  show (cfg5.win 2).cut (grid5.coords t) ((dat5 V c).after 2 t) = _
  rw [after5_2]
  unfold out5_2
  rw [View.canon_unit_zero hz]
  simp only [View.ld_unit_zero (S := S200x10000) hz, View.ld_unit_zero (S := S10000x256) hz]
  rw [pay5, rblk5]
  obtain ⟨-, -, -, -, e4, e5⟩ := idx_facts5 t
  funext (j : S200x256.Idx)
  have hx : (win5 2).xinj (grid5.coords t) j = j := funext fun a => Fin.ext rfl
  show Cert.Dense.mm (iblk5 V c 0 t : Vec Ideal S200x10000 .f32) (V c (Pipeline.arrRef spec5 1) : Cert.Dense.Mat 10000 256) ((win5 2).xinj (grid5.coords t) j) = _
  rw [hx]
  refine rowblock_mm (V c (Pipeline.arrRef spec5 0)) (iblk5 V c 0 t) (V c (Pipeline.arrRef spec5 1)) t.val
    (fun p k P h => lblk5 V c t p k P h) j (((cfg5.win 2).blk t).view.emb j) ?_ ?_
  · show win5_2.index t (0 : Fin 2) * 200 + 1 * (j 0).val = 200 * t.val + (j 0).val; rw [e4]; omega
  · show win5_2.index t (1 : Fin 2) * 256 + 1 * (j 1).val = (j 1).val; rw [e5]; omega

/-- Every row of the output array lies in the block of the point its row block names. -/
theorem cover5 (c : Dev nD) (i : ((cfg5.win 2).arr.view.loc (c.tc : Thread nD τ)).2.ty.Idx) :
    ∃ t : Fin cfg5.N, (cfg5.win 2).flush t = true ∧ i ∈ ((cfg5.win 2).blk t).view.set := by
  have h0 : (i 0 : Nat) < 10000 := (i 0).isLt
  have h1 : (i 1 : Nat) < 256 := (i 1).isLt
  obtain ⟨t, ht⟩ : ∃ t : Fin cfg5.N, t.val = (i 0 : Nat) / 200 :=
    ⟨⟨(i 0 : Nat) / 200, lt_of_lt_of_eq (by omega : (i 0 : Nat) / 200 < 50) N_5.symm⟩, rfl⟩
  obtain ⟨-, -, -, -, e4, e5⟩ := idx_facts5 t
  refine ⟨t, flush5_2 t, ?_⟩
  show i ∈ ((View.whole main_v77).slice (win5_2.rect t)).set
  rw [View.set_slice_whole, Rect.mem_set_unit]
  intro a
  match a with
  | ⟨0, _⟩ =>
    show win5_2.index t (0 : Fin 2) * 200 ≤ (i 0 : Nat) ∧ (i 0 : Nat) < win5_2.index t (0 : Fin 2) * 200 + 200
    rw [e4, ht]; omega
  | ⟨1, _⟩ =>
    show win5_2.index t (1 : Fin 2) * 256 ≤ (i 1 : Nat) ∧ (i 1 : Nat) < win5_2.index t (1 : Fin 2) * 256 + 256
    rw [e5]; omega

/-- The region's output array after its last write-back is the matrix product of its two input arrays as the region
    finds them. -/
theorem out5 (c : Dev nD) :
    (dat5 (F := Ideal) V c).arrAt 2 cfg5.N
      = Cert.Dense.mm (V c (Pipeline.arrRef spec5 0) : Cert.Dense.Mat 10000 10000) (V c (Pipeline.arrRef spec5 1) : Cert.Dense.Mat 10000 256) :=
  (dat5 V c).arrAt_eq_of_cover 2 _ (fun t _ => flushed5_eq V c t) (cover5 c)

end Cert.KernelIdeal.KRegion

end
-- ==== Proof.KRegions.lean ====
/-
  The six launches of the row-tiled matrix product at the run's segment boundaries: at each region's exit contents the
  region's output buffer holds the matrix product of its two input buffers as they stand at the region's entry contents.
-/
import proofs.«103117_j70961449664567_2_alg».proof.Proof.KRegion0
import proofs.«103117_j70961449664567_2_alg».proof.Proof.KRegion1
import proofs.«103117_j70961449664567_2_alg».proof.Proof.KRegion2
import proofs.«103117_j70961449664567_2_alg».proof.Proof.KRegion3
import proofs.«103117_j70961449664567_2_alg».proof.Proof.KRegion4
import proofs.«103117_j70961449664567_2_alg».proof.Proof.KRegion5

noncomputable section

namespace Cert.KernelIdeal.KRegion

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- Region 0: at its exit, `main_v51` is the product of `main_v48` and `main_v50` as they stand at its entry. -/
theorem W6_v51 : W6 m ρ c (Proc.devRef .tc main_v51)
    = Cert.Dense.mm (W5 m ρ c (Proc.devRef .tc main_v48) : Cert.Dense.Mat 10000 10000) (W5 m ρ c (Proc.devRef .tc main_v50) : Cert.Dense.Mat 10000 256) :=
  (W6_arr m ρ c 2).trans (out0 (V5 m ρ) c)

/-- Region 1: at its exit, `main_v58` is the product of `main_v48` and `main_v57` as they stand at its entry. -/
theorem W10_v58 : W10 m ρ c (Proc.devRef .tc main_v58)
    = Cert.Dense.mm (W9 m ρ c (Proc.devRef .tc main_v48) : Cert.Dense.Mat 10000 10000) (W9 m ρ c (Proc.devRef .tc main_v57) : Cert.Dense.Mat 10000 256) :=
  (W10_arr m ρ c 2).trans (out1 (V9 m ρ) c)

/-- Region 2: at its exit, `main_v65` is the product of `main_v48` and `main_v64` as they stand at its entry. -/
theorem W14_v65 : W14 m ρ c (Proc.devRef .tc main_v65)
    = Cert.Dense.mm (W13 m ρ c (Proc.devRef .tc main_v48) : Cert.Dense.Mat 10000 10000) (W13 m ρ c (Proc.devRef .tc main_v64) : Cert.Dense.Mat 10000 256) :=
  (W14_arr m ρ c 2).trans (out2 (V13 m ρ) c)

/-- Region 3: at its exit, `main_v73` is the product of `main_arg3` and `main_v72` as they stand at its entry. -/
theorem W20_v73 : W20 m ρ c (Proc.devRef .tc main_v73)
    = Cert.Dense.mm (W19 m ρ c (Proc.devRef .tc main_arg3) : Cert.Dense.Mat 10000 10000) (W19 m ρ c (Proc.devRef .tc main_v72) : Cert.Dense.Mat 10000 256) :=
  (W20_arr m ρ c 2).trans (out3 (V19 m ρ) c)

/-- Region 4: at its exit, `main_v75` is the product of `main_arg4` and `main_v72` as they stand at its entry. -/
theorem W22_v75 : W22 m ρ c (Proc.devRef .tc main_v75)
    = Cert.Dense.mm (W21 m ρ c (Proc.devRef .tc main_arg4) : Cert.Dense.Mat 10000 10000) (W21 m ρ c (Proc.devRef .tc main_v72) : Cert.Dense.Mat 10000 256) :=
  (W22_arr m ρ c 2).trans (out4 (V21 m ρ) c)

/-- Region 5: at its exit, `main_v77` is the product of `main_arg5` and `main_v72` as they stand at its entry. -/
theorem W24_v77 : W24 m ρ c (Proc.devRef .tc main_v77)
    = Cert.Dense.mm (W23 m ρ c (Proc.devRef .tc main_arg5) : Cert.Dense.Mat 10000 10000) (W23 m ρ c (Proc.devRef .tc main_v72) : Cert.Dense.Mat 10000 256) :=
  (W24_arr m ρ c 2).trans (out5 (V23 m ρ) c)

end Cert.KernelIdeal.KRegion

end
-- ==== Proof.KChainA.lean ====
/- Written by a script (invocation: bun $KIT/certs/proofs/103117_j70961449664567_2_alg/scratch/gen_kval.js $KIT/certs/proofs/103117_j70961449664567_2_alg): a table of cases, one per value of the kernel program that is still read at a
   later boundary of its run and per boundary — the buffer holds the value's definition (module KVal) of the argument arrays there: where the
   value is computed, by the operations' results; elsewhere, because nothing writes the buffer. -/
import proofs.«103117_j70961449664567_2_alg».proof.Proof.Gen.KernelIdeal.Frame
import proofs.«103117_j70961449664567_2_alg».proof.Proof.KLoc

set_option maxRecDepth 16384

noncomputable section

namespace Cert.KernelIdeal.KChain

open Cert.KernelIdeal Cert.KernelIdeal.KVal Idealize.ShloMosaic Idealize.ShloMosaic.TcCoe Idealize.SL.Sem Idealize.ShloMosaic.StableHlo

variable (m : (ℓ : Loc nD τ sig) → Buf (Elt Ideal) ℓ) (ρ : Dev nD → PrngReg)

/-- The argument arrays of core c at launch. -/
def argsOf (m : (ℓ : Loc nD τ sig) → Buf (Elt Ideal) ℓ) (c : Dev nD) : Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17)⟩

/-! ## Boundary 0 -/

theorem at0_main_arg1 (c : Dev nD) : Gen.W0 m ρ c (Proc.devRef .tc main_arg1) = (argsOf m c).x1 := rfl

theorem at0_main_arg0 (c : Dev nD) : Gen.W0 m ρ c (Proc.devRef .tc main_arg0) = (argsOf m c).x0 := rfl

theorem at0_main_arg6 (c : Dev nD) : Gen.W0 m ρ c (Proc.devRef .tc main_arg6) = (argsOf m c).x6 := rfl

theorem at0_main_arg7 (c : Dev nD) : Gen.W0 m ρ c (Proc.devRef .tc main_arg7) = (argsOf m c).x7 := rfl

theorem at0_main_arg8 (c : Dev nD) : Gen.W0 m ρ c (Proc.devRef .tc main_arg8) = (argsOf m c).x8 := rfl

theorem at0_main_arg9 (c : Dev nD) : Gen.W0 m ρ c (Proc.devRef .tc main_arg9) = (argsOf m c).x9 := rfl

theorem at0_main_arg10 (c : Dev nD) : Gen.W0 m ρ c (Proc.devRef .tc main_arg10) = (argsOf m c).x10 := rfl

theorem at0_main_arg11 (c : Dev nD) : Gen.W0 m ρ c (Proc.devRef .tc main_arg11) = (argsOf m c).x11 := rfl

theorem at0_main_arg2 (c : Dev nD) : Gen.W0 m ρ c (Proc.devRef .tc main_arg2) = (argsOf m c).x2 := rfl

theorem at0_main_arg3 (c : Dev nD) : Gen.W0 m ρ c (Proc.devRef .tc main_arg3) = (argsOf m c).x3 := rfl

theorem at0_main_arg4 (c : Dev nD) : Gen.W0 m ρ c (Proc.devRef .tc main_arg4) = (argsOf m c).x4 := rfl

theorem at0_main_arg5 (c : Dev nD) : Gen.W0 m ρ c (Proc.devRef .tc main_arg5) = (argsOf m c).x5 := rfl

theorem at0_main_arg12 (c : Dev nD) : Gen.W0 m ρ c (Proc.devRef .tc main_arg12) = (argsOf m c).x12 := rfl

theorem at0_main_arg13 (c : Dev nD) : Gen.W0 m ρ c (Proc.devRef .tc main_arg13) = (argsOf m c).x13 := rfl

theorem at0_main_arg14 (c : Dev nD) : Gen.W0 m ρ c (Proc.devRef .tc main_arg14) = (argsOf m c).x14 := rfl

theorem at0_main_arg15 (c : Dev nD) : Gen.W0 m ρ c (Proc.devRef .tc main_arg15) = (argsOf m c).x15 := rfl

theorem at0_main_arg16 (c : Dev nD) : Gen.W0 m ρ c (Proc.devRef .tc main_arg16) = (argsOf m c).x16 := rfl

theorem at0_main_arg17 (c : Dev nD) : Gen.W0 m ρ c (Proc.devRef .tc main_arg17) = (argsOf m c).x17 := rfl

/-! ## Boundary 1 -/

theorem at1_main_cst_2 (c : Dev nD) : Gen.W1 m ρ c (Proc.devRef .tc main_cst_2) = kv_main_cst_2 (argsOf m c) :=
  (KLoc.loc_main_cst_2 (Gen.W0 m ρ c)).trans (by rfl)

theorem at1_main_v12 (c : Dev nD) : Gen.W1 m ρ c (Proc.devRef .tc main_v12) = kv_main_v12 (argsOf m c) :=
  (KLoc.loc_main_v12 (Gen.W0 m ρ c)).trans (by rw [at0_main_arg1 m ρ c]; rfl)

theorem at1_main_v10 (c : Dev nD) : Gen.W1 m ρ c (Proc.devRef .tc main_v10) = kv_main_v10 (argsOf m c) :=
  (KLoc.loc_main_v10 (Gen.W0 m ρ c)).trans (by rw [at0_main_arg1 m ρ c]; rfl)

theorem at1_main_v3 (c : Dev nD) : Gen.W1 m ρ c (Proc.devRef .tc main_v3) = kv_main_v3 (argsOf m c) :=
  (KLoc.loc_main_v3 (Gen.W0 m ρ c)).trans (by rw [at0_main_arg1 m ρ c]; rfl)

theorem at1_main_v6 (c : Dev nD) : Gen.W1 m ρ c (Proc.devRef .tc main_v6) = kv_main_v6 (argsOf m c) :=
  (KLoc.loc_main_v6 (Gen.W0 m ρ c)).trans (by rw [at0_main_arg1 m ρ c]; rfl)

theorem at1_main_arg0 (c : Dev nD) : Gen.W1 m ρ c (Proc.devRef .tc main_arg0) = (argsOf m c).x0 :=
  (StableHlo.after_of_forall_not_mem (b := Proc.devRef .tc main_arg0) _ _ (List.forall_iff_forall_mem.mp (by
      simp only [Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at0_main_arg0 m ρ c)

theorem at1_main_arg6 (c : Dev nD) : Gen.W1 m ρ c (Proc.devRef .tc main_arg6) = (argsOf m c).x6 :=
  (StableHlo.after_of_forall_not_mem (b := Proc.devRef .tc main_arg6) _ _ (List.forall_iff_forall_mem.mp (by
      simp only [Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at0_main_arg6 m ρ c)

theorem at1_main_arg7 (c : Dev nD) : Gen.W1 m ρ c (Proc.devRef .tc main_arg7) = (argsOf m c).x7 :=
  (StableHlo.after_of_forall_not_mem (b := Proc.devRef .tc main_arg7) _ _ (List.forall_iff_forall_mem.mp (by
      simp only [Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at0_main_arg7 m ρ c)

theorem at1_main_arg8 (c : Dev nD) : Gen.W1 m ρ c (Proc.devRef .tc main_arg8) = (argsOf m c).x8 :=
  (StableHlo.after_of_forall_not_mem (b := Proc.devRef .tc main_arg8) _ _ (List.forall_iff_forall_mem.mp (by
      simp only [Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at0_main_arg8 m ρ c)

theorem at1_main_arg9 (c : Dev nD) : Gen.W1 m ρ c (Proc.devRef .tc main_arg9) = (argsOf m c).x9 :=
  (StableHlo.after_of_forall_not_mem (b := Proc.devRef .tc main_arg9) _ _ (List.forall_iff_forall_mem.mp (by
      simp only [Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at0_main_arg9 m ρ c)

theorem at1_main_arg10 (c : Dev nD) : Gen.W1 m ρ c (Proc.devRef .tc main_arg10) = (argsOf m c).x10 :=
  (StableHlo.after_of_forall_not_mem (b := Proc.devRef .tc main_arg10) _ _ (List.forall_iff_forall_mem.mp (by
      simp only [Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at0_main_arg10 m ρ c)

theorem at1_main_arg11 (c : Dev nD) : Gen.W1 m ρ c (Proc.devRef .tc main_arg11) = (argsOf m c).x11 :=
  (StableHlo.after_of_forall_not_mem (b := Proc.devRef .tc main_arg11) _ _ (List.forall_iff_forall_mem.mp (by
      simp only [Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at0_main_arg11 m ρ c)

theorem at1_main_arg2 (c : Dev nD) : Gen.W1 m ρ c (Proc.devRef .tc main_arg2) = (argsOf m c).x2 :=
  (StableHlo.after_of_forall_not_mem (b := Proc.devRef .tc main_arg2) _ _ (List.forall_iff_forall_mem.mp (by
      simp only [Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at0_main_arg2 m ρ c)

theorem at1_main_arg3 (c : Dev nD) : Gen.W1 m ρ c (Proc.devRef .tc main_arg3) = (argsOf m c).x3 :=
  (StableHlo.after_of_forall_not_mem (b := Proc.devRef .tc main_arg3) _ _ (List.forall_iff_forall_mem.mp (by
      simp only [Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at0_main_arg3 m ρ c)

theorem at1_main_arg4 (c : Dev nD) : Gen.W1 m ρ c (Proc.devRef .tc main_arg4) = (argsOf m c).x4 :=
  (StableHlo.after_of_forall_not_mem (b := Proc.devRef .tc main_arg4) _ _ (List.forall_iff_forall_mem.mp (by
      simp only [Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at0_main_arg4 m ρ c)

theorem at1_main_arg5 (c : Dev nD) : Gen.W1 m ρ c (Proc.devRef .tc main_arg5) = (argsOf m c).x5 :=
  (StableHlo.after_of_forall_not_mem (b := Proc.devRef .tc main_arg5) _ _ (List.forall_iff_forall_mem.mp (by
      simp only [Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at0_main_arg5 m ρ c)

theorem at1_main_arg12 (c : Dev nD) : Gen.W1 m ρ c (Proc.devRef .tc main_arg12) = (argsOf m c).x12 :=
  (StableHlo.after_of_forall_not_mem (b := Proc.devRef .tc main_arg12) _ _ (List.forall_iff_forall_mem.mp (by
      simp only [Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at0_main_arg12 m ρ c)

theorem at1_main_arg13 (c : Dev nD) : Gen.W1 m ρ c (Proc.devRef .tc main_arg13) = (argsOf m c).x13 :=
  (StableHlo.after_of_forall_not_mem (b := Proc.devRef .tc main_arg13) _ _ (List.forall_iff_forall_mem.mp (by
      simp only [Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at0_main_arg13 m ρ c)

theorem at1_main_arg14 (c : Dev nD) : Gen.W1 m ρ c (Proc.devRef .tc main_arg14) = (argsOf m c).x14 :=
  (StableHlo.after_of_forall_not_mem (b := Proc.devRef .tc main_arg14) _ _ (List.forall_iff_forall_mem.mp (by
      simp only [Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at0_main_arg14 m ρ c)

theorem at1_main_arg15 (c : Dev nD) : Gen.W1 m ρ c (Proc.devRef .tc main_arg15) = (argsOf m c).x15 :=
  (StableHlo.after_of_forall_not_mem (b := Proc.devRef .tc main_arg15) _ _ (List.forall_iff_forall_mem.mp (by
      simp only [Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at0_main_arg15 m ρ c)

theorem at1_main_arg16 (c : Dev nD) : Gen.W1 m ρ c (Proc.devRef .tc main_arg16) = (argsOf m c).x16 :=
  (StableHlo.after_of_forall_not_mem (b := Proc.devRef .tc main_arg16) _ _ (List.forall_iff_forall_mem.mp (by
      simp only [Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at0_main_arg16 m ρ c)

theorem at1_main_arg17 (c : Dev nD) : Gen.W1 m ρ c (Proc.devRef .tc main_arg17) = (argsOf m c).x17 :=
  (StableHlo.after_of_forall_not_mem (b := Proc.devRef .tc main_arg17) _ _ (List.forall_iff_forall_mem.mp (by
      simp only [Gen.hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at0_main_arg17 m ρ c)

/-! ## Boundary 2 -/

theorem at2_main_v10 (c : Dev nD) : Gen.W2 m ρ c (Proc.devRef .tc main_v10) = kv_main_v10 (argsOf m c) :=
  (StableHlo.after_of_forall_not_mem (b := Proc.devRef .tc main_v10) _ _ (List.forall_iff_forall_mem.mp (by
      simp only [Gen.hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at1_main_v10 m ρ c)

theorem at2_main_v13 (c : Dev nD) : Gen.W2 m ρ c (Proc.devRef .tc main_v13) = kv_main_v13 (argsOf m c) :=
  (KLoc.loc_main_v13 (Gen.W1 m ρ c)).trans (by rw [at1_main_v12 m ρ c, at1_main_v10 m ρ c, at1_main_cst_2 m ρ c]; rfl)

theorem at2_main_v3 (c : Dev nD) : Gen.W2 m ρ c (Proc.devRef .tc main_v3) = kv_main_v3 (argsOf m c) :=
  (StableHlo.after_of_forall_not_mem (b := Proc.devRef .tc main_v3) _ _ (List.forall_iff_forall_mem.mp (by
      simp only [Gen.hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at1_main_v3 m ρ c)

theorem at2_main_v6 (c : Dev nD) : Gen.W2 m ρ c (Proc.devRef .tc main_v6) = kv_main_v6 (argsOf m c) :=
  (StableHlo.after_of_forall_not_mem (b := Proc.devRef .tc main_v6) _ _ (List.forall_iff_forall_mem.mp (by
      simp only [Gen.hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at1_main_v6 m ρ c)

theorem at2_main_arg0 (c : Dev nD) : Gen.W2 m ρ c (Proc.devRef .tc main_arg0) = (argsOf m c).x0 :=
  (StableHlo.after_of_forall_not_mem (b := Proc.devRef .tc main_arg0) _ _ (List.forall_iff_forall_mem.mp (by
      simp only [Gen.hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at1_main_arg0 m ρ c)

theorem at2_main_arg6 (c : Dev nD) : Gen.W2 m ρ c (Proc.devRef .tc main_arg6) = (argsOf m c).x6 :=
  (StableHlo.after_of_forall_not_mem (b := Proc.devRef .tc main_arg6) _ _ (List.forall_iff_forall_mem.mp (by
      simp only [Gen.hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at1_main_arg6 m ρ c)

theorem at2_main_arg7 (c : Dev nD) : Gen.W2 m ρ c (Proc.devRef .tc main_arg7) = (argsOf m c).x7 :=
  (StableHlo.after_of_forall_not_mem (b := Proc.devRef .tc main_arg7) _ _ (List.forall_iff_forall_mem.mp (by
      simp only [Gen.hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at1_main_arg7 m ρ c)

theorem at2_main_arg8 (c : Dev nD) : Gen.W2 m ρ c (Proc.devRef .tc main_arg8) = (argsOf m c).x8 :=
  (StableHlo.after_of_forall_not_mem (b := Proc.devRef .tc main_arg8) _ _ (List.forall_iff_forall_mem.mp (by
      simp only [Gen.hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at1_main_arg8 m ρ c)

theorem at2_main_arg9 (c : Dev nD) : Gen.W2 m ρ c (Proc.devRef .tc main_arg9) = (argsOf m c).x9 :=
  (StableHlo.after_of_forall_not_mem (b := Proc.devRef .tc main_arg9) _ _ (List.forall_iff_forall_mem.mp (by
      simp only [Gen.hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at1_main_arg9 m ρ c)

theorem at2_main_arg10 (c : Dev nD) : Gen.W2 m ρ c (Proc.devRef .tc main_arg10) = (argsOf m c).x10 :=
  (StableHlo.after_of_forall_not_mem (b := Proc.devRef .tc main_arg10) _ _ (List.forall_iff_forall_mem.mp (by
      simp only [Gen.hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at1_main_arg10 m ρ c)

theorem at2_main_arg11 (c : Dev nD) : Gen.W2 m ρ c (Proc.devRef .tc main_arg11) = (argsOf m c).x11 :=
  (StableHlo.after_of_forall_not_mem (b := Proc.devRef .tc main_arg11) _ _ (List.forall_iff_forall_mem.mp (by
      simp only [Gen.hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at1_main_arg11 m ρ c)

theorem at2_main_arg2 (c : Dev nD) : Gen.W2 m ρ c (Proc.devRef .tc main_arg2) = (argsOf m c).x2 :=
  (StableHlo.after_of_forall_not_mem (b := Proc.devRef .tc main_arg2) _ _ (List.forall_iff_forall_mem.mp (by
      simp only [Gen.hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at1_main_arg2 m ρ c)

theorem at2_main_arg3 (c : Dev nD) : Gen.W2 m ρ c (Proc.devRef .tc main_arg3) = (argsOf m c).x3 :=
  (StableHlo.after_of_forall_not_mem (b := Proc.devRef .tc main_arg3) _ _ (List.forall_iff_forall_mem.mp (by
      simp only [Gen.hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at1_main_arg3 m ρ c)

theorem at2_main_arg4 (c : Dev nD) : Gen.W2 m ρ c (Proc.devRef .tc main_arg4) = (argsOf m c).x4 :=
  (StableHlo.after_of_forall_not_mem (b := Proc.devRef .tc main_arg4) _ _ (List.forall_iff_forall_mem.mp (by
      simp only [Gen.hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at1_main_arg4 m ρ c)

theorem at2_main_arg5 (c : Dev nD) : Gen.W2 m ρ c (Proc.devRef .tc main_arg5) = (argsOf m c).x5 :=
  (StableHlo.after_of_forall_not_mem (b := Proc.devRef .tc main_arg5) _ _ (List.forall_iff_forall_mem.mp (by
      simp only [Gen.hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at1_main_arg5 m ρ c)

theorem at2_main_arg12 (c : Dev nD) : Gen.W2 m ρ c (Proc.devRef .tc main_arg12) = (argsOf m c).x12 :=
  (StableHlo.after_of_forall_not_mem (b := Proc.devRef .tc main_arg12) _ _ (List.forall_iff_forall_mem.mp (by
      simp only [Gen.hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at1_main_arg12 m ρ c)

theorem at2_main_arg13 (c : Dev nD) : Gen.W2 m ρ c (Proc.devRef .tc main_arg13) = (argsOf m c).x13 :=
  (StableHlo.after_of_forall_not_mem (b := Proc.devRef .tc main_arg13) _ _ (List.forall_iff_forall_mem.mp (by
      simp only [Gen.hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at1_main_arg13 m ρ c)

theorem at2_main_arg14 (c : Dev nD) : Gen.W2 m ρ c (Proc.devRef .tc main_arg14) = (argsOf m c).x14 :=
  (StableHlo.after_of_forall_not_mem (b := Proc.devRef .tc main_arg14) _ _ (List.forall_iff_forall_mem.mp (by
      simp only [Gen.hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at1_main_arg14 m ρ c)

theorem at2_main_arg15 (c : Dev nD) : Gen.W2 m ρ c (Proc.devRef .tc main_arg15) = (argsOf m c).x15 :=
  (StableHlo.after_of_forall_not_mem (b := Proc.devRef .tc main_arg15) _ _ (List.forall_iff_forall_mem.mp (by
      simp only [Gen.hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at1_main_arg15 m ρ c)

theorem at2_main_arg16 (c : Dev nD) : Gen.W2 m ρ c (Proc.devRef .tc main_arg16) = (argsOf m c).x16 :=
  (StableHlo.after_of_forall_not_mem (b := Proc.devRef .tc main_arg16) _ _ (List.forall_iff_forall_mem.mp (by
      simp only [Gen.hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at1_main_arg16 m ρ c)

theorem at2_main_arg17 (c : Dev nD) : Gen.W2 m ρ c (Proc.devRef .tc main_arg17) = (argsOf m c).x17 :=
  (StableHlo.after_of_forall_not_mem (b := Proc.devRef .tc main_arg17) _ _ (List.forall_iff_forall_mem.mp (by
      simp only [Gen.hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at1_main_arg17 m ρ c)

/-! ## Boundary 3 -/

theorem at3_main_cst_5 (c : Dev nD) : Gen.W3 m ρ c (Proc.devRef .tc main_cst_5) = kv_main_cst_5 (argsOf m c) :=
  (KLoc.loc_main_cst_5 (Gen.W2 m ρ c)).trans (by rfl)

theorem at3_main_v15 (c : Dev nD) : Gen.W3 m ρ c (Proc.devRef .tc main_v15) = kv_main_v15 (argsOf m c) :=
  (KLoc.loc_main_v15 (Gen.W2 m ρ c)).trans (by rw [at2_main_v10 m ρ c]; rfl)

theorem at3_main_v17 (c : Dev nD) : Gen.W3 m ρ c (Proc.devRef .tc main_v17) = kv_main_v17 (argsOf m c) :=
  (KLoc.loc_main_v17 (Gen.W2 m ρ c)).trans (by rw [at2_main_v13 m ρ c]; rfl)

theorem at3_main_v3 (c : Dev nD) : Gen.W3 m ρ c (Proc.devRef .tc main_v3) = kv_main_v3 (argsOf m c) :=
  (StableHlo.after_of_forall_not_mem (b := Proc.devRef .tc main_v3) _ _ (List.forall_iff_forall_mem.mp (by
      simp only [Gen.hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at2_main_v3 m ρ c)

theorem at3_main_v6 (c : Dev nD) : Gen.W3 m ρ c (Proc.devRef .tc main_v6) = kv_main_v6 (argsOf m c) :=
  (StableHlo.after_of_forall_not_mem (b := Proc.devRef .tc main_v6) _ _ (List.forall_iff_forall_mem.mp (by
      simp only [Gen.hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at2_main_v6 m ρ c)

theorem at3_main_arg0 (c : Dev nD) : Gen.W3 m ρ c (Proc.devRef .tc main_arg0) = (argsOf m c).x0 :=
  (StableHlo.after_of_forall_not_mem (b := Proc.devRef .tc main_arg0) _ _ (List.forall_iff_forall_mem.mp (by
      simp only [Gen.hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at2_main_arg0 m ρ c)

theorem at3_main_arg6 (c : Dev nD) : Gen.W3 m ρ c (Proc.devRef .tc main_arg6) = (argsOf m c).x6 :=
  (StableHlo.after_of_forall_not_mem (b := Proc.devRef .tc main_arg6) _ _ (List.forall_iff_forall_mem.mp (by
      simp only [Gen.hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at2_main_arg6 m ρ c)

theorem at3_main_arg7 (c : Dev nD) : Gen.W3 m ρ c (Proc.devRef .tc main_arg7) = (argsOf m c).x7 :=
  (StableHlo.after_of_forall_not_mem (b := Proc.devRef .tc main_arg7) _ _ (List.forall_iff_forall_mem.mp (by
      simp only [Gen.hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at2_main_arg7 m ρ c)

theorem at3_main_arg8 (c : Dev nD) : Gen.W3 m ρ c (Proc.devRef .tc main_arg8) = (argsOf m c).x8 :=
  (StableHlo.after_of_forall_not_mem (b := Proc.devRef .tc main_arg8) _ _ (List.forall_iff_forall_mem.mp (by
      simp only [Gen.hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at2_main_arg8 m ρ c)

theorem at3_main_arg9 (c : Dev nD) : Gen.W3 m ρ c (Proc.devRef .tc main_arg9) = (argsOf m c).x9 :=
  (StableHlo.after_of_forall_not_mem (b := Proc.devRef .tc main_arg9) _ _ (List.forall_iff_forall_mem.mp (by
      simp only [Gen.hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at2_main_arg9 m ρ c)

theorem at3_main_arg10 (c : Dev nD) : Gen.W3 m ρ c (Proc.devRef .tc main_arg10) = (argsOf m c).x10 :=
  (StableHlo.after_of_forall_not_mem (b := Proc.devRef .tc main_arg10) _ _ (List.forall_iff_forall_mem.mp (by
      simp only [Gen.hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at2_main_arg10 m ρ c)

theorem at3_main_arg11 (c : Dev nD) : Gen.W3 m ρ c (Proc.devRef .tc main_arg11) = (argsOf m c).x11 :=
  (StableHlo.after_of_forall_not_mem (b := Proc.devRef .tc main_arg11) _ _ (List.forall_iff_forall_mem.mp (by
      simp only [Gen.hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at2_main_arg11 m ρ c)

theorem at3_main_arg2 (c : Dev nD) : Gen.W3 m ρ c (Proc.devRef .tc main_arg2) = (argsOf m c).x2 :=
  (StableHlo.after_of_forall_not_mem (b := Proc.devRef .tc main_arg2) _ _ (List.forall_iff_forall_mem.mp (by
      simp only [Gen.hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at2_main_arg2 m ρ c)

theorem at3_main_arg3 (c : Dev nD) : Gen.W3 m ρ c (Proc.devRef .tc main_arg3) = (argsOf m c).x3 :=
  (StableHlo.after_of_forall_not_mem (b := Proc.devRef .tc main_arg3) _ _ (List.forall_iff_forall_mem.mp (by
      simp only [Gen.hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at2_main_arg3 m ρ c)

theorem at3_main_arg4 (c : Dev nD) : Gen.W3 m ρ c (Proc.devRef .tc main_arg4) = (argsOf m c).x4 :=
  (StableHlo.after_of_forall_not_mem (b := Proc.devRef .tc main_arg4) _ _ (List.forall_iff_forall_mem.mp (by
      simp only [Gen.hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at2_main_arg4 m ρ c)

theorem at3_main_arg5 (c : Dev nD) : Gen.W3 m ρ c (Proc.devRef .tc main_arg5) = (argsOf m c).x5 :=
  (StableHlo.after_of_forall_not_mem (b := Proc.devRef .tc main_arg5) _ _ (List.forall_iff_forall_mem.mp (by
      simp only [Gen.hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at2_main_arg5 m ρ c)

theorem at3_main_arg12 (c : Dev nD) : Gen.W3 m ρ c (Proc.devRef .tc main_arg12) = (argsOf m c).x12 :=
  (StableHlo.after_of_forall_not_mem (b := Proc.devRef .tc main_arg12) _ _ (List.forall_iff_forall_mem.mp (by
      simp only [Gen.hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at2_main_arg12 m ρ c)

theorem at3_main_arg13 (c : Dev nD) : Gen.W3 m ρ c (Proc.devRef .tc main_arg13) = (argsOf m c).x13 :=
  (StableHlo.after_of_forall_not_mem (b := Proc.devRef .tc main_arg13) _ _ (List.forall_iff_forall_mem.mp (by
      simp only [Gen.hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at2_main_arg13 m ρ c)

theorem at3_main_arg14 (c : Dev nD) : Gen.W3 m ρ c (Proc.devRef .tc main_arg14) = (argsOf m c).x14 :=
  (StableHlo.after_of_forall_not_mem (b := Proc.devRef .tc main_arg14) _ _ (List.forall_iff_forall_mem.mp (by
      simp only [Gen.hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at2_main_arg14 m ρ c)

theorem at3_main_arg15 (c : Dev nD) : Gen.W3 m ρ c (Proc.devRef .tc main_arg15) = (argsOf m c).x15 :=
  (StableHlo.after_of_forall_not_mem (b := Proc.devRef .tc main_arg15) _ _ (List.forall_iff_forall_mem.mp (by
      simp only [Gen.hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at2_main_arg15 m ρ c)

theorem at3_main_arg16 (c : Dev nD) : Gen.W3 m ρ c (Proc.devRef .tc main_arg16) = (argsOf m c).x16 :=
  (StableHlo.after_of_forall_not_mem (b := Proc.devRef .tc main_arg16) _ _ (List.forall_iff_forall_mem.mp (by
      simp only [Gen.hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at2_main_arg16 m ρ c)

theorem at3_main_arg17 (c : Dev nD) : Gen.W3 m ρ c (Proc.devRef .tc main_arg17) = (argsOf m c).x17 :=
  (StableHlo.after_of_forall_not_mem (b := Proc.devRef .tc main_arg17) _ _ (List.forall_iff_forall_mem.mp (by
      simp only [Gen.hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at2_main_arg17 m ρ c)

/-! ## Boundary 4 -/

theorem at4_main_v3 (c : Dev nD) : Gen.W4 m ρ c (Proc.devRef .tc main_v3) = kv_main_v3 (argsOf m c) :=
  (StableHlo.after_of_forall_not_mem (b := Proc.devRef .tc main_v3) _ _ (List.forall_iff_forall_mem.mp (by
      simp only [Gen.hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at3_main_v3 m ρ c)

theorem at4_main_v18 (c : Dev nD) : Gen.W4 m ρ c (Proc.devRef .tc main_v18) = kv_main_v18 (argsOf m c) :=
  (KLoc.loc_main_v18 (Gen.W3 m ρ c)).trans (by rw [at3_main_v15 m ρ c, at3_main_v17 m ρ c, at3_main_cst_5 m ρ c]; rfl)

theorem at4_main_v6 (c : Dev nD) : Gen.W4 m ρ c (Proc.devRef .tc main_v6) = kv_main_v6 (argsOf m c) :=
  (StableHlo.after_of_forall_not_mem (b := Proc.devRef .tc main_v6) _ _ (List.forall_iff_forall_mem.mp (by
      simp only [Gen.hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at3_main_v6 m ρ c)

theorem at4_main_arg0 (c : Dev nD) : Gen.W4 m ρ c (Proc.devRef .tc main_arg0) = (argsOf m c).x0 :=
  (StableHlo.after_of_forall_not_mem (b := Proc.devRef .tc main_arg0) _ _ (List.forall_iff_forall_mem.mp (by
      simp only [Gen.hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at3_main_arg0 m ρ c)

theorem at4_main_arg6 (c : Dev nD) : Gen.W4 m ρ c (Proc.devRef .tc main_arg6) = (argsOf m c).x6 :=
  (StableHlo.after_of_forall_not_mem (b := Proc.devRef .tc main_arg6) _ _ (List.forall_iff_forall_mem.mp (by
      simp only [Gen.hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at3_main_arg6 m ρ c)

theorem at4_main_arg7 (c : Dev nD) : Gen.W4 m ρ c (Proc.devRef .tc main_arg7) = (argsOf m c).x7 :=
  (StableHlo.after_of_forall_not_mem (b := Proc.devRef .tc main_arg7) _ _ (List.forall_iff_forall_mem.mp (by
      simp only [Gen.hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at3_main_arg7 m ρ c)

theorem at4_main_arg8 (c : Dev nD) : Gen.W4 m ρ c (Proc.devRef .tc main_arg8) = (argsOf m c).x8 :=
  (StableHlo.after_of_forall_not_mem (b := Proc.devRef .tc main_arg8) _ _ (List.forall_iff_forall_mem.mp (by
      simp only [Gen.hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at3_main_arg8 m ρ c)

theorem at4_main_arg9 (c : Dev nD) : Gen.W4 m ρ c (Proc.devRef .tc main_arg9) = (argsOf m c).x9 :=
  (StableHlo.after_of_forall_not_mem (b := Proc.devRef .tc main_arg9) _ _ (List.forall_iff_forall_mem.mp (by
      simp only [Gen.hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at3_main_arg9 m ρ c)

theorem at4_main_arg10 (c : Dev nD) : Gen.W4 m ρ c (Proc.devRef .tc main_arg10) = (argsOf m c).x10 :=
  (StableHlo.after_of_forall_not_mem (b := Proc.devRef .tc main_arg10) _ _ (List.forall_iff_forall_mem.mp (by
      simp only [Gen.hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at3_main_arg10 m ρ c)

theorem at4_main_arg11 (c : Dev nD) : Gen.W4 m ρ c (Proc.devRef .tc main_arg11) = (argsOf m c).x11 :=
  (StableHlo.after_of_forall_not_mem (b := Proc.devRef .tc main_arg11) _ _ (List.forall_iff_forall_mem.mp (by
      simp only [Gen.hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at3_main_arg11 m ρ c)

theorem at4_main_arg2 (c : Dev nD) : Gen.W4 m ρ c (Proc.devRef .tc main_arg2) = (argsOf m c).x2 :=
  (StableHlo.after_of_forall_not_mem (b := Proc.devRef .tc main_arg2) _ _ (List.forall_iff_forall_mem.mp (by
      simp only [Gen.hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at3_main_arg2 m ρ c)

theorem at4_main_arg3 (c : Dev nD) : Gen.W4 m ρ c (Proc.devRef .tc main_arg3) = (argsOf m c).x3 :=
  (StableHlo.after_of_forall_not_mem (b := Proc.devRef .tc main_arg3) _ _ (List.forall_iff_forall_mem.mp (by
      simp only [Gen.hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at3_main_arg3 m ρ c)

theorem at4_main_arg4 (c : Dev nD) : Gen.W4 m ρ c (Proc.devRef .tc main_arg4) = (argsOf m c).x4 :=
  (StableHlo.after_of_forall_not_mem (b := Proc.devRef .tc main_arg4) _ _ (List.forall_iff_forall_mem.mp (by
      simp only [Gen.hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at3_main_arg4 m ρ c)

theorem at4_main_arg5 (c : Dev nD) : Gen.W4 m ρ c (Proc.devRef .tc main_arg5) = (argsOf m c).x5 :=
  (StableHlo.after_of_forall_not_mem (b := Proc.devRef .tc main_arg5) _ _ (List.forall_iff_forall_mem.mp (by
      simp only [Gen.hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at3_main_arg5 m ρ c)

theorem at4_main_arg12 (c : Dev nD) : Gen.W4 m ρ c (Proc.devRef .tc main_arg12) = (argsOf m c).x12 :=
  (StableHlo.after_of_forall_not_mem (b := Proc.devRef .tc main_arg12) _ _ (List.forall_iff_forall_mem.mp (by
      simp only [Gen.hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at3_main_arg12 m ρ c)

theorem at4_main_arg13 (c : Dev nD) : Gen.W4 m ρ c (Proc.devRef .tc main_arg13) = (argsOf m c).x13 :=
  (StableHlo.after_of_forall_not_mem (b := Proc.devRef .tc main_arg13) _ _ (List.forall_iff_forall_mem.mp (by
      simp only [Gen.hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at3_main_arg13 m ρ c)

theorem at4_main_arg14 (c : Dev nD) : Gen.W4 m ρ c (Proc.devRef .tc main_arg14) = (argsOf m c).x14 :=
  (StableHlo.after_of_forall_not_mem (b := Proc.devRef .tc main_arg14) _ _ (List.forall_iff_forall_mem.mp (by
      simp only [Gen.hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at3_main_arg14 m ρ c)

theorem at4_main_arg15 (c : Dev nD) : Gen.W4 m ρ c (Proc.devRef .tc main_arg15) = (argsOf m c).x15 :=
  (StableHlo.after_of_forall_not_mem (b := Proc.devRef .tc main_arg15) _ _ (List.forall_iff_forall_mem.mp (by
      simp only [Gen.hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at3_main_arg15 m ρ c)

theorem at4_main_arg16 (c : Dev nD) : Gen.W4 m ρ c (Proc.devRef .tc main_arg16) = (argsOf m c).x16 :=
  (StableHlo.after_of_forall_not_mem (b := Proc.devRef .tc main_arg16) _ _ (List.forall_iff_forall_mem.mp (by
      simp only [Gen.hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at3_main_arg16 m ρ c)

theorem at4_main_arg17 (c : Dev nD) : Gen.W4 m ρ c (Proc.devRef .tc main_arg17) = (argsOf m c).x17 :=
  (StableHlo.after_of_forall_not_mem (b := Proc.devRef .tc main_arg17) _ _ (List.forall_iff_forall_mem.mp (by
      simp only [Gen.hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at3_main_arg17 m ρ c)

/-! ## Boundary 5 -/

theorem at5_main_v48 (c : Dev nD) : Gen.W5 m ρ c (Proc.devRef .tc main_v48) = kv_main_v48 (argsOf m c) :=
  (KLoc.loc_main_v48 (Gen.W4 m ρ c)).trans (by rw [at4_main_v6 m ρ c, at4_main_v3 m ρ c, at4_main_v18 m ρ c]; rfl)

theorem at5_main_v50 (c : Dev nD) : Gen.W5 m ρ c (Proc.devRef .tc main_v50) = kv_main_v50 (argsOf m c) :=
  (KLoc.loc_main_v50 (Gen.W4 m ρ c)).trans (by rw [at4_main_arg0 m ρ c, at4_main_arg6 m ρ c]; rfl)

theorem at5_main_arg7 (c : Dev nD) : Gen.W5 m ρ c (Proc.devRef .tc main_arg7) = (argsOf m c).x7 :=
  (StableHlo.after_of_forall_not_mem (b := Proc.devRef .tc main_arg7) _ _ (List.forall_iff_forall_mem.mp (by
      simp only [Gen.hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at4_main_arg7 m ρ c)

theorem at5_main_arg8 (c : Dev nD) : Gen.W5 m ρ c (Proc.devRef .tc main_arg8) = (argsOf m c).x8 :=
  (StableHlo.after_of_forall_not_mem (b := Proc.devRef .tc main_arg8) _ _ (List.forall_iff_forall_mem.mp (by
      simp only [Gen.hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at4_main_arg8 m ρ c)

theorem at5_main_arg9 (c : Dev nD) : Gen.W5 m ρ c (Proc.devRef .tc main_arg9) = (argsOf m c).x9 :=
  (StableHlo.after_of_forall_not_mem (b := Proc.devRef .tc main_arg9) _ _ (List.forall_iff_forall_mem.mp (by
      simp only [Gen.hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at4_main_arg9 m ρ c)

theorem at5_main_arg10 (c : Dev nD) : Gen.W5 m ρ c (Proc.devRef .tc main_arg10) = (argsOf m c).x10 :=
  (StableHlo.after_of_forall_not_mem (b := Proc.devRef .tc main_arg10) _ _ (List.forall_iff_forall_mem.mp (by
      simp only [Gen.hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at4_main_arg10 m ρ c)

theorem at5_main_arg11 (c : Dev nD) : Gen.W5 m ρ c (Proc.devRef .tc main_arg11) = (argsOf m c).x11 :=
  (StableHlo.after_of_forall_not_mem (b := Proc.devRef .tc main_arg11) _ _ (List.forall_iff_forall_mem.mp (by
      simp only [Gen.hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at4_main_arg11 m ρ c)

theorem at5_main_arg0 (c : Dev nD) : Gen.W5 m ρ c (Proc.devRef .tc main_arg0) = (argsOf m c).x0 :=
  (StableHlo.after_of_forall_not_mem (b := Proc.devRef .tc main_arg0) _ _ (List.forall_iff_forall_mem.mp (by
      simp only [Gen.hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at4_main_arg0 m ρ c)

theorem at5_main_arg2 (c : Dev nD) : Gen.W5 m ρ c (Proc.devRef .tc main_arg2) = (argsOf m c).x2 :=
  (StableHlo.after_of_forall_not_mem (b := Proc.devRef .tc main_arg2) _ _ (List.forall_iff_forall_mem.mp (by
      simp only [Gen.hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at4_main_arg2 m ρ c)

theorem at5_main_arg3 (c : Dev nD) : Gen.W5 m ρ c (Proc.devRef .tc main_arg3) = (argsOf m c).x3 :=
  (StableHlo.after_of_forall_not_mem (b := Proc.devRef .tc main_arg3) _ _ (List.forall_iff_forall_mem.mp (by
      simp only [Gen.hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at4_main_arg3 m ρ c)

theorem at5_main_arg4 (c : Dev nD) : Gen.W5 m ρ c (Proc.devRef .tc main_arg4) = (argsOf m c).x4 :=
  (StableHlo.after_of_forall_not_mem (b := Proc.devRef .tc main_arg4) _ _ (List.forall_iff_forall_mem.mp (by
      simp only [Gen.hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at4_main_arg4 m ρ c)

theorem at5_main_arg5 (c : Dev nD) : Gen.W5 m ρ c (Proc.devRef .tc main_arg5) = (argsOf m c).x5 :=
  (StableHlo.after_of_forall_not_mem (b := Proc.devRef .tc main_arg5) _ _ (List.forall_iff_forall_mem.mp (by
      simp only [Gen.hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at4_main_arg5 m ρ c)

theorem at5_main_arg12 (c : Dev nD) : Gen.W5 m ρ c (Proc.devRef .tc main_arg12) = (argsOf m c).x12 :=
  (StableHlo.after_of_forall_not_mem (b := Proc.devRef .tc main_arg12) _ _ (List.forall_iff_forall_mem.mp (by
      simp only [Gen.hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at4_main_arg12 m ρ c)

theorem at5_main_arg13 (c : Dev nD) : Gen.W5 m ρ c (Proc.devRef .tc main_arg13) = (argsOf m c).x13 :=
  (StableHlo.after_of_forall_not_mem (b := Proc.devRef .tc main_arg13) _ _ (List.forall_iff_forall_mem.mp (by
      simp only [Gen.hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at4_main_arg13 m ρ c)

theorem at5_main_arg14 (c : Dev nD) : Gen.W5 m ρ c (Proc.devRef .tc main_arg14) = (argsOf m c).x14 :=
  (StableHlo.after_of_forall_not_mem (b := Proc.devRef .tc main_arg14) _ _ (List.forall_iff_forall_mem.mp (by
      simp only [Gen.hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at4_main_arg14 m ρ c)

theorem at5_main_arg15 (c : Dev nD) : Gen.W5 m ρ c (Proc.devRef .tc main_arg15) = (argsOf m c).x15 :=
  (StableHlo.after_of_forall_not_mem (b := Proc.devRef .tc main_arg15) _ _ (List.forall_iff_forall_mem.mp (by
      simp only [Gen.hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at4_main_arg15 m ρ c)

theorem at5_main_arg16 (c : Dev nD) : Gen.W5 m ρ c (Proc.devRef .tc main_arg16) = (argsOf m c).x16 :=
  (StableHlo.after_of_forall_not_mem (b := Proc.devRef .tc main_arg16) _ _ (List.forall_iff_forall_mem.mp (by
      simp only [Gen.hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at4_main_arg16 m ρ c)

theorem at5_main_arg17 (c : Dev nD) : Gen.W5 m ρ c (Proc.devRef .tc main_arg17) = (argsOf m c).x17 :=
  (StableHlo.after_of_forall_not_mem (b := Proc.devRef .tc main_arg17) _ _ (List.forall_iff_forall_mem.mp (by
      simp only [Gen.hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at4_main_arg17 m ρ c)

end Cert.KernelIdeal.KChain

end
-- ==== Proof.KChainB.lean ====
/- Written by a script (invocation: bun $KIT/certs/proofs/103117_j70961449664567_2_alg/scratch/gen_kval.js $KIT/certs/proofs/103117_j70961449664567_2_alg): a table of cases, one per value of the kernel program that is still read at a
   later boundary of its run and per boundary — the buffer holds the value's definition (module KVal) of the argument arrays there: where the
   value is computed, by the operations' results; elsewhere, because nothing writes the buffer. -/
import proofs.«103117_j70961449664567_2_alg».proof.Proof.Gen.KernelIdeal.Frame
import proofs.«103117_j70961449664567_2_alg».proof.Proof.KLoc
import proofs.«103117_j70961449664567_2_alg».proof.Proof.KRegions
import proofs.«103117_j70961449664567_2_alg».proof.Proof.KChainA

set_option maxRecDepth 16384

noncomputable section

namespace Cert.KernelIdeal.KChain

open Cert.KernelIdeal Cert.KernelIdeal.KVal Idealize.ShloMosaic Idealize.ShloMosaic.TcCoe Idealize.SL.Sem Idealize.ShloMosaic.StableHlo

variable (m : (ℓ : Loc nD τ sig) → Buf (Elt Ideal) ℓ) (ρ : Dev nD → PrngReg)

/-! ## Boundary 6 -/

theorem at6_main_arg7 (c : Dev nD) : Gen.W6 m ρ c (Proc.devRef .tc main_arg7) = (argsOf m c).x7 :=
  (Gen.W6_of_ne m ρ c main_arg7 (by decide)).trans (at5_main_arg7 m ρ c)

theorem at6_main_v51 (c : Dev nD) : Gen.W6 m ρ c (Proc.devRef .tc main_v51) = kv_main_v51 (argsOf m c) :=
  (KRegion.W6_v51 m ρ c).trans (by rw [at5_main_v48 m ρ c, at5_main_v50 m ρ c]; rfl)

theorem at6_main_arg8 (c : Dev nD) : Gen.W6 m ρ c (Proc.devRef .tc main_arg8) = (argsOf m c).x8 :=
  (Gen.W6_of_ne m ρ c main_arg8 (by decide)).trans (at5_main_arg8 m ρ c)

theorem at6_main_v48 (c : Dev nD) : Gen.W6 m ρ c (Proc.devRef .tc main_v48) = kv_main_v48 (argsOf m c) :=
  ((Gen.W6_arr m ρ c 0).trans (((Gen.dat0 (Gen.V5 m ρ) c).arrAt_in 0 rfl _).trans (Gen.A_eq0 (Gen.V5 m ρ) c 0))).trans (at5_main_v48 m ρ c)

theorem at6_main_arg9 (c : Dev nD) : Gen.W6 m ρ c (Proc.devRef .tc main_arg9) = (argsOf m c).x9 :=
  (Gen.W6_of_ne m ρ c main_arg9 (by decide)).trans (at5_main_arg9 m ρ c)

theorem at6_main_arg10 (c : Dev nD) : Gen.W6 m ρ c (Proc.devRef .tc main_arg10) = (argsOf m c).x10 :=
  (Gen.W6_of_ne m ρ c main_arg10 (by decide)).trans (at5_main_arg10 m ρ c)

theorem at6_main_arg11 (c : Dev nD) : Gen.W6 m ρ c (Proc.devRef .tc main_arg11) = (argsOf m c).x11 :=
  (Gen.W6_of_ne m ρ c main_arg11 (by decide)).trans (at5_main_arg11 m ρ c)

theorem at6_main_arg0 (c : Dev nD) : Gen.W6 m ρ c (Proc.devRef .tc main_arg0) = (argsOf m c).x0 :=
  (Gen.W6_of_ne m ρ c main_arg0 (by decide)).trans (at5_main_arg0 m ρ c)

theorem at6_main_arg2 (c : Dev nD) : Gen.W6 m ρ c (Proc.devRef .tc main_arg2) = (argsOf m c).x2 :=
  (Gen.W6_of_ne m ρ c main_arg2 (by decide)).trans (at5_main_arg2 m ρ c)

theorem at6_main_arg3 (c : Dev nD) : Gen.W6 m ρ c (Proc.devRef .tc main_arg3) = (argsOf m c).x3 :=
  (Gen.W6_of_ne m ρ c main_arg3 (by decide)).trans (at5_main_arg3 m ρ c)

theorem at6_main_arg4 (c : Dev nD) : Gen.W6 m ρ c (Proc.devRef .tc main_arg4) = (argsOf m c).x4 :=
  (Gen.W6_of_ne m ρ c main_arg4 (by decide)).trans (at5_main_arg4 m ρ c)

theorem at6_main_arg5 (c : Dev nD) : Gen.W6 m ρ c (Proc.devRef .tc main_arg5) = (argsOf m c).x5 :=
  (Gen.W6_of_ne m ρ c main_arg5 (by decide)).trans (at5_main_arg5 m ρ c)

theorem at6_main_arg12 (c : Dev nD) : Gen.W6 m ρ c (Proc.devRef .tc main_arg12) = (argsOf m c).x12 :=
  (Gen.W6_of_ne m ρ c main_arg12 (by decide)).trans (at5_main_arg12 m ρ c)

theorem at6_main_arg13 (c : Dev nD) : Gen.W6 m ρ c (Proc.devRef .tc main_arg13) = (argsOf m c).x13 :=
  (Gen.W6_of_ne m ρ c main_arg13 (by decide)).trans (at5_main_arg13 m ρ c)

theorem at6_main_arg14 (c : Dev nD) : Gen.W6 m ρ c (Proc.devRef .tc main_arg14) = (argsOf m c).x14 :=
  (Gen.W6_of_ne m ρ c main_arg14 (by decide)).trans (at5_main_arg14 m ρ c)

theorem at6_main_arg15 (c : Dev nD) : Gen.W6 m ρ c (Proc.devRef .tc main_arg15) = (argsOf m c).x15 :=
  (Gen.W6_of_ne m ρ c main_arg15 (by decide)).trans (at5_main_arg15 m ρ c)

theorem at6_main_arg16 (c : Dev nD) : Gen.W6 m ρ c (Proc.devRef .tc main_arg16) = (argsOf m c).x16 :=
  (Gen.W6_of_ne m ρ c main_arg16 (by decide)).trans (at5_main_arg16 m ρ c)

theorem at6_main_arg17 (c : Dev nD) : Gen.W6 m ρ c (Proc.devRef .tc main_arg17) = (argsOf m c).x17 :=
  (Gen.W6_of_ne m ρ c main_arg17 (by decide)).trans (at5_main_arg17 m ρ c)

/-! ## Boundary 7 -/

theorem at7_main_v54 (c : Dev nD) : Gen.W7 m ρ c (Proc.devRef .tc main_v54) = kv_main_v54 (argsOf m c) :=
  (KLoc.loc_main_v54 (Gen.W6 m ρ c)).trans (by rw [at6_main_v51 m ρ c, at6_main_arg7 m ρ c]; rfl)

theorem at7_main_arg8 (c : Dev nD) : Gen.W7 m ρ c (Proc.devRef .tc main_arg8) = (argsOf m c).x8 :=
  (StableHlo.after_of_forall_not_mem (b := Proc.devRef .tc main_arg8) _ _ (List.forall_iff_forall_mem.mp (by
      simp only [Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at6_main_arg8 m ρ c)

theorem at7_main_v48 (c : Dev nD) : Gen.W7 m ρ c (Proc.devRef .tc main_v48) = kv_main_v48 (argsOf m c) :=
  (StableHlo.after_of_forall_not_mem (b := Proc.devRef .tc main_v48) _ _ (List.forall_iff_forall_mem.mp (by
      simp only [Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at6_main_v48 m ρ c)

theorem at7_main_arg9 (c : Dev nD) : Gen.W7 m ρ c (Proc.devRef .tc main_arg9) = (argsOf m c).x9 :=
  (StableHlo.after_of_forall_not_mem (b := Proc.devRef .tc main_arg9) _ _ (List.forall_iff_forall_mem.mp (by
      simp only [Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at6_main_arg9 m ρ c)

theorem at7_main_arg10 (c : Dev nD) : Gen.W7 m ρ c (Proc.devRef .tc main_arg10) = (argsOf m c).x10 :=
  (StableHlo.after_of_forall_not_mem (b := Proc.devRef .tc main_arg10) _ _ (List.forall_iff_forall_mem.mp (by
      simp only [Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at6_main_arg10 m ρ c)

theorem at7_main_arg11 (c : Dev nD) : Gen.W7 m ρ c (Proc.devRef .tc main_arg11) = (argsOf m c).x11 :=
  (StableHlo.after_of_forall_not_mem (b := Proc.devRef .tc main_arg11) _ _ (List.forall_iff_forall_mem.mp (by
      simp only [Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at6_main_arg11 m ρ c)

theorem at7_main_arg0 (c : Dev nD) : Gen.W7 m ρ c (Proc.devRef .tc main_arg0) = (argsOf m c).x0 :=
  (StableHlo.after_of_forall_not_mem (b := Proc.devRef .tc main_arg0) _ _ (List.forall_iff_forall_mem.mp (by
      simp only [Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at6_main_arg0 m ρ c)

theorem at7_main_arg2 (c : Dev nD) : Gen.W7 m ρ c (Proc.devRef .tc main_arg2) = (argsOf m c).x2 :=
  (StableHlo.after_of_forall_not_mem (b := Proc.devRef .tc main_arg2) _ _ (List.forall_iff_forall_mem.mp (by
      simp only [Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at6_main_arg2 m ρ c)

theorem at7_main_arg3 (c : Dev nD) : Gen.W7 m ρ c (Proc.devRef .tc main_arg3) = (argsOf m c).x3 :=
  (StableHlo.after_of_forall_not_mem (b := Proc.devRef .tc main_arg3) _ _ (List.forall_iff_forall_mem.mp (by
      simp only [Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at6_main_arg3 m ρ c)

theorem at7_main_arg4 (c : Dev nD) : Gen.W7 m ρ c (Proc.devRef .tc main_arg4) = (argsOf m c).x4 :=
  (StableHlo.after_of_forall_not_mem (b := Proc.devRef .tc main_arg4) _ _ (List.forall_iff_forall_mem.mp (by
      simp only [Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at6_main_arg4 m ρ c)

theorem at7_main_arg5 (c : Dev nD) : Gen.W7 m ρ c (Proc.devRef .tc main_arg5) = (argsOf m c).x5 :=
  (StableHlo.after_of_forall_not_mem (b := Proc.devRef .tc main_arg5) _ _ (List.forall_iff_forall_mem.mp (by
      simp only [Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at6_main_arg5 m ρ c)

theorem at7_main_arg12 (c : Dev nD) : Gen.W7 m ρ c (Proc.devRef .tc main_arg12) = (argsOf m c).x12 :=
  (StableHlo.after_of_forall_not_mem (b := Proc.devRef .tc main_arg12) _ _ (List.forall_iff_forall_mem.mp (by
      simp only [Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at6_main_arg12 m ρ c)

theorem at7_main_arg13 (c : Dev nD) : Gen.W7 m ρ c (Proc.devRef .tc main_arg13) = (argsOf m c).x13 :=
  (StableHlo.after_of_forall_not_mem (b := Proc.devRef .tc main_arg13) _ _ (List.forall_iff_forall_mem.mp (by
      simp only [Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at6_main_arg13 m ρ c)

theorem at7_main_arg14 (c : Dev nD) : Gen.W7 m ρ c (Proc.devRef .tc main_arg14) = (argsOf m c).x14 :=
  (StableHlo.after_of_forall_not_mem (b := Proc.devRef .tc main_arg14) _ _ (List.forall_iff_forall_mem.mp (by
      simp only [Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at6_main_arg14 m ρ c)

theorem at7_main_arg15 (c : Dev nD) : Gen.W7 m ρ c (Proc.devRef .tc main_arg15) = (argsOf m c).x15 :=
  (StableHlo.after_of_forall_not_mem (b := Proc.devRef .tc main_arg15) _ _ (List.forall_iff_forall_mem.mp (by
      simp only [Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at6_main_arg15 m ρ c)

theorem at7_main_arg16 (c : Dev nD) : Gen.W7 m ρ c (Proc.devRef .tc main_arg16) = (argsOf m c).x16 :=
  (StableHlo.after_of_forall_not_mem (b := Proc.devRef .tc main_arg16) _ _ (List.forall_iff_forall_mem.mp (by
      simp only [Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at6_main_arg16 m ρ c)

theorem at7_main_arg17 (c : Dev nD) : Gen.W7 m ρ c (Proc.devRef .tc main_arg17) = (argsOf m c).x17 :=
  (StableHlo.after_of_forall_not_mem (b := Proc.devRef .tc main_arg17) _ _ (List.forall_iff_forall_mem.mp (by
      simp only [Gen.hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at6_main_arg17 m ρ c)

/-! ## Boundary 8 -/

theorem at8_main_v55 (c : Dev nD) : Gen.W8 m ρ c (Proc.devRef .tc main_v55) = kv_main_v55 (argsOf m c) :=
  (KLoc.loc_main_v55 (Gen.W7 m ρ c)).trans (by rw [at7_main_v54 m ρ c]; rfl)

theorem at8_main_arg8 (c : Dev nD) : Gen.W8 m ρ c (Proc.devRef .tc main_arg8) = (argsOf m c).x8 :=
  (StableHlo.after_of_forall_not_mem (b := Proc.devRef .tc main_arg8) _ _ (List.forall_iff_forall_mem.mp (by
      simp only [Gen.hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at7_main_arg8 m ρ c)

theorem at8_main_v48 (c : Dev nD) : Gen.W8 m ρ c (Proc.devRef .tc main_v48) = kv_main_v48 (argsOf m c) :=
  (StableHlo.after_of_forall_not_mem (b := Proc.devRef .tc main_v48) _ _ (List.forall_iff_forall_mem.mp (by
      simp only [Gen.hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at7_main_v48 m ρ c)

theorem at8_main_arg9 (c : Dev nD) : Gen.W8 m ρ c (Proc.devRef .tc main_arg9) = (argsOf m c).x9 :=
  (StableHlo.after_of_forall_not_mem (b := Proc.devRef .tc main_arg9) _ _ (List.forall_iff_forall_mem.mp (by
      simp only [Gen.hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at7_main_arg9 m ρ c)

theorem at8_main_arg10 (c : Dev nD) : Gen.W8 m ρ c (Proc.devRef .tc main_arg10) = (argsOf m c).x10 :=
  (StableHlo.after_of_forall_not_mem (b := Proc.devRef .tc main_arg10) _ _ (List.forall_iff_forall_mem.mp (by
      simp only [Gen.hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at7_main_arg10 m ρ c)

theorem at8_main_arg11 (c : Dev nD) : Gen.W8 m ρ c (Proc.devRef .tc main_arg11) = (argsOf m c).x11 :=
  (StableHlo.after_of_forall_not_mem (b := Proc.devRef .tc main_arg11) _ _ (List.forall_iff_forall_mem.mp (by
      simp only [Gen.hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at7_main_arg11 m ρ c)

theorem at8_main_arg0 (c : Dev nD) : Gen.W8 m ρ c (Proc.devRef .tc main_arg0) = (argsOf m c).x0 :=
  (StableHlo.after_of_forall_not_mem (b := Proc.devRef .tc main_arg0) _ _ (List.forall_iff_forall_mem.mp (by
      simp only [Gen.hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at7_main_arg0 m ρ c)

theorem at8_main_arg2 (c : Dev nD) : Gen.W8 m ρ c (Proc.devRef .tc main_arg2) = (argsOf m c).x2 :=
  (StableHlo.after_of_forall_not_mem (b := Proc.devRef .tc main_arg2) _ _ (List.forall_iff_forall_mem.mp (by
      simp only [Gen.hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at7_main_arg2 m ρ c)

theorem at8_main_arg3 (c : Dev nD) : Gen.W8 m ρ c (Proc.devRef .tc main_arg3) = (argsOf m c).x3 :=
  (StableHlo.after_of_forall_not_mem (b := Proc.devRef .tc main_arg3) _ _ (List.forall_iff_forall_mem.mp (by
      simp only [Gen.hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at7_main_arg3 m ρ c)

theorem at8_main_arg4 (c : Dev nD) : Gen.W8 m ρ c (Proc.devRef .tc main_arg4) = (argsOf m c).x4 :=
  (StableHlo.after_of_forall_not_mem (b := Proc.devRef .tc main_arg4) _ _ (List.forall_iff_forall_mem.mp (by
      simp only [Gen.hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at7_main_arg4 m ρ c)

theorem at8_main_arg5 (c : Dev nD) : Gen.W8 m ρ c (Proc.devRef .tc main_arg5) = (argsOf m c).x5 :=
  (StableHlo.after_of_forall_not_mem (b := Proc.devRef .tc main_arg5) _ _ (List.forall_iff_forall_mem.mp (by
      simp only [Gen.hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at7_main_arg5 m ρ c)

theorem at8_main_arg12 (c : Dev nD) : Gen.W8 m ρ c (Proc.devRef .tc main_arg12) = (argsOf m c).x12 :=
  (StableHlo.after_of_forall_not_mem (b := Proc.devRef .tc main_arg12) _ _ (List.forall_iff_forall_mem.mp (by
      simp only [Gen.hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at7_main_arg12 m ρ c)

theorem at8_main_arg13 (c : Dev nD) : Gen.W8 m ρ c (Proc.devRef .tc main_arg13) = (argsOf m c).x13 :=
  (StableHlo.after_of_forall_not_mem (b := Proc.devRef .tc main_arg13) _ _ (List.forall_iff_forall_mem.mp (by
      simp only [Gen.hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at7_main_arg13 m ρ c)

theorem at8_main_arg14 (c : Dev nD) : Gen.W8 m ρ c (Proc.devRef .tc main_arg14) = (argsOf m c).x14 :=
  (StableHlo.after_of_forall_not_mem (b := Proc.devRef .tc main_arg14) _ _ (List.forall_iff_forall_mem.mp (by
      simp only [Gen.hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at7_main_arg14 m ρ c)

theorem at8_main_arg15 (c : Dev nD) : Gen.W8 m ρ c (Proc.devRef .tc main_arg15) = (argsOf m c).x15 :=
  (StableHlo.after_of_forall_not_mem (b := Proc.devRef .tc main_arg15) _ _ (List.forall_iff_forall_mem.mp (by
      simp only [Gen.hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at7_main_arg15 m ρ c)

theorem at8_main_arg16 (c : Dev nD) : Gen.W8 m ρ c (Proc.devRef .tc main_arg16) = (argsOf m c).x16 :=
  (StableHlo.after_of_forall_not_mem (b := Proc.devRef .tc main_arg16) _ _ (List.forall_iff_forall_mem.mp (by
      simp only [Gen.hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at7_main_arg16 m ρ c)

theorem at8_main_arg17 (c : Dev nD) : Gen.W8 m ρ c (Proc.devRef .tc main_arg17) = (argsOf m c).x17 :=
  (StableHlo.after_of_forall_not_mem (b := Proc.devRef .tc main_arg17) _ _ (List.forall_iff_forall_mem.mp (by
      simp only [Gen.hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at7_main_arg17 m ρ c)

/-! ## Boundary 9 -/

theorem at9_main_v48 (c : Dev nD) : Gen.W9 m ρ c (Proc.devRef .tc main_v48) = kv_main_v48 (argsOf m c) :=
  (StableHlo.after_of_forall_not_mem (b := Proc.devRef .tc main_v48) _ _ (List.forall_iff_forall_mem.mp (by
      simp only [Gen.hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at8_main_v48 m ρ c)

theorem at9_main_v57 (c : Dev nD) : Gen.W9 m ρ c (Proc.devRef .tc main_v57) = kv_main_v57 (argsOf m c) :=
  (KLoc.loc_main_v57 (Gen.W8 m ρ c)).trans (by rw [at8_main_v55 m ρ c, at8_main_arg8 m ρ c]; rfl)

theorem at9_main_arg9 (c : Dev nD) : Gen.W9 m ρ c (Proc.devRef .tc main_arg9) = (argsOf m c).x9 :=
  (StableHlo.after_of_forall_not_mem (b := Proc.devRef .tc main_arg9) _ _ (List.forall_iff_forall_mem.mp (by
      simp only [Gen.hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at8_main_arg9 m ρ c)

theorem at9_main_arg10 (c : Dev nD) : Gen.W9 m ρ c (Proc.devRef .tc main_arg10) = (argsOf m c).x10 :=
  (StableHlo.after_of_forall_not_mem (b := Proc.devRef .tc main_arg10) _ _ (List.forall_iff_forall_mem.mp (by
      simp only [Gen.hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at8_main_arg10 m ρ c)

theorem at9_main_arg11 (c : Dev nD) : Gen.W9 m ρ c (Proc.devRef .tc main_arg11) = (argsOf m c).x11 :=
  (StableHlo.after_of_forall_not_mem (b := Proc.devRef .tc main_arg11) _ _ (List.forall_iff_forall_mem.mp (by
      simp only [Gen.hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at8_main_arg11 m ρ c)

theorem at9_main_arg0 (c : Dev nD) : Gen.W9 m ρ c (Proc.devRef .tc main_arg0) = (argsOf m c).x0 :=
  (StableHlo.after_of_forall_not_mem (b := Proc.devRef .tc main_arg0) _ _ (List.forall_iff_forall_mem.mp (by
      simp only [Gen.hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at8_main_arg0 m ρ c)

theorem at9_main_arg2 (c : Dev nD) : Gen.W9 m ρ c (Proc.devRef .tc main_arg2) = (argsOf m c).x2 :=
  (StableHlo.after_of_forall_not_mem (b := Proc.devRef .tc main_arg2) _ _ (List.forall_iff_forall_mem.mp (by
      simp only [Gen.hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at8_main_arg2 m ρ c)

theorem at9_main_arg3 (c : Dev nD) : Gen.W9 m ρ c (Proc.devRef .tc main_arg3) = (argsOf m c).x3 :=
  (StableHlo.after_of_forall_not_mem (b := Proc.devRef .tc main_arg3) _ _ (List.forall_iff_forall_mem.mp (by
      simp only [Gen.hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at8_main_arg3 m ρ c)

theorem at9_main_arg4 (c : Dev nD) : Gen.W9 m ρ c (Proc.devRef .tc main_arg4) = (argsOf m c).x4 :=
  (StableHlo.after_of_forall_not_mem (b := Proc.devRef .tc main_arg4) _ _ (List.forall_iff_forall_mem.mp (by
      simp only [Gen.hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at8_main_arg4 m ρ c)

theorem at9_main_arg5 (c : Dev nD) : Gen.W9 m ρ c (Proc.devRef .tc main_arg5) = (argsOf m c).x5 :=
  (StableHlo.after_of_forall_not_mem (b := Proc.devRef .tc main_arg5) _ _ (List.forall_iff_forall_mem.mp (by
      simp only [Gen.hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at8_main_arg5 m ρ c)

theorem at9_main_arg12 (c : Dev nD) : Gen.W9 m ρ c (Proc.devRef .tc main_arg12) = (argsOf m c).x12 :=
  (StableHlo.after_of_forall_not_mem (b := Proc.devRef .tc main_arg12) _ _ (List.forall_iff_forall_mem.mp (by
      simp only [Gen.hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at8_main_arg12 m ρ c)

theorem at9_main_arg13 (c : Dev nD) : Gen.W9 m ρ c (Proc.devRef .tc main_arg13) = (argsOf m c).x13 :=
  (StableHlo.after_of_forall_not_mem (b := Proc.devRef .tc main_arg13) _ _ (List.forall_iff_forall_mem.mp (by
      simp only [Gen.hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at8_main_arg13 m ρ c)

theorem at9_main_arg14 (c : Dev nD) : Gen.W9 m ρ c (Proc.devRef .tc main_arg14) = (argsOf m c).x14 :=
  (StableHlo.after_of_forall_not_mem (b := Proc.devRef .tc main_arg14) _ _ (List.forall_iff_forall_mem.mp (by
      simp only [Gen.hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at8_main_arg14 m ρ c)

theorem at9_main_arg15 (c : Dev nD) : Gen.W9 m ρ c (Proc.devRef .tc main_arg15) = (argsOf m c).x15 :=
  (StableHlo.after_of_forall_not_mem (b := Proc.devRef .tc main_arg15) _ _ (List.forall_iff_forall_mem.mp (by
      simp only [Gen.hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at8_main_arg15 m ρ c)

theorem at9_main_arg16 (c : Dev nD) : Gen.W9 m ρ c (Proc.devRef .tc main_arg16) = (argsOf m c).x16 :=
  (StableHlo.after_of_forall_not_mem (b := Proc.devRef .tc main_arg16) _ _ (List.forall_iff_forall_mem.mp (by
      simp only [Gen.hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at8_main_arg16 m ρ c)

theorem at9_main_arg17 (c : Dev nD) : Gen.W9 m ρ c (Proc.devRef .tc main_arg17) = (argsOf m c).x17 :=
  (StableHlo.after_of_forall_not_mem (b := Proc.devRef .tc main_arg17) _ _ (List.forall_iff_forall_mem.mp (by
      simp only [Gen.hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at8_main_arg17 m ρ c)

end Cert.KernelIdeal.KChain

end
-- ==== Proof.KChainC.lean ====
/- Written by a script (invocation: bun $KIT/certs/proofs/103117_j70961449664567_2_alg/scratch/gen_kval.js $KIT/certs/proofs/103117_j70961449664567_2_alg): a table of cases, one per value of the kernel program that is still read at a
   later boundary of its run and per boundary — the buffer holds the value's definition (module KVal) of the argument arrays there: where the
   value is computed, by the operations' results; elsewhere, because nothing writes the buffer. -/
import proofs.«103117_j70961449664567_2_alg».proof.Proof.Gen.KernelIdeal.Frame
import proofs.«103117_j70961449664567_2_alg».proof.Proof.KLoc
import proofs.«103117_j70961449664567_2_alg».proof.Proof.KRegions
import proofs.«103117_j70961449664567_2_alg».proof.Proof.KChainB

set_option maxRecDepth 16384

noncomputable section

namespace Cert.KernelIdeal.KChain

open Cert.KernelIdeal Cert.KernelIdeal.KVal Idealize.ShloMosaic Idealize.ShloMosaic.TcCoe Idealize.SL.Sem Idealize.ShloMosaic.StableHlo

variable (m : (ℓ : Loc nD τ sig) → Buf (Elt Ideal) ℓ) (ρ : Dev nD → PrngReg)

/-! ## Boundary 10 -/

theorem at10_main_arg9 (c : Dev nD) : Gen.W10 m ρ c (Proc.devRef .tc main_arg9) = (argsOf m c).x9 :=
  (Gen.W10_of_ne m ρ c main_arg9 (by decide)).trans (at9_main_arg9 m ρ c)

theorem at10_main_v58 (c : Dev nD) : Gen.W10 m ρ c (Proc.devRef .tc main_v58) = kv_main_v58 (argsOf m c) :=
  (KRegion.W10_v58 m ρ c).trans (by rw [at9_main_v48 m ρ c, at9_main_v57 m ρ c]; rfl)

theorem at10_main_arg10 (c : Dev nD) : Gen.W10 m ρ c (Proc.devRef .tc main_arg10) = (argsOf m c).x10 :=
  (Gen.W10_of_ne m ρ c main_arg10 (by decide)).trans (at9_main_arg10 m ρ c)

theorem at10_main_v48 (c : Dev nD) : Gen.W10 m ρ c (Proc.devRef .tc main_v48) = kv_main_v48 (argsOf m c) :=
  ((Gen.W10_arr m ρ c 0).trans (((Gen.dat1 (Gen.V9 m ρ) c).arrAt_in 0 rfl _).trans (Gen.A_eq1 (Gen.V9 m ρ) c 0))).trans (at9_main_v48 m ρ c)

theorem at10_main_arg11 (c : Dev nD) : Gen.W10 m ρ c (Proc.devRef .tc main_arg11) = (argsOf m c).x11 :=
  (Gen.W10_of_ne m ρ c main_arg11 (by decide)).trans (at9_main_arg11 m ρ c)

theorem at10_main_arg0 (c : Dev nD) : Gen.W10 m ρ c (Proc.devRef .tc main_arg0) = (argsOf m c).x0 :=
  (Gen.W10_of_ne m ρ c main_arg0 (by decide)).trans (at9_main_arg0 m ρ c)

theorem at10_main_arg2 (c : Dev nD) : Gen.W10 m ρ c (Proc.devRef .tc main_arg2) = (argsOf m c).x2 :=
  (Gen.W10_of_ne m ρ c main_arg2 (by decide)).trans (at9_main_arg2 m ρ c)

theorem at10_main_arg3 (c : Dev nD) : Gen.W10 m ρ c (Proc.devRef .tc main_arg3) = (argsOf m c).x3 :=
  (Gen.W10_of_ne m ρ c main_arg3 (by decide)).trans (at9_main_arg3 m ρ c)

theorem at10_main_arg4 (c : Dev nD) : Gen.W10 m ρ c (Proc.devRef .tc main_arg4) = (argsOf m c).x4 :=
  (Gen.W10_of_ne m ρ c main_arg4 (by decide)).trans (at9_main_arg4 m ρ c)

theorem at10_main_arg5 (c : Dev nD) : Gen.W10 m ρ c (Proc.devRef .tc main_arg5) = (argsOf m c).x5 :=
  (Gen.W10_of_ne m ρ c main_arg5 (by decide)).trans (at9_main_arg5 m ρ c)

theorem at10_main_arg12 (c : Dev nD) : Gen.W10 m ρ c (Proc.devRef .tc main_arg12) = (argsOf m c).x12 :=
  (Gen.W10_of_ne m ρ c main_arg12 (by decide)).trans (at9_main_arg12 m ρ c)

theorem at10_main_arg13 (c : Dev nD) : Gen.W10 m ρ c (Proc.devRef .tc main_arg13) = (argsOf m c).x13 :=
  (Gen.W10_of_ne m ρ c main_arg13 (by decide)).trans (at9_main_arg13 m ρ c)

theorem at10_main_arg14 (c : Dev nD) : Gen.W10 m ρ c (Proc.devRef .tc main_arg14) = (argsOf m c).x14 :=
  (Gen.W10_of_ne m ρ c main_arg14 (by decide)).trans (at9_main_arg14 m ρ c)

theorem at10_main_arg15 (c : Dev nD) : Gen.W10 m ρ c (Proc.devRef .tc main_arg15) = (argsOf m c).x15 :=
  (Gen.W10_of_ne m ρ c main_arg15 (by decide)).trans (at9_main_arg15 m ρ c)

theorem at10_main_arg16 (c : Dev nD) : Gen.W10 m ρ c (Proc.devRef .tc main_arg16) = (argsOf m c).x16 :=
  (Gen.W10_of_ne m ρ c main_arg16 (by decide)).trans (at9_main_arg16 m ρ c)

theorem at10_main_arg17 (c : Dev nD) : Gen.W10 m ρ c (Proc.devRef .tc main_arg17) = (argsOf m c).x17 :=
  (Gen.W10_of_ne m ρ c main_arg17 (by decide)).trans (at9_main_arg17 m ρ c)

/-! ## Boundary 11 -/

theorem at11_main_v61 (c : Dev nD) : Gen.W11 m ρ c (Proc.devRef .tc main_v61) = kv_main_v61 (argsOf m c) :=
  (KLoc.loc_main_v61 (Gen.W10 m ρ c)).trans (by rw [at10_main_v58 m ρ c, at10_main_arg9 m ρ c]; rfl)

theorem at11_main_arg10 (c : Dev nD) : Gen.W11 m ρ c (Proc.devRef .tc main_arg10) = (argsOf m c).x10 :=
  (StableHlo.after_of_forall_not_mem (b := Proc.devRef .tc main_arg10) _ _ (List.forall_iff_forall_mem.mp (by
      simp only [Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at10_main_arg10 m ρ c)

theorem at11_main_v48 (c : Dev nD) : Gen.W11 m ρ c (Proc.devRef .tc main_v48) = kv_main_v48 (argsOf m c) :=
  (StableHlo.after_of_forall_not_mem (b := Proc.devRef .tc main_v48) _ _ (List.forall_iff_forall_mem.mp (by
      simp only [Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at10_main_v48 m ρ c)

theorem at11_main_arg11 (c : Dev nD) : Gen.W11 m ρ c (Proc.devRef .tc main_arg11) = (argsOf m c).x11 :=
  (StableHlo.after_of_forall_not_mem (b := Proc.devRef .tc main_arg11) _ _ (List.forall_iff_forall_mem.mp (by
      simp only [Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at10_main_arg11 m ρ c)

theorem at11_main_arg0 (c : Dev nD) : Gen.W11 m ρ c (Proc.devRef .tc main_arg0) = (argsOf m c).x0 :=
  (StableHlo.after_of_forall_not_mem (b := Proc.devRef .tc main_arg0) _ _ (List.forall_iff_forall_mem.mp (by
      simp only [Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at10_main_arg0 m ρ c)

theorem at11_main_arg2 (c : Dev nD) : Gen.W11 m ρ c (Proc.devRef .tc main_arg2) = (argsOf m c).x2 :=
  (StableHlo.after_of_forall_not_mem (b := Proc.devRef .tc main_arg2) _ _ (List.forall_iff_forall_mem.mp (by
      simp only [Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at10_main_arg2 m ρ c)

theorem at11_main_arg3 (c : Dev nD) : Gen.W11 m ρ c (Proc.devRef .tc main_arg3) = (argsOf m c).x3 :=
  (StableHlo.after_of_forall_not_mem (b := Proc.devRef .tc main_arg3) _ _ (List.forall_iff_forall_mem.mp (by
      simp only [Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at10_main_arg3 m ρ c)

theorem at11_main_arg4 (c : Dev nD) : Gen.W11 m ρ c (Proc.devRef .tc main_arg4) = (argsOf m c).x4 :=
  (StableHlo.after_of_forall_not_mem (b := Proc.devRef .tc main_arg4) _ _ (List.forall_iff_forall_mem.mp (by
      simp only [Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at10_main_arg4 m ρ c)

theorem at11_main_arg5 (c : Dev nD) : Gen.W11 m ρ c (Proc.devRef .tc main_arg5) = (argsOf m c).x5 :=
  (StableHlo.after_of_forall_not_mem (b := Proc.devRef .tc main_arg5) _ _ (List.forall_iff_forall_mem.mp (by
      simp only [Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at10_main_arg5 m ρ c)

theorem at11_main_arg12 (c : Dev nD) : Gen.W11 m ρ c (Proc.devRef .tc main_arg12) = (argsOf m c).x12 :=
  (StableHlo.after_of_forall_not_mem (b := Proc.devRef .tc main_arg12) _ _ (List.forall_iff_forall_mem.mp (by
      simp only [Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at10_main_arg12 m ρ c)

theorem at11_main_arg13 (c : Dev nD) : Gen.W11 m ρ c (Proc.devRef .tc main_arg13) = (argsOf m c).x13 :=
  (StableHlo.after_of_forall_not_mem (b := Proc.devRef .tc main_arg13) _ _ (List.forall_iff_forall_mem.mp (by
      simp only [Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at10_main_arg13 m ρ c)

theorem at11_main_arg14 (c : Dev nD) : Gen.W11 m ρ c (Proc.devRef .tc main_arg14) = (argsOf m c).x14 :=
  (StableHlo.after_of_forall_not_mem (b := Proc.devRef .tc main_arg14) _ _ (List.forall_iff_forall_mem.mp (by
      simp only [Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at10_main_arg14 m ρ c)

theorem at11_main_arg15 (c : Dev nD) : Gen.W11 m ρ c (Proc.devRef .tc main_arg15) = (argsOf m c).x15 :=
  (StableHlo.after_of_forall_not_mem (b := Proc.devRef .tc main_arg15) _ _ (List.forall_iff_forall_mem.mp (by
      simp only [Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at10_main_arg15 m ρ c)

theorem at11_main_arg16 (c : Dev nD) : Gen.W11 m ρ c (Proc.devRef .tc main_arg16) = (argsOf m c).x16 :=
  (StableHlo.after_of_forall_not_mem (b := Proc.devRef .tc main_arg16) _ _ (List.forall_iff_forall_mem.mp (by
      simp only [Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at10_main_arg16 m ρ c)

theorem at11_main_arg17 (c : Dev nD) : Gen.W11 m ρ c (Proc.devRef .tc main_arg17) = (argsOf m c).x17 :=
  (StableHlo.after_of_forall_not_mem (b := Proc.devRef .tc main_arg17) _ _ (List.forall_iff_forall_mem.mp (by
      simp only [Gen.hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at10_main_arg17 m ρ c)

/-! ## Boundary 12 -/

theorem at12_main_v62 (c : Dev nD) : Gen.W12 m ρ c (Proc.devRef .tc main_v62) = kv_main_v62 (argsOf m c) :=
  (KLoc.loc_main_v62 (Gen.W11 m ρ c)).trans (by rw [at11_main_v61 m ρ c]; rfl)

theorem at12_main_arg10 (c : Dev nD) : Gen.W12 m ρ c (Proc.devRef .tc main_arg10) = (argsOf m c).x10 :=
  (StableHlo.after_of_forall_not_mem (b := Proc.devRef .tc main_arg10) _ _ (List.forall_iff_forall_mem.mp (by
      simp only [Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at11_main_arg10 m ρ c)

theorem at12_main_v48 (c : Dev nD) : Gen.W12 m ρ c (Proc.devRef .tc main_v48) = kv_main_v48 (argsOf m c) :=
  (StableHlo.after_of_forall_not_mem (b := Proc.devRef .tc main_v48) _ _ (List.forall_iff_forall_mem.mp (by
      simp only [Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at11_main_v48 m ρ c)

theorem at12_main_arg11 (c : Dev nD) : Gen.W12 m ρ c (Proc.devRef .tc main_arg11) = (argsOf m c).x11 :=
  (StableHlo.after_of_forall_not_mem (b := Proc.devRef .tc main_arg11) _ _ (List.forall_iff_forall_mem.mp (by
      simp only [Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at11_main_arg11 m ρ c)

theorem at12_main_arg0 (c : Dev nD) : Gen.W12 m ρ c (Proc.devRef .tc main_arg0) = (argsOf m c).x0 :=
  (StableHlo.after_of_forall_not_mem (b := Proc.devRef .tc main_arg0) _ _ (List.forall_iff_forall_mem.mp (by
      simp only [Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at11_main_arg0 m ρ c)

theorem at12_main_arg2 (c : Dev nD) : Gen.W12 m ρ c (Proc.devRef .tc main_arg2) = (argsOf m c).x2 :=
  (StableHlo.after_of_forall_not_mem (b := Proc.devRef .tc main_arg2) _ _ (List.forall_iff_forall_mem.mp (by
      simp only [Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at11_main_arg2 m ρ c)

theorem at12_main_arg3 (c : Dev nD) : Gen.W12 m ρ c (Proc.devRef .tc main_arg3) = (argsOf m c).x3 :=
  (StableHlo.after_of_forall_not_mem (b := Proc.devRef .tc main_arg3) _ _ (List.forall_iff_forall_mem.mp (by
      simp only [Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at11_main_arg3 m ρ c)

theorem at12_main_arg4 (c : Dev nD) : Gen.W12 m ρ c (Proc.devRef .tc main_arg4) = (argsOf m c).x4 :=
  (StableHlo.after_of_forall_not_mem (b := Proc.devRef .tc main_arg4) _ _ (List.forall_iff_forall_mem.mp (by
      simp only [Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at11_main_arg4 m ρ c)

theorem at12_main_arg5 (c : Dev nD) : Gen.W12 m ρ c (Proc.devRef .tc main_arg5) = (argsOf m c).x5 :=
  (StableHlo.after_of_forall_not_mem (b := Proc.devRef .tc main_arg5) _ _ (List.forall_iff_forall_mem.mp (by
      simp only [Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at11_main_arg5 m ρ c)

theorem at12_main_arg12 (c : Dev nD) : Gen.W12 m ρ c (Proc.devRef .tc main_arg12) = (argsOf m c).x12 :=
  (StableHlo.after_of_forall_not_mem (b := Proc.devRef .tc main_arg12) _ _ (List.forall_iff_forall_mem.mp (by
      simp only [Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at11_main_arg12 m ρ c)

theorem at12_main_arg13 (c : Dev nD) : Gen.W12 m ρ c (Proc.devRef .tc main_arg13) = (argsOf m c).x13 :=
  (StableHlo.after_of_forall_not_mem (b := Proc.devRef .tc main_arg13) _ _ (List.forall_iff_forall_mem.mp (by
      simp only [Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at11_main_arg13 m ρ c)

theorem at12_main_arg14 (c : Dev nD) : Gen.W12 m ρ c (Proc.devRef .tc main_arg14) = (argsOf m c).x14 :=
  (StableHlo.after_of_forall_not_mem (b := Proc.devRef .tc main_arg14) _ _ (List.forall_iff_forall_mem.mp (by
      simp only [Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at11_main_arg14 m ρ c)

theorem at12_main_arg15 (c : Dev nD) : Gen.W12 m ρ c (Proc.devRef .tc main_arg15) = (argsOf m c).x15 :=
  (StableHlo.after_of_forall_not_mem (b := Proc.devRef .tc main_arg15) _ _ (List.forall_iff_forall_mem.mp (by
      simp only [Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at11_main_arg15 m ρ c)

theorem at12_main_arg16 (c : Dev nD) : Gen.W12 m ρ c (Proc.devRef .tc main_arg16) = (argsOf m c).x16 :=
  (StableHlo.after_of_forall_not_mem (b := Proc.devRef .tc main_arg16) _ _ (List.forall_iff_forall_mem.mp (by
      simp only [Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at11_main_arg16 m ρ c)

theorem at12_main_arg17 (c : Dev nD) : Gen.W12 m ρ c (Proc.devRef .tc main_arg17) = (argsOf m c).x17 :=
  (StableHlo.after_of_forall_not_mem (b := Proc.devRef .tc main_arg17) _ _ (List.forall_iff_forall_mem.mp (by
      simp only [Gen.hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at11_main_arg17 m ρ c)

/-! ## Boundary 13 -/

theorem at13_main_v48 (c : Dev nD) : Gen.W13 m ρ c (Proc.devRef .tc main_v48) = kv_main_v48 (argsOf m c) :=
  (StableHlo.after_of_forall_not_mem (b := Proc.devRef .tc main_v48) _ _ (List.forall_iff_forall_mem.mp (by
      simp only [Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at12_main_v48 m ρ c)

theorem at13_main_v64 (c : Dev nD) : Gen.W13 m ρ c (Proc.devRef .tc main_v64) = kv_main_v64 (argsOf m c) :=
  (KLoc.loc_main_v64 (Gen.W12 m ρ c)).trans (by rw [at12_main_v62 m ρ c, at12_main_arg10 m ρ c]; rfl)

theorem at13_main_arg11 (c : Dev nD) : Gen.W13 m ρ c (Proc.devRef .tc main_arg11) = (argsOf m c).x11 :=
  (StableHlo.after_of_forall_not_mem (b := Proc.devRef .tc main_arg11) _ _ (List.forall_iff_forall_mem.mp (by
      simp only [Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at12_main_arg11 m ρ c)

theorem at13_main_arg0 (c : Dev nD) : Gen.W13 m ρ c (Proc.devRef .tc main_arg0) = (argsOf m c).x0 :=
  (StableHlo.after_of_forall_not_mem (b := Proc.devRef .tc main_arg0) _ _ (List.forall_iff_forall_mem.mp (by
      simp only [Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at12_main_arg0 m ρ c)

theorem at13_main_arg2 (c : Dev nD) : Gen.W13 m ρ c (Proc.devRef .tc main_arg2) = (argsOf m c).x2 :=
  (StableHlo.after_of_forall_not_mem (b := Proc.devRef .tc main_arg2) _ _ (List.forall_iff_forall_mem.mp (by
      simp only [Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at12_main_arg2 m ρ c)

theorem at13_main_arg3 (c : Dev nD) : Gen.W13 m ρ c (Proc.devRef .tc main_arg3) = (argsOf m c).x3 :=
  (StableHlo.after_of_forall_not_mem (b := Proc.devRef .tc main_arg3) _ _ (List.forall_iff_forall_mem.mp (by
      simp only [Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at12_main_arg3 m ρ c)

theorem at13_main_arg4 (c : Dev nD) : Gen.W13 m ρ c (Proc.devRef .tc main_arg4) = (argsOf m c).x4 :=
  (StableHlo.after_of_forall_not_mem (b := Proc.devRef .tc main_arg4) _ _ (List.forall_iff_forall_mem.mp (by
      simp only [Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at12_main_arg4 m ρ c)

theorem at13_main_arg5 (c : Dev nD) : Gen.W13 m ρ c (Proc.devRef .tc main_arg5) = (argsOf m c).x5 :=
  (StableHlo.after_of_forall_not_mem (b := Proc.devRef .tc main_arg5) _ _ (List.forall_iff_forall_mem.mp (by
      simp only [Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at12_main_arg5 m ρ c)

theorem at13_main_arg12 (c : Dev nD) : Gen.W13 m ρ c (Proc.devRef .tc main_arg12) = (argsOf m c).x12 :=
  (StableHlo.after_of_forall_not_mem (b := Proc.devRef .tc main_arg12) _ _ (List.forall_iff_forall_mem.mp (by
      simp only [Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at12_main_arg12 m ρ c)

theorem at13_main_arg13 (c : Dev nD) : Gen.W13 m ρ c (Proc.devRef .tc main_arg13) = (argsOf m c).x13 :=
  (StableHlo.after_of_forall_not_mem (b := Proc.devRef .tc main_arg13) _ _ (List.forall_iff_forall_mem.mp (by
      simp only [Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at12_main_arg13 m ρ c)

theorem at13_main_arg14 (c : Dev nD) : Gen.W13 m ρ c (Proc.devRef .tc main_arg14) = (argsOf m c).x14 :=
  (StableHlo.after_of_forall_not_mem (b := Proc.devRef .tc main_arg14) _ _ (List.forall_iff_forall_mem.mp (by
      simp only [Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at12_main_arg14 m ρ c)

theorem at13_main_arg15 (c : Dev nD) : Gen.W13 m ρ c (Proc.devRef .tc main_arg15) = (argsOf m c).x15 :=
  (StableHlo.after_of_forall_not_mem (b := Proc.devRef .tc main_arg15) _ _ (List.forall_iff_forall_mem.mp (by
      simp only [Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at12_main_arg15 m ρ c)

theorem at13_main_arg16 (c : Dev nD) : Gen.W13 m ρ c (Proc.devRef .tc main_arg16) = (argsOf m c).x16 :=
  (StableHlo.after_of_forall_not_mem (b := Proc.devRef .tc main_arg16) _ _ (List.forall_iff_forall_mem.mp (by
      simp only [Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at12_main_arg16 m ρ c)

theorem at13_main_arg17 (c : Dev nD) : Gen.W13 m ρ c (Proc.devRef .tc main_arg17) = (argsOf m c).x17 :=
  (StableHlo.after_of_forall_not_mem (b := Proc.devRef .tc main_arg17) _ _ (List.forall_iff_forall_mem.mp (by
      simp only [Gen.hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at12_main_arg17 m ρ c)

end Cert.KernelIdeal.KChain

end
-- ==== Proof.KChainD.lean ====
/- Written by a script (invocation: bun $KIT/certs/proofs/103117_j70961449664567_2_alg/scratch/gen_kval.js $KIT/certs/proofs/103117_j70961449664567_2_alg): a table of cases, one per value of the kernel program that is still read at a
   later boundary of its run and per boundary — the buffer holds the value's definition (module KVal) of the argument arrays there: where the
   value is computed, by the operations' results; elsewhere, because nothing writes the buffer. -/
import proofs.«103117_j70961449664567_2_alg».proof.Proof.Gen.KernelIdeal.Frame
import proofs.«103117_j70961449664567_2_alg».proof.Proof.KLoc
import proofs.«103117_j70961449664567_2_alg».proof.Proof.KRegions
import proofs.«103117_j70961449664567_2_alg».proof.Proof.KChainC

set_option maxRecDepth 16384

noncomputable section

namespace Cert.KernelIdeal.KChain

open Cert.KernelIdeal Cert.KernelIdeal.KVal Idealize.ShloMosaic Idealize.ShloMosaic.TcCoe Idealize.SL.Sem Idealize.ShloMosaic.StableHlo

variable (m : (ℓ : Loc nD τ sig) → Buf (Elt Ideal) ℓ) (ρ : Dev nD → PrngReg)

/-! ## Boundary 14 -/

theorem at14_main_arg11 (c : Dev nD) : Gen.W14 m ρ c (Proc.devRef .tc main_arg11) = (argsOf m c).x11 :=
  (Gen.W14_of_ne m ρ c main_arg11 (by decide)).trans (at13_main_arg11 m ρ c)

theorem at14_main_v65 (c : Dev nD) : Gen.W14 m ρ c (Proc.devRef .tc main_v65) = kv_main_v65 (argsOf m c) :=
  (KRegion.W14_v65 m ρ c).trans (by rw [at13_main_v48 m ρ c, at13_main_v64 m ρ c]; rfl)

theorem at14_main_arg0 (c : Dev nD) : Gen.W14 m ρ c (Proc.devRef .tc main_arg0) = (argsOf m c).x0 :=
  (Gen.W14_of_ne m ρ c main_arg0 (by decide)).trans (at13_main_arg0 m ρ c)

theorem at14_main_arg2 (c : Dev nD) : Gen.W14 m ρ c (Proc.devRef .tc main_arg2) = (argsOf m c).x2 :=
  (Gen.W14_of_ne m ρ c main_arg2 (by decide)).trans (at13_main_arg2 m ρ c)

theorem at14_main_arg3 (c : Dev nD) : Gen.W14 m ρ c (Proc.devRef .tc main_arg3) = (argsOf m c).x3 :=
  (Gen.W14_of_ne m ρ c main_arg3 (by decide)).trans (at13_main_arg3 m ρ c)

theorem at14_main_arg4 (c : Dev nD) : Gen.W14 m ρ c (Proc.devRef .tc main_arg4) = (argsOf m c).x4 :=
  (Gen.W14_of_ne m ρ c main_arg4 (by decide)).trans (at13_main_arg4 m ρ c)

theorem at14_main_arg5 (c : Dev nD) : Gen.W14 m ρ c (Proc.devRef .tc main_arg5) = (argsOf m c).x5 :=
  (Gen.W14_of_ne m ρ c main_arg5 (by decide)).trans (at13_main_arg5 m ρ c)

theorem at14_main_arg12 (c : Dev nD) : Gen.W14 m ρ c (Proc.devRef .tc main_arg12) = (argsOf m c).x12 :=
  (Gen.W14_of_ne m ρ c main_arg12 (by decide)).trans (at13_main_arg12 m ρ c)

theorem at14_main_arg13 (c : Dev nD) : Gen.W14 m ρ c (Proc.devRef .tc main_arg13) = (argsOf m c).x13 :=
  (Gen.W14_of_ne m ρ c main_arg13 (by decide)).trans (at13_main_arg13 m ρ c)

theorem at14_main_arg14 (c : Dev nD) : Gen.W14 m ρ c (Proc.devRef .tc main_arg14) = (argsOf m c).x14 :=
  (Gen.W14_of_ne m ρ c main_arg14 (by decide)).trans (at13_main_arg14 m ρ c)

theorem at14_main_arg15 (c : Dev nD) : Gen.W14 m ρ c (Proc.devRef .tc main_arg15) = (argsOf m c).x15 :=
  (Gen.W14_of_ne m ρ c main_arg15 (by decide)).trans (at13_main_arg15 m ρ c)

theorem at14_main_arg16 (c : Dev nD) : Gen.W14 m ρ c (Proc.devRef .tc main_arg16) = (argsOf m c).x16 :=
  (Gen.W14_of_ne m ρ c main_arg16 (by decide)).trans (at13_main_arg16 m ρ c)

theorem at14_main_arg17 (c : Dev nD) : Gen.W14 m ρ c (Proc.devRef .tc main_arg17) = (argsOf m c).x17 :=
  (Gen.W14_of_ne m ρ c main_arg17 (by decide)).trans (at13_main_arg17 m ρ c)

/-! ## Boundary 15 -/

theorem at15_main_v68 (c : Dev nD) : Gen.W15 m ρ c (Proc.devRef .tc main_v68) = kv_main_v68 (argsOf m c) :=
  (KLoc.loc_main_v68 (Gen.W14 m ρ c)).trans (by rw [at14_main_v65 m ρ c, at14_main_arg11 m ρ c]; rfl)

theorem at15_main_arg0 (c : Dev nD) : Gen.W15 m ρ c (Proc.devRef .tc main_arg0) = (argsOf m c).x0 :=
  (StableHlo.after_of_forall_not_mem (b := Proc.devRef .tc main_arg0) _ _ (List.forall_iff_forall_mem.mp (by
      simp only [Gen.hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at14_main_arg0 m ρ c)

theorem at15_main_arg2 (c : Dev nD) : Gen.W15 m ρ c (Proc.devRef .tc main_arg2) = (argsOf m c).x2 :=
  (StableHlo.after_of_forall_not_mem (b := Proc.devRef .tc main_arg2) _ _ (List.forall_iff_forall_mem.mp (by
      simp only [Gen.hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at14_main_arg2 m ρ c)

theorem at15_main_arg3 (c : Dev nD) : Gen.W15 m ρ c (Proc.devRef .tc main_arg3) = (argsOf m c).x3 :=
  (StableHlo.after_of_forall_not_mem (b := Proc.devRef .tc main_arg3) _ _ (List.forall_iff_forall_mem.mp (by
      simp only [Gen.hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at14_main_arg3 m ρ c)

theorem at15_main_arg4 (c : Dev nD) : Gen.W15 m ρ c (Proc.devRef .tc main_arg4) = (argsOf m c).x4 :=
  (StableHlo.after_of_forall_not_mem (b := Proc.devRef .tc main_arg4) _ _ (List.forall_iff_forall_mem.mp (by
      simp only [Gen.hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at14_main_arg4 m ρ c)

theorem at15_main_arg5 (c : Dev nD) : Gen.W15 m ρ c (Proc.devRef .tc main_arg5) = (argsOf m c).x5 :=
  (StableHlo.after_of_forall_not_mem (b := Proc.devRef .tc main_arg5) _ _ (List.forall_iff_forall_mem.mp (by
      simp only [Gen.hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at14_main_arg5 m ρ c)

theorem at15_main_arg12 (c : Dev nD) : Gen.W15 m ρ c (Proc.devRef .tc main_arg12) = (argsOf m c).x12 :=
  (StableHlo.after_of_forall_not_mem (b := Proc.devRef .tc main_arg12) _ _ (List.forall_iff_forall_mem.mp (by
      simp only [Gen.hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at14_main_arg12 m ρ c)

theorem at15_main_arg13 (c : Dev nD) : Gen.W15 m ρ c (Proc.devRef .tc main_arg13) = (argsOf m c).x13 :=
  (StableHlo.after_of_forall_not_mem (b := Proc.devRef .tc main_arg13) _ _ (List.forall_iff_forall_mem.mp (by
      simp only [Gen.hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at14_main_arg13 m ρ c)

theorem at15_main_arg14 (c : Dev nD) : Gen.W15 m ρ c (Proc.devRef .tc main_arg14) = (argsOf m c).x14 :=
  (StableHlo.after_of_forall_not_mem (b := Proc.devRef .tc main_arg14) _ _ (List.forall_iff_forall_mem.mp (by
      simp only [Gen.hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at14_main_arg14 m ρ c)

theorem at15_main_arg15 (c : Dev nD) : Gen.W15 m ρ c (Proc.devRef .tc main_arg15) = (argsOf m c).x15 :=
  (StableHlo.after_of_forall_not_mem (b := Proc.devRef .tc main_arg15) _ _ (List.forall_iff_forall_mem.mp (by
      simp only [Gen.hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at14_main_arg15 m ρ c)

theorem at15_main_arg16 (c : Dev nD) : Gen.W15 m ρ c (Proc.devRef .tc main_arg16) = (argsOf m c).x16 :=
  (StableHlo.after_of_forall_not_mem (b := Proc.devRef .tc main_arg16) _ _ (List.forall_iff_forall_mem.mp (by
      simp only [Gen.hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at14_main_arg16 m ρ c)

theorem at15_main_arg17 (c : Dev nD) : Gen.W15 m ρ c (Proc.devRef .tc main_arg17) = (argsOf m c).x17 :=
  (StableHlo.after_of_forall_not_mem (b := Proc.devRef .tc main_arg17) _ _ (List.forall_iff_forall_mem.mp (by
      simp only [Gen.hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at14_main_arg17 m ρ c)

/-! ## Boundary 16 -/

theorem at16_main_arg0 (c : Dev nD) : Gen.W16 m ρ c (Proc.devRef .tc main_arg0) = (argsOf m c).x0 :=
  (StableHlo.after_of_forall_not_mem (b := Proc.devRef .tc main_arg0) _ _ (List.forall_iff_forall_mem.mp (by
      simp only [Gen.hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at15_main_arg0 m ρ c)

theorem at16_main_arg2 (c : Dev nD) : Gen.W16 m ρ c (Proc.devRef .tc main_arg2) = (argsOf m c).x2 :=
  (StableHlo.after_of_forall_not_mem (b := Proc.devRef .tc main_arg2) _ _ (List.forall_iff_forall_mem.mp (by
      simp only [Gen.hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at15_main_arg2 m ρ c)

theorem at16_main_arg3 (c : Dev nD) : Gen.W16 m ρ c (Proc.devRef .tc main_arg3) = (argsOf m c).x3 :=
  (StableHlo.after_of_forall_not_mem (b := Proc.devRef .tc main_arg3) _ _ (List.forall_iff_forall_mem.mp (by
      simp only [Gen.hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at15_main_arg3 m ρ c)

theorem at16_main_arg4 (c : Dev nD) : Gen.W16 m ρ c (Proc.devRef .tc main_arg4) = (argsOf m c).x4 :=
  (StableHlo.after_of_forall_not_mem (b := Proc.devRef .tc main_arg4) _ _ (List.forall_iff_forall_mem.mp (by
      simp only [Gen.hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at15_main_arg4 m ρ c)

theorem at16_main_arg5 (c : Dev nD) : Gen.W16 m ρ c (Proc.devRef .tc main_arg5) = (argsOf m c).x5 :=
  (StableHlo.after_of_forall_not_mem (b := Proc.devRef .tc main_arg5) _ _ (List.forall_iff_forall_mem.mp (by
      simp only [Gen.hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at15_main_arg5 m ρ c)

theorem at16_main_arg12 (c : Dev nD) : Gen.W16 m ρ c (Proc.devRef .tc main_arg12) = (argsOf m c).x12 :=
  (StableHlo.after_of_forall_not_mem (b := Proc.devRef .tc main_arg12) _ _ (List.forall_iff_forall_mem.mp (by
      simp only [Gen.hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at15_main_arg12 m ρ c)

theorem at16_main_arg13 (c : Dev nD) : Gen.W16 m ρ c (Proc.devRef .tc main_arg13) = (argsOf m c).x13 :=
  (StableHlo.after_of_forall_not_mem (b := Proc.devRef .tc main_arg13) _ _ (List.forall_iff_forall_mem.mp (by
      simp only [Gen.hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at15_main_arg13 m ρ c)

theorem at16_main_arg14 (c : Dev nD) : Gen.W16 m ρ c (Proc.devRef .tc main_arg14) = (argsOf m c).x14 :=
  (StableHlo.after_of_forall_not_mem (b := Proc.devRef .tc main_arg14) _ _ (List.forall_iff_forall_mem.mp (by
      simp only [Gen.hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at15_main_arg14 m ρ c)

theorem at16_main_arg15 (c : Dev nD) : Gen.W16 m ρ c (Proc.devRef .tc main_arg15) = (argsOf m c).x15 :=
  (StableHlo.after_of_forall_not_mem (b := Proc.devRef .tc main_arg15) _ _ (List.forall_iff_forall_mem.mp (by
      simp only [Gen.hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at15_main_arg15 m ρ c)

theorem at16_main_arg16 (c : Dev nD) : Gen.W16 m ρ c (Proc.devRef .tc main_arg16) = (argsOf m c).x16 :=
  (StableHlo.after_of_forall_not_mem (b := Proc.devRef .tc main_arg16) _ _ (List.forall_iff_forall_mem.mp (by
      simp only [Gen.hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at15_main_arg16 m ρ c)

theorem at16_main_arg17 (c : Dev nD) : Gen.W16 m ρ c (Proc.devRef .tc main_arg17) = (argsOf m c).x17 :=
  (StableHlo.after_of_forall_not_mem (b := Proc.devRef .tc main_arg17) _ _ (List.forall_iff_forall_mem.mp (by
      simp only [Gen.hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at15_main_arg17 m ρ c)

theorem at16_main_v69 (c : Dev nD) : Gen.W16 m ρ c (Proc.devRef .tc main_v69) = kv_main_v69 (argsOf m c) :=
  (KLoc.loc_main_v69 (Gen.W15 m ρ c)).trans (by rw [at15_main_v68 m ρ c]; rfl)

/-! ## Boundary 17 -/

theorem at17_main_c_14 (c : Dev nD) : Gen.W17 m ρ c (Proc.devRef .tc main_c_14) = kv_main_c_14 (argsOf m c) :=
  (KLoc.loc_main_c_14 (Gen.W16 m ρ c)).trans (by rfl)

theorem at17_main_v70 (c : Dev nD) : Gen.W17 m ρ c (Proc.devRef .tc main_v70) = kv_main_v70 (argsOf m c) :=
  (KLoc.loc_main_v70 (Gen.W16 m ρ c)).trans (by rw [at16_main_arg0 m ρ c, at16_main_arg2 m ρ c]; rfl)

theorem at17_main_arg3 (c : Dev nD) : Gen.W17 m ρ c (Proc.devRef .tc main_arg3) = (argsOf m c).x3 :=
  (StableHlo.after_of_forall_not_mem (b := Proc.devRef .tc main_arg3) _ _ (List.forall_iff_forall_mem.mp (by
      simp only [Gen.hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at16_main_arg3 m ρ c)

theorem at17_main_arg4 (c : Dev nD) : Gen.W17 m ρ c (Proc.devRef .tc main_arg4) = (argsOf m c).x4 :=
  (StableHlo.after_of_forall_not_mem (b := Proc.devRef .tc main_arg4) _ _ (List.forall_iff_forall_mem.mp (by
      simp only [Gen.hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at16_main_arg4 m ρ c)

theorem at17_main_arg5 (c : Dev nD) : Gen.W17 m ρ c (Proc.devRef .tc main_arg5) = (argsOf m c).x5 :=
  (StableHlo.after_of_forall_not_mem (b := Proc.devRef .tc main_arg5) _ _ (List.forall_iff_forall_mem.mp (by
      simp only [Gen.hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at16_main_arg5 m ρ c)

theorem at17_main_arg12 (c : Dev nD) : Gen.W17 m ρ c (Proc.devRef .tc main_arg12) = (argsOf m c).x12 :=
  (StableHlo.after_of_forall_not_mem (b := Proc.devRef .tc main_arg12) _ _ (List.forall_iff_forall_mem.mp (by
      simp only [Gen.hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at16_main_arg12 m ρ c)

theorem at17_main_arg13 (c : Dev nD) : Gen.W17 m ρ c (Proc.devRef .tc main_arg13) = (argsOf m c).x13 :=
  (StableHlo.after_of_forall_not_mem (b := Proc.devRef .tc main_arg13) _ _ (List.forall_iff_forall_mem.mp (by
      simp only [Gen.hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at16_main_arg13 m ρ c)

theorem at17_main_arg14 (c : Dev nD) : Gen.W17 m ρ c (Proc.devRef .tc main_arg14) = (argsOf m c).x14 :=
  (StableHlo.after_of_forall_not_mem (b := Proc.devRef .tc main_arg14) _ _ (List.forall_iff_forall_mem.mp (by
      simp only [Gen.hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at16_main_arg14 m ρ c)

theorem at17_main_arg15 (c : Dev nD) : Gen.W17 m ρ c (Proc.devRef .tc main_arg15) = (argsOf m c).x15 :=
  (StableHlo.after_of_forall_not_mem (b := Proc.devRef .tc main_arg15) _ _ (List.forall_iff_forall_mem.mp (by
      simp only [Gen.hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at16_main_arg15 m ρ c)

theorem at17_main_arg16 (c : Dev nD) : Gen.W17 m ρ c (Proc.devRef .tc main_arg16) = (argsOf m c).x16 :=
  (StableHlo.after_of_forall_not_mem (b := Proc.devRef .tc main_arg16) _ _ (List.forall_iff_forall_mem.mp (by
      simp only [Gen.hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at16_main_arg16 m ρ c)

theorem at17_main_arg17 (c : Dev nD) : Gen.W17 m ρ c (Proc.devRef .tc main_arg17) = (argsOf m c).x17 :=
  (StableHlo.after_of_forall_not_mem (b := Proc.devRef .tc main_arg17) _ _ (List.forall_iff_forall_mem.mp (by
      simp only [Gen.hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at16_main_arg17 m ρ c)

theorem at17_main_v69 (c : Dev nD) : Gen.W17 m ρ c (Proc.devRef .tc main_v69) = kv_main_v69 (argsOf m c) :=
  (StableHlo.after_of_forall_not_mem (b := Proc.devRef .tc main_v69) _ _ (List.forall_iff_forall_mem.mp (by
      simp only [Gen.hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at16_main_v69 m ρ c)

/-! ## Boundary 18 -/

theorem at18_main_v71 (c : Dev nD) : Gen.W18 m ρ c (Proc.devRef .tc main_v71) = kv_main_v71 (argsOf m c) :=
  (KLoc.loc_main_v71 (Gen.W17 m ρ c)).trans (by rw [at17_main_v70 m ρ c, at17_main_c_14 m ρ c]; rfl)

theorem at18_main_arg3 (c : Dev nD) : Gen.W18 m ρ c (Proc.devRef .tc main_arg3) = (argsOf m c).x3 :=
  (StableHlo.after_of_forall_not_mem (b := Proc.devRef .tc main_arg3) _ _ (List.forall_iff_forall_mem.mp (by
      simp only [Gen.hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at17_main_arg3 m ρ c)

theorem at18_main_arg4 (c : Dev nD) : Gen.W18 m ρ c (Proc.devRef .tc main_arg4) = (argsOf m c).x4 :=
  (StableHlo.after_of_forall_not_mem (b := Proc.devRef .tc main_arg4) _ _ (List.forall_iff_forall_mem.mp (by
      simp only [Gen.hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at17_main_arg4 m ρ c)

theorem at18_main_arg5 (c : Dev nD) : Gen.W18 m ρ c (Proc.devRef .tc main_arg5) = (argsOf m c).x5 :=
  (StableHlo.after_of_forall_not_mem (b := Proc.devRef .tc main_arg5) _ _ (List.forall_iff_forall_mem.mp (by
      simp only [Gen.hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at17_main_arg5 m ρ c)

theorem at18_main_arg12 (c : Dev nD) : Gen.W18 m ρ c (Proc.devRef .tc main_arg12) = (argsOf m c).x12 :=
  (StableHlo.after_of_forall_not_mem (b := Proc.devRef .tc main_arg12) _ _ (List.forall_iff_forall_mem.mp (by
      simp only [Gen.hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at17_main_arg12 m ρ c)

theorem at18_main_arg13 (c : Dev nD) : Gen.W18 m ρ c (Proc.devRef .tc main_arg13) = (argsOf m c).x13 :=
  (StableHlo.after_of_forall_not_mem (b := Proc.devRef .tc main_arg13) _ _ (List.forall_iff_forall_mem.mp (by
      simp only [Gen.hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at17_main_arg13 m ρ c)

theorem at18_main_arg14 (c : Dev nD) : Gen.W18 m ρ c (Proc.devRef .tc main_arg14) = (argsOf m c).x14 :=
  (StableHlo.after_of_forall_not_mem (b := Proc.devRef .tc main_arg14) _ _ (List.forall_iff_forall_mem.mp (by
      simp only [Gen.hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at17_main_arg14 m ρ c)

theorem at18_main_arg15 (c : Dev nD) : Gen.W18 m ρ c (Proc.devRef .tc main_arg15) = (argsOf m c).x15 :=
  (StableHlo.after_of_forall_not_mem (b := Proc.devRef .tc main_arg15) _ _ (List.forall_iff_forall_mem.mp (by
      simp only [Gen.hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at17_main_arg15 m ρ c)

theorem at18_main_arg16 (c : Dev nD) : Gen.W18 m ρ c (Proc.devRef .tc main_arg16) = (argsOf m c).x16 :=
  (StableHlo.after_of_forall_not_mem (b := Proc.devRef .tc main_arg16) _ _ (List.forall_iff_forall_mem.mp (by
      simp only [Gen.hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at17_main_arg16 m ρ c)

theorem at18_main_arg17 (c : Dev nD) : Gen.W18 m ρ c (Proc.devRef .tc main_arg17) = (argsOf m c).x17 :=
  (StableHlo.after_of_forall_not_mem (b := Proc.devRef .tc main_arg17) _ _ (List.forall_iff_forall_mem.mp (by
      simp only [Gen.hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at17_main_arg17 m ρ c)

theorem at18_main_v70 (c : Dev nD) : Gen.W18 m ρ c (Proc.devRef .tc main_v70) = kv_main_v70 (argsOf m c) :=
  (StableHlo.after_of_forall_not_mem (b := Proc.devRef .tc main_v70) _ _ (List.forall_iff_forall_mem.mp (by
      simp only [Gen.hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at17_main_v70 m ρ c)

theorem at18_main_v69 (c : Dev nD) : Gen.W18 m ρ c (Proc.devRef .tc main_v69) = kv_main_v69 (argsOf m c) :=
  (StableHlo.after_of_forall_not_mem (b := Proc.devRef .tc main_v69) _ _ (List.forall_iff_forall_mem.mp (by
      simp only [Gen.hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at17_main_v69 m ρ c)

/-! ## Boundary 19 -/

theorem at19_main_arg3 (c : Dev nD) : Gen.W19 m ρ c (Proc.devRef .tc main_arg3) = (argsOf m c).x3 :=
  (StableHlo.after_of_forall_not_mem (b := Proc.devRef .tc main_arg3) _ _ (List.forall_iff_forall_mem.mp (by
      simp only [Gen.hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at18_main_arg3 m ρ c)

theorem at19_main_v72 (c : Dev nD) : Gen.W19 m ρ c (Proc.devRef .tc main_v72) = kv_main_v72 (argsOf m c) :=
  (KLoc.loc_main_v72 (Gen.W18 m ρ c)).trans (by rw [at18_main_v71 m ρ c]; rfl)

theorem at19_main_arg4 (c : Dev nD) : Gen.W19 m ρ c (Proc.devRef .tc main_arg4) = (argsOf m c).x4 :=
  (StableHlo.after_of_forall_not_mem (b := Proc.devRef .tc main_arg4) _ _ (List.forall_iff_forall_mem.mp (by
      simp only [Gen.hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at18_main_arg4 m ρ c)

theorem at19_main_arg5 (c : Dev nD) : Gen.W19 m ρ c (Proc.devRef .tc main_arg5) = (argsOf m c).x5 :=
  (StableHlo.after_of_forall_not_mem (b := Proc.devRef .tc main_arg5) _ _ (List.forall_iff_forall_mem.mp (by
      simp only [Gen.hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at18_main_arg5 m ρ c)

theorem at19_main_arg12 (c : Dev nD) : Gen.W19 m ρ c (Proc.devRef .tc main_arg12) = (argsOf m c).x12 :=
  (StableHlo.after_of_forall_not_mem (b := Proc.devRef .tc main_arg12) _ _ (List.forall_iff_forall_mem.mp (by
      simp only [Gen.hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at18_main_arg12 m ρ c)

theorem at19_main_arg13 (c : Dev nD) : Gen.W19 m ρ c (Proc.devRef .tc main_arg13) = (argsOf m c).x13 :=
  (StableHlo.after_of_forall_not_mem (b := Proc.devRef .tc main_arg13) _ _ (List.forall_iff_forall_mem.mp (by
      simp only [Gen.hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at18_main_arg13 m ρ c)

theorem at19_main_arg14 (c : Dev nD) : Gen.W19 m ρ c (Proc.devRef .tc main_arg14) = (argsOf m c).x14 :=
  (StableHlo.after_of_forall_not_mem (b := Proc.devRef .tc main_arg14) _ _ (List.forall_iff_forall_mem.mp (by
      simp only [Gen.hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at18_main_arg14 m ρ c)

theorem at19_main_arg15 (c : Dev nD) : Gen.W19 m ρ c (Proc.devRef .tc main_arg15) = (argsOf m c).x15 :=
  (StableHlo.after_of_forall_not_mem (b := Proc.devRef .tc main_arg15) _ _ (List.forall_iff_forall_mem.mp (by
      simp only [Gen.hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at18_main_arg15 m ρ c)

theorem at19_main_arg16 (c : Dev nD) : Gen.W19 m ρ c (Proc.devRef .tc main_arg16) = (argsOf m c).x16 :=
  (StableHlo.after_of_forall_not_mem (b := Proc.devRef .tc main_arg16) _ _ (List.forall_iff_forall_mem.mp (by
      simp only [Gen.hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at18_main_arg16 m ρ c)

theorem at19_main_arg17 (c : Dev nD) : Gen.W19 m ρ c (Proc.devRef .tc main_arg17) = (argsOf m c).x17 :=
  (StableHlo.after_of_forall_not_mem (b := Proc.devRef .tc main_arg17) _ _ (List.forall_iff_forall_mem.mp (by
      simp only [Gen.hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at18_main_arg17 m ρ c)

theorem at19_main_v70 (c : Dev nD) : Gen.W19 m ρ c (Proc.devRef .tc main_v70) = kv_main_v70 (argsOf m c) :=
  (StableHlo.after_of_forall_not_mem (b := Proc.devRef .tc main_v70) _ _ (List.forall_iff_forall_mem.mp (by
      simp only [Gen.hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at18_main_v70 m ρ c)

theorem at19_main_v69 (c : Dev nD) : Gen.W19 m ρ c (Proc.devRef .tc main_v69) = kv_main_v69 (argsOf m c) :=
  (StableHlo.after_of_forall_not_mem (b := Proc.devRef .tc main_v69) _ _ (List.forall_iff_forall_mem.mp (by
      simp only [Gen.hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at18_main_v69 m ρ c)

end Cert.KernelIdeal.KChain

end
-- ==== Proof.KChainE.lean ====
/- Written by a script (invocation: bun $KIT/certs/proofs/103117_j70961449664567_2_alg/scratch/gen_kval.js $KIT/certs/proofs/103117_j70961449664567_2_alg): a table of cases, one per value of the kernel program that is still read at a
   later boundary of its run and per boundary — the buffer holds the value's definition (module KVal) of the argument arrays there: where the
   value is computed, by the operations' results; elsewhere, because nothing writes the buffer. -/
import proofs.«103117_j70961449664567_2_alg».proof.Proof.Gen.KernelIdeal.Frame
import proofs.«103117_j70961449664567_2_alg».proof.Proof.KLoc
import proofs.«103117_j70961449664567_2_alg».proof.Proof.KRegions
import proofs.«103117_j70961449664567_2_alg».proof.Proof.KChainD

set_option maxRecDepth 16384

noncomputable section

namespace Cert.KernelIdeal.KChain

open Cert.KernelIdeal Cert.KernelIdeal.KVal Idealize.ShloMosaic Idealize.ShloMosaic.TcCoe Idealize.SL.Sem Idealize.ShloMosaic.StableHlo

variable (m : (ℓ : Loc nD τ sig) → Buf (Elt Ideal) ℓ) (ρ : Dev nD → PrngReg)

/-! ## Boundary 20 -/

theorem at20_main_v73 (c : Dev nD) : Gen.W20 m ρ c (Proc.devRef .tc main_v73) = kv_main_v73 (argsOf m c) :=
  (KRegion.W20_v73 m ρ c).trans (by rw [at19_main_arg3 m ρ c, at19_main_v72 m ρ c]; rfl)

theorem at20_main_arg4 (c : Dev nD) : Gen.W20 m ρ c (Proc.devRef .tc main_arg4) = (argsOf m c).x4 :=
  (Gen.W20_of_ne m ρ c main_arg4 (by decide)).trans (at19_main_arg4 m ρ c)

theorem at20_main_v72 (c : Dev nD) : Gen.W20 m ρ c (Proc.devRef .tc main_v72) = kv_main_v72 (argsOf m c) :=
  ((Gen.W20_arr m ρ c 1).trans (((Gen.dat3 (Gen.V19 m ρ) c).arrAt_in 1 rfl _).trans (Gen.A_eq3 (Gen.V19 m ρ) c 1))).trans (at19_main_v72 m ρ c)

theorem at20_main_arg5 (c : Dev nD) : Gen.W20 m ρ c (Proc.devRef .tc main_arg5) = (argsOf m c).x5 :=
  (Gen.W20_of_ne m ρ c main_arg5 (by decide)).trans (at19_main_arg5 m ρ c)

theorem at20_main_arg12 (c : Dev nD) : Gen.W20 m ρ c (Proc.devRef .tc main_arg12) = (argsOf m c).x12 :=
  (Gen.W20_of_ne m ρ c main_arg12 (by decide)).trans (at19_main_arg12 m ρ c)

theorem at20_main_arg13 (c : Dev nD) : Gen.W20 m ρ c (Proc.devRef .tc main_arg13) = (argsOf m c).x13 :=
  (Gen.W20_of_ne m ρ c main_arg13 (by decide)).trans (at19_main_arg13 m ρ c)

theorem at20_main_arg14 (c : Dev nD) : Gen.W20 m ρ c (Proc.devRef .tc main_arg14) = (argsOf m c).x14 :=
  (Gen.W20_of_ne m ρ c main_arg14 (by decide)).trans (at19_main_arg14 m ρ c)

theorem at20_main_arg15 (c : Dev nD) : Gen.W20 m ρ c (Proc.devRef .tc main_arg15) = (argsOf m c).x15 :=
  (Gen.W20_of_ne m ρ c main_arg15 (by decide)).trans (at19_main_arg15 m ρ c)

theorem at20_main_arg16 (c : Dev nD) : Gen.W20 m ρ c (Proc.devRef .tc main_arg16) = (argsOf m c).x16 :=
  (Gen.W20_of_ne m ρ c main_arg16 (by decide)).trans (at19_main_arg16 m ρ c)

theorem at20_main_arg17 (c : Dev nD) : Gen.W20 m ρ c (Proc.devRef .tc main_arg17) = (argsOf m c).x17 :=
  (Gen.W20_of_ne m ρ c main_arg17 (by decide)).trans (at19_main_arg17 m ρ c)

theorem at20_main_v70 (c : Dev nD) : Gen.W20 m ρ c (Proc.devRef .tc main_v70) = kv_main_v70 (argsOf m c) :=
  (Gen.W20_of_ne m ρ c main_v70 (by decide)).trans (at19_main_v70 m ρ c)

theorem at20_main_v69 (c : Dev nD) : Gen.W20 m ρ c (Proc.devRef .tc main_v69) = kv_main_v69 (argsOf m c) :=
  (Gen.W20_of_ne m ρ c main_v69 (by decide)).trans (at19_main_v69 m ρ c)

/-! ## Boundary 21 -/

theorem at21_main_arg4 (c : Dev nD) : Gen.W21 m ρ c (Proc.devRef .tc main_arg4) = (argsOf m c).x4 :=
  (StableHlo.after_of_forall_not_mem (b := Proc.devRef .tc main_arg4) _ _ (List.forall_iff_forall_mem.mp (by
      simp only [Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at20_main_arg4 m ρ c)

theorem at21_main_v72 (c : Dev nD) : Gen.W21 m ρ c (Proc.devRef .tc main_v72) = kv_main_v72 (argsOf m c) :=
  (StableHlo.after_of_forall_not_mem (b := Proc.devRef .tc main_v72) _ _ (List.forall_iff_forall_mem.mp (by
      simp only [Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at20_main_v72 m ρ c)

theorem at21_main_arg5 (c : Dev nD) : Gen.W21 m ρ c (Proc.devRef .tc main_arg5) = (argsOf m c).x5 :=
  (StableHlo.after_of_forall_not_mem (b := Proc.devRef .tc main_arg5) _ _ (List.forall_iff_forall_mem.mp (by
      simp only [Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at20_main_arg5 m ρ c)

theorem at21_main_arg12 (c : Dev nD) : Gen.W21 m ρ c (Proc.devRef .tc main_arg12) = (argsOf m c).x12 :=
  (StableHlo.after_of_forall_not_mem (b := Proc.devRef .tc main_arg12) _ _ (List.forall_iff_forall_mem.mp (by
      simp only [Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at20_main_arg12 m ρ c)

theorem at21_main_arg13 (c : Dev nD) : Gen.W21 m ρ c (Proc.devRef .tc main_arg13) = (argsOf m c).x13 :=
  (StableHlo.after_of_forall_not_mem (b := Proc.devRef .tc main_arg13) _ _ (List.forall_iff_forall_mem.mp (by
      simp only [Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at20_main_arg13 m ρ c)

theorem at21_main_arg14 (c : Dev nD) : Gen.W21 m ρ c (Proc.devRef .tc main_arg14) = (argsOf m c).x14 :=
  (StableHlo.after_of_forall_not_mem (b := Proc.devRef .tc main_arg14) _ _ (List.forall_iff_forall_mem.mp (by
      simp only [Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at20_main_arg14 m ρ c)

theorem at21_main_arg15 (c : Dev nD) : Gen.W21 m ρ c (Proc.devRef .tc main_arg15) = (argsOf m c).x15 :=
  (StableHlo.after_of_forall_not_mem (b := Proc.devRef .tc main_arg15) _ _ (List.forall_iff_forall_mem.mp (by
      simp only [Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at20_main_arg15 m ρ c)

theorem at21_main_arg16 (c : Dev nD) : Gen.W21 m ρ c (Proc.devRef .tc main_arg16) = (argsOf m c).x16 :=
  (StableHlo.after_of_forall_not_mem (b := Proc.devRef .tc main_arg16) _ _ (List.forall_iff_forall_mem.mp (by
      simp only [Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at20_main_arg16 m ρ c)

theorem at21_main_arg17 (c : Dev nD) : Gen.W21 m ρ c (Proc.devRef .tc main_arg17) = (argsOf m c).x17 :=
  (StableHlo.after_of_forall_not_mem (b := Proc.devRef .tc main_arg17) _ _ (List.forall_iff_forall_mem.mp (by
      simp only [Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at20_main_arg17 m ρ c)

theorem at21_main_v70 (c : Dev nD) : Gen.W21 m ρ c (Proc.devRef .tc main_v70) = kv_main_v70 (argsOf m c) :=
  (StableHlo.after_of_forall_not_mem (b := Proc.devRef .tc main_v70) _ _ (List.forall_iff_forall_mem.mp (by
      simp only [Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at20_main_v70 m ρ c)

theorem at21_main_v74 (c : Dev nD) : Gen.W21 m ρ c (Proc.devRef .tc main_v74) = kv_main_v74 (argsOf m c) :=
  (KLoc.loc_main_v74 (Gen.W20 m ρ c)).trans (by rw [at20_main_v73 m ρ c]; rfl)

theorem at21_main_v69 (c : Dev nD) : Gen.W21 m ρ c (Proc.devRef .tc main_v69) = kv_main_v69 (argsOf m c) :=
  (StableHlo.after_of_forall_not_mem (b := Proc.devRef .tc main_v69) _ _ (List.forall_iff_forall_mem.mp (by
      simp only [Gen.hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at20_main_v69 m ρ c)

/-! ## Boundary 22 -/

theorem at22_main_v75 (c : Dev nD) : Gen.W22 m ρ c (Proc.devRef .tc main_v75) = kv_main_v75 (argsOf m c) :=
  (KRegion.W22_v75 m ρ c).trans (by rw [at21_main_arg4 m ρ c, at21_main_v72 m ρ c]; rfl)

theorem at22_main_arg5 (c : Dev nD) : Gen.W22 m ρ c (Proc.devRef .tc main_arg5) = (argsOf m c).x5 :=
  (Gen.W22_of_ne m ρ c main_arg5 (by decide)).trans (at21_main_arg5 m ρ c)

theorem at22_main_v72 (c : Dev nD) : Gen.W22 m ρ c (Proc.devRef .tc main_v72) = kv_main_v72 (argsOf m c) :=
  ((Gen.W22_arr m ρ c 1).trans (((Gen.dat4 (Gen.V21 m ρ) c).arrAt_in 1 rfl _).trans (Gen.A_eq4 (Gen.V21 m ρ) c 1))).trans (at21_main_v72 m ρ c)

theorem at22_main_arg12 (c : Dev nD) : Gen.W22 m ρ c (Proc.devRef .tc main_arg12) = (argsOf m c).x12 :=
  (Gen.W22_of_ne m ρ c main_arg12 (by decide)).trans (at21_main_arg12 m ρ c)

theorem at22_main_arg13 (c : Dev nD) : Gen.W22 m ρ c (Proc.devRef .tc main_arg13) = (argsOf m c).x13 :=
  (Gen.W22_of_ne m ρ c main_arg13 (by decide)).trans (at21_main_arg13 m ρ c)

theorem at22_main_arg14 (c : Dev nD) : Gen.W22 m ρ c (Proc.devRef .tc main_arg14) = (argsOf m c).x14 :=
  (Gen.W22_of_ne m ρ c main_arg14 (by decide)).trans (at21_main_arg14 m ρ c)

theorem at22_main_arg15 (c : Dev nD) : Gen.W22 m ρ c (Proc.devRef .tc main_arg15) = (argsOf m c).x15 :=
  (Gen.W22_of_ne m ρ c main_arg15 (by decide)).trans (at21_main_arg15 m ρ c)

theorem at22_main_arg16 (c : Dev nD) : Gen.W22 m ρ c (Proc.devRef .tc main_arg16) = (argsOf m c).x16 :=
  (Gen.W22_of_ne m ρ c main_arg16 (by decide)).trans (at21_main_arg16 m ρ c)

theorem at22_main_arg17 (c : Dev nD) : Gen.W22 m ρ c (Proc.devRef .tc main_arg17) = (argsOf m c).x17 :=
  (Gen.W22_of_ne m ρ c main_arg17 (by decide)).trans (at21_main_arg17 m ρ c)

theorem at22_main_v70 (c : Dev nD) : Gen.W22 m ρ c (Proc.devRef .tc main_v70) = kv_main_v70 (argsOf m c) :=
  (Gen.W22_of_ne m ρ c main_v70 (by decide)).trans (at21_main_v70 m ρ c)

theorem at22_main_v74 (c : Dev nD) : Gen.W22 m ρ c (Proc.devRef .tc main_v74) = kv_main_v74 (argsOf m c) :=
  (Gen.W22_of_ne m ρ c main_v74 (by decide)).trans (at21_main_v74 m ρ c)

theorem at22_main_v69 (c : Dev nD) : Gen.W22 m ρ c (Proc.devRef .tc main_v69) = kv_main_v69 (argsOf m c) :=
  (Gen.W22_of_ne m ρ c main_v69 (by decide)).trans (at21_main_v69 m ρ c)

/-! ## Boundary 23 -/

theorem at23_main_arg5 (c : Dev nD) : Gen.W23 m ρ c (Proc.devRef .tc main_arg5) = (argsOf m c).x5 :=
  (StableHlo.after_of_forall_not_mem (b := Proc.devRef .tc main_arg5) _ _ (List.forall_iff_forall_mem.mp (by
      simp only [Gen.hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at22_main_arg5 m ρ c)

theorem at23_main_v72 (c : Dev nD) : Gen.W23 m ρ c (Proc.devRef .tc main_v72) = kv_main_v72 (argsOf m c) :=
  (StableHlo.after_of_forall_not_mem (b := Proc.devRef .tc main_v72) _ _ (List.forall_iff_forall_mem.mp (by
      simp only [Gen.hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at22_main_v72 m ρ c)

theorem at23_main_arg12 (c : Dev nD) : Gen.W23 m ρ c (Proc.devRef .tc main_arg12) = (argsOf m c).x12 :=
  (StableHlo.after_of_forall_not_mem (b := Proc.devRef .tc main_arg12) _ _ (List.forall_iff_forall_mem.mp (by
      simp only [Gen.hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at22_main_arg12 m ρ c)

theorem at23_main_arg13 (c : Dev nD) : Gen.W23 m ρ c (Proc.devRef .tc main_arg13) = (argsOf m c).x13 :=
  (StableHlo.after_of_forall_not_mem (b := Proc.devRef .tc main_arg13) _ _ (List.forall_iff_forall_mem.mp (by
      simp only [Gen.hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at22_main_arg13 m ρ c)

theorem at23_main_arg14 (c : Dev nD) : Gen.W23 m ρ c (Proc.devRef .tc main_arg14) = (argsOf m c).x14 :=
  (StableHlo.after_of_forall_not_mem (b := Proc.devRef .tc main_arg14) _ _ (List.forall_iff_forall_mem.mp (by
      simp only [Gen.hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at22_main_arg14 m ρ c)

theorem at23_main_arg15 (c : Dev nD) : Gen.W23 m ρ c (Proc.devRef .tc main_arg15) = (argsOf m c).x15 :=
  (StableHlo.after_of_forall_not_mem (b := Proc.devRef .tc main_arg15) _ _ (List.forall_iff_forall_mem.mp (by
      simp only [Gen.hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at22_main_arg15 m ρ c)

theorem at23_main_arg16 (c : Dev nD) : Gen.W23 m ρ c (Proc.devRef .tc main_arg16) = (argsOf m c).x16 :=
  (StableHlo.after_of_forall_not_mem (b := Proc.devRef .tc main_arg16) _ _ (List.forall_iff_forall_mem.mp (by
      simp only [Gen.hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at22_main_arg16 m ρ c)

theorem at23_main_arg17 (c : Dev nD) : Gen.W23 m ρ c (Proc.devRef .tc main_arg17) = (argsOf m c).x17 :=
  (StableHlo.after_of_forall_not_mem (b := Proc.devRef .tc main_arg17) _ _ (List.forall_iff_forall_mem.mp (by
      simp only [Gen.hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at22_main_arg17 m ρ c)

theorem at23_main_v70 (c : Dev nD) : Gen.W23 m ρ c (Proc.devRef .tc main_v70) = kv_main_v70 (argsOf m c) :=
  (StableHlo.after_of_forall_not_mem (b := Proc.devRef .tc main_v70) _ _ (List.forall_iff_forall_mem.mp (by
      simp only [Gen.hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at22_main_v70 m ρ c)

theorem at23_main_v74 (c : Dev nD) : Gen.W23 m ρ c (Proc.devRef .tc main_v74) = kv_main_v74 (argsOf m c) :=
  (StableHlo.after_of_forall_not_mem (b := Proc.devRef .tc main_v74) _ _ (List.forall_iff_forall_mem.mp (by
      simp only [Gen.hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at22_main_v74 m ρ c)

theorem at23_main_v76 (c : Dev nD) : Gen.W23 m ρ c (Proc.devRef .tc main_v76) = kv_main_v76 (argsOf m c) :=
  (KLoc.loc_main_v76 (Gen.W22 m ρ c)).trans (by rw [at22_main_v75 m ρ c]; rfl)

theorem at23_main_v69 (c : Dev nD) : Gen.W23 m ρ c (Proc.devRef .tc main_v69) = kv_main_v69 (argsOf m c) :=
  (StableHlo.after_of_forall_not_mem (b := Proc.devRef .tc main_v69) _ _ (List.forall_iff_forall_mem.mp (by
      simp only [Gen.hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at22_main_v69 m ρ c)

/-! ## Boundary 24 -/

theorem at24_main_v77 (c : Dev nD) : Gen.W24 m ρ c (Proc.devRef .tc main_v77) = kv_main_v77 (argsOf m c) :=
  (KRegion.W24_v77 m ρ c).trans (by rw [at23_main_arg5 m ρ c, at23_main_v72 m ρ c]; rfl)

theorem at24_main_arg12 (c : Dev nD) : Gen.W24 m ρ c (Proc.devRef .tc main_arg12) = (argsOf m c).x12 :=
  (Gen.W24_of_ne m ρ c main_arg12 (by decide)).trans (at23_main_arg12 m ρ c)

theorem at24_main_arg13 (c : Dev nD) : Gen.W24 m ρ c (Proc.devRef .tc main_arg13) = (argsOf m c).x13 :=
  (Gen.W24_of_ne m ρ c main_arg13 (by decide)).trans (at23_main_arg13 m ρ c)

theorem at24_main_arg14 (c : Dev nD) : Gen.W24 m ρ c (Proc.devRef .tc main_arg14) = (argsOf m c).x14 :=
  (Gen.W24_of_ne m ρ c main_arg14 (by decide)).trans (at23_main_arg14 m ρ c)

theorem at24_main_arg15 (c : Dev nD) : Gen.W24 m ρ c (Proc.devRef .tc main_arg15) = (argsOf m c).x15 :=
  (Gen.W24_of_ne m ρ c main_arg15 (by decide)).trans (at23_main_arg15 m ρ c)

theorem at24_main_arg16 (c : Dev nD) : Gen.W24 m ρ c (Proc.devRef .tc main_arg16) = (argsOf m c).x16 :=
  (Gen.W24_of_ne m ρ c main_arg16 (by decide)).trans (at23_main_arg16 m ρ c)

theorem at24_main_arg17 (c : Dev nD) : Gen.W24 m ρ c (Proc.devRef .tc main_arg17) = (argsOf m c).x17 :=
  (Gen.W24_of_ne m ρ c main_arg17 (by decide)).trans (at23_main_arg17 m ρ c)

theorem at24_main_v70 (c : Dev nD) : Gen.W24 m ρ c (Proc.devRef .tc main_v70) = kv_main_v70 (argsOf m c) :=
  (Gen.W24_of_ne m ρ c main_v70 (by decide)).trans (at23_main_v70 m ρ c)

theorem at24_main_v74 (c : Dev nD) : Gen.W24 m ρ c (Proc.devRef .tc main_v74) = kv_main_v74 (argsOf m c) :=
  (Gen.W24_of_ne m ρ c main_v74 (by decide)).trans (at23_main_v74 m ρ c)

theorem at24_main_v76 (c : Dev nD) : Gen.W24 m ρ c (Proc.devRef .tc main_v76) = kv_main_v76 (argsOf m c) :=
  (Gen.W24_of_ne m ρ c main_v76 (by decide)).trans (at23_main_v76 m ρ c)

theorem at24_main_v69 (c : Dev nD) : Gen.W24 m ρ c (Proc.devRef .tc main_v69) = kv_main_v69 (argsOf m c) :=
  (Gen.W24_of_ne m ρ c main_v69 (by decide)).trans (at23_main_v69 m ρ c)

end Cert.KernelIdeal.KChain

end
-- ==== Proof.KChainF.lean ====
/- Written by a script (invocation: bun $KIT/certs/proofs/103117_j70961449664567_2_alg/scratch/gen_kval.js $KIT/certs/proofs/103117_j70961449664567_2_alg): a table of cases, one per value of the kernel program that is still read at a
   later boundary of its run and per boundary — the buffer holds the value's definition (module KVal) of the argument arrays there: where the
   value is computed, by the operations' results; elsewhere, because nothing writes the buffer. -/
import proofs.«103117_j70961449664567_2_alg».proof.Proof.Gen.KernelIdeal.Frame
import proofs.«103117_j70961449664567_2_alg».proof.Proof.KLoc
import proofs.«103117_j70961449664567_2_alg».proof.Proof.KChainE

set_option maxRecDepth 16384

noncomputable section

namespace Cert.KernelIdeal.KChain

open Cert.KernelIdeal Cert.KernelIdeal.KVal Idealize.ShloMosaic Idealize.ShloMosaic.TcCoe Idealize.SL.Sem Idealize.ShloMosaic.StableHlo

variable (m : (ℓ : Loc nD τ sig) → Buf (Elt Ideal) ℓ) (ρ : Dev nD → PrngReg)

/-! ## Boundary 25 -/

theorem at25_main_v120 (c : Dev nD) : Gen.W25 m ρ c (Proc.devRef .tc main_v120) = kv_main_v120 (argsOf m c) :=
  (KLoc.loc_main_v120 (Gen.W24 m ρ c)).trans (by rw [at24_main_arg14 m ρ c, at24_main_v70 m ρ c, at24_main_arg12 m ρ c, at24_main_arg13 m ρ c, at24_main_arg15 m ρ c]; rfl)

theorem at25_main_v89 (c : Dev nD) : Gen.W25 m ρ c (Proc.devRef .tc main_v89) = kv_main_v89 (argsOf m c) :=
  (KLoc.loc_main_v89 (Gen.W24 m ρ c)).trans (by rw [at24_main_arg16 m ρ c]; rfl)

theorem at25_main_v91 (c : Dev nD) : Gen.W25 m ρ c (Proc.devRef .tc main_v91) = kv_main_v91 (argsOf m c) :=
  (KLoc.loc_main_v91 (Gen.W24 m ρ c)).trans (by rw [at24_main_arg17 m ρ c]; rfl)

theorem at25_main_v79 (c : Dev nD) : Gen.W25 m ρ c (Proc.devRef .tc main_v79) = kv_main_v79 (argsOf m c) :=
  (KLoc.loc_main_v79 (Gen.W24 m ρ c)).trans (by rfl)

theorem at25_main_arg12 (c : Dev nD) : Gen.W25 m ρ c (Proc.devRef .tc main_arg12) = (argsOf m c).x12 :=
  (StableHlo.after_of_forall_not_mem (b := Proc.devRef .tc main_arg12) _ _ (List.forall_iff_forall_mem.mp (by
      simp only [Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at24_main_arg12 m ρ c)

theorem at25_main_arg13 (c : Dev nD) : Gen.W25 m ρ c (Proc.devRef .tc main_arg13) = (argsOf m c).x13 :=
  (StableHlo.after_of_forall_not_mem (b := Proc.devRef .tc main_arg13) _ _ (List.forall_iff_forall_mem.mp (by
      simp only [Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at24_main_arg13 m ρ c)

theorem at25_main_arg14 (c : Dev nD) : Gen.W25 m ρ c (Proc.devRef .tc main_arg14) = (argsOf m c).x14 :=
  (StableHlo.after_of_forall_not_mem (b := Proc.devRef .tc main_arg14) _ _ (List.forall_iff_forall_mem.mp (by
      simp only [Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at24_main_arg14 m ρ c)

theorem at25_main_arg15 (c : Dev nD) : Gen.W25 m ρ c (Proc.devRef .tc main_arg15) = (argsOf m c).x15 :=
  (StableHlo.after_of_forall_not_mem (b := Proc.devRef .tc main_arg15) _ _ (List.forall_iff_forall_mem.mp (by
      simp only [Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at24_main_arg15 m ρ c)

theorem at25_main_arg16 (c : Dev nD) : Gen.W25 m ρ c (Proc.devRef .tc main_arg16) = (argsOf m c).x16 :=
  (StableHlo.after_of_forall_not_mem (b := Proc.devRef .tc main_arg16) _ _ (List.forall_iff_forall_mem.mp (by
      simp only [Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at24_main_arg16 m ρ c)

theorem at25_main_arg17 (c : Dev nD) : Gen.W25 m ρ c (Proc.devRef .tc main_arg17) = (argsOf m c).x17 :=
  (StableHlo.after_of_forall_not_mem (b := Proc.devRef .tc main_arg17) _ _ (List.forall_iff_forall_mem.mp (by
      simp only [Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at24_main_arg17 m ρ c)

theorem at25_main_v74 (c : Dev nD) : Gen.W25 m ρ c (Proc.devRef .tc main_v74) = kv_main_v74 (argsOf m c) :=
  (StableHlo.after_of_forall_not_mem (b := Proc.devRef .tc main_v74) _ _ (List.forall_iff_forall_mem.mp (by
      simp only [Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at24_main_v74 m ρ c)

theorem at25_main_v76 (c : Dev nD) : Gen.W25 m ρ c (Proc.devRef .tc main_v76) = kv_main_v76 (argsOf m c) :=
  (StableHlo.after_of_forall_not_mem (b := Proc.devRef .tc main_v76) _ _ (List.forall_iff_forall_mem.mp (by
      simp only [Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at24_main_v76 m ρ c)

theorem at25_main_v78 (c : Dev nD) : Gen.W25 m ρ c (Proc.devRef .tc main_v78) = kv_main_v78 (argsOf m c) :=
  (KLoc.loc_main_v78 (Gen.W24 m ρ c)).trans (by rw [at24_main_v77 m ρ c]; rfl)

theorem at25_main_v69 (c : Dev nD) : Gen.W25 m ρ c (Proc.devRef .tc main_v69) = kv_main_v69 (argsOf m c) :=
  (StableHlo.after_of_forall_not_mem (b := Proc.devRef .tc main_v69) _ _ (List.forall_iff_forall_mem.mp (by
      simp only [Gen.hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at24_main_v69 m ρ c)

/-! ## Boundary 26 -/

theorem at26_main_v121 (c : Dev nD) : Gen.W26 m ρ c (Proc.devRef .tc main_v121) = kv_main_v121 (argsOf m c) :=
  (KLoc.loc_main_v121 (Gen.W25 m ρ c)).trans (by rw [at25_main_v120 m ρ c]; rfl)

theorem at26_main_v89 (c : Dev nD) : Gen.W26 m ρ c (Proc.devRef .tc main_v89) = kv_main_v89 (argsOf m c) :=
  (StableHlo.after_of_forall_not_mem (b := Proc.devRef .tc main_v89) _ _ (List.forall_iff_forall_mem.mp (by
      simp only [Gen.hostOps6_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at25_main_v89 m ρ c)

theorem at26_main_v91 (c : Dev nD) : Gen.W26 m ρ c (Proc.devRef .tc main_v91) = kv_main_v91 (argsOf m c) :=
  (StableHlo.after_of_forall_not_mem (b := Proc.devRef .tc main_v91) _ _ (List.forall_iff_forall_mem.mp (by
      simp only [Gen.hostOps6_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at25_main_v91 m ρ c)

theorem at26_main_v79 (c : Dev nD) : Gen.W26 m ρ c (Proc.devRef .tc main_v79) = kv_main_v79 (argsOf m c) :=
  (StableHlo.after_of_forall_not_mem (b := Proc.devRef .tc main_v79) _ _ (List.forall_iff_forall_mem.mp (by
      simp only [Gen.hostOps6_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at25_main_v79 m ρ c)

theorem at26_main_arg12 (c : Dev nD) : Gen.W26 m ρ c (Proc.devRef .tc main_arg12) = (argsOf m c).x12 :=
  (StableHlo.after_of_forall_not_mem (b := Proc.devRef .tc main_arg12) _ _ (List.forall_iff_forall_mem.mp (by
      simp only [Gen.hostOps6_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at25_main_arg12 m ρ c)

theorem at26_main_arg13 (c : Dev nD) : Gen.W26 m ρ c (Proc.devRef .tc main_arg13) = (argsOf m c).x13 :=
  (StableHlo.after_of_forall_not_mem (b := Proc.devRef .tc main_arg13) _ _ (List.forall_iff_forall_mem.mp (by
      simp only [Gen.hostOps6_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at25_main_arg13 m ρ c)

theorem at26_main_arg14 (c : Dev nD) : Gen.W26 m ρ c (Proc.devRef .tc main_arg14) = (argsOf m c).x14 :=
  (StableHlo.after_of_forall_not_mem (b := Proc.devRef .tc main_arg14) _ _ (List.forall_iff_forall_mem.mp (by
      simp only [Gen.hostOps6_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at25_main_arg14 m ρ c)

theorem at26_main_arg15 (c : Dev nD) : Gen.W26 m ρ c (Proc.devRef .tc main_arg15) = (argsOf m c).x15 :=
  (StableHlo.after_of_forall_not_mem (b := Proc.devRef .tc main_arg15) _ _ (List.forall_iff_forall_mem.mp (by
      simp only [Gen.hostOps6_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at25_main_arg15 m ρ c)

theorem at26_main_arg16 (c : Dev nD) : Gen.W26 m ρ c (Proc.devRef .tc main_arg16) = (argsOf m c).x16 :=
  (StableHlo.after_of_forall_not_mem (b := Proc.devRef .tc main_arg16) _ _ (List.forall_iff_forall_mem.mp (by
      simp only [Gen.hostOps6_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at25_main_arg16 m ρ c)

theorem at26_main_arg17 (c : Dev nD) : Gen.W26 m ρ c (Proc.devRef .tc main_arg17) = (argsOf m c).x17 :=
  (StableHlo.after_of_forall_not_mem (b := Proc.devRef .tc main_arg17) _ _ (List.forall_iff_forall_mem.mp (by
      simp only [Gen.hostOps6_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at25_main_arg17 m ρ c)

theorem at26_main_v74 (c : Dev nD) : Gen.W26 m ρ c (Proc.devRef .tc main_v74) = kv_main_v74 (argsOf m c) :=
  (StableHlo.after_of_forall_not_mem (b := Proc.devRef .tc main_v74) _ _ (List.forall_iff_forall_mem.mp (by
      simp only [Gen.hostOps6_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at25_main_v74 m ρ c)

theorem at26_main_v76 (c : Dev nD) : Gen.W26 m ρ c (Proc.devRef .tc main_v76) = kv_main_v76 (argsOf m c) :=
  (StableHlo.after_of_forall_not_mem (b := Proc.devRef .tc main_v76) _ _ (List.forall_iff_forall_mem.mp (by
      simp only [Gen.hostOps6_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at25_main_v76 m ρ c)

theorem at26_main_v78 (c : Dev nD) : Gen.W26 m ρ c (Proc.devRef .tc main_v78) = kv_main_v78 (argsOf m c) :=
  (StableHlo.after_of_forall_not_mem (b := Proc.devRef .tc main_v78) _ _ (List.forall_iff_forall_mem.mp (by
      simp only [Gen.hostOps6_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at25_main_v78 m ρ c)

theorem at26_main_v69 (c : Dev nD) : Gen.W26 m ρ c (Proc.devRef .tc main_v69) = kv_main_v69 (argsOf m c) :=
  (StableHlo.after_of_forall_not_mem (b := Proc.devRef .tc main_v69) _ _ (List.forall_iff_forall_mem.mp (by
      simp only [Gen.hostOps6_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at25_main_v69 m ρ c)

/-! ## Boundary 27 -/

theorem at27_main_v167 (c : Dev nD) : Gen.W27 m ρ c (Proc.devRef .tc main_v167) = kv_main_v167 (argsOf m c) :=
  (KLoc.loc_main_v167 (Gen.W26 m ρ c)).trans (by rw [at26_main_arg14 m ρ c, at26_main_v74 m ρ c, at26_main_arg12 m ρ c, at26_main_arg13 m ρ c, at26_main_arg15 m ρ c]; rfl)

theorem at27_main_v136 (c : Dev nD) : Gen.W27 m ρ c (Proc.devRef .tc main_v136) = kv_main_v136 (argsOf m c) :=
  (KLoc.loc_main_v136 (Gen.W26 m ρ c)).trans (by rw [at26_main_arg16 m ρ c]; rfl)

theorem at27_main_v138 (c : Dev nD) : Gen.W27 m ρ c (Proc.devRef .tc main_v138) = kv_main_v138 (argsOf m c) :=
  (KLoc.loc_main_v138 (Gen.W26 m ρ c)).trans (by rw [at26_main_arg17 m ρ c]; rfl)

theorem at27_main_v126 (c : Dev nD) : Gen.W27 m ρ c (Proc.devRef .tc main_v126) = kv_main_v126 (argsOf m c) :=
  (KLoc.loc_main_v126 (Gen.W26 m ρ c)).trans (by rw [at26_main_v79 m ρ c, at26_main_v121 m ρ c, at26_main_v89 m ρ c, at26_main_v91 m ρ c]; rfl)

theorem at27_main_arg12 (c : Dev nD) : Gen.W27 m ρ c (Proc.devRef .tc main_arg12) = (argsOf m c).x12 :=
  (StableHlo.after_of_forall_not_mem (b := Proc.devRef .tc main_arg12) _ _ (List.forall_iff_forall_mem.mp (by
      simp only [Gen.hostOps6_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at26_main_arg12 m ρ c)

theorem at27_main_arg13 (c : Dev nD) : Gen.W27 m ρ c (Proc.devRef .tc main_arg13) = (argsOf m c).x13 :=
  (StableHlo.after_of_forall_not_mem (b := Proc.devRef .tc main_arg13) _ _ (List.forall_iff_forall_mem.mp (by
      simp only [Gen.hostOps6_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at26_main_arg13 m ρ c)

theorem at27_main_arg14 (c : Dev nD) : Gen.W27 m ρ c (Proc.devRef .tc main_arg14) = (argsOf m c).x14 :=
  (StableHlo.after_of_forall_not_mem (b := Proc.devRef .tc main_arg14) _ _ (List.forall_iff_forall_mem.mp (by
      simp only [Gen.hostOps6_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at26_main_arg14 m ρ c)

theorem at27_main_arg15 (c : Dev nD) : Gen.W27 m ρ c (Proc.devRef .tc main_arg15) = (argsOf m c).x15 :=
  (StableHlo.after_of_forall_not_mem (b := Proc.devRef .tc main_arg15) _ _ (List.forall_iff_forall_mem.mp (by
      simp only [Gen.hostOps6_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at26_main_arg15 m ρ c)

theorem at27_main_arg16 (c : Dev nD) : Gen.W27 m ρ c (Proc.devRef .tc main_arg16) = (argsOf m c).x16 :=
  (StableHlo.after_of_forall_not_mem (b := Proc.devRef .tc main_arg16) _ _ (List.forall_iff_forall_mem.mp (by
      simp only [Gen.hostOps6_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at26_main_arg16 m ρ c)

theorem at27_main_arg17 (c : Dev nD) : Gen.W27 m ρ c (Proc.devRef .tc main_arg17) = (argsOf m c).x17 :=
  (StableHlo.after_of_forall_not_mem (b := Proc.devRef .tc main_arg17) _ _ (List.forall_iff_forall_mem.mp (by
      simp only [Gen.hostOps6_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at26_main_arg17 m ρ c)

theorem at27_main_v76 (c : Dev nD) : Gen.W27 m ρ c (Proc.devRef .tc main_v76) = kv_main_v76 (argsOf m c) :=
  (StableHlo.after_of_forall_not_mem (b := Proc.devRef .tc main_v76) _ _ (List.forall_iff_forall_mem.mp (by
      simp only [Gen.hostOps6_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at26_main_v76 m ρ c)

theorem at27_main_v78 (c : Dev nD) : Gen.W27 m ρ c (Proc.devRef .tc main_v78) = kv_main_v78 (argsOf m c) :=
  (StableHlo.after_of_forall_not_mem (b := Proc.devRef .tc main_v78) _ _ (List.forall_iff_forall_mem.mp (by
      simp only [Gen.hostOps6_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at26_main_v78 m ρ c)

theorem at27_main_v69 (c : Dev nD) : Gen.W27 m ρ c (Proc.devRef .tc main_v69) = kv_main_v69 (argsOf m c) :=
  (StableHlo.after_of_forall_not_mem (b := Proc.devRef .tc main_v69) _ _ (List.forall_iff_forall_mem.mp (by
      simp only [Gen.hostOps6_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at26_main_v69 m ρ c)

/-! ## Boundary 28 -/

theorem at28_main_v168 (c : Dev nD) : Gen.W28 m ρ c (Proc.devRef .tc main_v168) = kv_main_v168 (argsOf m c) :=
  (KLoc.loc_main_v168 (Gen.W27 m ρ c)).trans (by rw [at27_main_v167 m ρ c]; rfl)

theorem at28_main_v136 (c : Dev nD) : Gen.W28 m ρ c (Proc.devRef .tc main_v136) = kv_main_v136 (argsOf m c) :=
  (StableHlo.after_of_forall_not_mem (b := Proc.devRef .tc main_v136) _ _ (List.forall_iff_forall_mem.mp (by
      simp only [Gen.hostOps6_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at27_main_v136 m ρ c)

theorem at28_main_v138 (c : Dev nD) : Gen.W28 m ρ c (Proc.devRef .tc main_v138) = kv_main_v138 (argsOf m c) :=
  (StableHlo.after_of_forall_not_mem (b := Proc.devRef .tc main_v138) _ _ (List.forall_iff_forall_mem.mp (by
      simp only [Gen.hostOps6_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at27_main_v138 m ρ c)

theorem at28_main_v126 (c : Dev nD) : Gen.W28 m ρ c (Proc.devRef .tc main_v126) = kv_main_v126 (argsOf m c) :=
  (StableHlo.after_of_forall_not_mem (b := Proc.devRef .tc main_v126) _ _ (List.forall_iff_forall_mem.mp (by
      simp only [Gen.hostOps6_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at27_main_v126 m ρ c)

theorem at28_main_arg12 (c : Dev nD) : Gen.W28 m ρ c (Proc.devRef .tc main_arg12) = (argsOf m c).x12 :=
  (StableHlo.after_of_forall_not_mem (b := Proc.devRef .tc main_arg12) _ _ (List.forall_iff_forall_mem.mp (by
      simp only [Gen.hostOps6_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at27_main_arg12 m ρ c)

theorem at28_main_arg13 (c : Dev nD) : Gen.W28 m ρ c (Proc.devRef .tc main_arg13) = (argsOf m c).x13 :=
  (StableHlo.after_of_forall_not_mem (b := Proc.devRef .tc main_arg13) _ _ (List.forall_iff_forall_mem.mp (by
      simp only [Gen.hostOps6_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at27_main_arg13 m ρ c)

theorem at28_main_arg14 (c : Dev nD) : Gen.W28 m ρ c (Proc.devRef .tc main_arg14) = (argsOf m c).x14 :=
  (StableHlo.after_of_forall_not_mem (b := Proc.devRef .tc main_arg14) _ _ (List.forall_iff_forall_mem.mp (by
      simp only [Gen.hostOps6_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at27_main_arg14 m ρ c)

theorem at28_main_arg15 (c : Dev nD) : Gen.W28 m ρ c (Proc.devRef .tc main_arg15) = (argsOf m c).x15 :=
  (StableHlo.after_of_forall_not_mem (b := Proc.devRef .tc main_arg15) _ _ (List.forall_iff_forall_mem.mp (by
      simp only [Gen.hostOps6_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at27_main_arg15 m ρ c)

theorem at28_main_arg16 (c : Dev nD) : Gen.W28 m ρ c (Proc.devRef .tc main_arg16) = (argsOf m c).x16 :=
  (StableHlo.after_of_forall_not_mem (b := Proc.devRef .tc main_arg16) _ _ (List.forall_iff_forall_mem.mp (by
      simp only [Gen.hostOps6_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at27_main_arg16 m ρ c)

theorem at28_main_arg17 (c : Dev nD) : Gen.W28 m ρ c (Proc.devRef .tc main_arg17) = (argsOf m c).x17 :=
  (StableHlo.after_of_forall_not_mem (b := Proc.devRef .tc main_arg17) _ _ (List.forall_iff_forall_mem.mp (by
      simp only [Gen.hostOps6_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at27_main_arg17 m ρ c)

theorem at28_main_v76 (c : Dev nD) : Gen.W28 m ρ c (Proc.devRef .tc main_v76) = kv_main_v76 (argsOf m c) :=
  (StableHlo.after_of_forall_not_mem (b := Proc.devRef .tc main_v76) _ _ (List.forall_iff_forall_mem.mp (by
      simp only [Gen.hostOps6_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at27_main_v76 m ρ c)

theorem at28_main_v78 (c : Dev nD) : Gen.W28 m ρ c (Proc.devRef .tc main_v78) = kv_main_v78 (argsOf m c) :=
  (StableHlo.after_of_forall_not_mem (b := Proc.devRef .tc main_v78) _ _ (List.forall_iff_forall_mem.mp (by
      simp only [Gen.hostOps6_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at27_main_v78 m ρ c)

theorem at28_main_v69 (c : Dev nD) : Gen.W28 m ρ c (Proc.devRef .tc main_v69) = kv_main_v69 (argsOf m c) :=
  (StableHlo.after_of_forall_not_mem (b := Proc.devRef .tc main_v69) _ _ (List.forall_iff_forall_mem.mp (by
      simp only [Gen.hostOps6_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at27_main_v69 m ρ c)

/-! ## Boundary 29 -/

theorem at29_main_v214 (c : Dev nD) : Gen.W29 m ρ c (Proc.devRef .tc main_v214) = kv_main_v214 (argsOf m c) :=
  (KLoc.loc_main_v214 (Gen.W28 m ρ c)).trans (by rw [at28_main_arg14 m ρ c, at28_main_v76 m ρ c, at28_main_arg12 m ρ c, at28_main_arg13 m ρ c, at28_main_arg15 m ρ c]; rfl)

theorem at29_main_v183 (c : Dev nD) : Gen.W29 m ρ c (Proc.devRef .tc main_v183) = kv_main_v183 (argsOf m c) :=
  (KLoc.loc_main_v183 (Gen.W28 m ρ c)).trans (by rw [at28_main_arg16 m ρ c]; rfl)

theorem at29_main_v185 (c : Dev nD) : Gen.W29 m ρ c (Proc.devRef .tc main_v185) = kv_main_v185 (argsOf m c) :=
  (KLoc.loc_main_v185 (Gen.W28 m ρ c)).trans (by rw [at28_main_arg17 m ρ c]; rfl)

theorem at29_main_v173 (c : Dev nD) : Gen.W29 m ρ c (Proc.devRef .tc main_v173) = kv_main_v173 (argsOf m c) :=
  (KLoc.loc_main_v173 (Gen.W28 m ρ c)).trans (by rw [at28_main_v126 m ρ c, at28_main_v168 m ρ c, at28_main_v136 m ρ c, at28_main_v138 m ρ c]; rfl)

theorem at29_main_arg12 (c : Dev nD) : Gen.W29 m ρ c (Proc.devRef .tc main_arg12) = (argsOf m c).x12 :=
  (StableHlo.after_of_forall_not_mem (b := Proc.devRef .tc main_arg12) _ _ (List.forall_iff_forall_mem.mp (by
      simp only [Gen.hostOps6_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at28_main_arg12 m ρ c)

theorem at29_main_arg13 (c : Dev nD) : Gen.W29 m ρ c (Proc.devRef .tc main_arg13) = (argsOf m c).x13 :=
  (StableHlo.after_of_forall_not_mem (b := Proc.devRef .tc main_arg13) _ _ (List.forall_iff_forall_mem.mp (by
      simp only [Gen.hostOps6_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at28_main_arg13 m ρ c)

theorem at29_main_arg14 (c : Dev nD) : Gen.W29 m ρ c (Proc.devRef .tc main_arg14) = (argsOf m c).x14 :=
  (StableHlo.after_of_forall_not_mem (b := Proc.devRef .tc main_arg14) _ _ (List.forall_iff_forall_mem.mp (by
      simp only [Gen.hostOps6_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at28_main_arg14 m ρ c)

theorem at29_main_arg15 (c : Dev nD) : Gen.W29 m ρ c (Proc.devRef .tc main_arg15) = (argsOf m c).x15 :=
  (StableHlo.after_of_forall_not_mem (b := Proc.devRef .tc main_arg15) _ _ (List.forall_iff_forall_mem.mp (by
      simp only [Gen.hostOps6_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at28_main_arg15 m ρ c)

theorem at29_main_arg16 (c : Dev nD) : Gen.W29 m ρ c (Proc.devRef .tc main_arg16) = (argsOf m c).x16 :=
  (StableHlo.after_of_forall_not_mem (b := Proc.devRef .tc main_arg16) _ _ (List.forall_iff_forall_mem.mp (by
      simp only [Gen.hostOps6_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at28_main_arg16 m ρ c)

theorem at29_main_arg17 (c : Dev nD) : Gen.W29 m ρ c (Proc.devRef .tc main_arg17) = (argsOf m c).x17 :=
  (StableHlo.after_of_forall_not_mem (b := Proc.devRef .tc main_arg17) _ _ (List.forall_iff_forall_mem.mp (by
      simp only [Gen.hostOps6_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at28_main_arg17 m ρ c)

theorem at29_main_v78 (c : Dev nD) : Gen.W29 m ρ c (Proc.devRef .tc main_v78) = kv_main_v78 (argsOf m c) :=
  (StableHlo.after_of_forall_not_mem (b := Proc.devRef .tc main_v78) _ _ (List.forall_iff_forall_mem.mp (by
      simp only [Gen.hostOps6_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at28_main_v78 m ρ c)

theorem at29_main_v69 (c : Dev nD) : Gen.W29 m ρ c (Proc.devRef .tc main_v69) = kv_main_v69 (argsOf m c) :=
  (StableHlo.after_of_forall_not_mem (b := Proc.devRef .tc main_v69) _ _ (List.forall_iff_forall_mem.mp (by
      simp only [Gen.hostOps6_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at28_main_v69 m ρ c)

end Cert.KernelIdeal.KChain

end
-- ==== Proof.KChainG.lean ====
/- Written by a script (invocation: bun $KIT/certs/proofs/103117_j70961449664567_2_alg/scratch/gen_kval.js $KIT/certs/proofs/103117_j70961449664567_2_alg): a table of cases, one per value of the kernel program that is still read at a
   later boundary of its run and per boundary — the buffer holds the value's definition (module KVal) of the argument arrays there: where the
   value is computed, by the operations' results; elsewhere, because nothing writes the buffer. -/
import proofs.«103117_j70961449664567_2_alg».proof.Proof.Gen.KernelIdeal.Frame
import proofs.«103117_j70961449664567_2_alg».proof.Proof.KLoc
import proofs.«103117_j70961449664567_2_alg».proof.Proof.KChainF

set_option maxRecDepth 16384

noncomputable section

namespace Cert.KernelIdeal.KChain

open Cert.KernelIdeal Cert.KernelIdeal.KVal Idealize.ShloMosaic Idealize.ShloMosaic.TcCoe Idealize.SL.Sem Idealize.ShloMosaic.StableHlo

variable (m : (ℓ : Loc nD τ sig) → Buf (Elt Ideal) ℓ) (ρ : Dev nD → PrngReg)

/-! ## Boundary 30 -/

theorem at30_main_v215 (c : Dev nD) : Gen.W30 m ρ c (Proc.devRef .tc main_v215) = kv_main_v215 (argsOf m c) :=
  (KLoc.loc_main_v215 (Gen.W29 m ρ c)).trans (by rw [at29_main_v214 m ρ c]; rfl)

theorem at30_main_v183 (c : Dev nD) : Gen.W30 m ρ c (Proc.devRef .tc main_v183) = kv_main_v183 (argsOf m c) :=
  (StableHlo.after_of_forall_not_mem (b := Proc.devRef .tc main_v183) _ _ (List.forall_iff_forall_mem.mp (by
      simp only [Gen.hostOps6_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at29_main_v183 m ρ c)

theorem at30_main_v185 (c : Dev nD) : Gen.W30 m ρ c (Proc.devRef .tc main_v185) = kv_main_v185 (argsOf m c) :=
  (StableHlo.after_of_forall_not_mem (b := Proc.devRef .tc main_v185) _ _ (List.forall_iff_forall_mem.mp (by
      simp only [Gen.hostOps6_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at29_main_v185 m ρ c)

theorem at30_main_v173 (c : Dev nD) : Gen.W30 m ρ c (Proc.devRef .tc main_v173) = kv_main_v173 (argsOf m c) :=
  (StableHlo.after_of_forall_not_mem (b := Proc.devRef .tc main_v173) _ _ (List.forall_iff_forall_mem.mp (by
      simp only [Gen.hostOps6_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at29_main_v173 m ρ c)

theorem at30_main_arg12 (c : Dev nD) : Gen.W30 m ρ c (Proc.devRef .tc main_arg12) = (argsOf m c).x12 :=
  (StableHlo.after_of_forall_not_mem (b := Proc.devRef .tc main_arg12) _ _ (List.forall_iff_forall_mem.mp (by
      simp only [Gen.hostOps6_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at29_main_arg12 m ρ c)

theorem at30_main_arg13 (c : Dev nD) : Gen.W30 m ρ c (Proc.devRef .tc main_arg13) = (argsOf m c).x13 :=
  (StableHlo.after_of_forall_not_mem (b := Proc.devRef .tc main_arg13) _ _ (List.forall_iff_forall_mem.mp (by
      simp only [Gen.hostOps6_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at29_main_arg13 m ρ c)

theorem at30_main_arg14 (c : Dev nD) : Gen.W30 m ρ c (Proc.devRef .tc main_arg14) = (argsOf m c).x14 :=
  (StableHlo.after_of_forall_not_mem (b := Proc.devRef .tc main_arg14) _ _ (List.forall_iff_forall_mem.mp (by
      simp only [Gen.hostOps6_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at29_main_arg14 m ρ c)

theorem at30_main_arg15 (c : Dev nD) : Gen.W30 m ρ c (Proc.devRef .tc main_arg15) = (argsOf m c).x15 :=
  (StableHlo.after_of_forall_not_mem (b := Proc.devRef .tc main_arg15) _ _ (List.forall_iff_forall_mem.mp (by
      simp only [Gen.hostOps6_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at29_main_arg15 m ρ c)

theorem at30_main_arg16 (c : Dev nD) : Gen.W30 m ρ c (Proc.devRef .tc main_arg16) = (argsOf m c).x16 :=
  (StableHlo.after_of_forall_not_mem (b := Proc.devRef .tc main_arg16) _ _ (List.forall_iff_forall_mem.mp (by
      simp only [Gen.hostOps6_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at29_main_arg16 m ρ c)

theorem at30_main_arg17 (c : Dev nD) : Gen.W30 m ρ c (Proc.devRef .tc main_arg17) = (argsOf m c).x17 :=
  (StableHlo.after_of_forall_not_mem (b := Proc.devRef .tc main_arg17) _ _ (List.forall_iff_forall_mem.mp (by
      simp only [Gen.hostOps6_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at29_main_arg17 m ρ c)

theorem at30_main_v78 (c : Dev nD) : Gen.W30 m ρ c (Proc.devRef .tc main_v78) = kv_main_v78 (argsOf m c) :=
  (StableHlo.after_of_forall_not_mem (b := Proc.devRef .tc main_v78) _ _ (List.forall_iff_forall_mem.mp (by
      simp only [Gen.hostOps6_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at29_main_v78 m ρ c)

theorem at30_main_v69 (c : Dev nD) : Gen.W30 m ρ c (Proc.devRef .tc main_v69) = kv_main_v69 (argsOf m c) :=
  (StableHlo.after_of_forall_not_mem (b := Proc.devRef .tc main_v69) _ _ (List.forall_iff_forall_mem.mp (by
      simp only [Gen.hostOps6_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at29_main_v69 m ρ c)

/-! ## Boundary 31 -/

theorem at31_main_v261 (c : Dev nD) : Gen.W31 m ρ c (Proc.devRef .tc main_v261) = kv_main_v261 (argsOf m c) :=
  (KLoc.loc_main_v261 (Gen.W30 m ρ c)).trans (by rw [at30_main_arg14 m ρ c, at30_main_v78 m ρ c, at30_main_arg12 m ρ c, at30_main_arg13 m ρ c, at30_main_arg15 m ρ c]; rfl)

theorem at31_main_v230 (c : Dev nD) : Gen.W31 m ρ c (Proc.devRef .tc main_v230) = kv_main_v230 (argsOf m c) :=
  (KLoc.loc_main_v230 (Gen.W30 m ρ c)).trans (by rw [at30_main_arg16 m ρ c]; rfl)

theorem at31_main_v232 (c : Dev nD) : Gen.W31 m ρ c (Proc.devRef .tc main_v232) = kv_main_v232 (argsOf m c) :=
  (KLoc.loc_main_v232 (Gen.W30 m ρ c)).trans (by rw [at30_main_arg17 m ρ c]; rfl)

theorem at31_main_v220 (c : Dev nD) : Gen.W31 m ρ c (Proc.devRef .tc main_v220) = kv_main_v220 (argsOf m c) :=
  (KLoc.loc_main_v220 (Gen.W30 m ρ c)).trans (by rw [at30_main_v173 m ρ c, at30_main_v215 m ρ c, at30_main_v183 m ρ c, at30_main_v185 m ρ c]; rfl)

theorem at31_main_v69 (c : Dev nD) : Gen.W31 m ρ c (Proc.devRef .tc main_v69) = kv_main_v69 (argsOf m c) :=
  (StableHlo.after_of_forall_not_mem (b := Proc.devRef .tc main_v69) _ _ (List.forall_iff_forall_mem.mp (by
      simp only [Gen.hostOps6_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at30_main_v69 m ρ c)

/-! ## Boundary 32 -/

theorem at32_main_v262 (c : Dev nD) : Gen.W32 m ρ c (Proc.devRef .tc main_v262) = kv_main_v262 (argsOf m c) :=
  (KLoc.loc_main_v262 (Gen.W31 m ρ c)).trans (by rw [at31_main_v261 m ρ c]; rfl)

theorem at32_main_v230 (c : Dev nD) : Gen.W32 m ρ c (Proc.devRef .tc main_v230) = kv_main_v230 (argsOf m c) :=
  (StableHlo.after_of_forall_not_mem (b := Proc.devRef .tc main_v230) _ _ (List.forall_iff_forall_mem.mp (by
      simp only [Gen.hostOps6_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at31_main_v230 m ρ c)

theorem at32_main_v232 (c : Dev nD) : Gen.W32 m ρ c (Proc.devRef .tc main_v232) = kv_main_v232 (argsOf m c) :=
  (StableHlo.after_of_forall_not_mem (b := Proc.devRef .tc main_v232) _ _ (List.forall_iff_forall_mem.mp (by
      simp only [Gen.hostOps6_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at31_main_v232 m ρ c)

theorem at32_main_v220 (c : Dev nD) : Gen.W32 m ρ c (Proc.devRef .tc main_v220) = kv_main_v220 (argsOf m c) :=
  (StableHlo.after_of_forall_not_mem (b := Proc.devRef .tc main_v220) _ _ (List.forall_iff_forall_mem.mp (by
      simp only [Gen.hostOps6_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at31_main_v220 m ρ c)

theorem at32_main_v69 (c : Dev nD) : Gen.W32 m ρ c (Proc.devRef .tc main_v69) = kv_main_v69 (argsOf m c) :=
  (StableHlo.after_of_forall_not_mem (b := Proc.devRef .tc main_v69) _ _ (List.forall_iff_forall_mem.mp (by
      simp only [Gen.hostOps6_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at31_main_v69 m ρ c)

/-! ## Boundary 33 -/

theorem at33_main_v268 (c : Dev nD) : Gen.W33 m ρ c (Proc.devRef .tc main_v268) = kv_main_v268 (argsOf m c) :=
  (KLoc.loc_main_v268 (Gen.W32 m ρ c)).trans (by rw [at32_main_v69 m ρ c, at32_main_v220 m ρ c, at32_main_v262 m ρ c, at32_main_v230 m ρ c, at32_main_v232 m ρ c]; rfl)

end Cert.KernelIdeal.KChain

end
-- ==== Proof.LibGcnAgg.lean ====
/-
  One symmetric-normalised neighbour aggregation on the extended reals, over a graph of `N` nodes and `E` edges
  given as two columns of start-index words (sources, destinations) and `F` features per node.

  With `deg n = 1 + #{edges landing on n}` and `dinv = deg^(-1/2)`, the aggregate of a feature array `X` at node `n` is
      ∑_{e → n} X(src e) · dinv(src e) · dinv(n)   +   X(n) / deg(n).
  Two arrangements compute it.  One scales the rows of `X` by `dinv` first, sums the scaled source rows over the
  edges landing on `n`, scales the sum by `dinv(n)` and adds `X(n) · dinv(n)²` (`aggRows`).  The other multiplies every
  edge's source row by the edge weight `dinv(src e) · dinv(dst e)`, sums those, and adds `X(n) · (1 / deg(n))`
  (`aggEdges`).  They agree on every extended-real `X`: `deg(n)` is a real number `≥ 1` whatever the index words are
  (one plus a count), so `dinv(n)` is a non-negative real, and multiplication by a non-negative real distributes over
  any sum of extended reals; an edge that lands on `n` has destination word `n`, so the clamped read `dinv(dst e)` is
  `dinv(n)`; and `deg^(-1/2) · deg^(-1/2) = 1 / deg` for a positive real.  Edges whose destination word is out of range
  land nowhere in both arrangements; source words are clamped into range by both in the same way.

  The first part reads the dimension numbers of the row gather, the vector gather and the row scatter at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.GcnAgg

open Idealize.ShloMosaic Idealize.ShloMosaic.ValueIdx

/-! ## The dimension numbers read at an index -/

/-- The row a start-index word names once clamped into `[0, N − 1]` (the word read as a signed integer). -/
def clampRow (N : ℕ) (hN : 0 < N) {w : ℕ} (x : BitVec w) : Fin N := ⟨min x.toInt.toNat (N - 1), by omega⟩

/-- A word that, read signed, is the in-range row `n` clamps to `n`. -/
theorem clampRow_of_toInt {N : ℕ} (hN : 0 < N) {w : ℕ} (x : BitVec w) (n : Fin N) (h : x.toInt = (n.val : ℤ)) :
    clampRow N hN x = n := by
  apply Fin.ext
  show min x.toInt.toNat (N - 1) = n.val
  have := n.isLt
  rw [h, Int.toNat_natCast]
  omega

/-- Gathering whole rows of an `[N, F]` array at a column of `E` start indices: entry `(e, f)` of the result reads
    the operand at row `clamp (idx e)`, column `f`. -/
theorem gatherRows_operandIdx {N E F w : ℕ} (hN : 0 < N) (d : GatherDims ⟨2, ![N, F]⟩ ⟨2, ![E, 1]⟩ ⟨2, ![E, F]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, F]) (idx : IVec ⟨2, ![E, 1]⟩ w) (e : Fin E) (f : Fin F) :
    d.operandIdx (ix2 e f) idx = ix2 (clampRow N hN (idx (ix2 e (0 : Fin 1)))) f := by
  obtain ⟨od, cd, ob, sb, sm, iv, ss, wf⟩ := d
  dsimp only at h1 h2 h3 h4 h5 h6 h7
  subst h1 h2 h3 h4 h5 h6 h7
  generalize hD : (⟨[1], [0], [], [], [0], 1, ![1, F], wf⟩ : GatherDims ⟨2, ![N, F]⟩ ⟨2, ![E, 1]⟩ ⟨2, ![E, F]⟩) = d
  have hob : d.operandBatchingDims = [] := by subst hD; rfl
  have hcd : d.collapsedSliceDims = [0] := by subst hD; rfl
  have hsm : d.startIndexMap = [0] := by subst hD; rfl
  funext a
  apply Fin.ext
  show d.start (ix2 e f) idx a + d.batchCoord (ix2 e f) a + d.offCoord (ix2 e f) a = _
  rw [GatherDims.batchCoord_eq_zero _ _ _ (by rw [hob]; exact List.not_mem_nil), Nat.add_zero]
  match a with
  | ⟨0, h0⟩ =>
    rw [GatherDims.offCoord_eq_zero _ _ _ (fun h => ((GatherDims.mem_sKept _ _).mp h).1 (by rw [hcd]; exact List.mem_singleton.mpr rfl)), Nat.add_zero]
    have hmem : (⟨0, h0⟩ : Fin 2) ∈ d.startIndexMap := by rw [hsm]; exact List.mem_singleton.mpr rfl
    unfold GatherDims.start
    rw [dif_pos hmem]
    have hsi : d.siIdx (ix2 e f) ⟨d.startIndexMap.idxOf (⟨0, h0⟩ : Fin 2), List.idxOf_lt_length_iff.2 hmem⟩ = ix2 e (0 : Fin 1) := by
      subst hD
      funext b; refine Fin.ext ?_
      match b with
      | ⟨0, _⟩ => rfl
      | ⟨1, _⟩ => rfl
    rw [hsi]
    subst hD
    rfl
  | ⟨1, h1⟩ =>
    have e10 : (⟨1, h1⟩ : Fin 2) ≠ 0 := fun h => Nat.one_ne_zero (congrArg Fin.val h)
    have hnm : (⟨1, h1⟩ : Fin 2) ∉ d.startIndexMap := by rw [hsm]; exact fun h => e10 (List.mem_singleton.mp h)
    have hst : d.start (ix2 e f) idx ⟨1, h1⟩ = 0 := by unfold GatherDims.start; rw [dif_neg hnm]
    rw [hst, Nat.zero_add]
    have hk : (⟨1, h1⟩ : Fin 2) ∈ d.sKept :=
      (GatherDims.mem_sKept _ _).mpr ⟨by rw [hcd]; exact fun h => e10 (List.mem_singleton.mp h), by rw [hob]; exact List.not_mem_nil⟩
    unfold GatherDims.offCoord
    rw [dif_pos hk]
    subst hD
    rfl

/-- Gathering entries of an `[N]` vector at a column of `E` start indices: entry `e` reads the operand at
    `clamp (idx e)`. -/
theorem gatherVec_operandIdx {N E w : ℕ} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (idx : IVec ⟨2, ![E, 1]⟩ w) (e : Fin E) :
    d.operandIdx (ix1 e) idx = ix1 (clampRow N hN (idx (ix2 e (0 : Fin 1)))) := by
  obtain ⟨od, cd, ob, sb, sm, iv, ss, wf⟩ := d
  dsimp only at h1 h2 h3 h4 h5 h6 h7
  subst h1 h2 h3 h4 h5 h6 h7
  generalize hD : (⟨[], [0], [], [], [0], 1, ![1], wf⟩ : GatherDims ⟨1, ![N]⟩ ⟨2, ![E, 1]⟩ ⟨1, ![E]⟩) = d
  have hob : d.operandBatchingDims = [] := by subst hD; rfl
  have hcd : d.collapsedSliceDims = [0] := by subst hD; rfl
  have hsm : d.startIndexMap = [0] := by subst hD; rfl
  funext a
  apply Fin.ext
  show d.start (ix1 e) idx a + d.batchCoord (ix1 e) a + d.offCoord (ix1 e) a = _
  rw [GatherDims.batchCoord_eq_zero _ _ _ (by rw [hob]; exact List.not_mem_nil), Nat.add_zero]
  match a with
  | ⟨0, h0⟩ =>
    rw [GatherDims.offCoord_eq_zero _ _ _ (fun h => ((GatherDims.mem_sKept _ _).mp h).1 (by rw [hcd]; exact List.mem_singleton.mpr rfl)), Nat.add_zero]
    have hmem : (⟨0, h0⟩ : Fin 1) ∈ d.startIndexMap := by rw [hsm]; exact List.mem_singleton.mpr rfl
    unfold GatherDims.start
    rw [dif_pos hmem]
    have hsi : d.siIdx (ix1 e) ⟨d.startIndexMap.idxOf (⟨0, h0⟩ : Fin 1), List.idxOf_lt_length_iff.2 hmem⟩ = ix2 e (0 : Fin 1) := by
      subst hD
      funext b; refine Fin.ext ?_
      match b with
      | ⟨0, _⟩ => rfl
      | ⟨1, _⟩ => rfl
    rw [hsi]
    subst hD
    rfl

/-- Scattering rows of an `[E, F]` update array into an `[N, F]` operand at a column of `E` start indices: if update
    entry `(e, f')` lands on operand entry `i`, the start word of edge `e`, read signed, is `i`'s row and `f'` is `i`'s
    column. -/
theorem scatterRows_resultIdx {N E F w : ℕ} (d : ScatterDims ⟨2, ![N, F]⟩ ⟨2, ![E, 1]⟩ ⟨2, ![E, F]⟩)
    (h1 : d.updateWindowDims = [1]) (h2 : d.insertedWindowDims = [0]) (h3 : d.scatterDimsToOperandDims = [0])
    (h4 : d.indexVectorDim = 1) (idx : IVec ⟨2, ![E, 1]⟩ w) (e : Fin E) (f' : Fin F)
    (i : (⟨2, ![N, F]⟩ : Shape).Idx) (h : d.resultIdx? (ix2 e f') idx = some i) :
    (idx (ix2 e (0 : Fin 1))).toInt = ((i 0).val : ℤ) ∧ f'.val = (i 1).val := by
  obtain ⟨uw, iw, sd, iv, wf⟩ := d
  dsimp only at h1 h2 h3 h4
  subst h1 h2 h3 h4
  generalize hD : (⟨[1], [0], [0], 1, wf⟩ : ScatterDims ⟨2, ![N, F]⟩ ⟨2, ![E, 1]⟩ ⟨2, ![E, F]⟩) = d at h
  have hsd : d.scatterDimsToOperandDims = [0] := by subst hD; rfl
  have hiw : d.insertedWindowDims = [0] := by subst hD; rfl
  have e10 : (1 : Fin 2) ≠ 0 := fun h => Nat.one_ne_zero (congrArg Fin.val h)
  have hs0 : d.start (ix2 e f') idx (0 : Fin 2) = (idx (ix2 e (0 : Fin 1))).toInt := by
    have hmem : (0 : Fin 2) ∈ d.scatterDimsToOperandDims := by rw [hsd]; exact List.mem_singleton.mpr rfl
    unfold ScatterDims.start
    rw [dif_pos hmem]
    have hsi : d.siIdx (ix2 e f') ⟨d.scatterDimsToOperandDims.idxOf (0 : Fin 2), List.idxOf_lt_length_iff.2 hmem⟩ = ix2 e (0 : Fin 1) := by
      subst hD
      funext b; refine Fin.ext ?_
      match b with
      | ⟨0, _⟩ => rfl
      | ⟨1, _⟩ => rfl
    rw [hsi]
  have hs1 : d.start (ix2 e f') idx (1 : Fin 2) = 0 := by
    unfold ScatterDims.start
    rw [dif_neg (by rw [hsd]; exact fun h => e10 (List.mem_singleton.mp h))]
  have hk0 : (0 : Fin 2) ∉ d.sKept := by
    show (0 : Fin 2) ∉ Shape.kept _ d.insertedWindowDims
    rw [hiw]; simp [Shape.kept]
  have hk1 : (1 : Fin 2) ∈ d.sKept := by
    show (1 : Fin 2) ∈ Shape.kept _ d.insertedWindowDims
    rw [hiw]; simp [Shape.kept, List.mem_filter, List.mem_finRange]
  have hw0 : d.window (ix2 e f') (0 : Fin 2) = 0 := by
    unfold ScatterDims.window
    rw [dif_neg hk0]
  have hw1 : d.window (ix2 e f') (1 : Fin 2) = f'.val := by
    unfold ScatterDims.window
    rw [dif_pos hk1]
    subst hD
    rfl
  unfold ScatterDims.resultIdx? at h
  split at h
  · rename_i hc
    have hi := Option.some.inj h
    have g0 := congrArg (fun g : (⟨2, ![N, F]⟩ : Shape).Idx => (g 0).val) hi
    have g1 := congrArg (fun g : (⟨2, ![N, F]⟩ : Shape).Idx => (g 1).val) hi
    dsimp only at g0 g1
    have c0 := hc 0
    have c1 := hc 1
    rw [hs0, hw0] at g0 c0
    rw [hs1, hw1] at g1 c1
    constructor <;> omega
  · exact absurd h (by simp)

/-! ## Sums of extended reals -/

/-- A non-negative real factor goes into any finite sum of extended reals. -/
theorem sum_mul_real {ι : Type} (s : Finset ι) (a : ι → EReal) (r : ℝ) (hr : 0 ≤ r) :
    (∑ j ∈ s, a j) * (r : EReal) = ∑ j ∈ s, a j * (r : EReal) := by
  classical
  induction s using Finset.induction_on with
  | empty => simp
  | insert x s hx ih =>
    rw [Finset.sum_insert hx, Finset.sum_insert hx,
      EReal.right_distrib_of_nonneg_of_ne_top (EReal.coe_nonneg.mpr hr) (EReal.coe_ne_top r), ih]

/-- A sum of ones over a finite set is a non-negative real. -/
theorem sum_one_real {ι : Type} (s : Finset ι) (c : ι → EReal) (hc : ∀ j, c j = 1) :
    ∃ r : ℝ, 0 ≤ r ∧ ∑ j ∈ s, c j = (r : EReal) := by
  classical
  induction s using Finset.induction_on with
  | empty => exact ⟨0, le_refl _, by simp⟩
  | insert x s hx ih =>
    obtain ⟨r, hr, e⟩ := ih
    refine ⟨1 + r, by linarith, ?_⟩
    rw [Finset.sum_insert hx, e, hc x, EReal.coe_add, EReal.coe_one]

/-- `deg^(-1/2) · deg^(-1/2) = 1 / deg` for a positive real `deg`, as the extended-real operations compute them. -/
theorem rsqrt_mul_self {r : ℝ} (hr : 0 < r) :
    Ideal.rsqrt (r : EReal) * Ideal.rsqrt (r : EReal) = Ideal.div 1 (r : EReal) := by
  rw [Ideal.rsqrt_coe, if_neg (not_lt.mpr hr.le), if_neg hr.ne', Ideal.div_coe hr.ne', one_mul, ← EReal.coe_mul]
  congr 1
  rw [← mul_inv, Real.mul_self_sqrt hr.le, one_div]

/-- `deg^(-1/2)` of a positive real is a non-negative real. -/
theorem rsqrt_real {r : ℝ} (hr : 0 < r) : ∃ q : ℝ, 0 ≤ q ∧ Ideal.rsqrt (r : EReal) = (q : EReal) :=
  ⟨(Real.sqrt r)⁻¹, inv_nonneg.mpr (Real.sqrt_nonneg r), by rw [Ideal.rsqrt_coe, if_neg (not_lt.mpr hr.le), if_neg hr.ne']⟩

/-! ## Layout operations read at an index -/

/-- A vector broadcast along the rows of an `[A, B]` array (through a column `[A, 1]`) reads, at `(a, b)`, the
    vector at `a`. -/
theorem bcastRows_apply {α : Type} {A B : ℕ} (h1 : (⟨1, ![A]⟩ : Shape).BroadcastsInDim ⟨2, ![A, 1]⟩ ![0])
    (h2 : (⟨2, ![A, 1]⟩ : Shape).BroadcastsInDim ⟨2, ![A, B]⟩ ![0, 1]) (v : (⟨1, ![A]⟩ : Shape).Idx → α) (a : Fin A) (b : Fin B) :
    broadcastInDim ⟨2, ![A, B]⟩ ![0, 1] h2 (broadcastInDim ⟨2, ![A, 1]⟩ ![0] h1 v) (ix2 a b) = v (ix1 a) := by
  rw [broadcastInDim_apply ![0, 1] h2 _ (ix2 a b) (ix2 a (0 : Fin 1)) (fun ax => by
        match ax with
        | ⟨0, _⟩ =>
          show a.val = if A = 1 then 0 else a.val
          split
          · have := a.isLt; omega
          · rfl
        | ⟨1, _⟩ => rfl),
    broadcastInDim_apply ![0] h1 v (ix2 a (0 : Fin 1)) (ix1 a) (fun ax => by
        match ax with
        | ⟨0, _⟩ =>
          show a.val = if A = 1 then 0 else a.val
          split
          · have := a.isLt; omega
          · rfl)]

/-- A scalar broadcast to any shape reads the scalar everywhere. -/
theorem bcastScalar_apply {α : Type} {T : Shape} (h0 : (⟨0, ![]⟩ : Shape).BroadcastsInDim T ![])
    (v : (⟨0, ![]⟩ : Shape).Idx → α) (i : T.Idx) : broadcastInDim T ![] h0 v i = v ix0 :=
  broadcastInDim_apply ![] h0 v i ix0 (fun a => a.elim0)

/-- The single-precision word of one denotes `1`. -/
theorem ofBits_one : Ideal.ofBits .f32 0x3F800000#32 = 1 := by
  simp [Ideal.ofBits, Ideal.ieee, -EReal.coe_mul]; norm_num

/-! ## The two arrangements -/

section Agg

variable {N E F : ℕ}

/-- One plus the number of edges landing on each node: ones scattered, with addition, onto ones. -/
def degOf (sc1 : ScatterDims ⟨1, ![N]⟩ ⟨2, ![E, 1]⟩ ⟨1, ![E]⟩)
    (hn0 : (⟨0, ![]⟩ : Shape).BroadcastsInDim ⟨1, ![N]⟩ ![]) (he0 : (⟨0, ![]⟩ : Shape).BroadcastsInDim ⟨1, ![E]⟩ ![])
    (dstI : IVec ⟨2, ![E, 1]⟩ 32) : FVec Ideal ⟨1, ![N]⟩ .f32 :=
  Host.scatterAdd sc1 (broadcastInDim ⟨1, ![N]⟩ ![] hn0 (constant (F := Ideal) ⟨0, ![]⟩ .f32 0x3F800000#32)) dstI (broadcastInDim ⟨1, ![E]⟩ ![] he0 (constant (F := Ideal) ⟨0, ![]⟩ .f32 0x3F800000#32))

/-- Every degree is a real number at least one. -/
theorem degOf_real (sc1 : ScatterDims ⟨1, ![N]⟩ ⟨2, ![E, 1]⟩ ⟨1, ![E]⟩)
    (hn0 : (⟨0, ![]⟩ : Shape).BroadcastsInDim ⟨1, ![N]⟩ ![]) (he0 : (⟨0, ![]⟩ : Shape).BroadcastsInDim ⟨1, ![E]⟩ ![])
    (dstI : IVec ⟨2, ![E, 1]⟩ 32) (n : Fin N) :
    ∃ r : ℝ, 1 ≤ r ∧ degOf sc1 hn0 he0 dstI (ix1 n) = (r : EReal) := by
  obtain ⟨r, hr, e⟩ := sum_one_real (Finset.univ.filter (fun j : (⟨1, ![E]⟩ : Shape).Idx => sc1.resultIdx? j dstI = some (ix1 n)))
    (broadcastInDim ⟨1, ![E]⟩ ![] he0 (constant (F := Ideal) ⟨0, ![]⟩ .f32 0x3F800000#32)) (fun j => by
      rw [bcastScalar_apply]
      exact ofBits_one)
  refine ⟨1 + r, by linarith, ?_⟩
  show (broadcastInDim ⟨1, ![N]⟩ ![] hn0 (constant (F := Ideal) ⟨0, ![]⟩ .f32 0x3F800000#32)) (ix1 n) + ∑ j ∈ Finset.univ.filter (fun j : (⟨1, ![E]⟩ : Shape).Idx => sc1.resultIdx? j dstI = some (ix1 n)), (broadcastInDim ⟨1, ![E]⟩ ![] he0 (constant (F := Ideal) ⟨0, ![]⟩ .f32 0x3F800000#32)) j = _
  rw [e, bcastScalar_apply, EReal.coe_add, EReal.coe_one]
  exact congrArg (· + (r : EReal)) ofBits_one

/-- Rows scaled first: scale the rows of `xw` by `dinv`, sum the scaled source rows over the edges landing on each
    node, scale by `dinv` again, add `xw` scaled by `dinv2`. -/
def aggRows (sc : ScatterDims ⟨2, ![N, F]⟩ ⟨2, ![E, 1]⟩ ⟨2, ![E, F]⟩) (g : GatherDims ⟨2, ![N, F]⟩ ⟨2, ![E, 1]⟩ ⟨2, ![E, F]⟩)
    (hb1 : (⟨1, ![N]⟩ : Shape).BroadcastsInDim ⟨2, ![N, 1]⟩ ![0]) (hb2 : (⟨2, ![N, 1]⟩ : Shape).BroadcastsInDim ⟨2, ![N, F]⟩ ![0, 1])
    (hb0 : (⟨0, ![]⟩ : Shape).BroadcastsInDim ⟨2, ![N, F]⟩ ![])
    (srcI dstI : IVec ⟨2, ![E, 1]⟩ 32) (dinv dinv2 : FVec Ideal ⟨1, ![N]⟩ .f32) (xw : FVec Ideal ⟨2, ![N, F]⟩ .f32) :
    FVec Ideal ⟨2, ![N, F]⟩ .f32 :=
  addf (mulf (Host.scatterAdd sc (broadcastInDim ⟨2, ![N, F]⟩ ![] hb0 (constant (F := Ideal) ⟨0, ![]⟩ .f32 0x00000000#32)) dstI (Host.gather g (mulf xw (broadcastInDim ⟨2, ![N, F]⟩ ![0, 1] hb2 (broadcastInDim ⟨2, ![N, 1]⟩ ![0] hb1 dinv))) srcI)) (broadcastInDim ⟨2, ![N, F]⟩ ![0, 1] hb2 (broadcastInDim ⟨2, ![N, 1]⟩ ![0] hb1 dinv)))
    (mulf xw (broadcastInDim ⟨2, ![N, F]⟩ ![0, 1] hb2 (broadcastInDim ⟨2, ![N, 1]⟩ ![0] hb1 dinv2)))

/-- Edges weighted: multiply every edge's source row by `dinv(src) · dinv(dst)`, sum over the edges landing on each
    node, add `xw` scaled by `1 / deg`. -/
def aggEdges (sc : ScatterDims ⟨2, ![N, F]⟩ ⟨2, ![E, 1]⟩ ⟨2, ![E, F]⟩) (g : GatherDims ⟨2, ![N, F]⟩ ⟨2, ![E, 1]⟩ ⟨2, ![E, F]⟩)
    (g1 : GatherDims ⟨1, ![N]⟩ ⟨2, ![E, 1]⟩ ⟨1, ![E]⟩)
    (hb1 : (⟨1, ![N]⟩ : Shape).BroadcastsInDim ⟨2, ![N, 1]⟩ ![0]) (hb2 : (⟨2, ![N, 1]⟩ : Shape).BroadcastsInDim ⟨2, ![N, F]⟩ ![0, 1])
    (hb0 : (⟨0, ![]⟩ : Shape).BroadcastsInDim ⟨2, ![N, F]⟩ ![])
    (he1 : (⟨1, ![E]⟩ : Shape).BroadcastsInDim ⟨2, ![E, 1]⟩ ![0]) (he2 : (⟨2, ![E, 1]⟩ : Shape).BroadcastsInDim ⟨2, ![E, F]⟩ ![0, 1])
    (hn0 : (⟨0, ![]⟩ : Shape).BroadcastsInDim ⟨1, ![N]⟩ ![])
    (srcI dstI : IVec ⟨2, ![E, 1]⟩ 32) (deg dinv : FVec Ideal ⟨1, ![N]⟩ .f32) (xw : FVec Ideal ⟨2, ![N, F]⟩ .f32) :
    FVec Ideal ⟨2, ![N, F]⟩ .f32 :=
  addf (Host.scatterAdd sc (broadcastInDim ⟨2, ![N, F]⟩ ![] hb0 (constant (F := Ideal) ⟨0, ![]⟩ .f32 0x00000000#32)) dstI
      (mulf (Host.gather g xw srcI) (broadcastInDim ⟨2, ![E, F]⟩ ![0, 1] he2 (broadcastInDim ⟨2, ![E, 1]⟩ ![0] he1 (mulf (Host.gather g1 dinv srcI) (Host.gather g1 dinv dstI))))))
    (mulf xw (broadcastInDim ⟨2, ![N, F]⟩ ![0, 1] hb2 (broadcastInDim ⟨2, ![N, 1]⟩ ![0] hb1 (Host.divf (broadcastInDim ⟨1, ![N]⟩ ![] hn0 (constant (F := Ideal) ⟨0, ![]⟩ .f32 0x3F800000#32)) deg))))

/-- THE TWO ARRANGEMENTS AGREE, on every array `xw` of extended reals and all index words, when `deg` is the degree
    array, `dinv` its inverse square root and `dinv2` the square of that. -/
theorem aggRows_eq_aggEdges (hN : 0 < N)
    (sc : ScatterDims ⟨2, ![N, F]⟩ ⟨2, ![E, 1]⟩ ⟨2, ![E, F]⟩)
    (hs1 : sc.updateWindowDims = [1]) (hs2 : sc.insertedWindowDims = [0]) (hs3 : sc.scatterDimsToOperandDims = [0])
    (hs4 : sc.indexVectorDim = 1)
    (g : GatherDims ⟨2, ![N, F]⟩ ⟨2, ![E, 1]⟩ ⟨2, ![E, F]⟩)
    (hg1 : g.offsetDims = [1]) (hg2 : g.collapsedSliceDims = [0]) (hg3 : g.operandBatchingDims = [])
    (hg4 : g.startIndicesBatchingDims = []) (hg5 : g.startIndexMap = [0]) (hg6 : g.indexVectorDim = 1)
    (hg7 : g.sliceSizes = ![1, F])
    (g1 : GatherDims ⟨1, ![N]⟩ ⟨2, ![E, 1]⟩ ⟨1, ![E]⟩)
    (hv1 : g1.offsetDims = []) (hv2 : g1.collapsedSliceDims = [0]) (hv3 : g1.operandBatchingDims = [])
    (hv4 : g1.startIndicesBatchingDims = []) (hv5 : g1.startIndexMap = [0]) (hv6 : g1.indexVectorDim = 1)
    (hv7 : g1.sliceSizes = ![1])
    (sc1 : ScatterDims ⟨1, ![N]⟩ ⟨2, ![E, 1]⟩ ⟨1, ![E]⟩)
    (hb1 : (⟨1, ![N]⟩ : Shape).BroadcastsInDim ⟨2, ![N, 1]⟩ ![0]) (hb2 : (⟨2, ![N, 1]⟩ : Shape).BroadcastsInDim ⟨2, ![N, F]⟩ ![0, 1])
    (hb0 : (⟨0, ![]⟩ : Shape).BroadcastsInDim ⟨2, ![N, F]⟩ ![])
    (he1 : (⟨1, ![E]⟩ : Shape).BroadcastsInDim ⟨2, ![E, 1]⟩ ![0]) (he2 : (⟨2, ![E, 1]⟩ : Shape).BroadcastsInDim ⟨2, ![E, F]⟩ ![0, 1])
    (hn0 : (⟨0, ![]⟩ : Shape).BroadcastsInDim ⟨1, ![N]⟩ ![]) (he0 : (⟨0, ![]⟩ : Shape).BroadcastsInDim ⟨1, ![E]⟩ ![])
    (srcI dstI : IVec ⟨2, ![E, 1]⟩ 32) (xw : FVec Ideal ⟨2, ![N, F]⟩ .f32) :
    aggRows sc g hb1 hb2 hb0 srcI dstI (Host.rsqrt (degOf sc1 hn0 he0 dstI))
        (mulf (Host.rsqrt (degOf sc1 hn0 he0 dstI)) (Host.rsqrt (degOf sc1 hn0 he0 dstI))) xw
      = aggEdges sc g g1 hb1 hb2 hb0 he1 he2 hn0 srcI dstI (degOf sc1 hn0 he0 dstI) (Host.rsqrt (degOf sc1 hn0 he0 dstI)) xw := by
  generalize hD : degOf sc1 hn0 he0 dstI = D
  have hDr : ∀ n : Fin N, ∃ r : ℝ, 1 ≤ r ∧ D (ix1 n) = (r : EReal) := fun n => hD ▸ degOf_real sc1 hn0 he0 dstI n
  generalize hI : (Host.rsqrt D : FVec Ideal ⟨1, ![N]⟩ .f32) = dinv
  have hIv : ∀ n : Fin N, dinv (ix1 n) = Ideal.rsqrt (D (ix1 n)) := fun n => by rw [← hI]; rfl
  funext i
  obtain ⟨n, f, rfl⟩ : ∃ (n : Fin N) (f : Fin F), i = ix2 n f := ⟨i 0, i 1, eq_ix2 i⟩
  obtain ⟨r, hr1, hr⟩ := hDr n
  have hr0 : 0 < r := by linarith
  obtain ⟨q, hq0, hq⟩ := rsqrt_real hr0
  have hdn : dinv (ix1 n) = (q : EReal) := by rw [hIv, hr, hq]
  show ((broadcastInDim ⟨2, ![N, F]⟩ ![] hb0 (constant (F := Ideal) ⟨0, ![]⟩ .f32 0x00000000#32)) (ix2 n f) + ∑ j ∈ Finset.univ.filter (fun j : (⟨2, ![E, F]⟩ : Shape).Idx => sc.resultIdx? j dstI = some (ix2 n f)), (xw (g.operandIdx j srcI) * (broadcastInDim ⟨2, ![N, F]⟩ ![0, 1] hb2 (broadcastInDim ⟨2, ![N, 1]⟩ ![0] hb1 dinv)) (g.operandIdx j srcI))) * (broadcastInDim ⟨2, ![N, F]⟩ ![0, 1] hb2 (broadcastInDim ⟨2, ![N, 1]⟩ ![0] hb1 dinv)) (ix2 n f)
        + xw (ix2 n f) * (broadcastInDim ⟨2, ![N, F]⟩ ![0, 1] hb2 (broadcastInDim ⟨2, ![N, 1]⟩ ![0] hb1 (mulf dinv dinv))) (ix2 n f)
      = ((broadcastInDim ⟨2, ![N, F]⟩ ![] hb0 (constant (F := Ideal) ⟨0, ![]⟩ .f32 0x00000000#32)) (ix2 n f) + ∑ j ∈ Finset.univ.filter (fun j : (⟨2, ![E, F]⟩ : Shape).Idx => sc.resultIdx? j dstI = some (ix2 n f)), (xw (g.operandIdx j srcI) * (broadcastInDim ⟨2, ![E, F]⟩ ![0, 1] he2 (broadcastInDim ⟨2, ![E, 1]⟩ ![0] he1 (mulf (Host.gather g1 dinv srcI) (Host.gather g1 dinv dstI)))) j))
        + xw (ix2 n f) * (broadcastInDim ⟨2, ![N, F]⟩ ![0, 1] hb2 (broadcastInDim ⟨2, ![N, 1]⟩ ![0] hb1 (Host.divf (broadcastInDim ⟨1, ![N]⟩ ![] hn0 (constant (F := Ideal) ⟨0, ![]⟩ .f32 0x3F800000#32)) D))) (ix2 n f)
  rw [bcastRows_apply hb1 hb2 dinv n f, bcastRows_apply hb1 hb2 (mulf dinv dinv) n f,
    bcastRows_apply hb1 hb2 (Host.divf (broadcastInDim ⟨1, ![N]⟩ ![] hn0 (constant (F := Ideal) ⟨0, ![]⟩ .f32 0x3F800000#32)) D) n f, bcastScalar_apply hb0, hdn]
  have hz : (constant (F := Ideal) ⟨0, ![]⟩ .f32 0x00000000#32) ix0 = 0 := Ideal.ofBits_zero_f32
  rw [hz, zero_add, zero_add, sum_mul_real _ _ q hq0]
  have hself : (mulf dinv dinv : FVec Ideal ⟨1, ![N]⟩ .f32) (ix1 n) = (Host.divf (broadcastInDim ⟨1, ![N]⟩ ![] hn0 (constant (F := Ideal) ⟨0, ![]⟩ .f32 0x3F800000#32)) D : FVec Ideal ⟨1, ![N]⟩ .f32) (ix1 n) := by
    show dinv (ix1 n) * dinv (ix1 n) = Ideal.div ((broadcastInDim ⟨1, ![N]⟩ ![] hn0 (constant (F := Ideal) ⟨0, ![]⟩ .f32 0x3F800000#32)) (ix1 n)) (D (ix1 n))
    rw [bcastScalar_apply hn0, hIv, hr]
    exact (rsqrt_mul_self hr0).trans (congrArg (fun z => Ideal.div z (r : EReal)) ofBits_one.symm)
  rw [hself]
  refine congrArg (· + _) (Finset.sum_congr rfl fun j hj => ?_)
  obtain ⟨e, f', rfl⟩ : ∃ (e : Fin E) (f' : Fin F), j = ix2 e f' := ⟨j 0, j 1, eq_ix2 j⟩
  have hland := scatterRows_resultIdx sc hs1 hs2 hs3 hs4 dstI e f' (ix2 n f) (Finset.mem_filter.mp hj).2
  have hdst : clampRow N hN (dstI (ix2 e (0 : Fin 1))) = n := clampRow_of_toInt hN _ n hland.1
  rw [gatherRows_operandIdx hN g hg1 hg2 hg3 hg4 hg5 hg6 hg7 srcI e f', bcastRows_apply hb1 hb2 dinv _ f',
    bcastRows_apply he1 he2 _ e f']
  show xw _ * dinv _ * (q : EReal) = xw _ * (dinv (g1.operandIdx (ix1 e) srcI) * dinv (g1.operandIdx (ix1 e) dstI))
  rw [gatherVec_operandIdx hN g1 hv1 hv2 hv3 hv4 hv5 hv6 hv7 srcI e, gatherVec_operandIdx hN g1 hv1 hv2 hv3 hv4 hv5 hv6 hv7 dstI e,
    hdst, hdn, mul_assoc]

end Agg

end Cert.GcnAgg

end
-- ==== Proof.LibDenseAdj.lean ====
/-
  A dense weighted adjacency matrix times a feature matrix, on the extended reals.

  A graph of `N` nodes has edges `e` with a source `s e`, a destination `d e` and a weight `w e ≥ 0`.  Its dense
  adjacency has, at `(i, j)`, the sum of the weights of the edges from `j` to `i`.  Row `i` of the product of that
  matrix with a feature matrix `P` is the sum, over the edges landing on `i`, of the source's row of `P` times the
  edge's weight:
      ∑_j (∑_{e : d e = i, s e = j} w e) · P(j, f)  =  ∑_{e : d e = i} P(s e, f) · w e.
  The weights being non-negative, a partial sum of weights is non-negative, and a sum of non-negative extended reals
  times ANY extended real distributes (`(a + b) · c = a · c + b · c` for `0 ≤ a`, `0 ≤ b`), so no finiteness of `P` or
  of the weights is needed; the rest regroups the edges landing on `i` by their source.

  The second part reads a two-index scatter (an `[E]` vector of updates added into an `[N, N']` operand at an
  `[E, 2]` array of start words) at an index, and states the law for the array operations: the matrix product of
  the scattered adjacency with `P` equals the gather of `P`'s rows at the sources, scaled by the weights and
  scattered, with addition, at the destinations.
-/
import Idealize.ShloMosaic.PureOps.Ideal.Laws
import Idealize.ShloMosaic.Lib.ValueIdx
import Idealize.ShloMosaic.Lib.ValueLayout
import Idealize.ShloMosaic.Lib.Pipeline.Value
import proofs.«103117_j70961449664567_2_alg».proof.Proof.LibDense
import proofs.«103117_j70961449664567_2_alg».proof.Proof.LibGcnAgg

noncomputable section

open scoped BigOperators

namespace Cert.DenseAdj

open Idealize.ShloMosaic Idealize.ShloMosaic.ValueIdx

/-! ## The law on sums of extended reals -/

/-- Any extended-real factor goes into a finite sum of non-negative extended reals. -/
theorem sum_nonneg_mul {ι : Type} (t : Finset ι) (a : ι → EReal) (ha : ∀ j, 0 ≤ a j) (c : EReal) :
    (∑ j ∈ t, a j) * c = ∑ j ∈ t, a j * c := by
  classical
  induction t using Finset.induction_on with
  | empty => simp
  | insert x t hx ih =>
    rw [Finset.sum_insert hx, Finset.sum_insert hx,
      EReal.right_distrib_of_nonneg (ha x) (Finset.sum_nonneg fun j _ => ha j), ih]

/-- THE AGGREGATION LAW: the dense adjacency of non-negatively weighted edges, applied to a vector `p` of extended
    reals, reads at node `i` the sum over the edges landing on `i` of `p` at the source times the weight. -/
theorem adj_mul_vec {ι : Type} [Fintype ι] {N : ℕ} (s d : ι → Fin N) (w : ι → EReal) (hw : ∀ e, 0 ≤ w e)
    (p : Fin N → EReal) (i : Fin N) :
    ∑ j : Fin N, (∑ e ∈ Finset.univ.filter (fun e => d e = i ∧ s e = j), w e) * p j
      = ∑ e ∈ Finset.univ.filter (fun e => d e = i), p (s e) * w e := by
  classical
  rw [← Finset.sum_fiberwise (Finset.univ.filter (fun e => d e = i)) s (fun e => p (s e) * w e)]
  refine Finset.sum_congr rfl fun j _ => ?_
  rw [sum_nonneg_mul _ _ hw, Finset.filter_filter]
  refine Finset.sum_congr rfl fun e he => ?_
  rw [(Finset.mem_filter.mp he).2.2, mul_comm]

/-- The same law with the zero the accumulating operations start from written out, at the entries of a matrix. -/
theorem adj_mul_mat {ι : Type} [Fintype ι] {N F : ℕ} (s d : ι → Fin N) (w : ι → EReal) (hw : ∀ e, 0 ≤ w e)
    (P : Cert.Dense.Mat N F) (i : Fin N) (f : Fin F) :
    ∑ j : Fin N, (0 + ∑ e ∈ Finset.univ.filter (fun e => d e = i ∧ s e = j), w e) * P (ix2 j f)
      = 0 + ∑ e ∈ Finset.univ.filter (fun e => d e = i), P (ix2 (s e) f) * w e := by
  simp only [zero_add]
  exact adj_mul_vec s d w hw (fun j => P (ix2 j f)) i

/-! ## The two-index scatter read at an index -/

/-- Scattering an `[E]` vector of updates into an `[N, N']` operand at an `[E, 2]` array of start words: update `e`
    lands on operand entry `i` exactly when its two start words, read signed, are `i`'s row and `i`'s column. -/
theorem scatter2_resultIdx {N N' E w : ℕ} (d : ScatterDims ⟨2, ![N, N']⟩ ⟨2, ![E, 2]⟩ ⟨1, ![E]⟩)
    (h1 : d.updateWindowDims = []) (h2 : d.insertedWindowDims = [0, 1]) (h3 : d.scatterDimsToOperandDims = [0, 1])
    (h4 : d.indexVectorDim = 1) (idx : IVec ⟨2, ![E, 2]⟩ w) (e : Fin E) (i : (⟨2, ![N, N']⟩ : Shape).Idx) :
    d.resultIdx? (ix1 e) idx = some i ↔
      (idx (ix2 e (0 : Fin 2))).toInt = ((i 0).val : ℤ) ∧ (idx (ix2 e (1 : Fin 2))).toInt = ((i 1).val : ℤ) := by
  obtain ⟨uw, iw, sd, iv, wf⟩ := d
  dsimp only at h1 h2 h3 h4
  subst h1 h2 h3 h4
  generalize hD : (⟨[], [0, 1], [0, 1], 1, wf⟩ : ScatterDims ⟨2, ![N, N']⟩ ⟨2, ![E, 2]⟩ ⟨1, ![E]⟩) = d
  have hsd : d.scatterDimsToOperandDims = [0, 1] := by subst hD; rfl
  have hiw : d.insertedWindowDims = [0, 1] := by subst hD; rfl
  have hs0 : d.start (ix1 e) idx (0 : Fin 2) = (idx (ix2 e (0 : Fin 2))).toInt := by
    have hmem : (0 : Fin 2) ∈ d.scatterDimsToOperandDims := by rw [hsd]; exact List.mem_cons_self
    unfold ScatterDims.start
    rw [dif_pos hmem]
    have hsi : d.siIdx (ix1 e) ⟨d.scatterDimsToOperandDims.idxOf (0 : Fin 2), List.idxOf_lt_length_iff.2 hmem⟩ = ix2 e (0 : Fin 2) := by
      subst hD
      funext b; refine Fin.ext ?_
      match b with
      | ⟨0, _⟩ => rfl
      | ⟨1, _⟩ => rfl
    rw [hsi]
  have hs1 : d.start (ix1 e) idx (1 : Fin 2) = (idx (ix2 e (1 : Fin 2))).toInt := by
    have hmem : (1 : Fin 2) ∈ d.scatterDimsToOperandDims := by rw [hsd]; exact List.mem_cons_of_mem _ List.mem_cons_self
    unfold ScatterDims.start
    rw [dif_pos hmem]
    have hsi : d.siIdx (ix1 e) ⟨d.scatterDimsToOperandDims.idxOf (1 : Fin 2), List.idxOf_lt_length_iff.2 hmem⟩ = ix2 e (1 : Fin 2) := by
      subst hD
      funext b; refine Fin.ext ?_
      match b with
      | ⟨0, _⟩ => rfl
      | ⟨1, _⟩ => rfl
    rw [hsi]
  have hw : ∀ a : Fin 2, d.window (ix1 e) a = 0 := by
    intro a
    unfold ScatterDims.window
    rw [dif_neg]
    show a ∉ Shape.kept _ d.insertedWindowDims
    rw [hiw]
    match a with
    | ⟨0, _⟩ => simp [Shape.kept]
    | ⟨1, _⟩ => simp [Shape.kept]
  unfold ScatterDims.resultIdx?
  split
  · rename_i hc
    constructor
    · intro h
      have hi := Option.some.inj h
      have g0 := congrArg (fun g : (⟨2, ![N, N']⟩ : Shape).Idx => (g 0).val) hi
      have g1 := congrArg (fun g : (⟨2, ![N, N']⟩ : Shape).Idx => (g 1).val) hi
      dsimp only at g0 g1
      have c0 := hc 0
      have c1 := hc 1
      rw [hs0, hw 0] at g0 c0
      rw [hs1, hw 1] at g1 c1
      constructor <;> omega
    · rintro ⟨e0, e1⟩
      refine congrArg some (funext fun a => Fin.ext ?_)
      match a with
      | ⟨0, _⟩ =>
        show (d.start (ix1 e) idx (0 : Fin 2) + (d.window (ix1 e) (0 : Fin 2) : ℤ)).toNat = (i 0).val
        rw [hs0, hw 0, e0]; simp
      | ⟨1, _⟩ =>
        show (d.start (ix1 e) idx (1 : Fin 2) + (d.window (ix1 e) (1 : Fin 2) : ℤ)).toNat = (i 1).val
        rw [hs1, hw 1, e1]; simp
  · rename_i hc
    constructor
    · intro h; exact absurd h (by simp)
    · rintro ⟨e0, e1⟩
      refine absurd (fun a => ?_) hc
      match a with
      | ⟨0, _⟩ =>
        show 0 ≤ d.start (ix1 e) idx (0 : Fin 2) + (d.window (ix1 e) (0 : Fin 2) : ℤ) ∧ d.start (ix1 e) idx (0 : Fin 2) + (d.window (ix1 e) (0 : Fin 2) : ℤ) < (N : ℤ)
        rw [hs0, hw 0, e0]
        have := idx2_lt0 i
        constructor <;> omega
      | ⟨1, _⟩ =>
        show 0 ≤ d.start (ix1 e) idx (1 : Fin 2) + (d.window (ix1 e) (1 : Fin 2) : ℤ) ∧ d.start (ix1 e) idx (1 : Fin 2) + (d.window (ix1 e) (1 : Fin 2) : ℤ) < (N' : ℤ)
        rw [hs1, hw 1, e1]
        have := idx2_lt1 i
        constructor <;> omega

/-- The converse reading of a row scatter (`[E, F]` updates into an `[N, F]` operand at a column of `E` start words):
    update entry `(e, f')` lands on operand entry `i` as soon as the start word of `e`, read signed, is `i`'s row and
    `f'` is `i`'s column. -/
theorem scatterRows_resultIdx_of {N E F w : ℕ} (d : ScatterDims ⟨2, ![N, F]⟩ ⟨2, ![E, 1]⟩ ⟨2, ![E, F]⟩)
    (h1 : d.updateWindowDims = [1]) (h2 : d.insertedWindowDims = [0]) (h3 : d.scatterDimsToOperandDims = [0])
    (h4 : d.indexVectorDim = 1) (idx : IVec ⟨2, ![E, 1]⟩ w) (e : Fin E) (f' : Fin F)
    (i : (⟨2, ![N, F]⟩ : Shape).Idx)
    (hr : (idx (ix2 e (0 : Fin 1))).toInt = ((i 0).val : ℤ)) (hc : f'.val = (i 1).val) :
    d.resultIdx? (ix2 e f') idx = some i := by
  obtain ⟨uw, iw, sd, iv, wf⟩ := d
  dsimp only at h1 h2 h3 h4
  subst h1 h2 h3 h4
  generalize hD : (⟨[1], [0], [0], 1, wf⟩ : ScatterDims ⟨2, ![N, F]⟩ ⟨2, ![E, 1]⟩ ⟨2, ![E, F]⟩) = d
  have hsd : d.scatterDimsToOperandDims = [0] := by subst hD; rfl
  have hiw : d.insertedWindowDims = [0] := by subst hD; rfl
  have e10 : (1 : Fin 2) ≠ 0 := fun h => Nat.one_ne_zero (congrArg Fin.val h)
  have hs0 : d.start (ix2 e f') idx (0 : Fin 2) = (idx (ix2 e (0 : Fin 1))).toInt := by
    have hmem : (0 : Fin 2) ∈ d.scatterDimsToOperandDims := by rw [hsd]; exact List.mem_singleton.mpr rfl
    unfold ScatterDims.start
    rw [dif_pos hmem]
    have hsi : d.siIdx (ix2 e f') ⟨d.scatterDimsToOperandDims.idxOf (0 : Fin 2), List.idxOf_lt_length_iff.2 hmem⟩ = ix2 e (0 : Fin 1) := by
      subst hD
      funext b; refine Fin.ext ?_
      match b with
      | ⟨0, _⟩ => rfl
      | ⟨1, _⟩ => rfl
    rw [hsi]
  have hs1 : d.start (ix2 e f') idx (1 : Fin 2) = 0 := by
    unfold ScatterDims.start
    rw [dif_neg (by rw [hsd]; exact fun h => e10 (List.mem_singleton.mp h))]
  have hk0 : (0 : Fin 2) ∉ d.sKept := by
    show (0 : Fin 2) ∉ Shape.kept _ d.insertedWindowDims
    rw [hiw]; simp [Shape.kept]
  have hk1 : (1 : Fin 2) ∈ d.sKept := by
    show (1 : Fin 2) ∈ Shape.kept _ d.insertedWindowDims
    rw [hiw]; simp [Shape.kept, List.mem_filter, List.mem_finRange]
  have hw0 : d.window (ix2 e f') (0 : Fin 2) = 0 := by
    unfold ScatterDims.window
    rw [dif_neg hk0]
  have hw1 : d.window (ix2 e f') (1 : Fin 2) = f'.val := by
    unfold ScatterDims.window
    rw [dif_pos hk1]
    subst hD
    rfl
  have hin : ∀ a : Fin 2, 0 ≤ d.start (ix2 e f') idx a + (d.window (ix2 e f') a : ℤ) ∧
      d.start (ix2 e f') idx a + (d.window (ix2 e f') a : ℤ) < ((⟨2, ![N, F]⟩ : Shape).size a : ℤ) := by
    intro a
    match a with
    | ⟨0, _⟩ =>
      show 0 ≤ d.start (ix2 e f') idx (0 : Fin 2) + (d.window (ix2 e f') (0 : Fin 2) : ℤ) ∧ d.start (ix2 e f') idx (0 : Fin 2) + (d.window (ix2 e f') (0 : Fin 2) : ℤ) < (N : ℤ)
      rw [hs0, hw0, hr]
      have := idx2_lt0 i
      constructor <;> omega
    | ⟨1, _⟩ =>
      show 0 ≤ d.start (ix2 e f') idx (1 : Fin 2) + (d.window (ix2 e f') (1 : Fin 2) : ℤ) ∧ d.start (ix2 e f') idx (1 : Fin 2) + (d.window (ix2 e f') (1 : Fin 2) : ℤ) < (F : ℤ)
      rw [hs1, hw1]
      have := f'.isLt
      constructor <;> omega
  unfold ScatterDims.resultIdx?
  rw [dif_pos hin]
  refine congrArg some (funext fun a => Fin.ext ?_)
  match a with
  | ⟨0, _⟩ =>
    show (d.start (ix2 e f') idx (0 : Fin 2) + (d.window (ix2 e f') (0 : Fin 2) : ℤ)).toNat = (i 0).val
    rw [hs0, hw0, hr]; simp
  | ⟨1, _⟩ =>
    show (d.start (ix2 e f') idx (1 : Fin 2) + (d.window (ix2 e f') (1 : Fin 2) : ℤ)).toNat = (i 1).val
    rw [hs1, hw1, hc]; simp

/-! ## The law for the array operations -/

section Law

variable {N E F : ℕ}

/-- THE DENSE ADJACENCY TIMES A FEATURE MATRIX IS GATHER, SCALE, SEGMENT-SUM.  The edges' sources `s` and destinations
    `d` are in range and are what the three index arrays hold (`ik` holds the destination in column 0 and the source in
    column 1; `isrc`, `idst` are the two columns on their own); the weights are non-negative; `P` is any matrix of
    extended reals.  Scattering the weights, with addition, into a zero `[N, N]` matrix at `ik` and multiplying by `P`
    gives the same `[N, F]` array as gathering `P`'s rows at `isrc`, scaling every row by its edge's weight, and
    scattering the rows, with addition, into a zero `[N, F]` array at `idst`. -/
theorem mm_scatter2_eq_scatterRows (hN : 0 < N)
    (d2 : ScatterDims ⟨2, ![N, N]⟩ ⟨2, ![E, 2]⟩ ⟨1, ![E]⟩)
    (hd1 : d2.updateWindowDims = []) (hd2 : d2.insertedWindowDims = [0, 1]) (hd3 : d2.scatterDimsToOperandDims = [0, 1])
    (hd4 : d2.indexVectorDim = 1)
    (sc : ScatterDims ⟨2, ![N, F]⟩ ⟨2, ![E, 1]⟩ ⟨2, ![E, F]⟩)
    (hs1 : sc.updateWindowDims = [1]) (hs2 : sc.insertedWindowDims = [0]) (hs3 : sc.scatterDimsToOperandDims = [0])
    (hs4 : sc.indexVectorDim = 1)
    (g : GatherDims ⟨2, ![N, F]⟩ ⟨2, ![E, 1]⟩ ⟨2, ![E, F]⟩)
    (hg1 : g.offsetDims = [1]) (hg2 : g.collapsedSliceDims = [0]) (hg3 : g.operandBatchingDims = [])
    (hg4 : g.startIndicesBatchingDims = []) (hg5 : g.startIndexMap = [0]) (hg6 : g.indexVectorDim = 1)
    (hg7 : g.sliceSizes = ![1, F])
    (hzN : (⟨0, ![]⟩ : Shape).BroadcastsInDim ⟨2, ![N, N]⟩ ![]) (hzF : (⟨0, ![]⟩ : Shape).BroadcastsInDim ⟨2, ![N, F]⟩ ![])
    (he1 : (⟨1, ![E]⟩ : Shape).BroadcastsInDim ⟨2, ![E, 1]⟩ ![0]) (he2 : (⟨2, ![E, 1]⟩ : Shape).BroadcastsInDim ⟨2, ![E, F]⟩ ![0, 1])
    (ik : IVec ⟨2, ![E, 2]⟩ 32) (isrc idst : IVec ⟨2, ![E, 1]⟩ 32) (s d : Fin E → Fin N)
    (hk0 : ∀ e, (ik (ix2 e (0 : Fin 2))).toInt = ((d e).val : ℤ)) (hk1 : ∀ e, (ik (ix2 e (1 : Fin 2))).toInt = ((s e).val : ℤ))
    (hsrc : ∀ e, (isrc (ix2 e (0 : Fin 1))).toInt = ((s e).val : ℤ)) (hdst : ∀ e, (idst (ix2 e (0 : Fin 1))).toInt = ((d e).val : ℤ))
    (nrm : FVec Ideal ⟨1, ![E]⟩ .f32) (hn : ∀ e, 0 ≤ nrm e) (P : FVec Ideal ⟨2, ![N, F]⟩ .f32) :
    Cert.Dense.mm (Host.scatterAdd (F := Ideal) d2 (broadcastInDim ⟨2, ![N, N]⟩ ![] hzN (constant (F := Ideal) ⟨0, ![]⟩ .f32 0x00000000#32)) ik nrm) P
      = Host.scatterAdd (F := Ideal) sc (broadcastInDim ⟨2, ![N, F]⟩ ![] hzF (constant (F := Ideal) ⟨0, ![]⟩ .f32 0x00000000#32)) idst
          (mulf (Host.gather g P isrc) (broadcastInDim ⟨2, ![E, F]⟩ ![0, 1] he2 (broadcastInDim ⟨2, ![E, 1]⟩ ![0] he1 nrm))) := by
  funext i
  obtain ⟨n, f, rfl⟩ : ∃ (n : Fin N) (f : Fin F), i = ix2 n f := ⟨i 0, i 1, eq_ix2 i⟩
  have hz : (constant (F := Ideal) ⟨0, ![]⟩ .f32 0x00000000#32) ix0 = 0 := Ideal.ofBits_zero_f32
  have hA : ∀ k : Fin N, (Host.scatterAdd (F := Ideal) d2 (broadcastInDim ⟨2, ![N, N]⟩ ![] hzN (constant (F := Ideal) ⟨0, ![]⟩ .f32 0x00000000#32)) ik nrm) (ix2 n k)
      = 0 + ∑ e ∈ Finset.univ.filter (fun e : (⟨1, ![E]⟩ : Shape).Idx => d (e 0) = n ∧ s (e 0) = k), nrm e := by
    intro k
    show (broadcastInDim ⟨2, ![N, N]⟩ ![] hzN (constant (F := Ideal) ⟨0, ![]⟩ .f32 0x00000000#32)) (ix2 n k)
        + ∑ j ∈ Finset.univ.filter (fun j : (⟨1, ![E]⟩ : Shape).Idx => d2.resultIdx? j ik = some (ix2 n k)), nrm j = _
    rw [Cert.GcnAgg.bcastScalar_apply hzN, hz]
    refine congrArg (0 + ·) (Finset.sum_congr (Finset.filter_congr fun j _ => ?_) fun _ _ => rfl)
    obtain ⟨e, rfl⟩ : ∃ e : Fin E, j = ix1 e := ⟨j 0, eq_ix1 j⟩
    show d2.resultIdx? (ix1 e) ik = some (ix2 n k) ↔ d e = n ∧ s e = k
    rw [scatter2_resultIdx d2 hd1 hd2 hd3 hd4 ik e (ix2 n k), hk0, hk1]
    show ((d e).val : ℤ) = (n.val : ℤ) ∧ ((s e).val : ℤ) = (k.val : ℤ) ↔ _
    exact ⟨fun h => ⟨Fin.ext (by exact_mod_cast h.1), Fin.ext (by exact_mod_cast h.2)⟩, fun h => by rw [h.1, h.2]; exact ⟨rfl, rfl⟩⟩
  rw [Cert.Dense.mm_apply, Finset.sum_congr rfl fun k _ => congrArg (· * P (ix2 k f)) (hA k),
    adj_mul_mat (fun e : (⟨1, ![E]⟩ : Shape).Idx => s (e 0)) (fun e => d (e 0)) nrm hn P n f]
  show _ = (broadcastInDim ⟨2, ![N, F]⟩ ![] hzF (constant (F := Ideal) ⟨0, ![]⟩ .f32 0x00000000#32)) (ix2 n f)
      + ∑ j ∈ Finset.univ.filter (fun j : (⟨2, ![E, F]⟩ : Shape).Idx => sc.resultIdx? j idst = some (ix2 n f)),
          P (g.operandIdx j isrc) * (broadcastInDim ⟨2, ![E, F]⟩ ![0, 1] he2 (broadcastInDim ⟨2, ![E, 1]⟩ ![0] he1 nrm)) j
  rw [Cert.GcnAgg.bcastScalar_apply hzF, hz]
  refine congrArg (0 + ·) ?_
  refine Finset.sum_nbij' (fun e => ix2 (e 0) f) (fun j => ix1 (j 0)) ?_ ?_ ?_ ?_ ?_
  · intro e he
    obtain ⟨e', rfl⟩ : ∃ e' : Fin E, e = ix1 e' := ⟨e 0, eq_ix1 e⟩
    have hde : d e' = n := (Finset.mem_filter.mp he).2
    refine Finset.mem_filter.mpr ⟨Finset.mem_univ _, ?_⟩
    show sc.resultIdx? (ix2 e' f) idst = some (ix2 n f)
    exact scatterRows_resultIdx_of sc hs1 hs2 hs3 hs4 idst e' f (ix2 n f) (by rw [hdst, hde]; rfl) rfl
  · intro j hj
    obtain ⟨e, f', rfl⟩ : ∃ (e : Fin E) (f' : Fin F), j = ix2 e f' := ⟨j 0, j 1, eq_ix2 j⟩
    have hland := Cert.GcnAgg.scatterRows_resultIdx sc hs1 hs2 hs3 hs4 idst e f' (ix2 n f) (Finset.mem_filter.mp hj).2
    refine Finset.mem_filter.mpr ⟨Finset.mem_univ _, ?_⟩
    show d e = n
    have h0 := hland.1
    rw [hdst] at h0
    exact Fin.ext (by exact_mod_cast h0)
  · intro e _
    exact (eq_ix1 e).symm
  · intro j hj
    obtain ⟨e, f', rfl⟩ : ∃ (e : Fin E) (f' : Fin F), j = ix2 e f' := ⟨j 0, j 1, eq_ix2 j⟩
    have hland := Cert.GcnAgg.scatterRows_resultIdx sc hs1 hs2 hs3 hs4 idst e f' (ix2 n f) (Finset.mem_filter.mp hj).2
    have hf : f' = f := Fin.ext hland.2
    show ix2 e f = ix2 e f'
    rw [hf]
  · intro e _
    obtain ⟨e, rfl⟩ : ∃ e' : Fin E, e = ix1 e' := ⟨e 0, eq_ix1 e⟩
    show P (ix2 (s e) f) * nrm (ix1 e) = P (g.operandIdx (ix2 e f) isrc) * (broadcastInDim ⟨2, ![E, F]⟩ ![0, 1] he2 (broadcastInDim ⟨2, ![E, 1]⟩ ![0] he1 nrm)) (ix2 e f)
    rw [Cert.GcnAgg.gatherRows_operandIdx hN g hg1 hg2 hg3 hg4 hg5 hg6 hg7 isrc e f,
      Cert.GcnAgg.clampRow_of_toInt hN _ (s e) (hsrc e), Cert.GcnAgg.bcastRows_apply he1 he2 nrm e f]

end Law

end Cert.DenseAdj

end
-- ==== Proof.GcnLayer.lean ====
/-
  One graph-convolution aggregation at this program pair's shapes: 10000 nodes, 330000 edges (the graph's edges and
  one self-loop per node), 256 features.  The kernel program scatters the edge weights into a dense 10000 × 10000
  adjacency and multiplies it by the feature matrix; the reference gathers the feature rows at the sources, scales
  them by the weights and segment-sums them at the destinations.  The two agree on every feature matrix of extended
  reals as soon as the weights are non-negative and the index arrays hold in-range sources and destinations.
-/
import proofs.«103117_j70961449664567_2_alg».proof.KernelIdeal
import proofs.«103117_j70961449664567_2_alg».proof.ReferenceIdeal
import proofs.«103117_j70961449664567_2_alg».proof.Proof.LibDenseAdj

noncomputable section

namespace Cert.Bridge.Gcn

open Idealize.ShloMosaic Idealize.ShloMosaic.ValueIdx

variable [Cert.KernelIdeal.Facts₀] [Cert.ReferenceIdeal.Facts₀]

/-- THE LAYER LEMMA: the dense adjacency the kernel program scatters, times `P`, is the reference's gather, scale and
    segment-sum of `P`. -/
theorem layer (ik : IVec Cert.KernelIdeal.S330000x2 32) (isrc idst : IVec Cert.ReferenceIdeal.S330000x1 32)
    (s d : Fin 330000 → Fin 10000)
    (hk0 : ∀ e, (ik (ix2 e (0 : Fin 2))).toInt = ((d e).val : ℤ)) (hk1 : ∀ e, (ik (ix2 e (1 : Fin 2))).toInt = ((s e).val : ℤ))
    (hsrc : ∀ e, (isrc (ix2 e (0 : Fin 1))).toInt = ((s e).val : ℤ)) (hdst : ∀ e, (idst (ix2 e (0 : Fin 1))).toInt = ((d e).val : ℤ))
    (nrm : FVec Ideal Cert.ReferenceIdeal.S330000 .f32) (hn : ∀ e, 0 ≤ nrm e) (P : FVec Ideal Cert.ReferenceIdeal.S10000x256 .f32) :
    Cert.Dense.mm (Host.scatterAdd (F := Ideal) Cert.KernelIdeal.scatter_S10000x10000_S330000x2_S330000_n_01_01_1
        (broadcastInDim Cert.KernelIdeal.S10000x10000 ![] Cert.KernelIdeal.Facts₀.bcast_S_S10000x10000 (constant (F := Ideal) Cert.KernelIdeal.S_ .f32 0x00000000#32)) ik nrm) P
      = Host.scatterAdd (F := Ideal) Cert.ReferenceIdeal.scatter_S10000x256_S330000x1_S330000x256_1_0_0_1
          (broadcastInDim Cert.ReferenceIdeal.S10000x256 ![] Cert.ReferenceIdeal.Facts₀.bcast_S_S10000x256 (constant (F := Ideal) Cert.ReferenceIdeal.S_ .f32 0x00000000#32)) idst
          (mulf (Host.gather Cert.ReferenceIdeal.gather_S10000x256_S330000x1_S330000x256_1_0_n_n_0_1_1256 P isrc)
            (broadcastInDim Cert.ReferenceIdeal.S330000x256 ![0, 1] Cert.ReferenceIdeal.Facts₀.bcast_S330000x1_S330000x256_0_1
              (broadcastInDim Cert.ReferenceIdeal.S330000x1 ![0] Cert.ReferenceIdeal.Facts₀.bcast_S330000_S330000x1_0 nrm))) :=
  Cert.DenseAdj.mm_scatter2_eq_scatterRows (N := 10000) (E := 330000) (F := 256) (by norm_num)
    Cert.KernelIdeal.scatter_S10000x10000_S330000x2_S330000_n_01_01_1 rfl rfl rfl rfl
    Cert.ReferenceIdeal.scatter_S10000x256_S330000x1_S330000x256_1_0_0_1 rfl rfl rfl rfl
    Cert.ReferenceIdeal.gather_S10000x256_S330000x1_S330000x256_1_0_n_n_0_1_1256 rfl rfl rfl rfl rfl rfl rfl
    Cert.KernelIdeal.Facts₀.bcast_S_S10000x10000 Cert.ReferenceIdeal.Facts₀.bcast_S_S10000x256
    Cert.ReferenceIdeal.Facts₀.bcast_S330000_S330000x1_0 Cert.ReferenceIdeal.Facts₀.bcast_S330000x1_S330000x256_0_1
    ik isrc idst s d hk0 hk1 hsrc hdst nrm hn P

end Cert.Bridge.Gcn

end
-- ==== Proof.GcnWeights.lean ====
/-
  The edge weights of the symmetric normalisation, as the two programs compute them from the degree vector.

  Both take `dinv = deg^(-1/2)` where `deg > 0` and `0` elsewhere, and weight an edge by `dinv(src) · dinv(dst)`.  The
  kernel program first replaces the non-positive degrees by one before raising to the power, which changes nothing where
  the outer selection keeps the power; so the two `dinv` are the same function of `deg`, and so are the weights.  A
  power of a base `> 0` is `≥ 0` whatever the exponent (a real power of a positive real; the base `⊤` gives `⊤`, `1` or
  `0`), so `dinv ≥ 0` and the weights, products of two values of `dinv`, are `≥ 0`.
-/
import proofs.«103117_j70961449664567_2_alg».proof.KernelIdeal
import proofs.«103117_j70961449664567_2_alg».proof.ReferenceIdeal
import Idealize.ShloMosaic.PureOps.Ideal.Laws
import Idealize.ShloMosaic.Lib.ValueIdx

noncomputable section

namespace Cert.Bridge.Gcn

open Idealize.ShloMosaic Idealize.ShloMosaic.ValueIdx

variable [Cert.KernelIdeal.Facts₀] [Cert.ReferenceIdeal.Facts₀]

/-- A power of a positive extended real is non-negative, whatever the exponent. -/
theorem pow_nonneg_of_pos (x y : EReal) (hx : 0 < x) : 0 ≤ Ideal.pow x y := by
  induction x using EReal.rec with
  | bot => exact absurd hx (not_lt_bot)
  | top =>
    rw [Ideal.pow_top]
    split_ifs
    · exact le_top
    · exact zero_le_one
    · exact le_refl _
  | coe r =>
    have hr : 0 < r := EReal.coe_pos.mp hx
    induction y using EReal.rec with
    | bot =>
      rw [Ideal.pow_coe_bot]
      split_ifs with h1
      · exact absurd h1 (not_lt.mpr hr.le)
      · exact le_refl _
      · exact zero_le_one
      · exact le_top
    | top =>
      rw [Ideal.pow_coe_top]
      split_ifs with h1
      · exact absurd h1 (not_lt.mpr hr.le)
      · exact le_top
      · exact zero_le_one
      · exact le_refl _
    | coe q =>
      rw [Ideal.pow_coe_coe]
      exact EReal.coe_nonneg.mpr (Real.rpow_nonneg hr.le q)

section Kernel
open Cert.KernelIdeal Cert.KernelIdeal.Facts₀

/-- The kernel program's `dinv`, from the degree vector. -/
def dinvK (deg : FVec Ideal S10000 .f32) : FVec Ideal S10000 .f32 :=
  select (cmpf .ogt deg (broadcastInDim S10000 ![] bcast_S_S10000 (constant (F := Ideal) S_ .f32 0x00000000#32)))
    (Host.powf
      (select (cmpf .ogt deg (broadcastInDim S10000 ![] bcast_S_S10000 (constant (F := Ideal) S_ .f32 0x00000000#32))) deg
        (broadcastInDim S10000 ![] bcast_S_S10000 (id (constant (F := Ideal) S_ .f32 0x3F800000#32))))
      (broadcastInDim S10000 ![] bcast_S_S10000 (constant (F := Ideal) S_ .f32 0xBF000000#32)))
    (broadcastInDim S10000 ![] bcast_S_S10000 (id (constant (F := Ideal) S_ .f32 0x00000000#32)))

/-- The kernel program's edge weights, from the degree vector and the two index columns. -/
def normK (deg : FVec Ideal S10000 .f32) (isrc idst : IVec S330000x1 32) : FVec Ideal S330000 .f32 :=
  mulf (Host.gather gather_S10000_S330000x1_S330000_n_0_n_n_0_1_1 (dinvK deg) isrc)
    (Host.gather gather_S10000_S330000x1_S330000_n_0_n_n_0_1_1 (dinvK deg) idst)

end Kernel

section Reference
open Cert.ReferenceIdeal Cert.ReferenceIdeal.Facts₀

/-- The reference's `dinv`, from the degree vector. -/
def dinvR (deg : FVec Ideal S10000 .f32) : FVec Ideal S10000 .f32 :=
  select (cmpf .ogt deg (broadcastInDim S10000 ![] bcast_S_S10000 (constant (F := Ideal) S_ .f32 0x00000000#32)))
    (Host.powf deg (broadcastInDim S10000 ![] bcast_S_S10000 (constant (F := Ideal) S_ .f32 0xBF000000#32)))
    (broadcastInDim S10000 ![] bcast_S_S10000 (id (constant (F := Ideal) S_ .f32 0x00000000#32)))

/-- The reference's edge weights, from the degree vector and the two index columns. -/
def normR (deg : FVec Ideal S10000 .f32) (isrc idst : IVec S330000x1 32) : FVec Ideal S330000 .f32 :=
  mulf (Host.gather gather_S10000_S330000x1_S330000_n_0_n_n_0_1_1 (dinvR deg) isrc)
    (Host.gather gather_S10000_S330000x1_S330000_n_0_n_n_0_1_1 (dinvR deg) idst)

end Reference

/-- The two `dinv` are the same function of the degrees. -/
theorem dinvK_eq_dinvR (deg : FVec Ideal Cert.ReferenceIdeal.S10000 .f32) : dinvK deg = dinvR deg := by
  funext i
  show Scalar.select (Ideal.cmp .ogt (deg i) _) (Ideal.pow (Scalar.select (Ideal.cmp .ogt (deg i) _) (deg i) _) _) _
      = Scalar.select (Ideal.cmp .ogt (deg i) _) (Ideal.pow (deg i) _) _
  unfold Scalar.select
  split_ifs <;> rfl

/-- The two programs' edge weights are the same function of the degrees and the index columns. -/
theorem normK_eq_normR (deg : FVec Ideal Cert.ReferenceIdeal.S10000 .f32) (isrc idst : IVec Cert.ReferenceIdeal.S330000x1 32) :
    normK deg isrc idst = normR deg isrc idst := by
  unfold normK normR
  rw [dinvK_eq_dinvR]
  rfl

/-- `dinv` is non-negative everywhere. -/
theorem dinvR_nonneg (deg : FVec Ideal Cert.ReferenceIdeal.S10000 .f32) (i : Cert.ReferenceIdeal.S10000.Idx) : 0 ≤ dinvR deg i := by
  show 0 ≤ Scalar.select (Ideal.cmp .ogt (deg i) (Ideal.ofBits .f32 0x00000000#32)) (Ideal.pow (deg i) _) (Ideal.ofBits .f32 0x00000000#32)
  unfold Scalar.select
  rw [Ideal.ofBits_zero_f32]
  split_ifs with h
  · refine pow_nonneg_of_pos _ _ ?_
    by_contra hn
    refine absurd h ?_
    show ¬ BitVec.ofBool (decide ((0 : EReal) < deg i)) = 1#1
    rw [decide_eq_false hn]
    decide
  · exact le_refl _

/-- The edge weights are non-negative. -/
theorem normR_nonneg (deg : FVec Ideal Cert.ReferenceIdeal.S10000 .f32) (isrc idst : IVec Cert.ReferenceIdeal.S330000x1 32)
    (e : Cert.ReferenceIdeal.S330000.Idx) : 0 ≤ normR deg isrc idst e :=
  mul_nonneg (dinvR_nonneg deg _) (dinvR_nonneg deg _)

/-- The kernel program's edge weights are non-negative. -/
theorem normK_nonneg (deg : FVec Ideal Cert.ReferenceIdeal.S10000 .f32) (isrc idst : IVec Cert.ReferenceIdeal.S330000x1 32)
    (e : Cert.ReferenceIdeal.S330000.Idx) : 0 ≤ normK deg isrc idst e := by
  rw [normK_eq_normR]; exact normR_nonneg deg isrc idst e

end Cert.Bridge.Gcn

end
-- ==== Proof.GcnIndex.lean ====
/-
  The edge index columns of the two programs.

  Both programs list the graph's 320000 edges followed by one self-loop per node: the source words are row 0 of the
  `[2, 320000]` edge array followed by `0, 1, …, 9999`, the destination words row 1 followed by the same.  When every
  entry of the edge array is in `[0, 10000)`, every word of both lists is; then wrapping a negative index (adding
  10000 where the word is negative) changes nothing, and the columns built from the words — a `[330000, 1]` column of
  one list, or the `[330000, 2]` array of the destination beside the source — hold, read signed, the in-range
  destination and source of every edge.
-/
import proofs.«103117_j70961449664567_2_alg».proof.KernelIdeal
import proofs.«103117_j70961449664567_2_alg».proof.ReferenceIdeal
import Idealize.ShloMosaic.Lib.ValueIdx
import Idealize.ShloMosaic.Lib.ValueLayout
import Idealize.ShloMosaic.Lib.Pipeline.Value

noncomputable section

namespace Cert.Bridge.Gcn

open Idealize.ShloMosaic Idealize.ShloMosaic.ValueIdx

/-! ## General readings -/

/-- A small natural number, as a 32-bit word read signed, is itself. -/
theorem toInt_ofNat_small (n : ℕ) (h : n < 2147483648) : (BitVec.ofNat 32 n).toInt = (n : ℤ) := by
  have h1 : (BitVec.ofNat 32 n).toNat = n := by rw [BitVec.toNat_ofNat]; exact Nat.mod_eq_of_lt (by omega)
  rw [BitVec.toInt_eq_toNat_cond, h1]
  split <;> omega

/-- Row `r` of a `[2, 320000]` array followed by `0, 1, …, 9999`, read at `e`. -/
theorem edgeWord_apply (r : Fin 2) (off : Fin 2 → ℕ) (hoff0 : off 0 = r.val) (hoff1 : off 1 = 0)
    (x1 : IVec ⟨2, ![2, 320000]⟩ 32) (hs : (⟨2, ![2, 320000]⟩ : Shape).Slices off ⟨2, ![1, 320000]⟩)
    (hc : (⟨2, ![1, 320000]⟩ : Shape).ShapeCasts ⟨1, ![320000]⟩)
    (hcat : Shape.Concatenates [(⟨1, ![320000]⟩ : Shape), ⟨1, ![10000]⟩] ⟨1, ![330000]⟩ 0) (e : Fin 330000) :
    concatenate (⟨1, ![330000]⟩ : Shape) 0
        [⟨⟨1, ![320000]⟩, shapeCast _ (extractStridedSlice ⟨2, ![1, 320000]⟩ off x1 hs) hc⟩, ⟨⟨1, ![10000]⟩, iotaInDim ⟨1, ![10000]⟩ 32 0⟩] hcat (ix1 e)
      = if h : e.val < 320000 then x1 (ix2 r ⟨e.val, h⟩) else BitVec.ofNat 32 (e.val - 320000) := by
  by_cases h : e.val < 320000
  · rw [dif_pos h]
    rw [concatenate_pair_apply_left (t := ⟨1, ![330000]⟩) (s₁ := ⟨1, ![320000]⟩) (s₂ := ⟨1, ![10000]⟩) (0 : Fin 1) _ _ hcat (ix1 e) rfl (ix1 (⟨e.val, h⟩ : Fin 320000))
      (fun b => match b with | ⟨0, _⟩ => rfl)]
    rw [shapeCast_apply _ hc (ix1 (⟨e.val, h⟩ : Fin 320000)) (ix2 (0 : Fin 1) (⟨e.val, h⟩ : Fin 320000))
      (by rewrite [Shape.rowMajor_val_two, Shape.rowMajor_val_one]; show 0 * 320000 + e.val = e.val; omega)]
    exact extractStridedSlice_apply off x1 hs (ix2 (0 : Fin 1) (⟨e.val, h⟩ : Fin 320000)) (ix2 r (⟨e.val, h⟩ : Fin 320000))
      (fun a => match a with
        | ⟨0, _⟩ => by show r.val = off 0 + 0; rw [hoff0]; rfl
        | ⟨1, _⟩ => by show e.val = off 1 + e.val; rw [hoff1]; omega)
  · rw [dif_neg h]
    have he := e.isLt
    rw [concatenate_pair_apply_right (t := ⟨1, ![330000]⟩) (s₁ := ⟨1, ![320000]⟩) (s₂ := ⟨1, ![10000]⟩) (0 : Fin 1) _ _ hcat (ix1 e) rfl rfl (ix1 (⟨e.val - 320000, by omega⟩ : Fin 10000))
      (fun b hb => match b, hb with | ⟨0, _⟩, hb => absurd rfl hb)
      (by show e.val - 320000 + 320000 = e.val; omega)]
    rfl

/-- When the array's entries are in `[0, 10000)`, so are the words of the list. -/
theorem edgeWord_range (r : Fin 2) (off : Fin 2 → ℕ) (hoff0 : off 0 = r.val) (hoff1 : off 1 = 0)
    (x1 : IVec ⟨2, ![2, 320000]⟩ 32) (hx : ∀ j, 0 ≤ (x1 j).toInt ∧ (x1 j).toInt < 10000)
    (hs : (⟨2, ![2, 320000]⟩ : Shape).Slices off ⟨2, ![1, 320000]⟩)
    (hc : (⟨2, ![1, 320000]⟩ : Shape).ShapeCasts ⟨1, ![320000]⟩)
    (hcat : Shape.Concatenates [(⟨1, ![320000]⟩ : Shape), ⟨1, ![10000]⟩] ⟨1, ![330000]⟩ 0) (j : (⟨1, ![330000]⟩ : Shape).Idx) :
    0 ≤ (concatenate (⟨1, ![330000]⟩ : Shape) 0
        [⟨⟨1, ![320000]⟩, shapeCast _ (extractStridedSlice ⟨2, ![1, 320000]⟩ off x1 hs) hc⟩, ⟨⟨1, ![10000]⟩, iotaInDim ⟨1, ![10000]⟩ 32 0⟩] hcat j).toInt
    ∧ (concatenate (⟨1, ![330000]⟩ : Shape) 0
        [⟨⟨1, ![320000]⟩, shapeCast _ (extractStridedSlice ⟨2, ![1, 320000]⟩ off x1 hs) hc⟩, ⟨⟨1, ![10000]⟩, iotaInDim ⟨1, ![10000]⟩ 32 0⟩] hcat j).toInt < 10000 := by
  obtain ⟨e, rfl⟩ : ∃ e : Fin 330000, j = ix1 e := ⟨j 0, eq_ix1 j⟩
  rw [edgeWord_apply r off hoff0 hoff1 x1 hs hc hcat e]
  split
  · exact hx _
  · have he := e.isLt
    rw [toInt_ofNat_small _ (by omega)]
    constructor <;> omega

/-- Adding 10000 to the negative words of a list without negative words changes nothing. -/
theorem wrap_eq_self {S : Shape} (c0 c1 w : IVec S 32) (h0 : ∀ i, c0 i = 0#32) (hw : ∀ i, 0 ≤ (w i).toInt) :
    select (cmpi .slt w c0) (addi w c1) w = w := by
  funext i
  show Scalar.select (BitVec.ofBool ((w i).slt (c0 i))) _ (w i) = w i
  rw [h0 i, BitVec.slt_eq_decide, BitVec.toInt_zero, decide_eq_false (not_lt.mpr (hw i))]
  rfl

/-- A list as a one-column array, read at `(e, 0)`. -/
theorem col_apply {α : Type} {E : ℕ} (h : (⟨1, ![E]⟩ : Shape).BroadcastsInDim ⟨2, ![E, 1]⟩ ![0]) (w : (⟨1, ![E]⟩ : Shape).Idx → α) (e : Fin E) :
    broadcastInDim ⟨2, ![E, 1]⟩ ![0] h w (ix2 e (0 : Fin 1)) = w (ix1 e) :=
  broadcastInDim_apply ![0] h w (ix2 e (0 : Fin 1)) (ix1 e) (fun ax => by
    match ax with
    | ⟨0, _⟩ =>
      show e.val = if E = 1 then 0 else e.val
      split
      · have := e.isLt; omega
      · rfl)

/-- Two one-column arrays side by side, read at `(e, 0)` and at `(e, 1)`. -/
theorem pair_apply_zero {α : Type} {E : ℕ} (a b : (⟨2, ![E, 1]⟩ : Shape).Idx → α)
    (h : Shape.Concatenates [(⟨2, ![E, 1]⟩ : Shape), ⟨2, ![E, 1]⟩] ⟨2, ![E, 2]⟩ 1) (e : Fin E) :
    concatenate (⟨2, ![E, 2]⟩ : Shape) 1 [⟨⟨2, ![E, 1]⟩, a⟩, ⟨⟨2, ![E, 1]⟩, b⟩] h (ix2 e (0 : Fin 2)) = a (ix2 e (0 : Fin 1)) :=
  concatenate_pair_apply_left (t := ⟨2, ![E, 2]⟩) (s₁ := ⟨2, ![E, 1]⟩) (s₂ := ⟨2, ![E, 1]⟩) (1 : Fin 2) a b h (ix2 e (0 : Fin 2)) rfl (ix2 e (0 : Fin 1))
    (fun x => match x with | ⟨0, _⟩ => rfl | ⟨1, _⟩ => rfl)

theorem pair_apply_one {α : Type} {E : ℕ} (a b : (⟨2, ![E, 1]⟩ : Shape).Idx → α)
    (h : Shape.Concatenates [(⟨2, ![E, 1]⟩ : Shape), ⟨2, ![E, 1]⟩] ⟨2, ![E, 2]⟩ 1) (e : Fin E) :
    concatenate (⟨2, ![E, 2]⟩ : Shape) 1 [⟨⟨2, ![E, 1]⟩, a⟩, ⟨⟨2, ![E, 1]⟩, b⟩] h (ix2 e (1 : Fin 2)) = b (ix2 e (0 : Fin 1)) :=
  concatenate_pair_apply_right (t := ⟨2, ![E, 2]⟩) (s₁ := ⟨2, ![E, 1]⟩) (s₂ := ⟨2, ![E, 1]⟩) (1 : Fin 2) a b h (ix2 e (1 : Fin 2)) rfl rfl (ix2 e (0 : Fin 1))
    (fun x hx => match x, hx with | ⟨0, _⟩, _ => rfl | ⟨1, _⟩, hx => absurd rfl hx)
    (by show 0 + 1 = 1; rfl)

end Cert.Bridge.Gcn

end
-- ==== Proof.GcnColumns.lean ====
/-
  The edge index columns, as the two programs spell them, and what they hold when every entry of the edge array is
  in `[0, 10000)`: the source and destination lists of the two programs are the same lists, wrapping the negative
  words leaves them as they are, and the columns built from them hold in-range sources and destinations.
-/
import proofs.«103117_j70961449664567_2_alg».proof.Proof.GcnIndex

noncomputable section

namespace Cert.Bridge.Gcn

open Idealize.ShloMosaic Idealize.ShloMosaic.ValueIdx

variable [Cert.KernelIdeal.Facts₀] [Cert.ReferenceIdeal.Facts₀]

section Kernel
open Cert.KernelIdeal Cert.KernelIdeal.Facts₀

/-- The kernel program's source words: row 0 of the edge array, then one self-loop per node. -/
def srcWK (x1 : IVec S2x320000 32) : IVec S330000 32 :=
  concatenate S330000 0 [⟨S320000, shapeCast _ (extractStridedSlice S1x320000 ![0, 0] x1 slices_S2x320000_S1x320000_0_0) shapeCasts_S1x320000_S320000⟩, ⟨S10000, iotaInDim S10000 32 0⟩] concatenates_S320000_S10000_S330000_d0

/-- The kernel program's destination words: row 1 of the edge array, then one self-loop per node. -/
def dstWK (x1 : IVec S2x320000 32) : IVec S330000 32 :=
  concatenate S330000 0 [⟨S320000, shapeCast _ (extractStridedSlice S1x320000 ![1, 0] x1 slices_S2x320000_S1x320000_1_0) shapeCasts_S1x320000_S320000⟩, ⟨S10000, iotaInDim S10000 32 0⟩] concatenates_S320000_S10000_S330000_d0

/-- Negative words moved up by the number of nodes, as the kernel program writes it. -/
def wrapK (w : IVec S330000 32) : IVec S330000 32 :=
  select (cmpi .slt w (broadcastInDim S330000 ![] bcast_S_S330000 (constantI S_ 32 0#32)))
    (addi w (broadcastInDim S330000 ![] bcast_S_S330000 (constantI S_ 32 10000#32))) w

/-- A list of words as a one-column array. -/
def colK (w : IVec S330000 32) : IVec S330000x1 32 := broadcastInDim S330000x1 ![0] bcast_S330000_S330000x1_0 w

/-- The kernel program's two-column index array: destination beside source. -/
def ikK (x1 : IVec S2x320000 32) : IVec S330000x2 32 :=
  concatenate S330000x2 1 [⟨S330000x1, colK (wrapK (dstWK x1))⟩, ⟨S330000x1, colK (wrapK (srcWK x1))⟩] concatenates_S330000x1_S330000x1_S330000x2_d1

end Kernel

section Reference
open Cert.ReferenceIdeal Cert.ReferenceIdeal.Facts₀

/-- The reference's source words. -/
def srcWR (x1 : IVec S2x320000 32) : IVec S330000 32 :=
  concatenate S330000 0 [⟨S320000, shapeCast _ (extractStridedSlice S1x320000 ![0, 0] x1 slices_S2x320000_S1x320000_0_0) shapeCasts_S1x320000_S320000⟩, ⟨S10000, iotaInDim S10000 32 0⟩] concatenates_S320000_S10000_S330000_d0

/-- The reference's destination words. -/
def dstWR (x1 : IVec S2x320000 32) : IVec S330000 32 :=
  concatenate S330000 0 [⟨S320000, shapeCast _ (extractStridedSlice S1x320000 ![1, 0] x1 slices_S2x320000_S1x320000_1_0) shapeCasts_S1x320000_S320000⟩, ⟨S10000, iotaInDim S10000 32 0⟩] concatenates_S320000_S10000_S330000_d0

/-- Negative words moved up by the number of nodes, as the reference writes it. -/
def wrapR (w : IVec S330000 32) : IVec S330000 32 :=
  select (cmpi .slt w (broadcastInDim S330000 ![] bcast_S_S330000 (constantI S_ 32 0#32)))
    (addi w (broadcastInDim S330000 ![] bcast_S_S330000 (constantI S_ 32 10000#32))) w

/-- A list of words as a one-column array. -/
def colR (w : IVec S330000 32) : IVec S330000x1 32 := broadcastInDim S330000x1 ![0] bcast_S330000_S330000x1_0 w

end Reference

theorem srcWK_eq_srcWR (x1 : IVec Cert.ReferenceIdeal.S2x320000 32) : srcWK x1 = srcWR x1 := rfl
theorem dstWK_eq_dstWR (x1 : IVec Cert.ReferenceIdeal.S2x320000 32) : dstWK x1 = dstWR x1 := rfl
theorem wrapK_eq_wrapR (w : IVec Cert.ReferenceIdeal.S330000 32) : wrapK w = wrapR w := rfl
theorem colK_eq_colR (w : IVec Cert.ReferenceIdeal.S330000 32) : colK w = colR w := rfl

/-- Every source word is in `[0, 10000)`. -/
theorem srcWR_range (x1 : IVec Cert.ReferenceIdeal.S2x320000 32) (hx : ∀ j, 0 ≤ (x1 j).toInt ∧ (x1 j).toInt < 10000)
    (j : Cert.ReferenceIdeal.S330000.Idx) : 0 ≤ (srcWR x1 j).toInt ∧ (srcWR x1 j).toInt < 10000 :=
  edgeWord_range 0 ![0, 0] rfl rfl x1 hx _ _ _ j

/-- Every destination word is in `[0, 10000)`. -/
theorem dstWR_range (x1 : IVec Cert.ReferenceIdeal.S2x320000 32) (hx : ∀ j, 0 ≤ (x1 j).toInt ∧ (x1 j).toInt < 10000)
    (j : Cert.ReferenceIdeal.S330000.Idx) : 0 ≤ (dstWR x1 j).toInt ∧ (dstWR x1 j).toInt < 10000 :=
  edgeWord_range 1 ![1, 0] rfl rfl x1 hx _ _ _ j

/-- Wrapping a list without negative words changes nothing. -/
theorem wrapR_eq_self (w : IVec Cert.ReferenceIdeal.S330000 32) (hw : ∀ i, 0 ≤ (w i).toInt) : wrapR w = w :=
  wrap_eq_self _ _ w (fun _ => rfl) hw

theorem wrapR_srcWR (x1 : IVec Cert.ReferenceIdeal.S2x320000 32) (hx : ∀ j, 0 ≤ (x1 j).toInt ∧ (x1 j).toInt < 10000) :
    wrapR (srcWR x1) = srcWR x1 := wrapR_eq_self _ fun i => (srcWR_range x1 hx i).1

theorem wrapR_dstWR (x1 : IVec Cert.ReferenceIdeal.S2x320000 32) (hx : ∀ j, 0 ≤ (x1 j).toInt ∧ (x1 j).toInt < 10000) :
    wrapR (dstWR x1) = dstWR x1 := wrapR_eq_self _ fun i => (dstWR_range x1 hx i).1

theorem wrapK_srcWK (x1 : IVec Cert.ReferenceIdeal.S2x320000 32) (hx : ∀ j, 0 ≤ (x1 j).toInt ∧ (x1 j).toInt < 10000) :
    wrapK (srcWK x1) = srcWR x1 := wrapR_srcWR x1 hx

theorem wrapK_dstWK (x1 : IVec Cert.ReferenceIdeal.S2x320000 32) (hx : ∀ j, 0 ≤ (x1 j).toInt ∧ (x1 j).toInt < 10000) :
    wrapK (dstWK x1) = dstWR x1 := wrapR_dstWR x1 hx

/-- The kernel program's two-column index array holds the destination word in column 0 and the source word in
    column 1. -/
theorem ikK_apply_zero (x1 : IVec Cert.ReferenceIdeal.S2x320000 32) (hx : ∀ j, 0 ≤ (x1 j).toInt ∧ (x1 j).toInt < 10000)
    (e : Fin 330000) : ikK x1 (ix2 e (0 : Fin 2)) = dstWR x1 (ix1 e) := by
  refine (pair_apply_zero _ _ _ e).trans ?_
  refine (col_apply _ _ e).trans ?_
  rw [wrapK_dstWK x1 hx]

theorem ikK_apply_one (x1 : IVec Cert.ReferenceIdeal.S2x320000 32) (hx : ∀ j, 0 ≤ (x1 j).toInt ∧ (x1 j).toInt < 10000)
    (e : Fin 330000) : ikK x1 (ix2 e (1 : Fin 2)) = srcWR x1 (ix1 e) := by
  refine (pair_apply_one _ _ _ e).trans ?_
  refine (col_apply _ _ e).trans ?_
  rw [wrapK_srcWK x1 hx]

theorem colR_apply (w : IVec Cert.ReferenceIdeal.S330000 32) (e : Fin 330000) : colR w (ix2 e (0 : Fin 1)) = w (ix1 e) :=
  col_apply _ w e

/-- THE INDEX COLUMNS hold in-range sources `s` and destinations `d`: the kernel program's two-column array, the
    reference's wrapped source column and its raw destination column. -/
theorem index_columns (x1 : IVec Cert.ReferenceIdeal.S2x320000 32) (hx : ∀ j, 0 ≤ (x1 j).toInt ∧ (x1 j).toInt < 10000) :
    ∃ s d : Fin 330000 → Fin 10000,
      (∀ e, (ikK x1 (ix2 e (0 : Fin 2))).toInt = ((d e).val : ℤ)) ∧ (∀ e, (ikK x1 (ix2 e (1 : Fin 2))).toInt = ((s e).val : ℤ)) ∧
      (∀ e, (colR (wrapR (srcWR x1)) (ix2 e (0 : Fin 1))).toInt = ((s e).val : ℤ)) ∧
      (∀ e, (colR (dstWR x1) (ix2 e (0 : Fin 1))).toInt = ((d e).val : ℤ)) := by
  refine ⟨fun e => ⟨(srcWR x1 (ix1 e)).toInt.toNat, by have := srcWR_range x1 hx (ix1 e); omega⟩,
    fun e => ⟨(dstWR x1 (ix1 e)).toInt.toNat, by have := dstWR_range x1 hx (ix1 e); omega⟩, ?_, ?_, ?_, ?_⟩
  · intro e
    rw [ikK_apply_zero x1 hx e]
    exact (Int.toNat_of_nonneg (dstWR_range x1 hx (ix1 e)).1).symm
  · intro e
    rw [ikK_apply_one x1 hx e]
    exact (Int.toNat_of_nonneg (srcWR_range x1 hx (ix1 e)).1).symm
  · intro e
    rw [wrapR_srcWR x1 hx, colR_apply]
    exact (Int.toNat_of_nonneg (srcWR_range x1 hx (ix1 e)).1).symm
  · intro e
    rw [colR_apply]
    exact (Int.toNat_of_nonneg (dstWR_range x1 hx (ix1 e)).1).symm

end Cert.Bridge.Gcn

end
-- ==== Proof.GcnGlue.lean ====
/-
  The three graph-convolution layers of the two programs agree.

  The kernel program multiplies its dense normalised adjacency by each layer's feature matrix; the reference gathers
  the feature rows at the edges' sources, scales them by the edge weights and segment-sums them at the destinations.
  With every entry of the edge array in `[0, 10000)`, the index columns hold in-range sources and destinations, the
  two programs' edge weights are the same non-negative numbers, and the layer lemma turns each product into the
  reference's aggregation; the bias and the rectifier are the same operations on both sides.
-/
import proofs.«103117_j70961449664567_2_alg».proof.Proof.KVal
import proofs.«103117_j70961449664567_2_alg».proof.Proof.RefRead
import proofs.«103117_j70961449664567_2_alg».proof.Proof.GcnLayer
import proofs.«103117_j70961449664567_2_alg».proof.Proof.GcnWeights
import proofs.«103117_j70961449664567_2_alg».proof.Proof.GcnColumns

noncomputable section

namespace Cert.Bridge.Gcn

open Idealize.ShloMosaic Idealize.ShloMosaic.ValueIdx Cert.KernelIdeal.KVal Cert.ReferenceIdeal.ReadP

/-- The two programs compute the same degree vector. -/
theorem deg_eq (a : Args) : kv_main_v10 a = val_main_v10 (F := Ideal) a.x1 := rfl

/-- The kernel program's edge weights are the reference's. -/
theorem norm_eq (a : Args) : kv_main_v33 a = val_main_v30 (F := Ideal) a.x1 :=
  (show kv_main_v33 a = normK (kv_main_v10 a) (kv_main_v24 a) (kv_main_v31 a) from rfl).trans
    ((normK_eq_normR _ _ _).trans rfl)

/-- The edge weights are non-negative. -/
theorem norm_nonneg (a : Args) (e : Cert.ReferenceIdeal.S330000.Idx) : 0 ≤ val_main_v30 (F := Ideal) a.x1 e :=
  normR_nonneg (val_main_v10 (F := Ideal) a.x1) (colR (wrapR (srcWR a.x1))) (colR (wrapR (dstWR a.x1))) e

/-- The kernel program's dense adjacency, over the spelled-out index array and the reference's weights. -/
theorem adj_eq (a : Args) :
    kv_main_v48 a = Host.scatterAdd (F := Ideal) Cert.KernelIdeal.scatter_S10000x10000_S330000x2_S330000_n_01_01_1
      (broadcastInDim Cert.KernelIdeal.S10000x10000 ![] Cert.KernelIdeal.Facts₀.bcast_S_S10000x10000 (constant (F := Ideal) Cert.KernelIdeal.S_ .f32 0x00000000#32))
      (ikK a.x1) (val_main_v30 (F := Ideal) a.x1) := by
  show Host.scatterAdd (F := Ideal) Cert.KernelIdeal.scatter_S10000x10000_S330000x2_S330000_n_01_01_1 (kv_main_v34 a) (kv_main_v47 a) (kv_main_v33 a) = _
  rw [norm_eq a]
  rfl

/-- ONE AGGREGATION: the kernel program's adjacency times any feature matrix `P` is the reference's gather, scale and
    segment-sum of `P`. -/
theorem agg_eq (a : Args) (hE : ∀ j, 0 ≤ (a.x1 j).toInt ∧ (a.x1 j).toInt < 10000) (P : FVec Ideal Cert.ReferenceIdeal.S10000x256 .f32) :
    Cert.Dense.mm (kv_main_v48 a) P
      = Host.scatterAdd (F := Ideal) Cert.ReferenceIdeal.scatter_S10000x256_S330000x1_S330000x256_1_0_0_1
          (broadcastInDim Cert.ReferenceIdeal.S10000x256 ![] Cert.ReferenceIdeal.Facts₀.bcast_S_S10000x256 (constant (F := Ideal) Cert.ReferenceIdeal.S_ .f32 0x00000000#32))
          (colR (dstWR a.x1))
          (mulf (Host.gather Cert.ReferenceIdeal.gather_S10000x256_S330000x1_S330000x256_1_0_n_n_0_1_1256 P (colR (wrapR (srcWR a.x1))))
            (broadcastInDim Cert.ReferenceIdeal.S330000x256 ![0, 1] Cert.ReferenceIdeal.Facts₀.bcast_S330000x1_S330000x256_0_1
              (broadcastInDim Cert.ReferenceIdeal.S330000x1 ![0] Cert.ReferenceIdeal.Facts₀.bcast_S330000_S330000x1_0 (val_main_v30 (F := Ideal) a.x1)))) := by
  obtain ⟨s, d, hk0, hk1, hsrc, hdst⟩ := index_columns a.x1 hE
  rw [adj_eq a]
  exact layer (ikK a.x1) (colR (wrapR (srcWR a.x1))) (colR (dstWR a.x1)) s d hk0 hk1 hsrc hdst
    (val_main_v30 (F := Ideal) a.x1) (norm_nonneg a) P

/-- The first layer. -/
theorem layer1_eq (a : Args) (hE : ∀ j, 0 ≤ (a.x1 j).toInt ∧ (a.x1 j).toInt < 10000) :
    kv_main_v55 a = val_main_v48 (F := Ideal) a.x0 a.x1 a.x6 a.x7 := by
  have h51 : kv_main_v51 a = val_main_v44 (F := Ideal) a.x0 a.x1 a.x6 := (agg_eq a hE (kv_main_v50 a)).trans rfl
  show maximumf (addf (kv_main_v51 a) (kv_main_v53 a)) (kv_main_call2_v0 a) = _
  rw [h51]
  rfl

/-- The second layer. -/
theorem layer2_eq (a : Args) (hE : ∀ j, 0 ≤ (a.x1 j).toInt ∧ (a.x1 j).toInt < 10000) :
    kv_main_v62 a = val_main_v66 (F := Ideal) a.x0 a.x1 a.x6 a.x7 a.x8 a.x9 := by
  have h57 : kv_main_v57 a = val_main_v49 (F := Ideal) a.x0 a.x1 a.x6 a.x7 a.x8 := by
    show Host.dotGeneral (F := Ideal) Cert.KernelIdeal.dot_S10000x256_S256x256_S10000x256_1_0_0_1_n_n none (kv_main_v55 a) a.x8 = _
    rw [layer1_eq a hE]
    rfl
  have h58 : kv_main_v58 a = val_main_v62 (F := Ideal) a.x0 a.x1 a.x6 a.x7 a.x8 := by
    show Cert.Dense.mm (kv_main_v48 a) (kv_main_v57 a) = _
    rw [h57]
    exact (agg_eq a hE _).trans rfl
  show maximumf (addf (kv_main_v58 a) (kv_main_v60 a)) (kv_main_call3_v0 a) = _
  rw [h58]
  rfl

/-- THE THREE GRAPH-CONVOLUTION LAYERS: the kernel program's value after the third rectifier is the reference's. -/
theorem gcn_eq (a : Cert.KernelIdeal.KVal.Args) (hE : ∀ j, 0 ≤ (a.x1 j).toInt ∧ (a.x1 j).toInt < 10000) :
    Cert.KernelIdeal.KVal.kv_main_v69 a
      = Cert.ReferenceIdeal.ReadP.val_main_v84 (F := Ideal) a.x0 a.x1 a.x6 a.x7 a.x8 a.x9 a.x10 a.x11 := by
  have h64 : kv_main_v64 a = val_main_v67 (F := Ideal) a.x0 a.x1 a.x6 a.x7 a.x8 a.x9 a.x10 := by
    show Host.dotGeneral (F := Ideal) Cert.KernelIdeal.dot_S10000x256_S256x256_S10000x256_1_0_0_1_n_n none (kv_main_v62 a) a.x10 = _
    rw [layer2_eq a hE]
    rfl
  have h65 : kv_main_v65 a = val_main_v80 (F := Ideal) a.x0 a.x1 a.x6 a.x7 a.x8 a.x9 a.x10 := by
    show Cert.Dense.mm (kv_main_v48 a) (kv_main_v64 a) = _
    rw [h64]
    exact (agg_eq a hE _).trans rfl
  show maximumf (addf (kv_main_v65 a) (kv_main_v67 a)) (kv_main_call4_v0 a) = _
  rw [h65]
  rfl

end Cert.Bridge.Gcn

end
-- ==== Proof.SubSpec.lean ====
/-
  The feature layer of the sub-branch, on the extended reals: an affine map, a normalisation of every column by the
  column's own mean and variance over the 10000 rows, a rectification, and a second affine map.

  For a 10000-row array `X`, weights `W1`, `W2` and vectors `b1`, `g`, `be`, `b2`:
  `h = X W1 + b1`; `mu(d) = (0 + ∑ k, h(k, d)) / 10000`; `var(d) = (0 + ∑ k, (h(k, d) - mu(d))²) / 10000`;
  `n(i, d) = g(d) (h(i, d) - mu(d)) rsqrt(var(d) + eps) + be(d)`; `r = max(n, 0)`; the result is `r W2 + b2`.
  Each value is written index by index in the order in which it is computed — every sum starts from the zero word,
  every literal stays the word it is — so that two programs that run these operations in this order both compute
  exactly this function and no algebra is needed to compare them.
-/
import Idealize.ShloMosaic.PureOps.Ideal.Laws
import Idealize.ShloMosaic.Lib.ValueIdx
import proofs.«103117_j70961449664567_2_alg».proof.Proof.LibDense

noncomputable section

open scoped BigOperators

namespace Cert.Bridge.Sub

open Idealize.ShloMosaic Idealize.ShloMosaic.ValueIdx Cert.Dense

/-- The coordinate of a rank-1 index, typed by the extent itself. -/
abbrev r0 {a : ℕ} (j : (⟨1, ![a]⟩ : Shape).Idx) : Fin a := ⟨(j 0).val, (j 0).isLt⟩

/-- The `m`-th slice of an array with a leading axis of extent 4. -/
def sl3 {a b : ℕ} (A : (⟨3, ![4, a, b]⟩ : Shape).Idx → EReal) (m : Fin 4) : Mat a b := fun j => A (ix3 m (c0 j) (c1 j))

theorem sl3_apply {a b : ℕ} (A : (⟨3, ![4, a, b]⟩ : Shape).Idx → EReal) (m : Fin 4) (p : Fin a) (q : Fin b) :
    sl3 A m (ix2 p q) = A (ix3 m p q) := rfl

/-- The `m`-th row of an array of four vectors. -/
def sl2 {b : ℕ} (v : (⟨2, ![4, b]⟩ : Shape).Idx → EReal) (m : Fin 4) : Row b := fun j => v (ix2 m (r0 j))

theorem sl2_apply {b : ℕ} (v : (⟨2, ![4, b]⟩ : Shape).Idx → EReal) (m : Fin 4) (q : Fin b) :
    sl2 v m (ix1 q) = v (ix2 m q) := rfl

/-- The affine map `X W + b`, the vector `b` added to every row. -/
def affine {K : ℕ} (X : Mat 10000 K) (W : Mat K 256) (b : Row 256) : Mat 10000 256 :=
  fun i => mm X W i + b (ix1 (c1 i))

theorem affine_apply {K : ℕ} (X : Mat 10000 K) (W : Mat K 256) (b : Row 256) (p : Fin 10000) (q : Fin 256) :
    affine X W b (ix2 p q) = (∑ k : Fin K, X (ix2 p k) * W (ix2 k q)) + b (ix1 q) := rfl

/-- The mean of every column: the column's sum from the zero word, divided by the word of 10000. -/
def colMean (H : Mat 10000 256) : Row 256 :=
  fun j => Ideal.div (Ideal.ofBits .f32 0x00000000#32 + ∑ k : Fin 10000, H (ix2 k (r0 j))) (Ideal.ofBits .f32 0x461C4000#32)

theorem colMean_apply (H : Mat 10000 256) (q : Fin 256) :
    colMean H (ix1 q)
      = Ideal.div (Ideal.ofBits .f32 0x00000000#32 + ∑ k : Fin 10000, H (ix2 k q)) (Ideal.ofBits .f32 0x461C4000#32) := rfl

/-- Every entry less its column's mean. -/
def centred (H : Mat 10000 256) : Mat 10000 256 := fun i => H i - colMean H (ix1 (c1 i))

theorem centred_apply (H : Mat 10000 256) (p : Fin 10000) (q : Fin 256) :
    centred H (ix2 p q) = H (ix2 p q) - colMean H (ix1 q) := rfl

/-- The square of every centred entry. -/
def sqDev (H : Mat 10000 256) : Mat 10000 256 := fun i => centred H i * centred H i

theorem sqDev_apply (H : Mat 10000 256) (p : Fin 10000) (q : Fin 256) :
    sqDev H (ix2 p q) = centred H (ix2 p q) * centred H (ix2 p q) := rfl

/-- The variance of every column: the mean of the squared centred entries. -/
def colVar (H : Mat 10000 256) : Row 256 := colMean (sqDev H)

/-- The normalised array: `g (h - mu) rsqrt (var + eps) + be`, column by column. -/
def normed (H : Mat 10000 256) (g be : Row 256) : Mat 10000 256 :=
  fun i => g (ix1 (c1 i)) * centred H i * Ideal.rsqrt (colVar H (ix1 (c1 i)) + Ideal.ofBits .f32 0x3727C5AC#32)
    + be (ix1 (c1 i))

theorem normed_apply (H : Mat 10000 256) (g be : Row 256) (p : Fin 10000) (q : Fin 256) :
    normed H g be (ix2 p q)
      = g (ix1 q) * centred H (ix2 p q) * Ideal.rsqrt (colVar H (ix1 q) + Ideal.ofBits .f32 0x3727C5AC#32) + be (ix1 q) := rfl

/-- The rectification: the maximum with the zero word. -/
def rect (H : Mat 10000 256) : Mat 10000 256 := fun i => max (H i) (Ideal.ofBits .f32 0x00000000#32)

theorem rect_apply (H : Mat 10000 256) (i : (⟨2, ![10000, 256]⟩ : Shape).Idx) :
    rect H i = max (H i) (Ideal.ofBits .f32 0x00000000#32) := rfl

/-- The feature layer: affine, normalise over the rows, rectify, affine. -/
def subLayer (X : Mat 10000 158) (W1 : Mat 158 256) (b1 g be : Row 256) (W2 : Mat 256 256) (b2 : Row 256) :
    Mat 10000 256 :=
  affine (rect (normed (affine X W1 b1) g be)) W2 b2

theorem subLayer_apply (X : Mat 10000 158) (W1 : Mat 158 256) (b1 g be : Row 256) (W2 : Mat 256 256) (b2 : Row 256)
    (p : Fin 10000) (q : Fin 256) :
    subLayer X W1 b1 g be W2 b2 (ix2 p q)
      = (∑ k : Fin 256, rect (normed (affine X W1 b1) g be) (ix2 p k) * W2 (ix2 k q)) + b2 (ix1 q) := rfl

end Cert.Bridge.Sub
-- ==== Proof.SubKer.lean ====
/-
  The kernel program's feature layer — its host operations from the first affine map's dot product to the second
  affine map's bias, with the rectification's maximum and its broadcast zero in line — as one function of the layer's
  seven operands, and that function read index by index: it is the layer of the specification.
-/
import proofs.«103117_j70961449664567_2_alg».proof.Proof.Gen.KernelIdeal
import proofs.«103117_j70961449664567_2_alg».proof.Proof.SubSpec

noncomputable section

open scoped BigOperators

namespace Cert.Bridge.Sub

open Idealize.ShloMosaic Idealize.ShloMosaic.ValueIdx Cert.Dense
open Cert.KernelIdeal Cert.KernelIdeal.Facts₀ Cert.KernelIdeal.Facts

/-- A vector laid along every row: broadcast to one row, that row to all rows. -/
def kRows (b : FVec Ideal S256 .f32) : FVec Ideal S10000x256 .f32 :=
  broadcastInDim S10000x256 ![0, 1] bcast_S1x256_S10000x256_0_1 (broadcastInDim S1x256 ![1] bcast_S256_S1x256_1 b)

/-- A scalar word laid along a vector. -/
def kSplat (w : BitVec 32) : FVec Ideal S256 .f32 :=
  broadcastInDim S256 ![] bcast_S_S256 (constant (F := Ideal) S_ .f32 w)

/-- The first affine map. -/
def kAffine1 (X : FVec Ideal S10000x158 .f32) (W1 : FVec Ideal S158x256 .f32) (b1 : FVec Ideal S256 .f32) :
    FVec Ideal S10000x256 .f32 :=
  addf (Host.dotGeneral (F := Ideal) dot_S10000x158_S158x256_S10000x256_1_0_0_1_n_n none X W1) (kRows b1)

/-- The column means: the sum over the rows from the zero constant, divided by the splat of 10000. -/
def kMean (H : FVec Ideal S10000x256 .f32) : FVec Ideal S256 .f32 :=
  Host.divf (F := Ideal)
    (Host.reduceAdd (F := Ideal) H (constant (F := Ideal) S_ .f32 0x00000000#32) reducesTo_S10000x256_S256_d0 h_S_)
    (kSplat 0x461C4000#32)

/-- The column variances: the mean of the squared differences from the column means. -/
def kVar (H : FVec Ideal S10000x256 .f32) : FVec Ideal S256 .f32 :=
  kMean (mulf (subf H (kRows (kMean H))) (subf H (kRows (kMean H))))

/-- The normalised array. -/
def kNormed (H : FVec Ideal S10000x256 .f32) (g be : FVec Ideal S256 .f32) : FVec Ideal S10000x256 .f32 :=
  addf
    (mulf (mulf (kRows g) (subf H (kRows (kMean H))))
      (kRows (Host.rsqrt (F := Ideal) (addf (kVar H) (kSplat 0x3727C5AC#32)))))
    (kRows be)

/-- The rectification: the maximum with a broadcast zero constant. -/
def kRect (H : FVec Ideal S10000x256 .f32) : FVec Ideal S10000x256 .f32 :=
  maximumf H (broadcastInDim S10000x256 ![] bcast_S_S10000x256 (constant (F := Ideal) S_ .f32 0x00000000#32))

/-- The second affine map. -/
def kAffine2 (H : FVec Ideal S10000x256 .f32) (W2 : FVec Ideal S256x256 .f32) (b2 : FVec Ideal S256 .f32) :
    FVec Ideal S10000x256 .f32 :=
  addf (Host.dotGeneral (F := Ideal) dot_S10000x256_S256x256_S10000x256_1_0_0_1_n_n none H W2) (kRows b2)

/-- The layer as the kernel program's host operations compute it. -/
def kLayer (X : FVec Ideal S10000x158 .f32) (W1 : FVec Ideal S158x256 .f32) (b1 g be : FVec Ideal S256 .f32)
    (W2 : FVec Ideal S256x256 .f32) (b2 : FVec Ideal S256 .f32) : FVec Ideal S10000x256 .f32 :=
  kAffine2 (kRect (kNormed (kAffine1 X W1 b1) g be)) W2 b2

theorem kRows_apply (b : FVec Ideal S256 .f32) (p : Fin 10000) (q : Fin 256) : kRows b (ix2 p q) = b (ix1 q) := by
  unfold kRows
  rw [broadcastInDim_apply ![0, 1] bcast_S1x256_S10000x256_0_1 _ (ix2 p q) (ix2 (0 : Fin 1) q) (fun a => by
        match a with
        | ⟨0, _⟩ => rfl
        | ⟨1, _⟩ => rfl),
    broadcastInDim_apply ![1] bcast_S256_S1x256_1 b (ix2 (0 : Fin 1) q) (ix1 q) (fun a => by
        match a with
        | ⟨0, _⟩ => rfl)]

theorem kSplat_apply (w : BitVec 32) (j : S256.Idx) : kSplat w j = Ideal.ofBits .f32 w := by
  unfold kSplat
  rw [broadcastInDim_apply ![] bcast_S_S256 _ j ix0 (fun a => a.elim0)]
  rfl

theorem kAffine1_eq (X : FVec Ideal S10000x158 .f32) (W1 : FVec Ideal S158x256 .f32) (b1 : FVec Ideal S256 .f32) :
    kAffine1 X W1 b1 = affine X W1 b1 := by
  funext i
  obtain ⟨p, q, rfl⟩ : ∃ (p : Fin 10000) (q : Fin 256), i = ix2 p q := ⟨i 0, i 1, eq_ix2 i⟩
  unfold kAffine1
  rw [addf_apply, kRows_apply, hostDot_eq_mm _ rfl rfl rfl rfl rfl rfl]
  rfl

theorem kAffine2_eq (H : FVec Ideal S10000x256 .f32) (W2 : FVec Ideal S256x256 .f32) (b2 : FVec Ideal S256 .f32) :
    kAffine2 H W2 b2 = affine H W2 b2 := by
  funext i
  obtain ⟨p, q, rfl⟩ : ∃ (p : Fin 10000) (q : Fin 256), i = ix2 p q := ⟨i 0, i 1, eq_ix2 i⟩
  unfold kAffine2
  rw [addf_apply, kRows_apply, hostDot_eq_mm _ rfl rfl rfl rfl rfl rfl]
  rfl

theorem kMean_eq (H : FVec Ideal S10000x256 .f32) : kMean H = colMean H := by
  funext j
  obtain ⟨q, rfl⟩ : ∃ q : Fin 256, j = ix1 q := ⟨j 0, eq_ix1 j⟩
  unfold kMean
  show Ideal.div _ _ = _
  rw [kSplat_apply, colMean_apply]
  refine congrArg (Ideal.div · _) ?_
  simp only [Host.reduceAdd, Ideal.hostReduceAdd_def]
  rw [Ideal.hostReduceAdd_single reducesTo_S10000x256_S256_d0 (by decide)]
  refine congrArg₂ (· + ·) rfl (Finset.sum_congr rfl fun k _ => ?_)
  exact congrArg H (funext fun a => Fin.ext (by match a with | ⟨0, _⟩ => rfl | ⟨1, _⟩ => rfl))

theorem kCentred_eq (H : FVec Ideal S10000x256 .f32) : subf H (kRows (kMean H)) = centred H := by
  funext i
  obtain ⟨p, q, rfl⟩ : ∃ (p : Fin 10000) (q : Fin 256), i = ix2 p q := ⟨i 0, i 1, eq_ix2 i⟩
  rw [subf_apply, kRows_apply, kMean_eq]
  rfl

theorem kVar_eq (H : FVec Ideal S10000x256 .f32) : kVar H = colVar H := by
  unfold kVar
  rw [kCentred_eq, kMean_eq]
  rfl

theorem kNormed_eq (H : FVec Ideal S10000x256 .f32) (g be : FVec Ideal S256 .f32) : kNormed H g be = normed H g be := by
  funext i
  obtain ⟨p, q, rfl⟩ : ∃ (p : Fin 10000) (q : Fin 256), i = ix2 p q := ⟨i 0, i 1, eq_ix2 i⟩
  unfold kNormed
  rw [kCentred_eq, kVar_eq, addf_apply, mulf_apply, mulf_apply, kRows_apply, kRows_apply, kRows_apply, normed_apply]
  show _ * _ * Ideal.rsqrt (colVar H (ix1 q) + kSplat 0x3727C5AC#32 (ix1 q)) + _ = _
  rw [kSplat_apply]

theorem kRect_eq (H : FVec Ideal S10000x256 .f32) : kRect H = rect H := by
  funext i
  unfold kRect
  rw [maximumf_apply, broadcastInDim_apply ![] bcast_S_S10000x256 _ i ix0 (fun a => a.elim0)]
  rfl

/-- The kernel program's layer is the layer of the specification. -/
theorem kLayer_eq (X : FVec Ideal S10000x158 .f32) (W1 : FVec Ideal S158x256 .f32) (b1 g be : FVec Ideal S256 .f32)
    (W2 : FVec Ideal S256x256 .f32) (b2 : FVec Ideal S256 .f32) :
    kLayer X W1 b1 g be W2 b2 = subLayer X W1 b1 g be W2 b2 := by
  unfold kLayer subLayer
  rw [kAffine1_eq, kNormed_eq, kRect_eq, kAffine2_eq]

end Cert.Bridge.Sub
-- ==== Proof.SubSlice.lean ====
/-
  The kernel program takes the `m`-th weight matrix or vector out of a stacked array by a slice of one unit along the
  leading axis followed by a cast that drops the unit axis. Read at an index, that is the stacked array at `(m, …)`:
  the `m`-th slice.
-/
import proofs.«103117_j70961449664567_2_alg».proof.Proof.Gen.KernelIdeal
import proofs.«103117_j70961449664567_2_alg».proof.Proof.SubSpec

noncomputable section

open scoped BigOperators

namespace Cert.Bridge.Sub

open Idealize.ShloMosaic Idealize.ShloMosaic.ValueIdx Cert.Dense
open Cert.KernelIdeal Cert.KernelIdeal.Facts₀ Cert.KernelIdeal.Facts

/-- One unit of a `[4, a, b]` array at offset `o` on the leading axis, the unit axis dropped: the `o`-th slice. -/
theorem slice_mat {a b : ℕ} (o : ℕ) (ho : o < 4) (x : (⟨3, ![4, a, b]⟩ : Shape).Idx → EReal)
    (hs : (⟨3, ![4, a, b]⟩ : Shape).Slices ![o, 0, 0] ⟨3, ![1, a, b]⟩)
    (hc : (⟨3, ![1, a, b]⟩ : Shape).ShapeCasts ⟨2, ![a, b]⟩) :
    shapeCast ⟨2, ![a, b]⟩ (extractStridedSlice ⟨3, ![1, a, b]⟩ ![o, 0, 0] x hs) hc = sl3 x ⟨o, ho⟩ := by
  funext j
  obtain ⟨k, d, rfl⟩ : ∃ (k : Fin a) (d : Fin b), j = ix2 k d := ⟨j 0, j 1, eq_ix2 j⟩
  rw [shapeCast_1ab_ab_apply, sl3_apply]
  exact extractStridedSlice_apply ![o, 0, 0] x hs (ix3 (0 : Fin 1) k d) (ix3 (⟨o, ho⟩ : Fin 4) k d) (fun c => by
    match c with
    | ⟨0, _⟩ => rfl
    | ⟨1, _⟩ => exact (Nat.zero_add _).symm
    | ⟨2, _⟩ => exact (Nat.zero_add _).symm)

/-- One row of a `[4, b]` array at offset `o`, the unit axis dropped: the `o`-th row. -/
theorem slice_row {b : ℕ} (o : ℕ) (ho : o < 4) (x : (⟨2, ![4, b]⟩ : Shape).Idx → EReal)
    (hs : (⟨2, ![4, b]⟩ : Shape).Slices ![o, 0] ⟨2, ![1, b]⟩) (hc : (⟨2, ![1, b]⟩ : Shape).ShapeCasts ⟨1, ![b]⟩) :
    shapeCast ⟨1, ![b]⟩ (extractStridedSlice ⟨2, ![1, b]⟩ ![o, 0] x hs) hc = sl2 x ⟨o, ho⟩ := by
  funext j
  obtain ⟨d, rfl⟩ : ∃ d : Fin b, j = ix1 d := ⟨j 0, eq_ix1 j⟩
  rw [shapeCast_1a_a_apply, sl2_apply]
  exact extractStridedSlice_apply ![o, 0] x hs (ix2 (0 : Fin 1) d) (ix2 (⟨o, ho⟩ : Fin 4) d) (fun c => by
    match c with
    | ⟨0, _⟩ => rfl
    | ⟨1, _⟩ => exact (Nat.zero_add _).symm)

/-! The twelve instances the kernel program uses: for each `m`, the first weights (from argument 12), the second
weights (from argument 16), and a vector (from arguments 13, 14, 15, 17, all through the same two records). -/

theorem w1_0 (x12 : FVec Ideal S4x158x256 .f32) :
    shapeCast S158x256 (extractStridedSlice S1x158x256 ![0, 0, 0] x12 slices_S4x158x256_S1x158x256_0_0_0)
        shapeCasts_S1x158x256_S158x256 = sl3 x12 0 :=
  slice_mat 0 (by decide) x12 _ _

theorem w2_0 (x16 : FVec Ideal S4x256x256 .f32) :
    shapeCast S256x256 (extractStridedSlice S1x256x256 ![0, 0, 0] x16 slices_S4x256x256_S1x256x256_0_0_0)
        shapeCasts_S1x256x256_S256x256 = sl3 x16 0 :=
  slice_mat 0 (by decide) x16 _ _

theorem vec_0 (x : FVec Ideal S4x256 .f32) :
    shapeCast S256 (extractStridedSlice S1x256 ![0, 0] x slices_S4x256_S1x256_0_0) shapeCasts_S1x256_S256
      = sl2 x 0 :=
  slice_row 0 (by decide) x _ _

theorem w1_1 (x12 : FVec Ideal S4x158x256 .f32) :
    shapeCast S158x256 (extractStridedSlice S1x158x256 ![1, 0, 0] x12 slices_S4x158x256_S1x158x256_1_0_0)
        shapeCasts_S1x158x256_S158x256 = sl3 x12 1 :=
  slice_mat 1 (by decide) x12 _ _

theorem w2_1 (x16 : FVec Ideal S4x256x256 .f32) :
    shapeCast S256x256 (extractStridedSlice S1x256x256 ![1, 0, 0] x16 slices_S4x256x256_S1x256x256_1_0_0)
        shapeCasts_S1x256x256_S256x256 = sl3 x16 1 :=
  slice_mat 1 (by decide) x16 _ _

theorem vec_1 (x : FVec Ideal S4x256 .f32) :
    shapeCast S256 (extractStridedSlice S1x256 ![1, 0] x slices_S4x256_S1x256_1_0) shapeCasts_S1x256_S256
      = sl2 x 1 :=
  slice_row 1 (by decide) x _ _

theorem w1_2 (x12 : FVec Ideal S4x158x256 .f32) :
    shapeCast S158x256 (extractStridedSlice S1x158x256 ![2, 0, 0] x12 slices_S4x158x256_S1x158x256_2_0_0)
        shapeCasts_S1x158x256_S158x256 = sl3 x12 2 :=
  slice_mat 2 (by decide) x12 _ _

theorem w2_2 (x16 : FVec Ideal S4x256x256 .f32) :
    shapeCast S256x256 (extractStridedSlice S1x256x256 ![2, 0, 0] x16 slices_S4x256x256_S1x256x256_2_0_0)
        shapeCasts_S1x256x256_S256x256 = sl3 x16 2 :=
  slice_mat 2 (by decide) x16 _ _

theorem vec_2 (x : FVec Ideal S4x256 .f32) :
    shapeCast S256 (extractStridedSlice S1x256 ![2, 0] x slices_S4x256_S1x256_2_0) shapeCasts_S1x256_S256
      = sl2 x 2 :=
  slice_row 2 (by decide) x _ _

theorem w1_3 (x12 : FVec Ideal S4x158x256 .f32) :
    shapeCast S158x256 (extractStridedSlice S1x158x256 ![3, 0, 0] x12 slices_S4x158x256_S1x158x256_3_0_0)
        shapeCasts_S1x158x256_S158x256 = sl3 x12 3 :=
  slice_mat 3 (by decide) x12 _ _

theorem w2_3 (x16 : FVec Ideal S4x256x256 .f32) :
    shapeCast S256x256 (extractStridedSlice S1x256x256 ![3, 0, 0] x16 slices_S4x256x256_S1x256x256_3_0_0)
        shapeCasts_S1x256x256_S256x256 = sl3 x16 3 :=
  slice_mat 3 (by decide) x16 _ _

theorem vec_3 (x : FVec Ideal S4x256 .f32) :
    shapeCast S256 (extractStridedSlice S1x256 ![3, 0] x slices_S4x256_S1x256_3_0) shapeCasts_S1x256_S256
      = sl2 x 3 :=
  slice_row 3 (by decide) x _ _

end Cert.Bridge.Sub
-- ==== Proof.SubSum.lean ====
/-
  Four arrays added one after another onto a broadcast zero, read at an index: the zero word plus the sum of the four
  values there. Addition on the extended reals is associative, so the left-nested chain is the sum from zero.
-/
import proofs.«103117_j70961449664567_2_alg».proof.Proof.Gen.KernelIdeal
import proofs.«103117_j70961449664567_2_alg».proof.Proof.LibDense

noncomputable section

open scoped BigOperators

namespace Cert.Bridge.Sub

open Idealize.ShloMosaic Idealize.ShloMosaic.ValueIdx Cert.Dense
open Cert.KernelIdeal Cert.KernelIdeal.Facts₀ Cert.KernelIdeal.Facts

/-- The chain `(((0 + L 0) + L 1) + L 2) + L 3` at an index is the zero word plus `∑ m, L m` there. -/
theorem sum4_apply (L : Fin 4 → FVec Ideal S10000x256 .f32) (i : Fin 10000) (d : Fin 256) :
    addf (addf (addf (addf
        (broadcastInDim S10000x256 ![] bcast_S_S10000x256 (constant (F := Ideal) S_ .f32 0x00000000#32)) (L 0)) (L 1)) (L 2))
        (L 3) (ix2 i d)
      = Ideal.ofBits .f32 0x00000000#32 + ∑ m : Fin 4, L m (ix2 i d) := by
  rw [Fin.sum_univ_four, addf_apply, addf_apply, addf_apply, addf_apply,
    broadcastInDim_apply ![] bcast_S_S10000x256 _ (ix2 i d) ix0 (fun a => a.elim0)]
  show Ideal.ofBits .f32 0x00000000#32 + L 0 (ix2 i d) + L 1 (ix2 i d) + L 2 (ix2 i d) + L 3 (ix2 i d)
    = Ideal.ofBits .f32 0x00000000#32 + (L 0 (ix2 i d) + L 1 (ix2 i d) + L 2 (ix2 i d) + L 3 (ix2 i d))
  simp only [add_assoc]

/-- The same with the four arrays named. -/
theorem sum4_apply' (L0 L1 L2 L3 : FVec Ideal S10000x256 .f32) (i : Fin 10000) (d : Fin 256) :
    addf (addf (addf (addf
        (broadcastInDim S10000x256 ![] bcast_S_S10000x256 (constant (F := Ideal) S_ .f32 0x00000000#32)) L0) L1) L2) L3
        (ix2 i d)
      = Ideal.ofBits .f32 0x00000000#32 + ∑ m : Fin 4, (![L0, L1, L2, L3] : Fin 4 → FVec Ideal S10000x256 .f32) m (ix2 i d) :=
  sum4_apply ![L0, L1, L2, L3] i d

end Cert.Bridge.Sub
-- ==== Proof.PadMm.lean ====
/-
  The padded product against the plain one. The kernel program pads the features from 158 to 256 columns, rounds to
  the narrow format (the identity on the extended reals), multiplies by the propagation matrix and keeps the first 158
  columns; the reference multiplies the unpadded features. A kept column lies inside the operand, where the padded
  array is the operand, so both read `∑ k, H(i, k) · X(k, d)` at `(i, d)`.
-/
import proofs.«103117_j70961449664567_2_alg».proof.Proof.Gen.KernelIdeal
import proofs.«103117_j70961449664567_2_alg».proof.Proof.Gen.ReferenceIdeal
import proofs.«103117_j70961449664567_2_alg».proof.Proof.LibDense
import Idealize.ShloMosaic.Lib.KernelVsHost

noncomputable section

open scoped BigOperators

namespace Cert.Bridge.Sub

open Idealize.ShloMosaic Idealize.ShloMosaic.ValueIdx Cert.Dense
open Cert.KernelIdeal Cert.KernelIdeal.Facts₀ Cert.KernelIdeal.Facts

/-- The features padded to 256 columns and rounded to the narrow format, as the kernel program spells them. -/
def kPadded (X : FVec Ideal S10000x158 .f32) (v : FVec Ideal S_ .f32) : FVec Ideal S10000x256 .bf16 :=
  truncf .bf16 (pad S10000x256 ![0, 0] ![0, 98] ![0, 0] X v pads_S10000x158_S10000x256_000_0980 h_S_) bitsLt_bf16_f32

/-- Inside the first 158 columns the padded array is the operand. -/
theorem kPadded_apply (X : FVec Ideal S10000x158 .f32) (v : FVec Ideal S_ .f32) (k : Fin 10000) (d : Fin 158) :
    kPadded X v (ix2 k (Fin.castLE (by decide : 158 ≤ 256) d)) = X (ix2 k d) := by
  unfold kPadded
  rw [truncf_apply]
  exact pad_apply_of_inside ![0, 0] ![0, 98] ![0, 0] X v pads_S10000x158_S10000x256_000_0980 h_S_
    (ix2 k (Fin.castLE (by decide : 158 ≤ 256) d)) (ix2 k d) (fun a => by
    match a with
    | ⟨0, _⟩ => show k.val = 0 + k.val * (0 + 1); omega
    | ⟨1, _⟩ => show d.val = 0 + d.val * (0 + 1); omega)

/-- The product with the padded features, cut back to 158 columns, is the reference's plain product. -/
theorem padMm_eq (H : FVec Ideal S10000x10000 .f32) (X : FVec Ideal S10000x158 .f32) (v : FVec Ideal S_ .f32) :
    extractStridedSlice S10000x158 ![0, 0] (mm H (kPadded X v)) slices_S10000x256_S10000x158_0_0
      = Host.dotGeneral (F := Ideal) Cert.ReferenceIdeal.dot_S10000x10000_S10000x158_S10000x158_1_0_0_1_n_n none H X := by
  funext j
  obtain ⟨i, d, rfl⟩ : ∃ (i : Fin 10000) (d : Fin 158), j = ix2 i d := ⟨j 0, j 1, eq_ix2 j⟩
  rw [hostDot_eq_mm _ rfl rfl rfl rfl rfl rfl, mm_apply,
    extractStridedSlice_apply ![0, 0] _ slices_S10000x256_S10000x158_0_0 (ix2 i d)
      (ix2 i (Fin.castLE (by decide : 158 ≤ 256) d)) (fun a => by
        match a with
        | ⟨0, _⟩ => exact (Nat.zero_add _).symm
        | ⟨1, _⟩ => exact (Nat.zero_add _).symm),
    mm_apply]
  exact Finset.sum_congr rfl fun k _ => congrArg (H (ix2 i k) * ·) (kPadded_apply X v k d)

end Cert.Bridge.Sub
-- ==== Proof.SubRef.lean ====
/-
  The reference program's batched feature layer, read slice by slice: the batch index `m` of every array in it selects
  one plain layer, so the value at `(m, i, d)` is the layer of the specification, on the `m`-th slices of the stacked
  features, weights and vectors, at `(i, d)`; and the reduction over the batch axis adds the four slices from zero.
-/
import proofs.«103117_j70961449664567_2_alg».proof.Proof.RefRead
import proofs.«103117_j70961449664567_2_alg».proof.Proof.SubSpec

noncomputable section

open scoped BigOperators

namespace Cert.Bridge.Sub

open Idealize.ShloMosaic Idealize.ShloMosaic.ValueIdx Cert.Dense
open Cert.ReferenceIdeal Cert.ReferenceIdeal.Facts₀ Cert.ReferenceIdeal.Facts Cert.ReferenceIdeal.ReadP

/-- Two rank-3 indices with equal coordinates are equal. -/
theorem idx3_ext {n0 n1 n2 : ℕ} (u v : (⟨3, ![n0, n1, n2]⟩ : Shape).Idx) (h0 : (u 0).val = (v 0).val)
    (h1 : (u 1).val = (v 1).val) (h2 : (u 2).val = (v 2).val) : u = v :=
  funext fun a => Fin.ext (by
    match a with
    | ⟨0, _⟩ => exact h0
    | ⟨1, _⟩ => exact h1
    | ⟨2, _⟩ => exact h2)

/-- Two rank-2 indices with equal coordinates are equal. -/
theorem idx2_ext {n0 n1 : ℕ} (u v : (⟨2, ![n0, n1]⟩ : Shape).Idx) (h0 : (u 0).val = (v 0).val)
    (h1 : (u 1).val = (v 1).val) : u = v :=
  funext fun a => Fin.ext (by
    match a with
    | ⟨0, _⟩ => exact h0
    | ⟨1, _⟩ => exact h1)

section
variable (x0 : (⟨S10000x128, .f32⟩ : BufTy).Contents (Elt Ideal)) (x2 : (⟨S10000x30, .f32⟩ : BufTy).Contents (Elt Ideal))
  (x3 x4 x5 : (⟨S10000x10000, .f32⟩ : BufTy).Contents (Elt Ideal)) (x12 : (⟨S4x158x256, .f32⟩ : BufTy).Contents (Elt Ideal))
  (x13 x14 x15 : (⟨S4x256, .f32⟩ : BufTy).Contents (Elt Ideal)) (x16 : (⟨S4x256x256, .f32⟩ : BufTy).Contents (Elt Ideal))
  (x17 : (⟨S4x256, .f32⟩ : BufTy).Contents (Elt Ideal)) (m : Fin 4)

/-- The batched first affine map, slice by slice. -/
theorem ref_affine1 :
    sl3 (val_main_v97 (F := Ideal) x0 x2 x3 x4 x5 x12 x13) m
      = affine (sl3 (val_main_v93 (F := Ideal) x0 x2 x3 x4 x5) m) (sl3 x12 m) (sl2 x13 m) := by
  funext j
  obtain ⟨p, q, rfl⟩ : ∃ (p : Fin 10000) (q : Fin 256), j = ix2 p q := ⟨j 0, j 1, eq_ix2 j⟩
  show val_main_v97 (F := Ideal) x0 x2 x3 x4 x5 x12 x13 (ix3 m p q) = _
  rw [val_main_v97_apply, val_main_v94_apply, val_main_v96_apply, val_main_v95_apply, affine_apply, Ideal.addf_def]
  refine congrArg₂ (· + ·) (Finset.sum_congr rfl fun k _ => congrArg₂ (· * ·) ?_ ?_) ?_
  · exact congrArg (val_main_v93 (F := Ideal) x0 x2 x3 x4 x5) (idx3_ext _ (ix3 m p k) rfl rfl rfl)
  · exact congrArg x12 (idx3_ext _ (ix3 m k q) rfl rfl rfl)
  · exact congrArg x13 (idx2_ext _ (ix2 m q) rfl rfl)

/-- The batched column means, slice by slice. -/
theorem ref_mean :
    sl2 (val_main_v100 (F := Ideal) x0 x2 x3 x4 x5 x12 x13) m
      = colMean (sl3 (val_main_v97 (F := Ideal) x0 x2 x3 x4 x5 x12 x13) m) := by
  funext j
  obtain ⟨q, rfl⟩ : ∃ q : Fin 256, j = ix1 q := ⟨j 0, eq_ix1 j⟩
  show val_main_v100 (F := Ideal) x0 x2 x3 x4 x5 x12 x13 (ix2 m q) = _
  rw [val_main_v100_apply, val_main_v98_apply, val_main_v99_apply, val_main_cst_16_apply, val_main_cst_17_apply,
    colMean_apply, Ideal.hostDivf_def, Ideal.ofBits_def, Ideal.ofBits_def]
  refine congrArg (Ideal.div · _) (congrArg (_ + ·) (Finset.sum_congr rfl fun k _ => ?_))
  exact congrArg (val_main_v97 (F := Ideal) x0 x2 x3 x4 x5 x12 x13) (idx3_ext _ (ix3 m k q) rfl rfl rfl)

/-- The batched centred array (its first copy), slice by slice. -/
theorem ref_centred :
    sl3 (val_main_v103 (F := Ideal) x0 x2 x3 x4 x5 x12 x13) m
      = centred (sl3 (val_main_v97 (F := Ideal) x0 x2 x3 x4 x5 x12 x13) m) := by
  funext j
  obtain ⟨p, q, rfl⟩ : ∃ (p : Fin 10000) (q : Fin 256), j = ix2 p q := ⟨j 0, j 1, eq_ix2 j⟩
  show val_main_v103 (F := Ideal) x0 x2 x3 x4 x5 x12 x13 (ix3 m p q) = _
  rw [val_main_v103_apply, val_main_v102_apply, val_main_v101_apply, centred_apply, ← ref_mean, Ideal.subf_def]
  refine congrArg₂ (· - ·) rfl ?_
  exact congrArg (val_main_v100 (F := Ideal) x0 x2 x3 x4 x5 x12 x13) (idx2_ext _ (ix2 m q) rfl rfl)

/-- The batched column variances, slice by slice. -/
theorem ref_var :
    sl2 (val_main_v107 (F := Ideal) x0 x2 x3 x4 x5 x12 x13) m
      = colVar (sl3 (val_main_v97 (F := Ideal) x0 x2 x3 x4 x5 x12 x13) m) := by
  funext j
  obtain ⟨q, rfl⟩ : ∃ q : Fin 256, j = ix1 q := ⟨j 0, eq_ix1 j⟩
  show val_main_v107 (F := Ideal) x0 x2 x3 x4 x5 x12 x13 (ix2 m q) = colMean (sqDev _) (ix1 q)
  rw [val_main_v107_apply, val_main_v105_apply, val_main_v106_apply, val_main_cst_18_apply, val_main_cst_19_apply,
    colMean_apply, Ideal.hostDivf_def, Ideal.ofBits_def, Ideal.ofBits_def]
  refine congrArg (Ideal.div · _) (congrArg (_ + ·) (Finset.sum_congr rfl fun k _ => ?_))
  rw [val_main_v104_apply, Ideal.mulf_def, sqDev_apply, ← ref_centred]
  have e : idx_main_v105 (ix2 m q) k = ix3 m k q := idx3_ext _ _ rfl rfl rfl
  rw [e]
  rfl

/-- The batched centred array (its second copy), slice by slice. -/
theorem ref_centred2 :
    sl3 (val_main_v110 (F := Ideal) x0 x2 x3 x4 x5 x12 x13) m
      = centred (sl3 (val_main_v97 (F := Ideal) x0 x2 x3 x4 x5 x12 x13) m) := by
  funext j
  obtain ⟨p, q, rfl⟩ : ∃ (p : Fin 10000) (q : Fin 256), j = ix2 p q := ⟨j 0, j 1, eq_ix2 j⟩
  show val_main_v110 (F := Ideal) x0 x2 x3 x4 x5 x12 x13 (ix3 m p q) = _
  rw [val_main_v110_apply, val_main_v109_apply, val_main_v108_apply, centred_apply, ← ref_mean, Ideal.subf_def]
  refine congrArg₂ (· - ·) rfl ?_
  exact congrArg (val_main_v100 (F := Ideal) x0 x2 x3 x4 x5 x12 x13) (idx2_ext _ (ix2 m q) rfl rfl)

/-- The batched normalised array, slice by slice. -/
theorem ref_normed :
    sl3 (val_main_v122 (F := Ideal) x0 x2 x3 x4 x5 x12 x13 x14 x15) m
      = normed (sl3 (val_main_v97 (F := Ideal) x0 x2 x3 x4 x5 x12 x13) m) (sl2 x14 m) (sl2 x15 m) := by
  funext j
  obtain ⟨p, q, rfl⟩ : ∃ (p : Fin 10000) (q : Fin 256), j = ix2 p q := ⟨j 0, j 1, eq_ix2 j⟩
  show val_main_v122 (F := Ideal) x0 x2 x3 x4 x5 x12 x13 x14 x15 (ix3 m p q) = _
  rw [val_main_v122_apply, val_main_v119_apply, val_main_v113_apply, val_main_v112_apply, val_main_v111_apply,
    val_main_v118_apply, val_main_v117_apply, val_main_v116_apply, val_main_v115_apply, val_main_v114_apply,
    val_main_cst_20_apply, val_main_v121_apply, val_main_v120_apply, normed_apply, ← ref_centred2, ← ref_var]
  simp only [Ideal.addf_def, Ideal.mulf_def, Ideal.hostUnary_rsqrt_def, Ideal.ofBits_def]
  refine congrArg₂ (· + ·) (congrArg₂ (· * ·) (congrArg₂ (· * ·) ?_ rfl)
    (congrArg Ideal.rsqrt (congrArg (· + _) ?_))) ?_
  · exact congrArg x14 (idx2_ext _ (ix2 m q) rfl rfl)
  · exact congrArg (val_main_v107 (F := Ideal) x0 x2 x3 x4 x5 x12 x13) (idx2_ext _ (ix2 m q) rfl rfl)
  · exact congrArg x15 (idx2_ext _ (ix2 m q) rfl rfl)

/-- The batched rectification, slice by slice. -/
theorem ref_rect :
    sl3 (val_main_v123 (F := Ideal) x0 x2 x3 x4 x5 x12 x13 x14 x15) m
      = rect (sl3 (val_main_v122 (F := Ideal) x0 x2 x3 x4 x5 x12 x13 x14 x15) m) := by
  funext j
  obtain ⟨p, q, rfl⟩ : ∃ (p : Fin 10000) (q : Fin 256), j = ix2 p q := ⟨j 0, j 1, eq_ix2 j⟩
  show val_main_v123 (F := Ideal) x0 x2 x3 x4 x5 x12 x13 x14 x15 (ix3 m p q) = _
  rw [val_main_v123_apply, val_main_call4_v0_apply, val_main_call4_cst_apply, Ideal.maximumf_def, Ideal.ofBits_def]
  rfl

/-- The batched second affine map, slice by slice. -/
theorem ref_affine2 :
    sl3 (val_main_v127 (F := Ideal) x0 x2 x3 x4 x5 x12 x13 x14 x15 x16 x17) m
      = affine (sl3 (val_main_v123 (F := Ideal) x0 x2 x3 x4 x5 x12 x13 x14 x15) m) (sl3 x16 m) (sl2 x17 m) := by
  funext j
  obtain ⟨p, q, rfl⟩ : ∃ (p : Fin 10000) (q : Fin 256), j = ix2 p q := ⟨j 0, j 1, eq_ix2 j⟩
  show val_main_v127 (F := Ideal) x0 x2 x3 x4 x5 x12 x13 x14 x15 x16 x17 (ix3 m p q) = _
  rw [val_main_v127_apply, val_main_v124_apply, val_main_v126_apply, val_main_v125_apply, affine_apply, Ideal.addf_def]
  refine congrArg₂ (· + ·) (Finset.sum_congr rfl fun k _ => congrArg₂ (· * ·) ?_ ?_) ?_
  · exact congrArg (val_main_v123 (F := Ideal) x0 x2 x3 x4 x5 x12 x13 x14 x15) (idx3_ext _ (ix3 m p k) rfl rfl rfl)
  · exact congrArg x16 (idx3_ext _ (ix3 m k q) rfl rfl rfl)
  · exact congrArg x17 (idx2_ext _ (ix2 m q) rfl rfl)

/-- The batched layer's `m`-th slice is the layer of the specification on the `m`-th slices of its operands. -/
theorem ref_layer :
    sl3 (val_main_v127 (F := Ideal) x0 x2 x3 x4 x5 x12 x13 x14 x15 x16 x17) m
      = subLayer (sl3 (val_main_v93 (F := Ideal) x0 x2 x3 x4 x5) m) (sl3 x12 m) (sl2 x13 m) (sl2 x14 m) (sl2 x15 m)
          (sl3 x16 m) (sl2 x17 m) := by
  rw [ref_affine2, ref_rect, ref_normed, ref_affine1]
  rfl

end

/-- The four feature arrays the reference stacks: the concatenated features and their three propagated copies. -/
def refX (x0 : (⟨S10000x128, .f32⟩ : BufTy).Contents (Elt Ideal)) (x2 : (⟨S10000x30, .f32⟩ : BufTy).Contents (Elt Ideal))
    (x3 x4 x5 : (⟨S10000x10000, .f32⟩ : BufTy).Contents (Elt Ideal)) : Fin 4 → Mat 10000 158 :=
  ![val_main_v85 (F := Ideal) x0 x2, val_main_v86 (F := Ideal) x0 x2 x3, val_main_v87 (F := Ideal) x0 x2 x4,
    val_main_v88 (F := Ideal) x0 x2 x5]

/-- The stacked features' `m`-th slice is the `m`-th of the four feature arrays. -/
theorem ref_stack (x0 : (⟨S10000x128, .f32⟩ : BufTy).Contents (Elt Ideal)) (x2 : (⟨S10000x30, .f32⟩ : BufTy).Contents (Elt Ideal))
    (x3 x4 x5 : (⟨S10000x10000, .f32⟩ : BufTy).Contents (Elt Ideal)) (m : Fin 4) :
    sl3 (val_main_v93 (F := Ideal) x0 x2 x3 x4 x5) m = refX x0 x2 x3 x4 x5 m := by
  funext j
  obtain ⟨p, k, rfl⟩ : ∃ (p : Fin 10000) (k : Fin 158), j = ix2 p k := ⟨j 0, j 1, eq_ix2 j⟩
  show val_main_v93 (F := Ideal) x0 x2 x3 x4 x5 (ix3 m p k) = _
  unfold val_main_v93
  have hi : ∀ (u : Fin 4) (b : Fin S1x10000x158.rank),
      b.cast (rfl : S1x10000x158.rank = S4x10000x158.rank) ≠ (0 : Fin S4x10000x158.rank) →
      ((ix3 (0 : Fin 1) p k : S1x10000x158.Idx) b).val
        = ((ix3 u p k : S4x10000x158.Idx) (b.cast (rfl : S1x10000x158.rank = S4x10000x158.rank))).val := fun u b =>
    match b with
    | ⟨0, _⟩ => fun h => absurd rfl h
    | ⟨1, _⟩ => fun _ => rfl
    | ⟨2, _⟩ => fun _ => rfl
  match m with
  | ⟨0, _⟩ =>
    refine (concatenate_apply_piece (α := EReal) 0
      [⟨S1x10000x158, val_main_v89 (F := Ideal) x0 x2⟩, ⟨S1x10000x158, val_main_v90 (F := Ideal) x0 x2 x3⟩,
        ⟨S1x10000x158, val_main_v91 (F := Ideal) x0 x2 x4⟩, ⟨S1x10000x158, val_main_v92 (F := Ideal) x0 x2 x5⟩]
      concatenates_S1x10000x158_S1x10000x158_S1x10000x158_S1x10000x158_S4x10000x158_d0
      (ix3 _ p k) 0 (by show (0 : ℕ) < 4; decide) S1x10000x158 (val_main_v89 (F := Ideal) x0 x2) rfl rfl 0 rfl (ix3 (0 : Fin 1) p k) (hi _) rfl).trans ?_
    exact (val_main_v89_apply x0 x2 _).trans (congrArg (val_main_v85 (F := Ideal) x0 x2) (idx2_ext _ (ix2 p k) rfl rfl))
  | ⟨1, _⟩ =>
    refine (concatenate_apply_piece (α := EReal) 0
      [⟨S1x10000x158, val_main_v89 (F := Ideal) x0 x2⟩, ⟨S1x10000x158, val_main_v90 (F := Ideal) x0 x2 x3⟩,
        ⟨S1x10000x158, val_main_v91 (F := Ideal) x0 x2 x4⟩, ⟨S1x10000x158, val_main_v92 (F := Ideal) x0 x2 x5⟩]
      concatenates_S1x10000x158_S1x10000x158_S1x10000x158_S1x10000x158_S4x10000x158_d0
      (ix3 _ p k) 1 (by show (1 : ℕ) < 4; decide) S1x10000x158 (val_main_v90 (F := Ideal) x0 x2 x3) rfl rfl 1 rfl (ix3 (0 : Fin 1) p k) (hi _) rfl).trans ?_
    exact (val_main_v90_apply x0 x2 x3 _).trans (congrArg (val_main_v86 (F := Ideal) x0 x2 x3) (idx2_ext _ (ix2 p k) rfl rfl))
  | ⟨2, _⟩ =>
    refine (concatenate_apply_piece (α := EReal) 0
      [⟨S1x10000x158, val_main_v89 (F := Ideal) x0 x2⟩, ⟨S1x10000x158, val_main_v90 (F := Ideal) x0 x2 x3⟩,
        ⟨S1x10000x158, val_main_v91 (F := Ideal) x0 x2 x4⟩, ⟨S1x10000x158, val_main_v92 (F := Ideal) x0 x2 x5⟩]
      concatenates_S1x10000x158_S1x10000x158_S1x10000x158_S1x10000x158_S4x10000x158_d0
      (ix3 _ p k) 2 (by show (2 : ℕ) < 4; decide) S1x10000x158 (val_main_v91 (F := Ideal) x0 x2 x4) rfl rfl 2 rfl (ix3 (0 : Fin 1) p k) (hi _) rfl).trans ?_
    exact (val_main_v91_apply x0 x2 x4 _).trans (congrArg (val_main_v87 (F := Ideal) x0 x2 x4) (idx2_ext _ (ix2 p k) rfl rfl))
  | ⟨3, _⟩ =>
    refine (concatenate_apply_piece (α := EReal) 0
      [⟨S1x10000x158, val_main_v89 (F := Ideal) x0 x2⟩, ⟨S1x10000x158, val_main_v90 (F := Ideal) x0 x2 x3⟩,
        ⟨S1x10000x158, val_main_v91 (F := Ideal) x0 x2 x4⟩, ⟨S1x10000x158, val_main_v92 (F := Ideal) x0 x2 x5⟩]
      concatenates_S1x10000x158_S1x10000x158_S1x10000x158_S1x10000x158_S4x10000x158_d0
      (ix3 _ p k) 3 (by show (3 : ℕ) < 4; decide) S1x10000x158 (val_main_v92 (F := Ideal) x0 x2 x5) rfl rfl 3 rfl (ix3 (0 : Fin 1) p k) (hi _) rfl).trans ?_
    exact (val_main_v92_apply x0 x2 x5 _).trans (congrArg (val_main_v88 (F := Ideal) x0 x2 x5) (idx2_ext _ (ix2 p k) rfl rfl))

section
variable (x0 : (⟨S10000x128, .f32⟩ : BufTy).Contents (Elt Ideal)) (x2 : (⟨S10000x30, .f32⟩ : BufTy).Contents (Elt Ideal))
  (x3 x4 x5 : (⟨S10000x10000, .f32⟩ : BufTy).Contents (Elt Ideal)) (x12 : (⟨S4x158x256, .f32⟩ : BufTy).Contents (Elt Ideal))
  (x13 x14 x15 : (⟨S4x256, .f32⟩ : BufTy).Contents (Elt Ideal)) (x16 : (⟨S4x256x256, .f32⟩ : BufTy).Contents (Elt Ideal))
  (x17 : (⟨S4x256, .f32⟩ : BufTy).Contents (Elt Ideal))

/-- The reference's batched layer at `(m, i, d)` is the layer of the specification, on the `m`-th feature array and the
    `m`-th slices of the weights and vectors, at `(i, d)`. -/
theorem ref_layer_at (m : Fin 4) (i : Fin 10000) (d : Fin 256) :
    val_main_v127 (F := Ideal) x0 x2 x3 x4 x5 x12 x13 x14 x15 x16 x17 (ix3 m i d)
      = subLayer (refX x0 x2 x3 x4 x5 m) (sl3 x12 m) (sl2 x13 m) (sl2 x14 m) (sl2 x15 m) (sl3 x16 m) (sl2 x17 m)
          (ix2 i d) := by
  rw [← ref_stack, ← ref_layer]
  rfl

/-- The reference's sum over the batch axis at `(i, d)`: the zero word plus the four layers' values. -/
theorem ref_sum_at (i : Fin 10000) (d : Fin 256) :
    val_main_v128 (F := Ideal) x0 x2 x3 x4 x5 x12 x13 x14 x15 x16 x17 (ix2 i d)
      = Ideal.ofBits .f32 0x00000000#32 + ∑ m : Fin 4,
          subLayer (refX x0 x2 x3 x4 x5 m) (sl3 x12 m) (sl2 x13 m) (sl2 x14 m) (sl2 x15 m) (sl3 x16 m) (sl2 x17 m)
            (ix2 i d) := by
  rw [val_main_v128_apply, val_main_cst_21_apply, Ideal.ofBits_def]
  refine congrArg (_ + ·) (Finset.sum_congr rfl fun m _ => ?_)
  rw [← ref_layer_at]
  exact congrArg (val_main_v127 (F := Ideal) x0 x2 x3 x4 x5 x12 x13 x14 x15 x16 x17) (idx3_ext _ (ix3 m i d) rfl rfl rfl)

end

end Cert.Bridge.Sub
-- ==== Proof.SubGlue.lean ====
/-
  The sub-branch of the two programs. The kernel program runs the feature layer four times, unbatched, on the features
  and their three propagated copies — each copy a padded product cut back to the features' width — with the weights
  and vectors sliced out of the stacked arguments, and adds the four results onto a broadcast zero. The reference
  stacks the four feature arrays, runs the layer once with a batch axis, and sums over that axis from zero. Both are
  the zero word plus the sum over `m` of the specification's layer on the `m`-th feature array and the `m`-th slices.
-/
import proofs.«103117_j70961449664567_2_alg».proof.Proof.KVal
import proofs.«103117_j70961449664567_2_alg».proof.Proof.SubKer
import proofs.«103117_j70961449664567_2_alg».proof.Proof.SubSlice
import proofs.«103117_j70961449664567_2_alg».proof.Proof.SubSum
import proofs.«103117_j70961449664567_2_alg».proof.Proof.PadMm
import proofs.«103117_j70961449664567_2_alg».proof.Proof.SubRef

noncomputable section

open scoped BigOperators

namespace Cert.Bridge.Sub

open Idealize.ShloMosaic Idealize.ShloMosaic.ValueIdx Cert.Dense Cert.KernelIdeal.KVal

/-- The kernel program's four feature arrays: the concatenated features and the three cut-back padded products. -/
def kX (a : Args) : Fin 4 → Mat 10000 158 := ![kv_main_v70 a, kv_main_v74 a, kv_main_v76 a, kv_main_v78 a]

/-- The kernel program's four layer results. -/
def kL (a : Args) : Fin 4 → FVec Ideal Cert.KernelIdeal.S10000x256 .f32 :=
  ![kv_main_v125 a, kv_main_v172 a, kv_main_v219 a, kv_main_v266 a]

/-- The concatenated features are the same array in both programs. -/
theorem kv_feat (a : Args) : kv_main_v70 a = Cert.ReferenceIdeal.ReadP.val_main_v85 (F := Ideal) a.x0 a.x2 := rfl

/-- A cut-back padded product is the reference's plain product. -/
theorem kv_hop1 (a : Args) : kv_main_v74 a = Cert.ReferenceIdeal.ReadP.val_main_v86 (F := Ideal) a.x0 a.x2 a.x3 := by
  have h : kv_main_v74 a = extractStridedSlice Cert.KernelIdeal.S10000x158 ![0, 0]
      (mm a.x3 (kPadded (kv_main_v70 a) (kv_main_call5_v0 a))) Cert.KernelIdeal.Gen.slices_S10000x256_S10000x158_0_0 := rfl
  rw [h, padMm_eq, kv_feat]
  rfl

theorem kv_hop2 (a : Args) : kv_main_v76 a = Cert.ReferenceIdeal.ReadP.val_main_v87 (F := Ideal) a.x0 a.x2 a.x4 := by
  have h : kv_main_v76 a = extractStridedSlice Cert.KernelIdeal.S10000x158 ![0, 0]
      (mm a.x4 (kPadded (kv_main_v70 a) (kv_main_call5_v0 a))) Cert.KernelIdeal.Gen.slices_S10000x256_S10000x158_0_0 := rfl
  rw [h, padMm_eq, kv_feat]
  rfl

theorem kv_hop3 (a : Args) : kv_main_v78 a = Cert.ReferenceIdeal.ReadP.val_main_v88 (F := Ideal) a.x0 a.x2 a.x5 := by
  have h : kv_main_v78 a = extractStridedSlice Cert.KernelIdeal.S10000x158 ![0, 0]
      (mm a.x5 (kPadded (kv_main_v70 a) (kv_main_call5_v0 a))) Cert.KernelIdeal.Gen.slices_S10000x256_S10000x158_0_0 := rfl
  rw [h, padMm_eq, kv_feat]
  rfl

/-- The two programs' four feature arrays agree. -/
theorem kX_eq (a : Args) (m : Fin 4) : kX a m = refX a.x0 a.x2 a.x3 a.x4 a.x5 m := by
  match m with
  | ⟨0, _⟩ => exact kv_feat a
  | ⟨1, _⟩ => exact kv_hop1 a
  | ⟨2, _⟩ => exact kv_hop2 a
  | ⟨3, _⟩ => exact kv_hop3 a

/-- The kernel program's layer 0 is the layer of the specification on the slices 0. -/
theorem kv_layer0 (a : Args) :
    kv_main_v125 a = subLayer (kX a 0) (sl3 a.x12 0) (sl2 a.x13 0) (sl2 a.x14 0) (sl2 a.x15 0)
      (sl3 a.x16 0) (sl2 a.x17 0) := by
  have h : kv_main_v125 a = kLayer (kv_main_v70 a) (kv_main_v81 a) (kv_main_v83 a) (kv_main_v85 a)
      (kv_main_v87 a) (kv_main_v89 a) (kv_main_v91 a) := rfl
  rw [h, kLayer_eq, show kv_main_v81 a = sl3 a.x12 0 from w1_0 a.x12,
    show kv_main_v83 a = sl2 a.x13 0 from vec_0 a.x13, show kv_main_v85 a = sl2 a.x14 0 from vec_0 a.x14,
    show kv_main_v87 a = sl2 a.x15 0 from vec_0 a.x15, show kv_main_v89 a = sl3 a.x16 0 from w2_0 a.x16,
    show kv_main_v91 a = sl2 a.x17 0 from vec_0 a.x17]
  rfl

/-- The kernel program's layer 1 is the layer of the specification on the slices 1. -/
theorem kv_layer1 (a : Args) :
    kv_main_v172 a = subLayer (kX a 1) (sl3 a.x12 1) (sl2 a.x13 1) (sl2 a.x14 1) (sl2 a.x15 1)
      (sl3 a.x16 1) (sl2 a.x17 1) := by
  have h : kv_main_v172 a = kLayer (kv_main_v74 a) (kv_main_v128 a) (kv_main_v130 a) (kv_main_v132 a)
      (kv_main_v134 a) (kv_main_v136 a) (kv_main_v138 a) := rfl
  rw [h, kLayer_eq, show kv_main_v128 a = sl3 a.x12 1 from w1_1 a.x12,
    show kv_main_v130 a = sl2 a.x13 1 from vec_1 a.x13, show kv_main_v132 a = sl2 a.x14 1 from vec_1 a.x14,
    show kv_main_v134 a = sl2 a.x15 1 from vec_1 a.x15, show kv_main_v136 a = sl3 a.x16 1 from w2_1 a.x16,
    show kv_main_v138 a = sl2 a.x17 1 from vec_1 a.x17]
  rfl

/-- The kernel program's layer 2 is the layer of the specification on the slices 2. -/
theorem kv_layer2 (a : Args) :
    kv_main_v219 a = subLayer (kX a 2) (sl3 a.x12 2) (sl2 a.x13 2) (sl2 a.x14 2) (sl2 a.x15 2)
      (sl3 a.x16 2) (sl2 a.x17 2) := by
  have h : kv_main_v219 a = kLayer (kv_main_v76 a) (kv_main_v175 a) (kv_main_v177 a) (kv_main_v179 a)
      (kv_main_v181 a) (kv_main_v183 a) (kv_main_v185 a) := rfl
  rw [h, kLayer_eq, show kv_main_v175 a = sl3 a.x12 2 from w1_2 a.x12,
    show kv_main_v177 a = sl2 a.x13 2 from vec_2 a.x13, show kv_main_v179 a = sl2 a.x14 2 from vec_2 a.x14,
    show kv_main_v181 a = sl2 a.x15 2 from vec_2 a.x15, show kv_main_v183 a = sl3 a.x16 2 from w2_2 a.x16,
    show kv_main_v185 a = sl2 a.x17 2 from vec_2 a.x17]
  rfl

/-- The kernel program's layer 3 is the layer of the specification on the slices 3. -/
theorem kv_layer3 (a : Args) :
    kv_main_v266 a = subLayer (kX a 3) (sl3 a.x12 3) (sl2 a.x13 3) (sl2 a.x14 3) (sl2 a.x15 3)
      (sl3 a.x16 3) (sl2 a.x17 3) := by
  have h : kv_main_v266 a = kLayer (kv_main_v78 a) (kv_main_v222 a) (kv_main_v224 a) (kv_main_v226 a)
      (kv_main_v228 a) (kv_main_v230 a) (kv_main_v232 a) := rfl
  rw [h, kLayer_eq, show kv_main_v222 a = sl3 a.x12 3 from w1_3 a.x12,
    show kv_main_v224 a = sl2 a.x13 3 from vec_3 a.x13, show kv_main_v226 a = sl2 a.x14 3 from vec_3 a.x14,
    show kv_main_v228 a = sl2 a.x15 3 from vec_3 a.x15, show kv_main_v230 a = sl3 a.x16 3 from w2_3 a.x16,
    show kv_main_v232 a = sl2 a.x17 3 from vec_3 a.x17]
  rfl

/-- The sub-branch: the kernel program's sum of its four layers is the reference's batched layer summed over the batch. -/
theorem sub_eq (a : Cert.KernelIdeal.KVal.Args) :
    Cert.KernelIdeal.KVal.kv_main_v267 a
      = Cert.ReferenceIdeal.ReadP.val_main_v128 (F := Ideal) a.x0 a.x2 a.x3 a.x4 a.x5 a.x12 a.x13 a.x14 a.x15 a.x16 a.x17 := by
  funext j
  obtain ⟨i, d, rfl⟩ : ∃ (i : Fin 10000) (d : Fin 256), j = ix2 i d := ⟨j 0, j 1, eq_ix2 j⟩
  refine (show kv_main_v267 a (ix2 i d) = _ from sum4_apply (kL a) i d).trans ?_
  rw [ref_sum_at]
  refine congrArg (_ + ·) (Finset.sum_congr rfl fun m _ => ?_)
  rw [← kX_eq a m]
  match m with
  | ⟨0, _⟩ => exact congrFun (kv_layer0 a) (ix2 i d)
  | ⟨1, _⟩ => exact congrFun (kv_layer1 a) (ix2 i d)
  | ⟨2, _⟩ => exact congrFun (kv_layer2 a) (ix2 i d)
  | ⟨3, _⟩ => exact congrFun (kv_layer3 a) (ix2 i d)

end Cert.Bridge.Sub
-- ==== Proof.PreEdges.lean ====
/-
  The precondition of the statement says, among its conjuncts, that every entry of the edge array lies in
  [0, 10000), read signed. The predicate is a conjunction (an `and` of one-bit words) whose two outermost conjuncts
  are `all (edges ≥ 0)` and `all (edges < 10000)`: each `all` is a reduction by `and` of an elementwise signed
  comparison against a broadcast constant. Here the two conjuncts are read back as inequalities on the signed value
  of each entry; the conjuncts on the float arguments stay folded behind an opaque one-bit word.
-/
import proofs.«103117_j70961449664567_2_alg».proof.Defs
import proofs.«103117_j70961449664567_2_alg».proof.Proof.Gen.Pre_finite_inputs
import Idealize.ShloMosaic.Lib.ReduceAll

set_option maxRecDepth 16384

noncomputable section

namespace Cert.Bridge.Pre

open Idealize.ShloMosaic Idealize.ShloMosaic.TcCoe Idealize.SL.Sem
open Cert.Pre_finite_inputs

/-- The rank-0 shape has one index. -/
instance : Subsingleton Cert.Pre_finite_inputs.S_.Idx := ⟨fun a b => funext fun d => d.elim0⟩

/-- The last conjuncts of the predicate, read back: when the word is 1, every entry e[j] satisfies
    z[j] ≤ e[j] < 10000 signed, where z is the array e is compared against from below. -/
theorem part5_decode [Cert.Pre_finite_inputs.Facts] {F : FTy → Type} [FloatOps F]
    (e : IVec S2x320000 32) (X : IVec S_ 1) (z : IVec S2x320000 32) (i0 : S_.Idx)
    (h : fn_part5 (F := F) e X z i0 = 1#1) (j : S2x320000.Idx) :
    (z j).toInt ≤ (e j).toInt ∧ (e j).toInt < 10000 := by
  dsimp only [fn_part5] at h
  obtain ⟨h1, hlt⟩ := IntOp.andi_eq_one.1 h
  obtain ⟨-, hge⟩ := IntOp.andi_eq_one.1 h1
  have a := Host.reduce_andi_all _ _ _ _ i0 hge j
  have b := Host.reduce_andi_all _ _ _ _ i0 hlt j
  refine ⟨IntOp.cmpi_sge.1 a, ?_⟩
  have b' := IntOp.cmpi_slt.1 b
  exact b'

/-- THE PRECONDITION DECODED at entry j of the edge array: 0 ≤ edges[j] < 10000, signed. -/
theorem edges_in_range [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (j : Cert.KernelIdeal.S2x320000.Idx) :
    0 ≤ (m ((c.tc : Thread Cert.KernelIdeal.nD Cert.KernelIdeal.τ).loc Cert.KernelIdeal.main_arg1) j).toInt
      ∧ (m ((c.tc : Thread Cert.KernelIdeal.nD Cert.KernelIdeal.τ).loc Cert.KernelIdeal.main_arg1) j).toInt < 10000 := by
  have e := congrFun (h c) (fun a => a.elim0)
  obtain ⟨X, hX⟩ : ∃ X : IVec S_ 1,
      Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))
        = fn_part5 (F := Ideal) (m ((c.tc : Thread Cert.KernelIdeal.nD Cert.KernelIdeal.τ).loc Cert.KernelIdeal.main_arg1)) X
            (broadcastInDim S2x320000 ![] Facts.bcast_S_S2x320000 (constantI S_ 32 0#32)) := ⟨_, rfl⟩
  rw [hX] at e
  exact part5_decode _ X _ _ e j

end Cert.Bridge.Pre

end
-- ==== Proof.Assemble.lean ====
/-
  The kernel's result and the reference's are one array. The kernel's run ends with its result buffer at the value
  `KVal.kv_main_v268` of the argument arrays (the launches read as matrix products), the reference's at `val_main_v129`.
  Both are the concatenation, along the columns, of a graph-convolution half and a sub-branch half, and the halves agree
  separately: the convolution half because a dense normalised adjacency times a feature matrix is the gather, scale and
  segment sum of the same edges when every edge index is in range (`gcn_eq`); the sub-branch half because a layer batched
  over four inputs and summed is the sum of the four layers (`sub_eq`).
-/
import proofs.«103117_j70961449664567_2_alg».proof.Defs
import proofs.«103117_j70961449664567_2_alg».proof.Proof.Gen.Kernel.Frame
import proofs.«103117_j70961449664567_2_alg».proof.Proof.Gen.KernelIdeal.Frame
import proofs.«103117_j70961449664567_2_alg».proof.Proof.RefRead
import proofs.«103117_j70961449664567_2_alg».proof.Proof.KRun
import proofs.«103117_j70961449664567_2_alg».proof.Proof.KChainG
import proofs.«103117_j70961449664567_2_alg».proof.Proof.GcnGlue
import proofs.«103117_j70961449664567_2_alg».proof.Proof.SubGlue
import proofs.«103117_j70961449664567_2_alg».proof.Proof.PreEdges

noncomputable section

namespace Cert.Bridge

open Idealize.ShloMosaic Idealize.ShloMosaic.TcCoe Idealize.SL.Sem
open Cert.KernelIdeal.KVal

/-- The two programs' results are the same function of the argument arrays, when every edge index is in range. -/
theorem result_eq (a : Args) (hE : ∀ j, 0 ≤ (a.x1 j).toInt ∧ (a.x1 j).toInt < 10000) :
    kv_main_v268 a = Cert.ReferenceIdeal.ReadP.val_main_v129 (F := Ideal) a.x0 a.x1 a.x2 a.x3 a.x4 a.x5 a.x6 a.x7 a.x8 a.x9 a.x10
      a.x11 a.x12 a.x13 a.x14 a.x15 a.x16 a.x17 := by
  unfold kv_main_v268 Cert.ReferenceIdeal.ReadP.val_main_v129
  rw [← Cert.Bridge.Gcn.gcn_eq a hE, ← Cert.Bridge.Sub.sub_eq a]

end Cert.Bridge

end
-- ==== Proof.RRun.lean ====
/- Written by a script (invocation: bun $KIT/certs/proofs/103117_j70961449664567_2_alg/scratch/gen_rrun.js $KIT/certs/proofs/103117_j70961449664567_2_alg $KIT/certs/proofs/103117_j70961449664567_2_alg/scratch/GeneratedRun.lean.txt): the reference program's run. Its list of host operations (as the generated run
   module spells it) is cut into 8 consecutive chunks; per chunk, each value still read later as the composed function of the values the
   chunk reads, and, chunk after chunk, that the value's buffer holds the read module's definition of it: a table of cases, no argument. -/
import proofs.«103117_j70961449664567_2_alg».proof.Proof.Gen.ReferenceIdeal
import proofs.«103117_j70961449664567_2_alg».proof.Proof.RefRead
import Idealize.ShloMosaic.Lib.StableHlo.Run

set_option maxRecDepth 16384

noncomputable section

namespace Cert.ReferenceIdeal.RRun

open Cert.ReferenceIdeal Cert.ReferenceIdeal.Gen Idealize.ShloMosaic Idealize.ShloMosaic.TcCoe Idealize.SL.Sem Idealize.ShloMosaic.StableHlo

/-- What the buffers hold after two lists of operations in a row. -/
theorem after_append {Val : EltTy → Type} (l1 l2 : List (HloOp τ sig Val)) (V : Valuation τ sig Val) :
    after (l1 ++ l2) V = after l2 (after l1 V) := by
  induction l1 generalizing V with
  | nil => rfl
  | cons op l ih => simp only [List.cons_append, after_cons, ih]

section Ops
variable {F : FTy → Type} [FloatOps F]

/-- The program's operations, in order. -/
abbrev ops : List (HloOp τ sig (Elt F)) :=
  [ nullary main_v0 (iotaInDim S10000 32 0),
    unary main_arg1 main_v1 ((extractStridedSlice S1x320000 ![0, 0] · slices_S2x320000_S1x320000_0_0) : (⟨S2x320000, .i32⟩ : BufTy).Contents (Elt F) → (⟨S1x320000, .i32⟩ : BufTy).Contents (Elt F)),
    reshape main_v1 main_v2 rfl shapeCasts_S1x320000_S320000,
    binary main_v2 main_v0 main_v3 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    unary main_arg1 main_v4 ((extractStridedSlice S1x320000 ![1, 0] · slices_S2x320000_S1x320000_1_0) : (⟨S2x320000, .i32⟩ : BufTy).Contents (Elt F) → (⟨S1x320000, .i32⟩ : BufTy).Contents (Elt F)),
    reshape main_v4 main_v5 rfl shapeCasts_S1x320000_S320000,
    binary main_v5 main_v0 main_v6 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    nullary main_cst (constant S_ .f32 0x3F800000#32),
    unary main_cst main_v7 (broadcastInDim S330000 ![] bcast_S_S330000 : (⟨S_, .f32⟩ : BufTy).Contents (Elt F) → (⟨S330000, .f32⟩ : BufTy).Contents (Elt F)),
    nullary main_cst_0 (constant S_ .f32 0x00000000#32),
    unary main_cst_0 main_v8 (broadcastInDim S10000 ![] bcast_S_S10000 : (⟨S_, .f32⟩ : BufTy).Contents (Elt F) → (⟨S10000, .f32⟩ : BufTy).Contents (Elt F)),
    unary main_v6 main_v9 (broadcastInDim S330000x1 ![0] bcast_S330000_S330000x1_0 : (⟨S330000, .i32⟩ : BufTy).Contents (Elt F) → (⟨S330000x1, .i32⟩ : BufTy).Contents (Elt F)),
    ternary main_v8 main_v9 main_v7 main_v10 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    nullary main_cst_1 (constant S_ .f32 0x00000000#32),
    unary main_cst_1 main_v11 (broadcastInDim S10000 ![] bcast_S_S10000 : (⟨S_, .f32⟩ : BufTy).Contents (Elt F) → (⟨S10000, .f32⟩ : BufTy).Contents (Elt F)),
    binary main_v10 main_v11 main_v12 (cmpf .ogt : (⟨S10000, .f32⟩ : BufTy).Contents (Elt F) → (⟨S10000, .f32⟩ : BufTy).Contents (Elt F) → (⟨S10000, .i1⟩ : BufTy).Contents (Elt F)),
    nullary main_cst_2 (constant S_ .f32 0xBF000000#32),
    unary main_cst_2 main_v13 (broadcastInDim S10000 ![] bcast_S_S10000 : (⟨S_, .f32⟩ : BufTy).Contents (Elt F) → (⟨S10000, .f32⟩ : BufTy).Contents (Elt F)),
    binary main_v10 main_v13 main_v14 (Host.powf : (⟨S10000, .f32⟩ : BufTy).Contents (Elt F) → (⟨S10000, .f32⟩ : BufTy).Contents (Elt F) → (⟨S10000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S10000, .f32⟩) main_call0_v1) (broadcastInDim S10000 ![] bcast_S_S10000),
    TRef.ternary (TRef.of (T := ⟨S10000, .i1⟩) main_v12) (TRef.of (T := ⟨S10000, .f32⟩) main_v14) (TRef.of (T := ⟨S10000, .f32⟩) main_call0_v1) (TRef.of (T := ⟨S10000, .f32⟩) main_v15) select,
    nullary main_c (constantI S_ 32 0#32),
    unary main_c main_v16 (broadcastInDim S330000 ![] bcast_S_S330000 : (⟨S_, .i32⟩ : BufTy).Contents (Elt F) → (⟨S330000, .i32⟩ : BufTy).Contents (Elt F)),
    binary main_v3 main_v16 main_v17 (cmpi .slt : (⟨S330000, .i32⟩ : BufTy).Contents (Elt F) → (⟨S330000, .i32⟩ : BufTy).Contents (Elt F) → (⟨S330000, .i1⟩ : BufTy).Contents (Elt F)),
    nullary main_c_4 (constantI S_ 32 10000#32),
    unary main_c_4 main_v18 (broadcastInDim S330000 ![] bcast_S_S330000 : (⟨S_, .i32⟩ : BufTy).Contents (Elt F) → (⟨S330000, .i32⟩ : BufTy).Contents (Elt F)),
    binary main_v3 main_v18 main_v19 (addi : (⟨S330000, .i32⟩ : BufTy).Contents (Elt F) → (⟨S330000, .i32⟩ : BufTy).Contents (Elt F) → (⟨S330000, .i32⟩ : BufTy).Contents (Elt F)),
    ternary main_v17 main_v19 main_v3 main_v20 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v20 main_v21 (broadcastInDim S330000x1 ![0] bcast_S330000_S330000x1_0 : (⟨S330000, .i32⟩ : BufTy).Contents (Elt F) → (⟨S330000x1, .i32⟩ : BufTy).Contents (Elt F)),
    binary main_v15 main_v21 main_v22 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    nullary main_c_5 (constantI S_ 32 0#32),
    unary main_c_5 main_v23 (broadcastInDim S330000 ![] bcast_S_S330000 : (⟨S_, .i32⟩ : BufTy).Contents (Elt F) → (⟨S330000, .i32⟩ : BufTy).Contents (Elt F)),
    binary main_v6 main_v23 main_v24 (cmpi .slt : (⟨S330000, .i32⟩ : BufTy).Contents (Elt F) → (⟨S330000, .i32⟩ : BufTy).Contents (Elt F) → (⟨S330000, .i1⟩ : BufTy).Contents (Elt F)),
    nullary main_c_6 (constantI S_ 32 10000#32),
    unary main_c_6 main_v25 (broadcastInDim S330000 ![] bcast_S_S330000 : (⟨S_, .i32⟩ : BufTy).Contents (Elt F) → (⟨S330000, .i32⟩ : BufTy).Contents (Elt F)),
    binary main_v6 main_v25 main_v26 (addi : (⟨S330000, .i32⟩ : BufTy).Contents (Elt F) → (⟨S330000, .i32⟩ : BufTy).Contents (Elt F) → (⟨S330000, .i32⟩ : BufTy).Contents (Elt F)),
    ternary main_v24 main_v26 main_v6 main_v27 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v27 main_v28 (broadcastInDim S330000x1 ![0] bcast_S330000_S330000x1_0 : (⟨S330000, .i32⟩ : BufTy).Contents (Elt F) → (⟨S330000x1, .i32⟩ : BufTy).Contents (Elt F)),
    binary main_v15 main_v28 main_v29 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    binary main_v22 main_v29 main_v30 (mulf : (⟨S330000, .f32⟩ : BufTy).Contents (Elt F) → (⟨S330000, .f32⟩ : BufTy).Contents (Elt F) → (⟨S330000, .f32⟩ : BufTy).Contents (Elt F)),
    binary main_arg0 main_arg6 main_v31 ((fun l r => Host.dotGeneral dot_S10000x128_S128x256_S10000x256_1_0_0_1_n_n none l r) : (⟨S10000x128, .f32⟩ : BufTy).Contents (Elt F) → (⟨S128x256, .f32⟩ : BufTy).Contents (Elt F) → (⟨S10000x256, .f32⟩ : BufTy).Contents (Elt F)),
    nullary main_c_7 (constantI S_ 32 0#32),
    unary main_c_7 main_v32 (broadcastInDim S330000 ![] bcast_S_S330000 : (⟨S_, .i32⟩ : BufTy).Contents (Elt F) → (⟨S330000, .i32⟩ : BufTy).Contents (Elt F)),
    binary main_v3 main_v32 main_v33 (cmpi .slt : (⟨S330000, .i32⟩ : BufTy).Contents (Elt F) → (⟨S330000, .i32⟩ : BufTy).Contents (Elt F) → (⟨S330000, .i1⟩ : BufTy).Contents (Elt F)),
    nullary main_c_8 (constantI S_ 32 10000#32),
    unary main_c_8 main_v34 (broadcastInDim S330000 ![] bcast_S_S330000 : (⟨S_, .i32⟩ : BufTy).Contents (Elt F) → (⟨S330000, .i32⟩ : BufTy).Contents (Elt F)),
    binary main_v3 main_v34 main_v35 (addi : (⟨S330000, .i32⟩ : BufTy).Contents (Elt F) → (⟨S330000, .i32⟩ : BufTy).Contents (Elt F) → (⟨S330000, .i32⟩ : BufTy).Contents (Elt F)),
    ternary main_v33 main_v35 main_v3 main_v36 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v36 main_v37 (broadcastInDim S330000x1 ![0] bcast_S330000_S330000x1_0 : (⟨S330000, .i32⟩ : BufTy).Contents (Elt F) → (⟨S330000x1, .i32⟩ : BufTy).Contents (Elt F)),
    binary main_v31 main_v37 main_v38 ((fun x i => Host.gather gather_S10000x256_S330000x1_S330000x256_1_0_n_n_0_1_1256 x i) : (⟨S10000x256, .f32⟩ : BufTy).Contents (Elt F) → (⟨S330000x1, .i32⟩ : BufTy).Contents (Elt F) → (⟨S330000x256, .f32⟩ : BufTy).Contents (Elt F)),
    unary main_v30 main_v39 (broadcastInDim S330000x1 ![0] bcast_S330000_S330000x1_0 : (⟨S330000, .f32⟩ : BufTy).Contents (Elt F) → (⟨S330000x1, .f32⟩ : BufTy).Contents (Elt F)),
    unary main_v39 main_v40 (broadcastInDim S330000x256 ![0, 1] bcast_S330000x1_S330000x256_0_1 : (⟨S330000x1, .f32⟩ : BufTy).Contents (Elt F) → (⟨S330000x256, .f32⟩ : BufTy).Contents (Elt F)),
    binary main_v38 main_v40 main_v41 (mulf : (⟨S330000x256, .f32⟩ : BufTy).Contents (Elt F) → (⟨S330000x256, .f32⟩ : BufTy).Contents (Elt F) → (⟨S330000x256, .f32⟩ : BufTy).Contents (Elt F)),
    nullary main_cst_9 (constant S_ .f32 0x00000000#32),
    unary main_cst_9 main_v42 (broadcastInDim S10000x256 ![] bcast_S_S10000x256 : (⟨S_, .f32⟩ : BufTy).Contents (Elt F) → (⟨S10000x256, .f32⟩ : BufTy).Contents (Elt F)),
    unary main_v6 main_v43 (broadcastInDim S330000x1 ![0] bcast_S330000_S330000x1_0 : (⟨S330000, .i32⟩ : BufTy).Contents (Elt F) → (⟨S330000x1, .i32⟩ : BufTy).Contents (Elt F)),
    ternary main_v42 main_v43 main_v41 main_v44 ((fun x i u => Host.scatterAdd scatter_S10000x256_S330000x1_S330000x256_1_0_0_1 x i u) : (⟨S10000x256, .f32⟩ : BufTy).Contents (Elt F) → (⟨S330000x1, .i32⟩ : BufTy).Contents (Elt F) → (⟨S330000x256, .f32⟩ : BufTy).Contents (Elt F) → (⟨S10000x256, .f32⟩ : BufTy).Contents (Elt F)),
    unary main_arg7 main_v45 (broadcastInDim S1x256 ![1] bcast_S256_S1x256_1 : (⟨S256, .f32⟩ : BufTy).Contents (Elt F) → (⟨S1x256, .f32⟩ : BufTy).Contents (Elt F)),
    unary main_v45 main_v46 (broadcastInDim S10000x256 ![0, 1] bcast_S1x256_S10000x256_0_1 : (⟨S1x256, .f32⟩ : BufTy).Contents (Elt F) → (⟨S10000x256, .f32⟩ : BufTy).Contents (Elt F)),
    binary main_v44 main_v46 main_v47 (addf : (⟨S10000x256, .f32⟩ : BufTy).Contents (Elt F) → (⟨S10000x256, .f32⟩ : BufTy).Contents (Elt F) → (⟨S10000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x256, .f32⟩) main_call1_v0) (broadcastInDim S10000x256 ![] bcast_S_S10000x256),
    TRef.binary (TRef.of (T := ⟨S10000x256, .f32⟩) main_v47) (TRef.of (T := ⟨S10000x256, .f32⟩) main_call1_v0) (TRef.of (T := ⟨S10000x256, .f32⟩) main_v48) maximumf,
    binary main_v48 main_arg8 main_v49 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    nullary main_c_10 (constantI S_ 32 0#32),
    unary main_c_10 main_v50 (broadcastInDim S330000 ![] bcast_S_S330000 : (⟨S_, .i32⟩ : BufTy).Contents (Elt F) → (⟨S330000, .i32⟩ : BufTy).Contents (Elt F)),
    binary main_v3 main_v50 main_v51 (cmpi .slt : (⟨S330000, .i32⟩ : BufTy).Contents (Elt F) → (⟨S330000, .i32⟩ : BufTy).Contents (Elt F) → (⟨S330000, .i1⟩ : BufTy).Contents (Elt F)),
    nullary main_c_11 (constantI S_ 32 10000#32),
    unary main_c_11 main_v52 (broadcastInDim S330000 ![] bcast_S_S330000 : (⟨S_, .i32⟩ : BufTy).Contents (Elt F) → (⟨S330000, .i32⟩ : BufTy).Contents (Elt F)),
    binary main_v3 main_v52 main_v53 (addi : (⟨S330000, .i32⟩ : BufTy).Contents (Elt F) → (⟨S330000, .i32⟩ : BufTy).Contents (Elt F) → (⟨S330000, .i32⟩ : BufTy).Contents (Elt F)),
    ternary main_v51 main_v53 main_v3 main_v54 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v54 main_v55 (broadcastInDim S330000x1 ![0] bcast_S330000_S330000x1_0 : (⟨S330000, .i32⟩ : BufTy).Contents (Elt F) → (⟨S330000x1, .i32⟩ : BufTy).Contents (Elt F)),
    binary main_v49 main_v55 main_v56 ((fun x i => Host.gather gather_S10000x256_S330000x1_S330000x256_1_0_n_n_0_1_1256 x i) : (⟨S10000x256, .f32⟩ : BufTy).Contents (Elt F) → (⟨S330000x1, .i32⟩ : BufTy).Contents (Elt F) → (⟨S330000x256, .f32⟩ : BufTy).Contents (Elt F)),
    unary main_v30 main_v57 (broadcastInDim S330000x1 ![0] bcast_S330000_S330000x1_0 : (⟨S330000, .f32⟩ : BufTy).Contents (Elt F) → (⟨S330000x1, .f32⟩ : BufTy).Contents (Elt F)),
    unary main_v57 main_v58 (broadcastInDim S330000x256 ![0, 1] bcast_S330000x1_S330000x256_0_1 : (⟨S330000x1, .f32⟩ : BufTy).Contents (Elt F) → (⟨S330000x256, .f32⟩ : BufTy).Contents (Elt F)),
    binary main_v56 main_v58 main_v59 (mulf : (⟨S330000x256, .f32⟩ : BufTy).Contents (Elt F) → (⟨S330000x256, .f32⟩ : BufTy).Contents (Elt F) → (⟨S330000x256, .f32⟩ : BufTy).Contents (Elt F)),
    nullary main_cst_12 (constant S_ .f32 0x00000000#32),
    unary main_cst_12 main_v60 (broadcastInDim S10000x256 ![] bcast_S_S10000x256 : (⟨S_, .f32⟩ : BufTy).Contents (Elt F) → (⟨S10000x256, .f32⟩ : BufTy).Contents (Elt F)),
    unary main_v6 main_v61 (broadcastInDim S330000x1 ![0] bcast_S330000_S330000x1_0 : (⟨S330000, .i32⟩ : BufTy).Contents (Elt F) → (⟨S330000x1, .i32⟩ : BufTy).Contents (Elt F)),
    ternary main_v60 main_v61 main_v59 main_v62 ((fun x i u => Host.scatterAdd scatter_S10000x256_S330000x1_S330000x256_1_0_0_1 x i u) : (⟨S10000x256, .f32⟩ : BufTy).Contents (Elt F) → (⟨S330000x1, .i32⟩ : BufTy).Contents (Elt F) → (⟨S330000x256, .f32⟩ : BufTy).Contents (Elt F) → (⟨S10000x256, .f32⟩ : BufTy).Contents (Elt F)),
    unary main_arg9 main_v63 (broadcastInDim S1x256 ![1] bcast_S256_S1x256_1 : (⟨S256, .f32⟩ : BufTy).Contents (Elt F) → (⟨S1x256, .f32⟩ : BufTy).Contents (Elt F)),
    unary main_v63 main_v64 (broadcastInDim S10000x256 ![0, 1] bcast_S1x256_S10000x256_0_1 : (⟨S1x256, .f32⟩ : BufTy).Contents (Elt F) → (⟨S10000x256, .f32⟩ : BufTy).Contents (Elt F)),
    binary main_v62 main_v64 main_v65 (addf : (⟨S10000x256, .f32⟩ : BufTy).Contents (Elt F) → (⟨S10000x256, .f32⟩ : BufTy).Contents (Elt F) → (⟨S10000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S10000x256, .f32⟩) main_call2_v0) (broadcastInDim S10000x256 ![] bcast_S_S10000x256),
    TRef.binary (TRef.of (T := ⟨S10000x256, .f32⟩) main_v65) (TRef.of (T := ⟨S10000x256, .f32⟩) main_call2_v0) (TRef.of (T := ⟨S10000x256, .f32⟩) main_v66) maximumf,
    binary main_v66 main_arg10 main_v67 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    nullary main_c_13 (constantI S_ 32 0#32),
    unary main_c_13 main_v68 (broadcastInDim S330000 ![] bcast_S_S330000 : (⟨S_, .i32⟩ : BufTy).Contents (Elt F) → (⟨S330000, .i32⟩ : BufTy).Contents (Elt F)),
    binary main_v3 main_v68 main_v69 (cmpi .slt : (⟨S330000, .i32⟩ : BufTy).Contents (Elt F) → (⟨S330000, .i32⟩ : BufTy).Contents (Elt F) → (⟨S330000, .i1⟩ : BufTy).Contents (Elt F)),
    nullary main_c_14 (constantI S_ 32 10000#32),
    unary main_c_14 main_v70 (broadcastInDim S330000 ![] bcast_S_S330000 : (⟨S_, .i32⟩ : BufTy).Contents (Elt F) → (⟨S330000, .i32⟩ : BufTy).Contents (Elt F)),
    binary main_v3 main_v70 main_v71 (addi : (⟨S330000, .i32⟩ : BufTy).Contents (Elt F) → (⟨S330000, .i32⟩ : BufTy).Contents (Elt F) → (⟨S330000, .i32⟩ : BufTy).Contents (Elt F)),
    ternary main_v69 main_v71 main_v3 main_v72 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v72 main_v73 (broadcastInDim S330000x1 ![0] bcast_S330000_S330000x1_0 : (⟨S330000, .i32⟩ : BufTy).Contents (Elt F) → (⟨S330000x1, .i32⟩ : BufTy).Contents (Elt F)),
    binary main_v67 main_v73 main_v74 ((fun x i => Host.gather gather_S10000x256_S330000x1_S330000x256_1_0_n_n_0_1_1256 x i) : (⟨S10000x256, .f32⟩ : BufTy).Contents (Elt F) → (⟨S330000x1, .i32⟩ : BufTy).Contents (Elt F) → (⟨S330000x256, .f32⟩ : BufTy).Contents (Elt F)),
    unary main_v30 main_v75 (broadcastInDim S330000x1 ![0] bcast_S330000_S330000x1_0 : (⟨S330000, .f32⟩ : BufTy).Contents (Elt F) → (⟨S330000x1, .f32⟩ : BufTy).Contents (Elt F)),
    unary main_v75 main_v76 (broadcastInDim S330000x256 ![0, 1] bcast_S330000x1_S330000x256_0_1 : (⟨S330000x1, .f32⟩ : BufTy).Contents (Elt F) → (⟨S330000x256, .f32⟩ : BufTy).Contents (Elt F)),
    binary main_v74 main_v76 main_v77 (mulf : (⟨S330000x256, .f32⟩ : BufTy).Contents (Elt F) → (⟨S330000x256, .f32⟩ : BufTy).Contents (Elt F) → (⟨S330000x256, .f32⟩ : BufTy).Contents (Elt F)),
    nullary main_cst_15 (constant S_ .f32 0x00000000#32),
    unary main_cst_15 main_v78 (broadcastInDim S10000x256 ![] bcast_S_S10000x256 : (⟨S_, .f32⟩ : BufTy).Contents (Elt F) → (⟨S10000x256, .f32⟩ : BufTy).Contents (Elt F)),
    unary main_v6 main_v79 (broadcastInDim S330000x1 ![0] bcast_S330000_S330000x1_0 : (⟨S330000, .i32⟩ : BufTy).Contents (Elt F) → (⟨S330000x1, .i32⟩ : BufTy).Contents (Elt F)),
    ternary main_v78 main_v79 main_v77 main_v80 ((fun x i u => Host.scatterAdd scatter_S10000x256_S330000x1_S330000x256_1_0_0_1 x i u) : (⟨S10000x256, .f32⟩ : BufTy).Contents (Elt F) → (⟨S330000x1, .i32⟩ : BufTy).Contents (Elt F) → (⟨S330000x256, .f32⟩ : BufTy).Contents (Elt F) → (⟨S10000x256, .f32⟩ : BufTy).Contents (Elt F)),
    unary main_arg11 main_v81 (broadcastInDim S1x256 ![1] bcast_S256_S1x256_1 : (⟨S256, .f32⟩ : BufTy).Contents (Elt F) → (⟨S1x256, .f32⟩ : BufTy).Contents (Elt F)),
    unary main_v81 main_v82 (broadcastInDim S10000x256 ![0, 1] bcast_S1x256_S10000x256_0_1 : (⟨S1x256, .f32⟩ : BufTy).Contents (Elt F) → (⟨S10000x256, .f32⟩ : BufTy).Contents (Elt F)),
    binary main_v80 main_v82 main_v83 (addf : (⟨S10000x256, .f32⟩ : BufTy).Contents (Elt F) → (⟨S10000x256, .f32⟩ : BufTy).Contents (Elt F) → (⟨S10000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S10000x256, .f32⟩) main_call3_v0) (broadcastInDim S10000x256 ![] bcast_S_S10000x256),
    TRef.binary (TRef.of (T := ⟨S10000x256, .f32⟩) main_v83) (TRef.of (T := ⟨S10000x256, .f32⟩) main_call3_v0) (TRef.of (T := ⟨S10000x256, .f32⟩) main_v84) maximumf,
    binary main_arg0 main_arg2 main_v85 ((fun a b => concatenate S10000x158 1 [⟨S10000x128, a⟩, ⟨S10000x30, b⟩] concatenates_S10000x128_S10000x30_S10000x158_d1) : (⟨S10000x128, .f32⟩ : BufTy).Contents (Elt F) → (⟨S10000x30, .f32⟩ : BufTy).Contents (Elt F) → (⟨S10000x158, .f32⟩ : BufTy).Contents (Elt F)),
    binary main_arg3 main_v85 main_v86 ((fun l r => Host.dotGeneral dot_S10000x10000_S10000x158_S10000x158_1_0_0_1_n_n none l r) : (⟨S10000x10000, .f32⟩ : BufTy).Contents (Elt F) → (⟨S10000x158, .f32⟩ : BufTy).Contents (Elt F) → (⟨S10000x158, .f32⟩ : BufTy).Contents (Elt F)),
    binary main_arg4 main_v85 main_v87 ((fun l r => Host.dotGeneral dot_S10000x10000_S10000x158_S10000x158_1_0_0_1_n_n none l r) : (⟨S10000x10000, .f32⟩ : BufTy).Contents (Elt F) → (⟨S10000x158, .f32⟩ : BufTy).Contents (Elt F) → (⟨S10000x158, .f32⟩ : BufTy).Contents (Elt F)),
    binary main_arg5 main_v85 main_v88 ((fun l r => Host.dotGeneral dot_S10000x10000_S10000x158_S10000x158_1_0_0_1_n_n none l r) : (⟨S10000x10000, .f32⟩ : BufTy).Contents (Elt F) → (⟨S10000x158, .f32⟩ : BufTy).Contents (Elt F) → (⟨S10000x158, .f32⟩ : BufTy).Contents (Elt F)),
    unary main_v85 main_v89 (broadcastInDim S1x10000x158 ![1, 2] bcast_S10000x158_S1x10000x158_1_2 : (⟨S10000x158, .f32⟩ : BufTy).Contents (Elt F) → (⟨S1x10000x158, .f32⟩ : BufTy).Contents (Elt F)),
    unary main_v86 main_v90 (broadcastInDim S1x10000x158 ![1, 2] bcast_S10000x158_S1x10000x158_1_2 : (⟨S10000x158, .f32⟩ : BufTy).Contents (Elt F) → (⟨S1x10000x158, .f32⟩ : BufTy).Contents (Elt F)),
    unary main_v87 main_v91 (broadcastInDim S1x10000x158 ![1, 2] bcast_S10000x158_S1x10000x158_1_2 : (⟨S10000x158, .f32⟩ : BufTy).Contents (Elt F) → (⟨S1x10000x158, .f32⟩ : BufTy).Contents (Elt F)),
    unary main_v88 main_v92 (broadcastInDim S1x10000x158 ![1, 2] bcast_S10000x158_S1x10000x158_1_2 : (⟨S10000x158, .f32⟩ : BufTy).Contents (Elt F) → (⟨S1x10000x158, .f32⟩ : BufTy).Contents (Elt F)),
    nary ![main_v89, main_v90, main_v91, main_v92] main_v93 (fun u => concatenate S4x10000x158 0 [⟨S1x10000x158, u 0⟩, ⟨S1x10000x158, u 1⟩, ⟨S1x10000x158, u 2⟩, ⟨S1x10000x158, u 3⟩] concatenates_S1x10000x158_S1x10000x158_S1x10000x158_S1x10000x158_S4x10000x158_d0),
    binary main_v93 main_arg12 main_v94 ((fun l r => Host.dotGeneral dot_S4x10000x158_S4x158x256_S4x10000x256_2_1_1_2_0_0 none l r) : (⟨S4x10000x158, .f32⟩ : BufTy).Contents (Elt F) → (⟨S4x158x256, .f32⟩ : BufTy).Contents (Elt F) → (⟨S4x10000x256, .f32⟩ : BufTy).Contents (Elt F)),
    unary main_arg13 main_v95 (broadcastInDim S4x1x256 ![0, 2] bcast_S4x256_S4x1x256_0_2 : (⟨S4x256, .f32⟩ : BufTy).Contents (Elt F) → (⟨S4x1x256, .f32⟩ : BufTy).Contents (Elt F)),
    unary main_v95 main_v96 (broadcastInDim S4x10000x256 ![0, 1, 2] bcast_S4x1x256_S4x10000x256_0_1_2 : (⟨S4x1x256, .f32⟩ : BufTy).Contents (Elt F) → (⟨S4x10000x256, .f32⟩ : BufTy).Contents (Elt F)),
    binary main_v94 main_v96 main_v97 (addf : (⟨S4x10000x256, .f32⟩ : BufTy).Contents (Elt F) → (⟨S4x10000x256, .f32⟩ : BufTy).Contents (Elt F) → (⟨S4x10000x256, .f32⟩ : BufTy).Contents (Elt F)),
    nullary main_cst_16 (constant S_ .f32 0x00000000#32),
    binary main_v97 main_cst_16 main_v98 ((fun x v => Host.reduceAdd x v reducesTo_S4x10000x256_S4x256_d1 h_S_) : (⟨S4x10000x256, .f32⟩ : BufTy).Contents (Elt F) → (⟨S_, .f32⟩ : BufTy).Contents (Elt F) → (⟨S4x256, .f32⟩ : BufTy).Contents (Elt F)),
    nullary main_cst_17 (constant S_ .f32 0x461C4000#32),
    unary main_cst_17 main_v99 (broadcastInDim S4x256 ![] bcast_S_S4x256 : (⟨S_, .f32⟩ : BufTy).Contents (Elt F) → (⟨S4x256, .f32⟩ : BufTy).Contents (Elt F)),
    binary main_v98 main_v99 main_v100 (Host.divf : (⟨S4x256, .f32⟩ : BufTy).Contents (Elt F) → (⟨S4x256, .f32⟩ : BufTy).Contents (Elt F) → (⟨S4x256, .f32⟩ : BufTy).Contents (Elt F)),
    unary main_v100 main_v101 (broadcastInDim S4x1x256 ![0, 2] bcast_S4x256_S4x1x256_0_2 : (⟨S4x256, .f32⟩ : BufTy).Contents (Elt F) → (⟨S4x1x256, .f32⟩ : BufTy).Contents (Elt F)),
    unary main_v101 main_v102 (broadcastInDim S4x10000x256 ![0, 1, 2] bcast_S4x1x256_S4x10000x256_0_1_2 : (⟨S4x1x256, .f32⟩ : BufTy).Contents (Elt F) → (⟨S4x10000x256, .f32⟩ : BufTy).Contents (Elt F)),
    binary main_v97 main_v102 main_v103 (subf : (⟨S4x10000x256, .f32⟩ : BufTy).Contents (Elt F) → (⟨S4x10000x256, .f32⟩ : BufTy).Contents (Elt F) → (⟨S4x10000x256, .f32⟩ : BufTy).Contents (Elt F)),
    binary main_v103 main_v103 main_v104 (mulf : (⟨S4x10000x256, .f32⟩ : BufTy).Contents (Elt F) → (⟨S4x10000x256, .f32⟩ : BufTy).Contents (Elt F) → (⟨S4x10000x256, .f32⟩ : BufTy).Contents (Elt F)),
    nullary main_cst_18 (constant S_ .f32 0x00000000#32),
    binary main_v104 main_cst_18 main_v105 ((fun x v => Host.reduceAdd x v reducesTo_S4x10000x256_S4x256_d1 h_S_) : (⟨S4x10000x256, .f32⟩ : BufTy).Contents (Elt F) → (⟨S_, .f32⟩ : BufTy).Contents (Elt F) → (⟨S4x256, .f32⟩ : BufTy).Contents (Elt F)),
    nullary main_cst_19 (constant S_ .f32 0x461C4000#32),
    unary main_cst_19 main_v106 (broadcastInDim S4x256 ![] bcast_S_S4x256 : (⟨S_, .f32⟩ : BufTy).Contents (Elt F) → (⟨S4x256, .f32⟩ : BufTy).Contents (Elt F)),
    binary main_v105 main_v106 main_v107 (Host.divf : (⟨S4x256, .f32⟩ : BufTy).Contents (Elt F) → (⟨S4x256, .f32⟩ : BufTy).Contents (Elt F) → (⟨S4x256, .f32⟩ : BufTy).Contents (Elt F)),
    unary main_v100 main_v108 (broadcastInDim S4x1x256 ![0, 2] bcast_S4x256_S4x1x256_0_2 : (⟨S4x256, .f32⟩ : BufTy).Contents (Elt F) → (⟨S4x1x256, .f32⟩ : BufTy).Contents (Elt F)),
    unary main_v108 main_v109 (broadcastInDim S4x10000x256 ![0, 1, 2] bcast_S4x1x256_S4x10000x256_0_1_2 : (⟨S4x1x256, .f32⟩ : BufTy).Contents (Elt F) → (⟨S4x10000x256, .f32⟩ : BufTy).Contents (Elt F)),
    binary main_v97 main_v109 main_v110 (subf : (⟨S4x10000x256, .f32⟩ : BufTy).Contents (Elt F) → (⟨S4x10000x256, .f32⟩ : BufTy).Contents (Elt F) → (⟨S4x10000x256, .f32⟩ : BufTy).Contents (Elt F)),
    unary main_arg14 main_v111 (broadcastInDim S4x1x256 ![0, 2] bcast_S4x256_S4x1x256_0_2 : (⟨S4x256, .f32⟩ : BufTy).Contents (Elt F) → (⟨S4x1x256, .f32⟩ : BufTy).Contents (Elt F)),
    unary main_v111 main_v112 (broadcastInDim S4x10000x256 ![0, 1, 2] bcast_S4x1x256_S4x10000x256_0_1_2 : (⟨S4x1x256, .f32⟩ : BufTy).Contents (Elt F) → (⟨S4x10000x256, .f32⟩ : BufTy).Contents (Elt F)),
    binary main_v112 main_v110 main_v113 (mulf : (⟨S4x10000x256, .f32⟩ : BufTy).Contents (Elt F) → (⟨S4x10000x256, .f32⟩ : BufTy).Contents (Elt F) → (⟨S4x10000x256, .f32⟩ : BufTy).Contents (Elt F)),
    nullary main_cst_20 (constant S_ .f32 0x3727C5AC#32),
    unary main_cst_20 main_v114 (broadcastInDim S4x256 ![] bcast_S_S4x256 : (⟨S_, .f32⟩ : BufTy).Contents (Elt F) → (⟨S4x256, .f32⟩ : BufTy).Contents (Elt F)),
    binary main_v107 main_v114 main_v115 (addf : (⟨S4x256, .f32⟩ : BufTy).Contents (Elt F) → (⟨S4x256, .f32⟩ : BufTy).Contents (Elt F) → (⟨S4x256, .f32⟩ : BufTy).Contents (Elt F)),
    unary main_v115 main_v116 (Host.rsqrt : (⟨S4x256, .f32⟩ : BufTy).Contents (Elt F) → (⟨S4x256, .f32⟩ : BufTy).Contents (Elt F)),
    unary main_v116 main_v117 (broadcastInDim S4x1x256 ![0, 2] bcast_S4x256_S4x1x256_0_2 : (⟨S4x256, .f32⟩ : BufTy).Contents (Elt F) → (⟨S4x1x256, .f32⟩ : BufTy).Contents (Elt F)),
    unary main_v117 main_v118 (broadcastInDim S4x10000x256 ![0, 1, 2] bcast_S4x1x256_S4x10000x256_0_1_2 : (⟨S4x1x256, .f32⟩ : BufTy).Contents (Elt F) → (⟨S4x10000x256, .f32⟩ : BufTy).Contents (Elt F)),
    binary main_v113 main_v118 main_v119 (mulf : (⟨S4x10000x256, .f32⟩ : BufTy).Contents (Elt F) → (⟨S4x10000x256, .f32⟩ : BufTy).Contents (Elt F) → (⟨S4x10000x256, .f32⟩ : BufTy).Contents (Elt F)),
    unary main_arg15 main_v120 (broadcastInDim S4x1x256 ![0, 2] bcast_S4x256_S4x1x256_0_2 : (⟨S4x256, .f32⟩ : BufTy).Contents (Elt F) → (⟨S4x1x256, .f32⟩ : BufTy).Contents (Elt F)),
    unary main_v120 main_v121 (broadcastInDim S4x10000x256 ![0, 1, 2] bcast_S4x1x256_S4x10000x256_0_1_2 : (⟨S4x1x256, .f32⟩ : BufTy).Contents (Elt F) → (⟨S4x10000x256, .f32⟩ : BufTy).Contents (Elt F)),
    binary main_v119 main_v121 main_v122 (addf : (⟨S4x10000x256, .f32⟩ : BufTy).Contents (Elt F) → (⟨S4x10000x256, .f32⟩ : BufTy).Contents (Elt F) → (⟨S4x10000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S4x10000x256, .f32⟩) main_call4_v0) (broadcastInDim S4x10000x256 ![] bcast_S_S4x10000x256),
    TRef.binary (TRef.of (T := ⟨S4x10000x256, .f32⟩) main_v122) (TRef.of (T := ⟨S4x10000x256, .f32⟩) main_call4_v0) (TRef.of (T := ⟨S4x10000x256, .f32⟩) main_v123) maximumf,
    binary main_v123 main_arg16 main_v124 ((fun l r => Host.dotGeneral dot_S4x10000x256_S4x256x256_S4x10000x256_2_1_1_2_0_0 none l r) : (⟨S4x10000x256, .f32⟩ : BufTy).Contents (Elt F) → (⟨S4x256x256, .f32⟩ : BufTy).Contents (Elt F) → (⟨S4x10000x256, .f32⟩ : BufTy).Contents (Elt F)),
    unary main_arg17 main_v125 (broadcastInDim S4x1x256 ![0, 2] bcast_S4x256_S4x1x256_0_2 : (⟨S4x256, .f32⟩ : BufTy).Contents (Elt F) → (⟨S4x1x256, .f32⟩ : BufTy).Contents (Elt F)),
    unary main_v125 main_v126 (broadcastInDim S4x10000x256 ![0, 1, 2] bcast_S4x1x256_S4x10000x256_0_1_2 : (⟨S4x1x256, .f32⟩ : BufTy).Contents (Elt F) → (⟨S4x10000x256, .f32⟩ : BufTy).Contents (Elt F)),
    binary main_v124 main_v126 main_v127 (addf : (⟨S4x10000x256, .f32⟩ : BufTy).Contents (Elt F) → (⟨S4x10000x256, .f32⟩ : BufTy).Contents (Elt F) → (⟨S4x10000x256, .f32⟩ : BufTy).Contents (Elt F)),
    nullary main_cst_21 (constant S_ .f32 0x00000000#32),
    binary main_v127 main_cst_21 main_v128 ((fun x v => Host.reduceAdd x v reducesTo_S4x10000x256_S10000x256_d0 h_S_) : (⟨S4x10000x256, .f32⟩ : BufTy).Contents (Elt F) → (⟨S_, .f32⟩ : BufTy).Contents (Elt F) → (⟨S10000x256, .f32⟩ : BufTy).Contents (Elt F)),
    binary main_v84 main_v128 main_v129 ((fun a b => concatenate S10000x512 1 [⟨S10000x256, a⟩, ⟨S10000x256, b⟩] concatenates_S10000x256_S10000x256_S10000x512_d1) : (⟨S10000x256, .f32⟩ : BufTy).Contents (Elt F) → (⟨S10000x256, .f32⟩ : BufTy).Contents (Elt F) → (⟨S10000x512, .f32⟩ : BufTy).Contents (Elt F)) ]
abbrev ops0 : List (HloOp τ sig (Elt F)) :=
  [ nullary main_v0 (iotaInDim S10000 32 0),
    unary main_arg1 main_v1 ((extractStridedSlice S1x320000 ![0, 0] · slices_S2x320000_S1x320000_0_0) : (⟨S2x320000, .i32⟩ : BufTy).Contents (Elt F) → (⟨S1x320000, .i32⟩ : BufTy).Contents (Elt F)),
    reshape main_v1 main_v2 rfl shapeCasts_S1x320000_S320000,
    binary main_v2 main_v0 main_v3 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    unary main_arg1 main_v4 ((extractStridedSlice S1x320000 ![1, 0] · slices_S2x320000_S1x320000_1_0) : (⟨S2x320000, .i32⟩ : BufTy).Contents (Elt F) → (⟨S1x320000, .i32⟩ : BufTy).Contents (Elt F)),
    reshape main_v4 main_v5 rfl shapeCasts_S1x320000_S320000,
    binary main_v5 main_v0 main_v6 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    nullary main_cst (constant S_ .f32 0x3F800000#32),
    unary main_cst main_v7 (broadcastInDim S330000 ![] bcast_S_S330000 : (⟨S_, .f32⟩ : BufTy).Contents (Elt F) → (⟨S330000, .f32⟩ : BufTy).Contents (Elt F)),
    nullary main_cst_0 (constant S_ .f32 0x00000000#32),
    unary main_cst_0 main_v8 (broadcastInDim S10000 ![] bcast_S_S10000 : (⟨S_, .f32⟩ : BufTy).Contents (Elt F) → (⟨S10000, .f32⟩ : BufTy).Contents (Elt F)),
    unary main_v6 main_v9 (broadcastInDim S330000x1 ![0] bcast_S330000_S330000x1_0 : (⟨S330000, .i32⟩ : BufTy).Contents (Elt F) → (⟨S330000x1, .i32⟩ : BufTy).Contents (Elt F)),
    ternary main_v8 main_v9 main_v7 main_v10 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    nullary main_cst_1 (constant S_ .f32 0x00000000#32),
    unary main_cst_1 main_v11 (broadcastInDim S10000 ![] bcast_S_S10000 : (⟨S_, .f32⟩ : BufTy).Contents (Elt F) → (⟨S10000, .f32⟩ : BufTy).Contents (Elt F)),
    binary main_v10 main_v11 main_v12 (cmpf .ogt : (⟨S10000, .f32⟩ : BufTy).Contents (Elt F) → (⟨S10000, .f32⟩ : BufTy).Contents (Elt F) → (⟨S10000, .i1⟩ : BufTy).Contents (Elt F)),
    nullary main_cst_2 (constant S_ .f32 0xBF000000#32),
    unary main_cst_2 main_v13 (broadcastInDim S10000 ![] bcast_S_S10000 : (⟨S_, .f32⟩ : BufTy).Contents (Elt F) → (⟨S10000, .f32⟩ : BufTy).Contents (Elt F)),
    binary main_v10 main_v13 main_v14 (Host.powf : (⟨S10000, .f32⟩ : BufTy).Contents (Elt F) → (⟨S10000, .f32⟩ : BufTy).Contents (Elt F) → (⟨S10000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id ]
abbrev ops1 : List (HloOp τ sig (Elt F)) :=
  [ TRef.unary (TRef.of (T := ⟨S_, .f32⟩) main_call0_v0) (TRef.of (T := ⟨S10000, .f32⟩) main_call0_v1) (broadcastInDim S10000 ![] bcast_S_S10000),
    TRef.ternary (TRef.of (T := ⟨S10000, .i1⟩) main_v12) (TRef.of (T := ⟨S10000, .f32⟩) main_v14) (TRef.of (T := ⟨S10000, .f32⟩) main_call0_v1) (TRef.of (T := ⟨S10000, .f32⟩) main_v15) select,
    nullary main_c (constantI S_ 32 0#32),
    unary main_c main_v16 (broadcastInDim S330000 ![] bcast_S_S330000 : (⟨S_, .i32⟩ : BufTy).Contents (Elt F) → (⟨S330000, .i32⟩ : BufTy).Contents (Elt F)),
    binary main_v3 main_v16 main_v17 (cmpi .slt : (⟨S330000, .i32⟩ : BufTy).Contents (Elt F) → (⟨S330000, .i32⟩ : BufTy).Contents (Elt F) → (⟨S330000, .i1⟩ : BufTy).Contents (Elt F)),
    nullary main_c_4 (constantI S_ 32 10000#32),
    unary main_c_4 main_v18 (broadcastInDim S330000 ![] bcast_S_S330000 : (⟨S_, .i32⟩ : BufTy).Contents (Elt F) → (⟨S330000, .i32⟩ : BufTy).Contents (Elt F)),
    binary main_v3 main_v18 main_v19 (addi : (⟨S330000, .i32⟩ : BufTy).Contents (Elt F) → (⟨S330000, .i32⟩ : BufTy).Contents (Elt F) → (⟨S330000, .i32⟩ : BufTy).Contents (Elt F)),
    ternary main_v17 main_v19 main_v3 main_v20 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v20 main_v21 (broadcastInDim S330000x1 ![0] bcast_S330000_S330000x1_0 : (⟨S330000, .i32⟩ : BufTy).Contents (Elt F) → (⟨S330000x1, .i32⟩ : BufTy).Contents (Elt F)),
    binary main_v15 main_v21 main_v22 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    nullary main_c_5 (constantI S_ 32 0#32),
    unary main_c_5 main_v23 (broadcastInDim S330000 ![] bcast_S_S330000 : (⟨S_, .i32⟩ : BufTy).Contents (Elt F) → (⟨S330000, .i32⟩ : BufTy).Contents (Elt F)),
    binary main_v6 main_v23 main_v24 (cmpi .slt : (⟨S330000, .i32⟩ : BufTy).Contents (Elt F) → (⟨S330000, .i32⟩ : BufTy).Contents (Elt F) → (⟨S330000, .i1⟩ : BufTy).Contents (Elt F)),
    nullary main_c_6 (constantI S_ 32 10000#32),
    unary main_c_6 main_v25 (broadcastInDim S330000 ![] bcast_S_S330000 : (⟨S_, .i32⟩ : BufTy).Contents (Elt F) → (⟨S330000, .i32⟩ : BufTy).Contents (Elt F)),
    binary main_v6 main_v25 main_v26 (addi : (⟨S330000, .i32⟩ : BufTy).Contents (Elt F) → (⟨S330000, .i32⟩ : BufTy).Contents (Elt F) → (⟨S330000, .i32⟩ : BufTy).Contents (Elt F)),
    ternary main_v24 main_v26 main_v6 main_v27 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v27 main_v28 (broadcastInDim S330000x1 ![0] bcast_S330000_S330000x1_0 : (⟨S330000, .i32⟩ : BufTy).Contents (Elt F) → (⟨S330000x1, .i32⟩ : BufTy).Contents (Elt F)),
    binary main_v15 main_v28 main_v29 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    binary main_v22 main_v29 main_v30 (mulf : (⟨S330000, .f32⟩ : BufTy).Contents (Elt F) → (⟨S330000, .f32⟩ : BufTy).Contents (Elt F) → (⟨S330000, .f32⟩ : BufTy).Contents (Elt F)) ]
abbrev ops2 : List (HloOp τ sig (Elt F)) :=
  [ binary main_arg0 main_arg6 main_v31 ((fun l r => Host.dotGeneral dot_S10000x128_S128x256_S10000x256_1_0_0_1_n_n none l r) : (⟨S10000x128, .f32⟩ : BufTy).Contents (Elt F) → (⟨S128x256, .f32⟩ : BufTy).Contents (Elt F) → (⟨S10000x256, .f32⟩ : BufTy).Contents (Elt F)),
    nullary main_c_7 (constantI S_ 32 0#32),
    unary main_c_7 main_v32 (broadcastInDim S330000 ![] bcast_S_S330000 : (⟨S_, .i32⟩ : BufTy).Contents (Elt F) → (⟨S330000, .i32⟩ : BufTy).Contents (Elt F)),
    binary main_v3 main_v32 main_v33 (cmpi .slt : (⟨S330000, .i32⟩ : BufTy).Contents (Elt F) → (⟨S330000, .i32⟩ : BufTy).Contents (Elt F) → (⟨S330000, .i1⟩ : BufTy).Contents (Elt F)),
    nullary main_c_8 (constantI S_ 32 10000#32),
    unary main_c_8 main_v34 (broadcastInDim S330000 ![] bcast_S_S330000 : (⟨S_, .i32⟩ : BufTy).Contents (Elt F) → (⟨S330000, .i32⟩ : BufTy).Contents (Elt F)),
    binary main_v3 main_v34 main_v35 (addi : (⟨S330000, .i32⟩ : BufTy).Contents (Elt F) → (⟨S330000, .i32⟩ : BufTy).Contents (Elt F) → (⟨S330000, .i32⟩ : BufTy).Contents (Elt F)),
    ternary main_v33 main_v35 main_v3 main_v36 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v36 main_v37 (broadcastInDim S330000x1 ![0] bcast_S330000_S330000x1_0 : (⟨S330000, .i32⟩ : BufTy).Contents (Elt F) → (⟨S330000x1, .i32⟩ : BufTy).Contents (Elt F)),
    binary main_v31 main_v37 main_v38 ((fun x i => Host.gather gather_S10000x256_S330000x1_S330000x256_1_0_n_n_0_1_1256 x i) : (⟨S10000x256, .f32⟩ : BufTy).Contents (Elt F) → (⟨S330000x1, .i32⟩ : BufTy).Contents (Elt F) → (⟨S330000x256, .f32⟩ : BufTy).Contents (Elt F)),
    unary main_v30 main_v39 (broadcastInDim S330000x1 ![0] bcast_S330000_S330000x1_0 : (⟨S330000, .f32⟩ : BufTy).Contents (Elt F) → (⟨S330000x1, .f32⟩ : BufTy).Contents (Elt F)),
    unary main_v39 main_v40 (broadcastInDim S330000x256 ![0, 1] bcast_S330000x1_S330000x256_0_1 : (⟨S330000x1, .f32⟩ : BufTy).Contents (Elt F) → (⟨S330000x256, .f32⟩ : BufTy).Contents (Elt F)),
    binary main_v38 main_v40 main_v41 (mulf : (⟨S330000x256, .f32⟩ : BufTy).Contents (Elt F) → (⟨S330000x256, .f32⟩ : BufTy).Contents (Elt F) → (⟨S330000x256, .f32⟩ : BufTy).Contents (Elt F)),
    nullary main_cst_9 (constant S_ .f32 0x00000000#32),
    unary main_cst_9 main_v42 (broadcastInDim S10000x256 ![] bcast_S_S10000x256 : (⟨S_, .f32⟩ : BufTy).Contents (Elt F) → (⟨S10000x256, .f32⟩ : BufTy).Contents (Elt F)),
    unary main_v6 main_v43 (broadcastInDim S330000x1 ![0] bcast_S330000_S330000x1_0 : (⟨S330000, .i32⟩ : BufTy).Contents (Elt F) → (⟨S330000x1, .i32⟩ : BufTy).Contents (Elt F)),
    ternary main_v42 main_v43 main_v41 main_v44 ((fun x i u => Host.scatterAdd scatter_S10000x256_S330000x1_S330000x256_1_0_0_1 x i u) : (⟨S10000x256, .f32⟩ : BufTy).Contents (Elt F) → (⟨S330000x1, .i32⟩ : BufTy).Contents (Elt F) → (⟨S330000x256, .f32⟩ : BufTy).Contents (Elt F) → (⟨S10000x256, .f32⟩ : BufTy).Contents (Elt F)),
    unary main_arg7 main_v45 (broadcastInDim S1x256 ![1] bcast_S256_S1x256_1 : (⟨S256, .f32⟩ : BufTy).Contents (Elt F) → (⟨S1x256, .f32⟩ : BufTy).Contents (Elt F)),
    unary main_v45 main_v46 (broadcastInDim S10000x256 ![0, 1] bcast_S1x256_S10000x256_0_1 : (⟨S1x256, .f32⟩ : BufTy).Contents (Elt F) → (⟨S10000x256, .f32⟩ : BufTy).Contents (Elt F)),
    binary main_v44 main_v46 main_v47 (addf : (⟨S10000x256, .f32⟩ : BufTy).Contents (Elt F) → (⟨S10000x256, .f32⟩ : BufTy).Contents (Elt F) → (⟨S10000x256, .f32⟩ : BufTy).Contents (Elt F)),
    TRef.nullary (TRef.of (T := ⟨S_, .f32⟩) main_call1_cst) (constant S_ .f32 0x00000000#32) ]
abbrev ops3 : List (HloOp τ sig (Elt F)) :=
  [ TRef.unary (TRef.of (T := ⟨S_, .f32⟩) main_call1_cst) (TRef.of (T := ⟨S10000x256, .f32⟩) main_call1_v0) (broadcastInDim S10000x256 ![] bcast_S_S10000x256),
    TRef.binary (TRef.of (T := ⟨S10000x256, .f32⟩) main_v47) (TRef.of (T := ⟨S10000x256, .f32⟩) main_call1_v0) (TRef.of (T := ⟨S10000x256, .f32⟩) main_v48) maximumf,
    binary main_v48 main_arg8 main_v49 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    nullary main_c_10 (constantI S_ 32 0#32),
    unary main_c_10 main_v50 (broadcastInDim S330000 ![] bcast_S_S330000 : (⟨S_, .i32⟩ : BufTy).Contents (Elt F) → (⟨S330000, .i32⟩ : BufTy).Contents (Elt F)),
    binary main_v3 main_v50 main_v51 (cmpi .slt : (⟨S330000, .i32⟩ : BufTy).Contents (Elt F) → (⟨S330000, .i32⟩ : BufTy).Contents (Elt F) → (⟨S330000, .i1⟩ : BufTy).Contents (Elt F)),
    nullary main_c_11 (constantI S_ 32 10000#32),
    unary main_c_11 main_v52 (broadcastInDim S330000 ![] bcast_S_S330000 : (⟨S_, .i32⟩ : BufTy).Contents (Elt F) → (⟨S330000, .i32⟩ : BufTy).Contents (Elt F)),
    binary main_v3 main_v52 main_v53 (addi : (⟨S330000, .i32⟩ : BufTy).Contents (Elt F) → (⟨S330000, .i32⟩ : BufTy).Contents (Elt F) → (⟨S330000, .i32⟩ : BufTy).Contents (Elt F)),
    ternary main_v51 main_v53 main_v3 main_v54 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v54 main_v55 (broadcastInDim S330000x1 ![0] bcast_S330000_S330000x1_0 : (⟨S330000, .i32⟩ : BufTy).Contents (Elt F) → (⟨S330000x1, .i32⟩ : BufTy).Contents (Elt F)),
    binary main_v49 main_v55 main_v56 ((fun x i => Host.gather gather_S10000x256_S330000x1_S330000x256_1_0_n_n_0_1_1256 x i) : (⟨S10000x256, .f32⟩ : BufTy).Contents (Elt F) → (⟨S330000x1, .i32⟩ : BufTy).Contents (Elt F) → (⟨S330000x256, .f32⟩ : BufTy).Contents (Elt F)),
    unary main_v30 main_v57 (broadcastInDim S330000x1 ![0] bcast_S330000_S330000x1_0 : (⟨S330000, .f32⟩ : BufTy).Contents (Elt F) → (⟨S330000x1, .f32⟩ : BufTy).Contents (Elt F)),
    unary main_v57 main_v58 (broadcastInDim S330000x256 ![0, 1] bcast_S330000x1_S330000x256_0_1 : (⟨S330000x1, .f32⟩ : BufTy).Contents (Elt F) → (⟨S330000x256, .f32⟩ : BufTy).Contents (Elt F)),
    binary main_v56 main_v58 main_v59 (mulf : (⟨S330000x256, .f32⟩ : BufTy).Contents (Elt F) → (⟨S330000x256, .f32⟩ : BufTy).Contents (Elt F) → (⟨S330000x256, .f32⟩ : BufTy).Contents (Elt F)),
    nullary main_cst_12 (constant S_ .f32 0x00000000#32),
    unary main_cst_12 main_v60 (broadcastInDim S10000x256 ![] bcast_S_S10000x256 : (⟨S_, .f32⟩ : BufTy).Contents (Elt F) → (⟨S10000x256, .f32⟩ : BufTy).Contents (Elt F)),
    unary main_v6 main_v61 (broadcastInDim S330000x1 ![0] bcast_S330000_S330000x1_0 : (⟨S330000, .i32⟩ : BufTy).Contents (Elt F) → (⟨S330000x1, .i32⟩ : BufTy).Contents (Elt F)),
    ternary main_v60 main_v61 main_v59 main_v62 ((fun x i u => Host.scatterAdd scatter_S10000x256_S330000x1_S330000x256_1_0_0_1 x i u) : (⟨S10000x256, .f32⟩ : BufTy).Contents (Elt F) → (⟨S330000x1, .i32⟩ : BufTy).Contents (Elt F) → (⟨S330000x256, .f32⟩ : BufTy).Contents (Elt F) → (⟨S10000x256, .f32⟩ : BufTy).Contents (Elt F)),
    unary main_arg9 main_v63 (broadcastInDim S1x256 ![1] bcast_S256_S1x256_1 : (⟨S256, .f32⟩ : BufTy).Contents (Elt F) → (⟨S1x256, .f32⟩ : BufTy).Contents (Elt F)),
    unary main_v63 main_v64 (broadcastInDim S10000x256 ![0, 1] bcast_S1x256_S10000x256_0_1 : (⟨S1x256, .f32⟩ : BufTy).Contents (Elt F) → (⟨S10000x256, .f32⟩ : BufTy).Contents (Elt F)) ]
abbrev ops4 : List (HloOp τ sig (Elt F)) :=
  [ binary main_v62 main_v64 main_v65 (addf : (⟨S10000x256, .f32⟩ : BufTy).Contents (Elt F) → (⟨S10000x256, .f32⟩ : BufTy).Contents (Elt F) → (⟨S10000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S10000x256, .f32⟩) main_call2_v0) (broadcastInDim S10000x256 ![] bcast_S_S10000x256),
    TRef.binary (TRef.of (T := ⟨S10000x256, .f32⟩) main_v65) (TRef.of (T := ⟨S10000x256, .f32⟩) main_call2_v0) (TRef.of (T := ⟨S10000x256, .f32⟩) main_v66) maximumf,
    binary main_v66 main_arg10 main_v67 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    nullary main_c_13 (constantI S_ 32 0#32),
    unary main_c_13 main_v68 (broadcastInDim S330000 ![] bcast_S_S330000 : (⟨S_, .i32⟩ : BufTy).Contents (Elt F) → (⟨S330000, .i32⟩ : BufTy).Contents (Elt F)),
    binary main_v3 main_v68 main_v69 (cmpi .slt : (⟨S330000, .i32⟩ : BufTy).Contents (Elt F) → (⟨S330000, .i32⟩ : BufTy).Contents (Elt F) → (⟨S330000, .i1⟩ : BufTy).Contents (Elt F)),
    nullary main_c_14 (constantI S_ 32 10000#32),
    unary main_c_14 main_v70 (broadcastInDim S330000 ![] bcast_S_S330000 : (⟨S_, .i32⟩ : BufTy).Contents (Elt F) → (⟨S330000, .i32⟩ : BufTy).Contents (Elt F)),
    binary main_v3 main_v70 main_v71 (addi : (⟨S330000, .i32⟩ : BufTy).Contents (Elt F) → (⟨S330000, .i32⟩ : BufTy).Contents (Elt F) → (⟨S330000, .i32⟩ : BufTy).Contents (Elt F)),
    ternary main_v69 main_v71 main_v3 main_v72 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v72 main_v73 (broadcastInDim S330000x1 ![0] bcast_S330000_S330000x1_0 : (⟨S330000, .i32⟩ : BufTy).Contents (Elt F) → (⟨S330000x1, .i32⟩ : BufTy).Contents (Elt F)),
    binary main_v67 main_v73 main_v74 ((fun x i => Host.gather gather_S10000x256_S330000x1_S330000x256_1_0_n_n_0_1_1256 x i) : (⟨S10000x256, .f32⟩ : BufTy).Contents (Elt F) → (⟨S330000x1, .i32⟩ : BufTy).Contents (Elt F) → (⟨S330000x256, .f32⟩ : BufTy).Contents (Elt F)),
    unary main_v30 main_v75 (broadcastInDim S330000x1 ![0] bcast_S330000_S330000x1_0 : (⟨S330000, .f32⟩ : BufTy).Contents (Elt F) → (⟨S330000x1, .f32⟩ : BufTy).Contents (Elt F)),
    unary main_v75 main_v76 (broadcastInDim S330000x256 ![0, 1] bcast_S330000x1_S330000x256_0_1 : (⟨S330000x1, .f32⟩ : BufTy).Contents (Elt F) → (⟨S330000x256, .f32⟩ : BufTy).Contents (Elt F)),
    binary main_v74 main_v76 main_v77 (mulf : (⟨S330000x256, .f32⟩ : BufTy).Contents (Elt F) → (⟨S330000x256, .f32⟩ : BufTy).Contents (Elt F) → (⟨S330000x256, .f32⟩ : BufTy).Contents (Elt F)),
    nullary main_cst_15 (constant S_ .f32 0x00000000#32),
    unary main_cst_15 main_v78 (broadcastInDim S10000x256 ![] bcast_S_S10000x256 : (⟨S_, .f32⟩ : BufTy).Contents (Elt F) → (⟨S10000x256, .f32⟩ : BufTy).Contents (Elt F)),
    unary main_v6 main_v79 (broadcastInDim S330000x1 ![0] bcast_S330000_S330000x1_0 : (⟨S330000, .i32⟩ : BufTy).Contents (Elt F) → (⟨S330000x1, .i32⟩ : BufTy).Contents (Elt F)),
    ternary main_v78 main_v79 main_v77 main_v80 ((fun x i u => Host.scatterAdd scatter_S10000x256_S330000x1_S330000x256_1_0_0_1 x i u) : (⟨S10000x256, .f32⟩ : BufTy).Contents (Elt F) → (⟨S330000x1, .i32⟩ : BufTy).Contents (Elt F) → (⟨S330000x256, .f32⟩ : BufTy).Contents (Elt F) → (⟨S10000x256, .f32⟩ : BufTy).Contents (Elt F)) ]
abbrev ops5 : List (HloOp τ sig (Elt F)) :=
  [ unary main_arg11 main_v81 (broadcastInDim S1x256 ![1] bcast_S256_S1x256_1 : (⟨S256, .f32⟩ : BufTy).Contents (Elt F) → (⟨S1x256, .f32⟩ : BufTy).Contents (Elt F)),
    unary main_v81 main_v82 (broadcastInDim S10000x256 ![0, 1] bcast_S1x256_S10000x256_0_1 : (⟨S1x256, .f32⟩ : BufTy).Contents (Elt F) → (⟨S10000x256, .f32⟩ : BufTy).Contents (Elt F)),
    binary main_v80 main_v82 main_v83 (addf : (⟨S10000x256, .f32⟩ : BufTy).Contents (Elt F) → (⟨S10000x256, .f32⟩ : BufTy).Contents (Elt F) → (⟨S10000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S10000x256, .f32⟩) main_call3_v0) (broadcastInDim S10000x256 ![] bcast_S_S10000x256),
    TRef.binary (TRef.of (T := ⟨S10000x256, .f32⟩) main_v83) (TRef.of (T := ⟨S10000x256, .f32⟩) main_call3_v0) (TRef.of (T := ⟨S10000x256, .f32⟩) main_v84) maximumf,
    binary main_arg0 main_arg2 main_v85 ((fun a b => concatenate S10000x158 1 [⟨S10000x128, a⟩, ⟨S10000x30, b⟩] concatenates_S10000x128_S10000x30_S10000x158_d1) : (⟨S10000x128, .f32⟩ : BufTy).Contents (Elt F) → (⟨S10000x30, .f32⟩ : BufTy).Contents (Elt F) → (⟨S10000x158, .f32⟩ : BufTy).Contents (Elt F)),
    binary main_arg3 main_v85 main_v86 ((fun l r => Host.dotGeneral dot_S10000x10000_S10000x158_S10000x158_1_0_0_1_n_n none l r) : (⟨S10000x10000, .f32⟩ : BufTy).Contents (Elt F) → (⟨S10000x158, .f32⟩ : BufTy).Contents (Elt F) → (⟨S10000x158, .f32⟩ : BufTy).Contents (Elt F)),
    binary main_arg4 main_v85 main_v87 ((fun l r => Host.dotGeneral dot_S10000x10000_S10000x158_S10000x158_1_0_0_1_n_n none l r) : (⟨S10000x10000, .f32⟩ : BufTy).Contents (Elt F) → (⟨S10000x158, .f32⟩ : BufTy).Contents (Elt F) → (⟨S10000x158, .f32⟩ : BufTy).Contents (Elt F)),
    binary main_arg5 main_v85 main_v88 ((fun l r => Host.dotGeneral dot_S10000x10000_S10000x158_S10000x158_1_0_0_1_n_n none l r) : (⟨S10000x10000, .f32⟩ : BufTy).Contents (Elt F) → (⟨S10000x158, .f32⟩ : BufTy).Contents (Elt F) → (⟨S10000x158, .f32⟩ : BufTy).Contents (Elt F)),
    unary main_v85 main_v89 (broadcastInDim S1x10000x158 ![1, 2] bcast_S10000x158_S1x10000x158_1_2 : (⟨S10000x158, .f32⟩ : BufTy).Contents (Elt F) → (⟨S1x10000x158, .f32⟩ : BufTy).Contents (Elt F)),
    unary main_v86 main_v90 (broadcastInDim S1x10000x158 ![1, 2] bcast_S10000x158_S1x10000x158_1_2 : (⟨S10000x158, .f32⟩ : BufTy).Contents (Elt F) → (⟨S1x10000x158, .f32⟩ : BufTy).Contents (Elt F)),
    unary main_v87 main_v91 (broadcastInDim S1x10000x158 ![1, 2] bcast_S10000x158_S1x10000x158_1_2 : (⟨S10000x158, .f32⟩ : BufTy).Contents (Elt F) → (⟨S1x10000x158, .f32⟩ : BufTy).Contents (Elt F)),
    unary main_v88 main_v92 (broadcastInDim S1x10000x158 ![1, 2] bcast_S10000x158_S1x10000x158_1_2 : (⟨S10000x158, .f32⟩ : BufTy).Contents (Elt F) → (⟨S1x10000x158, .f32⟩ : BufTy).Contents (Elt F)),
    nary ![main_v89, main_v90, main_v91, main_v92] main_v93 (fun u => concatenate S4x10000x158 0 [⟨S1x10000x158, u 0⟩, ⟨S1x10000x158, u 1⟩, ⟨S1x10000x158, u 2⟩, ⟨S1x10000x158, u 3⟩] concatenates_S1x10000x158_S1x10000x158_S1x10000x158_S1x10000x158_S4x10000x158_d0),
    binary main_v93 main_arg12 main_v94 ((fun l r => Host.dotGeneral dot_S4x10000x158_S4x158x256_S4x10000x256_2_1_1_2_0_0 none l r) : (⟨S4x10000x158, .f32⟩ : BufTy).Contents (Elt F) → (⟨S4x158x256, .f32⟩ : BufTy).Contents (Elt F) → (⟨S4x10000x256, .f32⟩ : BufTy).Contents (Elt F)),
    unary main_arg13 main_v95 (broadcastInDim S4x1x256 ![0, 2] bcast_S4x256_S4x1x256_0_2 : (⟨S4x256, .f32⟩ : BufTy).Contents (Elt F) → (⟨S4x1x256, .f32⟩ : BufTy).Contents (Elt F)),
    unary main_v95 main_v96 (broadcastInDim S4x10000x256 ![0, 1, 2] bcast_S4x1x256_S4x10000x256_0_1_2 : (⟨S4x1x256, .f32⟩ : BufTy).Contents (Elt F) → (⟨S4x10000x256, .f32⟩ : BufTy).Contents (Elt F)),
    binary main_v94 main_v96 main_v97 (addf : (⟨S4x10000x256, .f32⟩ : BufTy).Contents (Elt F) → (⟨S4x10000x256, .f32⟩ : BufTy).Contents (Elt F) → (⟨S4x10000x256, .f32⟩ : BufTy).Contents (Elt F)),
    nullary main_cst_16 (constant S_ .f32 0x00000000#32),
    binary main_v97 main_cst_16 main_v98 ((fun x v => Host.reduceAdd x v reducesTo_S4x10000x256_S4x256_d1 h_S_) : (⟨S4x10000x256, .f32⟩ : BufTy).Contents (Elt F) → (⟨S_, .f32⟩ : BufTy).Contents (Elt F) → (⟨S4x256, .f32⟩ : BufTy).Contents (Elt F)) ]
abbrev ops6 : List (HloOp τ sig (Elt F)) :=
  [ nullary main_cst_17 (constant S_ .f32 0x461C4000#32),
    unary main_cst_17 main_v99 (broadcastInDim S4x256 ![] bcast_S_S4x256 : (⟨S_, .f32⟩ : BufTy).Contents (Elt F) → (⟨S4x256, .f32⟩ : BufTy).Contents (Elt F)),
    binary main_v98 main_v99 main_v100 (Host.divf : (⟨S4x256, .f32⟩ : BufTy).Contents (Elt F) → (⟨S4x256, .f32⟩ : BufTy).Contents (Elt F) → (⟨S4x256, .f32⟩ : BufTy).Contents (Elt F)),
    unary main_v100 main_v101 (broadcastInDim S4x1x256 ![0, 2] bcast_S4x256_S4x1x256_0_2 : (⟨S4x256, .f32⟩ : BufTy).Contents (Elt F) → (⟨S4x1x256, .f32⟩ : BufTy).Contents (Elt F)),
    unary main_v101 main_v102 (broadcastInDim S4x10000x256 ![0, 1, 2] bcast_S4x1x256_S4x10000x256_0_1_2 : (⟨S4x1x256, .f32⟩ : BufTy).Contents (Elt F) → (⟨S4x10000x256, .f32⟩ : BufTy).Contents (Elt F)),
    binary main_v97 main_v102 main_v103 (subf : (⟨S4x10000x256, .f32⟩ : BufTy).Contents (Elt F) → (⟨S4x10000x256, .f32⟩ : BufTy).Contents (Elt F) → (⟨S4x10000x256, .f32⟩ : BufTy).Contents (Elt F)),
    binary main_v103 main_v103 main_v104 (mulf : (⟨S4x10000x256, .f32⟩ : BufTy).Contents (Elt F) → (⟨S4x10000x256, .f32⟩ : BufTy).Contents (Elt F) → (⟨S4x10000x256, .f32⟩ : BufTy).Contents (Elt F)),
    nullary main_cst_18 (constant S_ .f32 0x00000000#32),
    binary main_v104 main_cst_18 main_v105 ((fun x v => Host.reduceAdd x v reducesTo_S4x10000x256_S4x256_d1 h_S_) : (⟨S4x10000x256, .f32⟩ : BufTy).Contents (Elt F) → (⟨S_, .f32⟩ : BufTy).Contents (Elt F) → (⟨S4x256, .f32⟩ : BufTy).Contents (Elt F)),
    nullary main_cst_19 (constant S_ .f32 0x461C4000#32),
    unary main_cst_19 main_v106 (broadcastInDim S4x256 ![] bcast_S_S4x256 : (⟨S_, .f32⟩ : BufTy).Contents (Elt F) → (⟨S4x256, .f32⟩ : BufTy).Contents (Elt F)),
    binary main_v105 main_v106 main_v107 (Host.divf : (⟨S4x256, .f32⟩ : BufTy).Contents (Elt F) → (⟨S4x256, .f32⟩ : BufTy).Contents (Elt F) → (⟨S4x256, .f32⟩ : BufTy).Contents (Elt F)),
    unary main_v100 main_v108 (broadcastInDim S4x1x256 ![0, 2] bcast_S4x256_S4x1x256_0_2 : (⟨S4x256, .f32⟩ : BufTy).Contents (Elt F) → (⟨S4x1x256, .f32⟩ : BufTy).Contents (Elt F)),
    unary main_v108 main_v109 (broadcastInDim S4x10000x256 ![0, 1, 2] bcast_S4x1x256_S4x10000x256_0_1_2 : (⟨S4x1x256, .f32⟩ : BufTy).Contents (Elt F) → (⟨S4x10000x256, .f32⟩ : BufTy).Contents (Elt F)),
    binary main_v97 main_v109 main_v110 (subf : (⟨S4x10000x256, .f32⟩ : BufTy).Contents (Elt F) → (⟨S4x10000x256, .f32⟩ : BufTy).Contents (Elt F) → (⟨S4x10000x256, .f32⟩ : BufTy).Contents (Elt F)),
    unary main_arg14 main_v111 (broadcastInDim S4x1x256 ![0, 2] bcast_S4x256_S4x1x256_0_2 : (⟨S4x256, .f32⟩ : BufTy).Contents (Elt F) → (⟨S4x1x256, .f32⟩ : BufTy).Contents (Elt F)),
    unary main_v111 main_v112 (broadcastInDim S4x10000x256 ![0, 1, 2] bcast_S4x1x256_S4x10000x256_0_1_2 : (⟨S4x1x256, .f32⟩ : BufTy).Contents (Elt F) → (⟨S4x10000x256, .f32⟩ : BufTy).Contents (Elt F)),
    binary main_v112 main_v110 main_v113 (mulf : (⟨S4x10000x256, .f32⟩ : BufTy).Contents (Elt F) → (⟨S4x10000x256, .f32⟩ : BufTy).Contents (Elt F) → (⟨S4x10000x256, .f32⟩ : BufTy).Contents (Elt F)),
    nullary main_cst_20 (constant S_ .f32 0x3727C5AC#32),
    unary main_cst_20 main_v114 (broadcastInDim S4x256 ![] bcast_S_S4x256 : (⟨S_, .f32⟩ : BufTy).Contents (Elt F) → (⟨S4x256, .f32⟩ : BufTy).Contents (Elt F)),
    binary main_v107 main_v114 main_v115 (addf : (⟨S4x256, .f32⟩ : BufTy).Contents (Elt F) → (⟨S4x256, .f32⟩ : BufTy).Contents (Elt F) → (⟨S4x256, .f32⟩ : BufTy).Contents (Elt F)) ]
abbrev ops7 : List (HloOp τ sig (Elt F)) :=
  [ unary main_v115 main_v116 (Host.rsqrt : (⟨S4x256, .f32⟩ : BufTy).Contents (Elt F) → (⟨S4x256, .f32⟩ : BufTy).Contents (Elt F)),
    unary main_v116 main_v117 (broadcastInDim S4x1x256 ![0, 2] bcast_S4x256_S4x1x256_0_2 : (⟨S4x256, .f32⟩ : BufTy).Contents (Elt F) → (⟨S4x1x256, .f32⟩ : BufTy).Contents (Elt F)),
    unary main_v117 main_v118 (broadcastInDim S4x10000x256 ![0, 1, 2] bcast_S4x1x256_S4x10000x256_0_1_2 : (⟨S4x1x256, .f32⟩ : BufTy).Contents (Elt F) → (⟨S4x10000x256, .f32⟩ : BufTy).Contents (Elt F)),
    binary main_v113 main_v118 main_v119 (mulf : (⟨S4x10000x256, .f32⟩ : BufTy).Contents (Elt F) → (⟨S4x10000x256, .f32⟩ : BufTy).Contents (Elt F) → (⟨S4x10000x256, .f32⟩ : BufTy).Contents (Elt F)),
    unary main_arg15 main_v120 (broadcastInDim S4x1x256 ![0, 2] bcast_S4x256_S4x1x256_0_2 : (⟨S4x256, .f32⟩ : BufTy).Contents (Elt F) → (⟨S4x1x256, .f32⟩ : BufTy).Contents (Elt F)),
    unary main_v120 main_v121 (broadcastInDim S4x10000x256 ![0, 1, 2] bcast_S4x1x256_S4x10000x256_0_1_2 : (⟨S4x1x256, .f32⟩ : BufTy).Contents (Elt F) → (⟨S4x10000x256, .f32⟩ : BufTy).Contents (Elt F)),
    binary main_v119 main_v121 main_v122 (addf : (⟨S4x10000x256, .f32⟩ : BufTy).Contents (Elt F) → (⟨S4x10000x256, .f32⟩ : BufTy).Contents (Elt F) → (⟨S4x10000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S4x10000x256, .f32⟩) main_call4_v0) (broadcastInDim S4x10000x256 ![] bcast_S_S4x10000x256),
    TRef.binary (TRef.of (T := ⟨S4x10000x256, .f32⟩) main_v122) (TRef.of (T := ⟨S4x10000x256, .f32⟩) main_call4_v0) (TRef.of (T := ⟨S4x10000x256, .f32⟩) main_v123) maximumf,
    binary main_v123 main_arg16 main_v124 ((fun l r => Host.dotGeneral dot_S4x10000x256_S4x256x256_S4x10000x256_2_1_1_2_0_0 none l r) : (⟨S4x10000x256, .f32⟩ : BufTy).Contents (Elt F) → (⟨S4x256x256, .f32⟩ : BufTy).Contents (Elt F) → (⟨S4x10000x256, .f32⟩ : BufTy).Contents (Elt F)),
    unary main_arg17 main_v125 (broadcastInDim S4x1x256 ![0, 2] bcast_S4x256_S4x1x256_0_2 : (⟨S4x256, .f32⟩ : BufTy).Contents (Elt F) → (⟨S4x1x256, .f32⟩ : BufTy).Contents (Elt F)),
    unary main_v125 main_v126 (broadcastInDim S4x10000x256 ![0, 1, 2] bcast_S4x1x256_S4x10000x256_0_1_2 : (⟨S4x1x256, .f32⟩ : BufTy).Contents (Elt F) → (⟨S4x10000x256, .f32⟩ : BufTy).Contents (Elt F)),
    binary main_v124 main_v126 main_v127 (addf : (⟨S4x10000x256, .f32⟩ : BufTy).Contents (Elt F) → (⟨S4x10000x256, .f32⟩ : BufTy).Contents (Elt F) → (⟨S4x10000x256, .f32⟩ : BufTy).Contents (Elt F)),
    nullary main_cst_21 (constant S_ .f32 0x00000000#32),
    binary main_v127 main_cst_21 main_v128 ((fun x v => Host.reduceAdd x v reducesTo_S4x10000x256_S10000x256_d0 h_S_) : (⟨S4x10000x256, .f32⟩ : BufTy).Contents (Elt F) → (⟨S_, .f32⟩ : BufTy).Contents (Elt F) → (⟨S10000x256, .f32⟩ : BufTy).Contents (Elt F)),
    binary main_v84 main_v128 main_v129 ((fun a b => concatenate S10000x512 1 [⟨S10000x256, a⟩, ⟨S10000x256, b⟩] concatenates_S10000x256_S10000x256_S10000x512_d1) : (⟨S10000x256, .f32⟩ : BufTy).Contents (Elt F) → (⟨S10000x256, .f32⟩ : BufTy).Contents (Elt F) → (⟨S10000x512, .f32⟩ : BufTy).Contents (Elt F)) ]
theorem ops_eq : (ops : List (HloOp τ sig (Elt F))) = ops0 ++ ops1 ++ ops2 ++ ops3 ++ ops4 ++ ops5 ++ ops6 ++ ops7 := rfl
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., binary_bufs_sub .., binary_bufs_sub .., binary_bufs_sub .., unary_bufs_sub .., unary_bufs_sub .., unary_bufs_sub .., unary_bufs_sub .., nary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., binary_bufs_sub ..⟩

end Ops

def lv_main_v0 : IVec S10000 32 :=
  (iotaInDim S10000 32 0)
def lv_main_v1 (y_main_arg1 : IVec S2x320000 32) : IVec S1x320000 32 :=
  (((extractStridedSlice S1x320000 ![0, 0] · slices_S2x320000_S1x320000_0_0) : (IVec S2x320000 32) → (IVec S1x320000 32))) y_main_arg1
def lv_main_v2 (y_main_arg1 : IVec S2x320000 32) : IVec S320000 32 :=
  ((fun x => shapeCast _ x shapeCasts_S1x320000_S320000)) (lv_main_v1 y_main_arg1)
def lv_main_v3 (y_main_arg1 : IVec S2x320000 32) : IVec S330000 32 :=
  (((fun a b => concatenate S330000 0 [⟨S320000, a⟩, ⟨S10000, b⟩] concatenates_S320000_S10000_S330000_d0) : (IVec S320000 32) → (IVec S10000 32) → (IVec S330000 32))) (lv_main_v2 y_main_arg1) (lv_main_v0)
def lv_main_v4 (y_main_arg1 : IVec S2x320000 32) : IVec S1x320000 32 :=
  (((extractStridedSlice S1x320000 ![1, 0] · slices_S2x320000_S1x320000_1_0) : (IVec S2x320000 32) → (IVec S1x320000 32))) y_main_arg1
def lv_main_v5 (y_main_arg1 : IVec S2x320000 32) : IVec S320000 32 :=
  ((fun x => shapeCast _ x shapeCasts_S1x320000_S320000)) (lv_main_v4 y_main_arg1)
def lv_main_v6 (y_main_arg1 : IVec S2x320000 32) : IVec S330000 32 :=
  (((fun a b => concatenate S330000 0 [⟨S320000, a⟩, ⟨S10000, b⟩] concatenates_S320000_S10000_S330000_d0) : (IVec S320000 32) → (IVec S10000 32) → (IVec S330000 32))) (lv_main_v5 y_main_arg1) (lv_main_v0)
def lv_main_cst : FVec Ideal S_ .f32 :=
  (constant S_ .f32 0x3F800000#32)
def lv_main_v7 : FVec Ideal S330000 .f32 :=
  ((broadcastInDim S330000 ![] bcast_S_S330000 : (FVec Ideal S_ .f32) → (FVec Ideal S330000 .f32))) (lv_main_cst)
def lv_main_cst_0 : FVec Ideal S_ .f32 :=
  (constant S_ .f32 0x00000000#32)
def lv_main_v8 : FVec Ideal S10000 .f32 :=
  ((broadcastInDim S10000 ![] bcast_S_S10000 : (FVec Ideal S_ .f32) → (FVec Ideal S10000 .f32))) (lv_main_cst_0)
def lv_main_v9 (y_main_arg1 : IVec S2x320000 32) : IVec S330000x1 32 :=
  ((broadcastInDim S330000x1 ![0] bcast_S330000_S330000x1_0 : (IVec S330000 32) → (IVec S330000x1 32))) (lv_main_v6 y_main_arg1)
def lv_main_v10 (y_main_arg1 : IVec S2x320000 32) : FVec Ideal S10000 .f32 :=
  (((fun x i u => Host.scatterAdd scatter_S10000_S330000x1_S330000_n_0_0_1 x i u) : (FVec Ideal S10000 .f32) → (IVec S330000x1 32) → (FVec Ideal S330000 .f32) → (FVec Ideal S10000 .f32))) (lv_main_v8) (lv_main_v9 y_main_arg1) (lv_main_v7)
def lv_main_cst_1 : FVec Ideal S_ .f32 :=
  (constant S_ .f32 0x00000000#32)
def lv_main_v11 : FVec Ideal S10000 .f32 :=
  ((broadcastInDim S10000 ![] bcast_S_S10000 : (FVec Ideal S_ .f32) → (FVec Ideal S10000 .f32))) (lv_main_cst_1)
def lv_main_v12 (y_main_arg1 : IVec S2x320000 32) : IVec S10000 1 :=
  ((cmpf .ogt : (FVec Ideal S10000 .f32) → (FVec Ideal S10000 .f32) → (IVec S10000 1))) (lv_main_v10 y_main_arg1) (lv_main_v11)
def lv_main_cst_2 : FVec Ideal S_ .f32 :=
  (constant S_ .f32 0xBF000000#32)
def lv_main_v13 : FVec Ideal S10000 .f32 :=
  ((broadcastInDim S10000 ![] bcast_S_S10000 : (FVec Ideal S_ .f32) → (FVec Ideal S10000 .f32))) (lv_main_cst_2)
def lv_main_v14 (y_main_arg1 : IVec S2x320000 32) : FVec Ideal S10000 .f32 :=
  ((Host.powf : (FVec Ideal S10000 .f32) → (FVec Ideal S10000 .f32) → (FVec Ideal S10000 .f32))) (lv_main_v10 y_main_arg1) (lv_main_v13)
def lv_main_cst_3 : FVec Ideal S_ .f32 :=
  (constant S_ .f32 0x00000000#32)
def lv_main_call0_v0 : FVec Ideal S_ .f32 :=
  (id) (lv_main_cst_3)
def lv_main_call0_v1 (y_main_call0_v0 : FVec Ideal S_ .f32) : FVec Ideal S10000 .f32 :=
  ((broadcastInDim S10000 ![] bcast_S_S10000)) y_main_call0_v0
def lv_main_v15 (y_main_v12 : IVec S10000 1) (y_main_v14 : FVec Ideal S10000 .f32) (y_main_call0_v0 : FVec Ideal S_ .f32) : FVec Ideal S10000 .f32 :=
  (select) y_main_v12 y_main_v14 (lv_main_call0_v1 y_main_call0_v0)
def lv_main_c : IVec S_ 32 :=
  (constantI S_ 32 0#32)
def lv_main_v16 : IVec S330000 32 :=
  ((broadcastInDim S330000 ![] bcast_S_S330000 : (IVec S_ 32) → (IVec S330000 32))) (lv_main_c)
def lv_main_v17 (y_main_v3 : IVec S330000 32) : IVec S330000 1 :=
  ((cmpi .slt : (IVec S330000 32) → (IVec S330000 32) → (IVec S330000 1))) y_main_v3 (lv_main_v16)
def lv_main_c_4 : IVec S_ 32 :=
  (constantI S_ 32 10000#32)
def lv_main_v18 : IVec S330000 32 :=
  ((broadcastInDim S330000 ![] bcast_S_S330000 : (IVec S_ 32) → (IVec S330000 32))) (lv_main_c_4)
def lv_main_v19 (y_main_v3 : IVec S330000 32) : IVec S330000 32 :=
  ((addi : (IVec S330000 32) → (IVec S330000 32) → (IVec S330000 32))) y_main_v3 (lv_main_v18)
def lv_main_v20 (y_main_v3 : IVec S330000 32) : IVec S330000 32 :=
  ((select : (IVec S330000 1) → (IVec S330000 32) → (IVec S330000 32) → (IVec S330000 32))) (lv_main_v17 y_main_v3) (lv_main_v19 y_main_v3) y_main_v3
def lv_main_v21 (y_main_v3 : IVec S330000 32) : IVec S330000x1 32 :=
  ((broadcastInDim S330000x1 ![0] bcast_S330000_S330000x1_0 : (IVec S330000 32) → (IVec S330000x1 32))) (lv_main_v20 y_main_v3)
def lv_main_v22 (y_main_v12 : IVec S10000 1) (y_main_v14 : FVec Ideal S10000 .f32) (y_main_call0_v0 : FVec Ideal S_ .f32) (y_main_v3 : IVec S330000 32) : FVec Ideal S330000 .f32 :=
  (((fun x i => Host.gather gather_S10000_S330000x1_S330000_n_0_n_n_0_1_1 x i) : (FVec Ideal S10000 .f32) → (IVec S330000x1 32) → (FVec Ideal S330000 .f32))) (lv_main_v15 y_main_v12 y_main_v14 y_main_call0_v0) (lv_main_v21 y_main_v3)
def lv_main_c_5 : IVec S_ 32 :=
  (constantI S_ 32 0#32)
def lv_main_v23 : IVec S330000 32 :=
  ((broadcastInDim S330000 ![] bcast_S_S330000 : (IVec S_ 32) → (IVec S330000 32))) (lv_main_c_5)
def lv_main_v24 (y_main_v6 : IVec S330000 32) : IVec S330000 1 :=
  ((cmpi .slt : (IVec S330000 32) → (IVec S330000 32) → (IVec S330000 1))) y_main_v6 (lv_main_v23)
def lv_main_c_6 : IVec S_ 32 :=
  (constantI S_ 32 10000#32)
def lv_main_v25 : IVec S330000 32 :=
  ((broadcastInDim S330000 ![] bcast_S_S330000 : (IVec S_ 32) → (IVec S330000 32))) (lv_main_c_6)
def lv_main_v26 (y_main_v6 : IVec S330000 32) : IVec S330000 32 :=
  ((addi : (IVec S330000 32) → (IVec S330000 32) → (IVec S330000 32))) y_main_v6 (lv_main_v25)
def lv_main_v27 (y_main_v6 : IVec S330000 32) : IVec S330000 32 :=
  ((select : (IVec S330000 1) → (IVec S330000 32) → (IVec S330000 32) → (IVec S330000 32))) (lv_main_v24 y_main_v6) (lv_main_v26 y_main_v6) y_main_v6
def lv_main_v28 (y_main_v6 : IVec S330000 32) : IVec S330000x1 32 :=
  ((broadcastInDim S330000x1 ![0] bcast_S330000_S330000x1_0 : (IVec S330000 32) → (IVec S330000x1 32))) (lv_main_v27 y_main_v6)
def lv_main_v29 (y_main_v12 : IVec S10000 1) (y_main_v14 : FVec Ideal S10000 .f32) (y_main_call0_v0 : FVec Ideal S_ .f32) (y_main_v6 : IVec S330000 32) : FVec Ideal S330000 .f32 :=
  (((fun x i => Host.gather gather_S10000_S330000x1_S330000_n_0_n_n_0_1_1 x i) : (FVec Ideal S10000 .f32) → (IVec S330000x1 32) → (FVec Ideal S330000 .f32))) (lv_main_v15 y_main_v12 y_main_v14 y_main_call0_v0) (lv_main_v28 y_main_v6)
def lv_main_v30 (y_main_v12 : IVec S10000 1) (y_main_v14 : FVec Ideal S10000 .f32) (y_main_call0_v0 : FVec Ideal S_ .f32) (y_main_v3 : IVec S330000 32) (y_main_v6 : IVec S330000 32) : FVec Ideal S330000 .f32 :=
  ((mulf : (FVec Ideal S330000 .f32) → (FVec Ideal S330000 .f32) → (FVec Ideal S330000 .f32))) (lv_main_v22 y_main_v12 y_main_v14 y_main_call0_v0 y_main_v3) (lv_main_v29 y_main_v12 y_main_v14 y_main_call0_v0 y_main_v6)
def lv_main_v31 (y_main_arg0 : FVec Ideal S10000x128 .f32) (y_main_arg6 : FVec Ideal S128x256 .f32) : FVec Ideal S10000x256 .f32 :=
  (((fun l r => Host.dotGeneral dot_S10000x128_S128x256_S10000x256_1_0_0_1_n_n none l r) : (FVec Ideal S10000x128 .f32) → (FVec Ideal S128x256 .f32) → (FVec Ideal S10000x256 .f32))) y_main_arg0 y_main_arg6
def lv_main_c_7 : IVec S_ 32 :=
  (constantI S_ 32 0#32)
def lv_main_v32 : IVec S330000 32 :=
  ((broadcastInDim S330000 ![] bcast_S_S330000 : (IVec S_ 32) → (IVec S330000 32))) (lv_main_c_7)
def lv_main_v33 (y_main_v3 : IVec S330000 32) : IVec S330000 1 :=
  ((cmpi .slt : (IVec S330000 32) → (IVec S330000 32) → (IVec S330000 1))) y_main_v3 (lv_main_v32)
def lv_main_c_8 : IVec S_ 32 :=
  (constantI S_ 32 10000#32)
def lv_main_v34 : IVec S330000 32 :=
  ((broadcastInDim S330000 ![] bcast_S_S330000 : (IVec S_ 32) → (IVec S330000 32))) (lv_main_c_8)
def lv_main_v35 (y_main_v3 : IVec S330000 32) : IVec S330000 32 :=
  ((addi : (IVec S330000 32) → (IVec S330000 32) → (IVec S330000 32))) y_main_v3 (lv_main_v34)
def lv_main_v36 (y_main_v3 : IVec S330000 32) : IVec S330000 32 :=
  ((select : (IVec S330000 1) → (IVec S330000 32) → (IVec S330000 32) → (IVec S330000 32))) (lv_main_v33 y_main_v3) (lv_main_v35 y_main_v3) y_main_v3
def lv_main_v37 (y_main_v3 : IVec S330000 32) : IVec S330000x1 32 :=
  ((broadcastInDim S330000x1 ![0] bcast_S330000_S330000x1_0 : (IVec S330000 32) → (IVec S330000x1 32))) (lv_main_v36 y_main_v3)
def lv_main_v38 (y_main_arg0 : FVec Ideal S10000x128 .f32) (y_main_arg6 : FVec Ideal S128x256 .f32) (y_main_v3 : IVec S330000 32) : FVec Ideal S330000x256 .f32 :=
  (((fun x i => Host.gather gather_S10000x256_S330000x1_S330000x256_1_0_n_n_0_1_1256 x i) : (FVec Ideal S10000x256 .f32) → (IVec S330000x1 32) → (FVec Ideal S330000x256 .f32))) (lv_main_v31 y_main_arg0 y_main_arg6) (lv_main_v37 y_main_v3)
def lv_main_v39 (y_main_v30 : FVec Ideal S330000 .f32) : FVec Ideal S330000x1 .f32 :=
  ((broadcastInDim S330000x1 ![0] bcast_S330000_S330000x1_0 : (FVec Ideal S330000 .f32) → (FVec Ideal S330000x1 .f32))) y_main_v30
def lv_main_v40 (y_main_v30 : FVec Ideal S330000 .f32) : FVec Ideal S330000x256 .f32 :=
  ((broadcastInDim S330000x256 ![0, 1] bcast_S330000x1_S330000x256_0_1 : (FVec Ideal S330000x1 .f32) → (FVec Ideal S330000x256 .f32))) (lv_main_v39 y_main_v30)
def lv_main_v41 (y_main_arg0 : FVec Ideal S10000x128 .f32) (y_main_arg6 : FVec Ideal S128x256 .f32) (y_main_v3 : IVec S330000 32) (y_main_v30 : FVec Ideal S330000 .f32) : FVec Ideal S330000x256 .f32 :=
  ((mulf : (FVec Ideal S330000x256 .f32) → (FVec Ideal S330000x256 .f32) → (FVec Ideal S330000x256 .f32))) (lv_main_v38 y_main_arg0 y_main_arg6 y_main_v3) (lv_main_v40 y_main_v30)
def lv_main_cst_9 : FVec Ideal S_ .f32 :=
  (constant S_ .f32 0x00000000#32)
def lv_main_v42 : FVec Ideal S10000x256 .f32 :=
  ((broadcastInDim S10000x256 ![] bcast_S_S10000x256 : (FVec Ideal S_ .f32) → (FVec Ideal S10000x256 .f32))) (lv_main_cst_9)
def lv_main_v43 (y_main_v6 : IVec S330000 32) : IVec S330000x1 32 :=
  ((broadcastInDim S330000x1 ![0] bcast_S330000_S330000x1_0 : (IVec S330000 32) → (IVec S330000x1 32))) y_main_v6
def lv_main_v44 (y_main_v6 : IVec S330000 32) (y_main_arg0 : FVec Ideal S10000x128 .f32) (y_main_arg6 : FVec Ideal S128x256 .f32) (y_main_v3 : IVec S330000 32) (y_main_v30 : FVec Ideal S330000 .f32) : FVec Ideal S10000x256 .f32 :=
  (((fun x i u => Host.scatterAdd scatter_S10000x256_S330000x1_S330000x256_1_0_0_1 x i u) : (FVec Ideal S10000x256 .f32) → (IVec S330000x1 32) → (FVec Ideal S330000x256 .f32) → (FVec Ideal S10000x256 .f32))) (lv_main_v42) (lv_main_v43 y_main_v6) (lv_main_v41 y_main_arg0 y_main_arg6 y_main_v3 y_main_v30)
def lv_main_v45 (y_main_arg7 : FVec Ideal S256 .f32) : FVec Ideal S1x256 .f32 :=
  ((broadcastInDim S1x256 ![1] bcast_S256_S1x256_1 : (FVec Ideal S256 .f32) → (FVec Ideal S1x256 .f32))) y_main_arg7
def lv_main_v46 (y_main_arg7 : FVec Ideal S256 .f32) : FVec Ideal S10000x256 .f32 :=
  ((broadcastInDim S10000x256 ![0, 1] bcast_S1x256_S10000x256_0_1 : (FVec Ideal S1x256 .f32) → (FVec Ideal S10000x256 .f32))) (lv_main_v45 y_main_arg7)
def lv_main_v47 (y_main_v6 : IVec S330000 32) (y_main_arg0 : FVec Ideal S10000x128 .f32) (y_main_arg6 : FVec Ideal S128x256 .f32) (y_main_v3 : IVec S330000 32) (y_main_v30 : FVec Ideal S330000 .f32) (y_main_arg7 : FVec Ideal S256 .f32) : FVec Ideal S10000x256 .f32 :=
  ((addf : (FVec Ideal S10000x256 .f32) → (FVec Ideal S10000x256 .f32) → (FVec Ideal S10000x256 .f32))) (lv_main_v44 y_main_v6 y_main_arg0 y_main_arg6 y_main_v3 y_main_v30) (lv_main_v46 y_main_arg7)
def lv_main_call1_cst : FVec Ideal S_ .f32 :=
  (constant S_ .f32 0x00000000#32)
def lv_main_call1_v0 (y_main_call1_cst : FVec Ideal S_ .f32) : FVec Ideal S10000x256 .f32 :=
  ((broadcastInDim S10000x256 ![] bcast_S_S10000x256)) y_main_call1_cst
def lv_main_v48 (y_main_v47 : FVec Ideal S10000x256 .f32) (y_main_call1_cst : FVec Ideal S_ .f32) : FVec Ideal S10000x256 .f32 :=
  (maximumf) y_main_v47 (lv_main_call1_v0 y_main_call1_cst)
def lv_main_v49 (y_main_v47 : FVec Ideal S10000x256 .f32) (y_main_call1_cst : FVec Ideal S_ .f32) (y_main_arg8 : FVec Ideal S256x256 .f32) : FVec Ideal S10000x256 .f32 :=
  (((fun l r => Host.dotGeneral dot_S10000x256_S256x256_S10000x256_1_0_0_1_n_n none l r) : (FVec Ideal S10000x256 .f32) → (FVec Ideal S256x256 .f32) → (FVec Ideal S10000x256 .f32))) (lv_main_v48 y_main_v47 y_main_call1_cst) y_main_arg8
def lv_main_c_10 : IVec S_ 32 :=
  (constantI S_ 32 0#32)
def lv_main_v50 : IVec S330000 32 :=
  ((broadcastInDim S330000 ![] bcast_S_S330000 : (IVec S_ 32) → (IVec S330000 32))) (lv_main_c_10)
def lv_main_v51 (y_main_v3 : IVec S330000 32) : IVec S330000 1 :=
  ((cmpi .slt : (IVec S330000 32) → (IVec S330000 32) → (IVec S330000 1))) y_main_v3 (lv_main_v50)
def lv_main_c_11 : IVec S_ 32 :=
  (constantI S_ 32 10000#32)
def lv_main_v52 : IVec S330000 32 :=
  ((broadcastInDim S330000 ![] bcast_S_S330000 : (IVec S_ 32) → (IVec S330000 32))) (lv_main_c_11)
def lv_main_v53 (y_main_v3 : IVec S330000 32) : IVec S330000 32 :=
  ((addi : (IVec S330000 32) → (IVec S330000 32) → (IVec S330000 32))) y_main_v3 (lv_main_v52)
def lv_main_v54 (y_main_v3 : IVec S330000 32) : IVec S330000 32 :=
  ((select : (IVec S330000 1) → (IVec S330000 32) → (IVec S330000 32) → (IVec S330000 32))) (lv_main_v51 y_main_v3) (lv_main_v53 y_main_v3) y_main_v3
def lv_main_v55 (y_main_v3 : IVec S330000 32) : IVec S330000x1 32 :=
  ((broadcastInDim S330000x1 ![0] bcast_S330000_S330000x1_0 : (IVec S330000 32) → (IVec S330000x1 32))) (lv_main_v54 y_main_v3)
def lv_main_v56 (y_main_v47 : FVec Ideal S10000x256 .f32) (y_main_call1_cst : FVec Ideal S_ .f32) (y_main_arg8 : FVec Ideal S256x256 .f32) (y_main_v3 : IVec S330000 32) : FVec Ideal S330000x256 .f32 :=
  (((fun x i => Host.gather gather_S10000x256_S330000x1_S330000x256_1_0_n_n_0_1_1256 x i) : (FVec Ideal S10000x256 .f32) → (IVec S330000x1 32) → (FVec Ideal S330000x256 .f32))) (lv_main_v49 y_main_v47 y_main_call1_cst y_main_arg8) (lv_main_v55 y_main_v3)
def lv_main_v57 (y_main_v30 : FVec Ideal S330000 .f32) : FVec Ideal S330000x1 .f32 :=
  ((broadcastInDim S330000x1 ![0] bcast_S330000_S330000x1_0 : (FVec Ideal S330000 .f32) → (FVec Ideal S330000x1 .f32))) y_main_v30
def lv_main_v58 (y_main_v30 : FVec Ideal S330000 .f32) : FVec Ideal S330000x256 .f32 :=
  ((broadcastInDim S330000x256 ![0, 1] bcast_S330000x1_S330000x256_0_1 : (FVec Ideal S330000x1 .f32) → (FVec Ideal S330000x256 .f32))) (lv_main_v57 y_main_v30)
def lv_main_v59 (y_main_v47 : FVec Ideal S10000x256 .f32) (y_main_call1_cst : FVec Ideal S_ .f32) (y_main_arg8 : FVec Ideal S256x256 .f32) (y_main_v3 : IVec S330000 32) (y_main_v30 : FVec Ideal S330000 .f32) : FVec Ideal S330000x256 .f32 :=
  ((mulf : (FVec Ideal S330000x256 .f32) → (FVec Ideal S330000x256 .f32) → (FVec Ideal S330000x256 .f32))) (lv_main_v56 y_main_v47 y_main_call1_cst y_main_arg8 y_main_v3) (lv_main_v58 y_main_v30)
def lv_main_cst_12 : FVec Ideal S_ .f32 :=
  (constant S_ .f32 0x00000000#32)
def lv_main_v60 : FVec Ideal S10000x256 .f32 :=
  ((broadcastInDim S10000x256 ![] bcast_S_S10000x256 : (FVec Ideal S_ .f32) → (FVec Ideal S10000x256 .f32))) (lv_main_cst_12)
def lv_main_v61 (y_main_v6 : IVec S330000 32) : IVec S330000x1 32 :=
  ((broadcastInDim S330000x1 ![0] bcast_S330000_S330000x1_0 : (IVec S330000 32) → (IVec S330000x1 32))) y_main_v6
def lv_main_v62 (y_main_v6 : IVec S330000 32) (y_main_v47 : FVec Ideal S10000x256 .f32) (y_main_call1_cst : FVec Ideal S_ .f32) (y_main_arg8 : FVec Ideal S256x256 .f32) (y_main_v3 : IVec S330000 32) (y_main_v30 : FVec Ideal S330000 .f32) : FVec Ideal S10000x256 .f32 :=
  (((fun x i u => Host.scatterAdd scatter_S10000x256_S330000x1_S330000x256_1_0_0_1 x i u) : (FVec Ideal S10000x256 .f32) → (IVec S330000x1 32) → (FVec Ideal S330000x256 .f32) → (FVec Ideal S10000x256 .f32))) (lv_main_v60) (lv_main_v61 y_main_v6) (lv_main_v59 y_main_v47 y_main_call1_cst y_main_arg8 y_main_v3 y_main_v30)
def lv_main_v63 (y_main_arg9 : FVec Ideal S256 .f32) : FVec Ideal S1x256 .f32 :=
  ((broadcastInDim S1x256 ![1] bcast_S256_S1x256_1 : (FVec Ideal S256 .f32) → (FVec Ideal S1x256 .f32))) y_main_arg9
def lv_main_v64 (y_main_arg9 : FVec Ideal S256 .f32) : FVec Ideal S10000x256 .f32 :=
  ((broadcastInDim S10000x256 ![0, 1] bcast_S1x256_S10000x256_0_1 : (FVec Ideal S1x256 .f32) → (FVec Ideal S10000x256 .f32))) (lv_main_v63 y_main_arg9)
def lv_main_v65 (y_main_v62 : FVec Ideal S10000x256 .f32) (y_main_v64 : FVec Ideal S10000x256 .f32) : FVec Ideal S10000x256 .f32 :=
  ((addf : (FVec Ideal S10000x256 .f32) → (FVec Ideal S10000x256 .f32) → (FVec Ideal S10000x256 .f32))) y_main_v62 y_main_v64
def lv_main_call2_cst : FVec Ideal S_ .f32 :=
  (constant S_ .f32 0x00000000#32)
def lv_main_call2_v0 : FVec Ideal S10000x256 .f32 :=
  ((broadcastInDim S10000x256 ![] bcast_S_S10000x256)) (lv_main_call2_cst)
def lv_main_v66 (y_main_v62 : FVec Ideal S10000x256 .f32) (y_main_v64 : FVec Ideal S10000x256 .f32) : FVec Ideal S10000x256 .f32 :=
  (maximumf) (lv_main_v65 y_main_v62 y_main_v64) (lv_main_call2_v0)
def lv_main_v67 (y_main_v62 : FVec Ideal S10000x256 .f32) (y_main_v64 : FVec Ideal S10000x256 .f32) (y_main_arg10 : FVec Ideal S256x256 .f32) : FVec Ideal S10000x256 .f32 :=
  (((fun l r => Host.dotGeneral dot_S10000x256_S256x256_S10000x256_1_0_0_1_n_n none l r) : (FVec Ideal S10000x256 .f32) → (FVec Ideal S256x256 .f32) → (FVec Ideal S10000x256 .f32))) (lv_main_v66 y_main_v62 y_main_v64) y_main_arg10
def lv_main_c_13 : IVec S_ 32 :=
  (constantI S_ 32 0#32)
def lv_main_v68 : IVec S330000 32 :=
  ((broadcastInDim S330000 ![] bcast_S_S330000 : (IVec S_ 32) → (IVec S330000 32))) (lv_main_c_13)
def lv_main_v69 (y_main_v3 : IVec S330000 32) : IVec S330000 1 :=
  ((cmpi .slt : (IVec S330000 32) → (IVec S330000 32) → (IVec S330000 1))) y_main_v3 (lv_main_v68)
def lv_main_c_14 : IVec S_ 32 :=
  (constantI S_ 32 10000#32)
def lv_main_v70 : IVec S330000 32 :=
  ((broadcastInDim S330000 ![] bcast_S_S330000 : (IVec S_ 32) → (IVec S330000 32))) (lv_main_c_14)
def lv_main_v71 (y_main_v3 : IVec S330000 32) : IVec S330000 32 :=
  ((addi : (IVec S330000 32) → (IVec S330000 32) → (IVec S330000 32))) y_main_v3 (lv_main_v70)
def lv_main_v72 (y_main_v3 : IVec S330000 32) : IVec S330000 32 :=
  ((select : (IVec S330000 1) → (IVec S330000 32) → (IVec S330000 32) → (IVec S330000 32))) (lv_main_v69 y_main_v3) (lv_main_v71 y_main_v3) y_main_v3
def lv_main_v73 (y_main_v3 : IVec S330000 32) : IVec S330000x1 32 :=
  ((broadcastInDim S330000x1 ![0] bcast_S330000_S330000x1_0 : (IVec S330000 32) → (IVec S330000x1 32))) (lv_main_v72 y_main_v3)
def lv_main_v74 (y_main_v62 : FVec Ideal S10000x256 .f32) (y_main_v64 : FVec Ideal S10000x256 .f32) (y_main_arg10 : FVec Ideal S256x256 .f32) (y_main_v3 : IVec S330000 32) : FVec Ideal S330000x256 .f32 :=
  (((fun x i => Host.gather gather_S10000x256_S330000x1_S330000x256_1_0_n_n_0_1_1256 x i) : (FVec Ideal S10000x256 .f32) → (IVec S330000x1 32) → (FVec Ideal S330000x256 .f32))) (lv_main_v67 y_main_v62 y_main_v64 y_main_arg10) (lv_main_v73 y_main_v3)
def lv_main_v75 (y_main_v30 : FVec Ideal S330000 .f32) : FVec Ideal S330000x1 .f32 :=
  ((broadcastInDim S330000x1 ![0] bcast_S330000_S330000x1_0 : (FVec Ideal S330000 .f32) → (FVec Ideal S330000x1 .f32))) y_main_v30
def lv_main_v76 (y_main_v30 : FVec Ideal S330000 .f32) : FVec Ideal S330000x256 .f32 :=
  ((broadcastInDim S330000x256 ![0, 1] bcast_S330000x1_S330000x256_0_1 : (FVec Ideal S330000x1 .f32) → (FVec Ideal S330000x256 .f32))) (lv_main_v75 y_main_v30)
def lv_main_v77 (y_main_v62 : FVec Ideal S10000x256 .f32) (y_main_v64 : FVec Ideal S10000x256 .f32) (y_main_arg10 : FVec Ideal S256x256 .f32) (y_main_v3 : IVec S330000 32) (y_main_v30 : FVec Ideal S330000 .f32) : FVec Ideal S330000x256 .f32 :=
  ((mulf : (FVec Ideal S330000x256 .f32) → (FVec Ideal S330000x256 .f32) → (FVec Ideal S330000x256 .f32))) (lv_main_v74 y_main_v62 y_main_v64 y_main_arg10 y_main_v3) (lv_main_v76 y_main_v30)
def lv_main_cst_15 : FVec Ideal S_ .f32 :=
  (constant S_ .f32 0x00000000#32)
def lv_main_v78 : FVec Ideal S10000x256 .f32 :=
  ((broadcastInDim S10000x256 ![] bcast_S_S10000x256 : (FVec Ideal S_ .f32) → (FVec Ideal S10000x256 .f32))) (lv_main_cst_15)
def lv_main_v79 (y_main_v6 : IVec S330000 32) : IVec S330000x1 32 :=
  ((broadcastInDim S330000x1 ![0] bcast_S330000_S330000x1_0 : (IVec S330000 32) → (IVec S330000x1 32))) y_main_v6
def lv_main_v80 (y_main_v6 : IVec S330000 32) (y_main_v62 : FVec Ideal S10000x256 .f32) (y_main_v64 : FVec Ideal S10000x256 .f32) (y_main_arg10 : FVec Ideal S256x256 .f32) (y_main_v3 : IVec S330000 32) (y_main_v30 : FVec Ideal S330000 .f32) : FVec Ideal S10000x256 .f32 :=
  (((fun x i u => Host.scatterAdd scatter_S10000x256_S330000x1_S330000x256_1_0_0_1 x i u) : (FVec Ideal S10000x256 .f32) → (IVec S330000x1 32) → (FVec Ideal S330000x256 .f32) → (FVec Ideal S10000x256 .f32))) (lv_main_v78) (lv_main_v79 y_main_v6) (lv_main_v77 y_main_v62 y_main_v64 y_main_arg10 y_main_v3 y_main_v30)
def lv_main_v81 (y_main_arg11 : FVec Ideal S256 .f32) : FVec Ideal S1x256 .f32 :=
  ((broadcastInDim S1x256 ![1] bcast_S256_S1x256_1 : (FVec Ideal S256 .f32) → (FVec Ideal S1x256 .f32))) y_main_arg11
def lv_main_v82 (y_main_arg11 : FVec Ideal S256 .f32) : FVec Ideal S10000x256 .f32 :=
  ((broadcastInDim S10000x256 ![0, 1] bcast_S1x256_S10000x256_0_1 : (FVec Ideal S1x256 .f32) → (FVec Ideal S10000x256 .f32))) (lv_main_v81 y_main_arg11)
def lv_main_v83 (y_main_v80 : FVec Ideal S10000x256 .f32) (y_main_arg11 : FVec Ideal S256 .f32) : FVec Ideal S10000x256 .f32 :=
  ((addf : (FVec Ideal S10000x256 .f32) → (FVec Ideal S10000x256 .f32) → (FVec Ideal S10000x256 .f32))) y_main_v80 (lv_main_v82 y_main_arg11)
def lv_main_call3_cst : FVec Ideal S_ .f32 :=
  (constant S_ .f32 0x00000000#32)
def lv_main_call3_v0 : FVec Ideal S10000x256 .f32 :=
  ((broadcastInDim S10000x256 ![] bcast_S_S10000x256)) (lv_main_call3_cst)
def lv_main_v84 (y_main_v80 : FVec Ideal S10000x256 .f32) (y_main_arg11 : FVec Ideal S256 .f32) : FVec Ideal S10000x256 .f32 :=
  (maximumf) (lv_main_v83 y_main_v80 y_main_arg11) (lv_main_call3_v0)
def lv_main_v85 (y_main_arg0 : FVec Ideal S10000x128 .f32) (y_main_arg2 : FVec Ideal S10000x30 .f32) : FVec Ideal S10000x158 .f32 :=
  (((fun a b => concatenate S10000x158 1 [⟨S10000x128, a⟩, ⟨S10000x30, b⟩] concatenates_S10000x128_S10000x30_S10000x158_d1) : (FVec Ideal S10000x128 .f32) → (FVec Ideal S10000x30 .f32) → (FVec Ideal S10000x158 .f32))) y_main_arg0 y_main_arg2
def lv_main_v86 (y_main_arg3 : FVec Ideal S10000x10000 .f32) (y_main_arg0 : FVec Ideal S10000x128 .f32) (y_main_arg2 : FVec Ideal S10000x30 .f32) : FVec Ideal S10000x158 .f32 :=
  (((fun l r => Host.dotGeneral dot_S10000x10000_S10000x158_S10000x158_1_0_0_1_n_n none l r) : (FVec Ideal S10000x10000 .f32) → (FVec Ideal S10000x158 .f32) → (FVec Ideal S10000x158 .f32))) y_main_arg3 (lv_main_v85 y_main_arg0 y_main_arg2)
def lv_main_v87 (y_main_arg4 : FVec Ideal S10000x10000 .f32) (y_main_arg0 : FVec Ideal S10000x128 .f32) (y_main_arg2 : FVec Ideal S10000x30 .f32) : FVec Ideal S10000x158 .f32 :=
  (((fun l r => Host.dotGeneral dot_S10000x10000_S10000x158_S10000x158_1_0_0_1_n_n none l r) : (FVec Ideal S10000x10000 .f32) → (FVec Ideal S10000x158 .f32) → (FVec Ideal S10000x158 .f32))) y_main_arg4 (lv_main_v85 y_main_arg0 y_main_arg2)
def lv_main_v88 (y_main_arg5 : FVec Ideal S10000x10000 .f32) (y_main_arg0 : FVec Ideal S10000x128 .f32) (y_main_arg2 : FVec Ideal S10000x30 .f32) : FVec Ideal S10000x158 .f32 :=
  (((fun l r => Host.dotGeneral dot_S10000x10000_S10000x158_S10000x158_1_0_0_1_n_n none l r) : (FVec Ideal S10000x10000 .f32) → (FVec Ideal S10000x158 .f32) → (FVec Ideal S10000x158 .f32))) y_main_arg5 (lv_main_v85 y_main_arg0 y_main_arg2)
def lv_main_v89 (y_main_arg0 : FVec Ideal S10000x128 .f32) (y_main_arg2 : FVec Ideal S10000x30 .f32) : FVec Ideal S1x10000x158 .f32 :=
  ((broadcastInDim S1x10000x158 ![1, 2] bcast_S10000x158_S1x10000x158_1_2 : (FVec Ideal S10000x158 .f32) → (FVec Ideal S1x10000x158 .f32))) (lv_main_v85 y_main_arg0 y_main_arg2)
def lv_main_v90 (y_main_arg3 : FVec Ideal S10000x10000 .f32) (y_main_arg0 : FVec Ideal S10000x128 .f32) (y_main_arg2 : FVec Ideal S10000x30 .f32) : FVec Ideal S1x10000x158 .f32 :=
  ((broadcastInDim S1x10000x158 ![1, 2] bcast_S10000x158_S1x10000x158_1_2 : (FVec Ideal S10000x158 .f32) → (FVec Ideal S1x10000x158 .f32))) (lv_main_v86 y_main_arg3 y_main_arg0 y_main_arg2)
def lv_main_v91 (y_main_arg4 : FVec Ideal S10000x10000 .f32) (y_main_arg0 : FVec Ideal S10000x128 .f32) (y_main_arg2 : FVec Ideal S10000x30 .f32) : FVec Ideal S1x10000x158 .f32 :=
  ((broadcastInDim S1x10000x158 ![1, 2] bcast_S10000x158_S1x10000x158_1_2 : (FVec Ideal S10000x158 .f32) → (FVec Ideal S1x10000x158 .f32))) (lv_main_v87 y_main_arg4 y_main_arg0 y_main_arg2)
def lv_main_v92 (y_main_arg5 : FVec Ideal S10000x10000 .f32) (y_main_arg0 : FVec Ideal S10000x128 .f32) (y_main_arg2 : FVec Ideal S10000x30 .f32) : FVec Ideal S1x10000x158 .f32 :=
  ((broadcastInDim S1x10000x158 ![1, 2] bcast_S10000x158_S1x10000x158_1_2 : (FVec Ideal S10000x158 .f32) → (FVec Ideal S1x10000x158 .f32))) (lv_main_v88 y_main_arg5 y_main_arg0 y_main_arg2)
def lv_main_v93 (y_main_arg0 : FVec Ideal S10000x128 .f32) (y_main_arg2 : FVec Ideal S10000x30 .f32) (y_main_arg3 : FVec Ideal S10000x10000 .f32) (y_main_arg4 : FVec Ideal S10000x10000 .f32) (y_main_arg5 : FVec Ideal S10000x10000 .f32) : FVec Ideal S4x10000x158 .f32 :=
  concatenate S4x10000x158 0 [⟨S1x10000x158, (lv_main_v89 y_main_arg0 y_main_arg2)⟩, ⟨S1x10000x158, (lv_main_v90 y_main_arg3 y_main_arg0 y_main_arg2)⟩, ⟨S1x10000x158, (lv_main_v91 y_main_arg4 y_main_arg0 y_main_arg2)⟩, ⟨S1x10000x158, (lv_main_v92 y_main_arg5 y_main_arg0 y_main_arg2)⟩] concatenates_S1x10000x158_S1x10000x158_S1x10000x158_S1x10000x158_S4x10000x158_d0
def lv_main_v94 (y_main_arg0 : FVec Ideal S10000x128 .f32) (y_main_arg2 : FVec Ideal S10000x30 .f32) (y_main_arg3 : FVec Ideal S10000x10000 .f32) (y_main_arg4 : FVec Ideal S10000x10000 .f32) (y_main_arg5 : FVec Ideal S10000x10000 .f32) (y_main_arg12 : FVec Ideal S4x158x256 .f32) : FVec Ideal S4x10000x256 .f32 :=
  (((fun l r => Host.dotGeneral dot_S4x10000x158_S4x158x256_S4x10000x256_2_1_1_2_0_0 none l r) : (FVec Ideal S4x10000x158 .f32) → (FVec Ideal S4x158x256 .f32) → (FVec Ideal S4x10000x256 .f32))) (lv_main_v93 y_main_arg0 y_main_arg2 y_main_arg3 y_main_arg4 y_main_arg5) y_main_arg12
def lv_main_v95 (y_main_arg13 : FVec Ideal S4x256 .f32) : FVec Ideal S4x1x256 .f32 :=
  ((broadcastInDim S4x1x256 ![0, 2] bcast_S4x256_S4x1x256_0_2 : (FVec Ideal S4x256 .f32) → (FVec Ideal S4x1x256 .f32))) y_main_arg13
def lv_main_v96 (y_main_arg13 : FVec Ideal S4x256 .f32) : FVec Ideal S4x10000x256 .f32 :=
  ((broadcastInDim S4x10000x256 ![0, 1, 2] bcast_S4x1x256_S4x10000x256_0_1_2 : (FVec Ideal S4x1x256 .f32) → (FVec Ideal S4x10000x256 .f32))) (lv_main_v95 y_main_arg13)
def lv_main_v97 (y_main_arg0 : FVec Ideal S10000x128 .f32) (y_main_arg2 : FVec Ideal S10000x30 .f32) (y_main_arg3 : FVec Ideal S10000x10000 .f32) (y_main_arg4 : FVec Ideal S10000x10000 .f32) (y_main_arg5 : FVec Ideal S10000x10000 .f32) (y_main_arg12 : FVec Ideal S4x158x256 .f32) (y_main_arg13 : FVec Ideal S4x256 .f32) : FVec Ideal S4x10000x256 .f32 :=
  ((addf : (FVec Ideal S4x10000x256 .f32) → (FVec Ideal S4x10000x256 .f32) → (FVec Ideal S4x10000x256 .f32))) (lv_main_v94 y_main_arg0 y_main_arg2 y_main_arg3 y_main_arg4 y_main_arg5 y_main_arg12) (lv_main_v96 y_main_arg13)
def lv_main_cst_16 : FVec Ideal S_ .f32 :=
  (constant S_ .f32 0x00000000#32)
def lv_main_v98 (y_main_arg0 : FVec Ideal S10000x128 .f32) (y_main_arg2 : FVec Ideal S10000x30 .f32) (y_main_arg3 : FVec Ideal S10000x10000 .f32) (y_main_arg4 : FVec Ideal S10000x10000 .f32) (y_main_arg5 : FVec Ideal S10000x10000 .f32) (y_main_arg12 : FVec Ideal S4x158x256 .f32) (y_main_arg13 : FVec Ideal S4x256 .f32) : FVec Ideal S4x256 .f32 :=
  (((fun x v => Host.reduceAdd x v reducesTo_S4x10000x256_S4x256_d1 h_S_) : (FVec Ideal S4x10000x256 .f32) → (FVec Ideal S_ .f32) → (FVec Ideal S4x256 .f32))) (lv_main_v97 y_main_arg0 y_main_arg2 y_main_arg3 y_main_arg4 y_main_arg5 y_main_arg12 y_main_arg13) (lv_main_cst_16)
def lv_main_cst_17 : FVec Ideal S_ .f32 :=
  (constant S_ .f32 0x461C4000#32)
def lv_main_v99 : FVec Ideal S4x256 .f32 :=
  ((broadcastInDim S4x256 ![] bcast_S_S4x256 : (FVec Ideal S_ .f32) → (FVec Ideal S4x256 .f32))) (lv_main_cst_17)
def lv_main_v100 (y_main_v98 : FVec Ideal S4x256 .f32) : FVec Ideal S4x256 .f32 :=
  ((Host.divf : (FVec Ideal S4x256 .f32) → (FVec Ideal S4x256 .f32) → (FVec Ideal S4x256 .f32))) y_main_v98 (lv_main_v99)
def lv_main_v101 (y_main_v98 : FVec Ideal S4x256 .f32) : FVec Ideal S4x1x256 .f32 :=
  ((broadcastInDim S4x1x256 ![0, 2] bcast_S4x256_S4x1x256_0_2 : (FVec Ideal S4x256 .f32) → (FVec Ideal S4x1x256 .f32))) (lv_main_v100 y_main_v98)
def lv_main_v102 (y_main_v98 : FVec Ideal S4x256 .f32) : FVec Ideal S4x10000x256 .f32 :=
  ((broadcastInDim S4x10000x256 ![0, 1, 2] bcast_S4x1x256_S4x10000x256_0_1_2 : (FVec Ideal S4x1x256 .f32) → (FVec Ideal S4x10000x256 .f32))) (lv_main_v101 y_main_v98)
def lv_main_v103 (y_main_v97 : FVec Ideal S4x10000x256 .f32) (y_main_v98 : FVec Ideal S4x256 .f32) : FVec Ideal S4x10000x256 .f32 :=
  ((subf : (FVec Ideal S4x10000x256 .f32) → (FVec Ideal S4x10000x256 .f32) → (FVec Ideal S4x10000x256 .f32))) y_main_v97 (lv_main_v102 y_main_v98)
def lv_main_v104 (y_main_v97 : FVec Ideal S4x10000x256 .f32) (y_main_v98 : FVec Ideal S4x256 .f32) : FVec Ideal S4x10000x256 .f32 :=
  ((mulf : (FVec Ideal S4x10000x256 .f32) → (FVec Ideal S4x10000x256 .f32) → (FVec Ideal S4x10000x256 .f32))) (lv_main_v103 y_main_v97 y_main_v98) (lv_main_v103 y_main_v97 y_main_v98)
def lv_main_cst_18 : FVec Ideal S_ .f32 :=
  (constant S_ .f32 0x00000000#32)
def lv_main_v105 (y_main_v97 : FVec Ideal S4x10000x256 .f32) (y_main_v98 : FVec Ideal S4x256 .f32) : FVec Ideal S4x256 .f32 :=
  (((fun x v => Host.reduceAdd x v reducesTo_S4x10000x256_S4x256_d1 h_S_) : (FVec Ideal S4x10000x256 .f32) → (FVec Ideal S_ .f32) → (FVec Ideal S4x256 .f32))) (lv_main_v104 y_main_v97 y_main_v98) (lv_main_cst_18)
def lv_main_cst_19 : FVec Ideal S_ .f32 :=
  (constant S_ .f32 0x461C4000#32)
def lv_main_v106 : FVec Ideal S4x256 .f32 :=
  ((broadcastInDim S4x256 ![] bcast_S_S4x256 : (FVec Ideal S_ .f32) → (FVec Ideal S4x256 .f32))) (lv_main_cst_19)
def lv_main_v107 (y_main_v97 : FVec Ideal S4x10000x256 .f32) (y_main_v98 : FVec Ideal S4x256 .f32) : FVec Ideal S4x256 .f32 :=
  ((Host.divf : (FVec Ideal S4x256 .f32) → (FVec Ideal S4x256 .f32) → (FVec Ideal S4x256 .f32))) (lv_main_v105 y_main_v97 y_main_v98) (lv_main_v106)
def lv_main_v108 (y_main_v98 : FVec Ideal S4x256 .f32) : FVec Ideal S4x1x256 .f32 :=
  ((broadcastInDim S4x1x256 ![0, 2] bcast_S4x256_S4x1x256_0_2 : (FVec Ideal S4x256 .f32) → (FVec Ideal S4x1x256 .f32))) (lv_main_v100 y_main_v98)
def lv_main_v109 (y_main_v98 : FVec Ideal S4x256 .f32) : FVec Ideal S4x10000x256 .f32 :=
  ((broadcastInDim S4x10000x256 ![0, 1, 2] bcast_S4x1x256_S4x10000x256_0_1_2 : (FVec Ideal S4x1x256 .f32) → (FVec Ideal S4x10000x256 .f32))) (lv_main_v108 y_main_v98)
def lv_main_v110 (y_main_v97 : FVec Ideal S4x10000x256 .f32) (y_main_v98 : FVec Ideal S4x256 .f32) : FVec Ideal S4x10000x256 .f32 :=
  ((subf : (FVec Ideal S4x10000x256 .f32) → (FVec Ideal S4x10000x256 .f32) → (FVec Ideal S4x10000x256 .f32))) y_main_v97 (lv_main_v109 y_main_v98)
def lv_main_v111 (y_main_arg14 : FVec Ideal S4x256 .f32) : FVec Ideal S4x1x256 .f32 :=
  ((broadcastInDim S4x1x256 ![0, 2] bcast_S4x256_S4x1x256_0_2 : (FVec Ideal S4x256 .f32) → (FVec Ideal S4x1x256 .f32))) y_main_arg14
def lv_main_v112 (y_main_arg14 : FVec Ideal S4x256 .f32) : FVec Ideal S4x10000x256 .f32 :=
  ((broadcastInDim S4x10000x256 ![0, 1, 2] bcast_S4x1x256_S4x10000x256_0_1_2 : (FVec Ideal S4x1x256 .f32) → (FVec Ideal S4x10000x256 .f32))) (lv_main_v111 y_main_arg14)
def lv_main_v113 (y_main_arg14 : FVec Ideal S4x256 .f32) (y_main_v97 : FVec Ideal S4x10000x256 .f32) (y_main_v98 : FVec Ideal S4x256 .f32) : FVec Ideal S4x10000x256 .f32 :=
  ((mulf : (FVec Ideal S4x10000x256 .f32) → (FVec Ideal S4x10000x256 .f32) → (FVec Ideal S4x10000x256 .f32))) (lv_main_v112 y_main_arg14) (lv_main_v110 y_main_v97 y_main_v98)
def lv_main_cst_20 : FVec Ideal S_ .f32 :=
  (constant S_ .f32 0x3727C5AC#32)
def lv_main_v114 : FVec Ideal S4x256 .f32 :=
  ((broadcastInDim S4x256 ![] bcast_S_S4x256 : (FVec Ideal S_ .f32) → (FVec Ideal S4x256 .f32))) (lv_main_cst_20)
def lv_main_v115 (y_main_v97 : FVec Ideal S4x10000x256 .f32) (y_main_v98 : FVec Ideal S4x256 .f32) : FVec Ideal S4x256 .f32 :=
  ((addf : (FVec Ideal S4x256 .f32) → (FVec Ideal S4x256 .f32) → (FVec Ideal S4x256 .f32))) (lv_main_v107 y_main_v97 y_main_v98) (lv_main_v114)
def lv_main_v116 (y_main_v115 : FVec Ideal S4x256 .f32) : FVec Ideal S4x256 .f32 :=
  ((Host.rsqrt : (FVec Ideal S4x256 .f32) → (FVec Ideal S4x256 .f32))) y_main_v115
def lv_main_v117 (y_main_v115 : FVec Ideal S4x256 .f32) : FVec Ideal S4x1x256 .f32 :=
  ((broadcastInDim S4x1x256 ![0, 2] bcast_S4x256_S4x1x256_0_2 : (FVec Ideal S4x256 .f32) → (FVec Ideal S4x1x256 .f32))) (lv_main_v116 y_main_v115)
def lv_main_v118 (y_main_v115 : FVec Ideal S4x256 .f32) : FVec Ideal S4x10000x256 .f32 :=
  ((broadcastInDim S4x10000x256 ![0, 1, 2] bcast_S4x1x256_S4x10000x256_0_1_2 : (FVec Ideal S4x1x256 .f32) → (FVec Ideal S4x10000x256 .f32))) (lv_main_v117 y_main_v115)
def lv_main_v119 (y_main_v113 : FVec Ideal S4x10000x256 .f32) (y_main_v115 : FVec Ideal S4x256 .f32) : FVec Ideal S4x10000x256 .f32 :=
  ((mulf : (FVec Ideal S4x10000x256 .f32) → (FVec Ideal S4x10000x256 .f32) → (FVec Ideal S4x10000x256 .f32))) y_main_v113 (lv_main_v118 y_main_v115)
def lv_main_v120 (y_main_arg15 : FVec Ideal S4x256 .f32) : FVec Ideal S4x1x256 .f32 :=
  ((broadcastInDim S4x1x256 ![0, 2] bcast_S4x256_S4x1x256_0_2 : (FVec Ideal S4x256 .f32) → (FVec Ideal S4x1x256 .f32))) y_main_arg15
def lv_main_v121 (y_main_arg15 : FVec Ideal S4x256 .f32) : FVec Ideal S4x10000x256 .f32 :=
  ((broadcastInDim S4x10000x256 ![0, 1, 2] bcast_S4x1x256_S4x10000x256_0_1_2 : (FVec Ideal S4x1x256 .f32) → (FVec Ideal S4x10000x256 .f32))) (lv_main_v120 y_main_arg15)
def lv_main_v122 (y_main_v113 : FVec Ideal S4x10000x256 .f32) (y_main_v115 : FVec Ideal S4x256 .f32) (y_main_arg15 : FVec Ideal S4x256 .f32) : FVec Ideal S4x10000x256 .f32 :=
  ((addf : (FVec Ideal S4x10000x256 .f32) → (FVec Ideal S4x10000x256 .f32) → (FVec Ideal S4x10000x256 .f32))) (lv_main_v119 y_main_v113 y_main_v115) (lv_main_v121 y_main_arg15)
def lv_main_call4_cst : FVec Ideal S_ .f32 :=
  (constant S_ .f32 0x00000000#32)
def lv_main_call4_v0 : FVec Ideal S4x10000x256 .f32 :=
  ((broadcastInDim S4x10000x256 ![] bcast_S_S4x10000x256)) (lv_main_call4_cst)
def lv_main_v123 (y_main_v113 : FVec Ideal S4x10000x256 .f32) (y_main_v115 : FVec Ideal S4x256 .f32) (y_main_arg15 : FVec Ideal S4x256 .f32) : FVec Ideal S4x10000x256 .f32 :=
  (maximumf) (lv_main_v122 y_main_v113 y_main_v115 y_main_arg15) (lv_main_call4_v0)
def lv_main_v124 (y_main_v113 : FVec Ideal S4x10000x256 .f32) (y_main_v115 : FVec Ideal S4x256 .f32) (y_main_arg15 : FVec Ideal S4x256 .f32) (y_main_arg16 : FVec Ideal S4x256x256 .f32) : FVec Ideal S4x10000x256 .f32 :=
  (((fun l r => Host.dotGeneral dot_S4x10000x256_S4x256x256_S4x10000x256_2_1_1_2_0_0 none l r) : (FVec Ideal S4x10000x256 .f32) → (FVec Ideal S4x256x256 .f32) → (FVec Ideal S4x10000x256 .f32))) (lv_main_v123 y_main_v113 y_main_v115 y_main_arg15) y_main_arg16
def lv_main_v125 (y_main_arg17 : FVec Ideal S4x256 .f32) : FVec Ideal S4x1x256 .f32 :=
  ((broadcastInDim S4x1x256 ![0, 2] bcast_S4x256_S4x1x256_0_2 : (FVec Ideal S4x256 .f32) → (FVec Ideal S4x1x256 .f32))) y_main_arg17
def lv_main_v126 (y_main_arg17 : FVec Ideal S4x256 .f32) : FVec Ideal S4x10000x256 .f32 :=
  ((broadcastInDim S4x10000x256 ![0, 1, 2] bcast_S4x1x256_S4x10000x256_0_1_2 : (FVec Ideal S4x1x256 .f32) → (FVec Ideal S4x10000x256 .f32))) (lv_main_v125 y_main_arg17)
def lv_main_v127 (y_main_v113 : FVec Ideal S4x10000x256 .f32) (y_main_v115 : FVec Ideal S4x256 .f32) (y_main_arg15 : FVec Ideal S4x256 .f32) (y_main_arg16 : FVec Ideal S4x256x256 .f32) (y_main_arg17 : FVec Ideal S4x256 .f32) : FVec Ideal S4x10000x256 .f32 :=
  ((addf : (FVec Ideal S4x10000x256 .f32) → (FVec Ideal S4x10000x256 .f32) → (FVec Ideal S4x10000x256 .f32))) (lv_main_v124 y_main_v113 y_main_v115 y_main_arg15 y_main_arg16) (lv_main_v126 y_main_arg17)
def lv_main_cst_21 : FVec Ideal S_ .f32 :=
  (constant S_ .f32 0x00000000#32)
def lv_main_v128 (y_main_v113 : FVec Ideal S4x10000x256 .f32) (y_main_v115 : FVec Ideal S4x256 .f32) (y_main_arg15 : FVec Ideal S4x256 .f32) (y_main_arg16 : FVec Ideal S4x256x256 .f32) (y_main_arg17 : FVec Ideal S4x256 .f32) : FVec Ideal S10000x256 .f32 :=
  (((fun x v => Host.reduceAdd x v reducesTo_S4x10000x256_S10000x256_d0 h_S_) : (FVec Ideal S4x10000x256 .f32) → (FVec Ideal S_ .f32) → (FVec Ideal S10000x256 .f32))) (lv_main_v127 y_main_v113 y_main_v115 y_main_arg15 y_main_arg16 y_main_arg17) (lv_main_cst_21)
def lv_main_v129 (y_main_v84 : FVec Ideal S10000x256 .f32) (y_main_v113 : FVec Ideal S4x10000x256 .f32) (y_main_v115 : FVec Ideal S4x256 .f32) (y_main_arg15 : FVec Ideal S4x256 .f32) (y_main_arg16 : FVec Ideal S4x256x256 .f32) (y_main_arg17 : FVec Ideal S4x256 .f32) : FVec Ideal S10000x512 .f32 :=
  (((fun a b => concatenate S10000x512 1 [⟨S10000x256, a⟩, ⟨S10000x256, b⟩] concatenates_S10000x256_S10000x256_S10000x512_d1) : (FVec Ideal S10000x256 .f32) → (FVec Ideal S10000x256 .f32) → (FVec Ideal S10000x512 .f32))) y_main_v84 (lv_main_v128 y_main_v113 y_main_v115 y_main_arg15 y_main_arg16 y_main_arg17)

theorem loc_main_call0_v0 (V : Valuation τ sig (Elt Ideal)) :
    after ops0 V (Proc.devRef .tc main_call0_v0) = lv_main_call0_v0 := by
  after_results_simp <;> rfl

theorem loc_main_v12 (V : Valuation τ sig (Elt Ideal)) :
    after ops0 V (Proc.devRef .tc main_v12) = lv_main_v12 (V (Proc.devRef .tc main_arg1)) := by
  after_results_simp <;> rfl

theorem loc_main_v14 (V : Valuation τ sig (Elt Ideal)) :
    after ops0 V (Proc.devRef .tc main_v14) = lv_main_v14 (V (Proc.devRef .tc main_arg1)) := by
  after_results_simp <;> rfl

theorem loc_main_v3 (V : Valuation τ sig (Elt Ideal)) :
    after ops0 V (Proc.devRef .tc main_v3) = lv_main_v3 (V (Proc.devRef .tc main_arg1)) := by
  after_results_simp <;> rfl

theorem loc_main_v6 (V : Valuation τ sig (Elt Ideal)) :
    after ops0 V (Proc.devRef .tc main_v6) = lv_main_v6 (V (Proc.devRef .tc main_arg1)) := by
  after_results_simp <;> rfl

theorem loc_main_v30 (V : Valuation τ sig (Elt Ideal)) :
    after ops1 V (Proc.devRef .tc main_v30) = lv_main_v30 (V (Proc.devRef .tc main_v12)) (V (Proc.devRef .tc main_v14)) (V (Proc.devRef .tc main_call0_v0)) (V (Proc.devRef .tc main_v3)) (V (Proc.devRef .tc main_v6)) := by
  after_results_simp <;> rfl

theorem loc_main_call1_cst (V : Valuation τ sig (Elt Ideal)) :
    after ops2 V (Proc.devRef .tc main_call1_cst) = lv_main_call1_cst := by
  after_results_simp <;> rfl

theorem loc_main_v47 (V : Valuation τ sig (Elt Ideal)) :
    after ops2 V (Proc.devRef .tc main_v47) = lv_main_v47 (V (Proc.devRef .tc main_v6)) (V (Proc.devRef .tc main_arg0)) (V (Proc.devRef .tc main_arg6)) (V (Proc.devRef .tc main_v3)) (V (Proc.devRef .tc main_v30)) (V (Proc.devRef .tc main_arg7)) := by
  after_results_simp <;> rfl

theorem loc_main_v62 (V : Valuation τ sig (Elt Ideal)) :
    after ops3 V (Proc.devRef .tc main_v62) = lv_main_v62 (V (Proc.devRef .tc main_v6)) (V (Proc.devRef .tc main_v47)) (V (Proc.devRef .tc main_call1_cst)) (V (Proc.devRef .tc main_arg8)) (V (Proc.devRef .tc main_v3)) (V (Proc.devRef .tc main_v30)) := by
  after_results_simp <;> rfl

theorem loc_main_v64 (V : Valuation τ sig (Elt Ideal)) :
    after ops3 V (Proc.devRef .tc main_v64) = lv_main_v64 (V (Proc.devRef .tc main_arg9)) := by
  after_results_simp <;> rfl

theorem loc_main_v80 (V : Valuation τ sig (Elt Ideal)) :
    after ops4 V (Proc.devRef .tc main_v80) = lv_main_v80 (V (Proc.devRef .tc main_v6)) (V (Proc.devRef .tc main_v62)) (V (Proc.devRef .tc main_v64)) (V (Proc.devRef .tc main_arg10)) (V (Proc.devRef .tc main_v3)) (V (Proc.devRef .tc main_v30)) := by
  after_results_simp <;> rfl

theorem loc_main_v98 (V : Valuation τ sig (Elt Ideal)) :
    after ops5 V (Proc.devRef .tc main_v98) = lv_main_v98 (V (Proc.devRef .tc main_arg0)) (V (Proc.devRef .tc main_arg2)) (V (Proc.devRef .tc main_arg3)) (V (Proc.devRef .tc main_arg4)) (V (Proc.devRef .tc main_arg5)) (V (Proc.devRef .tc main_arg12)) (V (Proc.devRef .tc main_arg13)) := by
  after_results_simp <;> rfl

theorem loc_main_v97 (V : Valuation τ sig (Elt Ideal)) :
    after ops5 V (Proc.devRef .tc main_v97) = lv_main_v97 (V (Proc.devRef .tc main_arg0)) (V (Proc.devRef .tc main_arg2)) (V (Proc.devRef .tc main_arg3)) (V (Proc.devRef .tc main_arg4)) (V (Proc.devRef .tc main_arg5)) (V (Proc.devRef .tc main_arg12)) (V (Proc.devRef .tc main_arg13)) := by
  after_results_simp <;> rfl

theorem loc_main_v84 (V : Valuation τ sig (Elt Ideal)) :
    after ops5 V (Proc.devRef .tc main_v84) = lv_main_v84 (V (Proc.devRef .tc main_v80)) (V (Proc.devRef .tc main_arg11)) := by
  after_results_simp <;> rfl

theorem loc_main_v115 (V : Valuation τ sig (Elt Ideal)) :
    after ops6 V (Proc.devRef .tc main_v115) = lv_main_v115 (V (Proc.devRef .tc main_v97)) (V (Proc.devRef .tc main_v98)) := by
  after_results_simp <;> rfl

theorem loc_main_v113 (V : Valuation τ sig (Elt Ideal)) :
    after ops6 V (Proc.devRef .tc main_v113) = lv_main_v113 (V (Proc.devRef .tc main_arg14)) (V (Proc.devRef .tc main_v97)) (V (Proc.devRef .tc main_v98)) := by
  after_results_simp <;> rfl

theorem loc_main_v129 (V : Valuation τ sig (Elt Ideal)) :
    after ops7 V (Proc.devRef .tc main_v129) = lv_main_v129 (V (Proc.devRef .tc main_v84)) (V (Proc.devRef .tc main_v113)) (V (Proc.devRef .tc main_v115)) (V (Proc.devRef .tc main_arg15)) (V (Proc.devRef .tc main_arg16)) (V (Proc.devRef .tc main_arg17)) := by
  after_results_simp <;> rfl

variable (m : (ℓ : Loc nD τ sig) → Buf (Elt Ideal) ℓ)

/-! ## After 0 chunks -/

theorem rat0_main_arg1 (c : Dev nD) : (launchContents m c) (Proc.devRef .tc main_arg1) = m ((c.tc : Thread nD τ).loc main_arg1) := rfl

theorem rat0_main_arg0 (c : Dev nD) : (launchContents m c) (Proc.devRef .tc main_arg0) = m ((c.tc : Thread nD τ).loc main_arg0) := rfl

theorem rat0_main_arg6 (c : Dev nD) : (launchContents m c) (Proc.devRef .tc main_arg6) = m ((c.tc : Thread nD τ).loc main_arg6) := rfl

theorem rat0_main_arg7 (c : Dev nD) : (launchContents m c) (Proc.devRef .tc main_arg7) = m ((c.tc : Thread nD τ).loc main_arg7) := rfl

theorem rat0_main_arg8 (c : Dev nD) : (launchContents m c) (Proc.devRef .tc main_arg8) = m ((c.tc : Thread nD τ).loc main_arg8) := rfl

theorem rat0_main_arg9 (c : Dev nD) : (launchContents m c) (Proc.devRef .tc main_arg9) = m ((c.tc : Thread nD τ).loc main_arg9) := rfl

theorem rat0_main_arg10 (c : Dev nD) : (launchContents m c) (Proc.devRef .tc main_arg10) = m ((c.tc : Thread nD τ).loc main_arg10) := rfl

theorem rat0_main_arg11 (c : Dev nD) : (launchContents m c) (Proc.devRef .tc main_arg11) = m ((c.tc : Thread nD τ).loc main_arg11) := rfl

theorem rat0_main_arg2 (c : Dev nD) : (launchContents m c) (Proc.devRef .tc main_arg2) = m ((c.tc : Thread nD τ).loc main_arg2) := rfl

theorem rat0_main_arg3 (c : Dev nD) : (launchContents m c) (Proc.devRef .tc main_arg3) = m ((c.tc : Thread nD τ).loc main_arg3) := rfl

theorem rat0_main_arg4 (c : Dev nD) : (launchContents m c) (Proc.devRef .tc main_arg4) = m ((c.tc : Thread nD τ).loc main_arg4) := rfl

theorem rat0_main_arg5 (c : Dev nD) : (launchContents m c) (Proc.devRef .tc main_arg5) = m ((c.tc : Thread nD τ).loc main_arg5) := rfl

theorem rat0_main_arg12 (c : Dev nD) : (launchContents m c) (Proc.devRef .tc main_arg12) = m ((c.tc : Thread nD τ).loc main_arg12) := rfl

theorem rat0_main_arg13 (c : Dev nD) : (launchContents m c) (Proc.devRef .tc main_arg13) = m ((c.tc : Thread nD τ).loc main_arg13) := rfl

theorem rat0_main_arg14 (c : Dev nD) : (launchContents m c) (Proc.devRef .tc main_arg14) = m ((c.tc : Thread nD τ).loc main_arg14) := rfl

theorem rat0_main_arg15 (c : Dev nD) : (launchContents m c) (Proc.devRef .tc main_arg15) = m ((c.tc : Thread nD τ).loc main_arg15) := rfl

theorem rat0_main_arg16 (c : Dev nD) : (launchContents m c) (Proc.devRef .tc main_arg16) = m ((c.tc : Thread nD τ).loc main_arg16) := rfl

theorem rat0_main_arg17 (c : Dev nD) : (launchContents m c) (Proc.devRef .tc main_arg17) = m ((c.tc : Thread nD τ).loc main_arg17) := rfl

/-! ## After 1 chunks -/

theorem rat1_main_call0_v0 (c : Dev nD) : (after (ops0 (F := Ideal)) (launchContents m c)) (Proc.devRef .tc main_call0_v0) = ReadP.val_main_call0_v0 (F := Ideal) :=
  (loc_main_call0_v0 (launchContents m c)).trans (by rfl)

theorem rat1_main_v12 (c : Dev nD) : (after (ops0 (F := Ideal)) (launchContents m c)) (Proc.devRef .tc main_v12) = ReadP.val_main_v12 (F := Ideal) (m ((c.tc : Thread nD τ).loc main_arg1)) :=
  (loc_main_v12 (launchContents m c)).trans (by rw [rat0_main_arg1 m c]; rfl)

theorem rat1_main_v14 (c : Dev nD) : (after (ops0 (F := Ideal)) (launchContents m c)) (Proc.devRef .tc main_v14) = ReadP.val_main_v14 (F := Ideal) (m ((c.tc : Thread nD τ).loc main_arg1)) :=
  (loc_main_v14 (launchContents m c)).trans (by rw [rat0_main_arg1 m c]; rfl)

theorem rat1_main_v3 (c : Dev nD) : (after (ops0 (F := Ideal)) (launchContents m c)) (Proc.devRef .tc main_v3) = ReadP.val_main_v3 (F := Ideal) (m ((c.tc : Thread nD τ).loc main_arg1)) :=
  (loc_main_v3 (launchContents m c)).trans (by rw [rat0_main_arg1 m c]; rfl)

theorem rat1_main_v6 (c : Dev nD) : (after (ops0 (F := Ideal)) (launchContents m c)) (Proc.devRef .tc main_v6) = ReadP.val_main_v6 (F := Ideal) (m ((c.tc : Thread nD τ).loc main_arg1)) :=
  (loc_main_v6 (launchContents m c)).trans (by rw [rat0_main_arg1 m c]; rfl)

theorem rat1_main_arg0 (c : Dev nD) : (after (ops0 (F := Ideal)) (launchContents m c)) (Proc.devRef .tc main_arg0) = m ((c.tc : Thread nD τ).loc main_arg0) :=
  (StableHlo.after_of_forall_not_mem (b := Proc.devRef .tc main_arg0) _ _ (List.forall_iff_forall_mem.mp (by
      simp only [ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat0_main_arg0 m c)

theorem rat1_main_arg6 (c : Dev nD) : (after (ops0 (F := Ideal)) (launchContents m c)) (Proc.devRef .tc main_arg6) = m ((c.tc : Thread nD τ).loc main_arg6) :=
  (StableHlo.after_of_forall_not_mem (b := Proc.devRef .tc main_arg6) _ _ (List.forall_iff_forall_mem.mp (by
      simp only [ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat0_main_arg6 m c)

theorem rat1_main_arg7 (c : Dev nD) : (after (ops0 (F := Ideal)) (launchContents m c)) (Proc.devRef .tc main_arg7) = m ((c.tc : Thread nD τ).loc main_arg7) :=
  (StableHlo.after_of_forall_not_mem (b := Proc.devRef .tc main_arg7) _ _ (List.forall_iff_forall_mem.mp (by
      simp only [ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat0_main_arg7 m c)

theorem rat1_main_arg8 (c : Dev nD) : (after (ops0 (F := Ideal)) (launchContents m c)) (Proc.devRef .tc main_arg8) = m ((c.tc : Thread nD τ).loc main_arg8) :=
  (StableHlo.after_of_forall_not_mem (b := Proc.devRef .tc main_arg8) _ _ (List.forall_iff_forall_mem.mp (by
      simp only [ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat0_main_arg8 m c)

theorem rat1_main_arg9 (c : Dev nD) : (after (ops0 (F := Ideal)) (launchContents m c)) (Proc.devRef .tc main_arg9) = m ((c.tc : Thread nD τ).loc main_arg9) :=
  (StableHlo.after_of_forall_not_mem (b := Proc.devRef .tc main_arg9) _ _ (List.forall_iff_forall_mem.mp (by
      simp only [ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat0_main_arg9 m c)

theorem rat1_main_arg10 (c : Dev nD) : (after (ops0 (F := Ideal)) (launchContents m c)) (Proc.devRef .tc main_arg10) = m ((c.tc : Thread nD τ).loc main_arg10) :=
  (StableHlo.after_of_forall_not_mem (b := Proc.devRef .tc main_arg10) _ _ (List.forall_iff_forall_mem.mp (by
      simp only [ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat0_main_arg10 m c)

theorem rat1_main_arg11 (c : Dev nD) : (after (ops0 (F := Ideal)) (launchContents m c)) (Proc.devRef .tc main_arg11) = m ((c.tc : Thread nD τ).loc main_arg11) :=
  (StableHlo.after_of_forall_not_mem (b := Proc.devRef .tc main_arg11) _ _ (List.forall_iff_forall_mem.mp (by
      simp only [ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat0_main_arg11 m c)

theorem rat1_main_arg2 (c : Dev nD) : (after (ops0 (F := Ideal)) (launchContents m c)) (Proc.devRef .tc main_arg2) = m ((c.tc : Thread nD τ).loc main_arg2) :=
  (StableHlo.after_of_forall_not_mem (b := Proc.devRef .tc main_arg2) _ _ (List.forall_iff_forall_mem.mp (by
      simp only [ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat0_main_arg2 m c)

theorem rat1_main_arg3 (c : Dev nD) : (after (ops0 (F := Ideal)) (launchContents m c)) (Proc.devRef .tc main_arg3) = m ((c.tc : Thread nD τ).loc main_arg3) :=
  (StableHlo.after_of_forall_not_mem (b := Proc.devRef .tc main_arg3) _ _ (List.forall_iff_forall_mem.mp (by
      simp only [ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat0_main_arg3 m c)

theorem rat1_main_arg4 (c : Dev nD) : (after (ops0 (F := Ideal)) (launchContents m c)) (Proc.devRef .tc main_arg4) = m ((c.tc : Thread nD τ).loc main_arg4) :=
  (StableHlo.after_of_forall_not_mem (b := Proc.devRef .tc main_arg4) _ _ (List.forall_iff_forall_mem.mp (by
      simp only [ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat0_main_arg4 m c)

theorem rat1_main_arg5 (c : Dev nD) : (after (ops0 (F := Ideal)) (launchContents m c)) (Proc.devRef .tc main_arg5) = m ((c.tc : Thread nD τ).loc main_arg5) :=
  (StableHlo.after_of_forall_not_mem (b := Proc.devRef .tc main_arg5) _ _ (List.forall_iff_forall_mem.mp (by
      simp only [ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat0_main_arg5 m c)

theorem rat1_main_arg12 (c : Dev nD) : (after (ops0 (F := Ideal)) (launchContents m c)) (Proc.devRef .tc main_arg12) = m ((c.tc : Thread nD τ).loc main_arg12) :=
  (StableHlo.after_of_forall_not_mem (b := Proc.devRef .tc main_arg12) _ _ (List.forall_iff_forall_mem.mp (by
      simp only [ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat0_main_arg12 m c)

theorem rat1_main_arg13 (c : Dev nD) : (after (ops0 (F := Ideal)) (launchContents m c)) (Proc.devRef .tc main_arg13) = m ((c.tc : Thread nD τ).loc main_arg13) :=
  (StableHlo.after_of_forall_not_mem (b := Proc.devRef .tc main_arg13) _ _ (List.forall_iff_forall_mem.mp (by
      simp only [ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat0_main_arg13 m c)

theorem rat1_main_arg14 (c : Dev nD) : (after (ops0 (F := Ideal)) (launchContents m c)) (Proc.devRef .tc main_arg14) = m ((c.tc : Thread nD τ).loc main_arg14) :=
  (StableHlo.after_of_forall_not_mem (b := Proc.devRef .tc main_arg14) _ _ (List.forall_iff_forall_mem.mp (by
      simp only [ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat0_main_arg14 m c)

theorem rat1_main_arg15 (c : Dev nD) : (after (ops0 (F := Ideal)) (launchContents m c)) (Proc.devRef .tc main_arg15) = m ((c.tc : Thread nD τ).loc main_arg15) :=
  (StableHlo.after_of_forall_not_mem (b := Proc.devRef .tc main_arg15) _ _ (List.forall_iff_forall_mem.mp (by
      simp only [ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat0_main_arg15 m c)

theorem rat1_main_arg16 (c : Dev nD) : (after (ops0 (F := Ideal)) (launchContents m c)) (Proc.devRef .tc main_arg16) = m ((c.tc : Thread nD τ).loc main_arg16) :=
  (StableHlo.after_of_forall_not_mem (b := Proc.devRef .tc main_arg16) _ _ (List.forall_iff_forall_mem.mp (by
      simp only [ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat0_main_arg16 m c)

theorem rat1_main_arg17 (c : Dev nD) : (after (ops0 (F := Ideal)) (launchContents m c)) (Proc.devRef .tc main_arg17) = m ((c.tc : Thread nD τ).loc main_arg17) :=
  (StableHlo.after_of_forall_not_mem (b := Proc.devRef .tc main_arg17) _ _ (List.forall_iff_forall_mem.mp (by
      simp only [ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat0_main_arg17 m c)

theorem rat1_main_arg1 (c : Dev nD) : (after (ops0 (F := Ideal)) (launchContents m c)) (Proc.devRef .tc main_arg1) = m ((c.tc : Thread nD τ).loc main_arg1) :=
  (StableHlo.after_of_forall_not_mem (b := Proc.devRef .tc main_arg1) _ _ (List.forall_iff_forall_mem.mp (by
      simp only [ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat0_main_arg1 m c)

/-! ## After 2 chunks -/

theorem rat2_main_arg0 (c : Dev nD) : (after (ops1 (F := Ideal)) (after (ops0 (F := Ideal)) (launchContents m c))) (Proc.devRef .tc main_arg0) = m ((c.tc : Thread nD τ).loc main_arg0) :=
  (StableHlo.after_of_forall_not_mem (b := Proc.devRef .tc main_arg0) _ _ (List.forall_iff_forall_mem.mp (by
      simp only [ops1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat1_main_arg0 m c)

theorem rat2_main_arg6 (c : Dev nD) : (after (ops1 (F := Ideal)) (after (ops0 (F := Ideal)) (launchContents m c))) (Proc.devRef .tc main_arg6) = m ((c.tc : Thread nD τ).loc main_arg6) :=
  (StableHlo.after_of_forall_not_mem (b := Proc.devRef .tc main_arg6) _ _ (List.forall_iff_forall_mem.mp (by
      simp only [ops1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat1_main_arg6 m c)

theorem rat2_main_v3 (c : Dev nD) : (after (ops1 (F := Ideal)) (after (ops0 (F := Ideal)) (launchContents m c))) (Proc.devRef .tc main_v3) = ReadP.val_main_v3 (F := Ideal) (m ((c.tc : Thread nD τ).loc main_arg1)) :=
  (StableHlo.after_of_forall_not_mem (b := Proc.devRef .tc main_v3) _ _ (List.forall_iff_forall_mem.mp (by
      simp only [ops1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat1_main_v3 m c)

theorem rat2_main_v30 (c : Dev nD) : (after (ops1 (F := Ideal)) (after (ops0 (F := Ideal)) (launchContents m c))) (Proc.devRef .tc main_v30) = ReadP.val_main_v30 (F := Ideal) (m ((c.tc : Thread nD τ).loc main_arg1)) :=
  (loc_main_v30 (after (ops0 (F := Ideal)) (launchContents m c))).trans (by rw [rat1_main_v12 m c, rat1_main_v14 m c, rat1_main_call0_v0 m c, rat1_main_v3 m c, rat1_main_v6 m c]; rfl)

theorem rat2_main_v6 (c : Dev nD) : (after (ops1 (F := Ideal)) (after (ops0 (F := Ideal)) (launchContents m c))) (Proc.devRef .tc main_v6) = ReadP.val_main_v6 (F := Ideal) (m ((c.tc : Thread nD τ).loc main_arg1)) :=
  (StableHlo.after_of_forall_not_mem (b := Proc.devRef .tc main_v6) _ _ (List.forall_iff_forall_mem.mp (by
      simp only [ops1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat1_main_v6 m c)

theorem rat2_main_arg7 (c : Dev nD) : (after (ops1 (F := Ideal)) (after (ops0 (F := Ideal)) (launchContents m c))) (Proc.devRef .tc main_arg7) = m ((c.tc : Thread nD τ).loc main_arg7) :=
  (StableHlo.after_of_forall_not_mem (b := Proc.devRef .tc main_arg7) _ _ (List.forall_iff_forall_mem.mp (by
      simp only [ops1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat1_main_arg7 m c)

theorem rat2_main_arg8 (c : Dev nD) : (after (ops1 (F := Ideal)) (after (ops0 (F := Ideal)) (launchContents m c))) (Proc.devRef .tc main_arg8) = m ((c.tc : Thread nD τ).loc main_arg8) :=
  (StableHlo.after_of_forall_not_mem (b := Proc.devRef .tc main_arg8) _ _ (List.forall_iff_forall_mem.mp (by
      simp only [ops1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat1_main_arg8 m c)

theorem rat2_main_arg9 (c : Dev nD) : (after (ops1 (F := Ideal)) (after (ops0 (F := Ideal)) (launchContents m c))) (Proc.devRef .tc main_arg9) = m ((c.tc : Thread nD τ).loc main_arg9) :=
  (StableHlo.after_of_forall_not_mem (b := Proc.devRef .tc main_arg9) _ _ (List.forall_iff_forall_mem.mp (by
      simp only [ops1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat1_main_arg9 m c)

theorem rat2_main_arg10 (c : Dev nD) : (after (ops1 (F := Ideal)) (after (ops0 (F := Ideal)) (launchContents m c))) (Proc.devRef .tc main_arg10) = m ((c.tc : Thread nD τ).loc main_arg10) :=
  (StableHlo.after_of_forall_not_mem (b := Proc.devRef .tc main_arg10) _ _ (List.forall_iff_forall_mem.mp (by
      simp only [ops1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat1_main_arg10 m c)

theorem rat2_main_arg11 (c : Dev nD) : (after (ops1 (F := Ideal)) (after (ops0 (F := Ideal)) (launchContents m c))) (Proc.devRef .tc main_arg11) = m ((c.tc : Thread nD τ).loc main_arg11) :=
  (StableHlo.after_of_forall_not_mem (b := Proc.devRef .tc main_arg11) _ _ (List.forall_iff_forall_mem.mp (by
      simp only [ops1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat1_main_arg11 m c)

theorem rat2_main_arg2 (c : Dev nD) : (after (ops1 (F := Ideal)) (after (ops0 (F := Ideal)) (launchContents m c))) (Proc.devRef .tc main_arg2) = m ((c.tc : Thread nD τ).loc main_arg2) :=
  (StableHlo.after_of_forall_not_mem (b := Proc.devRef .tc main_arg2) _ _ (List.forall_iff_forall_mem.mp (by
      simp only [ops1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat1_main_arg2 m c)

theorem rat2_main_arg3 (c : Dev nD) : (after (ops1 (F := Ideal)) (after (ops0 (F := Ideal)) (launchContents m c))) (Proc.devRef .tc main_arg3) = m ((c.tc : Thread nD τ).loc main_arg3) :=
  (StableHlo.after_of_forall_not_mem (b := Proc.devRef .tc main_arg3) _ _ (List.forall_iff_forall_mem.mp (by
      simp only [ops1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat1_main_arg3 m c)

theorem rat2_main_arg4 (c : Dev nD) : (after (ops1 (F := Ideal)) (after (ops0 (F := Ideal)) (launchContents m c))) (Proc.devRef .tc main_arg4) = m ((c.tc : Thread nD τ).loc main_arg4) :=
  (StableHlo.after_of_forall_not_mem (b := Proc.devRef .tc main_arg4) _ _ (List.forall_iff_forall_mem.mp (by
      simp only [ops1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat1_main_arg4 m c)

theorem rat2_main_arg5 (c : Dev nD) : (after (ops1 (F := Ideal)) (after (ops0 (F := Ideal)) (launchContents m c))) (Proc.devRef .tc main_arg5) = m ((c.tc : Thread nD τ).loc main_arg5) :=
  (StableHlo.after_of_forall_not_mem (b := Proc.devRef .tc main_arg5) _ _ (List.forall_iff_forall_mem.mp (by
      simp only [ops1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat1_main_arg5 m c)

theorem rat2_main_arg12 (c : Dev nD) : (after (ops1 (F := Ideal)) (after (ops0 (F := Ideal)) (launchContents m c))) (Proc.devRef .tc main_arg12) = m ((c.tc : Thread nD τ).loc main_arg12) :=
  (StableHlo.after_of_forall_not_mem (b := Proc.devRef .tc main_arg12) _ _ (List.forall_iff_forall_mem.mp (by
      simp only [ops1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat1_main_arg12 m c)

theorem rat2_main_arg13 (c : Dev nD) : (after (ops1 (F := Ideal)) (after (ops0 (F := Ideal)) (launchContents m c))) (Proc.devRef .tc main_arg13) = m ((c.tc : Thread nD τ).loc main_arg13) :=
  (StableHlo.after_of_forall_not_mem (b := Proc.devRef .tc main_arg13) _ _ (List.forall_iff_forall_mem.mp (by
      simp only [ops1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat1_main_arg13 m c)

theorem rat2_main_arg14 (c : Dev nD) : (after (ops1 (F := Ideal)) (after (ops0 (F := Ideal)) (launchContents m c))) (Proc.devRef .tc main_arg14) = m ((c.tc : Thread nD τ).loc main_arg14) :=
  (StableHlo.after_of_forall_not_mem (b := Proc.devRef .tc main_arg14) _ _ (List.forall_iff_forall_mem.mp (by
      simp only [ops1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat1_main_arg14 m c)

theorem rat2_main_arg15 (c : Dev nD) : (after (ops1 (F := Ideal)) (after (ops0 (F := Ideal)) (launchContents m c))) (Proc.devRef .tc main_arg15) = m ((c.tc : Thread nD τ).loc main_arg15) :=
  (StableHlo.after_of_forall_not_mem (b := Proc.devRef .tc main_arg15) _ _ (List.forall_iff_forall_mem.mp (by
      simp only [ops1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat1_main_arg15 m c)

theorem rat2_main_arg16 (c : Dev nD) : (after (ops1 (F := Ideal)) (after (ops0 (F := Ideal)) (launchContents m c))) (Proc.devRef .tc main_arg16) = m ((c.tc : Thread nD τ).loc main_arg16) :=
  (StableHlo.after_of_forall_not_mem (b := Proc.devRef .tc main_arg16) _ _ (List.forall_iff_forall_mem.mp (by
      simp only [ops1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat1_main_arg16 m c)

theorem rat2_main_arg17 (c : Dev nD) : (after (ops1 (F := Ideal)) (after (ops0 (F := Ideal)) (launchContents m c))) (Proc.devRef .tc main_arg17) = m ((c.tc : Thread nD τ).loc main_arg17) :=
  (StableHlo.after_of_forall_not_mem (b := Proc.devRef .tc main_arg17) _ _ (List.forall_iff_forall_mem.mp (by
      simp only [ops1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat1_main_arg17 m c)

theorem rat2_main_arg1 (c : Dev nD) : (after (ops1 (F := Ideal)) (after (ops0 (F := Ideal)) (launchContents m c))) (Proc.devRef .tc main_arg1) = m ((c.tc : Thread nD τ).loc main_arg1) :=
  (StableHlo.after_of_forall_not_mem (b := Proc.devRef .tc main_arg1) _ _ (List.forall_iff_forall_mem.mp (by
      simp only [ops1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat1_main_arg1 m c)

/-! ## After 3 chunks -/

theorem rat3_main_call1_cst (c : Dev nD) : (after (ops2 (F := Ideal)) (after (ops1 (F := Ideal)) (after (ops0 (F := Ideal)) (launchContents m c)))) (Proc.devRef .tc main_call1_cst) = ReadP.val_main_call1_cst (F := Ideal) :=
  (loc_main_call1_cst (after (ops1 (F := Ideal)) (after (ops0 (F := Ideal)) (launchContents m c)))).trans (by rfl)

theorem rat3_main_v47 (c : Dev nD) : (after (ops2 (F := Ideal)) (after (ops1 (F := Ideal)) (after (ops0 (F := Ideal)) (launchContents m c)))) (Proc.devRef .tc main_v47) = ReadP.val_main_v47 (F := Ideal) (m ((c.tc : Thread nD τ).loc main_arg0)) (m ((c.tc : Thread nD τ).loc main_arg1)) (m ((c.tc : Thread nD τ).loc main_arg6)) (m ((c.tc : Thread nD τ).loc main_arg7)) :=
  (loc_main_v47 (after (ops1 (F := Ideal)) (after (ops0 (F := Ideal)) (launchContents m c)))).trans (by rw [rat2_main_v6 m c, rat2_main_arg0 m c, rat2_main_arg6 m c, rat2_main_v3 m c, rat2_main_v30 m c, rat2_main_arg7 m c]; rfl)

theorem rat3_main_arg8 (c : Dev nD) : (after (ops2 (F := Ideal)) (after (ops1 (F := Ideal)) (after (ops0 (F := Ideal)) (launchContents m c)))) (Proc.devRef .tc main_arg8) = m ((c.tc : Thread nD τ).loc main_arg8) :=
  (StableHlo.after_of_forall_not_mem (b := Proc.devRef .tc main_arg8) _ _ (List.forall_iff_forall_mem.mp (by
      simp only [ops2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat2_main_arg8 m c)

theorem rat3_main_v3 (c : Dev nD) : (after (ops2 (F := Ideal)) (after (ops1 (F := Ideal)) (after (ops0 (F := Ideal)) (launchContents m c)))) (Proc.devRef .tc main_v3) = ReadP.val_main_v3 (F := Ideal) (m ((c.tc : Thread nD τ).loc main_arg1)) :=
  (StableHlo.after_of_forall_not_mem (b := Proc.devRef .tc main_v3) _ _ (List.forall_iff_forall_mem.mp (by
      simp only [ops2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat2_main_v3 m c)

theorem rat3_main_v30 (c : Dev nD) : (after (ops2 (F := Ideal)) (after (ops1 (F := Ideal)) (after (ops0 (F := Ideal)) (launchContents m c)))) (Proc.devRef .tc main_v30) = ReadP.val_main_v30 (F := Ideal) (m ((c.tc : Thread nD τ).loc main_arg1)) :=
  (StableHlo.after_of_forall_not_mem (b := Proc.devRef .tc main_v30) _ _ (List.forall_iff_forall_mem.mp (by
      simp only [ops2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat2_main_v30 m c)

theorem rat3_main_v6 (c : Dev nD) : (after (ops2 (F := Ideal)) (after (ops1 (F := Ideal)) (after (ops0 (F := Ideal)) (launchContents m c)))) (Proc.devRef .tc main_v6) = ReadP.val_main_v6 (F := Ideal) (m ((c.tc : Thread nD τ).loc main_arg1)) :=
  (StableHlo.after_of_forall_not_mem (b := Proc.devRef .tc main_v6) _ _ (List.forall_iff_forall_mem.mp (by
      simp only [ops2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat2_main_v6 m c)

theorem rat3_main_arg9 (c : Dev nD) : (after (ops2 (F := Ideal)) (after (ops1 (F := Ideal)) (after (ops0 (F := Ideal)) (launchContents m c)))) (Proc.devRef .tc main_arg9) = m ((c.tc : Thread nD τ).loc main_arg9) :=
  (StableHlo.after_of_forall_not_mem (b := Proc.devRef .tc main_arg9) _ _ (List.forall_iff_forall_mem.mp (by
      simp only [ops2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat2_main_arg9 m c)

theorem rat3_main_arg10 (c : Dev nD) : (after (ops2 (F := Ideal)) (after (ops1 (F := Ideal)) (after (ops0 (F := Ideal)) (launchContents m c)))) (Proc.devRef .tc main_arg10) = m ((c.tc : Thread nD τ).loc main_arg10) :=
  (StableHlo.after_of_forall_not_mem (b := Proc.devRef .tc main_arg10) _ _ (List.forall_iff_forall_mem.mp (by
      simp only [ops2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat2_main_arg10 m c)

theorem rat3_main_arg11 (c : Dev nD) : (after (ops2 (F := Ideal)) (after (ops1 (F := Ideal)) (after (ops0 (F := Ideal)) (launchContents m c)))) (Proc.devRef .tc main_arg11) = m ((c.tc : Thread nD τ).loc main_arg11) :=
  (StableHlo.after_of_forall_not_mem (b := Proc.devRef .tc main_arg11) _ _ (List.forall_iff_forall_mem.mp (by
      simp only [ops2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat2_main_arg11 m c)

theorem rat3_main_arg0 (c : Dev nD) : (after (ops2 (F := Ideal)) (after (ops1 (F := Ideal)) (after (ops0 (F := Ideal)) (launchContents m c)))) (Proc.devRef .tc main_arg0) = m ((c.tc : Thread nD τ).loc main_arg0) :=
  (StableHlo.after_of_forall_not_mem (b := Proc.devRef .tc main_arg0) _ _ (List.forall_iff_forall_mem.mp (by
      simp only [ops2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat2_main_arg0 m c)

theorem rat3_main_arg2 (c : Dev nD) : (after (ops2 (F := Ideal)) (after (ops1 (F := Ideal)) (after (ops0 (F := Ideal)) (launchContents m c)))) (Proc.devRef .tc main_arg2) = m ((c.tc : Thread nD τ).loc main_arg2) :=
  (StableHlo.after_of_forall_not_mem (b := Proc.devRef .tc main_arg2) _ _ (List.forall_iff_forall_mem.mp (by
      simp only [ops2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat2_main_arg2 m c)

theorem rat3_main_arg3 (c : Dev nD) : (after (ops2 (F := Ideal)) (after (ops1 (F := Ideal)) (after (ops0 (F := Ideal)) (launchContents m c)))) (Proc.devRef .tc main_arg3) = m ((c.tc : Thread nD τ).loc main_arg3) :=
  (StableHlo.after_of_forall_not_mem (b := Proc.devRef .tc main_arg3) _ _ (List.forall_iff_forall_mem.mp (by
      simp only [ops2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat2_main_arg3 m c)

theorem rat3_main_arg4 (c : Dev nD) : (after (ops2 (F := Ideal)) (after (ops1 (F := Ideal)) (after (ops0 (F := Ideal)) (launchContents m c)))) (Proc.devRef .tc main_arg4) = m ((c.tc : Thread nD τ).loc main_arg4) :=
  (StableHlo.after_of_forall_not_mem (b := Proc.devRef .tc main_arg4) _ _ (List.forall_iff_forall_mem.mp (by
      simp only [ops2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat2_main_arg4 m c)

theorem rat3_main_arg5 (c : Dev nD) : (after (ops2 (F := Ideal)) (after (ops1 (F := Ideal)) (after (ops0 (F := Ideal)) (launchContents m c)))) (Proc.devRef .tc main_arg5) = m ((c.tc : Thread nD τ).loc main_arg5) :=
  (StableHlo.after_of_forall_not_mem (b := Proc.devRef .tc main_arg5) _ _ (List.forall_iff_forall_mem.mp (by
      simp only [ops2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat2_main_arg5 m c)

theorem rat3_main_arg12 (c : Dev nD) : (after (ops2 (F := Ideal)) (after (ops1 (F := Ideal)) (after (ops0 (F := Ideal)) (launchContents m c)))) (Proc.devRef .tc main_arg12) = m ((c.tc : Thread nD τ).loc main_arg12) :=
  (StableHlo.after_of_forall_not_mem (b := Proc.devRef .tc main_arg12) _ _ (List.forall_iff_forall_mem.mp (by
      simp only [ops2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat2_main_arg12 m c)

theorem rat3_main_arg13 (c : Dev nD) : (after (ops2 (F := Ideal)) (after (ops1 (F := Ideal)) (after (ops0 (F := Ideal)) (launchContents m c)))) (Proc.devRef .tc main_arg13) = m ((c.tc : Thread nD τ).loc main_arg13) :=
  (StableHlo.after_of_forall_not_mem (b := Proc.devRef .tc main_arg13) _ _ (List.forall_iff_forall_mem.mp (by
      simp only [ops2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat2_main_arg13 m c)

theorem rat3_main_arg14 (c : Dev nD) : (after (ops2 (F := Ideal)) (after (ops1 (F := Ideal)) (after (ops0 (F := Ideal)) (launchContents m c)))) (Proc.devRef .tc main_arg14) = m ((c.tc : Thread nD τ).loc main_arg14) :=
  (StableHlo.after_of_forall_not_mem (b := Proc.devRef .tc main_arg14) _ _ (List.forall_iff_forall_mem.mp (by
      simp only [ops2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat2_main_arg14 m c)

theorem rat3_main_arg15 (c : Dev nD) : (after (ops2 (F := Ideal)) (after (ops1 (F := Ideal)) (after (ops0 (F := Ideal)) (launchContents m c)))) (Proc.devRef .tc main_arg15) = m ((c.tc : Thread nD τ).loc main_arg15) :=
  (StableHlo.after_of_forall_not_mem (b := Proc.devRef .tc main_arg15) _ _ (List.forall_iff_forall_mem.mp (by
      simp only [ops2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat2_main_arg15 m c)

theorem rat3_main_arg16 (c : Dev nD) : (after (ops2 (F := Ideal)) (after (ops1 (F := Ideal)) (after (ops0 (F := Ideal)) (launchContents m c)))) (Proc.devRef .tc main_arg16) = m ((c.tc : Thread nD τ).loc main_arg16) :=
  (StableHlo.after_of_forall_not_mem (b := Proc.devRef .tc main_arg16) _ _ (List.forall_iff_forall_mem.mp (by
      simp only [ops2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat2_main_arg16 m c)

theorem rat3_main_arg17 (c : Dev nD) : (after (ops2 (F := Ideal)) (after (ops1 (F := Ideal)) (after (ops0 (F := Ideal)) (launchContents m c)))) (Proc.devRef .tc main_arg17) = m ((c.tc : Thread nD τ).loc main_arg17) :=
  (StableHlo.after_of_forall_not_mem (b := Proc.devRef .tc main_arg17) _ _ (List.forall_iff_forall_mem.mp (by
      simp only [ops2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat2_main_arg17 m c)

theorem rat3_main_arg1 (c : Dev nD) : (after (ops2 (F := Ideal)) (after (ops1 (F := Ideal)) (after (ops0 (F := Ideal)) (launchContents m c)))) (Proc.devRef .tc main_arg1) = m ((c.tc : Thread nD τ).loc main_arg1) :=
  (StableHlo.after_of_forall_not_mem (b := Proc.devRef .tc main_arg1) _ _ (List.forall_iff_forall_mem.mp (by
      simp only [ops2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat2_main_arg1 m c)

theorem rat3_main_arg6 (c : Dev nD) : (after (ops2 (F := Ideal)) (after (ops1 (F := Ideal)) (after (ops0 (F := Ideal)) (launchContents m c)))) (Proc.devRef .tc main_arg6) = m ((c.tc : Thread nD τ).loc main_arg6) :=
  (StableHlo.after_of_forall_not_mem (b := Proc.devRef .tc main_arg6) _ _ (List.forall_iff_forall_mem.mp (by
      simp only [ops2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat2_main_arg6 m c)

theorem rat3_main_arg7 (c : Dev nD) : (after (ops2 (F := Ideal)) (after (ops1 (F := Ideal)) (after (ops0 (F := Ideal)) (launchContents m c)))) (Proc.devRef .tc main_arg7) = m ((c.tc : Thread nD τ).loc main_arg7) :=
  (StableHlo.after_of_forall_not_mem (b := Proc.devRef .tc main_arg7) _ _ (List.forall_iff_forall_mem.mp (by
      simp only [ops2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat2_main_arg7 m c)

/-! ## After 4 chunks -/

theorem rat4_main_v62 (c : Dev nD) : (after (ops3 (F := Ideal)) (after (ops2 (F := Ideal)) (after (ops1 (F := Ideal)) (after (ops0 (F := Ideal)) (launchContents m c))))) (Proc.devRef .tc main_v62) = ReadP.val_main_v62 (F := Ideal) (m ((c.tc : Thread nD τ).loc main_arg0)) (m ((c.tc : Thread nD τ).loc main_arg1)) (m ((c.tc : Thread nD τ).loc main_arg6)) (m ((c.tc : Thread nD τ).loc main_arg7)) (m ((c.tc : Thread nD τ).loc main_arg8)) :=
  (loc_main_v62 (after (ops2 (F := Ideal)) (after (ops1 (F := Ideal)) (after (ops0 (F := Ideal)) (launchContents m c))))).trans (by rw [rat3_main_v6 m c, rat3_main_v47 m c, rat3_main_call1_cst m c, rat3_main_arg8 m c, rat3_main_v3 m c, rat3_main_v30 m c]; rfl)

theorem rat4_main_v64 (c : Dev nD) : (after (ops3 (F := Ideal)) (after (ops2 (F := Ideal)) (after (ops1 (F := Ideal)) (after (ops0 (F := Ideal)) (launchContents m c))))) (Proc.devRef .tc main_v64) = ReadP.val_main_v64 (F := Ideal) (m ((c.tc : Thread nD τ).loc main_arg9)) :=
  (loc_main_v64 (after (ops2 (F := Ideal)) (after (ops1 (F := Ideal)) (after (ops0 (F := Ideal)) (launchContents m c))))).trans (by rw [rat3_main_arg9 m c]; rfl)

theorem rat4_main_arg10 (c : Dev nD) : (after (ops3 (F := Ideal)) (after (ops2 (F := Ideal)) (after (ops1 (F := Ideal)) (after (ops0 (F := Ideal)) (launchContents m c))))) (Proc.devRef .tc main_arg10) = m ((c.tc : Thread nD τ).loc main_arg10) :=
  (StableHlo.after_of_forall_not_mem (b := Proc.devRef .tc main_arg10) _ _ (List.forall_iff_forall_mem.mp (by
      simp only [ops3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat3_main_arg10 m c)

theorem rat4_main_v3 (c : Dev nD) : (after (ops3 (F := Ideal)) (after (ops2 (F := Ideal)) (after (ops1 (F := Ideal)) (after (ops0 (F := Ideal)) (launchContents m c))))) (Proc.devRef .tc main_v3) = ReadP.val_main_v3 (F := Ideal) (m ((c.tc : Thread nD τ).loc main_arg1)) :=
  (StableHlo.after_of_forall_not_mem (b := Proc.devRef .tc main_v3) _ _ (List.forall_iff_forall_mem.mp (by
      simp only [ops3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat3_main_v3 m c)

theorem rat4_main_v30 (c : Dev nD) : (after (ops3 (F := Ideal)) (after (ops2 (F := Ideal)) (after (ops1 (F := Ideal)) (after (ops0 (F := Ideal)) (launchContents m c))))) (Proc.devRef .tc main_v30) = ReadP.val_main_v30 (F := Ideal) (m ((c.tc : Thread nD τ).loc main_arg1)) :=
  (StableHlo.after_of_forall_not_mem (b := Proc.devRef .tc main_v30) _ _ (List.forall_iff_forall_mem.mp (by
      simp only [ops3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat3_main_v30 m c)

theorem rat4_main_v6 (c : Dev nD) : (after (ops3 (F := Ideal)) (after (ops2 (F := Ideal)) (after (ops1 (F := Ideal)) (after (ops0 (F := Ideal)) (launchContents m c))))) (Proc.devRef .tc main_v6) = ReadP.val_main_v6 (F := Ideal) (m ((c.tc : Thread nD τ).loc main_arg1)) :=
  (StableHlo.after_of_forall_not_mem (b := Proc.devRef .tc main_v6) _ _ (List.forall_iff_forall_mem.mp (by
      simp only [ops3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat3_main_v6 m c)

theorem rat4_main_arg11 (c : Dev nD) : (after (ops3 (F := Ideal)) (after (ops2 (F := Ideal)) (after (ops1 (F := Ideal)) (after (ops0 (F := Ideal)) (launchContents m c))))) (Proc.devRef .tc main_arg11) = m ((c.tc : Thread nD τ).loc main_arg11) :=
  (StableHlo.after_of_forall_not_mem (b := Proc.devRef .tc main_arg11) _ _ (List.forall_iff_forall_mem.mp (by
      simp only [ops3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat3_main_arg11 m c)

theorem rat4_main_arg0 (c : Dev nD) : (after (ops3 (F := Ideal)) (after (ops2 (F := Ideal)) (after (ops1 (F := Ideal)) (after (ops0 (F := Ideal)) (launchContents m c))))) (Proc.devRef .tc main_arg0) = m ((c.tc : Thread nD τ).loc main_arg0) :=
  (StableHlo.after_of_forall_not_mem (b := Proc.devRef .tc main_arg0) _ _ (List.forall_iff_forall_mem.mp (by
      simp only [ops3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat3_main_arg0 m c)

theorem rat4_main_arg2 (c : Dev nD) : (after (ops3 (F := Ideal)) (after (ops2 (F := Ideal)) (after (ops1 (F := Ideal)) (after (ops0 (F := Ideal)) (launchContents m c))))) (Proc.devRef .tc main_arg2) = m ((c.tc : Thread nD τ).loc main_arg2) :=
  (StableHlo.after_of_forall_not_mem (b := Proc.devRef .tc main_arg2) _ _ (List.forall_iff_forall_mem.mp (by
      simp only [ops3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat3_main_arg2 m c)

theorem rat4_main_arg3 (c : Dev nD) : (after (ops3 (F := Ideal)) (after (ops2 (F := Ideal)) (after (ops1 (F := Ideal)) (after (ops0 (F := Ideal)) (launchContents m c))))) (Proc.devRef .tc main_arg3) = m ((c.tc : Thread nD τ).loc main_arg3) :=
  (StableHlo.after_of_forall_not_mem (b := Proc.devRef .tc main_arg3) _ _ (List.forall_iff_forall_mem.mp (by
      simp only [ops3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat3_main_arg3 m c)

theorem rat4_main_arg4 (c : Dev nD) : (after (ops3 (F := Ideal)) (after (ops2 (F := Ideal)) (after (ops1 (F := Ideal)) (after (ops0 (F := Ideal)) (launchContents m c))))) (Proc.devRef .tc main_arg4) = m ((c.tc : Thread nD τ).loc main_arg4) :=
  (StableHlo.after_of_forall_not_mem (b := Proc.devRef .tc main_arg4) _ _ (List.forall_iff_forall_mem.mp (by
      simp only [ops3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat3_main_arg4 m c)

theorem rat4_main_arg5 (c : Dev nD) : (after (ops3 (F := Ideal)) (after (ops2 (F := Ideal)) (after (ops1 (F := Ideal)) (after (ops0 (F := Ideal)) (launchContents m c))))) (Proc.devRef .tc main_arg5) = m ((c.tc : Thread nD τ).loc main_arg5) :=
  (StableHlo.after_of_forall_not_mem (b := Proc.devRef .tc main_arg5) _ _ (List.forall_iff_forall_mem.mp (by
      simp only [ops3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat3_main_arg5 m c)

theorem rat4_main_arg12 (c : Dev nD) : (after (ops3 (F := Ideal)) (after (ops2 (F := Ideal)) (after (ops1 (F := Ideal)) (after (ops0 (F := Ideal)) (launchContents m c))))) (Proc.devRef .tc main_arg12) = m ((c.tc : Thread nD τ).loc main_arg12) :=
  (StableHlo.after_of_forall_not_mem (b := Proc.devRef .tc main_arg12) _ _ (List.forall_iff_forall_mem.mp (by
      simp only [ops3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat3_main_arg12 m c)

theorem rat4_main_arg13 (c : Dev nD) : (after (ops3 (F := Ideal)) (after (ops2 (F := Ideal)) (after (ops1 (F := Ideal)) (after (ops0 (F := Ideal)) (launchContents m c))))) (Proc.devRef .tc main_arg13) = m ((c.tc : Thread nD τ).loc main_arg13) :=
  (StableHlo.after_of_forall_not_mem (b := Proc.devRef .tc main_arg13) _ _ (List.forall_iff_forall_mem.mp (by
      simp only [ops3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat3_main_arg13 m c)

theorem rat4_main_arg14 (c : Dev nD) : (after (ops3 (F := Ideal)) (after (ops2 (F := Ideal)) (after (ops1 (F := Ideal)) (after (ops0 (F := Ideal)) (launchContents m c))))) (Proc.devRef .tc main_arg14) = m ((c.tc : Thread nD τ).loc main_arg14) :=
  (StableHlo.after_of_forall_not_mem (b := Proc.devRef .tc main_arg14) _ _ (List.forall_iff_forall_mem.mp (by
      simp only [ops3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat3_main_arg14 m c)

theorem rat4_main_arg15 (c : Dev nD) : (after (ops3 (F := Ideal)) (after (ops2 (F := Ideal)) (after (ops1 (F := Ideal)) (after (ops0 (F := Ideal)) (launchContents m c))))) (Proc.devRef .tc main_arg15) = m ((c.tc : Thread nD τ).loc main_arg15) :=
  (StableHlo.after_of_forall_not_mem (b := Proc.devRef .tc main_arg15) _ _ (List.forall_iff_forall_mem.mp (by
      simp only [ops3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat3_main_arg15 m c)

theorem rat4_main_arg16 (c : Dev nD) : (after (ops3 (F := Ideal)) (after (ops2 (F := Ideal)) (after (ops1 (F := Ideal)) (after (ops0 (F := Ideal)) (launchContents m c))))) (Proc.devRef .tc main_arg16) = m ((c.tc : Thread nD τ).loc main_arg16) :=
  (StableHlo.after_of_forall_not_mem (b := Proc.devRef .tc main_arg16) _ _ (List.forall_iff_forall_mem.mp (by
      simp only [ops3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat3_main_arg16 m c)

theorem rat4_main_arg17 (c : Dev nD) : (after (ops3 (F := Ideal)) (after (ops2 (F := Ideal)) (after (ops1 (F := Ideal)) (after (ops0 (F := Ideal)) (launchContents m c))))) (Proc.devRef .tc main_arg17) = m ((c.tc : Thread nD τ).loc main_arg17) :=
  (StableHlo.after_of_forall_not_mem (b := Proc.devRef .tc main_arg17) _ _ (List.forall_iff_forall_mem.mp (by
      simp only [ops3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat3_main_arg17 m c)

theorem rat4_main_arg1 (c : Dev nD) : (after (ops3 (F := Ideal)) (after (ops2 (F := Ideal)) (after (ops1 (F := Ideal)) (after (ops0 (F := Ideal)) (launchContents m c))))) (Proc.devRef .tc main_arg1) = m ((c.tc : Thread nD τ).loc main_arg1) :=
  (StableHlo.after_of_forall_not_mem (b := Proc.devRef .tc main_arg1) _ _ (List.forall_iff_forall_mem.mp (by
      simp only [ops3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat3_main_arg1 m c)

theorem rat4_main_arg6 (c : Dev nD) : (after (ops3 (F := Ideal)) (after (ops2 (F := Ideal)) (after (ops1 (F := Ideal)) (after (ops0 (F := Ideal)) (launchContents m c))))) (Proc.devRef .tc main_arg6) = m ((c.tc : Thread nD τ).loc main_arg6) :=
  (StableHlo.after_of_forall_not_mem (b := Proc.devRef .tc main_arg6) _ _ (List.forall_iff_forall_mem.mp (by
      simp only [ops3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat3_main_arg6 m c)

theorem rat4_main_arg7 (c : Dev nD) : (after (ops3 (F := Ideal)) (after (ops2 (F := Ideal)) (after (ops1 (F := Ideal)) (after (ops0 (F := Ideal)) (launchContents m c))))) (Proc.devRef .tc main_arg7) = m ((c.tc : Thread nD τ).loc main_arg7) :=
  (StableHlo.after_of_forall_not_mem (b := Proc.devRef .tc main_arg7) _ _ (List.forall_iff_forall_mem.mp (by
      simp only [ops3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat3_main_arg7 m c)

theorem rat4_main_arg8 (c : Dev nD) : (after (ops3 (F := Ideal)) (after (ops2 (F := Ideal)) (after (ops1 (F := Ideal)) (after (ops0 (F := Ideal)) (launchContents m c))))) (Proc.devRef .tc main_arg8) = m ((c.tc : Thread nD τ).loc main_arg8) :=
  (StableHlo.after_of_forall_not_mem (b := Proc.devRef .tc main_arg8) _ _ (List.forall_iff_forall_mem.mp (by
      simp only [ops3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat3_main_arg8 m c)

theorem rat4_main_arg9 (c : Dev nD) : (after (ops3 (F := Ideal)) (after (ops2 (F := Ideal)) (after (ops1 (F := Ideal)) (after (ops0 (F := Ideal)) (launchContents m c))))) (Proc.devRef .tc main_arg9) = m ((c.tc : Thread nD τ).loc main_arg9) :=
  (StableHlo.after_of_forall_not_mem (b := Proc.devRef .tc main_arg9) _ _ (List.forall_iff_forall_mem.mp (by
      simp only [ops3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat3_main_arg9 m c)

/-! ## After 5 chunks -/

theorem rat5_main_arg11 (c : Dev nD) : (after (ops4 (F := Ideal)) (after (ops3 (F := Ideal)) (after (ops2 (F := Ideal)) (after (ops1 (F := Ideal)) (after (ops0 (F := Ideal)) (launchContents m c)))))) (Proc.devRef .tc main_arg11) = m ((c.tc : Thread nD τ).loc main_arg11) :=
  (StableHlo.after_of_forall_not_mem (b := Proc.devRef .tc main_arg11) _ _ (List.forall_iff_forall_mem.mp (by
      simp only [ops4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat4_main_arg11 m c)

theorem rat5_main_v80 (c : Dev nD) : (after (ops4 (F := Ideal)) (after (ops3 (F := Ideal)) (after (ops2 (F := Ideal)) (after (ops1 (F := Ideal)) (after (ops0 (F := Ideal)) (launchContents m c)))))) (Proc.devRef .tc main_v80) = ReadP.val_main_v80 (F := Ideal) (m ((c.tc : Thread nD τ).loc main_arg0)) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (loc_main_v80 (after (ops3 (F := Ideal)) (after (ops2 (F := Ideal)) (after (ops1 (F := Ideal)) (after (ops0 (F := Ideal)) (launchContents m c)))))).trans (by rw [rat4_main_v6 m c, rat4_main_v62 m c, rat4_main_v64 m c, rat4_main_arg10 m c, rat4_main_v3 m c, rat4_main_v30 m c]; rfl)

theorem rat5_main_arg0 (c : Dev nD) : (after (ops4 (F := Ideal)) (after (ops3 (F := Ideal)) (after (ops2 (F := Ideal)) (after (ops1 (F := Ideal)) (after (ops0 (F := Ideal)) (launchContents m c)))))) (Proc.devRef .tc main_arg0) = m ((c.tc : Thread nD τ).loc main_arg0) :=
  (StableHlo.after_of_forall_not_mem (b := Proc.devRef .tc main_arg0) _ _ (List.forall_iff_forall_mem.mp (by
      simp only [ops4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat4_main_arg0 m c)

theorem rat5_main_arg2 (c : Dev nD) : (after (ops4 (F := Ideal)) (after (ops3 (F := Ideal)) (after (ops2 (F := Ideal)) (after (ops1 (F := Ideal)) (after (ops0 (F := Ideal)) (launchContents m c)))))) (Proc.devRef .tc main_arg2) = m ((c.tc : Thread nD τ).loc main_arg2) :=
  (StableHlo.after_of_forall_not_mem (b := Proc.devRef .tc main_arg2) _ _ (List.forall_iff_forall_mem.mp (by
      simp only [ops4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat4_main_arg2 m c)

theorem rat5_main_arg3 (c : Dev nD) : (after (ops4 (F := Ideal)) (after (ops3 (F := Ideal)) (after (ops2 (F := Ideal)) (after (ops1 (F := Ideal)) (after (ops0 (F := Ideal)) (launchContents m c)))))) (Proc.devRef .tc main_arg3) = m ((c.tc : Thread nD τ).loc main_arg3) :=
  (StableHlo.after_of_forall_not_mem (b := Proc.devRef .tc main_arg3) _ _ (List.forall_iff_forall_mem.mp (by
      simp only [ops4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat4_main_arg3 m c)

theorem rat5_main_arg4 (c : Dev nD) : (after (ops4 (F := Ideal)) (after (ops3 (F := Ideal)) (after (ops2 (F := Ideal)) (after (ops1 (F := Ideal)) (after (ops0 (F := Ideal)) (launchContents m c)))))) (Proc.devRef .tc main_arg4) = m ((c.tc : Thread nD τ).loc main_arg4) :=
  (StableHlo.after_of_forall_not_mem (b := Proc.devRef .tc main_arg4) _ _ (List.forall_iff_forall_mem.mp (by
      simp only [ops4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat4_main_arg4 m c)

theorem rat5_main_arg5 (c : Dev nD) : (after (ops4 (F := Ideal)) (after (ops3 (F := Ideal)) (after (ops2 (F := Ideal)) (after (ops1 (F := Ideal)) (after (ops0 (F := Ideal)) (launchContents m c)))))) (Proc.devRef .tc main_arg5) = m ((c.tc : Thread nD τ).loc main_arg5) :=
  (StableHlo.after_of_forall_not_mem (b := Proc.devRef .tc main_arg5) _ _ (List.forall_iff_forall_mem.mp (by
      simp only [ops4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat4_main_arg5 m c)

theorem rat5_main_arg12 (c : Dev nD) : (after (ops4 (F := Ideal)) (after (ops3 (F := Ideal)) (after (ops2 (F := Ideal)) (after (ops1 (F := Ideal)) (after (ops0 (F := Ideal)) (launchContents m c)))))) (Proc.devRef .tc main_arg12) = m ((c.tc : Thread nD τ).loc main_arg12) :=
  (StableHlo.after_of_forall_not_mem (b := Proc.devRef .tc main_arg12) _ _ (List.forall_iff_forall_mem.mp (by
      simp only [ops4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat4_main_arg12 m c)

theorem rat5_main_arg13 (c : Dev nD) : (after (ops4 (F := Ideal)) (after (ops3 (F := Ideal)) (after (ops2 (F := Ideal)) (after (ops1 (F := Ideal)) (after (ops0 (F := Ideal)) (launchContents m c)))))) (Proc.devRef .tc main_arg13) = m ((c.tc : Thread nD τ).loc main_arg13) :=
  (StableHlo.after_of_forall_not_mem (b := Proc.devRef .tc main_arg13) _ _ (List.forall_iff_forall_mem.mp (by
      simp only [ops4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat4_main_arg13 m c)

theorem rat5_main_arg14 (c : Dev nD) : (after (ops4 (F := Ideal)) (after (ops3 (F := Ideal)) (after (ops2 (F := Ideal)) (after (ops1 (F := Ideal)) (after (ops0 (F := Ideal)) (launchContents m c)))))) (Proc.devRef .tc main_arg14) = m ((c.tc : Thread nD τ).loc main_arg14) :=
  (StableHlo.after_of_forall_not_mem (b := Proc.devRef .tc main_arg14) _ _ (List.forall_iff_forall_mem.mp (by
      simp only [ops4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat4_main_arg14 m c)

theorem rat5_main_arg15 (c : Dev nD) : (after (ops4 (F := Ideal)) (after (ops3 (F := Ideal)) (after (ops2 (F := Ideal)) (after (ops1 (F := Ideal)) (after (ops0 (F := Ideal)) (launchContents m c)))))) (Proc.devRef .tc main_arg15) = m ((c.tc : Thread nD τ).loc main_arg15) :=
  (StableHlo.after_of_forall_not_mem (b := Proc.devRef .tc main_arg15) _ _ (List.forall_iff_forall_mem.mp (by
      simp only [ops4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat4_main_arg15 m c)

theorem rat5_main_arg16 (c : Dev nD) : (after (ops4 (F := Ideal)) (after (ops3 (F := Ideal)) (after (ops2 (F := Ideal)) (after (ops1 (F := Ideal)) (after (ops0 (F := Ideal)) (launchContents m c)))))) (Proc.devRef .tc main_arg16) = m ((c.tc : Thread nD τ).loc main_arg16) :=
  (StableHlo.after_of_forall_not_mem (b := Proc.devRef .tc main_arg16) _ _ (List.forall_iff_forall_mem.mp (by
      simp only [ops4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat4_main_arg16 m c)

theorem rat5_main_arg17 (c : Dev nD) : (after (ops4 (F := Ideal)) (after (ops3 (F := Ideal)) (after (ops2 (F := Ideal)) (after (ops1 (F := Ideal)) (after (ops0 (F := Ideal)) (launchContents m c)))))) (Proc.devRef .tc main_arg17) = m ((c.tc : Thread nD τ).loc main_arg17) :=
  (StableHlo.after_of_forall_not_mem (b := Proc.devRef .tc main_arg17) _ _ (List.forall_iff_forall_mem.mp (by
      simp only [ops4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat4_main_arg17 m c)

theorem rat5_main_arg1 (c : Dev nD) : (after (ops4 (F := Ideal)) (after (ops3 (F := Ideal)) (after (ops2 (F := Ideal)) (after (ops1 (F := Ideal)) (after (ops0 (F := Ideal)) (launchContents m c)))))) (Proc.devRef .tc main_arg1) = m ((c.tc : Thread nD τ).loc main_arg1) :=
  (StableHlo.after_of_forall_not_mem (b := Proc.devRef .tc main_arg1) _ _ (List.forall_iff_forall_mem.mp (by
      simp only [ops4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat4_main_arg1 m c)

theorem rat5_main_arg6 (c : Dev nD) : (after (ops4 (F := Ideal)) (after (ops3 (F := Ideal)) (after (ops2 (F := Ideal)) (after (ops1 (F := Ideal)) (after (ops0 (F := Ideal)) (launchContents m c)))))) (Proc.devRef .tc main_arg6) = m ((c.tc : Thread nD τ).loc main_arg6) :=
  (StableHlo.after_of_forall_not_mem (b := Proc.devRef .tc main_arg6) _ _ (List.forall_iff_forall_mem.mp (by
      simp only [ops4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat4_main_arg6 m c)

theorem rat5_main_arg7 (c : Dev nD) : (after (ops4 (F := Ideal)) (after (ops3 (F := Ideal)) (after (ops2 (F := Ideal)) (after (ops1 (F := Ideal)) (after (ops0 (F := Ideal)) (launchContents m c)))))) (Proc.devRef .tc main_arg7) = m ((c.tc : Thread nD τ).loc main_arg7) :=
  (StableHlo.after_of_forall_not_mem (b := Proc.devRef .tc main_arg7) _ _ (List.forall_iff_forall_mem.mp (by
      simp only [ops4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat4_main_arg7 m c)

theorem rat5_main_arg8 (c : Dev nD) : (after (ops4 (F := Ideal)) (after (ops3 (F := Ideal)) (after (ops2 (F := Ideal)) (after (ops1 (F := Ideal)) (after (ops0 (F := Ideal)) (launchContents m c)))))) (Proc.devRef .tc main_arg8) = m ((c.tc : Thread nD τ).loc main_arg8) :=
  (StableHlo.after_of_forall_not_mem (b := Proc.devRef .tc main_arg8) _ _ (List.forall_iff_forall_mem.mp (by
      simp only [ops4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat4_main_arg8 m c)

theorem rat5_main_arg9 (c : Dev nD) : (after (ops4 (F := Ideal)) (after (ops3 (F := Ideal)) (after (ops2 (F := Ideal)) (after (ops1 (F := Ideal)) (after (ops0 (F := Ideal)) (launchContents m c)))))) (Proc.devRef .tc main_arg9) = m ((c.tc : Thread nD τ).loc main_arg9) :=
  (StableHlo.after_of_forall_not_mem (b := Proc.devRef .tc main_arg9) _ _ (List.forall_iff_forall_mem.mp (by
      simp only [ops4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat4_main_arg9 m c)

theorem rat5_main_arg10 (c : Dev nD) : (after (ops4 (F := Ideal)) (after (ops3 (F := Ideal)) (after (ops2 (F := Ideal)) (after (ops1 (F := Ideal)) (after (ops0 (F := Ideal)) (launchContents m c)))))) (Proc.devRef .tc main_arg10) = m ((c.tc : Thread nD τ).loc main_arg10) :=
  (StableHlo.after_of_forall_not_mem (b := Proc.devRef .tc main_arg10) _ _ (List.forall_iff_forall_mem.mp (by
      simp only [ops4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat4_main_arg10 m c)

/-! ## After 6 chunks -/

theorem rat6_main_v98 (c : Dev nD) : (after (ops5 (F := Ideal)) (after (ops4 (F := Ideal)) (after (ops3 (F := Ideal)) (after (ops2 (F := Ideal)) (after (ops1 (F := Ideal)) (after (ops0 (F := Ideal)) (launchContents m c))))))) (Proc.devRef .tc main_v98) = ReadP.val_main_v98 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg12)) (m ((c.tc : Thread nD τ).loc main_arg13)) :=
  (loc_main_v98 (after (ops4 (F := Ideal)) (after (ops3 (F := Ideal)) (after (ops2 (F := Ideal)) (after (ops1 (F := Ideal)) (after (ops0 (F := Ideal)) (launchContents m c))))))).trans (by rw [rat5_main_arg0 m c, rat5_main_arg2 m c, rat5_main_arg3 m c, rat5_main_arg4 m c, rat5_main_arg5 m c, rat5_main_arg12 m c, rat5_main_arg13 m c]; rfl)

theorem rat6_main_v97 (c : Dev nD) : (after (ops5 (F := Ideal)) (after (ops4 (F := Ideal)) (after (ops3 (F := Ideal)) (after (ops2 (F := Ideal)) (after (ops1 (F := Ideal)) (after (ops0 (F := Ideal)) (launchContents m c))))))) (Proc.devRef .tc main_v97) = ReadP.val_main_v97 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg12)) (m ((c.tc : Thread nD τ).loc main_arg13)) :=
  (loc_main_v97 (after (ops4 (F := Ideal)) (after (ops3 (F := Ideal)) (after (ops2 (F := Ideal)) (after (ops1 (F := Ideal)) (after (ops0 (F := Ideal)) (launchContents m c))))))).trans (by rw [rat5_main_arg0 m c, rat5_main_arg2 m c, rat5_main_arg3 m c, rat5_main_arg4 m c, rat5_main_arg5 m c, rat5_main_arg12 m c, rat5_main_arg13 m c]; rfl)

theorem rat6_main_arg14 (c : Dev nD) : (after (ops5 (F := Ideal)) (after (ops4 (F := Ideal)) (after (ops3 (F := Ideal)) (after (ops2 (F := Ideal)) (after (ops1 (F := Ideal)) (after (ops0 (F := Ideal)) (launchContents m c))))))) (Proc.devRef .tc main_arg14) = m ((c.tc : Thread nD τ).loc main_arg14) :=
  (StableHlo.after_of_forall_not_mem (b := Proc.devRef .tc main_arg14) _ _ (List.forall_iff_forall_mem.mp (by
      simp only [ops5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat5_main_arg14 m c)

theorem rat6_main_arg15 (c : Dev nD) : (after (ops5 (F := Ideal)) (after (ops4 (F := Ideal)) (after (ops3 (F := Ideal)) (after (ops2 (F := Ideal)) (after (ops1 (F := Ideal)) (after (ops0 (F := Ideal)) (launchContents m c))))))) (Proc.devRef .tc main_arg15) = m ((c.tc : Thread nD τ).loc main_arg15) :=
  (StableHlo.after_of_forall_not_mem (b := Proc.devRef .tc main_arg15) _ _ (List.forall_iff_forall_mem.mp (by
      simp only [ops5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat5_main_arg15 m c)

theorem rat6_main_arg16 (c : Dev nD) : (after (ops5 (F := Ideal)) (after (ops4 (F := Ideal)) (after (ops3 (F := Ideal)) (after (ops2 (F := Ideal)) (after (ops1 (F := Ideal)) (after (ops0 (F := Ideal)) (launchContents m c))))))) (Proc.devRef .tc main_arg16) = m ((c.tc : Thread nD τ).loc main_arg16) :=
  (StableHlo.after_of_forall_not_mem (b := Proc.devRef .tc main_arg16) _ _ (List.forall_iff_forall_mem.mp (by
      simp only [ops5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat5_main_arg16 m c)

theorem rat6_main_arg17 (c : Dev nD) : (after (ops5 (F := Ideal)) (after (ops4 (F := Ideal)) (after (ops3 (F := Ideal)) (after (ops2 (F := Ideal)) (after (ops1 (F := Ideal)) (after (ops0 (F := Ideal)) (launchContents m c))))))) (Proc.devRef .tc main_arg17) = m ((c.tc : Thread nD τ).loc main_arg17) :=
  (StableHlo.after_of_forall_not_mem (b := Proc.devRef .tc main_arg17) _ _ (List.forall_iff_forall_mem.mp (by
      simp only [ops5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat5_main_arg17 m c)

theorem rat6_main_v84 (c : Dev nD) : (after (ops5 (F := Ideal)) (after (ops4 (F := Ideal)) (after (ops3 (F := Ideal)) (after (ops2 (F := Ideal)) (after (ops1 (F := Ideal)) (after (ops0 (F := Ideal)) (launchContents m c))))))) (Proc.devRef .tc main_v84) = ReadP.val_main_v84 (F := Ideal) (m ((c.tc : Thread nD τ).loc main_arg0)) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (loc_main_v84 (after (ops4 (F := Ideal)) (after (ops3 (F := Ideal)) (after (ops2 (F := Ideal)) (after (ops1 (F := Ideal)) (after (ops0 (F := Ideal)) (launchContents m c))))))).trans (by rw [rat5_main_v80 m c, rat5_main_arg11 m c]; rfl)

theorem rat6_main_arg0 (c : Dev nD) : (after (ops5 (F := Ideal)) (after (ops4 (F := Ideal)) (after (ops3 (F := Ideal)) (after (ops2 (F := Ideal)) (after (ops1 (F := Ideal)) (after (ops0 (F := Ideal)) (launchContents m c))))))) (Proc.devRef .tc main_arg0) = m ((c.tc : Thread nD τ).loc main_arg0) :=
  (StableHlo.after_of_forall_not_mem (b := Proc.devRef .tc main_arg0) _ _ (List.forall_iff_forall_mem.mp (by
      simp only [ops5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat5_main_arg0 m c)

theorem rat6_main_arg1 (c : Dev nD) : (after (ops5 (F := Ideal)) (after (ops4 (F := Ideal)) (after (ops3 (F := Ideal)) (after (ops2 (F := Ideal)) (after (ops1 (F := Ideal)) (after (ops0 (F := Ideal)) (launchContents m c))))))) (Proc.devRef .tc main_arg1) = m ((c.tc : Thread nD τ).loc main_arg1) :=
  (StableHlo.after_of_forall_not_mem (b := Proc.devRef .tc main_arg1) _ _ (List.forall_iff_forall_mem.mp (by
      simp only [ops5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat5_main_arg1 m c)

theorem rat6_main_arg2 (c : Dev nD) : (after (ops5 (F := Ideal)) (after (ops4 (F := Ideal)) (after (ops3 (F := Ideal)) (after (ops2 (F := Ideal)) (after (ops1 (F := Ideal)) (after (ops0 (F := Ideal)) (launchContents m c))))))) (Proc.devRef .tc main_arg2) = m ((c.tc : Thread nD τ).loc main_arg2) :=
  (StableHlo.after_of_forall_not_mem (b := Proc.devRef .tc main_arg2) _ _ (List.forall_iff_forall_mem.mp (by
      simp only [ops5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat5_main_arg2 m c)

theorem rat6_main_arg3 (c : Dev nD) : (after (ops5 (F := Ideal)) (after (ops4 (F := Ideal)) (after (ops3 (F := Ideal)) (after (ops2 (F := Ideal)) (after (ops1 (F := Ideal)) (after (ops0 (F := Ideal)) (launchContents m c))))))) (Proc.devRef .tc main_arg3) = m ((c.tc : Thread nD τ).loc main_arg3) :=
  (StableHlo.after_of_forall_not_mem (b := Proc.devRef .tc main_arg3) _ _ (List.forall_iff_forall_mem.mp (by
      simp only [ops5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat5_main_arg3 m c)

theorem rat6_main_arg4 (c : Dev nD) : (after (ops5 (F := Ideal)) (after (ops4 (F := Ideal)) (after (ops3 (F := Ideal)) (after (ops2 (F := Ideal)) (after (ops1 (F := Ideal)) (after (ops0 (F := Ideal)) (launchContents m c))))))) (Proc.devRef .tc main_arg4) = m ((c.tc : Thread nD τ).loc main_arg4) :=
  (StableHlo.after_of_forall_not_mem (b := Proc.devRef .tc main_arg4) _ _ (List.forall_iff_forall_mem.mp (by
      simp only [ops5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat5_main_arg4 m c)

theorem rat6_main_arg5 (c : Dev nD) : (after (ops5 (F := Ideal)) (after (ops4 (F := Ideal)) (after (ops3 (F := Ideal)) (after (ops2 (F := Ideal)) (after (ops1 (F := Ideal)) (after (ops0 (F := Ideal)) (launchContents m c))))))) (Proc.devRef .tc main_arg5) = m ((c.tc : Thread nD τ).loc main_arg5) :=
  (StableHlo.after_of_forall_not_mem (b := Proc.devRef .tc main_arg5) _ _ (List.forall_iff_forall_mem.mp (by
      simp only [ops5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat5_main_arg5 m c)

theorem rat6_main_arg6 (c : Dev nD) : (after (ops5 (F := Ideal)) (after (ops4 (F := Ideal)) (after (ops3 (F := Ideal)) (after (ops2 (F := Ideal)) (after (ops1 (F := Ideal)) (after (ops0 (F := Ideal)) (launchContents m c))))))) (Proc.devRef .tc main_arg6) = m ((c.tc : Thread nD τ).loc main_arg6) :=
  (StableHlo.after_of_forall_not_mem (b := Proc.devRef .tc main_arg6) _ _ (List.forall_iff_forall_mem.mp (by
      simp only [ops5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat5_main_arg6 m c)

theorem rat6_main_arg7 (c : Dev nD) : (after (ops5 (F := Ideal)) (after (ops4 (F := Ideal)) (after (ops3 (F := Ideal)) (after (ops2 (F := Ideal)) (after (ops1 (F := Ideal)) (after (ops0 (F := Ideal)) (launchContents m c))))))) (Proc.devRef .tc main_arg7) = m ((c.tc : Thread nD τ).loc main_arg7) :=
  (StableHlo.after_of_forall_not_mem (b := Proc.devRef .tc main_arg7) _ _ (List.forall_iff_forall_mem.mp (by
      simp only [ops5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat5_main_arg7 m c)

theorem rat6_main_arg8 (c : Dev nD) : (after (ops5 (F := Ideal)) (after (ops4 (F := Ideal)) (after (ops3 (F := Ideal)) (after (ops2 (F := Ideal)) (after (ops1 (F := Ideal)) (after (ops0 (F := Ideal)) (launchContents m c))))))) (Proc.devRef .tc main_arg8) = m ((c.tc : Thread nD τ).loc main_arg8) :=
  (StableHlo.after_of_forall_not_mem (b := Proc.devRef .tc main_arg8) _ _ (List.forall_iff_forall_mem.mp (by
      simp only [ops5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat5_main_arg8 m c)

theorem rat6_main_arg9 (c : Dev nD) : (after (ops5 (F := Ideal)) (after (ops4 (F := Ideal)) (after (ops3 (F := Ideal)) (after (ops2 (F := Ideal)) (after (ops1 (F := Ideal)) (after (ops0 (F := Ideal)) (launchContents m c))))))) (Proc.devRef .tc main_arg9) = m ((c.tc : Thread nD τ).loc main_arg9) :=
  (StableHlo.after_of_forall_not_mem (b := Proc.devRef .tc main_arg9) _ _ (List.forall_iff_forall_mem.mp (by
      simp only [ops5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat5_main_arg9 m c)

theorem rat6_main_arg10 (c : Dev nD) : (after (ops5 (F := Ideal)) (after (ops4 (F := Ideal)) (after (ops3 (F := Ideal)) (after (ops2 (F := Ideal)) (after (ops1 (F := Ideal)) (after (ops0 (F := Ideal)) (launchContents m c))))))) (Proc.devRef .tc main_arg10) = m ((c.tc : Thread nD τ).loc main_arg10) :=
  (StableHlo.after_of_forall_not_mem (b := Proc.devRef .tc main_arg10) _ _ (List.forall_iff_forall_mem.mp (by
      simp only [ops5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat5_main_arg10 m c)

theorem rat6_main_arg11 (c : Dev nD) : (after (ops5 (F := Ideal)) (after (ops4 (F := Ideal)) (after (ops3 (F := Ideal)) (after (ops2 (F := Ideal)) (after (ops1 (F := Ideal)) (after (ops0 (F := Ideal)) (launchContents m c))))))) (Proc.devRef .tc main_arg11) = m ((c.tc : Thread nD τ).loc main_arg11) :=
  (StableHlo.after_of_forall_not_mem (b := Proc.devRef .tc main_arg11) _ _ (List.forall_iff_forall_mem.mp (by
      simp only [ops5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat5_main_arg11 m c)

theorem rat6_main_arg12 (c : Dev nD) : (after (ops5 (F := Ideal)) (after (ops4 (F := Ideal)) (after (ops3 (F := Ideal)) (after (ops2 (F := Ideal)) (after (ops1 (F := Ideal)) (after (ops0 (F := Ideal)) (launchContents m c))))))) (Proc.devRef .tc main_arg12) = m ((c.tc : Thread nD τ).loc main_arg12) :=
  (StableHlo.after_of_forall_not_mem (b := Proc.devRef .tc main_arg12) _ _ (List.forall_iff_forall_mem.mp (by
      simp only [ops5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat5_main_arg12 m c)

theorem rat6_main_arg13 (c : Dev nD) : (after (ops5 (F := Ideal)) (after (ops4 (F := Ideal)) (after (ops3 (F := Ideal)) (after (ops2 (F := Ideal)) (after (ops1 (F := Ideal)) (after (ops0 (F := Ideal)) (launchContents m c))))))) (Proc.devRef .tc main_arg13) = m ((c.tc : Thread nD τ).loc main_arg13) :=
  (StableHlo.after_of_forall_not_mem (b := Proc.devRef .tc main_arg13) _ _ (List.forall_iff_forall_mem.mp (by
      simp only [ops5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat5_main_arg13 m c)

/-! ## After 7 chunks -/

theorem rat7_main_v115 (c : Dev nD) : (after (ops6 (F := Ideal)) (after (ops5 (F := Ideal)) (after (ops4 (F := Ideal)) (after (ops3 (F := Ideal)) (after (ops2 (F := Ideal)) (after (ops1 (F := Ideal)) (after (ops0 (F := Ideal)) (launchContents m c)))))))) (Proc.devRef .tc main_v115) = ReadP.val_main_v115 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg12)) (m ((c.tc : Thread nD τ).loc main_arg13)) :=
  (loc_main_v115 (after (ops5 (F := Ideal)) (after (ops4 (F := Ideal)) (after (ops3 (F := Ideal)) (after (ops2 (F := Ideal)) (after (ops1 (F := Ideal)) (after (ops0 (F := Ideal)) (launchContents m c)))))))).trans (by rw [rat6_main_v97 m c, rat6_main_v98 m c]; rfl)

theorem rat7_main_v113 (c : Dev nD) : (after (ops6 (F := Ideal)) (after (ops5 (F := Ideal)) (after (ops4 (F := Ideal)) (after (ops3 (F := Ideal)) (after (ops2 (F := Ideal)) (after (ops1 (F := Ideal)) (after (ops0 (F := Ideal)) (launchContents m c)))))))) (Proc.devRef .tc main_v113) = ReadP.val_main_v113 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg12)) (m ((c.tc : Thread nD τ).loc main_arg13)) (m ((c.tc : Thread nD τ).loc main_arg14)) :=
  (loc_main_v113 (after (ops5 (F := Ideal)) (after (ops4 (F := Ideal)) (after (ops3 (F := Ideal)) (after (ops2 (F := Ideal)) (after (ops1 (F := Ideal)) (after (ops0 (F := Ideal)) (launchContents m c)))))))).trans (by rw [rat6_main_arg14 m c, rat6_main_v97 m c, rat6_main_v98 m c]; rfl)

theorem rat7_main_arg15 (c : Dev nD) : (after (ops6 (F := Ideal)) (after (ops5 (F := Ideal)) (after (ops4 (F := Ideal)) (after (ops3 (F := Ideal)) (after (ops2 (F := Ideal)) (after (ops1 (F := Ideal)) (after (ops0 (F := Ideal)) (launchContents m c)))))))) (Proc.devRef .tc main_arg15) = m ((c.tc : Thread nD τ).loc main_arg15) :=
  (StableHlo.after_of_forall_not_mem (b := Proc.devRef .tc main_arg15) _ _ (List.forall_iff_forall_mem.mp (by
      simp only [ops6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat6_main_arg15 m c)

theorem rat7_main_arg16 (c : Dev nD) : (after (ops6 (F := Ideal)) (after (ops5 (F := Ideal)) (after (ops4 (F := Ideal)) (after (ops3 (F := Ideal)) (after (ops2 (F := Ideal)) (after (ops1 (F := Ideal)) (after (ops0 (F := Ideal)) (launchContents m c)))))))) (Proc.devRef .tc main_arg16) = m ((c.tc : Thread nD τ).loc main_arg16) :=
  (StableHlo.after_of_forall_not_mem (b := Proc.devRef .tc main_arg16) _ _ (List.forall_iff_forall_mem.mp (by
      simp only [ops6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat6_main_arg16 m c)

theorem rat7_main_arg17 (c : Dev nD) : (after (ops6 (F := Ideal)) (after (ops5 (F := Ideal)) (after (ops4 (F := Ideal)) (after (ops3 (F := Ideal)) (after (ops2 (F := Ideal)) (after (ops1 (F := Ideal)) (after (ops0 (F := Ideal)) (launchContents m c)))))))) (Proc.devRef .tc main_arg17) = m ((c.tc : Thread nD τ).loc main_arg17) :=
  (StableHlo.after_of_forall_not_mem (b := Proc.devRef .tc main_arg17) _ _ (List.forall_iff_forall_mem.mp (by
      simp only [ops6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat6_main_arg17 m c)

theorem rat7_main_v84 (c : Dev nD) : (after (ops6 (F := Ideal)) (after (ops5 (F := Ideal)) (after (ops4 (F := Ideal)) (after (ops3 (F := Ideal)) (after (ops2 (F := Ideal)) (after (ops1 (F := Ideal)) (after (ops0 (F := Ideal)) (launchContents m c)))))))) (Proc.devRef .tc main_v84) = ReadP.val_main_v84 (F := Ideal) (m ((c.tc : Thread nD τ).loc main_arg0)) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (StableHlo.after_of_forall_not_mem (b := Proc.devRef .tc main_v84) _ _ (List.forall_iff_forall_mem.mp (by
      simp only [ops6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat6_main_v84 m c)

theorem rat7_main_arg0 (c : Dev nD) : (after (ops6 (F := Ideal)) (after (ops5 (F := Ideal)) (after (ops4 (F := Ideal)) (after (ops3 (F := Ideal)) (after (ops2 (F := Ideal)) (after (ops1 (F := Ideal)) (after (ops0 (F := Ideal)) (launchContents m c)))))))) (Proc.devRef .tc main_arg0) = m ((c.tc : Thread nD τ).loc main_arg0) :=
  (StableHlo.after_of_forall_not_mem (b := Proc.devRef .tc main_arg0) _ _ (List.forall_iff_forall_mem.mp (by
      simp only [ops6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat6_main_arg0 m c)

theorem rat7_main_arg1 (c : Dev nD) : (after (ops6 (F := Ideal)) (after (ops5 (F := Ideal)) (after (ops4 (F := Ideal)) (after (ops3 (F := Ideal)) (after (ops2 (F := Ideal)) (after (ops1 (F := Ideal)) (after (ops0 (F := Ideal)) (launchContents m c)))))))) (Proc.devRef .tc main_arg1) = m ((c.tc : Thread nD τ).loc main_arg1) :=
  (StableHlo.after_of_forall_not_mem (b := Proc.devRef .tc main_arg1) _ _ (List.forall_iff_forall_mem.mp (by
      simp only [ops6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat6_main_arg1 m c)

theorem rat7_main_arg2 (c : Dev nD) : (after (ops6 (F := Ideal)) (after (ops5 (F := Ideal)) (after (ops4 (F := Ideal)) (after (ops3 (F := Ideal)) (after (ops2 (F := Ideal)) (after (ops1 (F := Ideal)) (after (ops0 (F := Ideal)) (launchContents m c)))))))) (Proc.devRef .tc main_arg2) = m ((c.tc : Thread nD τ).loc main_arg2) :=
  (StableHlo.after_of_forall_not_mem (b := Proc.devRef .tc main_arg2) _ _ (List.forall_iff_forall_mem.mp (by
      simp only [ops6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat6_main_arg2 m c)

theorem rat7_main_arg3 (c : Dev nD) : (after (ops6 (F := Ideal)) (after (ops5 (F := Ideal)) (after (ops4 (F := Ideal)) (after (ops3 (F := Ideal)) (after (ops2 (F := Ideal)) (after (ops1 (F := Ideal)) (after (ops0 (F := Ideal)) (launchContents m c)))))))) (Proc.devRef .tc main_arg3) = m ((c.tc : Thread nD τ).loc main_arg3) :=
  (StableHlo.after_of_forall_not_mem (b := Proc.devRef .tc main_arg3) _ _ (List.forall_iff_forall_mem.mp (by
      simp only [ops6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat6_main_arg3 m c)

theorem rat7_main_arg4 (c : Dev nD) : (after (ops6 (F := Ideal)) (after (ops5 (F := Ideal)) (after (ops4 (F := Ideal)) (after (ops3 (F := Ideal)) (after (ops2 (F := Ideal)) (after (ops1 (F := Ideal)) (after (ops0 (F := Ideal)) (launchContents m c)))))))) (Proc.devRef .tc main_arg4) = m ((c.tc : Thread nD τ).loc main_arg4) :=
  (StableHlo.after_of_forall_not_mem (b := Proc.devRef .tc main_arg4) _ _ (List.forall_iff_forall_mem.mp (by
      simp only [ops6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat6_main_arg4 m c)

theorem rat7_main_arg5 (c : Dev nD) : (after (ops6 (F := Ideal)) (after (ops5 (F := Ideal)) (after (ops4 (F := Ideal)) (after (ops3 (F := Ideal)) (after (ops2 (F := Ideal)) (after (ops1 (F := Ideal)) (after (ops0 (F := Ideal)) (launchContents m c)))))))) (Proc.devRef .tc main_arg5) = m ((c.tc : Thread nD τ).loc main_arg5) :=
  (StableHlo.after_of_forall_not_mem (b := Proc.devRef .tc main_arg5) _ _ (List.forall_iff_forall_mem.mp (by
      simp only [ops6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat6_main_arg5 m c)

theorem rat7_main_arg6 (c : Dev nD) : (after (ops6 (F := Ideal)) (after (ops5 (F := Ideal)) (after (ops4 (F := Ideal)) (after (ops3 (F := Ideal)) (after (ops2 (F := Ideal)) (after (ops1 (F := Ideal)) (after (ops0 (F := Ideal)) (launchContents m c)))))))) (Proc.devRef .tc main_arg6) = m ((c.tc : Thread nD τ).loc main_arg6) :=
  (StableHlo.after_of_forall_not_mem (b := Proc.devRef .tc main_arg6) _ _ (List.forall_iff_forall_mem.mp (by
      simp only [ops6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat6_main_arg6 m c)

theorem rat7_main_arg7 (c : Dev nD) : (after (ops6 (F := Ideal)) (after (ops5 (F := Ideal)) (after (ops4 (F := Ideal)) (after (ops3 (F := Ideal)) (after (ops2 (F := Ideal)) (after (ops1 (F := Ideal)) (after (ops0 (F := Ideal)) (launchContents m c)))))))) (Proc.devRef .tc main_arg7) = m ((c.tc : Thread nD τ).loc main_arg7) :=
  (StableHlo.after_of_forall_not_mem (b := Proc.devRef .tc main_arg7) _ _ (List.forall_iff_forall_mem.mp (by
      simp only [ops6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat6_main_arg7 m c)

theorem rat7_main_arg8 (c : Dev nD) : (after (ops6 (F := Ideal)) (after (ops5 (F := Ideal)) (after (ops4 (F := Ideal)) (after (ops3 (F := Ideal)) (after (ops2 (F := Ideal)) (after (ops1 (F := Ideal)) (after (ops0 (F := Ideal)) (launchContents m c)))))))) (Proc.devRef .tc main_arg8) = m ((c.tc : Thread nD τ).loc main_arg8) :=
  (StableHlo.after_of_forall_not_mem (b := Proc.devRef .tc main_arg8) _ _ (List.forall_iff_forall_mem.mp (by
      simp only [ops6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat6_main_arg8 m c)

theorem rat7_main_arg9 (c : Dev nD) : (after (ops6 (F := Ideal)) (after (ops5 (F := Ideal)) (after (ops4 (F := Ideal)) (after (ops3 (F := Ideal)) (after (ops2 (F := Ideal)) (after (ops1 (F := Ideal)) (after (ops0 (F := Ideal)) (launchContents m c)))))))) (Proc.devRef .tc main_arg9) = m ((c.tc : Thread nD τ).loc main_arg9) :=
  (StableHlo.after_of_forall_not_mem (b := Proc.devRef .tc main_arg9) _ _ (List.forall_iff_forall_mem.mp (by
      simp only [ops6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat6_main_arg9 m c)

theorem rat7_main_arg10 (c : Dev nD) : (after (ops6 (F := Ideal)) (after (ops5 (F := Ideal)) (after (ops4 (F := Ideal)) (after (ops3 (F := Ideal)) (after (ops2 (F := Ideal)) (after (ops1 (F := Ideal)) (after (ops0 (F := Ideal)) (launchContents m c)))))))) (Proc.devRef .tc main_arg10) = m ((c.tc : Thread nD τ).loc main_arg10) :=
  (StableHlo.after_of_forall_not_mem (b := Proc.devRef .tc main_arg10) _ _ (List.forall_iff_forall_mem.mp (by
      simp only [ops6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat6_main_arg10 m c)

theorem rat7_main_arg11 (c : Dev nD) : (after (ops6 (F := Ideal)) (after (ops5 (F := Ideal)) (after (ops4 (F := Ideal)) (after (ops3 (F := Ideal)) (after (ops2 (F := Ideal)) (after (ops1 (F := Ideal)) (after (ops0 (F := Ideal)) (launchContents m c)))))))) (Proc.devRef .tc main_arg11) = m ((c.tc : Thread nD τ).loc main_arg11) :=
  (StableHlo.after_of_forall_not_mem (b := Proc.devRef .tc main_arg11) _ _ (List.forall_iff_forall_mem.mp (by
      simp only [ops6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat6_main_arg11 m c)

theorem rat7_main_arg12 (c : Dev nD) : (after (ops6 (F := Ideal)) (after (ops5 (F := Ideal)) (after (ops4 (F := Ideal)) (after (ops3 (F := Ideal)) (after (ops2 (F := Ideal)) (after (ops1 (F := Ideal)) (after (ops0 (F := Ideal)) (launchContents m c)))))))) (Proc.devRef .tc main_arg12) = m ((c.tc : Thread nD τ).loc main_arg12) :=
  (StableHlo.after_of_forall_not_mem (b := Proc.devRef .tc main_arg12) _ _ (List.forall_iff_forall_mem.mp (by
      simp only [ops6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat6_main_arg12 m c)

theorem rat7_main_arg13 (c : Dev nD) : (after (ops6 (F := Ideal)) (after (ops5 (F := Ideal)) (after (ops4 (F := Ideal)) (after (ops3 (F := Ideal)) (after (ops2 (F := Ideal)) (after (ops1 (F := Ideal)) (after (ops0 (F := Ideal)) (launchContents m c)))))))) (Proc.devRef .tc main_arg13) = m ((c.tc : Thread nD τ).loc main_arg13) :=
  (StableHlo.after_of_forall_not_mem (b := Proc.devRef .tc main_arg13) _ _ (List.forall_iff_forall_mem.mp (by
      simp only [ops6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat6_main_arg13 m c)

theorem rat7_main_arg14 (c : Dev nD) : (after (ops6 (F := Ideal)) (after (ops5 (F := Ideal)) (after (ops4 (F := Ideal)) (after (ops3 (F := Ideal)) (after (ops2 (F := Ideal)) (after (ops1 (F := Ideal)) (after (ops0 (F := Ideal)) (launchContents m c)))))))) (Proc.devRef .tc main_arg14) = m ((c.tc : Thread nD τ).loc main_arg14) :=
  (StableHlo.after_of_forall_not_mem (b := Proc.devRef .tc main_arg14) _ _ (List.forall_iff_forall_mem.mp (by
      simp only [ops6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat6_main_arg14 m c)

/-! ## After 8 chunks -/

theorem rat8_main_arg0 (c : Dev nD) : (after (ops7 (F := Ideal)) (after (ops6 (F := Ideal)) (after (ops5 (F := Ideal)) (after (ops4 (F := Ideal)) (after (ops3 (F := Ideal)) (after (ops2 (F := Ideal)) (after (ops1 (F := Ideal)) (after (ops0 (F := Ideal)) (launchContents m c))))))))) (Proc.devRef .tc main_arg0) = m ((c.tc : Thread nD τ).loc main_arg0) :=
  (StableHlo.after_of_forall_not_mem (b := Proc.devRef .tc main_arg0) _ _ (List.forall_iff_forall_mem.mp (by
      simp only [ops7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat7_main_arg0 m c)

theorem rat8_main_arg1 (c : Dev nD) : (after (ops7 (F := Ideal)) (after (ops6 (F := Ideal)) (after (ops5 (F := Ideal)) (after (ops4 (F := Ideal)) (after (ops3 (F := Ideal)) (after (ops2 (F := Ideal)) (after (ops1 (F := Ideal)) (after (ops0 (F := Ideal)) (launchContents m c))))))))) (Proc.devRef .tc main_arg1) = m ((c.tc : Thread nD τ).loc main_arg1) :=
  (StableHlo.after_of_forall_not_mem (b := Proc.devRef .tc main_arg1) _ _ (List.forall_iff_forall_mem.mp (by
      simp only [ops7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat7_main_arg1 m c)

theorem rat8_main_arg2 (c : Dev nD) : (after (ops7 (F := Ideal)) (after (ops6 (F := Ideal)) (after (ops5 (F := Ideal)) (after (ops4 (F := Ideal)) (after (ops3 (F := Ideal)) (after (ops2 (F := Ideal)) (after (ops1 (F := Ideal)) (after (ops0 (F := Ideal)) (launchContents m c))))))))) (Proc.devRef .tc main_arg2) = m ((c.tc : Thread nD τ).loc main_arg2) :=
  (StableHlo.after_of_forall_not_mem (b := Proc.devRef .tc main_arg2) _ _ (List.forall_iff_forall_mem.mp (by
      simp only [ops7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat7_main_arg2 m c)

theorem rat8_main_arg3 (c : Dev nD) : (after (ops7 (F := Ideal)) (after (ops6 (F := Ideal)) (after (ops5 (F := Ideal)) (after (ops4 (F := Ideal)) (after (ops3 (F := Ideal)) (after (ops2 (F := Ideal)) (after (ops1 (F := Ideal)) (after (ops0 (F := Ideal)) (launchContents m c))))))))) (Proc.devRef .tc main_arg3) = m ((c.tc : Thread nD τ).loc main_arg3) :=
  (StableHlo.after_of_forall_not_mem (b := Proc.devRef .tc main_arg3) _ _ (List.forall_iff_forall_mem.mp (by
      simp only [ops7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat7_main_arg3 m c)

theorem rat8_main_arg4 (c : Dev nD) : (after (ops7 (F := Ideal)) (after (ops6 (F := Ideal)) (after (ops5 (F := Ideal)) (after (ops4 (F := Ideal)) (after (ops3 (F := Ideal)) (after (ops2 (F := Ideal)) (after (ops1 (F := Ideal)) (after (ops0 (F := Ideal)) (launchContents m c))))))))) (Proc.devRef .tc main_arg4) = m ((c.tc : Thread nD τ).loc main_arg4) :=
  (StableHlo.after_of_forall_not_mem (b := Proc.devRef .tc main_arg4) _ _ (List.forall_iff_forall_mem.mp (by
      simp only [ops7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat7_main_arg4 m c)

theorem rat8_main_arg5 (c : Dev nD) : (after (ops7 (F := Ideal)) (after (ops6 (F := Ideal)) (after (ops5 (F := Ideal)) (after (ops4 (F := Ideal)) (after (ops3 (F := Ideal)) (after (ops2 (F := Ideal)) (after (ops1 (F := Ideal)) (after (ops0 (F := Ideal)) (launchContents m c))))))))) (Proc.devRef .tc main_arg5) = m ((c.tc : Thread nD τ).loc main_arg5) :=
  (StableHlo.after_of_forall_not_mem (b := Proc.devRef .tc main_arg5) _ _ (List.forall_iff_forall_mem.mp (by
      simp only [ops7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat7_main_arg5 m c)

theorem rat8_main_arg6 (c : Dev nD) : (after (ops7 (F := Ideal)) (after (ops6 (F := Ideal)) (after (ops5 (F := Ideal)) (after (ops4 (F := Ideal)) (after (ops3 (F := Ideal)) (after (ops2 (F := Ideal)) (after (ops1 (F := Ideal)) (after (ops0 (F := Ideal)) (launchContents m c))))))))) (Proc.devRef .tc main_arg6) = m ((c.tc : Thread nD τ).loc main_arg6) :=
  (StableHlo.after_of_forall_not_mem (b := Proc.devRef .tc main_arg6) _ _ (List.forall_iff_forall_mem.mp (by
      simp only [ops7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat7_main_arg6 m c)

theorem rat8_main_arg7 (c : Dev nD) : (after (ops7 (F := Ideal)) (after (ops6 (F := Ideal)) (after (ops5 (F := Ideal)) (after (ops4 (F := Ideal)) (after (ops3 (F := Ideal)) (after (ops2 (F := Ideal)) (after (ops1 (F := Ideal)) (after (ops0 (F := Ideal)) (launchContents m c))))))))) (Proc.devRef .tc main_arg7) = m ((c.tc : Thread nD τ).loc main_arg7) :=
  (StableHlo.after_of_forall_not_mem (b := Proc.devRef .tc main_arg7) _ _ (List.forall_iff_forall_mem.mp (by
      simp only [ops7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat7_main_arg7 m c)

theorem rat8_main_arg8 (c : Dev nD) : (after (ops7 (F := Ideal)) (after (ops6 (F := Ideal)) (after (ops5 (F := Ideal)) (after (ops4 (F := Ideal)) (after (ops3 (F := Ideal)) (after (ops2 (F := Ideal)) (after (ops1 (F := Ideal)) (after (ops0 (F := Ideal)) (launchContents m c))))))))) (Proc.devRef .tc main_arg8) = m ((c.tc : Thread nD τ).loc main_arg8) :=
  (StableHlo.after_of_forall_not_mem (b := Proc.devRef .tc main_arg8) _ _ (List.forall_iff_forall_mem.mp (by
      simp only [ops7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat7_main_arg8 m c)

theorem rat8_main_arg9 (c : Dev nD) : (after (ops7 (F := Ideal)) (after (ops6 (F := Ideal)) (after (ops5 (F := Ideal)) (after (ops4 (F := Ideal)) (after (ops3 (F := Ideal)) (after (ops2 (F := Ideal)) (after (ops1 (F := Ideal)) (after (ops0 (F := Ideal)) (launchContents m c))))))))) (Proc.devRef .tc main_arg9) = m ((c.tc : Thread nD τ).loc main_arg9) :=
  (StableHlo.after_of_forall_not_mem (b := Proc.devRef .tc main_arg9) _ _ (List.forall_iff_forall_mem.mp (by
      simp only [ops7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat7_main_arg9 m c)

theorem rat8_main_arg10 (c : Dev nD) : (after (ops7 (F := Ideal)) (after (ops6 (F := Ideal)) (after (ops5 (F := Ideal)) (after (ops4 (F := Ideal)) (after (ops3 (F := Ideal)) (after (ops2 (F := Ideal)) (after (ops1 (F := Ideal)) (after (ops0 (F := Ideal)) (launchContents m c))))))))) (Proc.devRef .tc main_arg10) = m ((c.tc : Thread nD τ).loc main_arg10) :=
  (StableHlo.after_of_forall_not_mem (b := Proc.devRef .tc main_arg10) _ _ (List.forall_iff_forall_mem.mp (by
      simp only [ops7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat7_main_arg10 m c)

theorem rat8_main_arg11 (c : Dev nD) : (after (ops7 (F := Ideal)) (after (ops6 (F := Ideal)) (after (ops5 (F := Ideal)) (after (ops4 (F := Ideal)) (after (ops3 (F := Ideal)) (after (ops2 (F := Ideal)) (after (ops1 (F := Ideal)) (after (ops0 (F := Ideal)) (launchContents m c))))))))) (Proc.devRef .tc main_arg11) = m ((c.tc : Thread nD τ).loc main_arg11) :=
  (StableHlo.after_of_forall_not_mem (b := Proc.devRef .tc main_arg11) _ _ (List.forall_iff_forall_mem.mp (by
      simp only [ops7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat7_main_arg11 m c)

theorem rat8_main_arg12 (c : Dev nD) : (after (ops7 (F := Ideal)) (after (ops6 (F := Ideal)) (after (ops5 (F := Ideal)) (after (ops4 (F := Ideal)) (after (ops3 (F := Ideal)) (after (ops2 (F := Ideal)) (after (ops1 (F := Ideal)) (after (ops0 (F := Ideal)) (launchContents m c))))))))) (Proc.devRef .tc main_arg12) = m ((c.tc : Thread nD τ).loc main_arg12) :=
  (StableHlo.after_of_forall_not_mem (b := Proc.devRef .tc main_arg12) _ _ (List.forall_iff_forall_mem.mp (by
      simp only [ops7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat7_main_arg12 m c)

theorem rat8_main_arg13 (c : Dev nD) : (after (ops7 (F := Ideal)) (after (ops6 (F := Ideal)) (after (ops5 (F := Ideal)) (after (ops4 (F := Ideal)) (after (ops3 (F := Ideal)) (after (ops2 (F := Ideal)) (after (ops1 (F := Ideal)) (after (ops0 (F := Ideal)) (launchContents m c))))))))) (Proc.devRef .tc main_arg13) = m ((c.tc : Thread nD τ).loc main_arg13) :=
  (StableHlo.after_of_forall_not_mem (b := Proc.devRef .tc main_arg13) _ _ (List.forall_iff_forall_mem.mp (by
      simp only [ops7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat7_main_arg13 m c)

theorem rat8_main_arg14 (c : Dev nD) : (after (ops7 (F := Ideal)) (after (ops6 (F := Ideal)) (after (ops5 (F := Ideal)) (after (ops4 (F := Ideal)) (after (ops3 (F := Ideal)) (after (ops2 (F := Ideal)) (after (ops1 (F := Ideal)) (after (ops0 (F := Ideal)) (launchContents m c))))))))) (Proc.devRef .tc main_arg14) = m ((c.tc : Thread nD τ).loc main_arg14) :=
  (StableHlo.after_of_forall_not_mem (b := Proc.devRef .tc main_arg14) _ _ (List.forall_iff_forall_mem.mp (by
      simp only [ops7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat7_main_arg14 m c)

theorem rat8_main_arg15 (c : Dev nD) : (after (ops7 (F := Ideal)) (after (ops6 (F := Ideal)) (after (ops5 (F := Ideal)) (after (ops4 (F := Ideal)) (after (ops3 (F := Ideal)) (after (ops2 (F := Ideal)) (after (ops1 (F := Ideal)) (after (ops0 (F := Ideal)) (launchContents m c))))))))) (Proc.devRef .tc main_arg15) = m ((c.tc : Thread nD τ).loc main_arg15) :=
  (StableHlo.after_of_forall_not_mem (b := Proc.devRef .tc main_arg15) _ _ (List.forall_iff_forall_mem.mp (by
      simp only [ops7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat7_main_arg15 m c)

theorem rat8_main_arg16 (c : Dev nD) : (after (ops7 (F := Ideal)) (after (ops6 (F := Ideal)) (after (ops5 (F := Ideal)) (after (ops4 (F := Ideal)) (after (ops3 (F := Ideal)) (after (ops2 (F := Ideal)) (after (ops1 (F := Ideal)) (after (ops0 (F := Ideal)) (launchContents m c))))))))) (Proc.devRef .tc main_arg16) = m ((c.tc : Thread nD τ).loc main_arg16) :=
  (StableHlo.after_of_forall_not_mem (b := Proc.devRef .tc main_arg16) _ _ (List.forall_iff_forall_mem.mp (by
      simp only [ops7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat7_main_arg16 m c)

theorem rat8_main_arg17 (c : Dev nD) : (after (ops7 (F := Ideal)) (after (ops6 (F := Ideal)) (after (ops5 (F := Ideal)) (after (ops4 (F := Ideal)) (after (ops3 (F := Ideal)) (after (ops2 (F := Ideal)) (after (ops1 (F := Ideal)) (after (ops0 (F := Ideal)) (launchContents m c))))))))) (Proc.devRef .tc main_arg17) = m ((c.tc : Thread nD τ).loc main_arg17) :=
  (StableHlo.after_of_forall_not_mem (b := Proc.devRef .tc main_arg17) _ _ (List.forall_iff_forall_mem.mp (by
      simp only [ops7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide)))).trans (rat7_main_arg17 m c)

theorem rat8_main_v129 (c : Dev nD) : (after (ops7 (F := Ideal)) (after (ops6 (F := Ideal)) (after (ops5 (F := Ideal)) (after (ops4 (F := Ideal)) (after (ops3 (F := Ideal)) (after (ops2 (F := Ideal)) (after (ops1 (F := Ideal)) (after (ops0 (F := Ideal)) (launchContents m c))))))))) (Proc.devRef .tc main_v129) = ReadP.val_main_v129 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) :=
  (loc_main_v129 (after (ops6 (F := Ideal)) (after (ops5 (F := Ideal)) (after (ops4 (F := Ideal)) (after (ops3 (F := Ideal)) (after (ops2 (F := Ideal)) (after (ops1 (F := Ideal)) (after (ops0 (F := Ideal)) (launchContents m c))))))))).trans (by rw [rat7_main_v84 m c, rat7_main_v113 m c, rat7_main_v115 m c, rat7_main_arg15 m c, rat7_main_arg16 m c, rat7_main_arg17 m c]; rfl)

theorem res_main_v129 (c : Dev nD) : after (ops (F := Ideal)) (launchContents m c) (Proc.devRef .tc main_v129) = ReadP.val_main_v129 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [ops_eq, after_append, after_append, after_append, after_append, after_append, after_append, after_append]; exact rat8_main_v129 m c

theorem res_main_arg0 (c : Dev nD) : after (ops (F := Ideal)) (launchContents m c) (Proc.devRef .tc main_arg0) = m ((c.tc : Thread nD τ).loc main_arg0) := by
  rw [ops_eq, after_append, after_append, after_append, after_append, after_append, after_append, after_append]; exact rat8_main_arg0 m c

theorem res_main_arg1 (c : Dev nD) : after (ops (F := Ideal)) (launchContents m c) (Proc.devRef .tc main_arg1) = m ((c.tc : Thread nD τ).loc main_arg1) := by
  rw [ops_eq, after_append, after_append, after_append, after_append, after_append, after_append, after_append]; exact rat8_main_arg1 m c

theorem res_main_arg2 (c : Dev nD) : after (ops (F := Ideal)) (launchContents m c) (Proc.devRef .tc main_arg2) = m ((c.tc : Thread nD τ).loc main_arg2) := by
  rw [ops_eq, after_append, after_append, after_append, after_append, after_append, after_append, after_append]; exact rat8_main_arg2 m c

theorem res_main_arg3 (c : Dev nD) : after (ops (F := Ideal)) (launchContents m c) (Proc.devRef .tc main_arg3) = m ((c.tc : Thread nD τ).loc main_arg3) := by
  rw [ops_eq, after_append, after_append, after_append, after_append, after_append, after_append, after_append]; exact rat8_main_arg3 m c

theorem res_main_arg4 (c : Dev nD) : after (ops (F := Ideal)) (launchContents m c) (Proc.devRef .tc main_arg4) = m ((c.tc : Thread nD τ).loc main_arg4) := by
  rw [ops_eq, after_append, after_append, after_append, after_append, after_append, after_append, after_append]; exact rat8_main_arg4 m c

theorem res_main_arg5 (c : Dev nD) : after (ops (F := Ideal)) (launchContents m c) (Proc.devRef .tc main_arg5) = m ((c.tc : Thread nD τ).loc main_arg5) := by
  rw [ops_eq, after_append, after_append, after_append, after_append, after_append, after_append, after_append]; exact rat8_main_arg5 m c

theorem res_main_arg6 (c : Dev nD) : after (ops (F := Ideal)) (launchContents m c) (Proc.devRef .tc main_arg6) = m ((c.tc : Thread nD τ).loc main_arg6) := by
  rw [ops_eq, after_append, after_append, after_append, after_append, after_append, after_append, after_append]; exact rat8_main_arg6 m c

theorem res_main_arg7 (c : Dev nD) : after (ops (F := Ideal)) (launchContents m c) (Proc.devRef .tc main_arg7) = m ((c.tc : Thread nD τ).loc main_arg7) := by
  rw [ops_eq, after_append, after_append, after_append, after_append, after_append, after_append, after_append]; exact rat8_main_arg7 m c

theorem res_main_arg8 (c : Dev nD) : after (ops (F := Ideal)) (launchContents m c) (Proc.devRef .tc main_arg8) = m ((c.tc : Thread nD τ).loc main_arg8) := by
  rw [ops_eq, after_append, after_append, after_append, after_append, after_append, after_append, after_append]; exact rat8_main_arg8 m c

theorem res_main_arg9 (c : Dev nD) : after (ops (F := Ideal)) (launchContents m c) (Proc.devRef .tc main_arg9) = m ((c.tc : Thread nD τ).loc main_arg9) := by
  rw [ops_eq, after_append, after_append, after_append, after_append, after_append, after_append, after_append]; exact rat8_main_arg9 m c

theorem res_main_arg10 (c : Dev nD) : after (ops (F := Ideal)) (launchContents m c) (Proc.devRef .tc main_arg10) = m ((c.tc : Thread nD τ).loc main_arg10) := by
  rw [ops_eq, after_append, after_append, after_append, after_append, after_append, after_append, after_append]; exact rat8_main_arg10 m c

theorem res_main_arg11 (c : Dev nD) : after (ops (F := Ideal)) (launchContents m c) (Proc.devRef .tc main_arg11) = m ((c.tc : Thread nD τ).loc main_arg11) := by
  rw [ops_eq, after_append, after_append, after_append, after_append, after_append, after_append, after_append]; exact rat8_main_arg11 m c

theorem res_main_arg12 (c : Dev nD) : after (ops (F := Ideal)) (launchContents m c) (Proc.devRef .tc main_arg12) = m ((c.tc : Thread nD τ).loc main_arg12) := by
  rw [ops_eq, after_append, after_append, after_append, after_append, after_append, after_append, after_append]; exact rat8_main_arg12 m c

theorem res_main_arg13 (c : Dev nD) : after (ops (F := Ideal)) (launchContents m c) (Proc.devRef .tc main_arg13) = m ((c.tc : Thread nD τ).loc main_arg13) := by
  rw [ops_eq, after_append, after_append, after_append, after_append, after_append, after_append, after_append]; exact rat8_main_arg13 m c

theorem res_main_arg14 (c : Dev nD) : after (ops (F := Ideal)) (launchContents m c) (Proc.devRef .tc main_arg14) = m ((c.tc : Thread nD τ).loc main_arg14) := by
  rw [ops_eq, after_append, after_append, after_append, after_append, after_append, after_append, after_append]; exact rat8_main_arg14 m c

theorem res_main_arg15 (c : Dev nD) : after (ops (F := Ideal)) (launchContents m c) (Proc.devRef .tc main_arg15) = m ((c.tc : Thread nD τ).loc main_arg15) := by
  rw [ops_eq, after_append, after_append, after_append, after_append, after_append, after_append, after_append]; exact rat8_main_arg15 m c

theorem res_main_arg16 (c : Dev nD) : after (ops (F := Ideal)) (launchContents m c) (Proc.devRef .tc main_arg16) = m ((c.tc : Thread nD τ).loc main_arg16) := by
  rw [ops_eq, after_append, after_append, after_append, after_append, after_append, after_append, after_append]; exact rat8_main_arg16 m c

theorem res_main_arg17 (c : Dev nD) : after (ops (F := Ideal)) (launchContents m c) (Proc.devRef .tc main_arg17) = m ((c.tc : Thread nD τ).loc main_arg17) := by
  rw [ops_eq, after_append, after_append, after_append, after_append, after_append, after_append, after_append]; exact rat8_main_arg17 m c

/-- Every weakly fair execution of the reference program terminates, its result at the read module's function of the arguments, the
    arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v129) = ReadP.val_main_v129 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v129).trans (res_main_v129 m c),
      (h c main_arg0).trans (res_main_arg0 m c),
      (h c main_arg1).trans (res_main_arg1 m c),
      (h c main_arg2).trans (res_main_arg2 m c),
      (h c main_arg3).trans (res_main_arg3 m c),
      (h c main_arg4).trans (res_main_arg4 m c),
      (h c main_arg5).trans (res_main_arg5 m c),
      (h c main_arg6).trans (res_main_arg6 m c),
      (h c main_arg7).trans (res_main_arg7 m c),
      (h c main_arg8).trans (res_main_arg8 m c),
      (h c main_arg9).trans (res_main_arg9 m c),
      (h c main_arg10).trans (res_main_arg10 m c),
      (h c main_arg11).trans (res_main_arg11 m c),
      (h c main_arg12).trans (res_main_arg12 m c),
      (h c main_arg13).trans (res_main_arg13 m c),
      (h c main_arg14).trans (res_main_arg14 m c),
      (h c main_arg15).trans (res_main_arg15 m c),
      (h c main_arg16).trans (res_main_arg16 m c),
      (h c main_arg17).trans (res_main_arg17 m c)⟩)
    (run_seq scopedRefs_eq scopedSems_eq defs main (fun _ => ops) main_eq (fun _ => ops_sub) m ρ)

end Cert.ReferenceIdeal.RRun

end
-- ==== Proof.lean ====
/-
  The certificate of the kernel program against its reference, at the exact instance (floats as extended reals).

  Mathematics. The program's result is a [10000, 512] array: its left half is three graph-convolution layers
  relu(Â (h W) + b) over the graph with self-loops and symmetric normalisation, its right half the sum of four
  "linear, batch-normalise, rectify, linear" layers applied to X = [x | walk_feats] and to hop_m X (m = 1, 2, 3).
  The kernel program builds the dense matrix Â once, by adding each edge's weight dinv[src]·dinv[dst] at (dst, src),
  and multiplies by it with a row-tiled matrix-product kernel (six launches, each 50 row blocks of 200 rows; the same
  kernel computes hop_m X on X zero-padded to 256 columns). The reference gathers the rows of h W at src, scales them
  and sums them by dst. With every edge index in [0, 10000) — the statement's evident-domain precondition, outside
  which a gather clamps and a scatter drops — the two agree on all extended reals: the weights are non-negative, so a
  sum of weights times any extended real distributes, and the sum over columns j of Â[i, j]·P[j, f] regroups into the
  sum over the edges into i. The sub-branch halves are the same expression, batched in the reference and unbatched in
  the kernel program, the padded columns sliced away.

  The pieces: `KRun.krun` (the kernel program's run, every launch and host stretch, ending with the result buffer at
  the last boundary's contents), `KChain.at33_main_v268` (those contents are the function `KVal.kv_main_v268` of the
  arguments, each launch's output being the matrix product of its operands by `KRegion`), the reference's run (`RRun.run`, ending with its result at the read-back function `val_main_v129` of the arguments), `Bridge.result_eq` (the two functions agree), `Bridge.Pre.edges_in_range` (the precondition decoded).
-/
import proofs.«103117_j70961449664567_2_alg».proof.Defs
import proofs.«103117_j70961449664567_2_alg».proof.Proof.Gen.Kernel
import proofs.«103117_j70961449664567_2_alg».proof.Proof.Gen.Kernel.Frame
import proofs.«103117_j70961449664567_2_alg».proof.Proof.Gen.KernelIdeal
import proofs.«103117_j70961449664567_2_alg».proof.Proof.Gen.KernelIdeal.Frame
import proofs.«103117_j70961449664567_2_alg».proof.Proof.Gen.ReferenceIdeal
import proofs.«103117_j70961449664567_2_alg».proof.Proof.Gen.Pre_finite_inputs
import proofs.«103117_j70961449664567_2_alg».proof.Proof.Assemble
import proofs.«103117_j70961449664567_2_alg».proof.Proof.RRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RRun.run m ρ)

/-- Both programs, from memories agreeing on the arguments, end with the same result array. -/
theorem algebraic : Cert.algebraic_KernelIdeal_ReferenceIdeal := by
  intro m ρ m' ρ' hpre hagree
  refine ⟨fun c => Cert.KernelIdeal.KVal.kv_main_v268 (Cert.KernelIdeal.KChain.argsOf m c), ?_, ?_⟩
  · exact (θ_run Cert.KernelIdeal.defs _ _).mono
      (fun r h c => ⟨(h c).1.trans (Cert.KernelIdeal.KChain.at33_main_v268 m ρ c), (h c).2⟩) (Cert.KernelIdeal.KRun.krun m ρ)
  · refine (θ_run Cert.ReferenceIdeal.defs _ _).mono (fun r h c => ⟨(h c).1.trans ?_, (h c).2⟩)
      (Cert.ReferenceIdeal.RRun.run m' ρ')
    have ha := hagree c
    rw [ha.1, ha.2.1, ha.2.2.1, ha.2.2.2.1, ha.2.2.2.2.1, ha.2.2.2.2.2.1,
      ha.2.2.2.2.2.2.1, ha.2.2.2.2.2.2.2.1, ha.2.2.2.2.2.2.2.2.1, ha.2.2.2.2.2.2.2.2.2.1, ha.2.2.2.2.2.2.2.2.2.2.1,
      ha.2.2.2.2.2.2.2.2.2.2.2.1, ha.2.2.2.2.2.2.2.2.2.2.2.2.1, ha.2.2.2.2.2.2.2.2.2.2.2.2.2.1,
      ha.2.2.2.2.2.2.2.2.2.2.2.2.2.2.1, ha.2.2.2.2.2.2.2.2.2.2.2.2.2.2.2.1, ha.2.2.2.2.2.2.2.2.2.2.2.2.2.2.2.2.1,
      ha.2.2.2.2.2.2.2.2.2.2.2.2.2.2.2.2.2]
    exact (Cert.Bridge.result_eq (Cert.KernelIdeal.KChain.argsOf m c)
      (fun j => Cert.Bridge.Pre.edges_in_range m hpre c j)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
